-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v453) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S200000 : Shape := ⟨1, ![200000]⟩
abbrev S256x128 : Shape := ⟨2, ![256, 128]⟩
abbrev S128 : Shape := ⟨1, ![128]⟩
abbrev S128x384 : Shape := ⟨2, ![128, 384]⟩
abbrev S2x384 : Shape := ⟨2, ![2, 384]⟩
abbrev S128x128 : Shape := ⟨2, ![128, 128]⟩
abbrev S128x64 : Shape := ⟨2, ![128, 64]⟩
abbrev S64 : Shape := ⟨1, ![64]⟩
abbrev S64x15 : Shape := ⟨2, ![64, 15]⟩
abbrev S15 : Shape := ⟨1, ![15]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x15 : S_.BroadcastsInDim S64x15 (![] : Fin 0 → Fin S64x15.rank)
  reducesTo_S64x15_S_d0_1 : S64x15.ReducesTo [0, 1] S_
  bcast_S_S15 : S_.BroadcastsInDim S15 (![] : Fin 0 → Fin S15.rank)
  reducesTo_S15_S_d0 : S15.ReducesTo [0] S_

variable [Facts]

def fn_part4 {F : FTy → Type} [FloatOps F] (main_arg18 : FVec F S64 .f32) (main_arg19 : FVec F S64x15 .f32) (main_arg20 : FVec F S15 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x15 .f32 := Host.absf main_arg19
  let main_cst_28 : FVec F S_ .f32 := constant S_ .f32 0x7F800000#32
  let main_v75 : FVec F S64x15 .f32 := broadcastInDim S64x15 ![] bcast_S_S64x15 main_cst_28
  let main_v76 : IVec S64x15 1 := cmpf .olt main_v74 main_v75
  let main_c_29 : IVec S_ 1 := constantI S_ 1 1#1
  let main_v77 : IVec S_ 1 := (fun x v => Host.reduce IntOp.andi x v reducesTo_S64x15_S_d0_1 h_S_) main_v76 main_c_29
  let main_v78 : IVec S_ 1 := andi main_v73 main_v77
  let main_v79 : FVec F S15 .f32 := Host.absf main_arg20
  let main_cst_30 : FVec F S_ .f32 := constant S_ .f32 0x7F800000#32
  let main_v80 : FVec F S15 .f32 := broadcastInDim S15 ![] bcast_S_S15 main_cst_30
  let main_v81 : IVec S15 1 := cmpf .olt main_v79 main_v80
  let main_c_31 : IVec S_ 1 := constantI S_ 1 1#1
  let main_v82 : IVec S_ 1 := (fun x v => Host.reduce IntOp.andi x v reducesTo_S15_S_d0 h_S_) main_v81 main_c_31
  let main_v83 : IVec S_ 1 := andi main_v78 main_v82
  main_v83

def fn_part3 {F : FTy → Type} [FloatOps F] (main_arg15 : FVec F S128x128 .f32) (main_arg16 : FVec F S128 .f32) (main_arg17 : FVec F S128x64 .f32) (main_arg18 : FVec F S64 .f32) (main_arg19 : FVec F S64x15 .f32) (main_arg20 : FVec F S15 .f32) (main_v48 : IVec S_ 1) (main_v49 : FVec F S2x384 .f32) (main_v50 : FVec F S2x384 .f32) : IVec S_ 1 :=
  let main_v51 : IVec S2x384 1 := cmpf .olt main_v49 main_v50
  let main_c_19 : IVec S_ 1 := constantI S_ 1 1#1
  let main_v52 : IVec S_ 1 := (fun x v => Host.reduce IntOp.andi x v reducesTo_S2x384_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg17
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg18 main_arg19 main_arg20 main_v63 main_v67

def fn_part2 {F : FTy → Type} [FloatOps F] (main_arg11 : FVec F S2x384 .f32) (main_arg12 : FVec F S128x384 .f32) (main_arg13 : FVec F S128x384 .f32) (main_arg14 : FVec F S2x384 .f32) (main_arg15 : FVec F S128x128 .f32) (main_arg16 : FVec F S128 .f32) (main_arg17 : FVec F S128x64 .f32) (main_arg18 : FVec F S64 .f32) (main_arg19 : FVec F S64x15 .f32) (main_arg20 : FVec F S15 .f32) (main_v33 : IVec S_ 1) : IVec S_ 1 :=
  let main_v34 : FVec F S2x384 .f32 := Host.absf main_arg11
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S128x384 .f32 := Host.absf main_arg12
  let main_cst_14 : FVec F S_ .f32 := constant S_ .f32 0x7F800000#32
  let main_v40 : FVec F S128x384 .f32 := broadcastInDim S128x384 ![] bcast_S_S128x384 main_cst_14
  let main_v41 : IVec S128x384 1 := cmpf .olt main_v39 main_v40
  let main_c_15 : IVec S_ 1 := constantI S_ 1 1#1
  let main_v42 : IVec S_ 1 := (fun x v => Host.reduce IntOp.andi x v reducesTo_S128x384_S_d0_1 h_S_) main_v41 main_c_15
  let main_v43 : IVec S_ 1 := andi main_v38 main_v42
  let main_v44 : FVec F S128x384 .f32 := Host.absf main_arg13
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S2x384 .f32 := Host.absf main_arg14
  let main_cst_18 : FVec F S_ .f32 := constant S_ .f32 0x7F800000#32
  let main_v50 : FVec F S2x384 .f32 := broadcastInDim S2x384 ![] bcast_S_S2x384 main_cst_18
  fn_part3 (F := F) main_arg15 main_arg16 main_arg17 main_arg18 main_arg19 main_arg20 main_v48 main_v49 main_v50

def fn_part1 {F : FTy → Type} [FloatOps F] (main_arg8 : FVec F S128 .f32) (main_arg9 : FVec F S128x384 .f32) (main_arg10 : FVec F S128x384 .f32) (main_arg11 : FVec F S2x384 .f32) (main_arg12 : FVec F S128x384 .f32) (main_arg13 : FVec F S128x384 .f32) (main_arg14 : FVec F S2x384 .f32) (main_arg15 : FVec F S128x128 .f32) (main_arg16 : FVec F S128 .f32) (main_arg17 : FVec F S128x64 .f32) (main_arg18 : FVec F S64 .f32) (main_arg19 : FVec F S64x15 .f32) (main_arg20 : FVec F S15 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg9
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128x384 .f32 := Host.absf main_arg10
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S100000x10 .f32) (main_arg1 : IVec S200000 32) (main_arg2 : IVec S200000 32) (main_arg3 : IVec S200000 32) (main_arg4 : IVec S200000 32) (main_arg5 : FVec F S256x128 .f32) (main_arg6 : FVec F S128 .f32) (main_arg7 : FVec F S256x128 .f32) (main_arg8 : FVec F S128 .f32) (main_arg9 : FVec F S128x384 .f32) (main_arg10 : FVec F S128x384 .f32) (main_arg11 : FVec F S2x384 .f32) (main_arg12 : FVec F S128x384 .f32) (main_arg13 : FVec F S128x384 .f32) (main_arg14 : FVec F S2x384 .f32) (main_arg15 : FVec F S128x128 .f32) (main_arg16 : FVec F S128 .f32) (main_arg17 : FVec F S128x64 .f32) (main_arg18 : FVec F S64 .f32) (main_arg19 : FVec F S64x15 .f32) (main_arg20 : FVec F S15 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000x10 : Shape := ⟨2, ![100000, 10]⟩
abbrev S200000 : Shape := ⟨1, ![200000]⟩
abbrev S256x128 : Shape := ⟨2, ![256, 128]⟩
abbrev S128 : Shape := ⟨1, ![128]⟩
abbrev S128x384 : Shape := ⟨2, ![128, 384]⟩
abbrev S2x384 : Shape := ⟨2, ![2, 384]⟩
abbrev S128x128 : Shape := ⟨2, ![128, 128]⟩
abbrev S128x64 : Shape := ⟨2, ![128, 64]⟩
abbrev S64 : Shape := ⟨1, ![64]⟩
abbrev S64x15 : Shape := ⟨2, ![64, 15]⟩
abbrev S15 : Shape := ⟨1, ![15]⟩
abbrev S_ : Shape := ⟨0, ![]⟩
abbrev S20000x128 : Shape := ⟨2, ![20000, 128]⟩
abbrev S100000x118 : Shape := ⟨2, ![100000, 118]⟩
abbrev S100000x128 : Shape := ⟨2, ![100000, 128]⟩
abbrev S200000x1 : Shape := ⟨2, ![200000, 1]⟩
abbrev S20000x1 : Shape := ⟨2, ![20000, 1]⟩
abbrev S100000x1 : Shape := ⟨2, ![100000, 1]⟩
abbrev S200000x128 : Shape := ⟨2, ![200000, 128]⟩
abbrev S1x128 : Shape := ⟨2, ![1, 128]⟩
abbrev S8000x128 : Shape := ⟨2, ![8000, 128]⟩
abbrev S1x384 : Shape := ⟨2, ![1, 384]⟩
abbrev S384 : Shape := ⟨1, ![384]⟩
abbrev S2000x128 : Shape := ⟨2, ![2000, 128]⟩
abbrev S2000x1 : Shape := ⟨2, ![2000, 1]⟩
abbrev S2000x384 : Shape := ⟨2, ![2000, 384]⟩
abbrev S1x64 : Shape := ⟨2, ![1, 64]⟩
abbrev S1x15 : Shape := ⟨2, ![1, 15]⟩
abbrev S100000x15 : Shape := ⟨2, ![100000, 15]⟩
abbrev S5000x128 : Shape := ⟨2, ![5000, 128]⟩
abbrev S5000x15 : Shape := ⟨2, ![5000, 15]⟩
abbrev S5000x64 : Shape := ⟨2, ![5000, 64]⟩
abbrev S5000 : Shape := ⟨1, ![5000]⟩
abbrev S5000x1 : Shape := ⟨2, ![5000, 1]⟩

abbrev nBuf : Space → Nat
  | .hbm => 248
  | .vmem => 136
  | .smem => 0
  | _ => 0

abbrev hbmTy0_0 (i : Nat) : BufTy := match i % 128 with
  | 0 => ⟨S100000x10, .f32⟩
  | 1 => ⟨S200000, .i32⟩
  | 2 => ⟨S200000, .i32⟩
  | 3 => ⟨S200000, .i32⟩
  | 4 => ⟨S200000, .i32⟩
  | 5 => ⟨S256x128, .f32⟩
  | 6 => ⟨S128, .f32⟩
  | 7 => ⟨S256x128, .f32⟩
  | 8 => ⟨S128, .f32⟩
  | 9 => ⟨S128x384, .f32⟩
  | 10 => ⟨S128x384, .f32⟩
  | 11 => ⟨S2x384, .f32⟩
  | 12 => ⟨S128x384, .f32⟩
  | 13 => ⟨S128x384, .f32⟩
  | 14 => ⟨S2x384, .f32⟩
  | 15 => ⟨S128x128, .f32⟩
  | 16 => ⟨S128, .f32⟩
  | 17 => ⟨S128x64, .f32⟩
  | 18 => ⟨S64, .f32⟩
  | 19 => ⟨S64x15, .f32⟩
  | 20 => ⟨S15, .f32⟩
  | 21 => ⟨S_, .f32⟩
  | 22 => ⟨S20000x128, .f32⟩
  | 23 => ⟨S_, .f32⟩
  | 24 => ⟨S100000x118, .f32⟩
  | 25 => ⟨S100000x128, .f32⟩
  | 26 => ⟨S128x128, .f32⟩
  | 27 => ⟨S128x128, .f32⟩
  | 28 => ⟨S128x128, .f32⟩
  | 29 => ⟨S128x128, .f32⟩
  | 30 => ⟨S_, .f32⟩
  | 31 => ⟨S200000x1, .f32⟩
  | 32 => ⟨S_, .f32⟩
  | 33 => ⟨S20000x1, .f32⟩
  | 34 => ⟨S200000x1, .i32⟩
  | 35 => ⟨S20000x1, .f32⟩
  | 36 => ⟨S_, .f32⟩
  | 37 => ⟨S20000x1, .f32⟩
  | 38 => ⟨S20000x1, .f32⟩
  | 39 => ⟨S_, .f32⟩
  | 40 => ⟨S20000x1, .f32⟩
  | 41 => ⟨S20000x1, .f32⟩
  | 42 => ⟨S_, .f32⟩
  | 43 => ⟨S100000x1, .f32⟩
  | 44 => ⟨S200000x1, .i32⟩
  | 45 => ⟨S100000x1, .f32⟩
  | 46 => ⟨S_, .f32⟩
  | 47 => ⟨S100000x1, .f32⟩
  | 48 => ⟨S100000x1, .f32⟩
  | 49 => ⟨S_, .f32⟩
  | 50 => ⟨S100000x1, .f32⟩
  | 51 => ⟨S100000x1, .f32⟩
  | 52 => ⟨S20000x128, .bf16⟩
  | 53 => ⟨S100000x128, .bf16⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x128, .bf16⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .bf16⟩
  | 72 => ⟨S1x128, .f32⟩
  | 73 => ⟨S200000x128, .f32⟩
  | 74 => ⟨S_, .f32⟩
  | 75 => ⟨S100000x128, .f32⟩
  | 76 => ⟨S200000x1, .i32⟩
  | 77 => ⟨S100000x128, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x128, .bf16⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x128, .bf16⟩
  | 96 => ⟨S1x128, .f32⟩
  | 97 => ⟨S200000x128, .f32⟩
  | 98 => ⟨S_, .f32⟩
  | 99 => ⟨S20000x128, .f32⟩
  | 100 => ⟨S200000x1, .i32⟩
  | 101 => ⟨S20000x128, .f32⟩
  | 102 => ⟨S1x384, .f32⟩
  | 103 => ⟨S384, .f32⟩
  | 104 => ⟨S1x384, .f32⟩
  | 105 => ⟨S1x384, .f32⟩
  | 106 => ⟨S384, .f32⟩
  | 107 => ⟨S1x384, .f32⟩
  | 108 => ⟨S20000x128, .f32⟩
  | 109 => ⟨S1x384, .f32⟩
  | 110 => ⟨S384, .f32⟩
  | 111 => ⟨S1x384, .f32⟩
  | 112 => ⟨S1x384, .f32⟩
  | 113 => ⟨S384, .f32⟩
  | 114 => ⟨S1x384, .f32⟩
  | 115 => ⟨S100000x128, .f32⟩
  | 116 => ⟨S20000x128, .bf16⟩
  | 117 => ⟨S100000x128, .bf16⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .bf16⟩
  | 127 => ⟨S_, .i32⟩
  | _ => ⟨S100000x10, .f32⟩

abbrev hbmTy0_1 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x128, .bf16⟩
  | 8 => ⟨S1x128, .f32⟩
  | 9 => ⟨S200000x128, .f32⟩
  | 10 => ⟨S_, .f32⟩
  | 11 => ⟨S100000x128, .f32⟩
  | 12 => ⟨S200000x1, .i32⟩
  | 13 => ⟨S100000x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .bf16⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .bf16⟩
  | 32 => ⟨S1x128, .f32⟩
  | 33 => ⟨S200000x128, .f32⟩
  | 34 => ⟨S_, .f32⟩
  | 35 => ⟨S20000x128, .f32⟩
  | 36 => ⟨S200000x1, .i32⟩
  | 37 => ⟨S20000x128, .f32⟩
  | 38 => ⟨S1x384, .f32⟩
  | 39 => ⟨S384, .f32⟩
  | 40 => ⟨S1x384, .f32⟩
  | 41 => ⟨S1x384, .f32⟩
  | 42 => ⟨S384, .f32⟩
  | 43 => ⟨S1x384, .f32⟩
  | 44 => ⟨S20000x128, .f32⟩
  | 45 => ⟨S1x384, .f32⟩
  | 46 => ⟨S384, .f32⟩
  | 47 => ⟨S1x384, .f32⟩
  | 48 => ⟨S1x384, .f32⟩
  | 49 => ⟨S384, .f32⟩
  | 50 => ⟨S1x384, .f32⟩
  | 51 => ⟨S100000x128, .f32⟩
  | 52 => ⟨S20000x128, .bf16⟩
  | 53 => ⟨S100000x128, .bf16⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x128, .bf16⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .bf16⟩
  | 72 => ⟨S1x128, .f32⟩
  | 73 => ⟨S200000x128, .f32⟩
  | 74 => ⟨S_, .f32⟩
  | 75 => ⟨S100000x128, .f32⟩
  | 76 => ⟨S200000x1, .i32⟩
  | 77 => ⟨S100000x128, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x128, .bf16⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x128, .bf16⟩
  | 96 => ⟨S1x128, .f32⟩
  | 97 => ⟨S200000x128, .f32⟩
  | 98 => ⟨S_, .f32⟩
  | 99 => ⟨S20000x128, .f32⟩
  | 100 => ⟨S200000x1, .i32⟩
  | 101 => ⟨S20000x128, .f32⟩
  | 102 => ⟨S1x384, .f32⟩
  | 103 => ⟨S384, .f32⟩
  | 104 => ⟨S1x384, .f32⟩
  | 105 => ⟨S1x384, .f32⟩
  | 106 => ⟨S384, .f32⟩
  | 107 => ⟨S1x384, .f32⟩
  | 108 => ⟨S20000x128, .f32⟩
  | 109 => ⟨S1x384, .f32⟩
  | 110 => ⟨S384, .f32⟩
  | 111 => ⟨S1x384, .f32⟩
  | 112 => ⟨S1x384, .f32⟩
  | 113 => ⟨S384, .f32⟩
  | 114 => ⟨S1x384, .f32⟩
  | 115 => ⟨S100000x128, .f32⟩
  | 116 => ⟨S1x128, .f32⟩
  | 117 => ⟨S1x64, .f32⟩
  | 118 => ⟨S1x15, .f32⟩
  | 119 => ⟨S100000x15, .f32⟩
  | _ => ⟨S100000x10, .f32⟩

abbrev hbmTy (i : Nat) : BufTy := match i / 128 with
  | 0 => hbmTy0_0 i
  | 1 => hbmTy0_1 i
  | _ => ⟨S100000x10, .f32⟩

abbrev vmemTy0_0 (i : Nat) : BufTy := match i % 128 with
  | 0 => ⟨S8000x128, .bf16⟩
  | 1 => ⟨S8000x128, .bf16⟩
  | 2 => ⟨S8000x128, .bf16⟩
  | 3 => ⟨S8000x128, .bf16⟩
  | 4 => ⟨S128x128, .f32⟩
  | 5 => ⟨S128x128, .f32⟩
  | 6 => ⟨S1x128, .f32⟩
  | 7 => ⟨S8000x128, .f32⟩
  | 8 => ⟨S8000x128, .f32⟩
  | 9 => ⟨S8000x128, .bf16⟩
  | 10 => ⟨S8000x128, .bf16⟩
  | 11 => ⟨S8000x128, .bf16⟩
  | 12 => ⟨S8000x128, .bf16⟩
  | 13 => ⟨S128x128, .f32⟩
  | 14 => ⟨S128x128, .f32⟩
  | 15 => ⟨S1x128, .f32⟩
  | 16 => ⟨S8000x128, .f32⟩
  | 17 => ⟨S8000x128, .f32⟩
  | 18 => ⟨S2000x128, .f32⟩
  | 19 => ⟨S2000x128, .f32⟩
  | 20 => ⟨S2000x128, .f32⟩
  | 21 => ⟨S2000x128, .f32⟩
  | 22 => ⟨S2000x1, .f32⟩
  | 23 => ⟨S2000x1, .f32⟩
  | 24 => ⟨S128x384, .f32⟩
  | 25 => ⟨S128x384, .f32⟩
  | 26 => ⟨S1x384, .f32⟩
  | 27 => ⟨S1x384, .f32⟩
  | 28 => ⟨S2000x128, .f32⟩
  | 29 => ⟨S2000x128, .f32⟩
  | 30 => ⟨S2000x128, .f32⟩
  | 31 => ⟨S2000x128, .f32⟩
  | 32 => ⟨S2000x128, .f32⟩
  | 33 => ⟨S2000x128, .f32⟩
  | 34 => ⟨S2000x1, .f32⟩
  | 35 => ⟨S2000x1, .f32⟩
  | 36 => ⟨S128x384, .f32⟩
  | 37 => ⟨S128x384, .f32⟩
  | 38 => ⟨S1x384, .f32⟩
  | 39 => ⟨S1x384, .f32⟩
  | 40 => ⟨S2000x128, .f32⟩
  | 41 => ⟨S2000x128, .f32⟩
  | 42 => ⟨S8000x128, .bf16⟩
  | 43 => ⟨S8000x128, .bf16⟩
  | 44 => ⟨S8000x128, .bf16⟩
  | 45 => ⟨S8000x128, .bf16⟩
  | 46 => ⟨S128x128, .f32⟩
  | 47 => ⟨S128x128, .f32⟩
  | 48 => ⟨S1x128, .f32⟩
  | 49 => ⟨S8000x128, .f32⟩
  | 50 => ⟨S8000x128, .f32⟩
  | 51 => ⟨S8000x128, .bf16⟩
  | 52 => ⟨S8000x128, .bf16⟩
  | 53 => ⟨S8000x128, .bf16⟩
  | 54 => ⟨S8000x128, .bf16⟩
  | 55 => ⟨S128x128, .f32⟩
  | 56 => ⟨S128x128, .f32⟩
  | 57 => ⟨S1x128, .f32⟩
  | 58 => ⟨S8000x128, .f32⟩
  | 59 => ⟨S8000x128, .f32⟩
  | 60 => ⟨S2000x128, .f32⟩
  | 61 => ⟨S2000x128, .f32⟩
  | 62 => ⟨S2000x128, .f32⟩
  | 63 => ⟨S2000x128, .f32⟩
  | 64 => ⟨S2000x1, .f32⟩
  | 65 => ⟨S2000x1, .f32⟩
  | 66 => ⟨S128x384, .f32⟩
  | 67 => ⟨S128x384, .f32⟩
  | 68 => ⟨S1x384, .f32⟩
  | 69 => ⟨S1x384, .f32⟩
  | 70 => ⟨S2000x128, .f32⟩
  | 71 => ⟨S2000x128, .f32⟩
  | 72 => ⟨S2000x128, .f32⟩
  | 73 => ⟨S2000x128, .f32⟩
  | 74 => ⟨S2000x128, .f32⟩
  | 75 => ⟨S2000x128, .f32⟩
  | 76 => ⟨S2000x1, .f32⟩
  | 77 => ⟨S2000x1, .f32⟩
  | 78 => ⟨S128x384, .f32⟩
  | 79 => ⟨S128x384, .f32⟩
  | 80 => ⟨S1x384, .f32⟩
  | 81 => ⟨S1x384, .f32⟩
  | 82 => ⟨S2000x128, .f32⟩
  | 83 => ⟨S2000x128, .f32⟩
  | 84 => ⟨S8000x128, .bf16⟩
  | 85 => ⟨S8000x128, .bf16⟩
  | 86 => ⟨S8000x128, .bf16⟩
  | 87 => ⟨S8000x128, .bf16⟩
  | 88 => ⟨S128x128, .f32⟩
  | 89 => ⟨S128x128, .f32⟩
  | 90 => ⟨S1x128, .f32⟩
  | 91 => ⟨S8000x128, .f32⟩
  | 92 => ⟨S8000x128, .f32⟩
  | 93 => ⟨S8000x128, .bf16⟩
  | 94 => ⟨S8000x128, .bf16⟩
  | 95 => ⟨S8000x128, .bf16⟩
  | 96 => ⟨S8000x128, .bf16⟩
  | 97 => ⟨S128x128, .f32⟩
  | 98 => ⟨S128x128, .f32⟩
  | 99 => ⟨S1x128, .f32⟩
  | 100 => ⟨S8000x128, .f32⟩
  | 101 => ⟨S8000x128, .f32⟩
  | 102 => ⟨S2000x128, .f32⟩
  | 103 => ⟨S2000x128, .f32⟩
  | 104 => ⟨S2000x128, .f32⟩
  | 105 => ⟨S2000x128, .f32⟩
  | 106 => ⟨S2000x1, .f32⟩
  | 107 => ⟨S2000x1, .f32⟩
  | 108 => ⟨S128x384, .f32⟩
  | 109 => ⟨S128x384, .f32⟩
  | 110 => ⟨S1x384, .f32⟩
  | 111 => ⟨S1x384, .f32⟩
  | 112 => ⟨S2000x128, .f32⟩
  | 113 => ⟨S2000x128, .f32⟩
  | 114 => ⟨S2000x128, .f32⟩
  | 115 => ⟨S2000x128, .f32⟩
  | 116 => ⟨S2000x128, .f32⟩
  | 117 => ⟨S2000x128, .f32⟩
  | 118 => ⟨S2000x1, .f32⟩
  | 119 => ⟨S2000x1, .f32⟩
  | 120 => ⟨S128x384, .f32⟩
  | 121 => ⟨S128x384, .f32⟩
  | 122 => ⟨S1x384, .f32⟩
  | 123 => ⟨S1x384, .f32⟩
  | 124 => ⟨S2000x128, .f32⟩
  | 125 => ⟨S2000x128, .f32⟩
  | 126 => ⟨S5000x128, .f32⟩
  | 127 => ⟨S5000x128, .f32⟩
  | _ => ⟨S100000x10, .f32⟩

abbrev vmemTy0_1 (i : Nat) : BufTy := match i % 128 with
  | 0 => ⟨S128x128, .f32⟩
  | 1 => ⟨S1x128, .f32⟩
  | 2 => ⟨S128x64, .f32⟩
  | 3 => ⟨S1x64, .f32⟩
  | 4 => ⟨S64x15, .f32⟩
  | 5 => ⟨S1x15, .f32⟩
  | 6 => ⟨S5000x15, .f32⟩
  | 7 => ⟨S5000x15, .f32⟩
  | _ => ⟨S100000x10, .f32⟩

abbrev vmemTy (i : Nat) : BufTy := match i / 128 with
  | 0 => vmemTy0_0 i
  | 1 => vmemTy0_1 i
  | _ => ⟨S100000x10, .f32⟩

abbrev bufTy : (tb : Table) → Fin (tcTables nBuf tb) → BufTy
  | .hbm, ⟨i, _⟩ => hbmTy i
  | .local _ .vmem, ⟨i, _⟩ => vmemTy i
  | _, _ => ⟨S100000x10, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_3 : Ref sig .tc := ⟨.hbm, 36, rfl⟩
abbrev main_v11 : Ref sig .tc := ⟨.hbm, 37, rfl⟩
abbrev main_v12 : Ref sig .tc := ⟨.hbm, 38, rfl⟩
abbrev main_cst_4 : Ref sig .tc := ⟨.hbm, 39, rfl⟩
abbrev main_v13 : Ref sig .tc := ⟨.hbm, 40, rfl⟩
abbrev main_v14 : Ref sig .tc := ⟨.hbm, 41, rfl⟩
abbrev main_cst_5 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_6 : Ref sig .tc := ⟨.hbm, 46, rfl⟩
abbrev main_v18 : Ref sig .tc := ⟨.hbm, 47, rfl⟩
abbrev main_v19 : Ref sig .tc := ⟨.hbm, 48, rfl⟩
abbrev main_cst_7 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_v24 : Ref sig .tc := ⟨.hbm, 55, rfl⟩
abbrev main_v25 : Ref sig .tc := ⟨.hbm, 56, rfl⟩
abbrev main_c_8 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_9 : Ref sig .tc := ⟨.hbm, 63, rfl⟩
abbrev main_v31 : Ref sig .tc := ⟨.hbm, 64, rfl⟩
abbrev main_v32 : Ref sig .tc := ⟨.hbm, 65, rfl⟩
abbrev main_c_10 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_11 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_12 : Ref sig .tc := ⟨.hbm, 78, rfl⟩
abbrev main_v43 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_14 : Ref sig .tc := ⟨.hbm, 87, rfl⟩
abbrev main_v50 : Ref sig .tc := ⟨.hbm, 88, rfl⟩
abbrev main_v51 : Ref sig .tc := ⟨.hbm, 89, rfl⟩
abbrev main_c_15 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_16 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_c_18 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_19 : Ref sig .tc := ⟨.hbm, 127, rfl⟩
abbrev main_v85 : Ref sig .tc := ⟨.hbm, 128, rfl⟩
abbrev main_v86 : Ref sig .tc := ⟨.hbm, 129, rfl⟩
abbrev main_c_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_c_23 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_27 : Ref sig .tc := ⟨.hbm, 182, rfl⟩
abbrev main_v132 : Ref sig .tc := ⟨.hbm, 183, rfl⟩
abbrev main_v133 : Ref sig .tc := ⟨.hbm, 184, rfl⟩
abbrev main_c_28 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_29 : Ref sig .tc := ⟨.hbm, 191, rfl⟩
abbrev main_v139 : Ref sig .tc := ⟨.hbm, 192, rfl⟩
abbrev main_v140 : Ref sig .tc := ⟨.hbm, 193, rfl⟩
abbrev main_c_30 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_31 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_c_32 : Ref sig .tc := ⟨.hbm, 206, rfl⟩
abbrev main_v151 : Ref sig .tc := ⟨.hbm, 207, rfl⟩
abbrev main_v152 : Ref sig .tc := ⟨.hbm, 208, rfl⟩
abbrev main_c_33 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_c_34 : Ref sig .tc := ⟨.hbm, 215, rfl⟩
abbrev main_v158 : Ref sig .tc := ⟨.hbm, 216, rfl⟩
abbrev main_v159 : Ref sig .tc := ⟨.hbm, 217, rfl⟩
abbrev main_c_35 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_36 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg7_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg2_1 : Ref sig .tc := ⟨.vmem, 77, rfl⟩
abbrev cc7_stg3_0 : Ref sig .tc := ⟨.vmem, 78, rfl⟩
abbrev cc7_stg4_0 : Ref sig .tc := ⟨.vmem, 79, rfl⟩
abbrev cc7_stg5_0 : Ref sig .tc := ⟨.vmem, 80, rfl⟩
abbrev cc7_stg6_0 : Ref sig .tc := ⟨.vmem, 81, rfl⟩
abbrev cc7_stg7_0 : Ref sig .tc := ⟨.vmem, 82, rfl⟩
abbrev cc7_stg7_1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg3_0 : Ref sig .tc := ⟨.vmem, 89, rfl⟩
abbrev cc8_stg4_0 : Ref sig .tc := ⟨.vmem, 90, rfl⟩
abbrev cc8_stg5_0 : Ref sig .tc := ⟨.vmem, 91, rfl⟩
abbrev cc8_stg5_1 : Ref sig .tc := ⟨.vmem, 92, rfl⟩
abbrev cc9_stg0_0 : Ref sig .tc := ⟨.vmem, 93, rfl⟩
abbrev cc9_stg0_1 : Ref sig .tc := ⟨.vmem, 94, rfl⟩
abbrev cc9_stg1_0 : Ref sig .tc := ⟨.vmem, 95, rfl⟩
abbrev cc9_stg1_1 : Ref sig .tc := ⟨.vmem, 96, rfl⟩
abbrev cc9_stg2_0 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg5_0 : Ref sig .tc := ⟨.vmem, 100, rfl⟩
abbrev cc9_stg5_1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg1_1 : Ref sig .tc := ⟨.vmem, 105, rfl⟩
abbrev cc10_stg2_0 : Ref sig .tc := ⟨.vmem, 106, rfl⟩
abbrev cc10_stg2_1 : Ref sig .tc := ⟨.vmem, 107, rfl⟩
abbrev cc10_stg3_0 : Ref sig .tc := ⟨.vmem, 108, rfl⟩
abbrev cc10_stg4_0 : Ref sig .tc := ⟨.vmem, 109, rfl⟩
abbrev cc10_stg5_0 : Ref sig .tc := ⟨.vmem, 110, rfl⟩
abbrev cc10_stg6_0 : Ref sig .tc := ⟨.vmem, 111, rfl⟩
abbrev cc10_stg7_0 : Ref sig .tc := ⟨.vmem, 112, rfl⟩
abbrev cc10_stg7_1 : Ref sig .tc := ⟨.vmem, 113, rfl⟩
abbrev cc11_stg0_0 : Ref sig .tc := ⟨.vmem, 114, rfl⟩
abbrev cc11_stg0_1 : Ref sig .tc := ⟨.vmem, 115, rfl⟩
abbrev cc11_stg1_0 : Ref sig .tc := ⟨.vmem, 116, rfl⟩
abbrev cc11_stg1_1 : Ref sig .tc := ⟨.vmem, 117, rfl⟩
abbrev cc11_stg2_0 : Ref sig .tc := ⟨.vmem, 118, rfl⟩
abbrev cc11_stg2_1 : Ref sig .tc := ⟨.vmem, 119, rfl⟩
abbrev cc11_stg3_0 : Ref sig .tc := ⟨.vmem, 120, rfl⟩
abbrev cc11_stg4_0 : Ref sig .tc := ⟨.vmem, 121, rfl⟩
abbrev cc11_stg5_0 : Ref sig .tc := ⟨.vmem, 122, rfl⟩
abbrev cc11_stg6_0 : Ref sig .tc := ⟨.vmem, 123, rfl⟩
abbrev cc11_stg7_0 : Ref sig .tc := ⟨.vmem, 124, rfl⟩
abbrev cc11_stg7_1 : Ref sig .tc := ⟨.vmem, 125, rfl⟩
abbrev cc12_stg0_0 : Ref sig .tc := ⟨.vmem, 126, rfl⟩
abbrev cc12_stg0_1 : Ref sig .tc := ⟨.vmem, 127, rfl⟩
abbrev cc12_stg1_0 : Ref sig .tc := ⟨.vmem, 128, rfl⟩
abbrev cc12_stg2_0 : Ref sig .tc := ⟨.vmem, 129, rfl⟩
abbrev cc12_stg3_0 : Ref sig .tc := ⟨.vmem, 130, rfl⟩
abbrev cc12_stg4_0 : Ref sig .tc := ⟨.vmem, 131, rfl⟩
abbrev cc12_stg5_0 : Ref sig .tc := ⟨.vmem, 132, rfl⟩
abbrev cc12_stg6_0 : Ref sig .tc := ⟨.vmem, 133, rfl⟩
abbrev cc12_stg7_0 : Ref sig .tc := ⟨.vmem, 134, rfl⟩
abbrev cc12_stg7_1 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem7_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem2_1 : DmaSem sig := 77
abbrev cc7_sem3_0 : DmaSem sig := 78
abbrev cc7_sem4_0 : DmaSem sig := 79
abbrev cc7_sem5_0 : DmaSem sig := 80
abbrev cc7_sem6_0 : DmaSem sig := 81
abbrev cc7_sem7_0 : DmaSem sig := 82
abbrev cc7_sem7_1 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem3_0 : DmaSem sig := 89
abbrev cc8_sem4_0 : DmaSem sig := 90
abbrev cc8_sem5_0 : DmaSem sig := 91
abbrev cc8_sem5_1 : DmaSem sig := 92
abbrev cc9_sem0_0 : DmaSem sig := 93
abbrev cc9_sem0_1 : DmaSem sig := 94
abbrev cc9_sem1_0 : DmaSem sig := 95
abbrev cc9_sem1_1 : DmaSem sig := 96
abbrev cc9_sem2_0 : DmaSem sig := 97
abbrev cc9_sem3_0 : DmaSem sig := 98
abbrev cc9_sem4_0 : DmaSem sig := 99
abbrev cc9_sem5_0 : DmaSem sig := 100
abbrev cc9_sem5_1 : DmaSem sig := 101
abbrev cc10_sem0_0 : DmaSem sig := 102
abbrev cc10_sem0_1 : DmaSem sig := 103
abbrev cc10_sem1_0 : DmaSem sig := 104
abbrev cc10_sem1_1 : DmaSem sig := 105
abbrev cc10_sem2_0 : DmaSem sig := 106
abbrev cc10_sem2_1 : DmaSem sig := 107
abbrev cc10_sem3_0 : DmaSem sig := 108
abbrev cc10_sem4_0 : DmaSem sig := 109
abbrev cc10_sem5_0 : DmaSem sig := 110
abbrev cc10_sem6_0 : DmaSem sig := 111
abbrev cc10_sem7_0 : DmaSem sig := 112
abbrev cc10_sem7_1 : DmaSem sig := 113
abbrev cc11_sem0_0 : DmaSem sig := 114
abbrev cc11_sem0_1 : DmaSem sig := 115
abbrev cc11_sem1_0 : DmaSem sig := 116
abbrev cc11_sem1_1 : DmaSem sig := 117
abbrev cc11_sem2_0 : DmaSem sig := 118
abbrev cc11_sem2_1 : DmaSem sig := 119
abbrev cc11_sem3_0 : DmaSem sig := 120
abbrev cc11_sem4_0 : DmaSem sig := 121
abbrev cc11_sem5_0 : DmaSem sig := 122
abbrev cc11_sem6_0 : DmaSem sig := 123
abbrev cc11_sem7_0 : DmaSem sig := 124
abbrev cc11_sem7_1 : DmaSem sig := 125
abbrev cc12_sem0_0 : DmaSem sig := 126
abbrev cc12_sem0_1 : DmaSem sig := 127
abbrev cc12_sem1_0 : DmaSem sig := 128
abbrev cc12_sem2_0 : DmaSem sig := 129
abbrev cc12_sem3_0 : DmaSem sig := 130
abbrev cc12_sem4_0 : DmaSem sig := 131
abbrev cc12_sem5_0 : DmaSem sig := 132
abbrev cc12_sem6_0 : DmaSem sig := 133
abbrev cc12_sem7_0 : DmaSem sig := 134
abbrev cc12_sem7_1 : DmaSem sig := 135

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x384 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x384 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x128 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S8000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x384 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x384 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x384 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x384 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S2000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x384 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128x384 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x384 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x384 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S2000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S64x15 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x15 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S5000x15 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

class Facts₀ : Prop where
  bcast_S_S20000x128 : S_.BroadcastsInDim S20000x128 (![] : Fin 0 → Fin S20000x128.rank)
  bcast_S_S100000x118 : S_.BroadcastsInDim S100000x118 (![] : Fin 0 → Fin S100000x118.rank)
  concatenates_S100000x10_S100000x118_S100000x128_d1 : Shape.Concatenates [S100000x10, S100000x118] S100000x128 1
  slices_S256x128_S128x128_0_0 : S256x128.Slices ![0, 0] S128x128
  slices_S256x128_S128x128_128_0 : S256x128.Slices ![128, 0] S128x128
  bcast_S_S200000x1 : S_.BroadcastsInDim S200000x1 (![] : Fin 0 → Fin S200000x1.rank)
  bcast_S_S20000x1 : S_.BroadcastsInDim S20000x1 (![] : Fin 0 → Fin S20000x1.rank)
  bcast_S200000_S200000x1_0 : S200000.BroadcastsInDim S200000x1 (![0] : Fin 1 → Fin S200000x1.rank)
  bcast_S_S100000x1 : S_.BroadcastsInDim S100000x1 (![] : Fin 0 → Fin S100000x1.rank)
  bitsLt_bf16_f32 : FTy.bits .bf16 < FTy.bits .f32
  bcast_S_S200000 : S_.BroadcastsInDim S200000 (![] : Fin 0 → Fin S200000.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  slices_S2x384_S1x384_0_0 : S2x384.Slices ![0, 0] S1x384
  shapeCasts_S1x384_S384 : S1x384.ShapeCasts S384
  shapeCasts_S384_S1x384 : S384.ShapeCasts S1x384
  slices_S2x384_S1x384_1_0 : S2x384.Slices ![1, 0] S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  shapeCasts_S64_S1x64 : S64.ShapeCasts S1x64
  shapeCasts_S15_S1x15 : S15.ShapeCasts S1x15
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x15_S64x15_0_0 : ∀ a, (![0, 0] : Fin 2 → Nat) a + S64x15.size a ≤ S64x15.size a
  h_S64x15 : 0 < S64x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S5000x15 : S1x15.Broadcasts S5000x15
  reduces_S5000x15_S5000 : S5000x15.Reduces [1] S5000
  shapeCasts_S5000_S5000x1 : S5000.ShapeCasts S5000x1
  broadcasts_S5000x1_S5000x15 : S5000x1.Broadcasts S5000x15
  inb_S5000x15_S5000x15_0_0 : ∀ a, (![0, 0] : Fin 2 → Nat) a + S5000x15.size a ≤ S5000x15.size a
  h_S5000x15 : 0 < S5000x15.numel
  scatter_S20000x1_S200000x1_S200000x1_1_0_0_1_wf : ScatterDims.WF S20000x1 S200000x1 S200000x1 [1] [0] [0] 1
  scatter_S100000x1_S200000x1_S200000x1_1_0_0_1_wf : ScatterDims.WF S100000x1 S200000x1 S200000x1 [1] [0] [0] 1
  gather_S20000x128_S200000x1_S200000x128_1_0_n_n_0_1_1128_wf : GatherDims.WF S20000x128 S200000x1 S200000x128 [1] [0] [] [0] [] 1 ![1, 128]
  gather_S100000x128_S200000x1_S200000x128_1_0_n_n_0_1_1128_wf : GatherDims.WF S100000x128 S200000x1 S200000x128 [1] [0] [] [0] [] 1 ![1, 128]
  dot_S8000x128_S128x128_S8000x128_1_0_0_1_n_n_wf : DotDims.WF S8000x128 S128x128 S8000x128 [1] [0] [0] [1] [] []
  scatter_S100000x128_S200000x1_S200000x128_1_0_0_1_wf : ScatterDims.WF S100000x128 S200000x1 S200000x128 [1] [0] [0] 1
  scatter_S20000x128_S200000x1_S200000x128_1_0_0_1_wf : ScatterDims.WF S20000x128 S200000x1 S200000x128 [1] [0] [0] 1
  dot_S2000x128_S128x384_S2000x384_1_0_0_1_n_n_wf : DotDims.WF S2000x128 S128x384 S2000x384 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x15_S5000x15_1_0_0_1_n_n_wf : DotDims.WF S5000x64 S64x15 S5000x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .bf16 = 32 ∨ (Rect.block (s := S200000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .bf16 = 32 ∨ (Rect.block (s := S200000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S200000x128.size a
  hwx0_5 : ∀ i : grid0.Coords, EltTy.bits .f32 = 32 ∨ (Rect.block (s := S200000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .bf16 = 32 ∨ (Rect.block (s := S200000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S200000x128.size a
  hwx1_1 : ∀ i : grid1.Coords, EltTy.bits .bf16 = 32 ∨ (Rect.block (s := S200000x128) S8000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S200000x128.size a
  hwx1_5 : ∀ i : grid1.Coords, EltTy.bits .f32 = 32 ∨ (Rect.block (s := S200000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S20000x1.size a
  hwx2_2 : ∀ i : grid2.Coords, EltTy.bits .f32 = 32 ∨ (Rect.block (s := S20000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x384.size a ≤ S1x384.size a
  hwx2_6 : ∀ i : grid2.Coords, EltTy.bits .f32 = 32 ∨ (Rect.block (s := S1x384) S1x384.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x384.size a ≤ S128x384.size a
  hwx3_4 : ∀ i : grid3.Coords, EltTy.bits .f32 = 32 ∨ (Rect.block (s := S128x384) S128x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x384.size a ≤ S1x384.size a
  hwx3_6 : ∀ i : grid3.Coords, EltTy.bits .f32 = 32 ∨ (Rect.block (s := S1x384) S1x384.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .bf16 = 32 ∨ (Rect.block (s := S200000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S200000x128.size a
  hwx4_1 : ∀ i : grid4.Coords, EltTy.bits .bf16 = 32 ∨ (Rect.block (s := S200000x128) S8000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S200000x128.size a
  hwx4_5 : ∀ i : grid4.Coords, EltTy.bits .f32 = 32 ∨ (Rect.block (s := S200000x128) S8000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S200000x128.size a
  hwx5_0 : ∀ i : grid5.Coords, EltTy.bits .bf16 = 32 ∨ (Rect.block (s := S200000x128) S8000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S200000x128.size a
  hwx5_1 : ∀ i : grid5.Coords, EltTy.bits .bf16 = 32 ∨ (Rect.block (s := S200000x128) S8000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x128.size a ≤ S200000x128.size a
  hwx5_5 : ∀ i : grid5.Coords, EltTy.bits .f32 = 32 ∨ (Rect.block (s := S200000x128) S8000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S20000x128.size a
  hwx6_0 : ∀ i : grid6.Coords, EltTy.bits .f32 = 32 ∨ (Rect.block (s := S20000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S20000x128.size a
  hwx6_1 : ∀ i : grid6.Coords, EltTy.bits .f32 = 32 ∨ (Rect.block (s := S20000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S20000x1.size a
  hwx6_2 : ∀ i : grid6.Coords, EltTy.bits .f32 = 32 ∨ (Rect.block (s := S20000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x384.size a ≤ S128x384.size a
  hwx6_3 : ∀ i : grid6.Coords, EltTy.bits .f32 = 32 ∨ (Rect.block (s := S128x384) S128x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x384.size a ≤ S128x384.size a
  hwx6_4 : ∀ i : grid6.Coords, EltTy.bits .f32 = 32 ∨ (Rect.block (s := S128x384) S128x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x384.size a ≤ S1x384.size a
  hwx6_5 : ∀ i : grid6.Coords, EltTy.bits .f32 = 32 ∨ (Rect.block (s := S1x384) S1x384.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x384.size a ≤ S1x384.size a
  hwx6_6 : ∀ i : grid6.Coords, EltTy.bits .f32 = 32 ∨ (Rect.block (s := S1x384) S1x384.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S20000x128.size a
  hwx6_7 : ∀ i : grid6.Coords, EltTy.bits .f32 = 32 ∨ (Rect.block (s := S20000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x384.size a ≤ S128x384.size a
  hwx7_4 : ∀ i : grid7.Coords, EltTy.bits .f32 = 32 ∨ (Rect.block (s := S128x384) S128x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x384.size a ≤ S1x384.size a
  hwx7_6 : ∀ i : grid7.Coords, EltTy.bits .f32 = 32 ∨ (Rect.block (s := S1x384) S1x384.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S100000x128.size a
  hwx7_7 : ∀ i : grid7.Coords, EltTy.bits .f32 = 32 ∨ (Rect.block (s := S100000x128) S2000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x128.size a ≤ S200000x128.size a
  hwx8_0 : ∀ i : grid8.Coords, EltTy.bits .bf16 = 32 ∨ (Rect.block (s := S200000x128) S8000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x128.size a ≤ S200000x128.size a
  hwx8_1 : ∀ i : grid8.Coords, EltTy.bits .bf16 = 32 ∨ (Rect.block (s := S200000x128) S8000x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8000x128.size a ≤ S200000x128.size a
  hwx8_5 : ∀ i : grid8.Coords, EltTy.bits .f32 = 32 ∨ (Rect.block (s := S200000x128) S8000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x128.size a ≤ S200000x128.size a
  hwx9_0 : ∀ i : grid9.Coords, EltTy.bits .bf16 = 32 ∨ (Rect.block (s := S200000x128) S8000x128.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x128.size a ≤ S200000x128.size a
  hwx9_1 : ∀ i : grid9.Coords, EltTy.bits .bf16 = 32 ∨ (Rect.block (s := S200000x128) S8000x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S8000x128.size a ≤ S200000x128.size a
  hwx9_5 : ∀ i : grid9.Coords, EltTy.bits .f32 = 32 ∨ (Rect.block (s := S200000x128) S8000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S20000x128.size a
  hwx10_0 : ∀ i : grid10.Coords, EltTy.bits .f32 = 32 ∨ (Rect.block (s := S20000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S20000x128.size a
  hwx10_1 : ∀ i : grid10.Coords, EltTy.bits .f32 = 32 ∨ (Rect.block (s := S20000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x1.size a ≤ S20000x1.size a
  hwx10_2 : ∀ i : grid10.Coords, EltTy.bits .f32 = 32 ∨ (Rect.block (s := S20000x1) S2000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x384.size a ≤ S128x384.size a
  hwx10_3 : ∀ i : grid10.Coords, EltTy.bits .f32 = 32 ∨ (Rect.block (s := S128x384) S128x384.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x384.size a ≤ S128x384.size a
  hwx10_4 : ∀ i : grid10.Coords, EltTy.bits .f32 = 32 ∨ (Rect.block (s := S128x384) S128x384.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x384.size a ≤ S1x384.size a
  hwx10_5 : ∀ i : grid10.Coords, EltTy.bits .f32 = 32 ∨ (Rect.block (s := S1x384) S1x384.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x384.size a ≤ S1x384.size a
  hwx10_6 : ∀ i : grid10.Coords, EltTy.bits .f32 = 32 ∨ (Rect.block (s := S1x384) S1x384.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S2000x128.size a ≤ S20000x128.size a
  hwx10_7 : ∀ i : grid10.Coords, EltTy.bits .f32 = 32 ∨ (Rect.block (s := S20000x128) S2000x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S100000x128.size a
  hwx11_0 : ∀ i : grid11.Coords, EltTy.bits .f32 = 32 ∨ (Rect.block (s := S100000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S100000x128.size a
  hwx11_1 : ∀ i : grid11.Coords, EltTy.bits .f32 = 32 ∨ (Rect.block (s := S100000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x1.size a ≤ S100000x1.size a
  hwx11_2 : ∀ i : grid11.Coords, EltTy.bits .f32 = 32 ∨ (Rect.block (s := S100000x1) S2000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x384.size a ≤ S128x384.size a
  hwx11_3 : ∀ i : grid11.Coords, EltTy.bits .f32 = 32 ∨ (Rect.block (s := S128x384) S128x384.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128x384.size a ≤ S128x384.size a
  hwx11_4 : ∀ i : grid11.Coords, EltTy.bits .f32 = 32 ∨ (Rect.block (s := S128x384) S128x384.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x384.size a ≤ S1x384.size a
  hwx11_5 : ∀ i : grid11.Coords, EltTy.bits .f32 = 32 ∨ (Rect.block (s := S1x384) S1x384.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x384.size a ≤ S1x384.size a
  hwx11_6 : ∀ i : grid11.Coords, EltTy.bits .f32 = 32 ∨ (Rect.block (s := S1x384) S1x384.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S2000x128.size a ≤ S100000x128.size a
  hwx11_7 : ∀ i : grid11.Coords, EltTy.bits .f32 = 32 ∨ (Rect.block (s := S100000x128) S2000x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x64.size a ≤ S128x64.size a
  hwx12_3 : ∀ i : grid12.Coords, EltTy.bits .f32 = 32 ∨ (Rect.block (s := S128x64) S128x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S64x15.size a ≤ S64x15.size a
  hwx12_5 : ∀ i : grid12.Coords, EltTy.bits .f32 = 32 ∨ (Rect.block (s := S64x15) S64x15.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x15.size a ≤ S1x15.size a
  hwx12_6 : ∀ i : grid12.Coords, EltTy.bits .f32 = 32 ∨ (Rect.block (s := S1x15) S1x15.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x15.size a ≤ S100000x15.size a
  hwx12_7 : ∀ i : grid12.Coords, EltTy.bits .f32 = 32 ∨ (Rect.block (s := S100000x15) S5000x15.size (cc12_transform_7 i) (hinb12_7 i)).WholeWords (EltTy.packing .f32)

variable [Facts₀]

def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def scatter_S100000x1_S200000x1_S200000x1_1_0_0_1 : ScatterDims S100000x1 S200000x1 S200000x1 where
  updateWindowDims := [1]
  insertedWindowDims := [0]
  scatterDimsToOperandDims := [0]
  indexVectorDim := 1
  wf := scatter_S100000x1_S200000x1_S200000x1_1_0_0_1_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x15_S5000x15_1_0_0_1_n_n : DotDims S5000x64 S64x15 S5000x15 where
  lhsContracting := [1]
  rhsContracting := [0]
  lhsNonContracting := [0]
  rhsNonContracting := [1]
  lhsBatch := []
  rhsBatch := []
  wf := dot_S5000x64_S64x15_S5000x15_1_0_0_1_n_n_wf

abbrev win0_0 : Pipeline.Window sig grid0 :=
  Pipeline.Window.ofSpec (Memref.whole main_v30) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S1x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S1x384.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v75) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v84) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v103) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v112) S8000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v115) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v68) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S128x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg10) S128x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v118) S1x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v121) S1x384.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v122) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v96) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v21) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg13) S128x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v125) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v128) S1x384.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v129) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v138) S8000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v145) S8000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v3) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v4) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v147) S8000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v157) S8000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v164) S8000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v5) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v6) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v165) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v166) S8000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v169) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v122) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v14) S2000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S128x384.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg10) S128x384.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v172) S1x384.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v175) S1x384.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v176) S2000x128.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v150) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v129) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v21) S2000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg12) S128x384.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg13) S128x384.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v179) S1x384.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v182) S1x384.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v183) S2000x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v183) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg15) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v184) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg17) S128x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v185) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg19) S64x15.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v186) S1x15.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v187) S5000x15.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S100000x10 : Shape := ⟨2, ![100000, 10]⟩
abbrev S200000 : Shape := ⟨1, ![200000]⟩
abbrev S256x128 : Shape := ⟨2, ![256, 128]⟩
abbrev S128 : Shape := ⟨1, ![128]⟩
abbrev S128x384 : Shape := ⟨2, ![128, 384]⟩
abbrev S2x384 : Shape := ⟨2, ![2, 384]⟩
abbrev S128x128 : Shape := ⟨2, ![128, 128]⟩
abbrev S128x64 : Shape := ⟨2, ![128, 64]⟩
abbrev S64 : Shape := ⟨1, ![64]⟩
abbrev S64x15 : Shape := ⟨2, ![64, 15]⟩
abbrev S15 : Shape := ⟨1, ![15]⟩
abbrev S_ : Shape := ⟨0, ![]⟩
abbrev S20000x128 : Shape := ⟨2, ![20000, 128]⟩
abbrev S100000x118 : Shape := ⟨2, ![100000, 118]⟩
abbrev S100000x128 : Shape := ⟨2, ![100000, 128]⟩
abbrev S200000x1 : Shape := ⟨2, ![200000, 1]⟩
abbrev S200000x128 : Shape := ⟨2, ![200000, 128]⟩
abbrev S200000x256 : Shape := ⟨2, ![200000, 256]⟩
abbrev S1x128 : Shape := ⟨2, ![1, 128]⟩
abbrev S100000x1 : Shape := ⟨2, ![100000, 1]⟩
abbrev S20000x1 : Shape := ⟨2, ![20000, 1]⟩
abbrev S20000x384 : Shape := ⟨2, ![20000, 384]⟩
abbrev S1x384 : Shape := ⟨2, ![1, 384]⟩
abbrev S384 : Shape := ⟨1, ![384]⟩
abbrev S100000x384 : Shape := ⟨2, ![100000, 384]⟩
abbrev S100000x64 : Shape := ⟨2, ![100000, 64]⟩
abbrev S1x64 : Shape := ⟨2, ![1, 64]⟩
abbrev S100000x15 : Shape := ⟨2, ![100000, 15]⟩
abbrev S1x15 : Shape := ⟨2, ![1, 15]⟩
abbrev S100000 : Shape := ⟨1, ![100000]⟩

abbrev nBuf : Space → Nat
  | .hbm => 574
  | .vmem => 0
  | .smem => 0
  | _ => 0

abbrev hbmTy0_0 (i : Nat) : BufTy := match i % 128 with
  | 0 => ⟨S100000x10, .f32⟩
  | 1 => ⟨S200000, .i32⟩
  | 2 => ⟨S200000, .i32⟩
  | 3 => ⟨S200000, .i32⟩
  | 4 => ⟨S200000, .i32⟩
  | 5 => ⟨S256x128, .f32⟩
  | 6 => ⟨S128, .f32⟩
  | 7 => ⟨S256x128, .f32⟩
  | 8 => ⟨S128, .f32⟩
  | 9 => ⟨S128x384, .f32⟩
  | 10 => ⟨S128x384, .f32⟩
  | 11 => ⟨S2x384, .f32⟩
  | 12 => ⟨S128x384, .f32⟩
  | 13 => ⟨S128x384, .f32⟩
  | 14 => ⟨S2x384, .f32⟩
  | 15 => ⟨S128x128, .f32⟩
  | 16 => ⟨S128, .f32⟩
  | 17 => ⟨S128x64, .f32⟩
  | 18 => ⟨S64, .f32⟩
  | 19 => ⟨S64x15, .f32⟩
  | 20 => ⟨S15, .f32⟩
  | 21 => ⟨S_, .f32⟩
  | 22 => ⟨S20000x128, .f32⟩
  | 23 => ⟨S_, .f32⟩
  | 24 => ⟨S100000x118, .f32⟩
  | 25 => ⟨S100000x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S200000x256, .f32⟩
  | 45 => ⟨S200000x128, .f32⟩
  | 46 => ⟨S1x128, .f32⟩
  | 47 => ⟨S200000x128, .f32⟩
  | 48 => ⟨S200000x128, .f32⟩
  | 49 => ⟨S_, .f32⟩
  | 50 => ⟨S200000x128, .f32⟩
  | 51 => ⟨S200000x128, .f32⟩
  | 52 => ⟨S_, .f32⟩
  | 53 => ⟨S100000x128, .f32⟩
  | 54 => ⟨S200000x1, .i32⟩
  | 55 => ⟨S100000x128, .f32⟩
  | 56 => ⟨S_, .f32⟩
  | 57 => ⟨S200000x1, .f32⟩
  | 58 => ⟨S_, .f32⟩
  | 59 => ⟨S100000x1, .f32⟩
  | 60 => ⟨S200000x1, .i32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x128, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x128, .f32⟩
  | 85 => ⟨S200000x256, .f32⟩
  | 86 => ⟨S200000x128, .f32⟩
  | 87 => ⟨S1x128, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S_, .f32⟩
  | 94 => ⟨S20000x128, .f32⟩
  | 95 => ⟨S200000x1, .i32⟩
  | 96 => ⟨S20000x128, .f32⟩
  | 97 => ⟨S_, .f32⟩
  | 98 => ⟨S200000x1, .f32⟩
  | 99 => ⟨S_, .f32⟩
  | 100 => ⟨S20000x1, .f32⟩
  | 101 => ⟨S200000x1, .i32⟩
  | 102 => ⟨S20000x1, .f32⟩
  | 103 => ⟨S_, .f32⟩
  | 104 => ⟨S20000x1, .f32⟩
  | 105 => ⟨S20000x1, .f32⟩
  | 106 => ⟨S20000x128, .f32⟩
  | 107 => ⟨S20000x128, .f32⟩
  | 108 => ⟨S20000x384, .f32⟩
  | 109 => ⟨S1x384, .f32⟩
  | 110 => ⟨S384, .f32⟩
  | 111 => ⟨S1x384, .f32⟩
  | 112 => ⟨S20000x384, .f32⟩
  | 113 => ⟨S20000x384, .f32⟩
  | 114 => ⟨S20000x384, .f32⟩
  | 115 => ⟨S1x384, .f32⟩
  | 116 => ⟨S384, .f32⟩
  | 117 => ⟨S1x384, .f32⟩
  | 118 => ⟨S20000x384, .f32⟩
  | 119 => ⟨S20000x384, .f32⟩
  | 120 => ⟨S20000x128, .f32⟩
  | 121 => ⟨S20000x128, .f32⟩
  | 122 => ⟨S20000x128, .f32⟩
  | 123 => ⟨S20000x128, .f32⟩
  | 124 => ⟨S20000x128, .f32⟩
  | 125 => ⟨S20000x128, .f32⟩
  | 126 => ⟨S20000x128, .f32⟩
  | 127 => ⟨S20000x128, .f32⟩
  | _ => ⟨S100000x10, .f32⟩

abbrev hbmTy0_1 (i : Nat) : BufTy := match i % 128 with
  | 0 => ⟨S20000x128, .f32⟩
  | 1 => ⟨S_, .f32⟩
  | 2 => ⟨S20000x128, .f32⟩
  | 3 => ⟨S20000x128, .f32⟩
  | 4 => ⟨S_, .f32⟩
  | 5 => ⟨S20000x128, .f32⟩
  | 6 => ⟨S20000x128, .f32⟩
  | 7 => ⟨S20000x128, .f32⟩
  | 8 => ⟨S20000x128, .f32⟩
  | 9 => ⟨S20000x128, .f32⟩
  | 10 => ⟨S_, .f32⟩
  | 11 => ⟨S20000x128, .f32⟩
  | 12 => ⟨S20000x128, .f32⟩
  | 13 => ⟨S_, .f32⟩
  | 14 => ⟨S20000x128, .f32⟩
  | 15 => ⟨S20000x128, .f32⟩
  | 16 => ⟨S20000x128, .f32⟩
  | 17 => ⟨S20000x128, .f32⟩
  | 18 => ⟨S20000x128, .f32⟩
  | 19 => ⟨S20000x128, .f32⟩
  | 20 => ⟨S_, .f32⟩
  | 21 => ⟨S20000x128, .f32⟩
  | 22 => ⟨S20000x128, .f32⟩
  | 23 => ⟨S20000x128, .f32⟩
  | 24 => ⟨S20000x128, .f32⟩
  | 25 => ⟨S100000x384, .f32⟩
  | 26 => ⟨S1x384, .f32⟩
  | 27 => ⟨S384, .f32⟩
  | 28 => ⟨S1x384, .f32⟩
  | 29 => ⟨S100000x384, .f32⟩
  | 30 => ⟨S100000x384, .f32⟩
  | 31 => ⟨S100000x384, .f32⟩
  | 32 => ⟨S1x384, .f32⟩
  | 33 => ⟨S384, .f32⟩
  | 34 => ⟨S1x384, .f32⟩
  | 35 => ⟨S100000x384, .f32⟩
  | 36 => ⟨S100000x384, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x128, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x128, .f32⟩
  | 88 => ⟨S200000x256, .f32⟩
  | 89 => ⟨S200000x128, .f32⟩
  | 90 => ⟨S1x128, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S_, .f32⟩
  | 97 => ⟨S100000x128, .f32⟩
  | 98 => ⟨S200000x1, .i32⟩
  | 99 => ⟨S100000x128, .f32⟩
  | 100 => ⟨S_, .f32⟩
  | 101 => ⟨S200000x1, .f32⟩
  | 102 => ⟨S_, .f32⟩
  | 103 => ⟨S100000x1, .f32⟩
  | 104 => ⟨S200000x1, .i32⟩
  | 105 => ⟨S100000x1, .f32⟩
  | 106 => ⟨S_, .f32⟩
  | 107 => ⟨S100000x1, .f32⟩
  | 108 => ⟨S100000x1, .f32⟩
  | 109 => ⟨S100000x128, .f32⟩
  | 110 => ⟨S100000x128, .f32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x128, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x10, .f32⟩

abbrev hbmTy0_2 (i : Nat) : BufTy := match i % 128 with
  | 0 => ⟨S200000x128, .f32⟩
  | 1 => ⟨S200000x256, .f32⟩
  | 2 => ⟨S200000x128, .f32⟩
  | 3 => ⟨S1x128, .f32⟩
  | 4 => ⟨S200000x128, .f32⟩
  | 5 => ⟨S200000x128, .f32⟩
  | 6 => ⟨S_, .f32⟩
  | 7 => ⟨S200000x128, .f32⟩
  | 8 => ⟨S200000x128, .f32⟩
  | 9 => ⟨S_, .f32⟩
  | 10 => ⟨S20000x128, .f32⟩
  | 11 => ⟨S200000x1, .i32⟩
  | 12 => ⟨S20000x128, .f32⟩
  | 13 => ⟨S_, .f32⟩
  | 14 => ⟨S200000x1, .f32⟩
  | 15 => ⟨S_, .f32⟩
  | 16 => ⟨S20000x1, .f32⟩
  | 17 => ⟨S200000x1, .i32⟩
  | 18 => ⟨S20000x1, .f32⟩
  | 19 => ⟨S_, .f32⟩
  | 20 => ⟨S20000x1, .f32⟩
  | 21 => ⟨S20000x1, .f32⟩
  | 22 => ⟨S20000x128, .f32⟩
  | 23 => ⟨S20000x128, .f32⟩
  | 24 => ⟨S20000x384, .f32⟩
  | 25 => ⟨S1x384, .f32⟩
  | 26 => ⟨S384, .f32⟩
  | 27 => ⟨S1x384, .f32⟩
  | 28 => ⟨S20000x384, .f32⟩
  | 29 => ⟨S20000x384, .f32⟩
  | 30 => ⟨S20000x384, .f32⟩
  | 31 => ⟨S1x384, .f32⟩
  | 32 => ⟨S384, .f32⟩
  | 33 => ⟨S1x384, .f32⟩
  | 34 => ⟨S20000x384, .f32⟩
  | 35 => ⟨S20000x384, .f32⟩
  | 36 => ⟨S20000x128, .f32⟩
  | 37 => ⟨S20000x128, .f32⟩
  | 38 => ⟨S20000x128, .f32⟩
  | 39 => ⟨S20000x128, .f32⟩
  | 40 => ⟨S20000x128, .f32⟩
  | 41 => ⟨S20000x128, .f32⟩
  | 42 => ⟨S20000x128, .f32⟩
  | 43 => ⟨S20000x128, .f32⟩
  | 44 => ⟨S20000x128, .f32⟩
  | 45 => ⟨S_, .f32⟩
  | 46 => ⟨S20000x128, .f32⟩
  | 47 => ⟨S20000x128, .f32⟩
  | 48 => ⟨S_, .f32⟩
  | 49 => ⟨S20000x128, .f32⟩
  | 50 => ⟨S20000x128, .f32⟩
  | 51 => ⟨S20000x128, .f32⟩
  | 52 => ⟨S20000x128, .f32⟩
  | 53 => ⟨S20000x128, .f32⟩
  | 54 => ⟨S_, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S20000x128, .f32⟩
  | 61 => ⟨S20000x128, .f32⟩
  | 62 => ⟨S20000x128, .f32⟩
  | 63 => ⟨S20000x128, .f32⟩
  | 64 => ⟨S_, .f32⟩
  | 65 => ⟨S20000x128, .f32⟩
  | 66 => ⟨S20000x128, .f32⟩
  | 67 => ⟨S20000x128, .f32⟩
  | 68 => ⟨S20000x128, .f32⟩
  | 69 => ⟨S100000x384, .f32⟩
  | 70 => ⟨S1x384, .f32⟩
  | 71 => ⟨S384, .f32⟩
  | 72 => ⟨S1x384, .f32⟩
  | 73 => ⟨S100000x384, .f32⟩
  | 74 => ⟨S100000x384, .f32⟩
  | 75 => ⟨S100000x384, .f32⟩
  | 76 => ⟨S1x384, .f32⟩
  | 77 => ⟨S384, .f32⟩
  | 78 => ⟨S1x384, .f32⟩
  | 79 => ⟨S100000x384, .f32⟩
  | 80 => ⟨S100000x384, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x128, .f32⟩
  | 123 => ⟨S_, .i32⟩
  | 124 => ⟨S200000, .i32⟩
  | 125 => ⟨S200000, .i1⟩
  | 126 => ⟨S_, .i32⟩
  | 127 => ⟨S200000, .i32⟩
  | _ => ⟨S100000x10, .f32⟩

abbrev hbmTy0_3 (i : Nat) : BufTy := match i % 128 with
  | 0 => ⟨S200000, .i32⟩
  | 1 => ⟨S200000, .i32⟩
  | 2 => ⟨S200000x1, .i32⟩
  | 3 => ⟨S200000x128, .f32⟩
  | 4 => ⟨S200000x256, .f32⟩
  | 5 => ⟨S200000x128, .f32⟩
  | 6 => ⟨S1x128, .f32⟩
  | 7 => ⟨S200000x128, .f32⟩
  | 8 => ⟨S200000x128, .f32⟩
  | 9 => ⟨S_, .f32⟩
  | 10 => ⟨S200000x128, .f32⟩
  | 11 => ⟨S200000x128, .f32⟩
  | 12 => ⟨S_, .f32⟩
  | 13 => ⟨S100000x128, .f32⟩
  | 14 => ⟨S200000x1, .i32⟩
  | 15 => ⟨S100000x128, .f32⟩
  | 16 => ⟨S_, .f32⟩
  | 17 => ⟨S200000x1, .f32⟩
  | 18 => ⟨S_, .f32⟩
  | 19 => ⟨S100000x1, .f32⟩
  | 20 => ⟨S200000x1, .i32⟩
  | 21 => ⟨S100000x1, .f32⟩
  | 22 => ⟨S_, .f32⟩
  | 23 => ⟨S100000x1, .f32⟩
  | 24 => ⟨S100000x1, .f32⟩
  | 25 => ⟨S100000x128, .f32⟩
  | 26 => ⟨S100000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S200000x256, .f32⟩
  | 46 => ⟨S200000x128, .f32⟩
  | 47 => ⟨S1x128, .f32⟩
  | 48 => ⟨S200000x128, .f32⟩
  | 49 => ⟨S200000x128, .f32⟩
  | 50 => ⟨S_, .f32⟩
  | 51 => ⟨S200000x128, .f32⟩
  | 52 => ⟨S200000x128, .f32⟩
  | 53 => ⟨S_, .f32⟩
  | 54 => ⟨S20000x128, .f32⟩
  | 55 => ⟨S200000x1, .i32⟩
  | 56 => ⟨S20000x128, .f32⟩
  | 57 => ⟨S_, .f32⟩
  | 58 => ⟨S200000x1, .f32⟩
  | 59 => ⟨S_, .f32⟩
  | 60 => ⟨S20000x1, .f32⟩
  | 61 => ⟨S200000x1, .i32⟩
  | 62 => ⟨S20000x1, .f32⟩
  | 63 => ⟨S_, .f32⟩
  | 64 => ⟨S20000x1, .f32⟩
  | 65 => ⟨S20000x1, .f32⟩
  | 66 => ⟨S20000x128, .f32⟩
  | 67 => ⟨S20000x128, .f32⟩
  | 68 => ⟨S20000x384, .f32⟩
  | 69 => ⟨S1x384, .f32⟩
  | 70 => ⟨S384, .f32⟩
  | 71 => ⟨S1x384, .f32⟩
  | 72 => ⟨S20000x384, .f32⟩
  | 73 => ⟨S20000x384, .f32⟩
  | 74 => ⟨S20000x384, .f32⟩
  | 75 => ⟨S1x384, .f32⟩
  | 76 => ⟨S384, .f32⟩
  | 77 => ⟨S1x384, .f32⟩
  | 78 => ⟨S20000x384, .f32⟩
  | 79 => ⟨S20000x384, .f32⟩
  | 80 => ⟨S20000x128, .f32⟩
  | 81 => ⟨S20000x128, .f32⟩
  | 82 => ⟨S20000x128, .f32⟩
  | 83 => ⟨S20000x128, .f32⟩
  | 84 => ⟨S20000x128, .f32⟩
  | 85 => ⟨S20000x128, .f32⟩
  | 86 => ⟨S20000x128, .f32⟩
  | 87 => ⟨S20000x128, .f32⟩
  | 88 => ⟨S20000x128, .f32⟩
  | 89 => ⟨S_, .f32⟩
  | 90 => ⟨S20000x128, .f32⟩
  | 91 => ⟨S20000x128, .f32⟩
  | 92 => ⟨S_, .f32⟩
  | 93 => ⟨S20000x128, .f32⟩
  | 94 => ⟨S20000x128, .f32⟩
  | 95 => ⟨S20000x128, .f32⟩
  | 96 => ⟨S20000x128, .f32⟩
  | 97 => ⟨S20000x128, .f32⟩
  | 98 => ⟨S_, .f32⟩
  | 99 => ⟨S20000x128, .f32⟩
  | 100 => ⟨S20000x128, .f32⟩
  | 101 => ⟨S_, .f32⟩
  | 102 => ⟨S20000x128, .f32⟩
  | 103 => ⟨S20000x128, .f32⟩
  | 104 => ⟨S20000x128, .f32⟩
  | 105 => ⟨S20000x128, .f32⟩
  | 106 => ⟨S20000x128, .f32⟩
  | 107 => ⟨S20000x128, .f32⟩
  | 108 => ⟨S_, .f32⟩
  | 109 => ⟨S20000x128, .f32⟩
  | 110 => ⟨S20000x128, .f32⟩
  | 111 => ⟨S20000x128, .f32⟩
  | 112 => ⟨S20000x128, .f32⟩
  | 113 => ⟨S100000x384, .f32⟩
  | 114 => ⟨S1x384, .f32⟩
  | 115 => ⟨S384, .f32⟩
  | 116 => ⟨S1x384, .f32⟩
  | 117 => ⟨S100000x384, .f32⟩
  | 118 => ⟨S100000x384, .f32⟩
  | 119 => ⟨S100000x384, .f32⟩
  | 120 => ⟨S1x384, .f32⟩
  | 121 => ⟨S384, .f32⟩
  | 122 => ⟨S1x384, .f32⟩
  | 123 => ⟨S100000x384, .f32⟩
  | 124 => ⟨S100000x384, .f32⟩
  | 125 => ⟨S100000x128, .f32⟩
  | 126 => ⟨S100000x128, .f32⟩
  | 127 => ⟨S100000x128, .f32⟩
  | _ => ⟨S100000x10, .f32⟩

abbrev hbmTy0_4 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x15, .f32⟩
  | 45 => ⟨S1x15, .f32⟩
  | 46 => ⟨S100000x15, .f32⟩
  | 47 => ⟨S100000x15, .f32⟩
  | 48 => ⟨S_, .f32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x15, .f32⟩
  | 55 => ⟨S100000x15, .f32⟩
  | 56 => ⟨S100000x15, .f32⟩
  | 57 => ⟨S_, .f32⟩
  | 58 => ⟨S100000, .f32⟩
  | 59 => ⟨S100000x1, .f32⟩
  | 60 => ⟨S100000x15, .f32⟩
  | 61 => ⟨S100000x15, .f32⟩
  | _ => ⟨S100000x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call0_cst : Ref sig .tc := ⟨.hbm, 49, rfl⟩
abbrev main_call0_v0 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_10 : Ref sig .tc := ⟨.hbm, 76, rfl⟩
abbrev main_v41 : Ref sig .tc := ⟨.hbm, 77, rfl⟩
abbrev main_v42 : Ref sig .tc := ⟨.hbm, 78, rfl⟩
abbrev main_c_11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call1_cst : Ref sig .tc := ⟨.hbm, 90, rfl⟩
abbrev main_call1_v0 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_cst_14 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_15 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_16 : Ref sig .tc := ⟨.hbm, 129, rfl⟩
abbrev main_v86 : Ref sig .tc := ⟨.hbm, 130, rfl⟩
abbrev main_v87 : Ref sig .tc := ⟨.hbm, 131, rfl⟩
abbrev main_cst_17 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_18 : Ref sig .tc := ⟨.hbm, 138, rfl⟩
abbrev main_v93 : Ref sig .tc := ⟨.hbm, 139, rfl⟩
abbrev main_v94 : Ref sig .tc := ⟨.hbm, 140, rfl⟩
abbrev main_cst_19 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_20 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_21 : Ref sig .tc := ⟨.hbm, 174, rfl⟩
abbrev main_v126 : Ref sig .tc := ⟨.hbm, 175, rfl⟩
abbrev main_v127 : Ref sig .tc := ⟨.hbm, 176, rfl⟩
abbrev main_cst_22 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_23 : Ref sig .tc := ⟨.hbm, 183, rfl⟩
abbrev main_v133 : Ref sig .tc := ⟨.hbm, 184, rfl⟩
abbrev main_v134 : Ref sig .tc := ⟨.hbm, 185, rfl⟩
abbrev main_cst_24 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_25 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_c_26 : Ref sig .tc := ⟨.hbm, 198, rfl⟩
abbrev main_v145 : Ref sig .tc := ⟨.hbm, 199, rfl⟩
abbrev main_v146 : Ref sig .tc := ⟨.hbm, 200, rfl⟩
abbrev main_c_27 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_28 : Ref sig .tc := ⟨.hbm, 207, rfl⟩
abbrev main_v152 : Ref sig .tc := ⟨.hbm, 208, rfl⟩
abbrev main_v153 : Ref sig .tc := ⟨.hbm, 209, rfl⟩
abbrev main_c_29 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_call2_cst : Ref sig .tc := ⟨.hbm, 221, rfl⟩
abbrev main_call2_v0 : Ref sig .tc := ⟨.hbm, 222, rfl⟩
abbrev main_v164 : Ref sig .tc := ⟨.hbm, 223, rfl⟩
abbrev main_cst_30 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_31 : Ref sig .tc := ⟨.hbm, 228, rfl⟩
abbrev main_v168 : Ref sig .tc := ⟨.hbm, 229, rfl⟩
abbrev main_cst_32 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_33 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_c_34 : Ref sig .tc := ⟨.hbm, 239, rfl⟩
abbrev main_v176 : Ref sig .tc := ⟨.hbm, 240, rfl⟩
abbrev main_v177 : Ref sig .tc := ⟨.hbm, 241, rfl⟩
abbrev main_c_35 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_36 : Ref sig .tc := ⟨.hbm, 248, rfl⟩
abbrev main_v183 : Ref sig .tc := ⟨.hbm, 249, rfl⟩
abbrev main_v184 : Ref sig .tc := ⟨.hbm, 250, rfl⟩
abbrev main_c_37 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_call3_cst : Ref sig .tc := ⟨.hbm, 262, rfl⟩
abbrev main_call3_v0 : Ref sig .tc := ⟨.hbm, 263, rfl⟩
abbrev main_v195 : Ref sig .tc := ⟨.hbm, 264, rfl⟩
abbrev main_cst_38 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_cst_39 : Ref sig .tc := ⟨.hbm, 269, rfl⟩
abbrev main_v199 : Ref sig .tc := ⟨.hbm, 270, rfl⟩
abbrev main_cst_40 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_cst_41 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_cst_42 : Ref sig .tc := ⟨.hbm, 301, rfl⟩
abbrev main_v228 : Ref sig .tc := ⟨.hbm, 302, rfl⟩
abbrev main_v229 : Ref sig .tc := ⟨.hbm, 303, rfl⟩
abbrev main_cst_43 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_cst_44 : Ref sig .tc := ⟨.hbm, 310, rfl⟩
abbrev main_v235 : Ref sig .tc := ⟨.hbm, 311, rfl⟩
abbrev main_v236 : Ref sig .tc := ⟨.hbm, 312, rfl⟩
abbrev main_cst_45 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_46 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_cst_47 : Ref sig .tc := ⟨.hbm, 346, rfl⟩
abbrev main_v268 : Ref sig .tc := ⟨.hbm, 347, rfl⟩
abbrev main_v269 : Ref sig .tc := ⟨.hbm, 348, rfl⟩
abbrev main_cst_48 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_cst_49 : Ref sig .tc := ⟨.hbm, 355, rfl⟩
abbrev main_v275 : Ref sig .tc := ⟨.hbm, 356, rfl⟩
abbrev main_v276 : Ref sig .tc := ⟨.hbm, 357, rfl⟩
abbrev main_cst_50 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_cst_51 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_c_52 : Ref sig .tc := ⟨.hbm, 370, rfl⟩
abbrev main_v287 : Ref sig .tc := ⟨.hbm, 371, rfl⟩
abbrev main_v288 : Ref sig .tc := ⟨.hbm, 372, rfl⟩
abbrev main_c_53 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_c_54 : Ref sig .tc := ⟨.hbm, 379, rfl⟩
abbrev main_v294 : Ref sig .tc := ⟨.hbm, 380, rfl⟩
abbrev main_v295 : Ref sig .tc := ⟨.hbm, 381, rfl⟩
abbrev main_c_55 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_call4_cst : Ref sig .tc := ⟨.hbm, 393, rfl⟩
abbrev main_call4_v0 : Ref sig .tc := ⟨.hbm, 394, rfl⟩
abbrev main_v306 : Ref sig .tc := ⟨.hbm, 395, rfl⟩
abbrev main_cst_56 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_cst_57 : Ref sig .tc := ⟨.hbm, 400, rfl⟩
abbrev main_v310 : Ref sig .tc := ⟨.hbm, 401, rfl⟩
abbrev main_cst_58 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_cst_59 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_c_60 : Ref sig .tc := ⟨.hbm, 411, rfl⟩
abbrev main_v318 : Ref sig .tc := ⟨.hbm, 412, rfl⟩
abbrev main_v319 : Ref sig .tc := ⟨.hbm, 413, rfl⟩
abbrev main_c_61 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_c_62 : Ref sig .tc := ⟨.hbm, 420, rfl⟩
abbrev main_v325 : Ref sig .tc := ⟨.hbm, 421, rfl⟩
abbrev main_v326 : Ref sig .tc := ⟨.hbm, 422, rfl⟩
abbrev main_c_63 : Ref sig .tc := ⟨.hbm, 423, rfl⟩
abbrev main_v327 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_call5_cst : Ref sig .tc := ⟨.hbm, 434, rfl⟩
abbrev main_call5_v0 : Ref sig .tc := ⟨.hbm, 435, rfl⟩
abbrev main_v337 : Ref sig .tc := ⟨.hbm, 436, rfl⟩
abbrev main_cst_64 : Ref sig .tc := ⟨.hbm, 437, rfl⟩
abbrev main_v338 : Ref sig .tc := ⟨.hbm, 438, rfl⟩
abbrev main_v339 : Ref sig .tc := ⟨.hbm, 439, rfl⟩
abbrev main_v340 : Ref sig .tc := ⟨.hbm, 440, rfl⟩
abbrev main_cst_65 : Ref sig .tc := ⟨.hbm, 441, rfl⟩
abbrev main_v341 : Ref sig .tc := ⟨.hbm, 442, rfl⟩
abbrev main_cst_66 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_cst_67 : Ref sig .tc := ⟨.hbm, 447, rfl⟩
abbrev main_v345 : Ref sig .tc := ⟨.hbm, 448, rfl⟩
abbrev main_v346 : Ref sig .tc := ⟨.hbm, 449, rfl⟩
abbrev main_v347 : Ref sig .tc := ⟨.hbm, 450, rfl⟩
abbrev main_v348 : Ref sig .tc := ⟨.hbm, 451, rfl⟩
abbrev main_v349 : Ref sig .tc := ⟨.hbm, 452, rfl⟩
abbrev main_v350 : Ref sig .tc := ⟨.hbm, 453, rfl⟩
abbrev main_v351 : Ref sig .tc := ⟨.hbm, 454, rfl⟩
abbrev main_v352 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_cst_68 : Ref sig .tc := ⟨.hbm, 473, rfl⟩
abbrev main_v370 : Ref sig .tc := ⟨.hbm, 474, rfl⟩
abbrev main_v371 : Ref sig .tc := ⟨.hbm, 475, rfl⟩
abbrev main_cst_69 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_cst_70 : Ref sig .tc := ⟨.hbm, 482, rfl⟩
abbrev main_v377 : Ref sig .tc := ⟨.hbm, 483, rfl⟩
abbrev main_v378 : Ref sig .tc := ⟨.hbm, 484, rfl⟩
abbrev main_cst_71 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_cst_72 : Ref sig .tc := ⟨.hbm, 492, rfl⟩
abbrev main_v385 : Ref sig .tc := ⟨.hbm, 493, rfl⟩
abbrev main_v386 : Ref sig .tc := ⟨.hbm, 494, rfl⟩
abbrev main_v387 : Ref sig .tc := ⟨.hbm, 495, rfl⟩
abbrev main_v388 : Ref sig .tc := ⟨.hbm, 496, rfl⟩
abbrev main_v389 : Ref sig .tc := ⟨.hbm, 497, rfl⟩
abbrev main_v390 : Ref sig .tc := ⟨.hbm, 498, rfl⟩
abbrev main_v391 : Ref sig .tc := ⟨.hbm, 499, rfl⟩
abbrev main_v392 : Ref sig .tc := ⟨.hbm, 500, rfl⟩
abbrev main_v393 : Ref sig .tc := ⟨.hbm, 501, rfl⟩
abbrev main_v394 : Ref sig .tc := ⟨.hbm, 502, rfl⟩
abbrev main_v395 : Ref sig .tc := ⟨.hbm, 503, rfl⟩
abbrev main_v396 : Ref sig .tc := ⟨.hbm, 504, rfl⟩
abbrev main_v397 : Ref sig .tc := ⟨.hbm, 505, rfl⟩
abbrev main_v398 : Ref sig .tc := ⟨.hbm, 506, rfl⟩
abbrev main_v399 : Ref sig .tc := ⟨.hbm, 507, rfl⟩
abbrev main_v400 : Ref sig .tc := ⟨.hbm, 508, rfl⟩
abbrev main_v401 : Ref sig .tc := ⟨.hbm, 509, rfl⟩
abbrev main_v402 : Ref sig .tc := ⟨.hbm, 510, rfl⟩
abbrev main_v403 : Ref sig .tc := ⟨.hbm, 511, rfl⟩
abbrev main_v404 : Ref sig .tc := ⟨.hbm, 512, rfl⟩
abbrev main_v405 : Ref sig .tc := ⟨.hbm, 513, rfl⟩
abbrev main_v406 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_cst_73 : Ref sig .tc := ⟨.hbm, 518, rfl⟩
abbrev main_v410 : Ref sig .tc := ⟨.hbm, 519, rfl⟩
abbrev main_v411 : Ref sig .tc := ⟨.hbm, 520, rfl⟩
abbrev main_cst_74 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_v415 : Ref sig .tc := ⟨.hbm, 525, rfl⟩
abbrev main_v416 : Ref sig .tc := ⟨.hbm, 526, rfl⟩
abbrev main_cst_75 : Ref sig .tc := ⟨.hbm, 527, rfl⟩
abbrev main_v417 : Ref sig .tc := ⟨.hbm, 528, rfl⟩
abbrev main_v418 : Ref sig .tc := ⟨.hbm, 529, rfl⟩
abbrev main_cst_76 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_v422 : Ref sig .tc := ⟨.hbm, 534, rfl⟩
abbrev main_v423 : Ref sig .tc := ⟨.hbm, 535, rfl⟩
abbrev main_v424 : Ref sig .tc := ⟨.hbm, 536, rfl⟩
abbrev main_cst_77 : Ref sig .tc := ⟨.hbm, 537, rfl⟩
abbrev main_v425 : Ref sig .tc := ⟨.hbm, 538, rfl⟩
abbrev main_v426 : Ref sig .tc := ⟨.hbm, 539, rfl⟩
abbrev main_v427 : Ref sig .tc := ⟨.hbm, 540, rfl⟩
abbrev main_v428 : Ref sig .tc := ⟨.hbm, 541, rfl⟩
abbrev main_v429 : Ref sig .tc := ⟨.hbm, 542, rfl⟩
abbrev main_v430 : Ref sig .tc := ⟨.hbm, 543, rfl⟩
abbrev main_v431 : Ref sig .tc := ⟨.hbm, 544, rfl⟩
abbrev main_v432 : Ref sig .tc := ⟨.hbm, 545, rfl⟩
abbrev main_call6_cst : Ref sig .tc := ⟨.hbm, 546, rfl⟩
abbrev main_call6_v0 : Ref sig .tc := ⟨.hbm, 547, rfl⟩
abbrev main_v433 : Ref sig .tc := ⟨.hbm, 548, rfl⟩
abbrev main_v434 : Ref sig .tc := ⟨.hbm, 549, rfl⟩
abbrev main_v435 : Ref sig .tc := ⟨.hbm, 550, rfl⟩
abbrev main_v436 : Ref sig .tc := ⟨.hbm, 551, rfl⟩
abbrev main_v437 : Ref sig .tc := ⟨.hbm, 552, rfl⟩
abbrev main_call7_cst : Ref sig .tc := ⟨.hbm, 553, rfl⟩
abbrev main_call7_v0 : Ref sig .tc := ⟨.hbm, 554, rfl⟩
abbrev main_v438 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_cst_78 : Ref sig .tc := ⟨.hbm, 560, rfl⟩
abbrev main_v443 : Ref sig .tc := ⟨.hbm, 561, rfl⟩
abbrev main_cst_79 : Ref sig .tc := ⟨.hbm, 562, rfl⟩
abbrev main_v444 : Ref sig .tc := ⟨.hbm, 563, rfl⟩
abbrev main_v445 : Ref sig .tc := ⟨.hbm, 564, rfl⟩
abbrev main_v446 : Ref sig .tc := ⟨.hbm, 565, rfl⟩
abbrev main_v447 : Ref sig .tc := ⟨.hbm, 566, rfl⟩
abbrev main_v448 : Ref sig .tc := ⟨.hbm, 567, rfl⟩
abbrev main_v449 : Ref sig .tc := ⟨.hbm, 568, rfl⟩
abbrev main_cst_80 : Ref sig .tc := ⟨.hbm, 569, rfl⟩
abbrev main_v450 : Ref sig .tc := ⟨.hbm, 570, rfl⟩
abbrev main_v451 : Ref sig .tc := ⟨.hbm, 571, rfl⟩
abbrev main_v452 : Ref sig .tc := ⟨.hbm, 572, rfl⟩
abbrev main_v453 : Ref sig .tc := ⟨.hbm, 573, rfl⟩

abbrev nD : Nat := 1
abbrev τ : Topo := Topo.v7x

variable {F : FTy → Type} [FloatOps F]

class Facts₀ : Prop where
  bcast_S_S20000x128 : S_.BroadcastsInDim S20000x128 (![] : Fin 0 → Fin S20000x128.rank)
  bcast_S_S100000x118 : S_.BroadcastsInDim S100000x118 (![] : Fin 0 → Fin S100000x118.rank)
  concatenates_S100000x10_S100000x118_S100000x128_d1 : Shape.Concatenates [S100000x10, S100000x118] S100000x128 1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S100000x128 : S_.BroadcastsInDim S100000x128 (![] : Fin 0 → Fin S100000x128.rank)
  bcast_S_S200000x1 : S_.BroadcastsInDim S200000x1 (![] : Fin 0 → Fin S200000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S20000x384_0_1 : S1x384.BroadcastsInDim S20000x384 (![0, 1] : Fin 2 → Fin S20000x384.rank)
  slices_S2x384_S1x384_1_0 : S2x384.Slices ![1, 0] S1x384
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  reducesTo_S100000x15_S100000_d1 : S100000x15.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x15_0_1 : S100000x1.BroadcastsInDim S100000x15 (![0, 1] : Fin 2 → Fin S100000x15.rank)
  gather_S20000x128_S200000x1_S200000x128_1_0_n_n_0_1_1128_wf : GatherDims.WF S20000x128 S200000x1 S200000x128 [1] [0] [] [0] [] 1 ![1, 128]
  gather_S100000x128_S200000x1_S200000x128_1_0_n_n_0_1_1128_wf : GatherDims.WF S100000x128 S200000x1 S200000x128 [1] [0] [] [0] [] 1 ![1, 128]
  dot_S200000x256_S256x128_S200000x128_1_0_0_1_n_n_wf : DotDims.WF S200000x256 S256x128 S200000x128 [1] [0] [0] [1] [] []
  scatter_S100000x128_S200000x1_S200000x128_1_0_0_1_wf : ScatterDims.WF S100000x128 S200000x1 S200000x128 [1] [0] [0] 1
  scatter_S100000x1_S200000x1_S200000x1_1_0_0_1_wf : ScatterDims.WF S100000x1 S200000x1 S200000x1 [1] [0] [0] 1
  scatter_S20000x128_S200000x1_S200000x128_1_0_0_1_wf : ScatterDims.WF S20000x128 S200000x1 S200000x128 [1] [0] [0] 1
  scatter_S20000x1_S200000x1_S200000x1_1_0_0_1_wf : ScatterDims.WF S20000x1 S200000x1 S200000x1 [1] [0] [0] 1
  dot_S20000x128_S128x384_S20000x384_1_0_0_1_n_n_wf : DotDims.WF S20000x128 S128x384 S20000x384 [1] [0] [0] [1] [] []
  dot_S100000x128_S128x384_S100000x384_1_0_0_1_n_n_wf : DotDims.WF S100000x128 S128x384 S100000x384 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x15_S100000x15_1_0_0_1_n_n_wf : DotDims.WF S100000x64 S64x15 S100000x15 [1] [0] [0] [1] [] []

variable [Facts₀]

def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def scatter_S100000x128_S200000x1_S200000x128_1_0_0_1 : ScatterDims S100000x128 S200000x1 S200000x128 where
  updateWindowDims := [1]
  insertedWindowDims := [0]
  scatterDimsToOperandDims := [0]
  indexVectorDim := 1
  wf := scatter_S100000x128_S200000x1_S200000x128_1_0_0_1_wf
def scatter_S100000x1_S200000x1_S200000x1_1_0_0_1 : ScatterDims S100000x1 S200000x1 S200000x1 where
  updateWindowDims := [1]
  insertedWindowDims := [0]
  scatterDimsToOperandDims := [0]
  indexVectorDim := 1
  wf := scatter_S100000x1_S200000x1_S200000x1_1_0_0_1_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S20000x1_S200000x1_S200000x1_1_0_0_1 : ScatterDims S20000x1 S200000x1 S200000x1 where
  updateWindowDims := [1]
  insertedWindowDims := [0]
  scatterDimsToOperandDims := [0]
  indexVectorDim := 1
  wf := scatter_S20000x1_S200000x1_S200000x1_1_0_0_1_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x15_S100000x15_1_0_0_1_n_n : DotDims S100000x64 S64x15 S100000x15 where
  lhsContracting := [1]
  rhsContracting := [0]
  lhsNonContracting := [0]
  rhsNonContracting := [1]
  lhsBatch := []
  rhsBatch := []
  wf := dot_S100000x64_S64x15_S100000x15_1_0_0_1_n_n_wf

class Facts : Prop extends Facts₀ where

variable [Facts]
-- ==== Proof.RefChunks.lean ====
/-
  The reference program's host operations, in program order, cut into 24 consecutive chunks (553 operations; a called
  function's three operations stand in its call's place), with the side facts the run of a list of host operations asks for
  (each touches TensorCore references only; none allocates), the buffer contents after each chunk (a fold from the launch
  contents), and the fact that a chunk leaves every buffer it does not write as it was.
-/
import proofs.«154953_j22007412425053_2_alg».proof.Proof.Gen.ReferenceIdeal
import Idealize.ShloMosaic.Lib.StableHlo.Run

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 to 31. -/
abbrev ch1 : List (HloOp τ sig (Elt F)) :=
  [ nullary main_cst (constant S_ .f32 0x3F800000#32),
    unary main_cst main_v0 (broadcastInDim S20000x128 ![] bcast_S_S20000x128 : (⟨S_, .f32⟩ : BufTy).Contents (Elt F) → (⟨S20000x128, .f32⟩ : BufTy).Contents (Elt F)),
    nullary main_cst_0 (constant S_ .f32 0x00000000#32),
    unary main_cst_0 main_v1 (broadcastInDim S100000x118 ![] bcast_S_S100000x118 : (⟨S_, .f32⟩ : BufTy).Contents (Elt F) → (⟨S100000x118, .f32⟩ : BufTy).Contents (Elt F)),
    binary main_arg0 main_v1 main_v2 ((fun a b => concatenate S100000x128 1 [⟨S100000x10, a⟩, ⟨S100000x118, b⟩] concatenates_S100000x10_S100000x118_S100000x128_d1) : (⟨S100000x10, .f32⟩ : BufTy).Contents (Elt F) → (⟨S100000x118, .f32⟩ : BufTy).Contents (Elt F) → (⟨S100000x128, .f32⟩ : BufTy).Contents (Elt F)),
    nullary main_c (constantI S_ 32 0#32),
    unary main_c main_v3 (broadcastInDim S200000 ![] bcast_S_S200000 : (⟨S_, .i32⟩ : BufTy).Contents (Elt F) → (⟨S200000, .i32⟩ : BufTy).Contents (Elt F)),
    binary main_arg1 main_v3 main_v4 (cmpi .slt : (⟨S200000, .i32⟩ : BufTy).Contents (Elt F) → (⟨S200000, .i32⟩ : BufTy).Contents (Elt F) → (⟨S200000, .i1⟩ : BufTy).Contents (Elt F)),
    nullary main_c_1 (constantI S_ 32 20000#32),
    unary main_c_1 main_v5 (broadcastInDim S200000 ![] bcast_S_S200000 : (⟨S_, .i32⟩ : BufTy).Contents (Elt F) → (⟨S200000, .i32⟩ : BufTy).Contents (Elt F)),
    binary main_arg1 main_v5 main_v6 (addi : (⟨S200000, .i32⟩ : BufTy).Contents (Elt F) → (⟨S200000, .i32⟩ : BufTy).Contents (Elt F) → (⟨S200000, .i32⟩ : BufTy).Contents (Elt F)),
    ternary main_v4 main_v6 main_arg1 main_v7 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v7 main_v8 (broadcastInDim S200000x1 ![0] bcast_S200000_S200000x1_0 : (⟨S200000, .i32⟩ : BufTy).Contents (Elt F) → (⟨S200000x1, .i32⟩ : BufTy).Contents (Elt F)),
    binary main_v0 main_v8 main_v9 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)),
    nullary main_c_2 (constantI S_ 32 0#32),
    unary main_c_2 main_v10 (broadcastInDim S200000 ![] bcast_S_S200000 : (⟨S_, .i32⟩ : BufTy).Contents (Elt F) → (⟨S200000, .i32⟩ : BufTy).Contents (Elt F)),
    binary main_arg2 main_v10 main_v11 (cmpi .slt : (⟨S200000, .i32⟩ : BufTy).Contents (Elt F) → (⟨S200000, .i32⟩ : BufTy).Contents (Elt F) → (⟨S200000, .i1⟩ : BufTy).Contents (Elt F)),
    nullary main_c_3 (constantI S_ 32 100000#32),
    unary main_c_3 main_v12 (broadcastInDim S200000 ![] bcast_S_S200000 : (⟨S_, .i32⟩ : BufTy).Contents (Elt F) → (⟨S200000, .i32⟩ : BufTy).Contents (Elt F)),
    binary main_arg2 main_v12 main_v13 (addi : (⟨S200000, .i32⟩ : BufTy).Contents (Elt F) → (⟨S200000, .i32⟩ : BufTy).Contents (Elt F) → (⟨S200000, .i32⟩ : BufTy).Contents (Elt F)),
    ternary main_v11 main_v13 main_arg2 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v14 main_v15 (broadcastInDim S200000x1 ![0] bcast_S200000_S200000x1_0 : (⟨S200000, .i32⟩ : BufTy).Contents (Elt F) → (⟨S200000x1, .i32⟩ : BufTy).Contents (Elt F)),
    binary main_v2 main_v15 main_v16 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    binary main_v9 main_v16 main_v17 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v17 main_arg5 main_v18 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg6 main_v19 (broadcastInDim S1x128 ![1] bcast_S128_S1x128_1 : (⟨S128, .f32⟩ : BufTy).Contents (Elt F) → (⟨S1x128, .f32⟩ : BufTy).Contents (Elt F)),
    unary main_v19 main_v20 (broadcastInDim S200000x128 ![0, 1] bcast_S1x128_S200000x128_0_1 : (⟨S1x128, .f32⟩ : BufTy).Contents (Elt F) → (⟨S200000x128, .f32⟩ : BufTy).Contents (Elt F)),
    binary main_v18 main_v20 main_v21 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x128, .f32⟩) main_call0_v0) (broadcastInDim S200000x128 ![] bcast_S_S200000x128),
    TRef.binary (TRef.of (T := ⟨S200000x128, .f32⟩) main_v21) (TRef.of (T := ⟨S200000x128, .f32⟩) main_call0_v0) (TRef.of (T := ⟨S200000x128, .f32⟩) main_v22) maximumf ]
theorem ch1_sub : (ch1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub ..⟩
theorem ch1_fresh : (ch1 : List (HloOp τ sig (Elt F))).Forall fun op => op.fresh = ∅ := by
  simp only [List.Forall]; repeat' constructor
abbrev wr1 : List (Ref sig .tc) := [main_cst, main_v0, main_cst_0, main_v1, main_v2, main_c, main_v3, main_v4, main_c_1, main_v5, main_v6, main_v7, main_v8, main_v9, main_c_2, main_v10, main_v11, main_c_3, main_v12, main_v13, main_v14, main_v15, main_v16, main_v17, main_v18, main_v19, main_v20, main_v21, main_call0_cst, main_call0_v0, main_v22]
theorem wr1_sub : (ch1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 32 to 46. -/
abbrev ch2 : List (HloOp τ sig (Elt F)) :=
  [ nullary main_cst_4 (constant S_ .f32 0x00000000#32),
    unary main_cst_4 main_v23 (broadcastInDim S100000x128 ![] bcast_S_S100000x128 : (⟨S_, .f32⟩ : BufTy).Contents (Elt F) → (⟨S100000x128, .f32⟩ : BufTy).Contents (Elt F)),
    unary main_arg2 main_v24 (broadcastInDim S200000x1 ![0] bcast_S200000_S200000x1_0 : (⟨S200000, .i32⟩ : BufTy).Contents (Elt F) → (⟨S200000x1, .i32⟩ : BufTy).Contents (Elt F)),
    ternary main_v23 main_v24 main_v22 main_v25 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    nullary main_cst_5 (constant S_ .f32 0x3F800000#32),
    unary main_cst_5 main_v26 (broadcastInDim S200000x1 ![] bcast_S_S200000x1 : (⟨S_, .f32⟩ : BufTy).Contents (Elt F) → (⟨S200000x1, .f32⟩ : BufTy).Contents (Elt F)),
    nullary main_cst_6 (constant S_ .f32 0x00000000#32),
    unary main_cst_6 main_v27 (broadcastInDim S100000x1 ![] bcast_S_S100000x1 : (⟨S_, .f32⟩ : BufTy).Contents (Elt F) → (⟨S100000x1, .f32⟩ : BufTy).Contents (Elt F)),
    unary main_arg2 main_v28 (broadcastInDim S200000x1 ![0] bcast_S200000_S200000x1_0 : (⟨S200000, .i32⟩ : BufTy).Contents (Elt F) → (⟨S200000x1, .i32⟩ : BufTy).Contents (Elt F)),
    ternary main_v27 main_v28 main_v26 main_v29 ((fun x i u => Host.scatterAdd scatter_S100000x1_S200000x1_S200000x1_1_0_0_1 x i u) : (⟨S100000x1, .f32⟩ : BufTy).Contents (Elt F) → (⟨S200000x1, .i32⟩ : BufTy).Contents (Elt F) → (⟨S200000x1, .f32⟩ : BufTy).Contents (Elt F) → (⟨S100000x1, .f32⟩ : BufTy).Contents (Elt F)),
    nullary main_cst_7 (constant S_ .f32 0x3F800000#32),
    unary main_cst_7 main_v30 (broadcastInDim S100000x1 ![] bcast_S_S100000x1 : (⟨S_, .f32⟩ : BufTy).Contents (Elt F) → (⟨S100000x1, .f32⟩ : BufTy).Contents (Elt F)),
    binary main_v29 main_v30 main_v31 (maximumf : (⟨S100000x1, .f32⟩ : BufTy).Contents (Elt F) → (⟨S100000x1, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v25 main_v32 main_v33 (Host.divf : (⟨S100000x128, .f32⟩ : BufTy).Contents (Elt F) → (⟨S100000x128, .f32⟩ : BufTy).Contents (Elt F) → (⟨S100000x128, .f32⟩ : BufTy).Contents (Elt F)) ]
theorem ch2_sub : (ch2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem ch2_fresh : (ch2 : List (HloOp τ sig (Elt F))).Forall fun op => op.fresh = ∅ := by
  simp only [List.Forall]; repeat' constructor
abbrev wr2 : List (Ref sig .tc) := [main_cst_4, main_v23, main_v24, main_v25, main_cst_5, main_v26, main_cst_6, main_v27, main_v28, main_v29, main_cst_7, main_v30, main_v31, main_v32, main_v33]
theorem wr2_sub : (ch2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 47 to 62. -/
abbrev ch3 : List (HloOp τ sig (Elt F)) :=
  [ nullary main_c_8 (constantI S_ 32 0#32),
    unary main_c_8 main_v34 (broadcastInDim S200000 ![] bcast_S_S200000 : (⟨S_, .i32⟩ : BufTy).Contents (Elt F) → (⟨S200000, .i32⟩ : BufTy).Contents (Elt F)),
    binary main_arg3 main_v34 main_v35 (cmpi .slt : (⟨S200000, .i32⟩ : BufTy).Contents (Elt F) → (⟨S200000, .i32⟩ : BufTy).Contents (Elt F) → (⟨S200000, .i1⟩ : BufTy).Contents (Elt F)),
    nullary main_c_9 (constantI S_ 32 100000#32),
    unary main_c_9 main_v36 (broadcastInDim S200000 ![] bcast_S_S200000 : (⟨S_, .i32⟩ : BufTy).Contents (Elt F) → (⟨S200000, .i32⟩ : BufTy).Contents (Elt F)),
    binary main_arg3 main_v36 main_v37 (addi : (⟨S200000, .i32⟩ : BufTy).Contents (Elt F) → (⟨S200000, .i32⟩ : BufTy).Contents (Elt F) → (⟨S200000, .i32⟩ : BufTy).Contents (Elt F)),
    ternary main_v35 main_v37 main_arg3 main_v38 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v38 main_v39 (broadcastInDim S200000x1 ![0] bcast_S200000_S200000x1_0 : (⟨S200000, .i32⟩ : BufTy).Contents (Elt F) → (⟨S200000x1, .i32⟩ : BufTy).Contents (Elt F)),
    binary main_v2 main_v39 main_v40 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_10 (constantI S_ 32 0#32),
    unary main_c_10 main_v41 (broadcastInDim S200000 ![] bcast_S_S200000 : (⟨S_, .i32⟩ : BufTy).Contents (Elt F) → (⟨S200000, .i32⟩ : BufTy).Contents (Elt F)),
    binary main_arg4 main_v41 main_v42 (cmpi .slt : (⟨S200000, .i32⟩ : BufTy).Contents (Elt F) → (⟨S200000, .i32⟩ : BufTy).Contents (Elt F) → (⟨S200000, .i1⟩ : BufTy).Contents (Elt F)),
    nullary main_c_11 (constantI S_ 32 20000#32),
    unary main_c_11 main_v43 (broadcastInDim S200000 ![] bcast_S_S200000 : (⟨S_, .i32⟩ : BufTy).Contents (Elt F) → (⟨S200000, .i32⟩ : BufTy).Contents (Elt F)),
    binary main_arg4 main_v43 main_v44 (addi : (⟨S200000, .i32⟩ : BufTy).Contents (Elt F) → (⟨S200000, .i32⟩ : BufTy).Contents (Elt F) → (⟨S200000, .i32⟩ : BufTy).Contents (Elt F)),
    ternary main_v42 main_v44 main_arg4 main_v45 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]
theorem ch3_sub : (ch3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩
theorem ch3_fresh : (ch3 : List (HloOp τ sig (Elt F))).Forall fun op => op.fresh = ∅ := by
  simp only [List.Forall]; repeat' constructor
abbrev wr3 : List (Ref sig .tc) := [main_c_8, main_v34, main_v35, main_c_9, main_v36, main_v37, main_v38, main_v39, main_v40, main_c_10, main_v41, main_v42, main_c_11, main_v43, main_v44, main_v45]
theorem wr3_sub : (ch3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 63 to 64. -/
abbrev ch4 : List (HloOp τ sig (Elt F)) :=
  [ unary main_v45 main_v46 (broadcastInDim S200000x1 ![0] bcast_S200000_S200000x1_0 : (⟨S200000, .i32⟩ : BufTy).Contents (Elt F) → (⟨S200000x1, .i32⟩ : BufTy).Contents (Elt F)),
    binary main_v0 main_v46 main_v47 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)) ]
theorem ch4_sub : (ch4 : List (HloOp τ sig (Elt F))).Forall fun op => op.bufs ⊆ tcRefs τ sig :=
  ⟨unary_bufs_sub .., binary_bufs_sub ..⟩
theorem ch4_fresh : (ch4 : List (HloOp τ sig (Elt F))).Forall fun op => op.fresh = ∅ := by
  simp only [List.Forall]; repeat' constructor
abbrev wr4 : List (Ref sig .tc) := [main_v46, main_v47]
theorem wr4_sub : (ch4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 65 to 87. -/
abbrev ch5 : List (HloOp τ sig (Elt F)) :=
  [ binary main_v40 main_v47 main_v48 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v48 main_arg7 main_v49 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg8 main_v50 (broadcastInDim S1x128 ![1] bcast_S128_S1x128_1 : (⟨S128, .f32⟩ : BufTy).Contents (Elt F) → (⟨S1x128, .f32⟩ : BufTy).Contents (Elt F)),
    unary main_v50 main_v51 (broadcastInDim S200000x128 ![0, 1] bcast_S1x128_S200000x128_0_1 : (⟨S1x128, .f32⟩ : BufTy).Contents (Elt F) → (⟨S200000x128, .f32⟩ : BufTy).Contents (Elt F)),
    binary main_v49 main_v51 main_v52 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x128, .f32⟩) main_call1_v0) (broadcastInDim S200000x128 ![] bcast_S_S200000x128),
    TRef.binary (TRef.of (T := ⟨S200000x128, .f32⟩) main_v52) (TRef.of (T := ⟨S200000x128, .f32⟩) main_call1_v0) (TRef.of (T := ⟨S200000x128, .f32⟩) main_v53) maximumf,
    nullary main_cst_12 (constant S_ .f32 0x00000000#32),
    unary main_cst_12 main_v54 (broadcastInDim S20000x128 ![] bcast_S_S20000x128 : (⟨S_, .f32⟩ : BufTy).Contents (Elt F) → (⟨S20000x128, .f32⟩ : BufTy).Contents (Elt F)),
    unary main_arg4 main_v55 (broadcastInDim S200000x1 ![0] bcast_S200000_S200000x1_0 : (⟨S200000, .i32⟩ : BufTy).Contents (Elt F) → (⟨S200000x1, .i32⟩ : BufTy).Contents (Elt F)),
    ternary main_v54 main_v55 main_v53 main_v56 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)),
    nullary main_cst_13 (constant S_ .f32 0x3F800000#32),
    unary main_cst_13 main_v57 (broadcastInDim S200000x1 ![] bcast_S_S200000x1 : (⟨S_, .f32⟩ : BufTy).Contents (Elt F) → (⟨S200000x1, .f32⟩ : BufTy).Contents (Elt F)),
    nullary main_cst_14 (constant S_ .f32 0x00000000#32),
    unary main_cst_14 main_v58 (broadcastInDim S20000x1 ![] bcast_S_S20000x1 : (⟨S_, .f32⟩ : BufTy).Contents (Elt F) → (⟨S20000x1, .f32⟩ : BufTy).Contents (Elt F)),
    unary main_arg4 main_v59 (broadcastInDim S200000x1 ![0] bcast_S200000_S200000x1_0 : (⟨S200000, .i32⟩ : BufTy).Contents (Elt F) → (⟨S200000x1, .i32⟩ : BufTy).Contents (Elt F)),
    ternary main_v58 main_v59 main_v57 main_v60 ((fun x i u => Host.scatterAdd scatter_S20000x1_S200000x1_S200000x1_1_0_0_1 x i u) : (⟨S20000x1, .f32⟩ : BufTy).Contents (Elt F) → (⟨S200000x1, .i32⟩ : BufTy).Contents (Elt F) → (⟨S200000x1, .f32⟩ : BufTy).Contents (Elt F) → (⟨S20000x1, .f32⟩ : BufTy).Contents (Elt F)),
    nullary main_cst_15 (constant S_ .f32 0x3F800000#32),
    unary main_cst_15 main_v61 (broadcastInDim S20000x1 ![] bcast_S_S20000x1 : (⟨S_, .f32⟩ : BufTy).Contents (Elt F) → (⟨S20000x1, .f32⟩ : BufTy).Contents (Elt F)),
    binary main_v60 main_v61 main_v62 (maximumf : (⟨S20000x1, .f32⟩ : BufTy).Contents (Elt F) → (⟨S20000x1, .f32⟩ : BufTy).Contents (Elt F) → (⟨S20000x1, .f32⟩ : BufTy).Contents (Elt F)),
    unary main_v62 main_v63 (broadcastInDim S20000x128 ![0, 1] bcast_S20000x1_S20000x128_0_1 : (⟨S20000x1, .f32⟩ : BufTy).Contents (Elt F) → (⟨S20000x128, .f32⟩ : BufTy).Contents (Elt F)),
    binary main_v56 main_v63 main_v64 (Host.divf : (⟨S20000x128, .f32⟩ : BufTy).Contents (Elt F) → (⟨S20000x128, .f32⟩ : BufTy).Contents (Elt F) → (⟨S20000x128, .f32⟩ : BufTy).Contents (Elt F)) ]
theorem ch5_sub : (ch5 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem ch5_fresh : (ch5 : List (HloOp τ sig (Elt F))).Forall fun op => op.fresh = ∅ := by
  simp only [List.Forall]; repeat' constructor
abbrev wr5 : List (Ref sig .tc) := [main_v48, main_v49, main_v50, main_v51, main_v52, main_call1_cst, main_call1_v0, main_v53, main_cst_12, main_v54, main_v55, main_v56, main_cst_13, main_v57, main_cst_14, main_v58, main_v59, main_v60, main_cst_15, main_v61, main_v62, main_v63, main_v64]
theorem wr5_sub : (ch5 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 88 to 124. -/
abbrev ch6 : List (HloOp τ sig (Elt F)) :=
  [ binary main_v64 main_arg9 main_v65 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    unary main_arg11 main_v66 ((extractStridedSlice S1x384 ![0, 0] · slices_S2x384_S1x384_0_0) : (⟨S2x384, .f32⟩ : BufTy).Contents (Elt F) → (⟨S1x384, .f32⟩ : BufTy).Contents (Elt F)),
    reshape main_v66 main_v67 rfl shapeCasts_S1x384_S384,
    unary main_v67 main_v68 (broadcastInDim S1x384 ![1] bcast_S384_S1x384_1 : (⟨S384, .f32⟩ : BufTy).Contents (Elt F) → (⟨S1x384, .f32⟩ : BufTy).Contents (Elt F)),
    unary main_v68 main_v69 (broadcastInDim S20000x384 ![0, 1] bcast_S1x384_S20000x384_0_1 : (⟨S1x384, .f32⟩ : BufTy).Contents (Elt F) → (⟨S20000x384, .f32⟩ : BufTy).Contents (Elt F)),
    binary main_v65 main_v69 main_v70 (addf : (⟨S20000x384, .f32⟩ : BufTy).Contents (Elt F) → (⟨S20000x384, .f32⟩ : BufTy).Contents (Elt F) → (⟨S20000x384, .f32⟩ : BufTy).Contents (Elt F)),
    binary main_v0 main_arg10 main_v71 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    unary main_arg11 main_v72 ((extractStridedSlice S1x384 ![1, 0] · slices_S2x384_S1x384_1_0) : (⟨S2x384, .f32⟩ : BufTy).Contents (Elt F) → (⟨S1x384, .f32⟩ : BufTy).Contents (Elt F)),
    reshape main_v72 main_v73 rfl shapeCasts_S1x384_S384,
    unary main_v73 main_v74 (broadcastInDim S1x384 ![1] bcast_S384_S1x384_1 : (⟨S384, .f32⟩ : BufTy).Contents (Elt F) → (⟨S1x384, .f32⟩ : BufTy).Contents (Elt F)),
    unary main_v74 main_v75 (broadcastInDim S20000x384 ![0, 1] bcast_S1x384_S20000x384_0_1 : (⟨S1x384, .f32⟩ : BufTy).Contents (Elt F) → (⟨S20000x384, .f32⟩ : BufTy).Contents (Elt F)),
    binary main_v71 main_v75 main_v76 (addf : (⟨S20000x384, .f32⟩ : BufTy).Contents (Elt F) → (⟨S20000x384, .f32⟩ : BufTy).Contents (Elt F) → (⟨S20000x384, .f32⟩ : BufTy).Contents (Elt F)),
    unary main_v70 main_v77 ((extractStridedSlice S20000x128 ![0, 0] · slices_S20000x384_S20000x128_0_0) : (⟨S20000x384, .f32⟩ : BufTy).Contents (Elt F) → (⟨S20000x128, .f32⟩ : BufTy).Contents (Elt F)),
    unary main_v70 main_v78 ((extractStridedSlice S20000x128 ![0, 128] · slices_S20000x384_S20000x128_0_128) : (⟨S20000x384, .f32⟩ : BufTy).Contents (Elt F) → (⟨S20000x128, .f32⟩ : BufTy).Contents (Elt F)),
    unary main_v70 main_v79 ((extractStridedSlice S20000x128 ![0, 256] · slices_S20000x384_S20000x128_0_256) : (⟨S20000x384, .f32⟩ : BufTy).Contents (Elt F) → (⟨S20000x128, .f32⟩ : BufTy).Contents (Elt F)),
    unary main_v76 main_v80 ((extractStridedSlice S20000x128 ![0, 0] · slices_S20000x384_S20000x128_0_0) : (⟨S20000x384, .f32⟩ : BufTy).Contents (Elt F) → (⟨S20000x128, .f32⟩ : BufTy).Contents (Elt F)),
    unary main_v76 main_v81 ((extractStridedSlice S20000x128 ![0, 128] · slices_S20000x384_S20000x128_0_128) : (⟨S20000x384, .f32⟩ : BufTy).Contents (Elt F) → (⟨S20000x128, .f32⟩ : BufTy).Contents (Elt F)),
    unary main_v76 main_v82 ((extractStridedSlice S20000x128 ![0, 256] · slices_S20000x384_S20000x128_0_256) : (⟨S20000x384, .f32⟩ : BufTy).Contents (Elt F) → (⟨S20000x128, .f32⟩ : BufTy).Contents (Elt F)),
    binary main_v77 main_v80 main_v83 (addf : (⟨S20000x128, .f32⟩ : BufTy).Contents (Elt F) → (⟨S20000x128, .f32⟩ : BufTy).Contents (Elt F) → (⟨S20000x128, .f32⟩ : BufTy).Contents (Elt F)),
    unary main_v83 main_v84 (Host.negf : (⟨S20000x128, .f32⟩ : BufTy).Contents (Elt F) → (⟨S20000x128, .f32⟩ : BufTy).Contents (Elt F)),
    unary main_v84 main_v85 (Host.exp : (⟨S20000x128, .f32⟩ : BufTy).Contents (Elt F) → (⟨S20000x128, .f32⟩ : BufTy).Contents (Elt F)),
    nullary main_cst_16 (constant S_ .f32 0x3F800000#32),
    unary main_cst_16 main_v86 (broadcastInDim S20000x128 ![] bcast_S_S20000x128 : (⟨S_, .f32⟩ : BufTy).Contents (Elt F) → (⟨S20000x128, .f32⟩ : BufTy).Contents (Elt F)),
    binary main_v86 main_v85 main_v87 (addf : (⟨S20000x128, .f32⟩ : BufTy).Contents (Elt F) → (⟨S20000x128, .f32⟩ : BufTy).Contents (Elt F) → (⟨S20000x128, .f32⟩ : BufTy).Contents (Elt F)),
    nullary main_cst_17 (constant S_ .f32 0x3F800000#32),
    unary main_cst_17 main_v88 (broadcastInDim S20000x128 ![] bcast_S_S20000x128 : (⟨S_, .f32⟩ : BufTy).Contents (Elt F) → (⟨S20000x128, .f32⟩ : BufTy).Contents (Elt F)),
    binary main_v88 main_v87 main_v89 (Host.divf : (⟨S20000x128, .f32⟩ : BufTy).Contents (Elt F) → (⟨S20000x128, .f32⟩ : BufTy).Contents (Elt F) → (⟨S20000x128, .f32⟩ : BufTy).Contents (Elt F)),
    binary main_v78 main_v81 main_v90 (addf : (⟨S20000x128, .f32⟩ : BufTy).Contents (Elt F) → (⟨S20000x128, .f32⟩ : BufTy).Contents (Elt F) → (⟨S20000x128, .f32⟩ : BufTy).Contents (Elt F)),
    unary main_v90 main_v91 (Host.negf : (⟨S20000x128, .f32⟩ : BufTy).Contents (Elt F) → (⟨S20000x128, .f32⟩ : BufTy).Contents (Elt F)),
    unary main_v91 main_v92 (Host.exp : (⟨S20000x128, .f32⟩ : BufTy).Contents (Elt F) → (⟨S20000x128, .f32⟩ : BufTy).Contents (Elt F)),
    nullary main_cst_18 (constant S_ .f32 0x3F800000#32),
    unary main_cst_18 main_v93 (broadcastInDim S20000x128 ![] bcast_S_S20000x128 : (⟨S_, .f32⟩ : BufTy).Contents (Elt F) → (⟨S20000x128, .f32⟩ : BufTy).Contents (Elt F)),
    binary main_v93 main_v92 main_v94 (addf : (⟨S20000x128, .f32⟩ : BufTy).Contents (Elt F) → (⟨S20000x128, .f32⟩ : BufTy).Contents (Elt F) → (⟨S20000x128, .f32⟩ : BufTy).Contents (Elt F)),
    nullary main_cst_19 (constant S_ .f32 0x3F800000#32),
    unary main_cst_19 main_v95 (broadcastInDim S20000x128 ![] bcast_S_S20000x128 : (⟨S_, .f32⟩ : BufTy).Contents (Elt F) → (⟨S20000x128, .f32⟩ : BufTy).Contents (Elt F)),
    binary main_v95 main_v94 main_v96 (Host.divf : (⟨S20000x128, .f32⟩ : BufTy).Contents (Elt F) → (⟨S20000x128, .f32⟩ : BufTy).Contents (Elt F) → (⟨S20000x128, .f32⟩ : BufTy).Contents (Elt F)),
    binary main_v96 main_v82 main_v97 (mulf : (⟨S20000x128, .f32⟩ : BufTy).Contents (Elt F) → (⟨S20000x128, .f32⟩ : BufTy).Contents (Elt F) → (⟨S20000x128, .f32⟩ : BufTy).Contents (Elt F)) ]
theorem ch6_sub : (ch6 : List (HloOp τ sig (Elt F))).Forall fun op => op.bufs ⊆ tcRefs τ sig :=
  ⟨binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem ch6_fresh : (ch6 : List (HloOp τ sig (Elt F))).Forall fun op => op.fresh = ∅ := by
  simp only [List.Forall]; repeat' constructor
abbrev wr6 : List (Ref sig .tc) := [main_v65, main_v66, main_v67, main_v68, main_v69, main_v70, main_v71, main_v72, main_v73, main_v74, main_v75, main_v76, main_v77, main_v78, main_v79, main_v80, main_v81, main_v82, main_v83, main_v84, main_v85, main_cst_16, main_v86, main_v87, main_cst_17, main_v88, main_v89, main_v90, main_v91, main_v92, main_cst_18, main_v93, main_v94, main_cst_19, main_v95, main_v96, main_v97]
theorem wr6_sub : (ch6 : List (HloOp τ sig (Elt F))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 125 to 132. -/
abbrev ch7 : List (HloOp τ sig (Elt F)) :=
  [ binary main_v79 main_v97 main_v98 (addf : (⟨S20000x128, .f32⟩ : BufTy).Contents (Elt F) → (⟨S20000x128, .f32⟩ : BufTy).Contents (Elt F) → (⟨S20000x128, .f32⟩ : BufTy).Contents (Elt F)),
    unary main_v98 main_v99 (Host.tanh : (⟨S20000x128, .f32⟩ : BufTy).Contents (Elt F) → (⟨S20000x128, .f32⟩ : BufTy).Contents (Elt F)),
    binary main_v89 main_v0 main_v100 (mulf : (⟨S20000x128, .f32⟩ : BufTy).Contents (Elt F) → (⟨S20000x128, .f32⟩ : BufTy).Contents (Elt F) → (⟨S20000x128, .f32⟩ : BufTy).Contents (Elt F)),
    nullary main_cst_20 (constant S_ .f32 0x3F800000#32),
    unary main_cst_20 main_v101 (broadcastInDim S20000x128 ![] bcast_S_S20000x128 : (⟨S_, .f32⟩ : BufTy).Contents (Elt F) → (⟨S20000x128, .f32⟩ : BufTy).Contents (Elt F)),
    binary main_v101 main_v89 main_v102 (subf : (⟨S20000x128, .f32⟩ : BufTy).Contents (Elt F) → (⟨S20000x128, .f32⟩ : BufTy).Contents (Elt F) → (⟨S20000x128, .f32⟩ : BufTy).Contents (Elt F)),
    binary main_v102 main_v99 main_v103 (mulf : (⟨S20000x128, .f32⟩ : BufTy).Contents (Elt F) → (⟨S20000x128, .f32⟩ : BufTy).Contents (Elt F) → (⟨S20000x128, .f32⟩ : BufTy).Contents (Elt F)),
    binary main_v100 main_v103 main_v104 (addf : (⟨S20000x128, .f32⟩ : BufTy).Contents (Elt F) → (⟨S20000x128, .f32⟩ : BufTy).Contents (Elt F) → (⟨S20000x128, .f32⟩ : BufTy).Contents (Elt F)) ]
theorem ch7_sub : (ch7 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., binary_bufs_sub ..⟩
theorem ch7_fresh : (ch7 : List (HloOp τ sig (Elt F))).Forall fun op => op.fresh = ∅ := by
  simp only [List.Forall]; repeat' constructor
abbrev wr7 : List (Ref sig .tc) := [main_v98, main_v99, main_v100, main_cst_20, main_v101, main_v102, main_v103, main_v104]
theorem wr7_sub : (ch7 : List (HloOp τ sig (Elt F))).Forall fun op => op.writes ⊆ (wr7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 133 to 177. -/
abbrev ch8 : List (HloOp τ sig (Elt F)) :=
  [ binary main_v33 main_arg12 main_v105 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v106 ((extractStridedSlice S1x384 ![0, 0] · slices_S2x384_S1x384_0_0) : (⟨S2x384, .f32⟩ : BufTy).Contents (Elt F) → (⟨S1x384, .f32⟩ : BufTy).Contents (Elt F)),
    reshape main_v106 main_v107 rfl shapeCasts_S1x384_S384,
    unary main_v107 main_v108 (broadcastInDim S1x384 ![1] bcast_S384_S1x384_1 : (⟨S384, .f32⟩ : BufTy).Contents (Elt F) → (⟨S1x384, .f32⟩ : BufTy).Contents (Elt F)),
    unary main_v108 main_v109 (broadcastInDim S100000x384 ![0, 1] bcast_S1x384_S100000x384_0_1 : (⟨S1x384, .f32⟩ : BufTy).Contents (Elt F) → (⟨S100000x384, .f32⟩ : BufTy).Contents (Elt F)),
    binary main_v105 main_v109 main_v110 (addf : (⟨S100000x384, .f32⟩ : BufTy).Contents (Elt F) → (⟨S100000x384, .f32⟩ : BufTy).Contents (Elt F) → (⟨S100000x384, .f32⟩ : BufTy).Contents (Elt F)),
    binary main_v2 main_arg13 main_v111 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v112 ((extractStridedSlice S1x384 ![1, 0] · slices_S2x384_S1x384_1_0) : (⟨S2x384, .f32⟩ : BufTy).Contents (Elt F) → (⟨S1x384, .f32⟩ : BufTy).Contents (Elt F)),
    reshape main_v112 main_v113 rfl shapeCasts_S1x384_S384,
    unary main_v113 main_v114 (broadcastInDim S1x384 ![1] bcast_S384_S1x384_1 : (⟨S384, .f32⟩ : BufTy).Contents (Elt F) → (⟨S1x384, .f32⟩ : BufTy).Contents (Elt F)),
    unary main_v114 main_v115 (broadcastInDim S100000x384 ![0, 1] bcast_S1x384_S100000x384_0_1 : (⟨S1x384, .f32⟩ : BufTy).Contents (Elt F) → (⟨S100000x384, .f32⟩ : BufTy).Contents (Elt F)),
    binary main_v111 main_v115 main_v116 (addf : (⟨S100000x384, .f32⟩ : BufTy).Contents (Elt F) → (⟨S100000x384, .f32⟩ : BufTy).Contents (Elt F) → (⟨S100000x384, .f32⟩ : BufTy).Contents (Elt F)),
    unary main_v110 main_v117 ((extractStridedSlice S100000x128 ![0, 0] · slices_S100000x384_S100000x128_0_0) : (⟨S100000x384, .f32⟩ : BufTy).Contents (Elt F) → (⟨S100000x128, .f32⟩ : BufTy).Contents (Elt F)),
    unary main_v110 main_v118 ((extractStridedSlice S100000x128 ![0, 128] · slices_S100000x384_S100000x128_0_128) : (⟨S100000x384, .f32⟩ : BufTy).Contents (Elt F) → (⟨S100000x128, .f32⟩ : BufTy).Contents (Elt F)),
    unary main_v110 main_v119 ((extractStridedSlice S100000x128 ![0, 256] · slices_S100000x384_S100000x128_0_256) : (⟨S100000x384, .f32⟩ : BufTy).Contents (Elt F) → (⟨S100000x128, .f32⟩ : BufTy).Contents (Elt F)),
    unary main_v116 main_v120 ((extractStridedSlice S100000x128 ![0, 0] · slices_S100000x384_S100000x128_0_0) : (⟨S100000x384, .f32⟩ : BufTy).Contents (Elt F) → (⟨S100000x128, .f32⟩ : BufTy).Contents (Elt F)),
    unary main_v116 main_v121 ((extractStridedSlice S100000x128 ![0, 128] · slices_S100000x384_S100000x128_0_128) : (⟨S100000x384, .f32⟩ : BufTy).Contents (Elt F) → (⟨S100000x128, .f32⟩ : BufTy).Contents (Elt F)),
    unary main_v116 main_v122 ((extractStridedSlice S100000x128 ![0, 256] · slices_S100000x384_S100000x128_0_256) : (⟨S100000x384, .f32⟩ : BufTy).Contents (Elt F) → (⟨S100000x128, .f32⟩ : BufTy).Contents (Elt F)),
    binary main_v117 main_v120 main_v123 (addf : (⟨S100000x128, .f32⟩ : BufTy).Contents (Elt F) → (⟨S100000x128, .f32⟩ : BufTy).Contents (Elt F) → (⟨S100000x128, .f32⟩ : BufTy).Contents (Elt F)),
    unary main_v123 main_v124 (Host.negf : (⟨S100000x128, .f32⟩ : BufTy).Contents (Elt F) → (⟨S100000x128, .f32⟩ : BufTy).Contents (Elt F)),
    unary main_v124 main_v125 (Host.exp : (⟨S100000x128, .f32⟩ : BufTy).Contents (Elt F) → (⟨S100000x128, .f32⟩ : BufTy).Contents (Elt F)),
    nullary main_cst_21 (constant S_ .f32 0x3F800000#32),
    unary main_cst_21 main_v126 (broadcastInDim S100000x128 ![] bcast_S_S100000x128 : (⟨S_, .f32⟩ : BufTy).Contents (Elt F) → (⟨S100000x128, .f32⟩ : BufTy).Contents (Elt F)),
    binary main_v126 main_v125 main_v127 (addf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3F800000#32),
    unary main_cst_22 main_v128 (broadcastInDim S100000x128 ![] bcast_S_S100000x128 : (⟨S_, .f32⟩ : BufTy).Contents (Elt F) → (⟨S100000x128, .f32⟩ : BufTy).Contents (Elt F)),
    binary main_v128 main_v127 main_v129 (Host.divf : (⟨S100000x128, .f32⟩ : BufTy).Contents (Elt F) → (⟨S100000x128, .f32⟩ : BufTy).Contents (Elt F) → (⟨S100000x128, .f32⟩ : BufTy).Contents (Elt F)),
    binary main_v118 main_v121 main_v130 (addf : (⟨S100000x128, .f32⟩ : BufTy).Contents (Elt F) → (⟨S100000x128, .f32⟩ : BufTy).Contents (Elt F) → (⟨S100000x128, .f32⟩ : BufTy).Contents (Elt F)),
    unary main_v130 main_v131 (Host.negf : (⟨S100000x128, .f32⟩ : BufTy).Contents (Elt F) → (⟨S100000x128, .f32⟩ : BufTy).Contents (Elt F)),
    unary main_v131 main_v132 (Host.exp : (⟨S100000x128, .f32⟩ : BufTy).Contents (Elt F) → (⟨S100000x128, .f32⟩ : BufTy).Contents (Elt F)),
    nullary main_cst_23 (constant S_ .f32 0x3F800000#32),
    unary main_cst_23 main_v133 (broadcastInDim S100000x128 ![] bcast_S_S100000x128 : (⟨S_, .f32⟩ : BufTy).Contents (Elt F) → (⟨S100000x128, .f32⟩ : BufTy).Contents (Elt F)),
    binary main_v133 main_v132 main_v134 (addf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3F800000#32),
    unary main_cst_24 main_v135 (broadcastInDim S100000x128 ![] bcast_S_S100000x128 : (⟨S_, .f32⟩ : BufTy).Contents (Elt F) → (⟨S100000x128, .f32⟩ : BufTy).Contents (Elt F)),
    binary main_v135 main_v134 main_v136 (Host.divf : (⟨S100000x128, .f32⟩ : BufTy).Contents (Elt F) → (⟨S100000x128, .f32⟩ : BufTy).Contents (Elt F) → (⟨S100000x128, .f32⟩ : BufTy).Contents (Elt F)),
    binary main_v136 main_v122 main_v137 (mulf : (⟨S100000x128, .f32⟩ : BufTy).Contents (Elt F) → (⟨S100000x128, .f32⟩ : BufTy).Contents (Elt F) → (⟨S100000x128, .f32⟩ : BufTy).Contents (Elt F)),
    binary main_v119 main_v137 main_v138 (addf : (⟨S100000x128, .f32⟩ : BufTy).Contents (Elt F) → (⟨S100000x128, .f32⟩ : BufTy).Contents (Elt F) → (⟨S100000x128, .f32⟩ : BufTy).Contents (Elt F)),
    unary main_v138 main_v139 (Host.tanh : (⟨S100000x128, .f32⟩ : BufTy).Contents (Elt F) → (⟨S100000x128, .f32⟩ : BufTy).Contents (Elt F)),
    binary main_v129 main_v2 main_v140 (mulf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3F800000#32),
    unary main_cst_25 main_v141 (broadcastInDim S100000x128 ![] bcast_S_S100000x128 : (⟨S_, .f32⟩ : BufTy).Contents (Elt F) → (⟨S100000x128, .f32⟩ : BufTy).Contents (Elt F)),
    binary main_v141 main_v129 main_v142 (subf : (⟨S100000x128, .f32⟩ : BufTy).Contents (Elt F) → (⟨S100000x128, .f32⟩ : BufTy).Contents (Elt F) → (⟨S100000x128, .f32⟩ : BufTy).Contents (Elt F)),
    binary main_v142 main_v139 main_v143 (mulf : (⟨S100000x128, .f32⟩ : BufTy).Contents (Elt F) → (⟨S100000x128, .f32⟩ : BufTy).Contents (Elt F) → (⟨S100000x128, .f32⟩ : BufTy).Contents (Elt F)),
    binary main_v140 main_v143 main_v144 (addf : (⟨S100000x128, .f32⟩ : BufTy).Contents (Elt F) → (⟨S100000x128, .f32⟩ : BufTy).Contents (Elt F) → (⟨S100000x128, .f32⟩ : BufTy).Contents (Elt F)) ]
theorem ch8_sub : (ch8 : List (HloOp τ sig (Elt F))).Forall fun op => op.bufs ⊆ tcRefs τ sig :=
  ⟨binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub ..⟩
theorem ch8_fresh : (ch8 : List (HloOp τ sig (Elt F))).Forall fun op => op.fresh = ∅ := by
  simp only [List.Forall]; repeat' constructor
abbrev wr8 : List (Ref sig .tc) := [main_v105, main_v106, main_v107, main_v108, main_v109, main_v110, main_v111, main_v112, main_v113, main_v114, main_v115, main_v116, main_v117, main_v118, main_v119, main_v120, main_v121, main_v122, main_v123, main_v124, main_v125, main_cst_21, main_v126, main_v127, main_cst_22, main_v128, main_v129, main_v130, main_v131, main_v132, main_cst_23, main_v133, main_v134, main_cst_24, main_v135, main_v136, main_v137, main_v138, main_v139, main_v140, main_cst_25, main_v141, main_v142, main_v143, main_v144]
theorem wr8_sub : (ch8 : List (HloOp τ sig (Elt F))).Forall fun op => op.writes ⊆ (wr8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 178 to 184. -/
abbrev ch9 : List (HloOp τ sig (Elt F)) :=
  [ nullary main_c_26 (constantI S_ 32 0#32),
    unary main_c_26 main_v145 (broadcastInDim S200000 ![] bcast_S_S200000 : (⟨S_, .i32⟩ : BufTy).Contents (Elt F) → (⟨S200000, .i32⟩ : BufTy).Contents (Elt F)),
    binary main_arg1 main_v145 main_v146 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32),
    unary main_c_27 main_v147 (broadcastInDim S200000 ![] bcast_S_S200000 : (⟨S_, .i32⟩ : BufTy).Contents (Elt F) → (⟨S200000, .i32⟩ : BufTy).Contents (Elt F)),
    binary main_arg1 main_v147 main_v148 (addi : (⟨S200000, .i32⟩ : BufTy).Contents (Elt F) → (⟨S200000, .i32⟩ : BufTy).Contents (Elt F) → (⟨S200000, .i32⟩ : BufTy).Contents (Elt F)),
    ternary main_v146 main_v148 main_arg1 main_v149 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]
theorem ch9_sub : (ch9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem ch9_fresh : (ch9 : List (HloOp τ sig (Elt F))).Forall fun op => op.fresh = ∅ := by
  simp only [List.Forall]; repeat' constructor
abbrev wr9 : List (Ref sig .tc) := [main_c_26, main_v145, main_v146, main_c_27, main_v147, main_v148, main_v149]
theorem wr9_sub : (ch9 : List (HloOp τ sig (Elt F))).Forall fun op => op.writes ⊆ (wr9.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 185 to 195. -/
abbrev ch10 : List (HloOp τ sig (Elt F)) :=
  [ unary main_v149 main_v150 (broadcastInDim S200000x1 ![0] bcast_S200000_S200000x1_0 : (⟨S200000, .i32⟩ : BufTy).Contents (Elt F) → (⟨S200000x1, .i32⟩ : BufTy).Contents (Elt F)),
    binary main_v104 main_v150 main_v151 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)),
    nullary main_c_28 (constantI S_ 32 0#32),
    unary main_c_28 main_v152 (broadcastInDim S200000 ![] bcast_S_S200000 : (⟨S_, .i32⟩ : BufTy).Contents (Elt F) → (⟨S200000, .i32⟩ : BufTy).Contents (Elt F)),
    binary main_arg2 main_v152 main_v153 (cmpi .slt : (⟨S200000, .i32⟩ : BufTy).Contents (Elt F) → (⟨S200000, .i32⟩ : BufTy).Contents (Elt F) → (⟨S200000, .i1⟩ : BufTy).Contents (Elt F)),
    nullary main_c_29 (constantI S_ 32 100000#32),
    unary main_c_29 main_v154 (broadcastInDim S200000 ![] bcast_S_S200000 : (⟨S_, .i32⟩ : BufTy).Contents (Elt F) → (⟨S200000, .i32⟩ : BufTy).Contents (Elt F)),
    binary main_arg2 main_v154 main_v155 (addi : (⟨S200000, .i32⟩ : BufTy).Contents (Elt F) → (⟨S200000, .i32⟩ : BufTy).Contents (Elt F) → (⟨S200000, .i32⟩ : BufTy).Contents (Elt F)),
    ternary main_v153 main_v155 main_arg2 main_v156 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v156 main_v157 (broadcastInDim S200000x1 ![0] bcast_S200000_S200000x1_0 : (⟨S200000, .i32⟩ : BufTy).Contents (Elt F) → (⟨S200000x1, .i32⟩ : BufTy).Contents (Elt F)),
    binary main_v144 main_v157 main_v158 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ]
theorem ch10_sub : (ch10 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ch10_fresh : (ch10 : List (HloOp τ sig (Elt F))).Forall fun op => op.fresh = ∅ := by
  simp only [List.Forall]; repeat' constructor
abbrev wr10 : List (Ref sig .tc) := [main_v150, main_v151, main_c_28, main_v152, main_v153, main_c_29, main_v154, main_v155, main_v156, main_v157, main_v158]
theorem wr10_sub : (ch10 : List (HloOp τ sig (Elt F))).Forall fun op => op.writes ⊆ (wr10.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 196 to 218. -/
abbrev ch11 : List (HloOp τ sig (Elt F)) :=
  [ binary main_v151 main_v158 main_v159 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v159 main_arg5 main_v160 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg6 main_v161 (broadcastInDim S1x128 ![1] bcast_S128_S1x128_1 : (⟨S128, .f32⟩ : BufTy).Contents (Elt F) → (⟨S1x128, .f32⟩ : BufTy).Contents (Elt F)),
    unary main_v161 main_v162 (broadcastInDim S200000x128 ![0, 1] bcast_S1x128_S200000x128_0_1 : (⟨S1x128, .f32⟩ : BufTy).Contents (Elt F) → (⟨S200000x128, .f32⟩ : BufTy).Contents (Elt F)),
    binary main_v160 main_v162 main_v163 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x128, .f32⟩) main_call2_v0) (broadcastInDim S200000x128 ![] bcast_S_S200000x128),
    TRef.binary (TRef.of (T := ⟨S200000x128, .f32⟩) main_v163) (TRef.of (T := ⟨S200000x128, .f32⟩) main_call2_v0) (TRef.of (T := ⟨S200000x128, .f32⟩) main_v164) maximumf,
    nullary main_cst_30 (constant S_ .f32 0x00000000#32),
    unary main_cst_30 main_v165 (broadcastInDim S100000x128 ![] bcast_S_S100000x128 : (⟨S_, .f32⟩ : BufTy).Contents (Elt F) → (⟨S100000x128, .f32⟩ : BufTy).Contents (Elt F)),
    unary main_arg2 main_v166 (broadcastInDim S200000x1 ![0] bcast_S200000_S200000x1_0 : (⟨S200000, .i32⟩ : BufTy).Contents (Elt F) → (⟨S200000x1, .i32⟩ : BufTy).Contents (Elt F)),
    ternary main_v165 main_v166 main_v164 main_v167 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    nullary main_cst_31 (constant S_ .f32 0x3F800000#32),
    unary main_cst_31 main_v168 (broadcastInDim S200000x1 ![] bcast_S_S200000x1 : (⟨S_, .f32⟩ : BufTy).Contents (Elt F) → (⟨S200000x1, .f32⟩ : BufTy).Contents (Elt F)),
    nullary main_cst_32 (constant S_ .f32 0x00000000#32),
    unary main_cst_32 main_v169 (broadcastInDim S100000x1 ![] bcast_S_S100000x1 : (⟨S_, .f32⟩ : BufTy).Contents (Elt F) → (⟨S100000x1, .f32⟩ : BufTy).Contents (Elt F)),
    unary main_arg2 main_v170 (broadcastInDim S200000x1 ![0] bcast_S200000_S200000x1_0 : (⟨S200000, .i32⟩ : BufTy).Contents (Elt F) → (⟨S200000x1, .i32⟩ : BufTy).Contents (Elt F)),
    ternary main_v169 main_v170 main_v168 main_v171 ((fun x i u => Host.scatterAdd scatter_S100000x1_S200000x1_S200000x1_1_0_0_1 x i u) : (⟨S100000x1, .f32⟩ : BufTy).Contents (Elt F) → (⟨S200000x1, .i32⟩ : BufTy).Contents (Elt F) → (⟨S200000x1, .f32⟩ : BufTy).Contents (Elt F) → (⟨S100000x1, .f32⟩ : BufTy).Contents (Elt F)),
    nullary main_cst_33 (constant S_ .f32 0x3F800000#32),
    unary main_cst_33 main_v172 (broadcastInDim S100000x1 ![] bcast_S_S100000x1 : (⟨S_, .f32⟩ : BufTy).Contents (Elt F) → (⟨S100000x1, .f32⟩ : BufTy).Contents (Elt F)),
    binary main_v171 main_v172 main_v173 (maximumf : (⟨S100000x1, .f32⟩ : BufTy).Contents (Elt F) → (⟨S100000x1, .f32⟩ : BufTy).Contents (Elt F) → (⟨S100000x1, .f32⟩ : BufTy).Contents (Elt F)),
    unary main_v173 main_v174 (broadcastInDim S100000x128 ![0, 1] bcast_S100000x1_S100000x128_0_1 : (⟨S100000x1, .f32⟩ : BufTy).Contents (Elt F) → (⟨S100000x128, .f32⟩ : BufTy).Contents (Elt F)),
    binary main_v167 main_v174 main_v175 (Host.divf : (⟨S100000x128, .f32⟩ : BufTy).Contents (Elt F) → (⟨S100000x128, .f32⟩ : BufTy).Contents (Elt F) → (⟨S100000x128, .f32⟩ : BufTy).Contents (Elt F)) ]
theorem ch11_sub : (ch11 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem ch11_fresh : (ch11 : List (HloOp τ sig (Elt F))).Forall fun op => op.fresh = ∅ := by
  simp only [List.Forall]; repeat' constructor
abbrev wr11 : List (Ref sig .tc) := [main_v159, main_v160, main_v161, main_v162, main_v163, main_call2_cst, main_call2_v0, main_v164, main_cst_30, main_v165, main_v166, main_v167, main_cst_31, main_v168, main_cst_32, main_v169, main_v170, main_v171, main_cst_33, main_v172, main_v173, main_v174, main_v175]
theorem wr11_sub : (ch11 : List (HloOp τ sig (Elt F))).Forall fun op => op.writes ⊆ (wr11.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 219 to 236. -/
abbrev ch12 : List (HloOp τ sig (Elt F)) :=
  [ nullary main_c_34 (constantI S_ 32 0#32),
    unary main_c_34 main_v176 (broadcastInDim S200000 ![] bcast_S_S200000 : (⟨S_, .i32⟩ : BufTy).Contents (Elt F) → (⟨S200000, .i32⟩ : BufTy).Contents (Elt F)),
    binary main_arg3 main_v176 main_v177 (cmpi .slt : (⟨S200000, .i32⟩ : BufTy).Contents (Elt F) → (⟨S200000, .i32⟩ : BufTy).Contents (Elt F) → (⟨S200000, .i1⟩ : BufTy).Contents (Elt F)),
    nullary main_c_35 (constantI S_ 32 100000#32),
    unary main_c_35 main_v178 (broadcastInDim S200000 ![] bcast_S_S200000 : (⟨S_, .i32⟩ : BufTy).Contents (Elt F) → (⟨S200000, .i32⟩ : BufTy).Contents (Elt F)),
    binary main_arg3 main_v178 main_v179 (addi : (⟨S200000, .i32⟩ : BufTy).Contents (Elt F) → (⟨S200000, .i32⟩ : BufTy).Contents (Elt F) → (⟨S200000, .i32⟩ : BufTy).Contents (Elt F)),
    ternary main_v177 main_v179 main_arg3 main_v180 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v180 main_v181 (broadcastInDim S200000x1 ![0] bcast_S200000_S200000x1_0 : (⟨S200000, .i32⟩ : BufTy).Contents (Elt F) → (⟨S200000x1, .i32⟩ : BufTy).Contents (Elt F)),
    binary main_v144 main_v181 main_v182 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_36 (constantI S_ 32 0#32),
    unary main_c_36 main_v183 (broadcastInDim S200000 ![] bcast_S_S200000 : (⟨S_, .i32⟩ : BufTy).Contents (Elt F) → (⟨S200000, .i32⟩ : BufTy).Contents (Elt F)),
    binary main_arg4 main_v183 main_v184 (cmpi .slt : (⟨S200000, .i32⟩ : BufTy).Contents (Elt F) → (⟨S200000, .i32⟩ : BufTy).Contents (Elt F) → (⟨S200000, .i1⟩ : BufTy).Contents (Elt F)),
    nullary main_c_37 (constantI S_ 32 20000#32),
    unary main_c_37 main_v185 (broadcastInDim S200000 ![] bcast_S_S200000 : (⟨S_, .i32⟩ : BufTy).Contents (Elt F) → (⟨S200000, .i32⟩ : BufTy).Contents (Elt F)),
    binary main_arg4 main_v185 main_v186 (addi : (⟨S200000, .i32⟩ : BufTy).Contents (Elt F) → (⟨S200000, .i32⟩ : BufTy).Contents (Elt F) → (⟨S200000, .i32⟩ : BufTy).Contents (Elt F)),
    ternary main_v184 main_v186 main_arg4 main_v187 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v187 main_v188 (broadcastInDim S200000x1 ![0] bcast_S200000_S200000x1_0 : (⟨S200000, .i32⟩ : BufTy).Contents (Elt F) → (⟨S200000x1, .i32⟩ : BufTy).Contents (Elt F)),
    binary main_v104 main_v188 main_v189 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)) ]
theorem ch12_sub : (ch12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ch12_fresh : (ch12 : List (HloOp τ sig (Elt F))).Forall fun op => op.fresh = ∅ := by
  simp only [List.Forall]; repeat' constructor
abbrev wr12 : List (Ref sig .tc) := [main_c_34, main_v176, main_v177, main_c_35, main_v178, main_v179, main_v180, main_v181, main_v182, main_c_36, main_v183, main_v184, main_c_37, main_v185, main_v186, main_v187, main_v188, main_v189]
theorem wr12_sub : (ch12 : List (HloOp τ sig (Elt F))).Forall fun op => op.writes ⊆ (wr12.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 237 to 248. -/
abbrev ch13 : List (HloOp τ sig (Elt F)) :=
  [ binary main_v182 main_v189 main_v190 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v190 main_arg7 main_v191 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg8 main_v192 (broadcastInDim S1x128 ![1] bcast_S128_S1x128_1 : (⟨S128, .f32⟩ : BufTy).Contents (Elt F) → (⟨S1x128, .f32⟩ : BufTy).Contents (Elt F)),
    unary main_v192 main_v193 (broadcastInDim S200000x128 ![0, 1] bcast_S1x128_S200000x128_0_1 : (⟨S1x128, .f32⟩ : BufTy).Contents (Elt F) → (⟨S200000x128, .f32⟩ : BufTy).Contents (Elt F)),
    binary main_v191 main_v193 main_v194 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S200000x128, .f32⟩) main_call3_v0) (broadcastInDim S200000x128 ![] bcast_S_S200000x128),
    TRef.binary (TRef.of (T := ⟨S200000x128, .f32⟩) main_v194) (TRef.of (T := ⟨S200000x128, .f32⟩) main_call3_v0) (TRef.of (T := ⟨S200000x128, .f32⟩) main_v195) maximumf,
    nullary main_cst_38 (constant S_ .f32 0x00000000#32),
    unary main_cst_38 main_v196 (broadcastInDim S20000x128 ![] bcast_S_S20000x128 : (⟨S_, .f32⟩ : BufTy).Contents (Elt F) → (⟨S20000x128, .f32⟩ : BufTy).Contents (Elt F)),
    unary main_arg4 main_v197 (broadcastInDim S200000x1 ![0] bcast_S200000_S200000x1_0 : (⟨S200000, .i32⟩ : BufTy).Contents (Elt F) → (⟨S200000x1, .i32⟩ : BufTy).Contents (Elt F)),
    ternary main_v196 main_v197 main_v195 main_v198 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)) ]
theorem ch13_sub : (ch13 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub ..⟩
theorem ch13_fresh : (ch13 : List (HloOp τ sig (Elt F))).Forall fun op => op.fresh = ∅ := by
  simp only [List.Forall]; repeat' constructor
abbrev wr13 : List (Ref sig .tc) := [main_v190, main_v191, main_v192, main_v193, main_v194, main_call3_cst, main_call3_v0, main_v195, main_cst_38, main_v196, main_v197, main_v198]
theorem wr13_sub : (ch13 : List (HloOp τ sig (Elt F))).Forall fun op => op.writes ⊆ (wr13.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 249 to 259. -/
abbrev ch14 : List (HloOp τ sig (Elt F)) :=
  [ nullary main_cst_39 (constant S_ .f32 0x3F800000#32),
    unary main_cst_39 main_v199 (broadcastInDim S200000x1 ![] bcast_S_S200000x1 : (⟨S_, .f32⟩ : BufTy).Contents (Elt F) → (⟨S200000x1, .f32⟩ : BufTy).Contents (Elt F)),
    nullary main_cst_40 (constant S_ .f32 0x00000000#32),
    unary main_cst_40 main_v200 (broadcastInDim S20000x1 ![] bcast_S_S20000x1 : (⟨S_, .f32⟩ : BufTy).Contents (Elt F) → (⟨S20000x1, .f32⟩ : BufTy).Contents (Elt F)),
    unary main_arg4 main_v201 (broadcastInDim S200000x1 ![0] bcast_S200000_S200000x1_0 : (⟨S200000, .i32⟩ : BufTy).Contents (Elt F) → (⟨S200000x1, .i32⟩ : BufTy).Contents (Elt F)),
    ternary main_v200 main_v201 main_v199 main_v202 ((fun x i u => Host.scatterAdd scatter_S20000x1_S200000x1_S200000x1_1_0_0_1 x i u) : (⟨S20000x1, .f32⟩ : BufTy).Contents (Elt F) → (⟨S200000x1, .i32⟩ : BufTy).Contents (Elt F) → (⟨S200000x1, .f32⟩ : BufTy).Contents (Elt F) → (⟨S20000x1, .f32⟩ : BufTy).Contents (Elt F)),
    nullary main_cst_41 (constant S_ .f32 0x3F800000#32),
    unary main_cst_41 main_v203 (broadcastInDim S20000x1 ![] bcast_S_S20000x1 : (⟨S_, .f32⟩ : BufTy).Contents (Elt F) → (⟨S20000x1, .f32⟩ : BufTy).Contents (Elt F)),
    binary main_v202 main_v203 main_v204 (maximumf : (⟨S20000x1, .f32⟩ : BufTy).Contents (Elt F) → (⟨S20000x1, .f32⟩ : BufTy).Contents (Elt F) → (⟨S20000x1, .f32⟩ : BufTy).Contents (Elt F)),
    unary main_v204 main_v205 (broadcastInDim S20000x128 ![0, 1] bcast_S20000x1_S20000x128_0_1 : (⟨S20000x1, .f32⟩ : BufTy).Contents (Elt F) → (⟨S20000x128, .f32⟩ : BufTy).Contents (Elt F)),
    binary main_v198 main_v205 main_v206 (Host.divf : (⟨S20000x128, .f32⟩ : BufTy).Contents (Elt F) → (⟨S20000x128, .f32⟩ : BufTy).Contents (Elt F) → (⟨S20000x128, .f32⟩ : BufTy).Contents (Elt F)) ]
theorem ch14_sub : (ch14 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem ch14_fresh : (ch14 : List (HloOp τ sig (Elt F))).Forall fun op => op.fresh = ∅ := by
  simp only [List.Forall]; repeat' constructor
abbrev wr14 : List (Ref sig .tc) := [main_cst_39, main_v199, main_cst_40, main_v200, main_v201, main_v202, main_cst_41, main_v203, main_v204, main_v205, main_v206]
theorem wr14_sub : (ch14 : List (HloOp τ sig (Elt F))).Forall fun op => op.writes ⊆ (wr14.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 260 to 308. -/
abbrev ch15 : List (HloOp τ sig (Elt F)) :=
  [ binary main_v206 main_arg9 main_v207 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    unary main_arg11 main_v208 ((extractStridedSlice S1x384 ![0, 0] · slices_S2x384_S1x384_0_0) : (⟨S2x384, .f32⟩ : BufTy).Contents (Elt F) → (⟨S1x384, .f32⟩ : BufTy).Contents (Elt F)),
    reshape main_v208 main_v209 rfl shapeCasts_S1x384_S384,
    unary main_v209 main_v210 (broadcastInDim S1x384 ![1] bcast_S384_S1x384_1 : (⟨S384, .f32⟩ : BufTy).Contents (Elt F) → (⟨S1x384, .f32⟩ : BufTy).Contents (Elt F)),
    unary main_v210 main_v211 (broadcastInDim S20000x384 ![0, 1] bcast_S1x384_S20000x384_0_1 : (⟨S1x384, .f32⟩ : BufTy).Contents (Elt F) → (⟨S20000x384, .f32⟩ : BufTy).Contents (Elt F)),
    binary main_v207 main_v211 main_v212 (addf : (⟨S20000x384, .f32⟩ : BufTy).Contents (Elt F) → (⟨S20000x384, .f32⟩ : BufTy).Contents (Elt F) → (⟨S20000x384, .f32⟩ : BufTy).Contents (Elt F)),
    binary main_v104 main_arg10 main_v213 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    unary main_arg11 main_v214 ((extractStridedSlice S1x384 ![1, 0] · slices_S2x384_S1x384_1_0) : (⟨S2x384, .f32⟩ : BufTy).Contents (Elt F) → (⟨S1x384, .f32⟩ : BufTy).Contents (Elt F)),
    reshape main_v214 main_v215 rfl shapeCasts_S1x384_S384,
    unary main_v215 main_v216 (broadcastInDim S1x384 ![1] bcast_S384_S1x384_1 : (⟨S384, .f32⟩ : BufTy).Contents (Elt F) → (⟨S1x384, .f32⟩ : BufTy).Contents (Elt F)),
    unary main_v216 main_v217 (broadcastInDim S20000x384 ![0, 1] bcast_S1x384_S20000x384_0_1 : (⟨S1x384, .f32⟩ : BufTy).Contents (Elt F) → (⟨S20000x384, .f32⟩ : BufTy).Contents (Elt F)),
    binary main_v213 main_v217 main_v218 (addf : (⟨S20000x384, .f32⟩ : BufTy).Contents (Elt F) → (⟨S20000x384, .f32⟩ : BufTy).Contents (Elt F) → (⟨S20000x384, .f32⟩ : BufTy).Contents (Elt F)),
    unary main_v212 main_v219 ((extractStridedSlice S20000x128 ![0, 0] · slices_S20000x384_S20000x128_0_0) : (⟨S20000x384, .f32⟩ : BufTy).Contents (Elt F) → (⟨S20000x128, .f32⟩ : BufTy).Contents (Elt F)),
    unary main_v212 main_v220 ((extractStridedSlice S20000x128 ![0, 128] · slices_S20000x384_S20000x128_0_128) : (⟨S20000x384, .f32⟩ : BufTy).Contents (Elt F) → (⟨S20000x128, .f32⟩ : BufTy).Contents (Elt F)),
    unary main_v212 main_v221 ((extractStridedSlice S20000x128 ![0, 256] · slices_S20000x384_S20000x128_0_256) : (⟨S20000x384, .f32⟩ : BufTy).Contents (Elt F) → (⟨S20000x128, .f32⟩ : BufTy).Contents (Elt F)),
    unary main_v218 main_v222 ((extractStridedSlice S20000x128 ![0, 0] · slices_S20000x384_S20000x128_0_0) : (⟨S20000x384, .f32⟩ : BufTy).Contents (Elt F) → (⟨S20000x128, .f32⟩ : BufTy).Contents (Elt F)),
    unary main_v218 main_v223 ((extractStridedSlice S20000x128 ![0, 128] · slices_S20000x384_S20000x128_0_128) : (⟨S20000x384, .f32⟩ : BufTy).Contents (Elt F) → (⟨S20000x128, .f32⟩ : BufTy).Contents (Elt F)),
    unary main_v218 main_v224 ((extractStridedSlice S20000x128 ![0, 256] · slices_S20000x384_S20000x128_0_256) : (⟨S20000x384, .f32⟩ : BufTy).Contents (Elt F) → (⟨S20000x128, .f32⟩ : BufTy).Contents (Elt F)),
    binary main_v219 main_v222 main_v225 (addf : (⟨S20000x128, .f32⟩ : BufTy).Contents (Elt F) → (⟨S20000x128, .f32⟩ : BufTy).Contents (Elt F) → (⟨S20000x128, .f32⟩ : BufTy).Contents (Elt F)),
    unary main_v225 main_v226 (Host.negf : (⟨S20000x128, .f32⟩ : BufTy).Contents (Elt F) → (⟨S20000x128, .f32⟩ : BufTy).Contents (Elt F)),
    unary main_v226 main_v227 (Host.exp : (⟨S20000x128, .f32⟩ : BufTy).Contents (Elt F) → (⟨S20000x128, .f32⟩ : BufTy).Contents (Elt F)),
    nullary main_cst_42 (constant S_ .f32 0x3F800000#32),
    unary main_cst_42 main_v228 (broadcastInDim S20000x128 ![] bcast_S_S20000x128 : (⟨S_, .f32⟩ : BufTy).Contents (Elt F) → (⟨S20000x128, .f32⟩ : BufTy).Contents (Elt F)),
    binary main_v228 main_v227 main_v229 (addf : (⟨S20000x128, .f32⟩ : BufTy).Contents (Elt F) → (⟨S20000x128, .f32⟩ : BufTy).Contents (Elt F) → (⟨S20000x128, .f32⟩ : BufTy).Contents (Elt F)),
    nullary main_cst_43 (constant S_ .f32 0x3F800000#32),
    unary main_cst_43 main_v230 (broadcastInDim S20000x128 ![] bcast_S_S20000x128 : (⟨S_, .f32⟩ : BufTy).Contents (Elt F) → (⟨S20000x128, .f32⟩ : BufTy).Contents (Elt F)),
    binary main_v230 main_v229 main_v231 (Host.divf : (⟨S20000x128, .f32⟩ : BufTy).Contents (Elt F) → (⟨S20000x128, .f32⟩ : BufTy).Contents (Elt F) → (⟨S20000x128, .f32⟩ : BufTy).Contents (Elt F)),
    binary main_v220 main_v223 main_v232 (addf : (⟨S20000x128, .f32⟩ : BufTy).Contents (Elt F) → (⟨S20000x128, .f32⟩ : BufTy).Contents (Elt F) → (⟨S20000x128, .f32⟩ : BufTy).Contents (Elt F)),
    unary main_v232 main_v233 (Host.negf : (⟨S20000x128, .f32⟩ : BufTy).Contents (Elt F) → (⟨S20000x128, .f32⟩ : BufTy).Contents (Elt F)),
    unary main_v233 main_v234 (Host.exp : (⟨S20000x128, .f32⟩ : BufTy).Contents (Elt F) → (⟨S20000x128, .f32⟩ : BufTy).Contents (Elt F)),
    nullary main_cst_44 (constant S_ .f32 0x3F800000#32),
    unary main_cst_44 main_v235 (broadcastInDim S20000x128 ![] bcast_S_S20000x128 : (⟨S_, .f32⟩ : BufTy).Contents (Elt F) → (⟨S20000x128, .f32⟩ : BufTy).Contents (Elt F)),
    binary main_v235 main_v234 main_v236 (addf : (⟨S20000x128, .f32⟩ : BufTy).Contents (Elt F) → (⟨S20000x128, .f32⟩ : BufTy).Contents (Elt F) → (⟨S20000x128, .f32⟩ : BufTy).Contents (Elt F)),
    nullary main_cst_45 (constant S_ .f32 0x3F800000#32),
    unary main_cst_45 main_v237 (broadcastInDim S20000x128 ![] bcast_S_S20000x128 : (⟨S_, .f32⟩ : BufTy).Contents (Elt F) → (⟨S20000x128, .f32⟩ : BufTy).Contents (Elt F)),
    binary main_v237 main_v236 main_v238 (Host.divf : (⟨S20000x128, .f32⟩ : BufTy).Contents (Elt F) → (⟨S20000x128, .f32⟩ : BufTy).Contents (Elt F) → (⟨S20000x128, .f32⟩ : BufTy).Contents (Elt F)),
    binary main_v238 main_v224 main_v239 (mulf : (⟨S20000x128, .f32⟩ : BufTy).Contents (Elt F) → (⟨S20000x128, .f32⟩ : BufTy).Contents (Elt F) → (⟨S20000x128, .f32⟩ : BufTy).Contents (Elt F)),
    binary main_v221 main_v239 main_v240 (addf : (⟨S20000x128, .f32⟩ : BufTy).Contents (Elt F) → (⟨S20000x128, .f32⟩ : BufTy).Contents (Elt F) → (⟨S20000x128, .f32⟩ : BufTy).Contents (Elt F)),
    unary main_v240 main_v241 (Host.tanh : (⟨S20000x128, .f32⟩ : BufTy).Contents (Elt F) → (⟨S20000x128, .f32⟩ : BufTy).Contents (Elt F)),
    binary main_v231 main_v104 main_v242 (mulf : (⟨S20000x128, .f32⟩ : BufTy).Contents (Elt F) → (⟨S20000x128, .f32⟩ : BufTy).Contents (Elt F) → (⟨S20000x128, .f32⟩ : BufTy).Contents (Elt F)),
    nullary main_cst_46 (constant S_ .f32 0x3F800000#32),
    unary main_cst_46 main_v243 (broadcastInDim S20000x128 ![] bcast_S_S20000x128 : (⟨S_, .f32⟩ : BufTy).Contents (Elt F) → (⟨S20000x128, .f32⟩ : BufTy).Contents (Elt F)),
    binary main_v243 main_v231 main_v244 (subf : (⟨S20000x128, .f32⟩ : BufTy).Contents (Elt F) → (⟨S20000x128, .f32⟩ : BufTy).Contents (Elt F) → (⟨S20000x128, .f32⟩ : BufTy).Contents (Elt F)),
    binary main_v244 main_v241 main_v245 (mulf : (⟨S20000x128, .f32⟩ : BufTy).Contents (Elt F) → (⟨S20000x128, .f32⟩ : BufTy).Contents (Elt F) → (⟨S20000x128, .f32⟩ : BufTy).Contents (Elt F)),
    binary main_v242 main_v245 main_v246 (addf : (⟨S20000x128, .f32⟩ : BufTy).Contents (Elt F) → (⟨S20000x128, .f32⟩ : BufTy).Contents (Elt F) → (⟨S20000x128, .f32⟩ : BufTy).Contents (Elt F)),
    binary main_v175 main_arg12 main_v247 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v248 ((extractStridedSlice S1x384 ![0, 0] · slices_S2x384_S1x384_0_0) : (⟨S2x384, .f32⟩ : BufTy).Contents (Elt F) → (⟨S1x384, .f32⟩ : BufTy).Contents (Elt F)),
    reshape main_v248 main_v249 rfl shapeCasts_S1x384_S384,
    unary main_v249 main_v250 (broadcastInDim S1x384 ![1] bcast_S384_S1x384_1 : (⟨S384, .f32⟩ : BufTy).Contents (Elt F) → (⟨S1x384, .f32⟩ : BufTy).Contents (Elt F)) ]
theorem ch15_sub : (ch15 : List (HloOp τ sig (Elt F))).Forall fun op => op.bufs ⊆ tcRefs τ sig :=
  ⟨binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., binary_bufs_sub .., unary_bufs_sub .., reshape_bufs_sub .., unary_bufs_sub ..⟩
theorem ch15_fresh : (ch15 : List (HloOp τ sig (Elt F))).Forall fun op => op.fresh = ∅ := by
  simp only [List.Forall]; repeat' constructor
abbrev wr15 : List (Ref sig .tc) := [main_v207, main_v208, main_v209, main_v210, main_v211, main_v212, main_v213, main_v214, main_v215, main_v216, main_v217, main_v218, main_v219, main_v220, main_v221, main_v222, main_v223, main_v224, main_v225, main_v226, main_v227, main_cst_42, main_v228, main_v229, main_cst_43, main_v230, main_v231, main_v232, main_v233, main_v234, main_cst_44, main_v235, main_v236, main_cst_45, main_v237, main_v238, main_v239, main_v240, main_v241, main_v242, main_cst_46, main_v243, main_v244, main_v245, main_v246, main_v247, main_v248, main_v249, main_v250]
theorem wr15_sub : (ch15 : List (HloOp τ sig (Elt F))).Forall fun op => op.writes ⊆ (wr15.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 309 to 349. -/
abbrev ch16 : List (HloOp τ sig (Elt F)) :=
  [ unary main_v250 main_v251 (broadcastInDim S100000x384 ![0, 1] bcast_S1x384_S100000x384_0_1 : (⟨S1x384, .f32⟩ : BufTy).Contents (Elt F) → (⟨S100000x384, .f32⟩ : BufTy).Contents (Elt F)),
    binary main_v247 main_v251 main_v252 (addf : (⟨S100000x384, .f32⟩ : BufTy).Contents (Elt F) → (⟨S100000x384, .f32⟩ : BufTy).Contents (Elt F) → (⟨S100000x384, .f32⟩ : BufTy).Contents (Elt F)),
    binary main_v144 main_arg13 main_v253 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v254 ((extractStridedSlice S1x384 ![1, 0] · slices_S2x384_S1x384_1_0) : (⟨S2x384, .f32⟩ : BufTy).Contents (Elt F) → (⟨S1x384, .f32⟩ : BufTy).Contents (Elt F)),
    reshape main_v254 main_v255 rfl shapeCasts_S1x384_S384,
    unary main_v255 main_v256 (broadcastInDim S1x384 ![1] bcast_S384_S1x384_1 : (⟨S384, .f32⟩ : BufTy).Contents (Elt F) → (⟨S1x384, .f32⟩ : BufTy).Contents (Elt F)),
    unary main_v256 main_v257 (broadcastInDim S100000x384 ![0, 1] bcast_S1x384_S100000x384_0_1 : (⟨S1x384, .f32⟩ : BufTy).Contents (Elt F) → (⟨S100000x384, .f32⟩ : BufTy).Contents (Elt F)),
    binary main_v253 main_v257 main_v258 (addf : (⟨S100000x384, .f32⟩ : BufTy).Contents (Elt F) → (⟨S100000x384, .f32⟩ : BufTy).Contents (Elt F) → (⟨S100000x384, .f32⟩ : BufTy).Contents (Elt F)),
    unary main_v252 main_v259 ((extractStridedSlice S100000x128 ![0, 0] · slices_S100000x384_S100000x128_0_0) : (⟨S100000x384, .f32⟩ : BufTy).Contents (Elt F) → (⟨S100000x128, .f32⟩ : BufTy).Contents (Elt F)),
    unary main_v252 main_v260 ((extractStridedSlice S100000x128 ![0, 128] · slices_S100000x384_S100000x128_0_128) : (⟨S100000x384, .f32⟩ : BufTy).Contents (Elt F) → (⟨S100000x128, .f32⟩ : BufTy).Contents (Elt F)),
    unary main_v252 main_v261 ((extractStridedSlice S100000x128 ![0, 256] · slices_S100000x384_S100000x128_0_256) : (⟨S100000x384, .f32⟩ : BufTy).Contents (Elt F) → (⟨S100000x128, .f32⟩ : BufTy).Contents (Elt F)),
    unary main_v258 main_v262 ((extractStridedSlice S100000x128 ![0, 0] · slices_S100000x384_S100000x128_0_0) : (⟨S100000x384, .f32⟩ : BufTy).Contents (Elt F) → (⟨S100000x128, .f32⟩ : BufTy).Contents (Elt F)),
    unary main_v258 main_v263 ((extractStridedSlice S100000x128 ![0, 128] · slices_S100000x384_S100000x128_0_128) : (⟨S100000x384, .f32⟩ : BufTy).Contents (Elt F) → (⟨S100000x128, .f32⟩ : BufTy).Contents (Elt F)),
    unary main_v258 main_v264 ((extractStridedSlice S100000x128 ![0, 256] · slices_S100000x384_S100000x128_0_256) : (⟨S100000x384, .f32⟩ : BufTy).Contents (Elt F) → (⟨S100000x128, .f32⟩ : BufTy).Contents (Elt F)),
    binary main_v259 main_v262 main_v265 (addf : (⟨S100000x128, .f32⟩ : BufTy).Contents (Elt F) → (⟨S100000x128, .f32⟩ : BufTy).Contents (Elt F) → (⟨S100000x128, .f32⟩ : BufTy).Contents (Elt F)),
    unary main_v265 main_v266 (Host.negf : (⟨S100000x128, .f32⟩ : BufTy).Contents (Elt F) → (⟨S100000x128, .f32⟩ : BufTy).Contents (Elt F)),
    unary main_v266 main_v267 (Host.exp : (⟨S100000x128, .f32⟩ : BufTy).Contents (Elt F) → (⟨S100000x128, .f32⟩ : BufTy).Contents (Elt F)),
    nullary main_cst_47 (constant S_ .f32 0x3F800000#32),
    unary main_cst_47 main_v268 (broadcastInDim S100000x128 ![] bcast_S_S100000x128 : (⟨S_, .f32⟩ : BufTy).Contents (Elt F) → (⟨S100000x128, .f32⟩ : BufTy).Contents (Elt F)),
    binary main_v268 main_v267 main_v269 (addf : (⟨S100000x128, .f32⟩ : BufTy).Contents (Elt F) → (⟨S100000x128, .f32⟩ : BufTy).Contents (Elt F) → (⟨S100000x128, .f32⟩ : BufTy).Contents (Elt F)),
    nullary main_cst_48 (constant S_ .f32 0x3F800000#32),
    unary main_cst_48 main_v270 (broadcastInDim S100000x128 ![] bcast_S_S100000x128 : (⟨S_, .f32⟩ : BufTy).Contents (Elt F) → (⟨S100000x128, .f32⟩ : BufTy).Contents (Elt F)),
    binary main_v270 main_v269 main_v271 (Host.divf : (⟨S100000x128, .f32⟩ : BufTy).Contents (Elt F) → (⟨S100000x128, .f32⟩ : BufTy).Contents (Elt F) → (⟨S100000x128, .f32⟩ : BufTy).Contents (Elt F)),
    binary main_v260 main_v263 main_v272 (addf : (⟨S100000x128, .f32⟩ : BufTy).Contents (Elt F) → (⟨S100000x128, .f32⟩ : BufTy).Contents (Elt F) → (⟨S100000x128, .f32⟩ : BufTy).Contents (Elt F)),
    unary main_v272 main_v273 (Host.negf : (⟨S100000x128, .f32⟩ : BufTy).Contents (Elt F) → (⟨S100000x128, .f32⟩ : BufTy).Contents (Elt F)),
    unary main_v273 main_v274 (Host.exp : (⟨S100000x128, .f32⟩ : BufTy).Contents (Elt F) → (⟨S100000x128, .f32⟩ : BufTy).Contents (Elt F)),
    nullary main_cst_49 (constant S_ .f32 0x3F800000#32),
    unary main_cst_49 main_v275 (broadcastInDim S100000x128 ![] bcast_S_S100000x128 : (⟨S_, .f32⟩ : BufTy).Contents (Elt F) → (⟨S100000x128, .f32⟩ : BufTy).Contents (Elt F)),
    binary main_v275 main_v274 main_v276 (addf : (⟨S100000x128, .f32⟩ : BufTy).Contents (Elt F) → (⟨S100000x128, .f32⟩ : BufTy).Contents (Elt F) → (⟨S100000x128, .f32⟩ : BufTy).Contents (Elt F)),
    nullary main_cst_50 (constant S_ .f32 0x3F800000#32),
    unary main_cst_50 main_v277 (broadcastInDim S100000x128 ![] bcast_S_S100000x128 : (⟨S_, .f32⟩ : BufTy).Contents (Elt F) → (⟨S100000x128, .f32⟩ : BufTy).Contents (Elt F)),
    binary main_v277 main_v276 main_v278 (Host.divf : (⟨S100000x128, .f32⟩ : BufTy).Contents (Elt F) → (⟨S100000x128, .f32⟩ : BufTy).Contents (Elt F) → (⟨S100000x128, .f32⟩ : BufTy).Contents (Elt F)),
    binary main_v278 main_v264 main_v279 (mulf : (⟨S100000x128, .f32⟩ : BufTy).Contents (Elt F) → (⟨S100000x128, .f32⟩ : BufTy).Contents (Elt F) → (⟨S100000x128, .f32⟩ : BufTy).Contents (Elt F)),
    binary main_v261 main_v279 main_v280 (addf : (⟨S100000x128, .f32⟩ : BufTy).Contents (Elt F) → (⟨S100000x128, .f32⟩ : BufTy).Contents (Elt F) → (⟨S100000x128, .f32⟩ : BufTy).Contents (Elt F)),
    unary main_v280 main_v281 (Host.tanh : (⟨S100000x128, .f32⟩ : BufTy).Contents (Elt F) → (⟨S100000x128, .f32⟩ : BufTy).Contents (Elt F)),
    binary main_v271 main_v144 main_v282 (mulf : (⟨S100000x128, .f32⟩ : BufTy).Contents (Elt F) → (⟨S100000x128, .f32⟩ : BufTy).Contents (Elt F) → (⟨S100000x128, .f32⟩ : BufTy).Contents (Elt F)),
    nullary main_cst_51 (constant S_ .f32 0x3F800000#32),
    unary main_cst_51 main_v283 (broadcastInDim S100000x128 ![] bcast_S_S100000x128 : (⟨S_, .f32⟩ : BufTy).Contents (Elt F) → (⟨S100000x128, .f32⟩ : BufTy).Contents (Elt F)),
    binary main_v283 main_v271 main_v284 (subf : (⟨S100000x128, .f32⟩ : BufTy).Contents (Elt F) → (⟨S100000x128, .f32⟩ : BufTy).Contents (Elt F) → (⟨S100000x128, .f32⟩ : BufTy).Contents (Elt F)),
    binary main_v284 main_v281 main_v285 (mulf : (⟨S100000x128, .f32⟩ : BufTy).Contents (Elt F) → (⟨S100000x128, .f32⟩ : BufTy).Contents (Elt F) → (⟨S100000x128, .f32⟩ : BufTy).Contents (Elt F)),
    binary main_v282 main_v285 main_v286 (addf : (⟨S100000x128, .f32⟩ : BufTy).Contents (Elt F) → (⟨S100000x128, .f32⟩ : BufTy).Contents (Elt F) → (⟨S100000x128, .f32⟩ : BufTy).Contents (Elt F)) ]
theorem ch16_sub : (ch16 : List (HloOp τ sig (Elt F))).Forall fun op => op.bufs ⊆ tcRefs τ sig :=
  ⟨unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub ..⟩
theorem ch16_fresh : (ch16 : List (HloOp τ sig (Elt F))).Forall fun op => op.fresh = ∅ := by
  simp only [List.Forall]; repeat' constructor
abbrev wr16 : List (Ref sig .tc) := [main_v251, main_v252, main_v253, main_v254, main_v255, main_v256, main_v257, main_v258, main_v259, main_v260, main_v261, main_v262, main_v263, main_v264, main_v265, main_v266, main_v267, main_cst_47, main_v268, main_v269, main_cst_48, main_v270, main_v271, main_v272, main_v273, main_v274, main_cst_49, main_v275, main_v276, main_cst_50, main_v277, main_v278, main_v279, main_v280, main_v281, main_v282, main_cst_51, main_v283, main_v284, main_v285, main_v286]
theorem wr16_sub : (ch16 : List (HloOp τ sig (Elt F))).Forall fun op => op.writes ⊆ (wr16.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 350 to 367. -/
abbrev ch17 : List (HloOp τ sig (Elt F)) :=
  [ nullary main_c_52 (constantI S_ 32 0#32),
    unary main_c_52 main_v287 (broadcastInDim S200000 ![] bcast_S_S200000 : (⟨S_, .i32⟩ : BufTy).Contents (Elt F) → (⟨S200000, .i32⟩ : BufTy).Contents (Elt F)),
    binary main_arg1 main_v287 main_v288 (cmpi .slt : (⟨S200000, .i32⟩ : BufTy).Contents (Elt F) → (⟨S200000, .i32⟩ : BufTy).Contents (Elt F) → (⟨S200000, .i1⟩ : BufTy).Contents (Elt F)),
    nullary main_c_53 (constantI S_ 32 20000#32),
    unary main_c_53 main_v289 (broadcastInDim S200000 ![] bcast_S_S200000 : (⟨S_, .i32⟩ : BufTy).Contents (Elt F) → (⟨S200000, .i32⟩ : BufTy).Contents (Elt F)),
    binary main_arg1 main_v289 main_v290 (addi : (⟨S200000, .i32⟩ : BufTy).Contents (Elt F) → (⟨S200000, .i32⟩ : BufTy).Contents (Elt F) → (⟨S200000, .i32⟩ : BufTy).Contents (Elt F)),
    ternary main_v288 main_v290 main_arg1 main_v291 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v291 main_v292 (broadcastInDim S200000x1 ![0] bcast_S200000_S200000x1_0 : (⟨S200000, .i32⟩ : BufTy).Contents (Elt F) → (⟨S200000x1, .i32⟩ : BufTy).Contents (Elt F)),
    binary main_v246 main_v292 main_v293 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)),
    nullary main_c_54 (constantI S_ 32 0#32),
    unary main_c_54 main_v294 (broadcastInDim S200000 ![] bcast_S_S200000 : (⟨S_, .i32⟩ : BufTy).Contents (Elt F) → (⟨S200000, .i32⟩ : BufTy).Contents (Elt F)),
    binary main_arg2 main_v294 main_v295 (cmpi .slt : (⟨S200000, .i32⟩ : BufTy).Contents (Elt F) → (⟨S200000, .i32⟩ : BufTy).Contents (Elt F) → (⟨S200000, .i1⟩ : BufTy).Contents (Elt F)),
    nullary main_c_55 (constantI S_ 32 100000#32),
    unary main_c_55 main_v296 (broadcastInDim S200000 ![] bcast_S_S200000 : (⟨S_, .i32⟩ : BufTy).Contents (Elt F) → (⟨S200000, .i32⟩ : BufTy).Contents (Elt F)),
    binary main_arg2 main_v296 main_v297 (addi : (⟨S200000, .i32⟩ : BufTy).Contents (Elt F) → (⟨S200000, .i32⟩ : BufTy).Contents (Elt F) → (⟨S200000, .i32⟩ : BufTy).Contents (Elt F)),
    ternary main_v295 main_v297 main_arg2 main_v298 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v298 main_v299 (broadcastInDim S200000x1 ![0] bcast_S200000_S200000x1_0 : (⟨S200000, .i32⟩ : BufTy).Contents (Elt F) → (⟨S200000x1, .i32⟩ : BufTy).Contents (Elt F)),
    binary main_v286 main_v299 main_v300 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ]
theorem ch17_sub : (ch17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ch17_fresh : (ch17 : List (HloOp τ sig (Elt F))).Forall fun op => op.fresh = ∅ := by
  simp only [List.Forall]; repeat' constructor
abbrev wr17 : List (Ref sig .tc) := [main_c_52, main_v287, main_v288, main_c_53, main_v289, main_v290, main_v291, main_v292, main_v293, main_c_54, main_v294, main_v295, main_c_55, main_v296, main_v297, main_v298, main_v299, main_v300]
theorem wr17_sub : (ch17 : List (HloOp τ sig (Elt F))).Forall fun op => op.writes ⊆ (wr17.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 368 to 368. -/
abbrev ch18 : List (HloOp τ sig (Elt F)) :=
  [ binary main_v293 main_v300 main_v301 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]
theorem ch18_sub : (ch18 : List (HloOp τ sig (Elt F))).Forall fun op => op.bufs ⊆ tcRefs τ sig :=
  binary_bufs_sub ..
theorem ch18_fresh : (ch18 : List (HloOp τ sig (Elt F))).Forall fun op => op.fresh = ∅ := by
  simp only [List.Forall]; repeat' constructor
abbrev wr18 : List (Ref sig .tc) := [main_v301]
theorem wr18_sub : (ch18 : List (HloOp τ sig (Elt F))).Forall fun op => op.writes ⊆ (wr18.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 369 to 390. -/
abbrev ch19 : List (HloOp τ sig (Elt F)) :=
  [ binary main_v301 main_arg5 main_v302 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg6 main_v303 (broadcastInDim S1x128 ![1] bcast_S128_S1x128_1 : (⟨S128, .f32⟩ : BufTy).Contents (Elt F) → (⟨S1x128, .f32⟩ : BufTy).Contents (Elt F)),
    unary main_v303 main_v304 (broadcastInDim S200000x128 ![0, 1] bcast_S1x128_S200000x128_0_1 : (⟨S1x128, .f32⟩ : BufTy).Contents (Elt F) → (⟨S200000x128, .f32⟩ : BufTy).Contents (Elt F)),
    binary main_v302 main_v304 main_v305 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S200000x128, .f32⟩) main_call4_v0) (broadcastInDim S200000x128 ![] bcast_S_S200000x128),
    TRef.binary (TRef.of (T := ⟨S200000x128, .f32⟩) main_v305) (TRef.of (T := ⟨S200000x128, .f32⟩) main_call4_v0) (TRef.of (T := ⟨S200000x128, .f32⟩) main_v306) maximumf,
    nullary main_cst_56 (constant S_ .f32 0x00000000#32),
    unary main_cst_56 main_v307 (broadcastInDim S100000x128 ![] bcast_S_S100000x128 : (⟨S_, .f32⟩ : BufTy).Contents (Elt F) → (⟨S100000x128, .f32⟩ : BufTy).Contents (Elt F)),
    unary main_arg2 main_v308 (broadcastInDim S200000x1 ![0] bcast_S200000_S200000x1_0 : (⟨S200000, .i32⟩ : BufTy).Contents (Elt F) → (⟨S200000x1, .i32⟩ : BufTy).Contents (Elt F)),
    ternary main_v307 main_v308 main_v306 main_v309 ((fun x i u => Host.scatterAdd scatter_S100000x128_S200000x1_S200000x128_1_0_0_1 x i u) : (⟨S100000x128, .f32⟩ : BufTy).Contents (Elt F) → (⟨S200000x1, .i32⟩ : BufTy).Contents (Elt F) → (⟨S200000x128, .f32⟩ : BufTy).Contents (Elt F) → (⟨S100000x128, .f32⟩ : BufTy).Contents (Elt F)),
    nullary main_cst_57 (constant S_ .f32 0x3F800000#32),
    unary main_cst_57 main_v310 (broadcastInDim S200000x1 ![] bcast_S_S200000x1 : (⟨S_, .f32⟩ : BufTy).Contents (Elt F) → (⟨S200000x1, .f32⟩ : BufTy).Contents (Elt F)),
    nullary main_cst_58 (constant S_ .f32 0x00000000#32),
    unary main_cst_58 main_v311 (broadcastInDim S100000x1 ![] bcast_S_S100000x1 : (⟨S_, .f32⟩ : BufTy).Contents (Elt F) → (⟨S100000x1, .f32⟩ : BufTy).Contents (Elt F)),
    unary main_arg2 main_v312 (broadcastInDim S200000x1 ![0] bcast_S200000_S200000x1_0 : (⟨S200000, .i32⟩ : BufTy).Contents (Elt F) → (⟨S200000x1, .i32⟩ : BufTy).Contents (Elt F)),
    ternary main_v311 main_v312 main_v310 main_v313 ((fun x i u => Host.scatterAdd scatter_S100000x1_S200000x1_S200000x1_1_0_0_1 x i u) : (⟨S100000x1, .f32⟩ : BufTy).Contents (Elt F) → (⟨S200000x1, .i32⟩ : BufTy).Contents (Elt F) → (⟨S200000x1, .f32⟩ : BufTy).Contents (Elt F) → (⟨S100000x1, .f32⟩ : BufTy).Contents (Elt F)),
    nullary main_cst_59 (constant S_ .f32 0x3F800000#32),
    unary main_cst_59 main_v314 (broadcastInDim S100000x1 ![] bcast_S_S100000x1 : (⟨S_, .f32⟩ : BufTy).Contents (Elt F) → (⟨S100000x1, .f32⟩ : BufTy).Contents (Elt F)),
    binary main_v313 main_v314 main_v315 (maximumf : (⟨S100000x1, .f32⟩ : BufTy).Contents (Elt F) → (⟨S100000x1, .f32⟩ : BufTy).Contents (Elt F) → (⟨S100000x1, .f32⟩ : BufTy).Contents (Elt F)),
    unary main_v315 main_v316 (broadcastInDim S100000x128 ![0, 1] bcast_S100000x1_S100000x128_0_1 : (⟨S100000x1, .f32⟩ : BufTy).Contents (Elt F) → (⟨S100000x128, .f32⟩ : BufTy).Contents (Elt F)),
    binary main_v309 main_v316 main_v317 (Host.divf : (⟨S100000x128, .f32⟩ : BufTy).Contents (Elt F) → (⟨S100000x128, .f32⟩ : BufTy).Contents (Elt F) → (⟨S100000x128, .f32⟩ : BufTy).Contents (Elt F)) ]
theorem ch19_sub : (ch19 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem ch19_fresh : (ch19 : List (HloOp τ sig (Elt F))).Forall fun op => op.fresh = ∅ := by
  simp only [List.Forall]; repeat' constructor
abbrev wr19 : List (Ref sig .tc) := [main_v302, main_v303, main_v304, main_v305, main_call4_cst, main_call4_v0, main_v306, main_cst_56, main_v307, main_v308, main_v309, main_cst_57, main_v310, main_cst_58, main_v311, main_v312, main_v313, main_cst_59, main_v314, main_v315, main_v316, main_v317]
theorem wr19_sub : (ch19 : List (HloOp τ sig (Elt F))).Forall fun op => op.writes ⊆ (wr19.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 391 to 432. -/
abbrev ch20 : List (HloOp τ sig (Elt F)) :=
  [ nullary main_c_60 (constantI S_ 32 0#32),
    unary main_c_60 main_v318 (broadcastInDim S200000 ![] bcast_S_S200000 : (⟨S_, .i32⟩ : BufTy).Contents (Elt F) → (⟨S200000, .i32⟩ : BufTy).Contents (Elt F)),
    binary main_arg3 main_v318 main_v319 (cmpi .slt : (⟨S200000, .i32⟩ : BufTy).Contents (Elt F) → (⟨S200000, .i32⟩ : BufTy).Contents (Elt F) → (⟨S200000, .i1⟩ : BufTy).Contents (Elt F)),
    nullary main_c_61 (constantI S_ 32 100000#32),
    unary main_c_61 main_v320 (broadcastInDim S200000 ![] bcast_S_S200000 : (⟨S_, .i32⟩ : BufTy).Contents (Elt F) → (⟨S200000, .i32⟩ : BufTy).Contents (Elt F)),
    binary main_arg3 main_v320 main_v321 (addi : (⟨S200000, .i32⟩ : BufTy).Contents (Elt F) → (⟨S200000, .i32⟩ : BufTy).Contents (Elt F) → (⟨S200000, .i32⟩ : BufTy).Contents (Elt F)),
    ternary main_v319 main_v321 main_arg3 main_v322 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v322 main_v323 (broadcastInDim S200000x1 ![0] bcast_S200000_S200000x1_0 : (⟨S200000, .i32⟩ : BufTy).Contents (Elt F) → (⟨S200000x1, .i32⟩ : BufTy).Contents (Elt F)),
    binary main_v286 main_v323 main_v324 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_62 (constantI S_ 32 0#32),
    unary main_c_62 main_v325 (broadcastInDim S200000 ![] bcast_S_S200000 : (⟨S_, .i32⟩ : BufTy).Contents (Elt F) → (⟨S200000, .i32⟩ : BufTy).Contents (Elt F)),
    binary main_arg4 main_v325 main_v326 (cmpi .slt : (⟨S200000, .i32⟩ : BufTy).Contents (Elt F) → (⟨S200000, .i32⟩ : BufTy).Contents (Elt F) → (⟨S200000, .i1⟩ : BufTy).Contents (Elt F)),
    nullary main_c_63 (constantI S_ 32 20000#32),
    unary main_c_63 main_v327 (broadcastInDim S200000 ![] bcast_S_S200000 : (⟨S_, .i32⟩ : BufTy).Contents (Elt F) → (⟨S200000, .i32⟩ : BufTy).Contents (Elt F)),
    binary main_arg4 main_v327 main_v328 (addi : (⟨S200000, .i32⟩ : BufTy).Contents (Elt F) → (⟨S200000, .i32⟩ : BufTy).Contents (Elt F) → (⟨S200000, .i32⟩ : BufTy).Contents (Elt F)),
    ternary main_v326 main_v328 main_arg4 main_v329 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v329 main_v330 (broadcastInDim S200000x1 ![0] bcast_S200000_S200000x1_0 : (⟨S200000, .i32⟩ : BufTy).Contents (Elt F) → (⟨S200000x1, .i32⟩ : BufTy).Contents (Elt F)),
    binary main_v246 main_v330 main_v331 ((fun x i => Host.gather gather_S20000x128_S200000x1_S200000x128_1_0_n_n_0_1_1128 x i) : (⟨S20000x128, .f32⟩ : BufTy).Contents (Elt F) → (⟨S200000x1, .i32⟩ : BufTy).Contents (Elt F) → (⟨S200000x128, .f32⟩ : BufTy).Contents (Elt F)),
    binary main_v324 main_v331 main_v332 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v332 main_arg7 main_v333 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    unary main_arg8 main_v334 (broadcastInDim S1x128 ![1] bcast_S128_S1x128_1 : (⟨S128, .f32⟩ : BufTy).Contents (Elt F) → (⟨S1x128, .f32⟩ : BufTy).Contents (Elt F)),
    unary main_v334 main_v335 (broadcastInDim S200000x128 ![0, 1] bcast_S1x128_S200000x128_0_1 : (⟨S1x128, .f32⟩ : BufTy).Contents (Elt F) → (⟨S200000x128, .f32⟩ : BufTy).Contents (Elt F)),
    binary main_v333 main_v335 main_v336 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S200000x128, .f32⟩) main_call5_v0) (broadcastInDim S200000x128 ![] bcast_S_S200000x128),
    TRef.binary (TRef.of (T := ⟨S200000x128, .f32⟩) main_v336) (TRef.of (T := ⟨S200000x128, .f32⟩) main_call5_v0) (TRef.of (T := ⟨S200000x128, .f32⟩) main_v337) maximumf,
    nullary main_cst_64 (constant S_ .f32 0x00000000#32),
    unary main_cst_64 main_v338 (broadcastInDim S20000x128 ![] bcast_S_S20000x128 : (⟨S_, .f32⟩ : BufTy).Contents (Elt F) → (⟨S20000x128, .f32⟩ : BufTy).Contents (Elt F)),
    unary main_arg4 main_v339 (broadcastInDim S200000x1 ![0] bcast_S200000_S200000x1_0 : (⟨S200000, .i32⟩ : BufTy).Contents (Elt F) → (⟨S200000x1, .i32⟩ : BufTy).Contents (Elt F)),
    ternary main_v338 main_v339 main_v337 main_v340 ((fun x i u => Host.scatterAdd scatter_S20000x128_S200000x1_S200000x128_1_0_0_1 x i u) : (⟨S20000x128, .f32⟩ : BufTy).Contents (Elt F) → (⟨S200000x1, .i32⟩ : BufTy).Contents (Elt F) → (⟨S200000x128, .f32⟩ : BufTy).Contents (Elt F) → (⟨S20000x128, .f32⟩ : BufTy).Contents (Elt F)),
    nullary main_cst_65 (constant S_ .f32 0x3F800000#32),
    unary main_cst_65 main_v341 (broadcastInDim S200000x1 ![] bcast_S_S200000x1 : (⟨S_, .f32⟩ : BufTy).Contents (Elt F) → (⟨S200000x1, .f32⟩ : BufTy).Contents (Elt F)),
    nullary main_cst_66 (constant S_ .f32 0x00000000#32),
    unary main_cst_66 main_v342 (broadcastInDim S20000x1 ![] bcast_S_S20000x1 : (⟨S_, .f32⟩ : BufTy).Contents (Elt F) → (⟨S20000x1, .f32⟩ : BufTy).Contents (Elt F)),
    unary main_arg4 main_v343 (broadcastInDim S200000x1 ![0] bcast_S200000_S200000x1_0 : (⟨S200000, .i32⟩ : BufTy).Contents (Elt F) → (⟨S200000x1, .i32⟩ : BufTy).Contents (Elt F)),
    ternary main_v342 main_v343 main_v341 main_v344 ((fun x i u => Host.scatterAdd scatter_S20000x1_S200000x1_S200000x1_1_0_0_1 x i u) : (⟨S20000x1, .f32⟩ : BufTy).Contents (Elt F) → (⟨S200000x1, .i32⟩ : BufTy).Contents (Elt F) → (⟨S200000x1, .f32⟩ : BufTy).Contents (Elt F) → (⟨S20000x1, .f32⟩ : BufTy).Contents (Elt F)),
    nullary main_cst_67 (constant S_ .f32 0x3F800000#32),
    unary main_cst_67 main_v345 (broadcastInDim S20000x1 ![] bcast_S_S20000x1 : (⟨S_, .f32⟩ : BufTy).Contents (Elt F) → (⟨S20000x1, .f32⟩ : BufTy).Contents (Elt F)),
    binary main_v344 main_v345 main_v346 (maximumf : (⟨S20000x1, .f32⟩ : BufTy).Contents (Elt F) → (⟨S20000x1, .f32⟩ : BufTy).Contents (Elt F) → (⟨S20000x1, .f32⟩ : BufTy).Contents (Elt F)),
    unary main_v346 main_v347 (broadcastInDim S20000x128 ![0, 1] bcast_S20000x1_S20000x128_0_1 : (⟨S20000x1, .f32⟩ : BufTy).Contents (Elt F) → (⟨S20000x128, .f32⟩ : BufTy).Contents (Elt F)),
    binary main_v340 main_v347 main_v348 (Host.divf : (⟨S20000x128, .f32⟩ : BufTy).Contents (Elt F) → (⟨S20000x128, .f32⟩ : BufTy).Contents (Elt F) → (⟨S20000x128, .f32⟩ : BufTy).Contents (Elt F)),
    binary main_v348 main_arg9 main_v349 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)) ]
theorem ch20_sub : (ch20 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub ..⟩
theorem ch20_fresh : (ch20 : List (HloOp τ sig (Elt F))).Forall fun op => op.fresh = ∅ := by
  simp only [List.Forall]; repeat' constructor
abbrev wr20 : List (Ref sig .tc) := [main_c_60, main_v318, main_v319, main_c_61, main_v320, main_v321, main_v322, main_v323, main_v324, main_c_62, main_v325, main_v326, main_c_63, main_v327, main_v328, main_v329, main_v330, main_v331, main_v332, main_v333, main_v334, main_v335, main_v336, main_call5_cst, main_call5_v0, main_v337, main_cst_64, main_v338, main_v339, main_v340, main_cst_65, main_v341, main_cst_66, main_v342, main_v343, main_v344, main_cst_67, main_v345, main_v346, main_v347, main_v348, main_v349]
theorem wr20_sub : (ch20 : List (HloOp τ sig (Elt F))).Forall fun op => op.writes ⊆ (wr20.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 433 to 476. -/
abbrev ch21 : List (HloOp τ sig (Elt F)) :=
  [ unary main_arg11 main_v350 ((extractStridedSlice S1x384 ![0, 0] · slices_S2x384_S1x384_0_0) : (⟨S2x384, .f32⟩ : BufTy).Contents (Elt F) → (⟨S1x384, .f32⟩ : BufTy).Contents (Elt F)),
    reshape main_v350 main_v351 rfl shapeCasts_S1x384_S384,
    unary main_v351 main_v352 (broadcastInDim S1x384 ![1] bcast_S384_S1x384_1 : (⟨S384, .f32⟩ : BufTy).Contents (Elt F) → (⟨S1x384, .f32⟩ : BufTy).Contents (Elt F)),
    unary main_v352 main_v353 (broadcastInDim S20000x384 ![0, 1] bcast_S1x384_S20000x384_0_1 : (⟨S1x384, .f32⟩ : BufTy).Contents (Elt F) → (⟨S20000x384, .f32⟩ : BufTy).Contents (Elt F)),
    binary main_v349 main_v353 main_v354 (addf : (⟨S20000x384, .f32⟩ : BufTy).Contents (Elt F) → (⟨S20000x384, .f32⟩ : BufTy).Contents (Elt F) → (⟨S20000x384, .f32⟩ : BufTy).Contents (Elt F)),
    binary main_v246 main_arg10 main_v355 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    unary main_arg11 main_v356 ((extractStridedSlice S1x384 ![1, 0] · slices_S2x384_S1x384_1_0) : (⟨S2x384, .f32⟩ : BufTy).Contents (Elt F) → (⟨S1x384, .f32⟩ : BufTy).Contents (Elt F)),
    reshape main_v356 main_v357 rfl shapeCasts_S1x384_S384,
    unary main_v357 main_v358 (broadcastInDim S1x384 ![1] bcast_S384_S1x384_1 : (⟨S384, .f32⟩ : BufTy).Contents (Elt F) → (⟨S1x384, .f32⟩ : BufTy).Contents (Elt F)),
    unary main_v358 main_v359 (broadcastInDim S20000x384 ![0, 1] bcast_S1x384_S20000x384_0_1 : (⟨S1x384, .f32⟩ : BufTy).Contents (Elt F) → (⟨S20000x384, .f32⟩ : BufTy).Contents (Elt F)),
    binary main_v355 main_v359 main_v360 (addf : (⟨S20000x384, .f32⟩ : BufTy).Contents (Elt F) → (⟨S20000x384, .f32⟩ : BufTy).Contents (Elt F) → (⟨S20000x384, .f32⟩ : BufTy).Contents (Elt F)),
    unary main_v354 main_v361 ((extractStridedSlice S20000x128 ![0, 0] · slices_S20000x384_S20000x128_0_0) : (⟨S20000x384, .f32⟩ : BufTy).Contents (Elt F) → (⟨S20000x128, .f32⟩ : BufTy).Contents (Elt F)),
    unary main_v354 main_v362 ((extractStridedSlice S20000x128 ![0, 128] · slices_S20000x384_S20000x128_0_128) : (⟨S20000x384, .f32⟩ : BufTy).Contents (Elt F) → (⟨S20000x128, .f32⟩ : BufTy).Contents (Elt F)),
    unary main_v354 main_v363 ((extractStridedSlice S20000x128 ![0, 256] · slices_S20000x384_S20000x128_0_256) : (⟨S20000x384, .f32⟩ : BufTy).Contents (Elt F) → (⟨S20000x128, .f32⟩ : BufTy).Contents (Elt F)),
    unary main_v360 main_v364 ((extractStridedSlice S20000x128 ![0, 0] · slices_S20000x384_S20000x128_0_0) : (⟨S20000x384, .f32⟩ : BufTy).Contents (Elt F) → (⟨S20000x128, .f32⟩ : BufTy).Contents (Elt F)),
    unary main_v360 main_v365 ((extractStridedSlice S20000x128 ![0, 128] · slices_S20000x384_S20000x128_0_128) : (⟨S20000x384, .f32⟩ : BufTy).Contents (Elt F) → (⟨S20000x128, .f32⟩ : BufTy).Contents (Elt F)),
    unary main_v360 main_v366 ((extractStridedSlice S20000x128 ![0, 256] · slices_S20000x384_S20000x128_0_256) : (⟨S20000x384, .f32⟩ : BufTy).Contents (Elt F) → (⟨S20000x128, .f32⟩ : BufTy).Contents (Elt F)),
    binary main_v361 main_v364 main_v367 (addf : (⟨S20000x128, .f32⟩ : BufTy).Contents (Elt F) → (⟨S20000x128, .f32⟩ : BufTy).Contents (Elt F) → (⟨S20000x128, .f32⟩ : BufTy).Contents (Elt F)),
    unary main_v367 main_v368 (Host.negf : (⟨S20000x128, .f32⟩ : BufTy).Contents (Elt F) → (⟨S20000x128, .f32⟩ : BufTy).Contents (Elt F)),
    unary main_v368 main_v369 (Host.exp : (⟨S20000x128, .f32⟩ : BufTy).Contents (Elt F) → (⟨S20000x128, .f32⟩ : BufTy).Contents (Elt F)),
    nullary main_cst_68 (constant S_ .f32 0x3F800000#32),
    unary main_cst_68 main_v370 (broadcastInDim S20000x128 ![] bcast_S_S20000x128 : (⟨S_, .f32⟩ : BufTy).Contents (Elt F) → (⟨S20000x128, .f32⟩ : BufTy).Contents (Elt F)),
    binary main_v370 main_v369 main_v371 (addf : (⟨S20000x128, .f32⟩ : BufTy).Contents (Elt F) → (⟨S20000x128, .f32⟩ : BufTy).Contents (Elt F) → (⟨S20000x128, .f32⟩ : BufTy).Contents (Elt F)),
    nullary main_cst_69 (constant S_ .f32 0x3F800000#32),
    unary main_cst_69 main_v372 (broadcastInDim S20000x128 ![] bcast_S_S20000x128 : (⟨S_, .f32⟩ : BufTy).Contents (Elt F) → (⟨S20000x128, .f32⟩ : BufTy).Contents (Elt F)),
    binary main_v372 main_v371 main_v373 (Host.divf : (⟨S20000x128, .f32⟩ : BufTy).Contents (Elt F) → (⟨S20000x128, .f32⟩ : BufTy).Contents (Elt F) → (⟨S20000x128, .f32⟩ : BufTy).Contents (Elt F)),
    binary main_v362 main_v365 main_v374 (addf : (⟨S20000x128, .f32⟩ : BufTy).Contents (Elt F) → (⟨S20000x128, .f32⟩ : BufTy).Contents (Elt F) → (⟨S20000x128, .f32⟩ : BufTy).Contents (Elt F)),
    unary main_v374 main_v375 (Host.negf : (⟨S20000x128, .f32⟩ : BufTy).Contents (Elt F) → (⟨S20000x128, .f32⟩ : BufTy).Contents (Elt F)),
    unary main_v375 main_v376 (Host.exp : (⟨S20000x128, .f32⟩ : BufTy).Contents (Elt F) → (⟨S20000x128, .f32⟩ : BufTy).Contents (Elt F)),
    nullary main_cst_70 (constant S_ .f32 0x3F800000#32),
    unary main_cst_70 main_v377 (broadcastInDim S20000x128 ![] bcast_S_S20000x128 : (⟨S_, .f32⟩ : BufTy).Contents (Elt F) → (⟨S20000x128, .f32⟩ : BufTy).Contents (Elt F)),
    binary main_v377 main_v376 main_v378 (addf : (⟨S20000x128, .f32⟩ : BufTy).Contents (Elt F) → (⟨S20000x128, .f32⟩ : BufTy).Contents (Elt F) → (⟨S20000x128, .f32⟩ : BufTy).Contents (Elt F)),
    nullary main_cst_71 (constant S_ .f32 0x3F800000#32),
    unary main_cst_71 main_v379 (broadcastInDim S20000x128 ![] bcast_S_S20000x128 : (⟨S_, .f32⟩ : BufTy).Contents (Elt F) → (⟨S20000x128, .f32⟩ : BufTy).Contents (Elt F)),
    binary main_v379 main_v378 main_v380 (Host.divf : (⟨S20000x128, .f32⟩ : BufTy).Contents (Elt F) → (⟨S20000x128, .f32⟩ : BufTy).Contents (Elt F) → (⟨S20000x128, .f32⟩ : BufTy).Contents (Elt F)),
    binary main_v380 main_v366 main_v381 (mulf : (⟨S20000x128, .f32⟩ : BufTy).Contents (Elt F) → (⟨S20000x128, .f32⟩ : BufTy).Contents (Elt F) → (⟨S20000x128, .f32⟩ : BufTy).Contents (Elt F)),
    binary main_v363 main_v381 main_v382 (addf : (⟨S20000x128, .f32⟩ : BufTy).Contents (Elt F) → (⟨S20000x128, .f32⟩ : BufTy).Contents (Elt F) → (⟨S20000x128, .f32⟩ : BufTy).Contents (Elt F)),
    unary main_v382 main_v383 (Host.tanh : (⟨S20000x128, .f32⟩ : BufTy).Contents (Elt F) → (⟨S20000x128, .f32⟩ : BufTy).Contents (Elt F)),
    binary main_v373 main_v246 main_v384 (mulf : (⟨S20000x128, .f32⟩ : BufTy).Contents (Elt F) → (⟨S20000x128, .f32⟩ : BufTy).Contents (Elt F) → (⟨S20000x128, .f32⟩ : BufTy).Contents (Elt F)),
    nullary main_cst_72 (constant S_ .f32 0x3F800000#32),
    unary main_cst_72 main_v385 (broadcastInDim S20000x128 ![] bcast_S_S20000x128 : (⟨S_, .f32⟩ : BufTy).Contents (Elt F) → (⟨S20000x128, .f32⟩ : BufTy).Contents (Elt F)),
    binary main_v385 main_v373 main_v386 (subf : (⟨S20000x128, .f32⟩ : BufTy).Contents (Elt F) → (⟨S20000x128, .f32⟩ : BufTy).Contents (Elt F) → (⟨S20000x128, .f32⟩ : BufTy).Contents (Elt F)),
    binary main_v386 main_v383 main_v387 (mulf : (⟨S20000x128, .f32⟩ : BufTy).Contents (Elt F) → (⟨S20000x128, .f32⟩ : BufTy).Contents (Elt F) → (⟨S20000x128, .f32⟩ : BufTy).Contents (Elt F)),
    binary main_v384 main_v387 main_v388 (addf : (⟨S20000x128, .f32⟩ : BufTy).Contents (Elt F) → (⟨S20000x128, .f32⟩ : BufTy).Contents (Elt F) → (⟨S20000x128, .f32⟩ : BufTy).Contents (Elt F)) ]
theorem ch21_sub : (ch21 : List (HloOp τ sig (Elt F))).Forall fun op => op.bufs ⊆ tcRefs τ sig :=
  ⟨unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub ..⟩
theorem ch21_fresh : (ch21 : List (HloOp τ sig (Elt F))).Forall fun op => op.fresh = ∅ := by
  simp only [List.Forall]; repeat' constructor
abbrev wr21 : List (Ref sig .tc) := [main_v350, main_v351, main_v352, main_v353, main_v354, main_v355, main_v356, main_v357, main_v358, main_v359, main_v360, main_v361, main_v362, main_v363, main_v364, main_v365, main_v366, main_v367, main_v368, main_v369, main_cst_68, main_v370, main_v371, main_cst_69, main_v372, main_v373, main_v374, main_v375, main_v376, main_cst_70, main_v377, main_v378, main_cst_71, main_v379, main_v380, main_v381, main_v382, main_v383, main_v384, main_cst_72, main_v385, main_v386, main_v387, main_v388]
theorem wr21_sub : (ch21 : List (HloOp τ sig (Elt F))).Forall fun op => op.writes ⊆ (wr21.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 477 to 492. -/
abbrev ch22 : List (HloOp τ sig (Elt F)) :=
  [ binary main_v317 main_arg12 main_v389 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v390 ((extractStridedSlice S1x384 ![0, 0] · slices_S2x384_S1x384_0_0) : (⟨S2x384, .f32⟩ : BufTy).Contents (Elt F) → (⟨S1x384, .f32⟩ : BufTy).Contents (Elt F)),
    reshape main_v390 main_v391 rfl shapeCasts_S1x384_S384,
    unary main_v391 main_v392 (broadcastInDim S1x384 ![1] bcast_S384_S1x384_1 : (⟨S384, .f32⟩ : BufTy).Contents (Elt F) → (⟨S1x384, .f32⟩ : BufTy).Contents (Elt F)),
    unary main_v392 main_v393 (broadcastInDim S100000x384 ![0, 1] bcast_S1x384_S100000x384_0_1 : (⟨S1x384, .f32⟩ : BufTy).Contents (Elt F) → (⟨S100000x384, .f32⟩ : BufTy).Contents (Elt F)),
    binary main_v389 main_v393 main_v394 (addf : (⟨S100000x384, .f32⟩ : BufTy).Contents (Elt F) → (⟨S100000x384, .f32⟩ : BufTy).Contents (Elt F) → (⟨S100000x384, .f32⟩ : BufTy).Contents (Elt F)),
    binary main_v286 main_arg13 main_v395 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg14 main_v396 ((extractStridedSlice S1x384 ![1, 0] · slices_S2x384_S1x384_1_0) : (⟨S2x384, .f32⟩ : BufTy).Contents (Elt F) → (⟨S1x384, .f32⟩ : BufTy).Contents (Elt F)),
    reshape main_v396 main_v397 rfl shapeCasts_S1x384_S384,
    unary main_v397 main_v398 (broadcastInDim S1x384 ![1] bcast_S384_S1x384_1 : (⟨S384, .f32⟩ : BufTy).Contents (Elt F) → (⟨S1x384, .f32⟩ : BufTy).Contents (Elt F)),
    unary main_v398 main_v399 (broadcastInDim S100000x384 ![0, 1] bcast_S1x384_S100000x384_0_1 : (⟨S1x384, .f32⟩ : BufTy).Contents (Elt F) → (⟨S100000x384, .f32⟩ : BufTy).Contents (Elt F)),
    binary main_v395 main_v399 main_v400 (addf : (⟨S100000x384, .f32⟩ : BufTy).Contents (Elt F) → (⟨S100000x384, .f32⟩ : BufTy).Contents (Elt F) → (⟨S100000x384, .f32⟩ : BufTy).Contents (Elt F)),
    unary main_v394 main_v401 ((extractStridedSlice S100000x128 ![0, 0] · slices_S100000x384_S100000x128_0_0) : (⟨S100000x384, .f32⟩ : BufTy).Contents (Elt F) → (⟨S100000x128, .f32⟩ : BufTy).Contents (Elt F)),
    unary main_v394 main_v402 ((extractStridedSlice S100000x128 ![0, 128] · slices_S100000x384_S100000x128_0_128) : (⟨S100000x384, .f32⟩ : BufTy).Contents (Elt F) → (⟨S100000x128, .f32⟩ : BufTy).Contents (Elt F)),
    unary main_v394 main_v403 ((extractStridedSlice S100000x128 ![0, 256] · slices_S100000x384_S100000x128_0_256) : (⟨S100000x384, .f32⟩ : BufTy).Contents (Elt F) → (⟨S100000x128, .f32⟩ : BufTy).Contents (Elt F)),
    unary main_v400 main_v404 ((extractStridedSlice S100000x128 ![0, 0] · slices_S100000x384_S100000x128_0_0) : (⟨S100000x384, .f32⟩ : BufTy).Contents (Elt F) → (⟨S100000x128, .f32⟩ : BufTy).Contents (Elt F)) ]
theorem ch22_sub : (ch22 : List (HloOp τ sig (Elt F))).Forall fun op => op.bufs ⊆ tcRefs τ sig :=
  ⟨binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., unary_bufs_sub ..⟩
theorem ch22_fresh : (ch22 : List (HloOp τ sig (Elt F))).Forall fun op => op.fresh = ∅ := by
  simp only [List.Forall]; repeat' constructor
abbrev wr22 : List (Ref sig .tc) := [main_v389, main_v390, main_v391, main_v392, main_v393, main_v394, main_v395, main_v396, main_v397, main_v398, main_v399, main_v400, main_v401, main_v402, main_v403, main_v404]
theorem wr22_sub : (ch22 : List (HloOp τ sig (Elt F))).Forall fun op => op.writes ⊆ (wr22.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 493 to 521. -/
abbrev ch23 : List (HloOp τ sig (Elt F)) :=
  [ unary main_v400 main_v405 ((extractStridedSlice S100000x128 ![0, 128] · slices_S100000x384_S100000x128_0_128) : (⟨S100000x384, .f32⟩ : BufTy).Contents (Elt F) → (⟨S100000x128, .f32⟩ : BufTy).Contents (Elt F)),
    unary main_v400 main_v406 ((extractStridedSlice S100000x128 ![0, 256] · slices_S100000x384_S100000x128_0_256) : (⟨S100000x384, .f32⟩ : BufTy).Contents (Elt F) → (⟨S100000x128, .f32⟩ : BufTy).Contents (Elt F)),
    binary main_v401 main_v404 main_v407 (addf : (⟨S100000x128, .f32⟩ : BufTy).Contents (Elt F) → (⟨S100000x128, .f32⟩ : BufTy).Contents (Elt F) → (⟨S100000x128, .f32⟩ : BufTy).Contents (Elt F)),
    unary main_v407 main_v408 (Host.negf : (⟨S100000x128, .f32⟩ : BufTy).Contents (Elt F) → (⟨S100000x128, .f32⟩ : BufTy).Contents (Elt F)),
    unary main_v408 main_v409 (Host.exp : (⟨S100000x128, .f32⟩ : BufTy).Contents (Elt F) → (⟨S100000x128, .f32⟩ : BufTy).Contents (Elt F)),
    nullary main_cst_73 (constant S_ .f32 0x3F800000#32),
    unary main_cst_73 main_v410 (broadcastInDim S100000x128 ![] bcast_S_S100000x128 : (⟨S_, .f32⟩ : BufTy).Contents (Elt F) → (⟨S100000x128, .f32⟩ : BufTy).Contents (Elt F)),
    binary main_v410 main_v409 main_v411 (addf : (⟨S100000x128, .f32⟩ : BufTy).Contents (Elt F) → (⟨S100000x128, .f32⟩ : BufTy).Contents (Elt F) → (⟨S100000x128, .f32⟩ : BufTy).Contents (Elt F)),
    nullary main_cst_74 (constant S_ .f32 0x3F800000#32),
    unary main_cst_74 main_v412 (broadcastInDim S100000x128 ![] bcast_S_S100000x128 : (⟨S_, .f32⟩ : BufTy).Contents (Elt F) → (⟨S100000x128, .f32⟩ : BufTy).Contents (Elt F)),
    binary main_v412 main_v411 main_v413 (Host.divf : (⟨S100000x128, .f32⟩ : BufTy).Contents (Elt F) → (⟨S100000x128, .f32⟩ : BufTy).Contents (Elt F) → (⟨S100000x128, .f32⟩ : BufTy).Contents (Elt F)),
    binary main_v402 main_v405 main_v414 (addf : (⟨S100000x128, .f32⟩ : BufTy).Contents (Elt F) → (⟨S100000x128, .f32⟩ : BufTy).Contents (Elt F) → (⟨S100000x128, .f32⟩ : BufTy).Contents (Elt F)),
    unary main_v414 main_v415 (Host.negf : (⟨S100000x128, .f32⟩ : BufTy).Contents (Elt F) → (⟨S100000x128, .f32⟩ : BufTy).Contents (Elt F)),
    unary main_v415 main_v416 (Host.exp : (⟨S100000x128, .f32⟩ : BufTy).Contents (Elt F) → (⟨S100000x128, .f32⟩ : BufTy).Contents (Elt F)),
    nullary main_cst_75 (constant S_ .f32 0x3F800000#32),
    unary main_cst_75 main_v417 (broadcastInDim S100000x128 ![] bcast_S_S100000x128 : (⟨S_, .f32⟩ : BufTy).Contents (Elt F) → (⟨S100000x128, .f32⟩ : BufTy).Contents (Elt F)),
    binary main_v417 main_v416 main_v418 (addf : (⟨S100000x128, .f32⟩ : BufTy).Contents (Elt F) → (⟨S100000x128, .f32⟩ : BufTy).Contents (Elt F) → (⟨S100000x128, .f32⟩ : BufTy).Contents (Elt F)),
    nullary main_cst_76 (constant S_ .f32 0x3F800000#32),
    unary main_cst_76 main_v419 (broadcastInDim S100000x128 ![] bcast_S_S100000x128 : (⟨S_, .f32⟩ : BufTy).Contents (Elt F) → (⟨S100000x128, .f32⟩ : BufTy).Contents (Elt F)),
    binary main_v419 main_v418 main_v420 (Host.divf : (⟨S100000x128, .f32⟩ : BufTy).Contents (Elt F) → (⟨S100000x128, .f32⟩ : BufTy).Contents (Elt F) → (⟨S100000x128, .f32⟩ : BufTy).Contents (Elt F)),
    binary main_v420 main_v406 main_v421 (mulf : (⟨S100000x128, .f32⟩ : BufTy).Contents (Elt F) → (⟨S100000x128, .f32⟩ : BufTy).Contents (Elt F) → (⟨S100000x128, .f32⟩ : BufTy).Contents (Elt F)),
    binary main_v403 main_v421 main_v422 (addf : (⟨S100000x128, .f32⟩ : BufTy).Contents (Elt F) → (⟨S100000x128, .f32⟩ : BufTy).Contents (Elt F) → (⟨S100000x128, .f32⟩ : BufTy).Contents (Elt F)),
    unary main_v422 main_v423 (Host.tanh : (⟨S100000x128, .f32⟩ : BufTy).Contents (Elt F) → (⟨S100000x128, .f32⟩ : BufTy).Contents (Elt F)),
    binary main_v413 main_v286 main_v424 (mulf : (⟨S100000x128, .f32⟩ : BufTy).Contents (Elt F) → (⟨S100000x128, .f32⟩ : BufTy).Contents (Elt F) → (⟨S100000x128, .f32⟩ : BufTy).Contents (Elt F)),
    nullary main_cst_77 (constant S_ .f32 0x3F800000#32),
    unary main_cst_77 main_v425 (broadcastInDim S100000x128 ![] bcast_S_S100000x128 : (⟨S_, .f32⟩ : BufTy).Contents (Elt F) → (⟨S100000x128, .f32⟩ : BufTy).Contents (Elt F)),
    binary main_v425 main_v413 main_v426 (subf : (⟨S100000x128, .f32⟩ : BufTy).Contents (Elt F) → (⟨S100000x128, .f32⟩ : BufTy).Contents (Elt F) → (⟨S100000x128, .f32⟩ : BufTy).Contents (Elt F)),
    binary main_v426 main_v423 main_v427 (mulf : (⟨S100000x128, .f32⟩ : BufTy).Contents (Elt F) → (⟨S100000x128, .f32⟩ : BufTy).Contents (Elt F) → (⟨S100000x128, .f32⟩ : BufTy).Contents (Elt F)),
    binary main_v424 main_v427 main_v428 (addf : (⟨S100000x128, .f32⟩ : BufTy).Contents (Elt F) → (⟨S100000x128, .f32⟩ : BufTy).Contents (Elt F) → (⟨S100000x128, .f32⟩ : BufTy).Contents (Elt F)) ]
theorem ch23_sub : (ch23 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub ..⟩
theorem ch23_fresh : (ch23 : List (HloOp τ sig (Elt F))).Forall fun op => op.fresh = ∅ := by
  simp only [List.Forall]; repeat' constructor
abbrev wr23 : List (Ref sig .tc) := [main_v405, main_v406, main_v407, main_v408, main_v409, main_cst_73, main_v410, main_v411, main_cst_74, main_v412, main_v413, main_v414, main_v415, main_v416, main_cst_75, main_v417, main_v418, main_cst_76, main_v419, main_v420, main_v421, main_v422, main_v423, main_v424, main_cst_77, main_v425, main_v426, main_v427, main_v428]
theorem wr23_sub : (ch23 : List (HloOp τ sig (Elt F))).Forall fun op => op.writes ⊆ (wr23.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 522 to 553. -/
abbrev ch24 : List (HloOp τ sig (Elt F)) :=
  [ binary main_v428 main_arg15 main_v429 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v430 (broadcastInDim S1x128 ![1] bcast_S128_S1x128_1 : (⟨S128, .f32⟩ : BufTy).Contents (Elt F) → (⟨S1x128, .f32⟩ : BufTy).Contents (Elt F)),
    unary main_v430 main_v431 (broadcastInDim S100000x128 ![0, 1] bcast_S1x128_S100000x128_0_1 : (⟨S1x128, .f32⟩ : BufTy).Contents (Elt F) → (⟨S100000x128, .f32⟩ : BufTy).Contents (Elt F)),
    binary main_v429 main_v431 main_v432 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v432) (TRef.of (T := ⟨S100000x128, .f32⟩) main_call6_v0) (TRef.of (T := ⟨S100000x128, .f32⟩) main_v433) maximumf,
    binary main_v433 main_arg17 main_v434 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg18 main_v435 (broadcastInDim S1x64 ![1] bcast_S64_S1x64_1 : (⟨S64, .f32⟩ : BufTy).Contents (Elt F) → (⟨S1x64, .f32⟩ : BufTy).Contents (Elt F)),
    unary main_v435 main_v436 (broadcastInDim S100000x64 ![0, 1] bcast_S1x64_S100000x64_0_1 : (⟨S1x64, .f32⟩ : BufTy).Contents (Elt F) → (⟨S100000x64, .f32⟩ : BufTy).Contents (Elt F)),
    binary main_v434 main_v436 main_v437 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v437) (TRef.of (T := ⟨S100000x64, .f32⟩) main_call7_v0) (TRef.of (T := ⟨S100000x64, .f32⟩) main_v438) maximumf,
    binary main_v438 main_arg19 main_v439 ((fun l r => Host.dotGeneral dot_S100000x64_S64x15_S100000x15_1_0_0_1_n_n none l r) : (⟨S100000x64, .f32⟩ : BufTy).Contents (Elt F) → (⟨S64x15, .f32⟩ : BufTy).Contents (Elt F) → (⟨S100000x15, .f32⟩ : BufTy).Contents (Elt F)),
    unary main_arg20 main_v440 (broadcastInDim S1x15 ![1] bcast_S15_S1x15_1 : (⟨S15, .f32⟩ : BufTy).Contents (Elt F) → (⟨S1x15, .f32⟩ : BufTy).Contents (Elt F)),
    unary main_v440 main_v441 (broadcastInDim S100000x15 ![0, 1] bcast_S1x15_S100000x15_0_1 : (⟨S1x15, .f32⟩ : BufTy).Contents (Elt F) → (⟨S100000x15, .f32⟩ : BufTy).Contents (Elt F)),
    binary main_v439 main_v441 main_v442 (addf : (⟨S100000x15, .f32⟩ : BufTy).Contents (Elt F) → (⟨S100000x15, .f32⟩ : BufTy).Contents (Elt F) → (⟨S100000x15, .f32⟩ : BufTy).Contents (Elt F)),
    nullary main_cst_78 (constant S_ .f32 0xFF800000#32),
    binary main_v442 main_cst_78 main_v443 ((fun x v => Host.reduce FloatOps.maximumf x v reducesTo_S100000x15_S100000_d1 h_S_) : (⟨S100000x15, .f32⟩ : BufTy).Contents (Elt F) → (⟨S_, .f32⟩ : BufTy).Contents (Elt F) → (⟨S100000, .f32⟩ : BufTy).Contents (Elt F)),
    nullary main_cst_79 (constant S_ .f32 0xFF800000#32),
    unary main_cst_79 main_v444 (broadcastInDim S100000 ![] bcast_S_S100000 : (⟨S_, .f32⟩ : BufTy).Contents (Elt F) → (⟨S100000, .f32⟩ : BufTy).Contents (Elt F)),
    binary main_v444 main_v443 main_v445 (maximumf : (⟨S100000, .f32⟩ : BufTy).Contents (Elt F) → (⟨S100000, .f32⟩ : BufTy).Contents (Elt F) → (⟨S100000, .f32⟩ : BufTy).Contents (Elt F)),
    unary main_v445 main_v446 (broadcastInDim S100000x1 ![0] bcast_S100000_S100000x1_0 : (⟨S100000, .f32⟩ : BufTy).Contents (Elt F) → (⟨S100000x1, .f32⟩ : BufTy).Contents (Elt F)),
    unary main_v446 main_v447 (broadcastInDim S100000x15 ![0, 1] bcast_S100000x1_S100000x15_0_1 : (⟨S100000x1, .f32⟩ : BufTy).Contents (Elt F) → (⟨S100000x15, .f32⟩ : BufTy).Contents (Elt F)),
    binary main_v442 main_v447 main_v448 (subf : (⟨S100000x15, .f32⟩ : BufTy).Contents (Elt F) → (⟨S100000x15, .f32⟩ : BufTy).Contents (Elt F) → (⟨S100000x15, .f32⟩ : BufTy).Contents (Elt F)),
    unary main_v448 main_v449 (Host.exp : (⟨S100000x15, .f32⟩ : BufTy).Contents (Elt F) → (⟨S100000x15, .f32⟩ : BufTy).Contents (Elt F)),
    nullary main_cst_80 (constant S_ .f32 0x00000000#32),
    binary main_v449 main_cst_80 main_v450 ((fun x v => Host.reduceAdd x v reducesTo_S100000x15_S100000_d1 h_S_) : (⟨S100000x15, .f32⟩ : BufTy).Contents (Elt F) → (⟨S_, .f32⟩ : BufTy).Contents (Elt F) → (⟨S100000, .f32⟩ : BufTy).Contents (Elt F)),
    unary main_v450 main_v451 (broadcastInDim S100000x1 ![0] bcast_S100000_S100000x1_0 : (⟨S100000, .f32⟩ : BufTy).Contents (Elt F) → (⟨S100000x1, .f32⟩ : BufTy).Contents (Elt F)),
    unary main_v451 main_v452 (broadcastInDim S100000x15 ![0, 1] bcast_S100000x1_S100000x15_0_1 : (⟨S100000x1, .f32⟩ : BufTy).Contents (Elt F) → (⟨S100000x15, .f32⟩ : BufTy).Contents (Elt F)),
    binary main_v449 main_v452 main_v453 (Host.divf : (⟨S100000x15, .f32⟩ : BufTy).Contents (Elt F) → (⟨S100000x15, .f32⟩ : BufTy).Contents (Elt F) → (⟨S100000x15, .f32⟩ : BufTy).Contents (Elt F)) ]
theorem ch24_sub : (ch24 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ch24_fresh : (ch24 : List (HloOp τ sig (Elt F))).Forall fun op => op.fresh = ∅ := by
  simp only [List.Forall]; repeat' constructor
abbrev wr24 : List (Ref sig .tc) := [main_v429, main_v430, main_v431, main_v432, main_call6_cst, main_call6_v0, main_v433, main_v434, main_v435, main_v436, main_v437, main_call7_cst, main_call7_v0, main_v438, main_v439, main_v440, main_v441, main_v442, main_cst_78, main_v443, main_cst_79, main_v444, main_v445, main_v446, main_v447, main_v448, main_v449, main_cst_80, main_v450, main_v451, main_v452, main_v453]
theorem wr24_sub : (ch24 : List (HloOp τ sig (Elt F))).Forall fun op => op.writes ⊆ (wr24.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (c : Dev nD)

/-- The buffer contents at launch. -/
abbrev X0 : Valuation τ sig (Elt F) := launchContents m c
/-- After chunk 1. A definition, not an abbreviation: reading a chunk's results stops at the previous boundary. -/
def X1 : Valuation τ sig (Elt F) := after ch1 (X0 m c)
theorem X1_eq : X1 m c = after ch1 (X0 m c) := rfl
theorem keepX1 (r : Ref sig .tc) (h : r ∉ wr1) : X1 m c (Proc.devRef .tc r) = X0 m c (Proc.devRef .tc r) :=
  after_of_writes_sub ch1 _ wr1_sub h
/-- After chunk 2. A definition, not an abbreviation: reading a chunk's results stops at the previous boundary. -/
def X2 : Valuation τ sig (Elt F) := after ch2 (X1 m c)
theorem X2_eq : X2 m c = after ch2 (X1 m c) := rfl
theorem keepX2 (r : Ref sig .tc) (h : r ∉ wr2) : X2 m c (Proc.devRef .tc r) = X1 m c (Proc.devRef .tc r) :=
  after_of_writes_sub ch2 _ wr2_sub h
/-- After chunk 3. A definition, not an abbreviation: reading a chunk's results stops at the previous boundary. -/
def X3 : Valuation τ sig (Elt F) := after ch3 (X2 m c)
theorem X3_eq : X3 m c = after ch3 (X2 m c) := rfl
theorem keepX3 (r : Ref sig .tc) (h : r ∉ wr3) : X3 m c (Proc.devRef .tc r) = X2 m c (Proc.devRef .tc r) :=
  after_of_writes_sub ch3 _ wr3_sub h
/-- After chunk 4. A definition, not an abbreviation: reading a chunk's results stops at the previous boundary. -/
def X4 : Valuation τ sig (Elt F) := after ch4 (X3 m c)
theorem X4_eq : X4 m c = after ch4 (X3 m c) := rfl
theorem keepX4 (r : Ref sig .tc) (h : r ∉ wr4) : X4 m c (Proc.devRef .tc r) = X3 m c (Proc.devRef .tc r) :=
  after_of_writes_sub ch4 _ wr4_sub h
/-- After chunk 5. A definition, not an abbreviation: reading a chunk's results stops at the previous boundary. -/
def X5 : Valuation τ sig (Elt F) := after ch5 (X4 m c)
theorem X5_eq : X5 m c = after ch5 (X4 m c) := rfl
theorem keepX5 (r : Ref sig .tc) (h : r ∉ wr5) : X5 m c (Proc.devRef .tc r) = X4 m c (Proc.devRef .tc r) :=
  after_of_writes_sub ch5 _ wr5_sub h
/-- After chunk 6. A definition, not an abbreviation: reading a chunk's results stops at the previous boundary. -/
def X6 : Valuation τ sig (Elt F) := after ch6 (X5 m c)
theorem X6_eq : X6 m c = after ch6 (X5 m c) := rfl
theorem keepX6 (r : Ref sig .tc) (h : r ∉ wr6) : X6 m c (Proc.devRef .tc r) = X5 m c (Proc.devRef .tc r) :=
  after_of_writes_sub ch6 _ wr6_sub h
/-- After chunk 7. A definition, not an abbreviation: reading a chunk's results stops at the previous boundary. -/
def X7 : Valuation τ sig (Elt F) := after ch7 (X6 m c)
theorem X7_eq : X7 m c = after ch7 (X6 m c) := rfl
theorem keepX7 (r : Ref sig .tc) (h : r ∉ wr7) : X7 m c (Proc.devRef .tc r) = X6 m c (Proc.devRef .tc r) :=
  after_of_writes_sub ch7 _ wr7_sub h
/-- After chunk 8. A definition, not an abbreviation: reading a chunk's results stops at the previous boundary. -/
def X8 : Valuation τ sig (Elt F) := after ch8 (X7 m c)
theorem X8_eq : X8 m c = after ch8 (X7 m c) := rfl
theorem keepX8 (r : Ref sig .tc) (h : r ∉ wr8) : X8 m c (Proc.devRef .tc r) = X7 m c (Proc.devRef .tc r) :=
  after_of_writes_sub ch8 _ wr8_sub h
/-- After chunk 9. A definition, not an abbreviation: reading a chunk's results stops at the previous boundary. -/
def X9 : Valuation τ sig (Elt F) := after ch9 (X8 m c)
theorem X9_eq : X9 m c = after ch9 (X8 m c) := rfl
theorem keepX9 (r : Ref sig .tc) (h : r ∉ wr9) : X9 m c (Proc.devRef .tc r) = X8 m c (Proc.devRef .tc r) :=
  after_of_writes_sub ch9 _ wr9_sub h
/-- After chunk 10. A definition, not an abbreviation: reading a chunk's results stops at the previous boundary. -/
def X10 : Valuation τ sig (Elt F) := after ch10 (X9 m c)
theorem X10_eq : X10 m c = after ch10 (X9 m c) := rfl
theorem keepX10 (r : Ref sig .tc) (h : r ∉ wr10) : X10 m c (Proc.devRef .tc r) = X9 m c (Proc.devRef .tc r) :=
  after_of_writes_sub ch10 _ wr10_sub h
/-- After chunk 11. A definition, not an abbreviation: reading a chunk's results stops at the previous boundary. -/
def X11 : Valuation τ sig (Elt F) := after ch11 (X10 m c)
theorem X11_eq : X11 m c = after ch11 (X10 m c) := rfl
theorem keepX11 (r : Ref sig .tc) (h : r ∉ wr11) : X11 m c (Proc.devRef .tc r) = X10 m c (Proc.devRef .tc r) :=
  after_of_writes_sub ch11 _ wr11_sub h
/-- After chunk 12. A definition, not an abbreviation: reading a chunk's results stops at the previous boundary. -/
def X12 : Valuation τ sig (Elt F) := after ch12 (X11 m c)
theorem X12_eq : X12 m c = after ch12 (X11 m c) := rfl
theorem keepX12 (r : Ref sig .tc) (h : r ∉ wr12) : X12 m c (Proc.devRef .tc r) = X11 m c (Proc.devRef .tc r) :=
  after_of_writes_sub ch12 _ wr12_sub h
/-- After chunk 13. A definition, not an abbreviation: reading a chunk's results stops at the previous boundary. -/
def X13 : Valuation τ sig (Elt F) := after ch13 (X12 m c)
theorem X13_eq : X13 m c = after ch13 (X12 m c) := rfl
theorem keepX13 (r : Ref sig .tc) (h : r ∉ wr13) : X13 m c (Proc.devRef .tc r) = X12 m c (Proc.devRef .tc r) :=
  after_of_writes_sub ch13 _ wr13_sub h
/-- After chunk 14. A definition, not an abbreviation: reading a chunk's results stops at the previous boundary. -/
def X14 : Valuation τ sig (Elt F) := after ch14 (X13 m c)
theorem X14_eq : X14 m c = after ch14 (X13 m c) := rfl
theorem keepX14 (r : Ref sig .tc) (h : r ∉ wr14) : X14 m c (Proc.devRef .tc r) = X13 m c (Proc.devRef .tc r) :=
  after_of_writes_sub ch14 _ wr14_sub h
/-- After chunk 15. A definition, not an abbreviation: reading a chunk's results stops at the previous boundary. -/
def X15 : Valuation τ sig (Elt F) := after ch15 (X14 m c)
theorem X15_eq : X15 m c = after ch15 (X14 m c) := rfl
theorem keepX15 (r : Ref sig .tc) (h : r ∉ wr15) : X15 m c (Proc.devRef .tc r) = X14 m c (Proc.devRef .tc r) :=
  after_of_writes_sub ch15 _ wr15_sub h
/-- After chunk 16. A definition, not an abbreviation: reading a chunk's results stops at the previous boundary. -/
def X16 : Valuation τ sig (Elt F) := after ch16 (X15 m c)
theorem X16_eq : X16 m c = after ch16 (X15 m c) := rfl
theorem keepX16 (r : Ref sig .tc) (h : r ∉ wr16) : X16 m c (Proc.devRef .tc r) = X15 m c (Proc.devRef .tc r) :=
  after_of_writes_sub ch16 _ wr16_sub h
/-- After chunk 17. A definition, not an abbreviation: reading a chunk's results stops at the previous boundary. -/
def X17 : Valuation τ sig (Elt F) := after ch17 (X16 m c)
theorem X17_eq : X17 m c = after ch17 (X16 m c) := rfl
theorem keepX17 (r : Ref sig .tc) (h : r ∉ wr17) : X17 m c (Proc.devRef .tc r) = X16 m c (Proc.devRef .tc r) :=
  after_of_writes_sub ch17 _ wr17_sub h
/-- After chunk 18. A definition, not an abbreviation: reading a chunk's results stops at the previous boundary. -/
def X18 : Valuation τ sig (Elt F) := after ch18 (X17 m c)
theorem X18_eq : X18 m c = after ch18 (X17 m c) := rfl
theorem keepX18 (r : Ref sig .tc) (h : r ∉ wr18) : X18 m c (Proc.devRef .tc r) = X17 m c (Proc.devRef .tc r) :=
  after_of_writes_sub ch18 _ wr18_sub h
/-- After chunk 19. A definition, not an abbreviation: reading a chunk's results stops at the previous boundary. -/
def X19 : Valuation τ sig (Elt F) := after ch19 (X18 m c)
theorem X19_eq : X19 m c = after ch19 (X18 m c) := rfl
theorem keepX19 (r : Ref sig .tc) (h : r ∉ wr19) : X19 m c (Proc.devRef .tc r) = X18 m c (Proc.devRef .tc r) :=
  after_of_writes_sub ch19 _ wr19_sub h
/-- After chunk 20. A definition, not an abbreviation: reading a chunk's results stops at the previous boundary. -/
def X20 : Valuation τ sig (Elt F) := after ch20 (X19 m c)
theorem X20_eq : X20 m c = after ch20 (X19 m c) := rfl
theorem keepX20 (r : Ref sig .tc) (h : r ∉ wr20) : X20 m c (Proc.devRef .tc r) = X19 m c (Proc.devRef .tc r) :=
  after_of_writes_sub ch20 _ wr20_sub h
/-- After chunk 21. A definition, not an abbreviation: reading a chunk's results stops at the previous boundary. -/
def X21 : Valuation τ sig (Elt F) := after ch21 (X20 m c)
theorem X21_eq : X21 m c = after ch21 (X20 m c) := rfl
theorem keepX21 (r : Ref sig .tc) (h : r ∉ wr21) : X21 m c (Proc.devRef .tc r) = X20 m c (Proc.devRef .tc r) :=
  after_of_writes_sub ch21 _ wr21_sub h
/-- After chunk 22. A definition, not an abbreviation: reading a chunk's results stops at the previous boundary. -/
def X22 : Valuation τ sig (Elt F) := after ch22 (X21 m c)
theorem X22_eq : X22 m c = after ch22 (X21 m c) := rfl
theorem keepX22 (r : Ref sig .tc) (h : r ∉ wr22) : X22 m c (Proc.devRef .tc r) = X21 m c (Proc.devRef .tc r) :=
  after_of_writes_sub ch22 _ wr22_sub h
/-- After chunk 23. A definition, not an abbreviation: reading a chunk's results stops at the previous boundary. -/
def X23 : Valuation τ sig (Elt F) := after ch23 (X22 m c)
theorem X23_eq : X23 m c = after ch23 (X22 m c) := rfl
theorem keepX23 (r : Ref sig .tc) (h : r ∉ wr23) : X23 m c (Proc.devRef .tc r) = X22 m c (Proc.devRef .tc r) :=
  after_of_writes_sub ch23 _ wr23_sub h
/-- After chunk 24. A definition, not an abbreviation: reading a chunk's results stops at the previous boundary. -/
def X24 : Valuation τ sig (Elt F) := after ch24 (X23 m c)
theorem X24_eq : X24 m c = after ch24 (X23 m c) := rfl
theorem keepX24 (r : Ref sig .tc) (h : r ∉ wr24) : X24 m c (Proc.devRef .tc r) = X23 m c (Proc.devRef .tc r) :=
  after_of_writes_sub ch24 _ wr24_sub h

end Cert.ReferenceIdeal.Fold

end
-- ==== Proof.RefMain.lean ====
/-
  The reference program is the run of its chunks of host operations one after the other: each printed part of the program
  is the sequence of its own chunks (sixty statements at a time), the parts follow one another, and a sequence of
  concatenated lists is the sequences in turn. So every weakly fair execution terminates, nothing faulting, with every
  buffer at the fold of all the operations over the launch contents, which is the contents after the last chunk.
-/
import proofs.«154953_j22007412425053_2_alg».proof.Proof.RefChunks

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- All the operations, in order. -/
abbrev allOps : List (HloOp τ sig (Elt F)) := ch1 ++ (ch2 ++ (ch3 ++ (ch4 ++ (ch5 ++ (ch6 ++ (ch7 ++ (ch8 ++ (ch9 ++ (ch10 ++ (ch11 ++ (ch12 ++ (ch13 ++ (ch14 ++ (ch15 ++ (ch16 ++ (ch17 ++ (ch18 ++ (ch19 ++ (ch20 ++ (ch21 ++ (ch22 ++ (ch23 ++ (ch24)))))))))))))))))))))))

set_option maxHeartbeats 2000000 in
theorem part0_eq (d : Dev nD) : main_part0 (F := F) d = seq (ch1 ++ (ch2 ++ (ch3))) := rfl
set_option maxHeartbeats 2000000 in
theorem part1_eq (d : Dev nD) : main_part1 (F := F) d = seq (ch4 ++ (ch5 ++ (ch6))) := rfl
set_option maxHeartbeats 2000000 in
theorem part2_eq (d : Dev nD) : main_part2 (F := F) d = seq (ch7 ++ (ch8 ++ (ch9))) := rfl
set_option maxHeartbeats 2000000 in
theorem part3_eq (d : Dev nD) : main_part3 (F := F) d = seq (ch10 ++ (ch11 ++ (ch12 ++ (ch13)))) := rfl
set_option maxHeartbeats 2000000 in
theorem part4_eq (d : Dev nD) : main_part4 (F := F) d = seq (ch14 ++ (ch15)) := rfl
set_option maxHeartbeats 2000000 in
theorem part5_eq (d : Dev nD) : main_part5 (F := F) d = seq (ch16 ++ (ch17 ++ (ch18))) := rfl
set_option maxHeartbeats 2000000 in
theorem part6_eq (d : Dev nD) : main_part6 (F := F) d = seq (ch19 ++ (ch20)) := rfl
set_option maxHeartbeats 2000000 in
theorem part7_eq (d : Dev nD) : main_part7 (F := F) d = seq (ch21 ++ (ch22)) := rfl
set_option maxHeartbeats 2000000 in
theorem part8_eq (d : Dev nD) : main_part8 (F := F) d = seq (ch23 ++ (ch24)) := rfl

/-- The program is the sequence of all its operations. -/
theorem main_eq (d : Dev nD) : main (F := F) d = seq allOps := by
  have h : main (F := F) d = (main_part0 d >>= fun _ => main_part1 d >>= fun _ => main_part2 d >>= fun _ => main_part3 d >>= fun _ =>
      main_part4 d >>= fun _ => main_part5 d >>= fun _ => main_part6 d >>= fun _ => main_part7 d >>= fun _ => main_part8 d) := rfl
  rw [h, part0_eq, part1_eq, part2_eq, part3_eq, part4_eq, part5_eq, part6_eq, part7_eq, part8_eq]
  simp only [allOps, seq_append, bind_assoc]

theorem allOps_sub : (allOps : List (HloOp τ sig (Elt F))).Forall fun op => op.bufs ⊆ tcRefs τ sig :=
  List.forall_iff_forall_mem.mpr fun op h => by
    simp only [allOps, List.mem_append] at h
    rcases h with h | h | h | h | h | h | h | h | h | h | h | h | h | h | h | h | h | h | h | h | h | h | h | h
    · exact List.forall_iff_forall_mem.mp ch1_sub op h
    · exact List.forall_iff_forall_mem.mp ch2_sub op h
    · exact List.forall_iff_forall_mem.mp ch3_sub op h
    · exact List.forall_iff_forall_mem.mp ch4_sub op h
    · exact List.forall_iff_forall_mem.mp ch5_sub op h
    · exact List.forall_iff_forall_mem.mp ch6_sub op h
    · exact List.forall_iff_forall_mem.mp ch7_sub op h
    · exact List.forall_iff_forall_mem.mp ch8_sub op h
    · exact List.forall_iff_forall_mem.mp ch9_sub op h
    · exact List.forall_iff_forall_mem.mp ch10_sub op h
    · exact List.forall_iff_forall_mem.mp ch11_sub op h
    · exact List.forall_iff_forall_mem.mp ch12_sub op h
    · exact List.forall_iff_forall_mem.mp ch13_sub op h
    · exact List.forall_iff_forall_mem.mp ch14_sub op h
    · exact List.forall_iff_forall_mem.mp ch15_sub op h
    · exact List.forall_iff_forall_mem.mp ch16_sub op h
    · exact List.forall_iff_forall_mem.mp ch17_sub op h
    · exact List.forall_iff_forall_mem.mp ch18_sub op h
    · exact List.forall_iff_forall_mem.mp ch19_sub op h
    · exact List.forall_iff_forall_mem.mp ch20_sub op h
    · exact List.forall_iff_forall_mem.mp ch21_sub op h
    · exact List.forall_iff_forall_mem.mp ch22_sub op h
    · exact List.forall_iff_forall_mem.mp ch23_sub op h
    · exact List.forall_iff_forall_mem.mp ch24_sub op h

theorem allOps_fresh : ∀ op ∈ (allOps : List (HloOp τ sig (Elt F))), op.fresh = ∅ := fun op h => by
    simp only [allOps, List.mem_append] at h
    rcases h with h | h | h | h | h | h | h | h | h | h | h | h | h | h | h | h | h | h | h | h | h | h | h | h
    · exact List.forall_iff_forall_mem.mp ch1_fresh op h
    · exact List.forall_iff_forall_mem.mp ch2_fresh op h
    · exact List.forall_iff_forall_mem.mp ch3_fresh op h
    · exact List.forall_iff_forall_mem.mp ch4_fresh op h
    · exact List.forall_iff_forall_mem.mp ch5_fresh op h
    · exact List.forall_iff_forall_mem.mp ch6_fresh op h
    · exact List.forall_iff_forall_mem.mp ch7_fresh op h
    · exact List.forall_iff_forall_mem.mp ch8_fresh op h
    · exact List.forall_iff_forall_mem.mp ch9_fresh op h
    · exact List.forall_iff_forall_mem.mp ch10_fresh op h
    · exact List.forall_iff_forall_mem.mp ch11_fresh op h
    · exact List.forall_iff_forall_mem.mp ch12_fresh op h
    · exact List.forall_iff_forall_mem.mp ch13_fresh op h
    · exact List.forall_iff_forall_mem.mp ch14_fresh op h
    · exact List.forall_iff_forall_mem.mp ch15_fresh op h
    · exact List.forall_iff_forall_mem.mp ch16_fresh op h
    · exact List.forall_iff_forall_mem.mp ch17_fresh op h
    · exact List.forall_iff_forall_mem.mp ch18_fresh op h
    · exact List.forall_iff_forall_mem.mp ch19_fresh op h
    · exact List.forall_iff_forall_mem.mp ch20_fresh op h
    · exact List.forall_iff_forall_mem.mp ch21_fresh op h
    · exact List.forall_iff_forall_mem.mp ch22_fresh op h
    · exact List.forall_iff_forall_mem.mp ch23_fresh op h
    · exact List.forall_iff_forall_mem.mp ch24_fresh op h

theorem scopedRefs_eq : (Finset.univ.filter fun b : Ref sig .tc => b.isScoped) = ∅ := by decide
theorem scopedSems_eq : (Finset.univ.filter fun sm : SemLoc sig => sm.isScoped .tc) = ∅ := by decide

/-- After all the operations the buffers hold what they hold after the last chunk. -/
theorem after_allOps (m : (ℓ : Loc nD τ sig) → Buf (Elt F) ℓ) (c : Dev nD) :
    after (allOps : List (HloOp τ sig (Elt F))) (launchContents m c) = X24 m c := by
  simp only [allOps, after_append]
  first | rfl | skip

/-- On every device, from any memory with zero counters: every weakly fair execution of the program terminates, nothing
    faulting, with every buffer at what it holds after the last chunk. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = X24 m d (Proc.devRef .tc b) :=
  (θ_run defs _ _).mono (fun _ h d b => (h d b).trans (congrFun (after_allOps m d) _))
    (run_seq scopedRefs_eq scopedSems_eq defs main (fun _ => allOps) main_eq (fun _ => allOps_sub) m ρ (fun _ => allOps_fresh))

end Cert.ReferenceIdeal.Fold

end
-- ==== Proof.RefFoldA.lean ====
/-
  What the reference program's buffers hold after each chunk of its operations (chunks 0 to 6): each buffer that a later
  chunk reads holds its stage (the operations' composition as a function of the arguments); an argument is never written.
  A chunk's results are read off the chunk's fold: the operations applied to what the chunk found, which is the stage's own
  definition once the chunk's own stages are unfolded. (The operands of a joining of two arrays sit inside a list of
  shape-tagged pairs; they are rewritten first.)
-/
import proofs.«154953_j22007412425053_2_alg».proof.Proof.RefChunks
import proofs.«154953_j22007412425053_2_alg».proof.Proof.RefRead
import Idealize.ShloMosaic.PureOps.Ideal

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

abbrev B0 (m : (ℓ : Loc nD τ sig) → Buf (Elt Ideal) ℓ) (c : Dev nD) : (⟨S100000x10, .f32⟩ : BufTy).Contents (Elt Ideal) := m ((c.tc : Thread nD τ).loc main_arg0)
abbrev B1 (m : (ℓ : Loc nD τ sig) → Buf (Elt Ideal) ℓ) (c : Dev nD) : (⟨S200000, .i32⟩ : BufTy).Contents (Elt Ideal) := m ((c.tc : Thread nD τ).loc main_arg1)
abbrev B2 (m : (ℓ : Loc nD τ sig) → Buf (Elt Ideal) ℓ) (c : Dev nD) : (⟨S200000, .i32⟩ : BufTy).Contents (Elt Ideal) := m ((c.tc : Thread nD τ).loc main_arg2)
abbrev B3 (m : (ℓ : Loc nD τ sig) → Buf (Elt Ideal) ℓ) (c : Dev nD) : (⟨S200000, .i32⟩ : BufTy).Contents (Elt Ideal) := m ((c.tc : Thread nD τ).loc main_arg3)
abbrev B4 (m : (ℓ : Loc nD τ sig) → Buf (Elt Ideal) ℓ) (c : Dev nD) : (⟨S200000, .i32⟩ : BufTy).Contents (Elt Ideal) := m ((c.tc : Thread nD τ).loc main_arg4)
abbrev B5 (m : (ℓ : Loc nD τ sig) → Buf (Elt Ideal) ℓ) (c : Dev nD) : (⟨S256x128, .f32⟩ : BufTy).Contents (Elt Ideal) := m ((c.tc : Thread nD τ).loc main_arg5)
abbrev B6 (m : (ℓ : Loc nD τ sig) → Buf (Elt Ideal) ℓ) (c : Dev nD) : (⟨S128, .f32⟩ : BufTy).Contents (Elt Ideal) := m ((c.tc : Thread nD τ).loc main_arg6)
abbrev B7 (m : (ℓ : Loc nD τ sig) → Buf (Elt Ideal) ℓ) (c : Dev nD) : (⟨S256x128, .f32⟩ : BufTy).Contents (Elt Ideal) := m ((c.tc : Thread nD τ).loc main_arg7)
abbrev B8 (m : (ℓ : Loc nD τ sig) → Buf (Elt Ideal) ℓ) (c : Dev nD) : (⟨S128, .f32⟩ : BufTy).Contents (Elt Ideal) := m ((c.tc : Thread nD τ).loc main_arg8)
abbrev B9 (m : (ℓ : Loc nD τ sig) → Buf (Elt Ideal) ℓ) (c : Dev nD) : (⟨S128x384, .f32⟩ : BufTy).Contents (Elt Ideal) := m ((c.tc : Thread nD τ).loc main_arg9)
abbrev B10 (m : (ℓ : Loc nD τ sig) → Buf (Elt Ideal) ℓ) (c : Dev nD) : (⟨S128x384, .f32⟩ : BufTy).Contents (Elt Ideal) := m ((c.tc : Thread nD τ).loc main_arg10)
abbrev B11 (m : (ℓ : Loc nD τ sig) → Buf (Elt Ideal) ℓ) (c : Dev nD) : (⟨S2x384, .f32⟩ : BufTy).Contents (Elt Ideal) := m ((c.tc : Thread nD τ).loc main_arg11)
abbrev B12 (m : (ℓ : Loc nD τ sig) → Buf (Elt Ideal) ℓ) (c : Dev nD) : (⟨S128x384, .f32⟩ : BufTy).Contents (Elt Ideal) := m ((c.tc : Thread nD τ).loc main_arg12)
abbrev B13 (m : (ℓ : Loc nD τ sig) → Buf (Elt Ideal) ℓ) (c : Dev nD) : (⟨S128x384, .f32⟩ : BufTy).Contents (Elt Ideal) := m ((c.tc : Thread nD τ).loc main_arg13)
abbrev B14 (m : (ℓ : Loc nD τ sig) → Buf (Elt Ideal) ℓ) (c : Dev nD) : (⟨S2x384, .f32⟩ : BufTy).Contents (Elt Ideal) := m ((c.tc : Thread nD τ).loc main_arg14)
abbrev B15 (m : (ℓ : Loc nD τ sig) → Buf (Elt Ideal) ℓ) (c : Dev nD) : (⟨S128x128, .f32⟩ : BufTy).Contents (Elt Ideal) := m ((c.tc : Thread nD τ).loc main_arg15)
abbrev B16 (m : (ℓ : Loc nD τ sig) → Buf (Elt Ideal) ℓ) (c : Dev nD) : (⟨S128, .f32⟩ : BufTy).Contents (Elt Ideal) := m ((c.tc : Thread nD τ).loc main_arg16)
abbrev B17 (m : (ℓ : Loc nD τ sig) → Buf (Elt Ideal) ℓ) (c : Dev nD) : (⟨S128x64, .f32⟩ : BufTy).Contents (Elt Ideal) := m ((c.tc : Thread nD τ).loc main_arg17)
abbrev B18 (m : (ℓ : Loc nD τ sig) → Buf (Elt Ideal) ℓ) (c : Dev nD) : (⟨S64, .f32⟩ : BufTy).Contents (Elt Ideal) := m ((c.tc : Thread nD τ).loc main_arg18)
abbrev B19 (m : (ℓ : Loc nD τ sig) → Buf (Elt Ideal) ℓ) (c : Dev nD) : (⟨S64x15, .f32⟩ : BufTy).Contents (Elt Ideal) := m ((c.tc : Thread nD τ).loc main_arg19)
abbrev B20 (m : (ℓ : Loc nD τ sig) → Buf (Elt Ideal) ℓ) (c : Dev nD) : (⟨S15, .f32⟩ : BufTy).Contents (Elt Ideal) := m ((c.tc : Thread nD τ).loc main_arg20)

variable (m : (ℓ : Loc nD τ sig) → Buf (Elt Ideal) ℓ) (c : Dev nD)

theorem g0_arg0 : X0 (F := Ideal) m c (Proc.devRef .tc main_arg0) = B0 m c := rfl
theorem g0_arg1 : X0 (F := Ideal) m c (Proc.devRef .tc main_arg1) = B1 m c := rfl
theorem g0_arg2 : X0 (F := Ideal) m c (Proc.devRef .tc main_arg2) = B2 m c := rfl
theorem g0_arg3 : X0 (F := Ideal) m c (Proc.devRef .tc main_arg3) = B3 m c := rfl
theorem g0_arg4 : X0 (F := Ideal) m c (Proc.devRef .tc main_arg4) = B4 m c := rfl
theorem g0_arg5 : X0 (F := Ideal) m c (Proc.devRef .tc main_arg5) = B5 m c := rfl
theorem g0_arg6 : X0 (F := Ideal) m c (Proc.devRef .tc main_arg6) = B6 m c := rfl
theorem g0_arg7 : X0 (F := Ideal) m c (Proc.devRef .tc main_arg7) = B7 m c := rfl
theorem g0_arg8 : X0 (F := Ideal) m c (Proc.devRef .tc main_arg8) = B8 m c := rfl
theorem g0_arg9 : X0 (F := Ideal) m c (Proc.devRef .tc main_arg9) = B9 m c := rfl
theorem g0_arg10 : X0 (F := Ideal) m c (Proc.devRef .tc main_arg10) = B10 m c := rfl
theorem g0_arg11 : X0 (F := Ideal) m c (Proc.devRef .tc main_arg11) = B11 m c := rfl
theorem g0_arg12 : X0 (F := Ideal) m c (Proc.devRef .tc main_arg12) = B12 m c := rfl
theorem g0_arg13 : X0 (F := Ideal) m c (Proc.devRef .tc main_arg13) = B13 m c := rfl
theorem g0_arg14 : X0 (F := Ideal) m c (Proc.devRef .tc main_arg14) = B14 m c := rfl
theorem g0_arg15 : X0 (F := Ideal) m c (Proc.devRef .tc main_arg15) = B15 m c := rfl
theorem g0_arg16 : X0 (F := Ideal) m c (Proc.devRef .tc main_arg16) = B16 m c := rfl
theorem g0_arg17 : X0 (F := Ideal) m c (Proc.devRef .tc main_arg17) = B17 m c := rfl
theorem g0_arg18 : X0 (F := Ideal) m c (Proc.devRef .tc main_arg18) = B18 m c := rfl
theorem g0_arg19 : X0 (F := Ideal) m c (Proc.devRef .tc main_arg19) = B19 m c := rfl
theorem g0_arg20 : X0 (F := Ideal) m c (Proc.devRef .tc main_arg20) = B20 m c := rfl
theorem g1_arg0 : X1 (F := Ideal) m c (Proc.devRef .tc main_arg0) = B0 m c :=
  (keepX1 m c main_arg0 (by decide)).trans (g0_arg0 m c)
theorem g1_arg1 : X1 (F := Ideal) m c (Proc.devRef .tc main_arg1) = B1 m c :=
  (keepX1 m c main_arg1 (by decide)).trans (g0_arg1 m c)
theorem g1_arg2 : X1 (F := Ideal) m c (Proc.devRef .tc main_arg2) = B2 m c :=
  (keepX1 m c main_arg2 (by decide)).trans (g0_arg2 m c)
theorem g1_arg3 : X1 (F := Ideal) m c (Proc.devRef .tc main_arg3) = B3 m c :=
  (keepX1 m c main_arg3 (by decide)).trans (g0_arg3 m c)
theorem g1_arg4 : X1 (F := Ideal) m c (Proc.devRef .tc main_arg4) = B4 m c :=
  (keepX1 m c main_arg4 (by decide)).trans (g0_arg4 m c)
theorem g1_arg5 : X1 (F := Ideal) m c (Proc.devRef .tc main_arg5) = B5 m c :=
  (keepX1 m c main_arg5 (by decide)).trans (g0_arg5 m c)
theorem g1_arg6 : X1 (F := Ideal) m c (Proc.devRef .tc main_arg6) = B6 m c :=
  (keepX1 m c main_arg6 (by decide)).trans (g0_arg6 m c)
theorem g1_arg7 : X1 (F := Ideal) m c (Proc.devRef .tc main_arg7) = B7 m c :=
  (keepX1 m c main_arg7 (by decide)).trans (g0_arg7 m c)
theorem g1_arg8 : X1 (F := Ideal) m c (Proc.devRef .tc main_arg8) = B8 m c :=
  (keepX1 m c main_arg8 (by decide)).trans (g0_arg8 m c)
theorem g1_arg9 : X1 (F := Ideal) m c (Proc.devRef .tc main_arg9) = B9 m c :=
  (keepX1 m c main_arg9 (by decide)).trans (g0_arg9 m c)
theorem g1_arg10 : X1 (F := Ideal) m c (Proc.devRef .tc main_arg10) = B10 m c :=
  (keepX1 m c main_arg10 (by decide)).trans (g0_arg10 m c)
theorem g1_arg11 : X1 (F := Ideal) m c (Proc.devRef .tc main_arg11) = B11 m c :=
  (keepX1 m c main_arg11 (by decide)).trans (g0_arg11 m c)
theorem g1_arg12 : X1 (F := Ideal) m c (Proc.devRef .tc main_arg12) = B12 m c :=
  (keepX1 m c main_arg12 (by decide)).trans (g0_arg12 m c)
theorem g1_arg13 : X1 (F := Ideal) m c (Proc.devRef .tc main_arg13) = B13 m c :=
  (keepX1 m c main_arg13 (by decide)).trans (g0_arg13 m c)
theorem g1_arg14 : X1 (F := Ideal) m c (Proc.devRef .tc main_arg14) = B14 m c :=
  (keepX1 m c main_arg14 (by decide)).trans (g0_arg14 m c)
theorem g1_arg15 : X1 (F := Ideal) m c (Proc.devRef .tc main_arg15) = B15 m c :=
  (keepX1 m c main_arg15 (by decide)).trans (g0_arg15 m c)
theorem g1_arg16 : X1 (F := Ideal) m c (Proc.devRef .tc main_arg16) = B16 m c :=
  (keepX1 m c main_arg16 (by decide)).trans (g0_arg16 m c)
theorem g1_arg17 : X1 (F := Ideal) m c (Proc.devRef .tc main_arg17) = B17 m c :=
  (keepX1 m c main_arg17 (by decide)).trans (g0_arg17 m c)
theorem g1_arg18 : X1 (F := Ideal) m c (Proc.devRef .tc main_arg18) = B18 m c :=
  (keepX1 m c main_arg18 (by decide)).trans (g0_arg18 m c)
theorem g1_arg19 : X1 (F := Ideal) m c (Proc.devRef .tc main_arg19) = B19 m c :=
  (keepX1 m c main_arg19 (by decide)).trans (g0_arg19 m c)
theorem g1_arg20 : X1 (F := Ideal) m c (Proc.devRef .tc main_arg20) = B20 m c :=
  (keepX1 m c main_arg20 (by decide)).trans (g0_arg20 m c)
set_option maxHeartbeats 4000000 in
theorem g1_v0 : X1 (F := Ideal) m c (Proc.devRef .tc main_v0) = Cert.ReferenceIdeal.Read.val_main_v0 (F := Ideal) := by
  rw [X1_eq]
  after_results_simp
  all_goals rfl
set_option maxHeartbeats 4000000 in
theorem g1_v2 : X1 (F := Ideal) m c (Proc.devRef .tc main_v2) = Cert.ReferenceIdeal.Read.val_main_v2 (F := Ideal) (B0 m c) := by
  rw [X1_eq]
  after_results_simp
  all_goals (try simp only [g0_arg0 m c])
  all_goals rfl
set_option maxHeartbeats 4000000 in
theorem g1_v22 : X1 (F := Ideal) m c (Proc.devRef .tc main_v22) = Cert.ReferenceIdeal.Read.val_main_v22 (F := Ideal) (B0 m c) (B1 m c) (B2 m c) (B5 m c) (B6 m c) := by
  rw [X1_eq]
  after_results_simp
  all_goals (try simp only [g0_arg1 m c, g0_arg0 m c, g0_arg2 m c, g0_arg5 m c, g0_arg6 m c])
  all_goals rfl
theorem g2_arg0 : X2 (F := Ideal) m c (Proc.devRef .tc main_arg0) = B0 m c :=
  (keepX2 m c main_arg0 (by decide)).trans (g1_arg0 m c)
theorem g2_arg1 : X2 (F := Ideal) m c (Proc.devRef .tc main_arg1) = B1 m c :=
  (keepX2 m c main_arg1 (by decide)).trans (g1_arg1 m c)
theorem g2_arg2 : X2 (F := Ideal) m c (Proc.devRef .tc main_arg2) = B2 m c :=
  (keepX2 m c main_arg2 (by decide)).trans (g1_arg2 m c)
theorem g2_arg3 : X2 (F := Ideal) m c (Proc.devRef .tc main_arg3) = B3 m c :=
  (keepX2 m c main_arg3 (by decide)).trans (g1_arg3 m c)
theorem g2_arg4 : X2 (F := Ideal) m c (Proc.devRef .tc main_arg4) = B4 m c :=
  (keepX2 m c main_arg4 (by decide)).trans (g1_arg4 m c)
theorem g2_arg5 : X2 (F := Ideal) m c (Proc.devRef .tc main_arg5) = B5 m c :=
  (keepX2 m c main_arg5 (by decide)).trans (g1_arg5 m c)
theorem g2_arg6 : X2 (F := Ideal) m c (Proc.devRef .tc main_arg6) = B6 m c :=
  (keepX2 m c main_arg6 (by decide)).trans (g1_arg6 m c)
theorem g2_arg7 : X2 (F := Ideal) m c (Proc.devRef .tc main_arg7) = B7 m c :=
  (keepX2 m c main_arg7 (by decide)).trans (g1_arg7 m c)
theorem g2_arg8 : X2 (F := Ideal) m c (Proc.devRef .tc main_arg8) = B8 m c :=
  (keepX2 m c main_arg8 (by decide)).trans (g1_arg8 m c)
theorem g2_arg9 : X2 (F := Ideal) m c (Proc.devRef .tc main_arg9) = B9 m c :=
  (keepX2 m c main_arg9 (by decide)).trans (g1_arg9 m c)
theorem g2_arg10 : X2 (F := Ideal) m c (Proc.devRef .tc main_arg10) = B10 m c :=
  (keepX2 m c main_arg10 (by decide)).trans (g1_arg10 m c)
theorem g2_arg11 : X2 (F := Ideal) m c (Proc.devRef .tc main_arg11) = B11 m c :=
  (keepX2 m c main_arg11 (by decide)).trans (g1_arg11 m c)
theorem g2_arg12 : X2 (F := Ideal) m c (Proc.devRef .tc main_arg12) = B12 m c :=
  (keepX2 m c main_arg12 (by decide)).trans (g1_arg12 m c)
theorem g2_arg13 : X2 (F := Ideal) m c (Proc.devRef .tc main_arg13) = B13 m c :=
  (keepX2 m c main_arg13 (by decide)).trans (g1_arg13 m c)
theorem g2_arg14 : X2 (F := Ideal) m c (Proc.devRef .tc main_arg14) = B14 m c :=
  (keepX2 m c main_arg14 (by decide)).trans (g1_arg14 m c)
theorem g2_arg15 : X2 (F := Ideal) m c (Proc.devRef .tc main_arg15) = B15 m c :=
  (keepX2 m c main_arg15 (by decide)).trans (g1_arg15 m c)
theorem g2_arg16 : X2 (F := Ideal) m c (Proc.devRef .tc main_arg16) = B16 m c :=
  (keepX2 m c main_arg16 (by decide)).trans (g1_arg16 m c)
theorem g2_arg17 : X2 (F := Ideal) m c (Proc.devRef .tc main_arg17) = B17 m c :=
  (keepX2 m c main_arg17 (by decide)).trans (g1_arg17 m c)
theorem g2_arg18 : X2 (F := Ideal) m c (Proc.devRef .tc main_arg18) = B18 m c :=
  (keepX2 m c main_arg18 (by decide)).trans (g1_arg18 m c)
theorem g2_arg19 : X2 (F := Ideal) m c (Proc.devRef .tc main_arg19) = B19 m c :=
  (keepX2 m c main_arg19 (by decide)).trans (g1_arg19 m c)
theorem g2_arg20 : X2 (F := Ideal) m c (Proc.devRef .tc main_arg20) = B20 m c :=
  (keepX2 m c main_arg20 (by decide)).trans (g1_arg20 m c)
theorem g2_v0 : X2 (F := Ideal) m c (Proc.devRef .tc main_v0) = Cert.ReferenceIdeal.Read.val_main_v0 (F := Ideal) :=
  (keepX2 m c main_v0 (by decide)).trans (g1_v0 m c)
theorem g2_v2 : X2 (F := Ideal) m c (Proc.devRef .tc main_v2) = Cert.ReferenceIdeal.Read.val_main_v2 (F := Ideal) (B0 m c) :=
  (keepX2 m c main_v2 (by decide)).trans (g1_v2 m c)
set_option maxHeartbeats 4000000 in
theorem g2_v33 : X2 (F := Ideal) m c (Proc.devRef .tc main_v33) = Cert.ReferenceIdeal.Read.val_main_v33 (F := Ideal) (B0 m c) (B1 m c) (B2 m c) (B5 m c) (B6 m c) := by
  rw [X2_eq]
  after_results_simp
  all_goals (try simp only [g1_arg2 m c, g1_v22 m c])
  all_goals (try simp only [Cert.ReferenceIdeal.Read.val_main_v33, Cert.ReferenceIdeal.Read.val_main_v25, Cert.ReferenceIdeal.Read.val_main_v23, Cert.ReferenceIdeal.Read.val_main_cst_4, Cert.ReferenceIdeal.Read.val_main_v24, Cert.ReferenceIdeal.Read.val_main_v32, Cert.ReferenceIdeal.Read.val_main_v31, Cert.ReferenceIdeal.Read.val_main_v29, Cert.ReferenceIdeal.Read.val_main_v27, Cert.ReferenceIdeal.Read.val_main_cst_6, Cert.ReferenceIdeal.Read.val_main_v28, Cert.ReferenceIdeal.Read.val_main_v26, Cert.ReferenceIdeal.Read.val_main_cst_5, Cert.ReferenceIdeal.Read.val_main_v30, Cert.ReferenceIdeal.Read.val_main_cst_7])
  all_goals rfl
theorem g3_arg0 : X3 (F := Ideal) m c (Proc.devRef .tc main_arg0) = B0 m c :=
  (keepX3 m c main_arg0 (by decide)).trans (g2_arg0 m c)
theorem g3_arg1 : X3 (F := Ideal) m c (Proc.devRef .tc main_arg1) = B1 m c :=
  (keepX3 m c main_arg1 (by decide)).trans (g2_arg1 m c)
theorem g3_arg2 : X3 (F := Ideal) m c (Proc.devRef .tc main_arg2) = B2 m c :=
  (keepX3 m c main_arg2 (by decide)).trans (g2_arg2 m c)
theorem g3_arg3 : X3 (F := Ideal) m c (Proc.devRef .tc main_arg3) = B3 m c :=
  (keepX3 m c main_arg3 (by decide)).trans (g2_arg3 m c)
theorem g3_arg4 : X3 (F := Ideal) m c (Proc.devRef .tc main_arg4) = B4 m c :=
  (keepX3 m c main_arg4 (by decide)).trans (g2_arg4 m c)
theorem g3_arg5 : X3 (F := Ideal) m c (Proc.devRef .tc main_arg5) = B5 m c :=
  (keepX3 m c main_arg5 (by decide)).trans (g2_arg5 m c)
theorem g3_arg6 : X3 (F := Ideal) m c (Proc.devRef .tc main_arg6) = B6 m c :=
  (keepX3 m c main_arg6 (by decide)).trans (g2_arg6 m c)
theorem g3_arg7 : X3 (F := Ideal) m c (Proc.devRef .tc main_arg7) = B7 m c :=
  (keepX3 m c main_arg7 (by decide)).trans (g2_arg7 m c)
theorem g3_arg8 : X3 (F := Ideal) m c (Proc.devRef .tc main_arg8) = B8 m c :=
  (keepX3 m c main_arg8 (by decide)).trans (g2_arg8 m c)
theorem g3_arg9 : X3 (F := Ideal) m c (Proc.devRef .tc main_arg9) = B9 m c :=
  (keepX3 m c main_arg9 (by decide)).trans (g2_arg9 m c)
theorem g3_arg10 : X3 (F := Ideal) m c (Proc.devRef .tc main_arg10) = B10 m c :=
  (keepX3 m c main_arg10 (by decide)).trans (g2_arg10 m c)
theorem g3_arg11 : X3 (F := Ideal) m c (Proc.devRef .tc main_arg11) = B11 m c :=
  (keepX3 m c main_arg11 (by decide)).trans (g2_arg11 m c)
theorem g3_arg12 : X3 (F := Ideal) m c (Proc.devRef .tc main_arg12) = B12 m c :=
  (keepX3 m c main_arg12 (by decide)).trans (g2_arg12 m c)
theorem g3_arg13 : X3 (F := Ideal) m c (Proc.devRef .tc main_arg13) = B13 m c :=
  (keepX3 m c main_arg13 (by decide)).trans (g2_arg13 m c)
theorem g3_arg14 : X3 (F := Ideal) m c (Proc.devRef .tc main_arg14) = B14 m c :=
  (keepX3 m c main_arg14 (by decide)).trans (g2_arg14 m c)
theorem g3_arg15 : X3 (F := Ideal) m c (Proc.devRef .tc main_arg15) = B15 m c :=
  (keepX3 m c main_arg15 (by decide)).trans (g2_arg15 m c)
theorem g3_arg16 : X3 (F := Ideal) m c (Proc.devRef .tc main_arg16) = B16 m c :=
  (keepX3 m c main_arg16 (by decide)).trans (g2_arg16 m c)
theorem g3_arg17 : X3 (F := Ideal) m c (Proc.devRef .tc main_arg17) = B17 m c :=
  (keepX3 m c main_arg17 (by decide)).trans (g2_arg17 m c)
theorem g3_arg18 : X3 (F := Ideal) m c (Proc.devRef .tc main_arg18) = B18 m c :=
  (keepX3 m c main_arg18 (by decide)).trans (g2_arg18 m c)
theorem g3_arg19 : X3 (F := Ideal) m c (Proc.devRef .tc main_arg19) = B19 m c :=
  (keepX3 m c main_arg19 (by decide)).trans (g2_arg19 m c)
theorem g3_arg20 : X3 (F := Ideal) m c (Proc.devRef .tc main_arg20) = B20 m c :=
  (keepX3 m c main_arg20 (by decide)).trans (g2_arg20 m c)
theorem g3_v0 : X3 (F := Ideal) m c (Proc.devRef .tc main_v0) = Cert.ReferenceIdeal.Read.val_main_v0 (F := Ideal) :=
  (keepX3 m c main_v0 (by decide)).trans (g2_v0 m c)
theorem g3_v2 : X3 (F := Ideal) m c (Proc.devRef .tc main_v2) = Cert.ReferenceIdeal.Read.val_main_v2 (F := Ideal) (B0 m c) :=
  (keepX3 m c main_v2 (by decide)).trans (g2_v2 m c)
theorem g3_v33 : X3 (F := Ideal) m c (Proc.devRef .tc main_v33) = Cert.ReferenceIdeal.Read.val_main_v33 (F := Ideal) (B0 m c) (B1 m c) (B2 m c) (B5 m c) (B6 m c) :=
  (keepX3 m c main_v33 (by decide)).trans (g2_v33 m c)
set_option maxHeartbeats 4000000 in
theorem g3_v40 : X3 (F := Ideal) m c (Proc.devRef .tc main_v40) = Cert.ReferenceIdeal.Read.val_main_v40 (F := Ideal) (B0 m c) (B3 m c) := by
  rw [X3_eq]
  after_results_simp
  all_goals (try simp only [g2_v2 m c, g2_arg3 m c])
  all_goals (try simp only [Cert.ReferenceIdeal.Read.val_main_v40, Cert.ReferenceIdeal.Read.val_main_v39, Cert.ReferenceIdeal.Read.val_main_v38, Cert.ReferenceIdeal.Read.val_main_v35, Cert.ReferenceIdeal.Read.val_main_v34, Cert.ReferenceIdeal.Read.val_main_c_8, Cert.ReferenceIdeal.Read.val_main_v37, Cert.ReferenceIdeal.Read.val_main_v36, Cert.ReferenceIdeal.Read.val_main_c_9])
  all_goals rfl
set_option maxHeartbeats 4000000 in
theorem g3_v45 : X3 (F := Ideal) m c (Proc.devRef .tc main_v45) = Cert.ReferenceIdeal.Read.val_main_v45 (F := Ideal) (B4 m c) := by
  rw [X3_eq]
  after_results_simp
  all_goals (try simp only [g2_arg4 m c])
  all_goals (try simp only [Cert.ReferenceIdeal.Read.val_main_v45, Cert.ReferenceIdeal.Read.val_main_v42, Cert.ReferenceIdeal.Read.val_main_v41, Cert.ReferenceIdeal.Read.val_main_c_10, Cert.ReferenceIdeal.Read.val_main_v44, Cert.ReferenceIdeal.Read.val_main_v43, Cert.ReferenceIdeal.Read.val_main_c_11])
  all_goals rfl
theorem g4_arg0 : X4 (F := Ideal) m c (Proc.devRef .tc main_arg0) = B0 m c :=
  (keepX4 m c main_arg0 (by decide)).trans (g3_arg0 m c)
theorem g4_arg1 : X4 (F := Ideal) m c (Proc.devRef .tc main_arg1) = B1 m c :=
  (keepX4 m c main_arg1 (by decide)).trans (g3_arg1 m c)
theorem g4_arg2 : X4 (F := Ideal) m c (Proc.devRef .tc main_arg2) = B2 m c :=
  (keepX4 m c main_arg2 (by decide)).trans (g3_arg2 m c)
theorem g4_arg3 : X4 (F := Ideal) m c (Proc.devRef .tc main_arg3) = B3 m c :=
  (keepX4 m c main_arg3 (by decide)).trans (g3_arg3 m c)
theorem g4_arg4 : X4 (F := Ideal) m c (Proc.devRef .tc main_arg4) = B4 m c :=
  (keepX4 m c main_arg4 (by decide)).trans (g3_arg4 m c)
theorem g4_arg5 : X4 (F := Ideal) m c (Proc.devRef .tc main_arg5) = B5 m c :=
  (keepX4 m c main_arg5 (by decide)).trans (g3_arg5 m c)
theorem g4_arg6 : X4 (F := Ideal) m c (Proc.devRef .tc main_arg6) = B6 m c :=
  (keepX4 m c main_arg6 (by decide)).trans (g3_arg6 m c)
theorem g4_arg7 : X4 (F := Ideal) m c (Proc.devRef .tc main_arg7) = B7 m c :=
  (keepX4 m c main_arg7 (by decide)).trans (g3_arg7 m c)
theorem g4_arg8 : X4 (F := Ideal) m c (Proc.devRef .tc main_arg8) = B8 m c :=
  (keepX4 m c main_arg8 (by decide)).trans (g3_arg8 m c)
theorem g4_arg9 : X4 (F := Ideal) m c (Proc.devRef .tc main_arg9) = B9 m c :=
  (keepX4 m c main_arg9 (by decide)).trans (g3_arg9 m c)
theorem g4_arg10 : X4 (F := Ideal) m c (Proc.devRef .tc main_arg10) = B10 m c :=
  (keepX4 m c main_arg10 (by decide)).trans (g3_arg10 m c)
theorem g4_arg11 : X4 (F := Ideal) m c (Proc.devRef .tc main_arg11) = B11 m c :=
  (keepX4 m c main_arg11 (by decide)).trans (g3_arg11 m c)
theorem g4_arg12 : X4 (F := Ideal) m c (Proc.devRef .tc main_arg12) = B12 m c :=
  (keepX4 m c main_arg12 (by decide)).trans (g3_arg12 m c)
theorem g4_arg13 : X4 (F := Ideal) m c (Proc.devRef .tc main_arg13) = B13 m c :=
  (keepX4 m c main_arg13 (by decide)).trans (g3_arg13 m c)
theorem g4_arg14 : X4 (F := Ideal) m c (Proc.devRef .tc main_arg14) = B14 m c :=
  (keepX4 m c main_arg14 (by decide)).trans (g3_arg14 m c)
theorem g4_arg15 : X4 (F := Ideal) m c (Proc.devRef .tc main_arg15) = B15 m c :=
  (keepX4 m c main_arg15 (by decide)).trans (g3_arg15 m c)
theorem g4_arg16 : X4 (F := Ideal) m c (Proc.devRef .tc main_arg16) = B16 m c :=
  (keepX4 m c main_arg16 (by decide)).trans (g3_arg16 m c)
theorem g4_arg17 : X4 (F := Ideal) m c (Proc.devRef .tc main_arg17) = B17 m c :=
  (keepX4 m c main_arg17 (by decide)).trans (g3_arg17 m c)
theorem g4_arg18 : X4 (F := Ideal) m c (Proc.devRef .tc main_arg18) = B18 m c :=
  (keepX4 m c main_arg18 (by decide)).trans (g3_arg18 m c)
theorem g4_arg19 : X4 (F := Ideal) m c (Proc.devRef .tc main_arg19) = B19 m c :=
  (keepX4 m c main_arg19 (by decide)).trans (g3_arg19 m c)
theorem g4_arg20 : X4 (F := Ideal) m c (Proc.devRef .tc main_arg20) = B20 m c :=
  (keepX4 m c main_arg20 (by decide)).trans (g3_arg20 m c)
theorem g4_v0 : X4 (F := Ideal) m c (Proc.devRef .tc main_v0) = Cert.ReferenceIdeal.Read.val_main_v0 (F := Ideal) :=
  (keepX4 m c main_v0 (by decide)).trans (g3_v0 m c)
theorem g4_v2 : X4 (F := Ideal) m c (Proc.devRef .tc main_v2) = Cert.ReferenceIdeal.Read.val_main_v2 (F := Ideal) (B0 m c) :=
  (keepX4 m c main_v2 (by decide)).trans (g3_v2 m c)
theorem g4_v33 : X4 (F := Ideal) m c (Proc.devRef .tc main_v33) = Cert.ReferenceIdeal.Read.val_main_v33 (F := Ideal) (B0 m c) (B1 m c) (B2 m c) (B5 m c) (B6 m c) :=
  (keepX4 m c main_v33 (by decide)).trans (g3_v33 m c)
theorem g4_v40 : X4 (F := Ideal) m c (Proc.devRef .tc main_v40) = Cert.ReferenceIdeal.Read.val_main_v40 (F := Ideal) (B0 m c) (B3 m c) :=
  (keepX4 m c main_v40 (by decide)).trans (g3_v40 m c)
set_option maxHeartbeats 4000000 in
theorem g4_v47 : X4 (F := Ideal) m c (Proc.devRef .tc main_v47) = Cert.ReferenceIdeal.Read.val_main_v47 (F := Ideal) (B4 m c) := by
  rw [X4_eq]
  after_results_simp
  all_goals (try simp only [g3_v0 m c, g3_v45 m c])
  all_goals (try simp only [Cert.ReferenceIdeal.Read.val_main_v47, Cert.ReferenceIdeal.Read.val_main_v46])
  all_goals rfl
theorem g5_arg0 : X5 (F := Ideal) m c (Proc.devRef .tc main_arg0) = B0 m c :=
  (keepX5 m c main_arg0 (by decide)).trans (g4_arg0 m c)
theorem g5_arg1 : X5 (F := Ideal) m c (Proc.devRef .tc main_arg1) = B1 m c :=
  (keepX5 m c main_arg1 (by decide)).trans (g4_arg1 m c)
theorem g5_arg2 : X5 (F := Ideal) m c (Proc.devRef .tc main_arg2) = B2 m c :=
  (keepX5 m c main_arg2 (by decide)).trans (g4_arg2 m c)
theorem g5_arg3 : X5 (F := Ideal) m c (Proc.devRef .tc main_arg3) = B3 m c :=
  (keepX5 m c main_arg3 (by decide)).trans (g4_arg3 m c)
theorem g5_arg4 : X5 (F := Ideal) m c (Proc.devRef .tc main_arg4) = B4 m c :=
  (keepX5 m c main_arg4 (by decide)).trans (g4_arg4 m c)
theorem g5_arg5 : X5 (F := Ideal) m c (Proc.devRef .tc main_arg5) = B5 m c :=
  (keepX5 m c main_arg5 (by decide)).trans (g4_arg5 m c)
theorem g5_arg6 : X5 (F := Ideal) m c (Proc.devRef .tc main_arg6) = B6 m c :=
  (keepX5 m c main_arg6 (by decide)).trans (g4_arg6 m c)
theorem g5_arg7 : X5 (F := Ideal) m c (Proc.devRef .tc main_arg7) = B7 m c :=
  (keepX5 m c main_arg7 (by decide)).trans (g4_arg7 m c)
theorem g5_arg8 : X5 (F := Ideal) m c (Proc.devRef .tc main_arg8) = B8 m c :=
  (keepX5 m c main_arg8 (by decide)).trans (g4_arg8 m c)
theorem g5_arg9 : X5 (F := Ideal) m c (Proc.devRef .tc main_arg9) = B9 m c :=
  (keepX5 m c main_arg9 (by decide)).trans (g4_arg9 m c)
theorem g5_arg10 : X5 (F := Ideal) m c (Proc.devRef .tc main_arg10) = B10 m c :=
  (keepX5 m c main_arg10 (by decide)).trans (g4_arg10 m c)
theorem g5_arg11 : X5 (F := Ideal) m c (Proc.devRef .tc main_arg11) = B11 m c :=
  (keepX5 m c main_arg11 (by decide)).trans (g4_arg11 m c)
theorem g5_arg12 : X5 (F := Ideal) m c (Proc.devRef .tc main_arg12) = B12 m c :=
  (keepX5 m c main_arg12 (by decide)).trans (g4_arg12 m c)
theorem g5_arg13 : X5 (F := Ideal) m c (Proc.devRef .tc main_arg13) = B13 m c :=
  (keepX5 m c main_arg13 (by decide)).trans (g4_arg13 m c)
theorem g5_arg14 : X5 (F := Ideal) m c (Proc.devRef .tc main_arg14) = B14 m c :=
  (keepX5 m c main_arg14 (by decide)).trans (g4_arg14 m c)
theorem g5_arg15 : X5 (F := Ideal) m c (Proc.devRef .tc main_arg15) = B15 m c :=
  (keepX5 m c main_arg15 (by decide)).trans (g4_arg15 m c)
theorem g5_arg16 : X5 (F := Ideal) m c (Proc.devRef .tc main_arg16) = B16 m c :=
  (keepX5 m c main_arg16 (by decide)).trans (g4_arg16 m c)
theorem g5_arg17 : X5 (F := Ideal) m c (Proc.devRef .tc main_arg17) = B17 m c :=
  (keepX5 m c main_arg17 (by decide)).trans (g4_arg17 m c)
theorem g5_arg18 : X5 (F := Ideal) m c (Proc.devRef .tc main_arg18) = B18 m c :=
  (keepX5 m c main_arg18 (by decide)).trans (g4_arg18 m c)
theorem g5_arg19 : X5 (F := Ideal) m c (Proc.devRef .tc main_arg19) = B19 m c :=
  (keepX5 m c main_arg19 (by decide)).trans (g4_arg19 m c)
theorem g5_arg20 : X5 (F := Ideal) m c (Proc.devRef .tc main_arg20) = B20 m c :=
  (keepX5 m c main_arg20 (by decide)).trans (g4_arg20 m c)
theorem g5_v0 : X5 (F := Ideal) m c (Proc.devRef .tc main_v0) = Cert.ReferenceIdeal.Read.val_main_v0 (F := Ideal) :=
  (keepX5 m c main_v0 (by decide)).trans (g4_v0 m c)
theorem g5_v2 : X5 (F := Ideal) m c (Proc.devRef .tc main_v2) = Cert.ReferenceIdeal.Read.val_main_v2 (F := Ideal) (B0 m c) :=
  (keepX5 m c main_v2 (by decide)).trans (g4_v2 m c)
theorem g5_v33 : X5 (F := Ideal) m c (Proc.devRef .tc main_v33) = Cert.ReferenceIdeal.Read.val_main_v33 (F := Ideal) (B0 m c) (B1 m c) (B2 m c) (B5 m c) (B6 m c) :=
  (keepX5 m c main_v33 (by decide)).trans (g4_v33 m c)
set_option maxHeartbeats 4000000 in
theorem g5_v64 : X5 (F := Ideal) m c (Proc.devRef .tc main_v64) = Cert.ReferenceIdeal.Read.val_main_v64 (F := Ideal) (B0 m c) (B3 m c) (B4 m c) (B7 m c) (B8 m c) := by
  rw [X5_eq]
  after_results_simp
  rw [g4_v40 m c, g4_v47 m c]
  all_goals (try simp only [g4_arg4 m c, g4_arg7 m c, g4_arg8 m c])
  all_goals (try simp only [Cert.ReferenceIdeal.Read.val_main_v64, Cert.ReferenceIdeal.Read.val_main_v56, Cert.ReferenceIdeal.Read.val_main_v54, Cert.ReferenceIdeal.Read.val_main_cst_12, Cert.ReferenceIdeal.Read.val_main_v55, Cert.ReferenceIdeal.Read.val_main_v53, Cert.ReferenceIdeal.Read.val_main_v52, Cert.ReferenceIdeal.Read.val_main_v49, Cert.ReferenceIdeal.Read.val_main_v48, Cert.ReferenceIdeal.Read.val_main_v51, Cert.ReferenceIdeal.Read.val_main_v50, Cert.ReferenceIdeal.Read.val_main_call1_v0, Cert.ReferenceIdeal.Read.val_main_call1_cst, Cert.ReferenceIdeal.Read.val_main_v63, Cert.ReferenceIdeal.Read.val_main_v62, Cert.ReferenceIdeal.Read.val_main_v60, Cert.ReferenceIdeal.Read.val_main_v58, Cert.ReferenceIdeal.Read.val_main_cst_14, Cert.ReferenceIdeal.Read.val_main_v59, Cert.ReferenceIdeal.Read.val_main_v57, Cert.ReferenceIdeal.Read.val_main_cst_13, Cert.ReferenceIdeal.Read.val_main_v61, Cert.ReferenceIdeal.Read.val_main_cst_15])
  all_goals rfl
theorem g6_arg0 : X6 (F := Ideal) m c (Proc.devRef .tc main_arg0) = B0 m c :=
  (keepX6 m c main_arg0 (by decide)).trans (g5_arg0 m c)
theorem g6_arg1 : X6 (F := Ideal) m c (Proc.devRef .tc main_arg1) = B1 m c :=
  (keepX6 m c main_arg1 (by decide)).trans (g5_arg1 m c)
theorem g6_arg2 : X6 (F := Ideal) m c (Proc.devRef .tc main_arg2) = B2 m c :=
  (keepX6 m c main_arg2 (by decide)).trans (g5_arg2 m c)
theorem g6_arg3 : X6 (F := Ideal) m c (Proc.devRef .tc main_arg3) = B3 m c :=
  (keepX6 m c main_arg3 (by decide)).trans (g5_arg3 m c)
theorem g6_arg4 : X6 (F := Ideal) m c (Proc.devRef .tc main_arg4) = B4 m c :=
  (keepX6 m c main_arg4 (by decide)).trans (g5_arg4 m c)
theorem g6_arg5 : X6 (F := Ideal) m c (Proc.devRef .tc main_arg5) = B5 m c :=
  (keepX6 m c main_arg5 (by decide)).trans (g5_arg5 m c)
theorem g6_arg6 : X6 (F := Ideal) m c (Proc.devRef .tc main_arg6) = B6 m c :=
  (keepX6 m c main_arg6 (by decide)).trans (g5_arg6 m c)
theorem g6_arg7 : X6 (F := Ideal) m c (Proc.devRef .tc main_arg7) = B7 m c :=
  (keepX6 m c main_arg7 (by decide)).trans (g5_arg7 m c)
theorem g6_arg8 : X6 (F := Ideal) m c (Proc.devRef .tc main_arg8) = B8 m c :=
  (keepX6 m c main_arg8 (by decide)).trans (g5_arg8 m c)
theorem g6_arg9 : X6 (F := Ideal) m c (Proc.devRef .tc main_arg9) = B9 m c :=
  (keepX6 m c main_arg9 (by decide)).trans (g5_arg9 m c)
theorem g6_arg10 : X6 (F := Ideal) m c (Proc.devRef .tc main_arg10) = B10 m c :=
  (keepX6 m c main_arg10 (by decide)).trans (g5_arg10 m c)
theorem g6_arg11 : X6 (F := Ideal) m c (Proc.devRef .tc main_arg11) = B11 m c :=
  (keepX6 m c main_arg11 (by decide)).trans (g5_arg11 m c)
theorem g6_arg12 : X6 (F := Ideal) m c (Proc.devRef .tc main_arg12) = B12 m c :=
  (keepX6 m c main_arg12 (by decide)).trans (g5_arg12 m c)
theorem g6_arg13 : X6 (F := Ideal) m c (Proc.devRef .tc main_arg13) = B13 m c :=
  (keepX6 m c main_arg13 (by decide)).trans (g5_arg13 m c)
theorem g6_arg14 : X6 (F := Ideal) m c (Proc.devRef .tc main_arg14) = B14 m c :=
  (keepX6 m c main_arg14 (by decide)).trans (g5_arg14 m c)
theorem g6_arg15 : X6 (F := Ideal) m c (Proc.devRef .tc main_arg15) = B15 m c :=
  (keepX6 m c main_arg15 (by decide)).trans (g5_arg15 m c)
theorem g6_arg16 : X6 (F := Ideal) m c (Proc.devRef .tc main_arg16) = B16 m c :=
  (keepX6 m c main_arg16 (by decide)).trans (g5_arg16 m c)
theorem g6_arg17 : X6 (F := Ideal) m c (Proc.devRef .tc main_arg17) = B17 m c :=
  (keepX6 m c main_arg17 (by decide)).trans (g5_arg17 m c)
theorem g6_arg18 : X6 (F := Ideal) m c (Proc.devRef .tc main_arg18) = B18 m c :=
  (keepX6 m c main_arg18 (by decide)).trans (g5_arg18 m c)
theorem g6_arg19 : X6 (F := Ideal) m c (Proc.devRef .tc main_arg19) = B19 m c :=
  (keepX6 m c main_arg19 (by decide)).trans (g5_arg19 m c)
theorem g6_arg20 : X6 (F := Ideal) m c (Proc.devRef .tc main_arg20) = B20 m c :=
  (keepX6 m c main_arg20 (by decide)).trans (g5_arg20 m c)
theorem g6_v0 : X6 (F := Ideal) m c (Proc.devRef .tc main_v0) = Cert.ReferenceIdeal.Read.val_main_v0 (F := Ideal) :=
  (keepX6 m c main_v0 (by decide)).trans (g5_v0 m c)
theorem g6_v2 : X6 (F := Ideal) m c (Proc.devRef .tc main_v2) = Cert.ReferenceIdeal.Read.val_main_v2 (F := Ideal) (B0 m c) :=
  (keepX6 m c main_v2 (by decide)).trans (g5_v2 m c)
theorem g6_v33 : X6 (F := Ideal) m c (Proc.devRef .tc main_v33) = Cert.ReferenceIdeal.Read.val_main_v33 (F := Ideal) (B0 m c) (B1 m c) (B2 m c) (B5 m c) (B6 m c) :=
  (keepX6 m c main_v33 (by decide)).trans (g5_v33 m c)
set_option maxHeartbeats 4000000 in
theorem g6_v79 : X6 (F := Ideal) m c (Proc.devRef .tc main_v79) = Cert.ReferenceIdeal.Read.val_main_v79 (F := Ideal) (B0 m c) (B3 m c) (B4 m c) (B7 m c) (B8 m c) (B9 m c) (B11 m c) := by
  rw [X6_eq]
  after_results_simp
  all_goals (try simp only [g5_v64 m c, g5_arg9 m c, g5_arg11 m c])
  all_goals (try simp only [Cert.ReferenceIdeal.Read.val_main_v79, Cert.ReferenceIdeal.Read.val_main_v70, Cert.ReferenceIdeal.Read.val_main_v65, Cert.ReferenceIdeal.Read.val_main_v69, Cert.ReferenceIdeal.Read.val_main_v68, Cert.ReferenceIdeal.Read.val_main_v67, Cert.ReferenceIdeal.Read.val_main_v66])
  all_goals rfl
set_option maxHeartbeats 4000000 in
theorem g6_v89 : X6 (F := Ideal) m c (Proc.devRef .tc main_v89) = Cert.ReferenceIdeal.Read.val_main_v89 (F := Ideal) (B0 m c) (B3 m c) (B4 m c) (B7 m c) (B8 m c) (B9 m c) (B10 m c) (B11 m c) := by
  rw [X6_eq]
  after_results_simp
  all_goals (try simp only [g5_v64 m c, g5_arg9 m c, g5_arg11 m c, g5_v0 m c, g5_arg10 m c])
  all_goals (try simp only [Cert.ReferenceIdeal.Read.val_main_v89, Cert.ReferenceIdeal.Read.val_main_v88, Cert.ReferenceIdeal.Read.val_main_cst_17, Cert.ReferenceIdeal.Read.val_main_v87, Cert.ReferenceIdeal.Read.val_main_v86, Cert.ReferenceIdeal.Read.val_main_cst_16, Cert.ReferenceIdeal.Read.val_main_v85, Cert.ReferenceIdeal.Read.val_main_v84, Cert.ReferenceIdeal.Read.val_main_v83, Cert.ReferenceIdeal.Read.val_main_v77, Cert.ReferenceIdeal.Read.val_main_v70, Cert.ReferenceIdeal.Read.val_main_v65, Cert.ReferenceIdeal.Read.val_main_v69, Cert.ReferenceIdeal.Read.val_main_v68, Cert.ReferenceIdeal.Read.val_main_v67, Cert.ReferenceIdeal.Read.val_main_v66, Cert.ReferenceIdeal.Read.val_main_v80, Cert.ReferenceIdeal.Read.val_main_v76, Cert.ReferenceIdeal.Read.val_main_v71, Cert.ReferenceIdeal.Read.val_main_v75, Cert.ReferenceIdeal.Read.val_main_v74, Cert.ReferenceIdeal.Read.val_main_v73, Cert.ReferenceIdeal.Read.val_main_v72])
  all_goals rfl
set_option maxHeartbeats 4000000 in
theorem g6_v97 : X6 (F := Ideal) m c (Proc.devRef .tc main_v97) = Cert.ReferenceIdeal.Read.val_main_v97 (F := Ideal) (B0 m c) (B3 m c) (B4 m c) (B7 m c) (B8 m c) (B9 m c) (B10 m c) (B11 m c) := by
  rw [X6_eq]
  after_results_simp
  all_goals (try simp only [g5_v64 m c, g5_arg9 m c, g5_arg11 m c, g5_v0 m c, g5_arg10 m c])
  all_goals (try simp only [Cert.ReferenceIdeal.Read.val_main_v97, Cert.ReferenceIdeal.Read.val_main_v96, Cert.ReferenceIdeal.Read.val_main_v95, Cert.ReferenceIdeal.Read.val_main_cst_19, Cert.ReferenceIdeal.Read.val_main_v94, Cert.ReferenceIdeal.Read.val_main_v93, Cert.ReferenceIdeal.Read.val_main_cst_18, Cert.ReferenceIdeal.Read.val_main_v92, Cert.ReferenceIdeal.Read.val_main_v91, Cert.ReferenceIdeal.Read.val_main_v90, Cert.ReferenceIdeal.Read.val_main_v78, Cert.ReferenceIdeal.Read.val_main_v70, Cert.ReferenceIdeal.Read.val_main_v65, Cert.ReferenceIdeal.Read.val_main_v69, Cert.ReferenceIdeal.Read.val_main_v68, Cert.ReferenceIdeal.Read.val_main_v67, Cert.ReferenceIdeal.Read.val_main_v66, Cert.ReferenceIdeal.Read.val_main_v81, Cert.ReferenceIdeal.Read.val_main_v76, Cert.ReferenceIdeal.Read.val_main_v71, Cert.ReferenceIdeal.Read.val_main_v75, Cert.ReferenceIdeal.Read.val_main_v74, Cert.ReferenceIdeal.Read.val_main_v73, Cert.ReferenceIdeal.Read.val_main_v72, Cert.ReferenceIdeal.Read.val_main_v82])
  all_goals rfl

end Cert.ReferenceIdeal.Fold

end
-- ==== Proof.RefFoldB.lean ====
/-
  What the reference program's buffers hold after each chunk of its operations (chunks 7 to 12): each buffer that a later
  chunk reads holds its stage (the operations' composition as a function of the arguments); an argument is never written.
  A chunk's results are read off the chunk's fold: the operations applied to what the chunk found, which is the stage's own
  definition once the chunk's own stages are unfolded. (The operands of a joining of two arrays sit inside a list of
  shape-tagged pairs; they are rewritten first.)
-/
import proofs.«154953_j22007412425053_2_alg».proof.Proof.RefFoldA
import Idealize.ShloMosaic.PureOps.Ideal

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem g7_arg0 : X7 (F := Ideal) m c (Proc.devRef .tc main_arg0) = B0 m c :=
  (keepX7 m c main_arg0 (by decide)).trans (g6_arg0 m c)
theorem g7_arg1 : X7 (F := Ideal) m c (Proc.devRef .tc main_arg1) = B1 m c :=
  (keepX7 m c main_arg1 (by decide)).trans (g6_arg1 m c)
theorem g7_arg2 : X7 (F := Ideal) m c (Proc.devRef .tc main_arg2) = B2 m c :=
  (keepX7 m c main_arg2 (by decide)).trans (g6_arg2 m c)
theorem g7_arg3 : X7 (F := Ideal) m c (Proc.devRef .tc main_arg3) = B3 m c :=
  (keepX7 m c main_arg3 (by decide)).trans (g6_arg3 m c)
theorem g7_arg4 : X7 (F := Ideal) m c (Proc.devRef .tc main_arg4) = B4 m c :=
  (keepX7 m c main_arg4 (by decide)).trans (g6_arg4 m c)
theorem g7_arg5 : X7 (F := Ideal) m c (Proc.devRef .tc main_arg5) = B5 m c :=
  (keepX7 m c main_arg5 (by decide)).trans (g6_arg5 m c)
theorem g7_arg6 : X7 (F := Ideal) m c (Proc.devRef .tc main_arg6) = B6 m c :=
  (keepX7 m c main_arg6 (by decide)).trans (g6_arg6 m c)
theorem g7_arg7 : X7 (F := Ideal) m c (Proc.devRef .tc main_arg7) = B7 m c :=
  (keepX7 m c main_arg7 (by decide)).trans (g6_arg7 m c)
theorem g7_arg8 : X7 (F := Ideal) m c (Proc.devRef .tc main_arg8) = B8 m c :=
  (keepX7 m c main_arg8 (by decide)).trans (g6_arg8 m c)
theorem g7_arg9 : X7 (F := Ideal) m c (Proc.devRef .tc main_arg9) = B9 m c :=
  (keepX7 m c main_arg9 (by decide)).trans (g6_arg9 m c)
theorem g7_arg10 : X7 (F := Ideal) m c (Proc.devRef .tc main_arg10) = B10 m c :=
  (keepX7 m c main_arg10 (by decide)).trans (g6_arg10 m c)
theorem g7_arg11 : X7 (F := Ideal) m c (Proc.devRef .tc main_arg11) = B11 m c :=
  (keepX7 m c main_arg11 (by decide)).trans (g6_arg11 m c)
theorem g7_arg12 : X7 (F := Ideal) m c (Proc.devRef .tc main_arg12) = B12 m c :=
  (keepX7 m c main_arg12 (by decide)).trans (g6_arg12 m c)
theorem g7_arg13 : X7 (F := Ideal) m c (Proc.devRef .tc main_arg13) = B13 m c :=
  (keepX7 m c main_arg13 (by decide)).trans (g6_arg13 m c)
theorem g7_arg14 : X7 (F := Ideal) m c (Proc.devRef .tc main_arg14) = B14 m c :=
  (keepX7 m c main_arg14 (by decide)).trans (g6_arg14 m c)
theorem g7_arg15 : X7 (F := Ideal) m c (Proc.devRef .tc main_arg15) = B15 m c :=
  (keepX7 m c main_arg15 (by decide)).trans (g6_arg15 m c)
theorem g7_arg16 : X7 (F := Ideal) m c (Proc.devRef .tc main_arg16) = B16 m c :=
  (keepX7 m c main_arg16 (by decide)).trans (g6_arg16 m c)
theorem g7_arg17 : X7 (F := Ideal) m c (Proc.devRef .tc main_arg17) = B17 m c :=
  (keepX7 m c main_arg17 (by decide)).trans (g6_arg17 m c)
theorem g7_arg18 : X7 (F := Ideal) m c (Proc.devRef .tc main_arg18) = B18 m c :=
  (keepX7 m c main_arg18 (by decide)).trans (g6_arg18 m c)
theorem g7_arg19 : X7 (F := Ideal) m c (Proc.devRef .tc main_arg19) = B19 m c :=
  (keepX7 m c main_arg19 (by decide)).trans (g6_arg19 m c)
theorem g7_arg20 : X7 (F := Ideal) m c (Proc.devRef .tc main_arg20) = B20 m c :=
  (keepX7 m c main_arg20 (by decide)).trans (g6_arg20 m c)
theorem g7_v2 : X7 (F := Ideal) m c (Proc.devRef .tc main_v2) = Cert.ReferenceIdeal.Read.val_main_v2 (F := Ideal) (B0 m c) :=
  (keepX7 m c main_v2 (by decide)).trans (g6_v2 m c)
theorem g7_v33 : X7 (F := Ideal) m c (Proc.devRef .tc main_v33) = Cert.ReferenceIdeal.Read.val_main_v33 (F := Ideal) (B0 m c) (B1 m c) (B2 m c) (B5 m c) (B6 m c) :=
  (keepX7 m c main_v33 (by decide)).trans (g6_v33 m c)
set_option maxHeartbeats 4000000 in
theorem g7_v104 : X7 (F := Ideal) m c (Proc.devRef .tc main_v104) = Cert.ReferenceIdeal.Read.val_main_v104 (F := Ideal) (B0 m c) (B3 m c) (B4 m c) (B7 m c) (B8 m c) (B9 m c) (B10 m c) (B11 m c) := by
  rw [X7_eq]
  after_results_simp
  all_goals (try simp only [g6_v89 m c, g6_v0 m c, g6_v79 m c, g6_v97 m c])
  all_goals (try simp only [Cert.ReferenceIdeal.Read.val_main_v104, Cert.ReferenceIdeal.Read.val_main_v100, Cert.ReferenceIdeal.Read.val_main_v103, Cert.ReferenceIdeal.Read.val_main_v102, Cert.ReferenceIdeal.Read.val_main_v101, Cert.ReferenceIdeal.Read.val_main_cst_20, Cert.ReferenceIdeal.Read.val_main_v99, Cert.ReferenceIdeal.Read.val_main_v98])
  all_goals rfl
theorem g8_arg0 : X8 (F := Ideal) m c (Proc.devRef .tc main_arg0) = B0 m c :=
  (keepX8 m c main_arg0 (by decide)).trans (g7_arg0 m c)
theorem g8_arg1 : X8 (F := Ideal) m c (Proc.devRef .tc main_arg1) = B1 m c :=
  (keepX8 m c main_arg1 (by decide)).trans (g7_arg1 m c)
theorem g8_arg2 : X8 (F := Ideal) m c (Proc.devRef .tc main_arg2) = B2 m c :=
  (keepX8 m c main_arg2 (by decide)).trans (g7_arg2 m c)
theorem g8_arg3 : X8 (F := Ideal) m c (Proc.devRef .tc main_arg3) = B3 m c :=
  (keepX8 m c main_arg3 (by decide)).trans (g7_arg3 m c)
theorem g8_arg4 : X8 (F := Ideal) m c (Proc.devRef .tc main_arg4) = B4 m c :=
  (keepX8 m c main_arg4 (by decide)).trans (g7_arg4 m c)
theorem g8_arg5 : X8 (F := Ideal) m c (Proc.devRef .tc main_arg5) = B5 m c :=
  (keepX8 m c main_arg5 (by decide)).trans (g7_arg5 m c)
theorem g8_arg6 : X8 (F := Ideal) m c (Proc.devRef .tc main_arg6) = B6 m c :=
  (keepX8 m c main_arg6 (by decide)).trans (g7_arg6 m c)
theorem g8_arg7 : X8 (F := Ideal) m c (Proc.devRef .tc main_arg7) = B7 m c :=
  (keepX8 m c main_arg7 (by decide)).trans (g7_arg7 m c)
theorem g8_arg8 : X8 (F := Ideal) m c (Proc.devRef .tc main_arg8) = B8 m c :=
  (keepX8 m c main_arg8 (by decide)).trans (g7_arg8 m c)
theorem g8_arg9 : X8 (F := Ideal) m c (Proc.devRef .tc main_arg9) = B9 m c :=
  (keepX8 m c main_arg9 (by decide)).trans (g7_arg9 m c)
theorem g8_arg10 : X8 (F := Ideal) m c (Proc.devRef .tc main_arg10) = B10 m c :=
  (keepX8 m c main_arg10 (by decide)).trans (g7_arg10 m c)
theorem g8_arg11 : X8 (F := Ideal) m c (Proc.devRef .tc main_arg11) = B11 m c :=
  (keepX8 m c main_arg11 (by decide)).trans (g7_arg11 m c)
theorem g8_arg12 : X8 (F := Ideal) m c (Proc.devRef .tc main_arg12) = B12 m c :=
  (keepX8 m c main_arg12 (by decide)).trans (g7_arg12 m c)
theorem g8_arg13 : X8 (F := Ideal) m c (Proc.devRef .tc main_arg13) = B13 m c :=
  (keepX8 m c main_arg13 (by decide)).trans (g7_arg13 m c)
theorem g8_arg14 : X8 (F := Ideal) m c (Proc.devRef .tc main_arg14) = B14 m c :=
  (keepX8 m c main_arg14 (by decide)).trans (g7_arg14 m c)
theorem g8_arg15 : X8 (F := Ideal) m c (Proc.devRef .tc main_arg15) = B15 m c :=
  (keepX8 m c main_arg15 (by decide)).trans (g7_arg15 m c)
theorem g8_arg16 : X8 (F := Ideal) m c (Proc.devRef .tc main_arg16) = B16 m c :=
  (keepX8 m c main_arg16 (by decide)).trans (g7_arg16 m c)
theorem g8_arg17 : X8 (F := Ideal) m c (Proc.devRef .tc main_arg17) = B17 m c :=
  (keepX8 m c main_arg17 (by decide)).trans (g7_arg17 m c)
theorem g8_arg18 : X8 (F := Ideal) m c (Proc.devRef .tc main_arg18) = B18 m c :=
  (keepX8 m c main_arg18 (by decide)).trans (g7_arg18 m c)
theorem g8_arg19 : X8 (F := Ideal) m c (Proc.devRef .tc main_arg19) = B19 m c :=
  (keepX8 m c main_arg19 (by decide)).trans (g7_arg19 m c)
theorem g8_arg20 : X8 (F := Ideal) m c (Proc.devRef .tc main_arg20) = B20 m c :=
  (keepX8 m c main_arg20 (by decide)).trans (g7_arg20 m c)
theorem g8_v104 : X8 (F := Ideal) m c (Proc.devRef .tc main_v104) = Cert.ReferenceIdeal.Read.val_main_v104 (F := Ideal) (B0 m c) (B3 m c) (B4 m c) (B7 m c) (B8 m c) (B9 m c) (B10 m c) (B11 m c) :=
  (keepX8 m c main_v104 (by decide)).trans (g7_v104 m c)
set_option maxHeartbeats 4000000 in
theorem g8_v144 : X8 (F := Ideal) m c (Proc.devRef .tc main_v144) = Cert.ReferenceIdeal.Read.val_main_v144 (F := Ideal) (B0 m c) (B1 m c) (B2 m c) (B5 m c) (B6 m c) (B12 m c) (B13 m c) (B14 m c) := by
  rw [X8_eq]
  after_results_simp
  all_goals (try simp only [g7_v33 m c, g7_arg12 m c, g7_arg14 m c, g7_v2 m c, g7_arg13 m c])
  all_goals (try simp only [Cert.ReferenceIdeal.Read.val_main_v144, Cert.ReferenceIdeal.Read.val_main_v140, Cert.ReferenceIdeal.Read.val_main_v129, Cert.ReferenceIdeal.Read.val_main_v128, Cert.ReferenceIdeal.Read.val_main_cst_22, Cert.ReferenceIdeal.Read.val_main_v127, Cert.ReferenceIdeal.Read.val_main_v126, Cert.ReferenceIdeal.Read.val_main_cst_21, Cert.ReferenceIdeal.Read.val_main_v125, Cert.ReferenceIdeal.Read.val_main_v124, Cert.ReferenceIdeal.Read.val_main_v123, Cert.ReferenceIdeal.Read.val_main_v117, Cert.ReferenceIdeal.Read.val_main_v110, Cert.ReferenceIdeal.Read.val_main_v105, Cert.ReferenceIdeal.Read.val_main_v109, Cert.ReferenceIdeal.Read.val_main_v108, Cert.ReferenceIdeal.Read.val_main_v107, Cert.ReferenceIdeal.Read.val_main_v106, Cert.ReferenceIdeal.Read.val_main_v120, Cert.ReferenceIdeal.Read.val_main_v116, Cert.ReferenceIdeal.Read.val_main_v111, Cert.ReferenceIdeal.Read.val_main_v115, Cert.ReferenceIdeal.Read.val_main_v114, Cert.ReferenceIdeal.Read.val_main_v113, Cert.ReferenceIdeal.Read.val_main_v112, Cert.ReferenceIdeal.Read.val_main_v143, Cert.ReferenceIdeal.Read.val_main_v142, Cert.ReferenceIdeal.Read.val_main_v141, Cert.ReferenceIdeal.Read.val_main_cst_25, Cert.ReferenceIdeal.Read.val_main_v139, Cert.ReferenceIdeal.Read.val_main_v138, Cert.ReferenceIdeal.Read.val_main_v119, Cert.ReferenceIdeal.Read.val_main_v137, Cert.ReferenceIdeal.Read.val_main_v136, Cert.ReferenceIdeal.Read.val_main_v135, Cert.ReferenceIdeal.Read.val_main_cst_24, Cert.ReferenceIdeal.Read.val_main_v134, Cert.ReferenceIdeal.Read.val_main_v133, Cert.ReferenceIdeal.Read.val_main_cst_23, Cert.ReferenceIdeal.Read.val_main_v132, Cert.ReferenceIdeal.Read.val_main_v131, Cert.ReferenceIdeal.Read.val_main_v130, Cert.ReferenceIdeal.Read.val_main_v118, Cert.ReferenceIdeal.Read.val_main_v121, Cert.ReferenceIdeal.Read.val_main_v122])
  all_goals rfl
theorem g9_arg0 : X9 (F := Ideal) m c (Proc.devRef .tc main_arg0) = B0 m c :=
  (keepX9 m c main_arg0 (by decide)).trans (g8_arg0 m c)
theorem g9_arg1 : X9 (F := Ideal) m c (Proc.devRef .tc main_arg1) = B1 m c :=
  (keepX9 m c main_arg1 (by decide)).trans (g8_arg1 m c)
theorem g9_arg2 : X9 (F := Ideal) m c (Proc.devRef .tc main_arg2) = B2 m c :=
  (keepX9 m c main_arg2 (by decide)).trans (g8_arg2 m c)
theorem g9_arg3 : X9 (F := Ideal) m c (Proc.devRef .tc main_arg3) = B3 m c :=
  (keepX9 m c main_arg3 (by decide)).trans (g8_arg3 m c)
theorem g9_arg4 : X9 (F := Ideal) m c (Proc.devRef .tc main_arg4) = B4 m c :=
  (keepX9 m c main_arg4 (by decide)).trans (g8_arg4 m c)
theorem g9_arg5 : X9 (F := Ideal) m c (Proc.devRef .tc main_arg5) = B5 m c :=
  (keepX9 m c main_arg5 (by decide)).trans (g8_arg5 m c)
theorem g9_arg6 : X9 (F := Ideal) m c (Proc.devRef .tc main_arg6) = B6 m c :=
  (keepX9 m c main_arg6 (by decide)).trans (g8_arg6 m c)
theorem g9_arg7 : X9 (F := Ideal) m c (Proc.devRef .tc main_arg7) = B7 m c :=
  (keepX9 m c main_arg7 (by decide)).trans (g8_arg7 m c)
theorem g9_arg8 : X9 (F := Ideal) m c (Proc.devRef .tc main_arg8) = B8 m c :=
  (keepX9 m c main_arg8 (by decide)).trans (g8_arg8 m c)
theorem g9_arg9 : X9 (F := Ideal) m c (Proc.devRef .tc main_arg9) = B9 m c :=
  (keepX9 m c main_arg9 (by decide)).trans (g8_arg9 m c)
theorem g9_arg10 : X9 (F := Ideal) m c (Proc.devRef .tc main_arg10) = B10 m c :=
  (keepX9 m c main_arg10 (by decide)).trans (g8_arg10 m c)
theorem g9_arg11 : X9 (F := Ideal) m c (Proc.devRef .tc main_arg11) = B11 m c :=
  (keepX9 m c main_arg11 (by decide)).trans (g8_arg11 m c)
theorem g9_arg12 : X9 (F := Ideal) m c (Proc.devRef .tc main_arg12) = B12 m c :=
  (keepX9 m c main_arg12 (by decide)).trans (g8_arg12 m c)
theorem g9_arg13 : X9 (F := Ideal) m c (Proc.devRef .tc main_arg13) = B13 m c :=
  (keepX9 m c main_arg13 (by decide)).trans (g8_arg13 m c)
theorem g9_arg14 : X9 (F := Ideal) m c (Proc.devRef .tc main_arg14) = B14 m c :=
  (keepX9 m c main_arg14 (by decide)).trans (g8_arg14 m c)
theorem g9_arg15 : X9 (F := Ideal) m c (Proc.devRef .tc main_arg15) = B15 m c :=
  (keepX9 m c main_arg15 (by decide)).trans (g8_arg15 m c)
theorem g9_arg16 : X9 (F := Ideal) m c (Proc.devRef .tc main_arg16) = B16 m c :=
  (keepX9 m c main_arg16 (by decide)).trans (g8_arg16 m c)
theorem g9_arg17 : X9 (F := Ideal) m c (Proc.devRef .tc main_arg17) = B17 m c :=
  (keepX9 m c main_arg17 (by decide)).trans (g8_arg17 m c)
theorem g9_arg18 : X9 (F := Ideal) m c (Proc.devRef .tc main_arg18) = B18 m c :=
  (keepX9 m c main_arg18 (by decide)).trans (g8_arg18 m c)
theorem g9_arg19 : X9 (F := Ideal) m c (Proc.devRef .tc main_arg19) = B19 m c :=
  (keepX9 m c main_arg19 (by decide)).trans (g8_arg19 m c)
theorem g9_arg20 : X9 (F := Ideal) m c (Proc.devRef .tc main_arg20) = B20 m c :=
  (keepX9 m c main_arg20 (by decide)).trans (g8_arg20 m c)
theorem g9_v104 : X9 (F := Ideal) m c (Proc.devRef .tc main_v104) = Cert.ReferenceIdeal.Read.val_main_v104 (F := Ideal) (B0 m c) (B3 m c) (B4 m c) (B7 m c) (B8 m c) (B9 m c) (B10 m c) (B11 m c) :=
  (keepX9 m c main_v104 (by decide)).trans (g8_v104 m c)
theorem g9_v144 : X9 (F := Ideal) m c (Proc.devRef .tc main_v144) = Cert.ReferenceIdeal.Read.val_main_v144 (F := Ideal) (B0 m c) (B1 m c) (B2 m c) (B5 m c) (B6 m c) (B12 m c) (B13 m c) (B14 m c) :=
  (keepX9 m c main_v144 (by decide)).trans (g8_v144 m c)
set_option maxHeartbeats 4000000 in
theorem g9_v149 : X9 (F := Ideal) m c (Proc.devRef .tc main_v149) = Cert.ReferenceIdeal.Read.val_main_v149 (F := Ideal) (B1 m c) := by
  rw [X9_eq]
  after_results_simp
  all_goals (try simp only [g8_arg1 m c])
  all_goals (try simp only [Cert.ReferenceIdeal.Read.val_main_v149, Cert.ReferenceIdeal.Read.val_main_v146, Cert.ReferenceIdeal.Read.val_main_v145, Cert.ReferenceIdeal.Read.val_main_c_26, Cert.ReferenceIdeal.Read.val_main_v148, Cert.ReferenceIdeal.Read.val_main_v147, Cert.ReferenceIdeal.Read.val_main_c_27])
  all_goals rfl
theorem g10_arg0 : X10 (F := Ideal) m c (Proc.devRef .tc main_arg0) = B0 m c :=
  (keepX10 m c main_arg0 (by decide)).trans (g9_arg0 m c)
theorem g10_arg1 : X10 (F := Ideal) m c (Proc.devRef .tc main_arg1) = B1 m c :=
  (keepX10 m c main_arg1 (by decide)).trans (g9_arg1 m c)
theorem g10_arg2 : X10 (F := Ideal) m c (Proc.devRef .tc main_arg2) = B2 m c :=
  (keepX10 m c main_arg2 (by decide)).trans (g9_arg2 m c)
theorem g10_arg3 : X10 (F := Ideal) m c (Proc.devRef .tc main_arg3) = B3 m c :=
  (keepX10 m c main_arg3 (by decide)).trans (g9_arg3 m c)
theorem g10_arg4 : X10 (F := Ideal) m c (Proc.devRef .tc main_arg4) = B4 m c :=
  (keepX10 m c main_arg4 (by decide)).trans (g9_arg4 m c)
theorem g10_arg5 : X10 (F := Ideal) m c (Proc.devRef .tc main_arg5) = B5 m c :=
  (keepX10 m c main_arg5 (by decide)).trans (g9_arg5 m c)
theorem g10_arg6 : X10 (F := Ideal) m c (Proc.devRef .tc main_arg6) = B6 m c :=
  (keepX10 m c main_arg6 (by decide)).trans (g9_arg6 m c)
theorem g10_arg7 : X10 (F := Ideal) m c (Proc.devRef .tc main_arg7) = B7 m c :=
  (keepX10 m c main_arg7 (by decide)).trans (g9_arg7 m c)
theorem g10_arg8 : X10 (F := Ideal) m c (Proc.devRef .tc main_arg8) = B8 m c :=
  (keepX10 m c main_arg8 (by decide)).trans (g9_arg8 m c)
theorem g10_arg9 : X10 (F := Ideal) m c (Proc.devRef .tc main_arg9) = B9 m c :=
  (keepX10 m c main_arg9 (by decide)).trans (g9_arg9 m c)
theorem g10_arg10 : X10 (F := Ideal) m c (Proc.devRef .tc main_arg10) = B10 m c :=
  (keepX10 m c main_arg10 (by decide)).trans (g9_arg10 m c)
theorem g10_arg11 : X10 (F := Ideal) m c (Proc.devRef .tc main_arg11) = B11 m c :=
  (keepX10 m c main_arg11 (by decide)).trans (g9_arg11 m c)
theorem g10_arg12 : X10 (F := Ideal) m c (Proc.devRef .tc main_arg12) = B12 m c :=
  (keepX10 m c main_arg12 (by decide)).trans (g9_arg12 m c)
theorem g10_arg13 : X10 (F := Ideal) m c (Proc.devRef .tc main_arg13) = B13 m c :=
  (keepX10 m c main_arg13 (by decide)).trans (g9_arg13 m c)
theorem g10_arg14 : X10 (F := Ideal) m c (Proc.devRef .tc main_arg14) = B14 m c :=
  (keepX10 m c main_arg14 (by decide)).trans (g9_arg14 m c)
theorem g10_arg15 : X10 (F := Ideal) m c (Proc.devRef .tc main_arg15) = B15 m c :=
  (keepX10 m c main_arg15 (by decide)).trans (g9_arg15 m c)
theorem g10_arg16 : X10 (F := Ideal) m c (Proc.devRef .tc main_arg16) = B16 m c :=
  (keepX10 m c main_arg16 (by decide)).trans (g9_arg16 m c)
theorem g10_arg17 : X10 (F := Ideal) m c (Proc.devRef .tc main_arg17) = B17 m c :=
  (keepX10 m c main_arg17 (by decide)).trans (g9_arg17 m c)
theorem g10_arg18 : X10 (F := Ideal) m c (Proc.devRef .tc main_arg18) = B18 m c :=
  (keepX10 m c main_arg18 (by decide)).trans (g9_arg18 m c)
theorem g10_arg19 : X10 (F := Ideal) m c (Proc.devRef .tc main_arg19) = B19 m c :=
  (keepX10 m c main_arg19 (by decide)).trans (g9_arg19 m c)
theorem g10_arg20 : X10 (F := Ideal) m c (Proc.devRef .tc main_arg20) = B20 m c :=
  (keepX10 m c main_arg20 (by decide)).trans (g9_arg20 m c)
theorem g10_v104 : X10 (F := Ideal) m c (Proc.devRef .tc main_v104) = Cert.ReferenceIdeal.Read.val_main_v104 (F := Ideal) (B0 m c) (B3 m c) (B4 m c) (B7 m c) (B8 m c) (B9 m c) (B10 m c) (B11 m c) :=
  (keepX10 m c main_v104 (by decide)).trans (g9_v104 m c)
theorem g10_v144 : X10 (F := Ideal) m c (Proc.devRef .tc main_v144) = Cert.ReferenceIdeal.Read.val_main_v144 (F := Ideal) (B0 m c) (B1 m c) (B2 m c) (B5 m c) (B6 m c) (B12 m c) (B13 m c) (B14 m c) :=
  (keepX10 m c main_v144 (by decide)).trans (g9_v144 m c)
set_option maxHeartbeats 4000000 in
theorem g10_v151 : X10 (F := Ideal) m c (Proc.devRef .tc main_v151) = Cert.ReferenceIdeal.Read.val_main_v151 (F := Ideal) (B0 m c) (B1 m c) (B3 m c) (B4 m c) (B7 m c) (B8 m c) (B9 m c) (B10 m c) (B11 m c) := by
  rw [X10_eq]
  after_results_simp
  all_goals (try simp only [g9_v104 m c, g9_v149 m c])
  all_goals (try simp only [Cert.ReferenceIdeal.Read.val_main_v151, Cert.ReferenceIdeal.Read.val_main_v150])
  all_goals rfl
set_option maxHeartbeats 4000000 in
theorem g10_v158 : X10 (F := Ideal) m c (Proc.devRef .tc main_v158) = Cert.ReferenceIdeal.Read.val_main_v158 (F := Ideal) (B0 m c) (B1 m c) (B2 m c) (B5 m c) (B6 m c) (B12 m c) (B13 m c) (B14 m c) := by
  rw [X10_eq]
  after_results_simp
  all_goals (try simp only [g9_v144 m c, g9_arg2 m c])
  all_goals (try simp only [Cert.ReferenceIdeal.Read.val_main_v158, Cert.ReferenceIdeal.Read.val_main_v157, Cert.ReferenceIdeal.Read.val_main_v156, Cert.ReferenceIdeal.Read.val_main_v153, Cert.ReferenceIdeal.Read.val_main_v152, Cert.ReferenceIdeal.Read.val_main_c_28, Cert.ReferenceIdeal.Read.val_main_v155, Cert.ReferenceIdeal.Read.val_main_v154, Cert.ReferenceIdeal.Read.val_main_c_29])
  all_goals rfl
theorem g11_arg0 : X11 (F := Ideal) m c (Proc.devRef .tc main_arg0) = B0 m c :=
  (keepX11 m c main_arg0 (by decide)).trans (g10_arg0 m c)
theorem g11_arg1 : X11 (F := Ideal) m c (Proc.devRef .tc main_arg1) = B1 m c :=
  (keepX11 m c main_arg1 (by decide)).trans (g10_arg1 m c)
theorem g11_arg2 : X11 (F := Ideal) m c (Proc.devRef .tc main_arg2) = B2 m c :=
  (keepX11 m c main_arg2 (by decide)).trans (g10_arg2 m c)
theorem g11_arg3 : X11 (F := Ideal) m c (Proc.devRef .tc main_arg3) = B3 m c :=
  (keepX11 m c main_arg3 (by decide)).trans (g10_arg3 m c)
theorem g11_arg4 : X11 (F := Ideal) m c (Proc.devRef .tc main_arg4) = B4 m c :=
  (keepX11 m c main_arg4 (by decide)).trans (g10_arg4 m c)
theorem g11_arg5 : X11 (F := Ideal) m c (Proc.devRef .tc main_arg5) = B5 m c :=
  (keepX11 m c main_arg5 (by decide)).trans (g10_arg5 m c)
theorem g11_arg6 : X11 (F := Ideal) m c (Proc.devRef .tc main_arg6) = B6 m c :=
  (keepX11 m c main_arg6 (by decide)).trans (g10_arg6 m c)
theorem g11_arg7 : X11 (F := Ideal) m c (Proc.devRef .tc main_arg7) = B7 m c :=
  (keepX11 m c main_arg7 (by decide)).trans (g10_arg7 m c)
theorem g11_arg8 : X11 (F := Ideal) m c (Proc.devRef .tc main_arg8) = B8 m c :=
  (keepX11 m c main_arg8 (by decide)).trans (g10_arg8 m c)
theorem g11_arg9 : X11 (F := Ideal) m c (Proc.devRef .tc main_arg9) = B9 m c :=
  (keepX11 m c main_arg9 (by decide)).trans (g10_arg9 m c)
theorem g11_arg10 : X11 (F := Ideal) m c (Proc.devRef .tc main_arg10) = B10 m c :=
  (keepX11 m c main_arg10 (by decide)).trans (g10_arg10 m c)
theorem g11_arg11 : X11 (F := Ideal) m c (Proc.devRef .tc main_arg11) = B11 m c :=
  (keepX11 m c main_arg11 (by decide)).trans (g10_arg11 m c)
theorem g11_arg12 : X11 (F := Ideal) m c (Proc.devRef .tc main_arg12) = B12 m c :=
  (keepX11 m c main_arg12 (by decide)).trans (g10_arg12 m c)
theorem g11_arg13 : X11 (F := Ideal) m c (Proc.devRef .tc main_arg13) = B13 m c :=
  (keepX11 m c main_arg13 (by decide)).trans (g10_arg13 m c)
theorem g11_arg14 : X11 (F := Ideal) m c (Proc.devRef .tc main_arg14) = B14 m c :=
  (keepX11 m c main_arg14 (by decide)).trans (g10_arg14 m c)
theorem g11_arg15 : X11 (F := Ideal) m c (Proc.devRef .tc main_arg15) = B15 m c :=
  (keepX11 m c main_arg15 (by decide)).trans (g10_arg15 m c)
theorem g11_arg16 : X11 (F := Ideal) m c (Proc.devRef .tc main_arg16) = B16 m c :=
  (keepX11 m c main_arg16 (by decide)).trans (g10_arg16 m c)
theorem g11_arg17 : X11 (F := Ideal) m c (Proc.devRef .tc main_arg17) = B17 m c :=
  (keepX11 m c main_arg17 (by decide)).trans (g10_arg17 m c)
theorem g11_arg18 : X11 (F := Ideal) m c (Proc.devRef .tc main_arg18) = B18 m c :=
  (keepX11 m c main_arg18 (by decide)).trans (g10_arg18 m c)
theorem g11_arg19 : X11 (F := Ideal) m c (Proc.devRef .tc main_arg19) = B19 m c :=
  (keepX11 m c main_arg19 (by decide)).trans (g10_arg19 m c)
theorem g11_arg20 : X11 (F := Ideal) m c (Proc.devRef .tc main_arg20) = B20 m c :=
  (keepX11 m c main_arg20 (by decide)).trans (g10_arg20 m c)
theorem g11_v104 : X11 (F := Ideal) m c (Proc.devRef .tc main_v104) = Cert.ReferenceIdeal.Read.val_main_v104 (F := Ideal) (B0 m c) (B3 m c) (B4 m c) (B7 m c) (B8 m c) (B9 m c) (B10 m c) (B11 m c) :=
  (keepX11 m c main_v104 (by decide)).trans (g10_v104 m c)
theorem g11_v144 : X11 (F := Ideal) m c (Proc.devRef .tc main_v144) = Cert.ReferenceIdeal.Read.val_main_v144 (F := Ideal) (B0 m c) (B1 m c) (B2 m c) (B5 m c) (B6 m c) (B12 m c) (B13 m c) (B14 m c) :=
  (keepX11 m c main_v144 (by decide)).trans (g10_v144 m c)
set_option maxHeartbeats 4000000 in
theorem g11_v175 : X11 (F := Ideal) m c (Proc.devRef .tc main_v175) = Cert.ReferenceIdeal.Read.val_main_v175 (F := Ideal) (B0 m c) (B1 m c) (B2 m c) (B3 m c) (B4 m c) (B5 m c) (B6 m c) (B7 m c) (B8 m c) (B9 m c) (B10 m c) (B11 m c) (B12 m c) (B13 m c) (B14 m c) := by
  rw [X11_eq]
  after_results_simp
  rw [g10_v151 m c, g10_v158 m c]
  all_goals (try simp only [g10_arg2 m c, g10_arg5 m c, g10_arg6 m c])
  all_goals (try simp only [Cert.ReferenceIdeal.Read.val_main_v175, Cert.ReferenceIdeal.Read.val_main_v167, Cert.ReferenceIdeal.Read.val_main_v165, Cert.ReferenceIdeal.Read.val_main_cst_30, Cert.ReferenceIdeal.Read.val_main_v166, Cert.ReferenceIdeal.Read.val_main_v164, Cert.ReferenceIdeal.Read.val_main_v163, Cert.ReferenceIdeal.Read.val_main_v160, Cert.ReferenceIdeal.Read.val_main_v159, Cert.ReferenceIdeal.Read.val_main_v162, Cert.ReferenceIdeal.Read.val_main_v161, Cert.ReferenceIdeal.Read.val_main_call2_v0, Cert.ReferenceIdeal.Read.val_main_call2_cst, Cert.ReferenceIdeal.Read.val_main_v174, Cert.ReferenceIdeal.Read.val_main_v173, Cert.ReferenceIdeal.Read.val_main_v171, Cert.ReferenceIdeal.Read.val_main_v169, Cert.ReferenceIdeal.Read.val_main_cst_32, Cert.ReferenceIdeal.Read.val_main_v170, Cert.ReferenceIdeal.Read.val_main_v168, Cert.ReferenceIdeal.Read.val_main_cst_31, Cert.ReferenceIdeal.Read.val_main_v172, Cert.ReferenceIdeal.Read.val_main_cst_33])
  all_goals rfl
theorem g12_arg0 : X12 (F := Ideal) m c (Proc.devRef .tc main_arg0) = B0 m c :=
  (keepX12 m c main_arg0 (by decide)).trans (g11_arg0 m c)
theorem g12_arg1 : X12 (F := Ideal) m c (Proc.devRef .tc main_arg1) = B1 m c :=
  (keepX12 m c main_arg1 (by decide)).trans (g11_arg1 m c)
theorem g12_arg2 : X12 (F := Ideal) m c (Proc.devRef .tc main_arg2) = B2 m c :=
  (keepX12 m c main_arg2 (by decide)).trans (g11_arg2 m c)
theorem g12_arg3 : X12 (F := Ideal) m c (Proc.devRef .tc main_arg3) = B3 m c :=
  (keepX12 m c main_arg3 (by decide)).trans (g11_arg3 m c)
theorem g12_arg4 : X12 (F := Ideal) m c (Proc.devRef .tc main_arg4) = B4 m c :=
  (keepX12 m c main_arg4 (by decide)).trans (g11_arg4 m c)
theorem g12_arg5 : X12 (F := Ideal) m c (Proc.devRef .tc main_arg5) = B5 m c :=
  (keepX12 m c main_arg5 (by decide)).trans (g11_arg5 m c)
theorem g12_arg6 : X12 (F := Ideal) m c (Proc.devRef .tc main_arg6) = B6 m c :=
  (keepX12 m c main_arg6 (by decide)).trans (g11_arg6 m c)
theorem g12_arg7 : X12 (F := Ideal) m c (Proc.devRef .tc main_arg7) = B7 m c :=
  (keepX12 m c main_arg7 (by decide)).trans (g11_arg7 m c)
theorem g12_arg8 : X12 (F := Ideal) m c (Proc.devRef .tc main_arg8) = B8 m c :=
  (keepX12 m c main_arg8 (by decide)).trans (g11_arg8 m c)
theorem g12_arg9 : X12 (F := Ideal) m c (Proc.devRef .tc main_arg9) = B9 m c :=
  (keepX12 m c main_arg9 (by decide)).trans (g11_arg9 m c)
theorem g12_arg10 : X12 (F := Ideal) m c (Proc.devRef .tc main_arg10) = B10 m c :=
  (keepX12 m c main_arg10 (by decide)).trans (g11_arg10 m c)
theorem g12_arg11 : X12 (F := Ideal) m c (Proc.devRef .tc main_arg11) = B11 m c :=
  (keepX12 m c main_arg11 (by decide)).trans (g11_arg11 m c)
theorem g12_arg12 : X12 (F := Ideal) m c (Proc.devRef .tc main_arg12) = B12 m c :=
  (keepX12 m c main_arg12 (by decide)).trans (g11_arg12 m c)
theorem g12_arg13 : X12 (F := Ideal) m c (Proc.devRef .tc main_arg13) = B13 m c :=
  (keepX12 m c main_arg13 (by decide)).trans (g11_arg13 m c)
theorem g12_arg14 : X12 (F := Ideal) m c (Proc.devRef .tc main_arg14) = B14 m c :=
  (keepX12 m c main_arg14 (by decide)).trans (g11_arg14 m c)
theorem g12_arg15 : X12 (F := Ideal) m c (Proc.devRef .tc main_arg15) = B15 m c :=
  (keepX12 m c main_arg15 (by decide)).trans (g11_arg15 m c)
theorem g12_arg16 : X12 (F := Ideal) m c (Proc.devRef .tc main_arg16) = B16 m c :=
  (keepX12 m c main_arg16 (by decide)).trans (g11_arg16 m c)
theorem g12_arg17 : X12 (F := Ideal) m c (Proc.devRef .tc main_arg17) = B17 m c :=
  (keepX12 m c main_arg17 (by decide)).trans (g11_arg17 m c)
theorem g12_arg18 : X12 (F := Ideal) m c (Proc.devRef .tc main_arg18) = B18 m c :=
  (keepX12 m c main_arg18 (by decide)).trans (g11_arg18 m c)
theorem g12_arg19 : X12 (F := Ideal) m c (Proc.devRef .tc main_arg19) = B19 m c :=
  (keepX12 m c main_arg19 (by decide)).trans (g11_arg19 m c)
theorem g12_arg20 : X12 (F := Ideal) m c (Proc.devRef .tc main_arg20) = B20 m c :=
  (keepX12 m c main_arg20 (by decide)).trans (g11_arg20 m c)
theorem g12_v104 : X12 (F := Ideal) m c (Proc.devRef .tc main_v104) = Cert.ReferenceIdeal.Read.val_main_v104 (F := Ideal) (B0 m c) (B3 m c) (B4 m c) (B7 m c) (B8 m c) (B9 m c) (B10 m c) (B11 m c) :=
  (keepX12 m c main_v104 (by decide)).trans (g11_v104 m c)
theorem g12_v144 : X12 (F := Ideal) m c (Proc.devRef .tc main_v144) = Cert.ReferenceIdeal.Read.val_main_v144 (F := Ideal) (B0 m c) (B1 m c) (B2 m c) (B5 m c) (B6 m c) (B12 m c) (B13 m c) (B14 m c) :=
  (keepX12 m c main_v144 (by decide)).trans (g11_v144 m c)
theorem g12_v175 : X12 (F := Ideal) m c (Proc.devRef .tc main_v175) = Cert.ReferenceIdeal.Read.val_main_v175 (F := Ideal) (B0 m c) (B1 m c) (B2 m c) (B3 m c) (B4 m c) (B5 m c) (B6 m c) (B7 m c) (B8 m c) (B9 m c) (B10 m c) (B11 m c) (B12 m c) (B13 m c) (B14 m c) :=
  (keepX12 m c main_v175 (by decide)).trans (g11_v175 m c)
set_option maxHeartbeats 4000000 in
theorem g12_v182 : X12 (F := Ideal) m c (Proc.devRef .tc main_v182) = Cert.ReferenceIdeal.Read.val_main_v182 (F := Ideal) (B0 m c) (B1 m c) (B2 m c) (B3 m c) (B5 m c) (B6 m c) (B12 m c) (B13 m c) (B14 m c) := by
  rw [X12_eq]
  after_results_simp
  all_goals (try simp only [g11_v144 m c, g11_arg3 m c])
  all_goals (try simp only [Cert.ReferenceIdeal.Read.val_main_v182, Cert.ReferenceIdeal.Read.val_main_v181, Cert.ReferenceIdeal.Read.val_main_v180, Cert.ReferenceIdeal.Read.val_main_v177, Cert.ReferenceIdeal.Read.val_main_v176, Cert.ReferenceIdeal.Read.val_main_c_34, Cert.ReferenceIdeal.Read.val_main_v179, Cert.ReferenceIdeal.Read.val_main_v178, Cert.ReferenceIdeal.Read.val_main_c_35])
  all_goals rfl
set_option maxHeartbeats 4000000 in
theorem g12_v189 : X12 (F := Ideal) m c (Proc.devRef .tc main_v189) = Cert.ReferenceIdeal.Read.val_main_v189 (F := Ideal) (B0 m c) (B3 m c) (B4 m c) (B7 m c) (B8 m c) (B9 m c) (B10 m c) (B11 m c) := by
  rw [X12_eq]
  after_results_simp
  all_goals (try simp only [g11_v104 m c, g11_arg4 m c])
  all_goals (try simp only [Cert.ReferenceIdeal.Read.val_main_v189, Cert.ReferenceIdeal.Read.val_main_v188, Cert.ReferenceIdeal.Read.val_main_v187, Cert.ReferenceIdeal.Read.val_main_v184, Cert.ReferenceIdeal.Read.val_main_v183, Cert.ReferenceIdeal.Read.val_main_c_36, Cert.ReferenceIdeal.Read.val_main_v186, Cert.ReferenceIdeal.Read.val_main_v185, Cert.ReferenceIdeal.Read.val_main_c_37])
  all_goals rfl

end Cert.ReferenceIdeal.Fold

end
-- ==== Proof.RefFoldC.lean ====
/-
  What the reference program's buffers hold after each chunk of its operations (chunks 13 to 18): each buffer that a later
  chunk reads holds its stage (the operations' composition as a function of the arguments); an argument is never written.
  A chunk's results are read off the chunk's fold: the operations applied to what the chunk found, which is the stage's own
  definition once the chunk's own stages are unfolded. (The operands of a joining of two arrays sit inside a list of
  shape-tagged pairs; they are rewritten first.)
-/
import proofs.«154953_j22007412425053_2_alg».proof.Proof.RefFoldB
import Idealize.ShloMosaic.PureOps.Ideal

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem g13_arg0 : X13 (F := Ideal) m c (Proc.devRef .tc main_arg0) = B0 m c :=
  (keepX13 m c main_arg0 (by decide)).trans (g12_arg0 m c)
theorem g13_arg1 : X13 (F := Ideal) m c (Proc.devRef .tc main_arg1) = B1 m c :=
  (keepX13 m c main_arg1 (by decide)).trans (g12_arg1 m c)
theorem g13_arg2 : X13 (F := Ideal) m c (Proc.devRef .tc main_arg2) = B2 m c :=
  (keepX13 m c main_arg2 (by decide)).trans (g12_arg2 m c)
theorem g13_arg3 : X13 (F := Ideal) m c (Proc.devRef .tc main_arg3) = B3 m c :=
  (keepX13 m c main_arg3 (by decide)).trans (g12_arg3 m c)
theorem g13_arg4 : X13 (F := Ideal) m c (Proc.devRef .tc main_arg4) = B4 m c :=
  (keepX13 m c main_arg4 (by decide)).trans (g12_arg4 m c)
theorem g13_arg5 : X13 (F := Ideal) m c (Proc.devRef .tc main_arg5) = B5 m c :=
  (keepX13 m c main_arg5 (by decide)).trans (g12_arg5 m c)
theorem g13_arg6 : X13 (F := Ideal) m c (Proc.devRef .tc main_arg6) = B6 m c :=
  (keepX13 m c main_arg6 (by decide)).trans (g12_arg6 m c)
theorem g13_arg7 : X13 (F := Ideal) m c (Proc.devRef .tc main_arg7) = B7 m c :=
  (keepX13 m c main_arg7 (by decide)).trans (g12_arg7 m c)
theorem g13_arg8 : X13 (F := Ideal) m c (Proc.devRef .tc main_arg8) = B8 m c :=
  (keepX13 m c main_arg8 (by decide)).trans (g12_arg8 m c)
theorem g13_arg9 : X13 (F := Ideal) m c (Proc.devRef .tc main_arg9) = B9 m c :=
  (keepX13 m c main_arg9 (by decide)).trans (g12_arg9 m c)
theorem g13_arg10 : X13 (F := Ideal) m c (Proc.devRef .tc main_arg10) = B10 m c :=
  (keepX13 m c main_arg10 (by decide)).trans (g12_arg10 m c)
theorem g13_arg11 : X13 (F := Ideal) m c (Proc.devRef .tc main_arg11) = B11 m c :=
  (keepX13 m c main_arg11 (by decide)).trans (g12_arg11 m c)
theorem g13_arg12 : X13 (F := Ideal) m c (Proc.devRef .tc main_arg12) = B12 m c :=
  (keepX13 m c main_arg12 (by decide)).trans (g12_arg12 m c)
theorem g13_arg13 : X13 (F := Ideal) m c (Proc.devRef .tc main_arg13) = B13 m c :=
  (keepX13 m c main_arg13 (by decide)).trans (g12_arg13 m c)
theorem g13_arg14 : X13 (F := Ideal) m c (Proc.devRef .tc main_arg14) = B14 m c :=
  (keepX13 m c main_arg14 (by decide)).trans (g12_arg14 m c)
theorem g13_arg15 : X13 (F := Ideal) m c (Proc.devRef .tc main_arg15) = B15 m c :=
  (keepX13 m c main_arg15 (by decide)).trans (g12_arg15 m c)
theorem g13_arg16 : X13 (F := Ideal) m c (Proc.devRef .tc main_arg16) = B16 m c :=
  (keepX13 m c main_arg16 (by decide)).trans (g12_arg16 m c)
theorem g13_arg17 : X13 (F := Ideal) m c (Proc.devRef .tc main_arg17) = B17 m c :=
  (keepX13 m c main_arg17 (by decide)).trans (g12_arg17 m c)
theorem g13_arg18 : X13 (F := Ideal) m c (Proc.devRef .tc main_arg18) = B18 m c :=
  (keepX13 m c main_arg18 (by decide)).trans (g12_arg18 m c)
theorem g13_arg19 : X13 (F := Ideal) m c (Proc.devRef .tc main_arg19) = B19 m c :=
  (keepX13 m c main_arg19 (by decide)).trans (g12_arg19 m c)
theorem g13_arg20 : X13 (F := Ideal) m c (Proc.devRef .tc main_arg20) = B20 m c :=
  (keepX13 m c main_arg20 (by decide)).trans (g12_arg20 m c)
theorem g13_v104 : X13 (F := Ideal) m c (Proc.devRef .tc main_v104) = Cert.ReferenceIdeal.Read.val_main_v104 (F := Ideal) (B0 m c) (B3 m c) (B4 m c) (B7 m c) (B8 m c) (B9 m c) (B10 m c) (B11 m c) :=
  (keepX13 m c main_v104 (by decide)).trans (g12_v104 m c)
theorem g13_v144 : X13 (F := Ideal) m c (Proc.devRef .tc main_v144) = Cert.ReferenceIdeal.Read.val_main_v144 (F := Ideal) (B0 m c) (B1 m c) (B2 m c) (B5 m c) (B6 m c) (B12 m c) (B13 m c) (B14 m c) :=
  (keepX13 m c main_v144 (by decide)).trans (g12_v144 m c)
theorem g13_v175 : X13 (F := Ideal) m c (Proc.devRef .tc main_v175) = Cert.ReferenceIdeal.Read.val_main_v175 (F := Ideal) (B0 m c) (B1 m c) (B2 m c) (B3 m c) (B4 m c) (B5 m c) (B6 m c) (B7 m c) (B8 m c) (B9 m c) (B10 m c) (B11 m c) (B12 m c) (B13 m c) (B14 m c) :=
  (keepX13 m c main_v175 (by decide)).trans (g12_v175 m c)
set_option maxHeartbeats 4000000 in
theorem g13_v198 : X13 (F := Ideal) m c (Proc.devRef .tc main_v198) = Cert.ReferenceIdeal.Read.val_main_v198 (F := Ideal) (B0 m c) (B1 m c) (B2 m c) (B3 m c) (B4 m c) (B5 m c) (B6 m c) (B7 m c) (B8 m c) (B9 m c) (B10 m c) (B11 m c) (B12 m c) (B13 m c) (B14 m c) := by
  rw [X13_eq]
  after_results_simp
  rw [g12_v182 m c, g12_v189 m c]
  all_goals (try simp only [g12_arg4 m c, g12_arg7 m c, g12_arg8 m c])
  all_goals (try simp only [Cert.ReferenceIdeal.Read.val_main_v198, Cert.ReferenceIdeal.Read.val_main_v196, Cert.ReferenceIdeal.Read.val_main_cst_38, Cert.ReferenceIdeal.Read.val_main_v197, Cert.ReferenceIdeal.Read.val_main_v195, Cert.ReferenceIdeal.Read.val_main_v194, Cert.ReferenceIdeal.Read.val_main_v191, Cert.ReferenceIdeal.Read.val_main_v190, Cert.ReferenceIdeal.Read.val_main_v193, Cert.ReferenceIdeal.Read.val_main_v192, Cert.ReferenceIdeal.Read.val_main_call3_v0, Cert.ReferenceIdeal.Read.val_main_call3_cst])
  all_goals rfl
theorem g14_arg0 : X14 (F := Ideal) m c (Proc.devRef .tc main_arg0) = B0 m c :=
  (keepX14 m c main_arg0 (by decide)).trans (g13_arg0 m c)
theorem g14_arg1 : X14 (F := Ideal) m c (Proc.devRef .tc main_arg1) = B1 m c :=
  (keepX14 m c main_arg1 (by decide)).trans (g13_arg1 m c)
theorem g14_arg2 : X14 (F := Ideal) m c (Proc.devRef .tc main_arg2) = B2 m c :=
  (keepX14 m c main_arg2 (by decide)).trans (g13_arg2 m c)
theorem g14_arg3 : X14 (F := Ideal) m c (Proc.devRef .tc main_arg3) = B3 m c :=
  (keepX14 m c main_arg3 (by decide)).trans (g13_arg3 m c)
theorem g14_arg4 : X14 (F := Ideal) m c (Proc.devRef .tc main_arg4) = B4 m c :=
  (keepX14 m c main_arg4 (by decide)).trans (g13_arg4 m c)
theorem g14_arg5 : X14 (F := Ideal) m c (Proc.devRef .tc main_arg5) = B5 m c :=
  (keepX14 m c main_arg5 (by decide)).trans (g13_arg5 m c)
theorem g14_arg6 : X14 (F := Ideal) m c (Proc.devRef .tc main_arg6) = B6 m c :=
  (keepX14 m c main_arg6 (by decide)).trans (g13_arg6 m c)
theorem g14_arg7 : X14 (F := Ideal) m c (Proc.devRef .tc main_arg7) = B7 m c :=
  (keepX14 m c main_arg7 (by decide)).trans (g13_arg7 m c)
theorem g14_arg8 : X14 (F := Ideal) m c (Proc.devRef .tc main_arg8) = B8 m c :=
  (keepX14 m c main_arg8 (by decide)).trans (g13_arg8 m c)
theorem g14_arg9 : X14 (F := Ideal) m c (Proc.devRef .tc main_arg9) = B9 m c :=
  (keepX14 m c main_arg9 (by decide)).trans (g13_arg9 m c)
theorem g14_arg10 : X14 (F := Ideal) m c (Proc.devRef .tc main_arg10) = B10 m c :=
  (keepX14 m c main_arg10 (by decide)).trans (g13_arg10 m c)
theorem g14_arg11 : X14 (F := Ideal) m c (Proc.devRef .tc main_arg11) = B11 m c :=
  (keepX14 m c main_arg11 (by decide)).trans (g13_arg11 m c)
theorem g14_arg12 : X14 (F := Ideal) m c (Proc.devRef .tc main_arg12) = B12 m c :=
  (keepX14 m c main_arg12 (by decide)).trans (g13_arg12 m c)
theorem g14_arg13 : X14 (F := Ideal) m c (Proc.devRef .tc main_arg13) = B13 m c :=
  (keepX14 m c main_arg13 (by decide)).trans (g13_arg13 m c)
theorem g14_arg14 : X14 (F := Ideal) m c (Proc.devRef .tc main_arg14) = B14 m c :=
  (keepX14 m c main_arg14 (by decide)).trans (g13_arg14 m c)
theorem g14_arg15 : X14 (F := Ideal) m c (Proc.devRef .tc main_arg15) = B15 m c :=
  (keepX14 m c main_arg15 (by decide)).trans (g13_arg15 m c)
theorem g14_arg16 : X14 (F := Ideal) m c (Proc.devRef .tc main_arg16) = B16 m c :=
  (keepX14 m c main_arg16 (by decide)).trans (g13_arg16 m c)
theorem g14_arg17 : X14 (F := Ideal) m c (Proc.devRef .tc main_arg17) = B17 m c :=
  (keepX14 m c main_arg17 (by decide)).trans (g13_arg17 m c)
theorem g14_arg18 : X14 (F := Ideal) m c (Proc.devRef .tc main_arg18) = B18 m c :=
  (keepX14 m c main_arg18 (by decide)).trans (g13_arg18 m c)
theorem g14_arg19 : X14 (F := Ideal) m c (Proc.devRef .tc main_arg19) = B19 m c :=
  (keepX14 m c main_arg19 (by decide)).trans (g13_arg19 m c)
theorem g14_arg20 : X14 (F := Ideal) m c (Proc.devRef .tc main_arg20) = B20 m c :=
  (keepX14 m c main_arg20 (by decide)).trans (g13_arg20 m c)
theorem g14_v104 : X14 (F := Ideal) m c (Proc.devRef .tc main_v104) = Cert.ReferenceIdeal.Read.val_main_v104 (F := Ideal) (B0 m c) (B3 m c) (B4 m c) (B7 m c) (B8 m c) (B9 m c) (B10 m c) (B11 m c) :=
  (keepX14 m c main_v104 (by decide)).trans (g13_v104 m c)
theorem g14_v144 : X14 (F := Ideal) m c (Proc.devRef .tc main_v144) = Cert.ReferenceIdeal.Read.val_main_v144 (F := Ideal) (B0 m c) (B1 m c) (B2 m c) (B5 m c) (B6 m c) (B12 m c) (B13 m c) (B14 m c) :=
  (keepX14 m c main_v144 (by decide)).trans (g13_v144 m c)
theorem g14_v175 : X14 (F := Ideal) m c (Proc.devRef .tc main_v175) = Cert.ReferenceIdeal.Read.val_main_v175 (F := Ideal) (B0 m c) (B1 m c) (B2 m c) (B3 m c) (B4 m c) (B5 m c) (B6 m c) (B7 m c) (B8 m c) (B9 m c) (B10 m c) (B11 m c) (B12 m c) (B13 m c) (B14 m c) :=
  (keepX14 m c main_v175 (by decide)).trans (g13_v175 m c)
set_option maxHeartbeats 4000000 in
theorem g14_v206 : X14 (F := Ideal) m c (Proc.devRef .tc main_v206) = Cert.ReferenceIdeal.Read.val_main_v206 (F := Ideal) (B0 m c) (B1 m c) (B2 m c) (B3 m c) (B4 m c) (B5 m c) (B6 m c) (B7 m c) (B8 m c) (B9 m c) (B10 m c) (B11 m c) (B12 m c) (B13 m c) (B14 m c) := by
  rw [X14_eq]
  after_results_simp
  all_goals (try simp only [g13_v198 m c, g13_arg4 m c])
  all_goals (try simp only [Cert.ReferenceIdeal.Read.val_main_v206, Cert.ReferenceIdeal.Read.val_main_v205, Cert.ReferenceIdeal.Read.val_main_v204, Cert.ReferenceIdeal.Read.val_main_v202, Cert.ReferenceIdeal.Read.val_main_v200, Cert.ReferenceIdeal.Read.val_main_cst_40, Cert.ReferenceIdeal.Read.val_main_v201, Cert.ReferenceIdeal.Read.val_main_v199, Cert.ReferenceIdeal.Read.val_main_cst_39, Cert.ReferenceIdeal.Read.val_main_v203, Cert.ReferenceIdeal.Read.val_main_cst_41])
  all_goals rfl
theorem g15_arg0 : X15 (F := Ideal) m c (Proc.devRef .tc main_arg0) = B0 m c :=
  (keepX15 m c main_arg0 (by decide)).trans (g14_arg0 m c)
theorem g15_arg1 : X15 (F := Ideal) m c (Proc.devRef .tc main_arg1) = B1 m c :=
  (keepX15 m c main_arg1 (by decide)).trans (g14_arg1 m c)
theorem g15_arg2 : X15 (F := Ideal) m c (Proc.devRef .tc main_arg2) = B2 m c :=
  (keepX15 m c main_arg2 (by decide)).trans (g14_arg2 m c)
theorem g15_arg3 : X15 (F := Ideal) m c (Proc.devRef .tc main_arg3) = B3 m c :=
  (keepX15 m c main_arg3 (by decide)).trans (g14_arg3 m c)
theorem g15_arg4 : X15 (F := Ideal) m c (Proc.devRef .tc main_arg4) = B4 m c :=
  (keepX15 m c main_arg4 (by decide)).trans (g14_arg4 m c)
theorem g15_arg5 : X15 (F := Ideal) m c (Proc.devRef .tc main_arg5) = B5 m c :=
  (keepX15 m c main_arg5 (by decide)).trans (g14_arg5 m c)
theorem g15_arg6 : X15 (F := Ideal) m c (Proc.devRef .tc main_arg6) = B6 m c :=
  (keepX15 m c main_arg6 (by decide)).trans (g14_arg6 m c)
theorem g15_arg7 : X15 (F := Ideal) m c (Proc.devRef .tc main_arg7) = B7 m c :=
  (keepX15 m c main_arg7 (by decide)).trans (g14_arg7 m c)
theorem g15_arg8 : X15 (F := Ideal) m c (Proc.devRef .tc main_arg8) = B8 m c :=
  (keepX15 m c main_arg8 (by decide)).trans (g14_arg8 m c)
theorem g15_arg9 : X15 (F := Ideal) m c (Proc.devRef .tc main_arg9) = B9 m c :=
  (keepX15 m c main_arg9 (by decide)).trans (g14_arg9 m c)
theorem g15_arg10 : X15 (F := Ideal) m c (Proc.devRef .tc main_arg10) = B10 m c :=
  (keepX15 m c main_arg10 (by decide)).trans (g14_arg10 m c)
theorem g15_arg11 : X15 (F := Ideal) m c (Proc.devRef .tc main_arg11) = B11 m c :=
  (keepX15 m c main_arg11 (by decide)).trans (g14_arg11 m c)
theorem g15_arg12 : X15 (F := Ideal) m c (Proc.devRef .tc main_arg12) = B12 m c :=
  (keepX15 m c main_arg12 (by decide)).trans (g14_arg12 m c)
theorem g15_arg13 : X15 (F := Ideal) m c (Proc.devRef .tc main_arg13) = B13 m c :=
  (keepX15 m c main_arg13 (by decide)).trans (g14_arg13 m c)
theorem g15_arg14 : X15 (F := Ideal) m c (Proc.devRef .tc main_arg14) = B14 m c :=
  (keepX15 m c main_arg14 (by decide)).trans (g14_arg14 m c)
theorem g15_arg15 : X15 (F := Ideal) m c (Proc.devRef .tc main_arg15) = B15 m c :=
  (keepX15 m c main_arg15 (by decide)).trans (g14_arg15 m c)
theorem g15_arg16 : X15 (F := Ideal) m c (Proc.devRef .tc main_arg16) = B16 m c :=
  (keepX15 m c main_arg16 (by decide)).trans (g14_arg16 m c)
theorem g15_arg17 : X15 (F := Ideal) m c (Proc.devRef .tc main_arg17) = B17 m c :=
  (keepX15 m c main_arg17 (by decide)).trans (g14_arg17 m c)
theorem g15_arg18 : X15 (F := Ideal) m c (Proc.devRef .tc main_arg18) = B18 m c :=
  (keepX15 m c main_arg18 (by decide)).trans (g14_arg18 m c)
theorem g15_arg19 : X15 (F := Ideal) m c (Proc.devRef .tc main_arg19) = B19 m c :=
  (keepX15 m c main_arg19 (by decide)).trans (g14_arg19 m c)
theorem g15_arg20 : X15 (F := Ideal) m c (Proc.devRef .tc main_arg20) = B20 m c :=
  (keepX15 m c main_arg20 (by decide)).trans (g14_arg20 m c)
theorem g15_v144 : X15 (F := Ideal) m c (Proc.devRef .tc main_v144) = Cert.ReferenceIdeal.Read.val_main_v144 (F := Ideal) (B0 m c) (B1 m c) (B2 m c) (B5 m c) (B6 m c) (B12 m c) (B13 m c) (B14 m c) :=
  (keepX15 m c main_v144 (by decide)).trans (g14_v144 m c)
set_option maxHeartbeats 4000000 in
theorem g15_v246 : X15 (F := Ideal) m c (Proc.devRef .tc main_v246) = Cert.ReferenceIdeal.Read.val_main_v246 (F := Ideal) (B0 m c) (B1 m c) (B2 m c) (B3 m c) (B4 m c) (B5 m c) (B6 m c) (B7 m c) (B8 m c) (B9 m c) (B10 m c) (B11 m c) (B12 m c) (B13 m c) (B14 m c) := by
  rw [X15_eq]
  after_results_simp
  all_goals (try simp only [g14_v206 m c, g14_arg9 m c, g14_arg11 m c, g14_v104 m c, g14_arg10 m c])
  all_goals (try simp only [Cert.ReferenceIdeal.Read.val_main_v246, Cert.ReferenceIdeal.Read.val_main_v242, Cert.ReferenceIdeal.Read.val_main_v231, Cert.ReferenceIdeal.Read.val_main_v230, Cert.ReferenceIdeal.Read.val_main_cst_43, Cert.ReferenceIdeal.Read.val_main_v229, Cert.ReferenceIdeal.Read.val_main_v228, Cert.ReferenceIdeal.Read.val_main_cst_42, Cert.ReferenceIdeal.Read.val_main_v227, Cert.ReferenceIdeal.Read.val_main_v226, Cert.ReferenceIdeal.Read.val_main_v225, Cert.ReferenceIdeal.Read.val_main_v219, Cert.ReferenceIdeal.Read.val_main_v212, Cert.ReferenceIdeal.Read.val_main_v207, Cert.ReferenceIdeal.Read.val_main_v211, Cert.ReferenceIdeal.Read.val_main_v210, Cert.ReferenceIdeal.Read.val_main_v209, Cert.ReferenceIdeal.Read.val_main_v208, Cert.ReferenceIdeal.Read.val_main_v222, Cert.ReferenceIdeal.Read.val_main_v218, Cert.ReferenceIdeal.Read.val_main_v213, Cert.ReferenceIdeal.Read.val_main_v217, Cert.ReferenceIdeal.Read.val_main_v216, Cert.ReferenceIdeal.Read.val_main_v215, Cert.ReferenceIdeal.Read.val_main_v214, Cert.ReferenceIdeal.Read.val_main_v245, Cert.ReferenceIdeal.Read.val_main_v244, Cert.ReferenceIdeal.Read.val_main_v243, Cert.ReferenceIdeal.Read.val_main_cst_46, Cert.ReferenceIdeal.Read.val_main_v241, Cert.ReferenceIdeal.Read.val_main_v240, Cert.ReferenceIdeal.Read.val_main_v221, Cert.ReferenceIdeal.Read.val_main_v239, Cert.ReferenceIdeal.Read.val_main_v238, Cert.ReferenceIdeal.Read.val_main_v237, Cert.ReferenceIdeal.Read.val_main_cst_45, Cert.ReferenceIdeal.Read.val_main_v236, Cert.ReferenceIdeal.Read.val_main_v235, Cert.ReferenceIdeal.Read.val_main_cst_44, Cert.ReferenceIdeal.Read.val_main_v234, Cert.ReferenceIdeal.Read.val_main_v233, Cert.ReferenceIdeal.Read.val_main_v232, Cert.ReferenceIdeal.Read.val_main_v220, Cert.ReferenceIdeal.Read.val_main_v223, Cert.ReferenceIdeal.Read.val_main_v224])
  all_goals rfl
set_option maxHeartbeats 4000000 in
theorem g15_v247 : X15 (F := Ideal) m c (Proc.devRef .tc main_v247) = Cert.ReferenceIdeal.Read.val_main_v247 (F := Ideal) (B0 m c) (B1 m c) (B2 m c) (B3 m c) (B4 m c) (B5 m c) (B6 m c) (B7 m c) (B8 m c) (B9 m c) (B10 m c) (B11 m c) (B12 m c) (B13 m c) (B14 m c) := by
  rw [X15_eq]
  after_results_simp
  all_goals (try simp only [g14_v175 m c, g14_arg12 m c])
  all_goals (try simp only [Cert.ReferenceIdeal.Read.val_main_v247])
  all_goals rfl
set_option maxHeartbeats 4000000 in
theorem g15_v250 : X15 (F := Ideal) m c (Proc.devRef .tc main_v250) = Cert.ReferenceIdeal.Read.val_main_v250 (F := Ideal) (B14 m c) := by
  rw [X15_eq]
  after_results_simp
  all_goals (try simp only [g14_arg14 m c])
  all_goals (try simp only [Cert.ReferenceIdeal.Read.val_main_v250, Cert.ReferenceIdeal.Read.val_main_v249, Cert.ReferenceIdeal.Read.val_main_v248])
  all_goals rfl
theorem g16_arg0 : X16 (F := Ideal) m c (Proc.devRef .tc main_arg0) = B0 m c :=
  (keepX16 m c main_arg0 (by decide)).trans (g15_arg0 m c)
theorem g16_arg1 : X16 (F := Ideal) m c (Proc.devRef .tc main_arg1) = B1 m c :=
  (keepX16 m c main_arg1 (by decide)).trans (g15_arg1 m c)
theorem g16_arg2 : X16 (F := Ideal) m c (Proc.devRef .tc main_arg2) = B2 m c :=
  (keepX16 m c main_arg2 (by decide)).trans (g15_arg2 m c)
theorem g16_arg3 : X16 (F := Ideal) m c (Proc.devRef .tc main_arg3) = B3 m c :=
  (keepX16 m c main_arg3 (by decide)).trans (g15_arg3 m c)
theorem g16_arg4 : X16 (F := Ideal) m c (Proc.devRef .tc main_arg4) = B4 m c :=
  (keepX16 m c main_arg4 (by decide)).trans (g15_arg4 m c)
theorem g16_arg5 : X16 (F := Ideal) m c (Proc.devRef .tc main_arg5) = B5 m c :=
  (keepX16 m c main_arg5 (by decide)).trans (g15_arg5 m c)
theorem g16_arg6 : X16 (F := Ideal) m c (Proc.devRef .tc main_arg6) = B6 m c :=
  (keepX16 m c main_arg6 (by decide)).trans (g15_arg6 m c)
theorem g16_arg7 : X16 (F := Ideal) m c (Proc.devRef .tc main_arg7) = B7 m c :=
  (keepX16 m c main_arg7 (by decide)).trans (g15_arg7 m c)
theorem g16_arg8 : X16 (F := Ideal) m c (Proc.devRef .tc main_arg8) = B8 m c :=
  (keepX16 m c main_arg8 (by decide)).trans (g15_arg8 m c)
theorem g16_arg9 : X16 (F := Ideal) m c (Proc.devRef .tc main_arg9) = B9 m c :=
  (keepX16 m c main_arg9 (by decide)).trans (g15_arg9 m c)
theorem g16_arg10 : X16 (F := Ideal) m c (Proc.devRef .tc main_arg10) = B10 m c :=
  (keepX16 m c main_arg10 (by decide)).trans (g15_arg10 m c)
theorem g16_arg11 : X16 (F := Ideal) m c (Proc.devRef .tc main_arg11) = B11 m c :=
  (keepX16 m c main_arg11 (by decide)).trans (g15_arg11 m c)
theorem g16_arg12 : X16 (F := Ideal) m c (Proc.devRef .tc main_arg12) = B12 m c :=
  (keepX16 m c main_arg12 (by decide)).trans (g15_arg12 m c)
theorem g16_arg13 : X16 (F := Ideal) m c (Proc.devRef .tc main_arg13) = B13 m c :=
  (keepX16 m c main_arg13 (by decide)).trans (g15_arg13 m c)
theorem g16_arg14 : X16 (F := Ideal) m c (Proc.devRef .tc main_arg14) = B14 m c :=
  (keepX16 m c main_arg14 (by decide)).trans (g15_arg14 m c)
theorem g16_arg15 : X16 (F := Ideal) m c (Proc.devRef .tc main_arg15) = B15 m c :=
  (keepX16 m c main_arg15 (by decide)).trans (g15_arg15 m c)
theorem g16_arg16 : X16 (F := Ideal) m c (Proc.devRef .tc main_arg16) = B16 m c :=
  (keepX16 m c main_arg16 (by decide)).trans (g15_arg16 m c)
theorem g16_arg17 : X16 (F := Ideal) m c (Proc.devRef .tc main_arg17) = B17 m c :=
  (keepX16 m c main_arg17 (by decide)).trans (g15_arg17 m c)
theorem g16_arg18 : X16 (F := Ideal) m c (Proc.devRef .tc main_arg18) = B18 m c :=
  (keepX16 m c main_arg18 (by decide)).trans (g15_arg18 m c)
theorem g16_arg19 : X16 (F := Ideal) m c (Proc.devRef .tc main_arg19) = B19 m c :=
  (keepX16 m c main_arg19 (by decide)).trans (g15_arg19 m c)
theorem g16_arg20 : X16 (F := Ideal) m c (Proc.devRef .tc main_arg20) = B20 m c :=
  (keepX16 m c main_arg20 (by decide)).trans (g15_arg20 m c)
theorem g16_v246 : X16 (F := Ideal) m c (Proc.devRef .tc main_v246) = Cert.ReferenceIdeal.Read.val_main_v246 (F := Ideal) (B0 m c) (B1 m c) (B2 m c) (B3 m c) (B4 m c) (B5 m c) (B6 m c) (B7 m c) (B8 m c) (B9 m c) (B10 m c) (B11 m c) (B12 m c) (B13 m c) (B14 m c) :=
  (keepX16 m c main_v246 (by decide)).trans (g15_v246 m c)
set_option maxHeartbeats 4000000 in
theorem g16_v286 : X16 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) := by
  rw [X16_eq]
  after_results_simp
  all_goals (try simp only [g15_v247 m c, g15_v250 m c, g15_v144 m c, g15_arg13 m c, g15_arg14 m c])
  all_goals (try simp only [Cert.ReferenceIdeal.Read.val_main_v286, Cert.ReferenceIdeal.Read.val_main_v282, Cert.ReferenceIdeal.Read.val_main_v271, Cert.ReferenceIdeal.Read.val_main_v270, Cert.ReferenceIdeal.Read.val_main_cst_48, Cert.ReferenceIdeal.Read.val_main_v269, Cert.ReferenceIdeal.Read.val_main_v268, Cert.ReferenceIdeal.Read.val_main_cst_47, Cert.ReferenceIdeal.Read.val_main_v267, Cert.ReferenceIdeal.Read.val_main_v266, Cert.ReferenceIdeal.Read.val_main_v265, Cert.ReferenceIdeal.Read.val_main_v259, Cert.ReferenceIdeal.Read.val_main_v252, Cert.ReferenceIdeal.Read.val_main_v251, Cert.ReferenceIdeal.Read.val_main_v262, Cert.ReferenceIdeal.Read.val_main_v258, Cert.ReferenceIdeal.Read.val_main_v253, Cert.ReferenceIdeal.Read.val_main_v257, Cert.ReferenceIdeal.Read.val_main_v256, Cert.ReferenceIdeal.Read.val_main_v255, Cert.ReferenceIdeal.Read.val_main_v254, Cert.ReferenceIdeal.Read.val_main_v285, Cert.ReferenceIdeal.Read.val_main_v284, Cert.ReferenceIdeal.Read.val_main_v283, Cert.ReferenceIdeal.Read.val_main_cst_51, Cert.ReferenceIdeal.Read.val_main_v281, Cert.ReferenceIdeal.Read.val_main_v280, Cert.ReferenceIdeal.Read.val_main_v261, Cert.ReferenceIdeal.Read.val_main_v279, Cert.ReferenceIdeal.Read.val_main_v278, Cert.ReferenceIdeal.Read.val_main_v277, Cert.ReferenceIdeal.Read.val_main_cst_50, Cert.ReferenceIdeal.Read.val_main_v276, Cert.ReferenceIdeal.Read.val_main_v275, Cert.ReferenceIdeal.Read.val_main_cst_49, Cert.ReferenceIdeal.Read.val_main_v274, Cert.ReferenceIdeal.Read.val_main_v273, Cert.ReferenceIdeal.Read.val_main_v272, Cert.ReferenceIdeal.Read.val_main_v260, Cert.ReferenceIdeal.Read.val_main_v263, Cert.ReferenceIdeal.Read.val_main_v264])
  all_goals rfl
theorem g17_arg0 : X17 (F := Ideal) m c (Proc.devRef .tc main_arg0) = B0 m c :=
  (keepX17 m c main_arg0 (by decide)).trans (g16_arg0 m c)
theorem g17_arg1 : X17 (F := Ideal) m c (Proc.devRef .tc main_arg1) = B1 m c :=
  (keepX17 m c main_arg1 (by decide)).trans (g16_arg1 m c)
theorem g17_arg2 : X17 (F := Ideal) m c (Proc.devRef .tc main_arg2) = B2 m c :=
  (keepX17 m c main_arg2 (by decide)).trans (g16_arg2 m c)
theorem g17_arg3 : X17 (F := Ideal) m c (Proc.devRef .tc main_arg3) = B3 m c :=
  (keepX17 m c main_arg3 (by decide)).trans (g16_arg3 m c)
theorem g17_arg4 : X17 (F := Ideal) m c (Proc.devRef .tc main_arg4) = B4 m c :=
  (keepX17 m c main_arg4 (by decide)).trans (g16_arg4 m c)
theorem g17_arg5 : X17 (F := Ideal) m c (Proc.devRef .tc main_arg5) = B5 m c :=
  (keepX17 m c main_arg5 (by decide)).trans (g16_arg5 m c)
theorem g17_arg6 : X17 (F := Ideal) m c (Proc.devRef .tc main_arg6) = B6 m c :=
  (keepX17 m c main_arg6 (by decide)).trans (g16_arg6 m c)
theorem g17_arg7 : X17 (F := Ideal) m c (Proc.devRef .tc main_arg7) = B7 m c :=
  (keepX17 m c main_arg7 (by decide)).trans (g16_arg7 m c)
theorem g17_arg8 : X17 (F := Ideal) m c (Proc.devRef .tc main_arg8) = B8 m c :=
  (keepX17 m c main_arg8 (by decide)).trans (g16_arg8 m c)
theorem g17_arg9 : X17 (F := Ideal) m c (Proc.devRef .tc main_arg9) = B9 m c :=
  (keepX17 m c main_arg9 (by decide)).trans (g16_arg9 m c)
theorem g17_arg10 : X17 (F := Ideal) m c (Proc.devRef .tc main_arg10) = B10 m c :=
  (keepX17 m c main_arg10 (by decide)).trans (g16_arg10 m c)
theorem g17_arg11 : X17 (F := Ideal) m c (Proc.devRef .tc main_arg11) = B11 m c :=
  (keepX17 m c main_arg11 (by decide)).trans (g16_arg11 m c)
theorem g17_arg12 : X17 (F := Ideal) m c (Proc.devRef .tc main_arg12) = B12 m c :=
  (keepX17 m c main_arg12 (by decide)).trans (g16_arg12 m c)
theorem g17_arg13 : X17 (F := Ideal) m c (Proc.devRef .tc main_arg13) = B13 m c :=
  (keepX17 m c main_arg13 (by decide)).trans (g16_arg13 m c)
theorem g17_arg14 : X17 (F := Ideal) m c (Proc.devRef .tc main_arg14) = B14 m c :=
  (keepX17 m c main_arg14 (by decide)).trans (g16_arg14 m c)
theorem g17_arg15 : X17 (F := Ideal) m c (Proc.devRef .tc main_arg15) = B15 m c :=
  (keepX17 m c main_arg15 (by decide)).trans (g16_arg15 m c)
theorem g17_arg16 : X17 (F := Ideal) m c (Proc.devRef .tc main_arg16) = B16 m c :=
  (keepX17 m c main_arg16 (by decide)).trans (g16_arg16 m c)
theorem g17_arg17 : X17 (F := Ideal) m c (Proc.devRef .tc main_arg17) = B17 m c :=
  (keepX17 m c main_arg17 (by decide)).trans (g16_arg17 m c)
theorem g17_arg18 : X17 (F := Ideal) m c (Proc.devRef .tc main_arg18) = B18 m c :=
  (keepX17 m c main_arg18 (by decide)).trans (g16_arg18 m c)
theorem g17_arg19 : X17 (F := Ideal) m c (Proc.devRef .tc main_arg19) = B19 m c :=
  (keepX17 m c main_arg19 (by decide)).trans (g16_arg19 m c)
theorem g17_arg20 : X17 (F := Ideal) m c (Proc.devRef .tc main_arg20) = B20 m c :=
  (keepX17 m c main_arg20 (by decide)).trans (g16_arg20 m c)
theorem g17_v286 : X17 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX17 m c main_v286 (by decide)).trans (g16_v286 m c)
set_option maxHeartbeats 4000000 in
theorem g17_v293 : X17 (F := Ideal) m c (Proc.devRef .tc main_v293) = Cert.ReferenceIdeal.Read.val_main_v293 (F := Ideal) (B0 m c) (B1 m c) (B2 m c) (B3 m c) (B4 m c) (B5 m c) (B6 m c) (B7 m c) (B8 m c) (B9 m c) (B10 m c) (B11 m c) (B12 m c) (B13 m c) (B14 m c) := by
  rw [X17_eq]
  after_results_simp
  all_goals (try simp only [g16_v246 m c, g16_arg1 m c])
  all_goals (try simp only [Cert.ReferenceIdeal.Read.val_main_v293, Cert.ReferenceIdeal.Read.val_main_v292, Cert.ReferenceIdeal.Read.val_main_v291, Cert.ReferenceIdeal.Read.val_main_v288, Cert.ReferenceIdeal.Read.val_main_v287, Cert.ReferenceIdeal.Read.val_main_c_52, Cert.ReferenceIdeal.Read.val_main_v290, Cert.ReferenceIdeal.Read.val_main_v289, Cert.ReferenceIdeal.Read.val_main_c_53])
  all_goals rfl
set_option maxHeartbeats 4000000 in
theorem g17_v300 : X17 (F := Ideal) m c (Proc.devRef .tc main_v300) = Cert.ReferenceIdeal.Read.val_main_v300 (F := Ideal) (B0 m c) (B1 m c) (B2 m c) (B3 m c) (B4 m c) (B5 m c) (B6 m c) (B7 m c) (B8 m c) (B9 m c) (B10 m c) (B11 m c) (B12 m c) (B13 m c) (B14 m c) := by
  rw [X17_eq]
  after_results_simp
  all_goals (try simp only [g16_v286 m c, g16_arg2 m c])
  all_goals (try simp only [Cert.ReferenceIdeal.Read.val_main_v300, Cert.ReferenceIdeal.Read.val_main_v299, Cert.ReferenceIdeal.Read.val_main_v298, Cert.ReferenceIdeal.Read.val_main_v295, Cert.ReferenceIdeal.Read.val_main_v294, Cert.ReferenceIdeal.Read.val_main_c_54, Cert.ReferenceIdeal.Read.val_main_v297, Cert.ReferenceIdeal.Read.val_main_v296, Cert.ReferenceIdeal.Read.val_main_c_55])
  all_goals rfl
theorem g18_arg0 : X18 (F := Ideal) m c (Proc.devRef .tc main_arg0) = B0 m c :=
  (keepX18 m c main_arg0 (by decide)).trans (g17_arg0 m c)
theorem g18_arg1 : X18 (F := Ideal) m c (Proc.devRef .tc main_arg1) = B1 m c :=
  (keepX18 m c main_arg1 (by decide)).trans (g17_arg1 m c)
theorem g18_arg2 : X18 (F := Ideal) m c (Proc.devRef .tc main_arg2) = B2 m c :=
  (keepX18 m c main_arg2 (by decide)).trans (g17_arg2 m c)
theorem g18_arg3 : X18 (F := Ideal) m c (Proc.devRef .tc main_arg3) = B3 m c :=
  (keepX18 m c main_arg3 (by decide)).trans (g17_arg3 m c)
theorem g18_arg4 : X18 (F := Ideal) m c (Proc.devRef .tc main_arg4) = B4 m c :=
  (keepX18 m c main_arg4 (by decide)).trans (g17_arg4 m c)
theorem g18_arg5 : X18 (F := Ideal) m c (Proc.devRef .tc main_arg5) = B5 m c :=
  (keepX18 m c main_arg5 (by decide)).trans (g17_arg5 m c)
theorem g18_arg6 : X18 (F := Ideal) m c (Proc.devRef .tc main_arg6) = B6 m c :=
  (keepX18 m c main_arg6 (by decide)).trans (g17_arg6 m c)
theorem g18_arg7 : X18 (F := Ideal) m c (Proc.devRef .tc main_arg7) = B7 m c :=
  (keepX18 m c main_arg7 (by decide)).trans (g17_arg7 m c)
theorem g18_arg8 : X18 (F := Ideal) m c (Proc.devRef .tc main_arg8) = B8 m c :=
  (keepX18 m c main_arg8 (by decide)).trans (g17_arg8 m c)
theorem g18_arg9 : X18 (F := Ideal) m c (Proc.devRef .tc main_arg9) = B9 m c :=
  (keepX18 m c main_arg9 (by decide)).trans (g17_arg9 m c)
theorem g18_arg10 : X18 (F := Ideal) m c (Proc.devRef .tc main_arg10) = B10 m c :=
  (keepX18 m c main_arg10 (by decide)).trans (g17_arg10 m c)
theorem g18_arg11 : X18 (F := Ideal) m c (Proc.devRef .tc main_arg11) = B11 m c :=
  (keepX18 m c main_arg11 (by decide)).trans (g17_arg11 m c)
theorem g18_arg12 : X18 (F := Ideal) m c (Proc.devRef .tc main_arg12) = B12 m c :=
  (keepX18 m c main_arg12 (by decide)).trans (g17_arg12 m c)
theorem g18_arg13 : X18 (F := Ideal) m c (Proc.devRef .tc main_arg13) = B13 m c :=
  (keepX18 m c main_arg13 (by decide)).trans (g17_arg13 m c)
theorem g18_arg14 : X18 (F := Ideal) m c (Proc.devRef .tc main_arg14) = B14 m c :=
  (keepX18 m c main_arg14 (by decide)).trans (g17_arg14 m c)
theorem g18_arg15 : X18 (F := Ideal) m c (Proc.devRef .tc main_arg15) = B15 m c :=
  (keepX18 m c main_arg15 (by decide)).trans (g17_arg15 m c)
theorem g18_arg16 : X18 (F := Ideal) m c (Proc.devRef .tc main_arg16) = B16 m c :=
  (keepX18 m c main_arg16 (by decide)).trans (g17_arg16 m c)
theorem g18_arg17 : X18 (F := Ideal) m c (Proc.devRef .tc main_arg17) = B17 m c :=
  (keepX18 m c main_arg17 (by decide)).trans (g17_arg17 m c)
theorem g18_arg18 : X18 (F := Ideal) m c (Proc.devRef .tc main_arg18) = B18 m c :=
  (keepX18 m c main_arg18 (by decide)).trans (g17_arg18 m c)
theorem g18_arg19 : X18 (F := Ideal) m c (Proc.devRef .tc main_arg19) = B19 m c :=
  (keepX18 m c main_arg19 (by decide)).trans (g17_arg19 m c)
theorem g18_arg20 : X18 (F := Ideal) m c (Proc.devRef .tc main_arg20) = B20 m c :=
  (keepX18 m c main_arg20 (by decide)).trans (g17_arg20 m c)
theorem g18_v286 : X18 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX18 m c main_v286 (by decide)).trans (g17_v286 m c)
set_option maxHeartbeats 4000000 in
theorem g18_v301 : X18 (F := Ideal) m c (Proc.devRef .tc main_v301) = Cert.ReferenceIdeal.Read.val_main_v301 (F := Ideal) (B0 m c) (B1 m c) (B2 m c) (B3 m c) (B4 m c) (B5 m c) (B6 m c) (B7 m c) (B8 m c) (B9 m c) (B10 m c) (B11 m c) (B12 m c) (B13 m c) (B14 m c) := by
  rw [X18_eq]
  after_results_simp
  rw [g17_v293 m c, g17_v300 m c]
  all_goals (try simp only [Cert.ReferenceIdeal.Read.val_main_v301])
  all_goals rfl

end Cert.ReferenceIdeal.Fold

end
-- ==== Proof.RefFoldD.lean ====
/-
  What the reference program's buffers hold after each chunk of its operations (chunks 19 to 24): each buffer that a later
  chunk reads holds its stage (the operations' composition as a function of the arguments); an argument is never written.
  A chunk's results are read off the chunk's fold: the operations applied to what the chunk found, which is the stage's own
  definition once the chunk's own stages are unfolded. (The operands of a joining of two arrays sit inside a list of
  shape-tagged pairs; they are rewritten first.)
-/
import proofs.«154953_j22007412425053_2_alg».proof.Proof.RefFoldC
import Idealize.ShloMosaic.PureOps.Ideal

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem g19_arg0 : X19 (F := Ideal) m c (Proc.devRef .tc main_arg0) = B0 m c :=
  (keepX19 m c main_arg0 (by decide)).trans (g18_arg0 m c)
theorem g19_arg1 : X19 (F := Ideal) m c (Proc.devRef .tc main_arg1) = B1 m c :=
  (keepX19 m c main_arg1 (by decide)).trans (g18_arg1 m c)
theorem g19_arg2 : X19 (F := Ideal) m c (Proc.devRef .tc main_arg2) = B2 m c :=
  (keepX19 m c main_arg2 (by decide)).trans (g18_arg2 m c)
theorem g19_arg3 : X19 (F := Ideal) m c (Proc.devRef .tc main_arg3) = B3 m c :=
  (keepX19 m c main_arg3 (by decide)).trans (g18_arg3 m c)
theorem g19_arg4 : X19 (F := Ideal) m c (Proc.devRef .tc main_arg4) = B4 m c :=
  (keepX19 m c main_arg4 (by decide)).trans (g18_arg4 m c)
theorem g19_arg5 : X19 (F := Ideal) m c (Proc.devRef .tc main_arg5) = B5 m c :=
  (keepX19 m c main_arg5 (by decide)).trans (g18_arg5 m c)
theorem g19_arg6 : X19 (F := Ideal) m c (Proc.devRef .tc main_arg6) = B6 m c :=
  (keepX19 m c main_arg6 (by decide)).trans (g18_arg6 m c)
theorem g19_arg7 : X19 (F := Ideal) m c (Proc.devRef .tc main_arg7) = B7 m c :=
  (keepX19 m c main_arg7 (by decide)).trans (g18_arg7 m c)
theorem g19_arg8 : X19 (F := Ideal) m c (Proc.devRef .tc main_arg8) = B8 m c :=
  (keepX19 m c main_arg8 (by decide)).trans (g18_arg8 m c)
theorem g19_arg9 : X19 (F := Ideal) m c (Proc.devRef .tc main_arg9) = B9 m c :=
  (keepX19 m c main_arg9 (by decide)).trans (g18_arg9 m c)
theorem g19_arg10 : X19 (F := Ideal) m c (Proc.devRef .tc main_arg10) = B10 m c :=
  (keepX19 m c main_arg10 (by decide)).trans (g18_arg10 m c)
theorem g19_arg11 : X19 (F := Ideal) m c (Proc.devRef .tc main_arg11) = B11 m c :=
  (keepX19 m c main_arg11 (by decide)).trans (g18_arg11 m c)
theorem g19_arg12 : X19 (F := Ideal) m c (Proc.devRef .tc main_arg12) = B12 m c :=
  (keepX19 m c main_arg12 (by decide)).trans (g18_arg12 m c)
theorem g19_arg13 : X19 (F := Ideal) m c (Proc.devRef .tc main_arg13) = B13 m c :=
  (keepX19 m c main_arg13 (by decide)).trans (g18_arg13 m c)
theorem g19_arg14 : X19 (F := Ideal) m c (Proc.devRef .tc main_arg14) = B14 m c :=
  (keepX19 m c main_arg14 (by decide)).trans (g18_arg14 m c)
theorem g19_arg15 : X19 (F := Ideal) m c (Proc.devRef .tc main_arg15) = B15 m c :=
  (keepX19 m c main_arg15 (by decide)).trans (g18_arg15 m c)
theorem g19_arg16 : X19 (F := Ideal) m c (Proc.devRef .tc main_arg16) = B16 m c :=
  (keepX19 m c main_arg16 (by decide)).trans (g18_arg16 m c)
theorem g19_arg17 : X19 (F := Ideal) m c (Proc.devRef .tc main_arg17) = B17 m c :=
  (keepX19 m c main_arg17 (by decide)).trans (g18_arg17 m c)
theorem g19_arg18 : X19 (F := Ideal) m c (Proc.devRef .tc main_arg18) = B18 m c :=
  (keepX19 m c main_arg18 (by decide)).trans (g18_arg18 m c)
theorem g19_arg19 : X19 (F := Ideal) m c (Proc.devRef .tc main_arg19) = B19 m c :=
  (keepX19 m c main_arg19 (by decide)).trans (g18_arg19 m c)
theorem g19_arg20 : X19 (F := Ideal) m c (Proc.devRef .tc main_arg20) = B20 m c :=
  (keepX19 m c main_arg20 (by decide)).trans (g18_arg20 m c)
theorem g19_v286 : X19 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX19 m c main_v286 (by decide)).trans (g18_v286 m c)
set_option maxHeartbeats 4000000 in
theorem g19_v317 : X19 (F := Ideal) m c (Proc.devRef .tc main_v317) = Cert.ReferenceIdeal.Read.val_main_v317 (F := Ideal) (B0 m c) (B1 m c) (B2 m c) (B3 m c) (B4 m c) (B5 m c) (B6 m c) (B7 m c) (B8 m c) (B9 m c) (B10 m c) (B11 m c) (B12 m c) (B13 m c) (B14 m c) := by
  rw [X19_eq]
  after_results_simp
  all_goals (try simp only [g18_arg2 m c, g18_v301 m c, g18_arg5 m c, g18_arg6 m c])
  all_goals (try simp only [Cert.ReferenceIdeal.Read.val_main_v317, Cert.ReferenceIdeal.Read.val_main_v309, Cert.ReferenceIdeal.Read.val_main_v307, Cert.ReferenceIdeal.Read.val_main_cst_56, Cert.ReferenceIdeal.Read.val_main_v308, Cert.ReferenceIdeal.Read.val_main_v306, Cert.ReferenceIdeal.Read.val_main_v305, Cert.ReferenceIdeal.Read.val_main_v302, Cert.ReferenceIdeal.Read.val_main_v304, Cert.ReferenceIdeal.Read.val_main_v303, Cert.ReferenceIdeal.Read.val_main_call4_v0, Cert.ReferenceIdeal.Read.val_main_call4_cst, Cert.ReferenceIdeal.Read.val_main_v316, Cert.ReferenceIdeal.Read.val_main_v315, Cert.ReferenceIdeal.Read.val_main_v313, Cert.ReferenceIdeal.Read.val_main_v311, Cert.ReferenceIdeal.Read.val_main_cst_58, Cert.ReferenceIdeal.Read.val_main_v312, Cert.ReferenceIdeal.Read.val_main_v310, Cert.ReferenceIdeal.Read.val_main_cst_57, Cert.ReferenceIdeal.Read.val_main_v314, Cert.ReferenceIdeal.Read.val_main_cst_59])
  all_goals rfl
theorem g20_arg0 : X20 (F := Ideal) m c (Proc.devRef .tc main_arg0) = B0 m c :=
  (keepX20 m c main_arg0 (by decide)).trans (g19_arg0 m c)
theorem g20_arg1 : X20 (F := Ideal) m c (Proc.devRef .tc main_arg1) = B1 m c :=
  (keepX20 m c main_arg1 (by decide)).trans (g19_arg1 m c)
theorem g20_arg2 : X20 (F := Ideal) m c (Proc.devRef .tc main_arg2) = B2 m c :=
  (keepX20 m c main_arg2 (by decide)).trans (g19_arg2 m c)
theorem g20_arg3 : X20 (F := Ideal) m c (Proc.devRef .tc main_arg3) = B3 m c :=
  (keepX20 m c main_arg3 (by decide)).trans (g19_arg3 m c)
theorem g20_arg4 : X20 (F := Ideal) m c (Proc.devRef .tc main_arg4) = B4 m c :=
  (keepX20 m c main_arg4 (by decide)).trans (g19_arg4 m c)
theorem g20_arg5 : X20 (F := Ideal) m c (Proc.devRef .tc main_arg5) = B5 m c :=
  (keepX20 m c main_arg5 (by decide)).trans (g19_arg5 m c)
theorem g20_arg6 : X20 (F := Ideal) m c (Proc.devRef .tc main_arg6) = B6 m c :=
  (keepX20 m c main_arg6 (by decide)).trans (g19_arg6 m c)
theorem g20_arg7 : X20 (F := Ideal) m c (Proc.devRef .tc main_arg7) = B7 m c :=
  (keepX20 m c main_arg7 (by decide)).trans (g19_arg7 m c)
theorem g20_arg8 : X20 (F := Ideal) m c (Proc.devRef .tc main_arg8) = B8 m c :=
  (keepX20 m c main_arg8 (by decide)).trans (g19_arg8 m c)
theorem g20_arg9 : X20 (F := Ideal) m c (Proc.devRef .tc main_arg9) = B9 m c :=
  (keepX20 m c main_arg9 (by decide)).trans (g19_arg9 m c)
theorem g20_arg10 : X20 (F := Ideal) m c (Proc.devRef .tc main_arg10) = B10 m c :=
  (keepX20 m c main_arg10 (by decide)).trans (g19_arg10 m c)
theorem g20_arg11 : X20 (F := Ideal) m c (Proc.devRef .tc main_arg11) = B11 m c :=
  (keepX20 m c main_arg11 (by decide)).trans (g19_arg11 m c)
theorem g20_arg12 : X20 (F := Ideal) m c (Proc.devRef .tc main_arg12) = B12 m c :=
  (keepX20 m c main_arg12 (by decide)).trans (g19_arg12 m c)
theorem g20_arg13 : X20 (F := Ideal) m c (Proc.devRef .tc main_arg13) = B13 m c :=
  (keepX20 m c main_arg13 (by decide)).trans (g19_arg13 m c)
theorem g20_arg14 : X20 (F := Ideal) m c (Proc.devRef .tc main_arg14) = B14 m c :=
  (keepX20 m c main_arg14 (by decide)).trans (g19_arg14 m c)
theorem g20_arg15 : X20 (F := Ideal) m c (Proc.devRef .tc main_arg15) = B15 m c :=
  (keepX20 m c main_arg15 (by decide)).trans (g19_arg15 m c)
theorem g20_arg16 : X20 (F := Ideal) m c (Proc.devRef .tc main_arg16) = B16 m c :=
  (keepX20 m c main_arg16 (by decide)).trans (g19_arg16 m c)
theorem g20_arg17 : X20 (F := Ideal) m c (Proc.devRef .tc main_arg17) = B17 m c :=
  (keepX20 m c main_arg17 (by decide)).trans (g19_arg17 m c)
theorem g20_arg18 : X20 (F := Ideal) m c (Proc.devRef .tc main_arg18) = B18 m c :=
  (keepX20 m c main_arg18 (by decide)).trans (g19_arg18 m c)
theorem g20_arg19 : X20 (F := Ideal) m c (Proc.devRef .tc main_arg19) = B19 m c :=
  (keepX20 m c main_arg19 (by decide)).trans (g19_arg19 m c)
theorem g20_arg20 : X20 (F := Ideal) m c (Proc.devRef .tc main_arg20) = B20 m c :=
  (keepX20 m c main_arg20 (by decide)).trans (g19_arg20 m c)
theorem g20_v286 : X20 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX20 m c main_v286 (by decide)).trans (g19_v286 m c)
theorem g20_v317 : X20 (F := Ideal) m c (Proc.devRef .tc main_v317) = Cert.ReferenceIdeal.Read.val_main_v317 (F := Ideal) (B0 m c) (B1 m c) (B2 m c) (B3 m c) (B4 m c) (B5 m c) (B6 m c) (B7 m c) (B8 m c) (B9 m c) (B10 m c) (B11 m c) (B12 m c) (B13 m c) (B14 m c) :=
  (keepX20 m c main_v317 (by decide)).trans (g19_v317 m c)
theorem g21_arg0 : X21 (F := Ideal) m c (Proc.devRef .tc main_arg0) = B0 m c :=
  (keepX21 m c main_arg0 (by decide)).trans (g20_arg0 m c)
theorem g21_arg1 : X21 (F := Ideal) m c (Proc.devRef .tc main_arg1) = B1 m c :=
  (keepX21 m c main_arg1 (by decide)).trans (g20_arg1 m c)
theorem g21_arg2 : X21 (F := Ideal) m c (Proc.devRef .tc main_arg2) = B2 m c :=
  (keepX21 m c main_arg2 (by decide)).trans (g20_arg2 m c)
theorem g21_arg3 : X21 (F := Ideal) m c (Proc.devRef .tc main_arg3) = B3 m c :=
  (keepX21 m c main_arg3 (by decide)).trans (g20_arg3 m c)
theorem g21_arg4 : X21 (F := Ideal) m c (Proc.devRef .tc main_arg4) = B4 m c :=
  (keepX21 m c main_arg4 (by decide)).trans (g20_arg4 m c)
theorem g21_arg5 : X21 (F := Ideal) m c (Proc.devRef .tc main_arg5) = B5 m c :=
  (keepX21 m c main_arg5 (by decide)).trans (g20_arg5 m c)
theorem g21_arg6 : X21 (F := Ideal) m c (Proc.devRef .tc main_arg6) = B6 m c :=
  (keepX21 m c main_arg6 (by decide)).trans (g20_arg6 m c)
theorem g21_arg7 : X21 (F := Ideal) m c (Proc.devRef .tc main_arg7) = B7 m c :=
  (keepX21 m c main_arg7 (by decide)).trans (g20_arg7 m c)
theorem g21_arg8 : X21 (F := Ideal) m c (Proc.devRef .tc main_arg8) = B8 m c :=
  (keepX21 m c main_arg8 (by decide)).trans (g20_arg8 m c)
theorem g21_arg9 : X21 (F := Ideal) m c (Proc.devRef .tc main_arg9) = B9 m c :=
  (keepX21 m c main_arg9 (by decide)).trans (g20_arg9 m c)
theorem g21_arg10 : X21 (F := Ideal) m c (Proc.devRef .tc main_arg10) = B10 m c :=
  (keepX21 m c main_arg10 (by decide)).trans (g20_arg10 m c)
theorem g21_arg11 : X21 (F := Ideal) m c (Proc.devRef .tc main_arg11) = B11 m c :=
  (keepX21 m c main_arg11 (by decide)).trans (g20_arg11 m c)
theorem g21_arg12 : X21 (F := Ideal) m c (Proc.devRef .tc main_arg12) = B12 m c :=
  (keepX21 m c main_arg12 (by decide)).trans (g20_arg12 m c)
theorem g21_arg13 : X21 (F := Ideal) m c (Proc.devRef .tc main_arg13) = B13 m c :=
  (keepX21 m c main_arg13 (by decide)).trans (g20_arg13 m c)
theorem g21_arg14 : X21 (F := Ideal) m c (Proc.devRef .tc main_arg14) = B14 m c :=
  (keepX21 m c main_arg14 (by decide)).trans (g20_arg14 m c)
theorem g21_arg15 : X21 (F := Ideal) m c (Proc.devRef .tc main_arg15) = B15 m c :=
  (keepX21 m c main_arg15 (by decide)).trans (g20_arg15 m c)
theorem g21_arg16 : X21 (F := Ideal) m c (Proc.devRef .tc main_arg16) = B16 m c :=
  (keepX21 m c main_arg16 (by decide)).trans (g20_arg16 m c)
theorem g21_arg17 : X21 (F := Ideal) m c (Proc.devRef .tc main_arg17) = B17 m c :=
  (keepX21 m c main_arg17 (by decide)).trans (g20_arg17 m c)
theorem g21_arg18 : X21 (F := Ideal) m c (Proc.devRef .tc main_arg18) = B18 m c :=
  (keepX21 m c main_arg18 (by decide)).trans (g20_arg18 m c)
theorem g21_arg19 : X21 (F := Ideal) m c (Proc.devRef .tc main_arg19) = B19 m c :=
  (keepX21 m c main_arg19 (by decide)).trans (g20_arg19 m c)
theorem g21_arg20 : X21 (F := Ideal) m c (Proc.devRef .tc main_arg20) = B20 m c :=
  (keepX21 m c main_arg20 (by decide)).trans (g20_arg20 m c)
theorem g21_v286 : X21 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX21 m c main_v286 (by decide)).trans (g20_v286 m c)
theorem g21_v317 : X21 (F := Ideal) m c (Proc.devRef .tc main_v317) = Cert.ReferenceIdeal.Read.val_main_v317 (F := Ideal) (B0 m c) (B1 m c) (B2 m c) (B3 m c) (B4 m c) (B5 m c) (B6 m c) (B7 m c) (B8 m c) (B9 m c) (B10 m c) (B11 m c) (B12 m c) (B13 m c) (B14 m c) :=
  (keepX21 m c main_v317 (by decide)).trans (g20_v317 m c)
theorem g22_arg0 : X22 (F := Ideal) m c (Proc.devRef .tc main_arg0) = B0 m c :=
  (keepX22 m c main_arg0 (by decide)).trans (g21_arg0 m c)
theorem g22_arg1 : X22 (F := Ideal) m c (Proc.devRef .tc main_arg1) = B1 m c :=
  (keepX22 m c main_arg1 (by decide)).trans (g21_arg1 m c)
theorem g22_arg2 : X22 (F := Ideal) m c (Proc.devRef .tc main_arg2) = B2 m c :=
  (keepX22 m c main_arg2 (by decide)).trans (g21_arg2 m c)
theorem g22_arg3 : X22 (F := Ideal) m c (Proc.devRef .tc main_arg3) = B3 m c :=
  (keepX22 m c main_arg3 (by decide)).trans (g21_arg3 m c)
theorem g22_arg4 : X22 (F := Ideal) m c (Proc.devRef .tc main_arg4) = B4 m c :=
  (keepX22 m c main_arg4 (by decide)).trans (g21_arg4 m c)
theorem g22_arg5 : X22 (F := Ideal) m c (Proc.devRef .tc main_arg5) = B5 m c :=
  (keepX22 m c main_arg5 (by decide)).trans (g21_arg5 m c)
theorem g22_arg6 : X22 (F := Ideal) m c (Proc.devRef .tc main_arg6) = B6 m c :=
  (keepX22 m c main_arg6 (by decide)).trans (g21_arg6 m c)
theorem g22_arg7 : X22 (F := Ideal) m c (Proc.devRef .tc main_arg7) = B7 m c :=
  (keepX22 m c main_arg7 (by decide)).trans (g21_arg7 m c)
theorem g22_arg8 : X22 (F := Ideal) m c (Proc.devRef .tc main_arg8) = B8 m c :=
  (keepX22 m c main_arg8 (by decide)).trans (g21_arg8 m c)
theorem g22_arg9 : X22 (F := Ideal) m c (Proc.devRef .tc main_arg9) = B9 m c :=
  (keepX22 m c main_arg9 (by decide)).trans (g21_arg9 m c)
theorem g22_arg10 : X22 (F := Ideal) m c (Proc.devRef .tc main_arg10) = B10 m c :=
  (keepX22 m c main_arg10 (by decide)).trans (g21_arg10 m c)
theorem g22_arg11 : X22 (F := Ideal) m c (Proc.devRef .tc main_arg11) = B11 m c :=
  (keepX22 m c main_arg11 (by decide)).trans (g21_arg11 m c)
theorem g22_arg12 : X22 (F := Ideal) m c (Proc.devRef .tc main_arg12) = B12 m c :=
  (keepX22 m c main_arg12 (by decide)).trans (g21_arg12 m c)
theorem g22_arg13 : X22 (F := Ideal) m c (Proc.devRef .tc main_arg13) = B13 m c :=
  (keepX22 m c main_arg13 (by decide)).trans (g21_arg13 m c)
theorem g22_arg14 : X22 (F := Ideal) m c (Proc.devRef .tc main_arg14) = B14 m c :=
  (keepX22 m c main_arg14 (by decide)).trans (g21_arg14 m c)
theorem g22_arg15 : X22 (F := Ideal) m c (Proc.devRef .tc main_arg15) = B15 m c :=
  (keepX22 m c main_arg15 (by decide)).trans (g21_arg15 m c)
theorem g22_arg16 : X22 (F := Ideal) m c (Proc.devRef .tc main_arg16) = B16 m c :=
  (keepX22 m c main_arg16 (by decide)).trans (g21_arg16 m c)
theorem g22_arg17 : X22 (F := Ideal) m c (Proc.devRef .tc main_arg17) = B17 m c :=
  (keepX22 m c main_arg17 (by decide)).trans (g21_arg17 m c)
theorem g22_arg18 : X22 (F := Ideal) m c (Proc.devRef .tc main_arg18) = B18 m c :=
  (keepX22 m c main_arg18 (by decide)).trans (g21_arg18 m c)
theorem g22_arg19 : X22 (F := Ideal) m c (Proc.devRef .tc main_arg19) = B19 m c :=
  (keepX22 m c main_arg19 (by decide)).trans (g21_arg19 m c)
theorem g22_arg20 : X22 (F := Ideal) m c (Proc.devRef .tc main_arg20) = B20 m c :=
  (keepX22 m c main_arg20 (by decide)).trans (g21_arg20 m c)
theorem g22_v286 : X22 (F := Ideal) m c (Proc.devRef .tc main_v286) = Cert.ReferenceIdeal.Read.val_main_v286 (F := Ideal) (B0 m c) (B1 m c) (B2 m c) (B3 m c) (B4 m c) (B5 m c) (B6 m c) (B7 m c) (B8 m c) (B9 m c) (B10 m c) (B11 m c) (B12 m c) (B13 m c) (B14 m c) :=
  (keepX22 m c main_v286 (by decide)).trans (g21_v286 m c)
set_option maxHeartbeats 4000000 in
theorem g22_v400 : X22 (F := Ideal) m c (Proc.devRef .tc main_v400) = Cert.ReferenceIdeal.Read.val_main_v400 (F := Ideal) (B0 m c) (B1 m c) (B2 m c) (B3 m c) (B4 m c) (B5 m c) (B6 m c) (B7 m c) (B8 m c) (B9 m c) (B10 m c) (B11 m c) (B12 m c) (B13 m c) (B14 m c) := by
  rw [X22_eq]
  after_results_simp
  all_goals (try simp only [g21_v286 m c, g21_arg13 m c, g21_arg14 m c])
  all_goals (try simp only [Cert.ReferenceIdeal.Read.val_main_v400, Cert.ReferenceIdeal.Read.val_main_v395, Cert.ReferenceIdeal.Read.val_main_v399, Cert.ReferenceIdeal.Read.val_main_v398, Cert.ReferenceIdeal.Read.val_main_v397, Cert.ReferenceIdeal.Read.val_main_v396])
  all_goals rfl
set_option maxHeartbeats 4000000 in
theorem g22_v401 : X22 (F := Ideal) m c (Proc.devRef .tc main_v401) = Cert.ReferenceIdeal.Read.val_main_v401 (F := Ideal) (B0 m c) (B1 m c) (B2 m c) (B3 m c) (B4 m c) (B5 m c) (B6 m c) (B7 m c) (B8 m c) (B9 m c) (B10 m c) (B11 m c) (B12 m c) (B13 m c) (B14 m c) := by
  rw [X22_eq]
  after_results_simp
  all_goals (try simp only [g21_v317 m c, g21_arg12 m c, g21_arg14 m c])
  all_goals (try simp only [Cert.ReferenceIdeal.Read.val_main_v401, Cert.ReferenceIdeal.Read.val_main_v394, Cert.ReferenceIdeal.Read.val_main_v389, Cert.ReferenceIdeal.Read.val_main_v393, Cert.ReferenceIdeal.Read.val_main_v392, Cert.ReferenceIdeal.Read.val_main_v391, Cert.ReferenceIdeal.Read.val_main_v390])
  all_goals rfl
set_option maxHeartbeats 4000000 in
theorem g22_v402 : X22 (F := Ideal) m c (Proc.devRef .tc main_v402) = Cert.ReferenceIdeal.Read.val_main_v402 (F := Ideal) (B0 m c) (B1 m c) (B2 m c) (B3 m c) (B4 m c) (B5 m c) (B6 m c) (B7 m c) (B8 m c) (B9 m c) (B10 m c) (B11 m c) (B12 m c) (B13 m c) (B14 m c) := by
  rw [X22_eq]
  after_results_simp
  all_goals (try simp only [g21_v317 m c, g21_arg12 m c, g21_arg14 m c])
  all_goals (try simp only [Cert.ReferenceIdeal.Read.val_main_v402, Cert.ReferenceIdeal.Read.val_main_v394, Cert.ReferenceIdeal.Read.val_main_v389, Cert.ReferenceIdeal.Read.val_main_v393, Cert.ReferenceIdeal.Read.val_main_v392, Cert.ReferenceIdeal.Read.val_main_v391, Cert.ReferenceIdeal.Read.val_main_v390])
  all_goals rfl
set_option maxHeartbeats 4000000 in
theorem g22_v403 : X22 (F := Ideal) m c (Proc.devRef .tc main_v403) = Cert.ReferenceIdeal.Read.val_main_v403 (F := Ideal) (B0 m c) (B1 m c) (B2 m c) (B3 m c) (B4 m c) (B5 m c) (B6 m c) (B7 m c) (B8 m c) (B9 m c) (B10 m c) (B11 m c) (B12 m c) (B13 m c) (B14 m c) := by
  rw [X22_eq]
  after_results_simp
  all_goals (try simp only [g21_v317 m c, g21_arg12 m c, g21_arg14 m c])
  all_goals (try simp only [Cert.ReferenceIdeal.Read.val_main_v403, Cert.ReferenceIdeal.Read.val_main_v394, Cert.ReferenceIdeal.Read.val_main_v389, Cert.ReferenceIdeal.Read.val_main_v393, Cert.ReferenceIdeal.Read.val_main_v392, Cert.ReferenceIdeal.Read.val_main_v391, Cert.ReferenceIdeal.Read.val_main_v390])
  all_goals rfl
set_option maxHeartbeats 4000000 in
theorem g22_v404 : X22 (F := Ideal) m c (Proc.devRef .tc main_v404) = Cert.ReferenceIdeal.Read.val_main_v404 (F := Ideal) (B0 m c) (B1 m c) (B2 m c) (B3 m c) (B4 m c) (B5 m c) (B6 m c) (B7 m c) (B8 m c) (B9 m c) (B10 m c) (B11 m c) (B12 m c) (B13 m c) (B14 m c) := by
  rw [X22_eq]
  after_results_simp
  all_goals (try simp only [g21_v286 m c, g21_arg13 m c, g21_arg14 m c])
  all_goals (try simp only [Cert.ReferenceIdeal.Read.val_main_v404, Cert.ReferenceIdeal.Read.val_main_v400, Cert.ReferenceIdeal.Read.val_main_v395, Cert.ReferenceIdeal.Read.val_main_v399, Cert.ReferenceIdeal.Read.val_main_v398, Cert.ReferenceIdeal.Read.val_main_v397, Cert.ReferenceIdeal.Read.val_main_v396])
  all_goals rfl
theorem g23_arg0 : X23 (F := Ideal) m c (Proc.devRef .tc main_arg0) = B0 m c :=
  (keepX23 m c main_arg0 (by decide)).trans (g22_arg0 m c)
theorem g23_arg1 : X23 (F := Ideal) m c (Proc.devRef .tc main_arg1) = B1 m c :=
  (keepX23 m c main_arg1 (by decide)).trans (g22_arg1 m c)
theorem g23_arg2 : X23 (F := Ideal) m c (Proc.devRef .tc main_arg2) = B2 m c :=
  (keepX23 m c main_arg2 (by decide)).trans (g22_arg2 m c)
theorem g23_arg3 : X23 (F := Ideal) m c (Proc.devRef .tc main_arg3) = B3 m c :=
  (keepX23 m c main_arg3 (by decide)).trans (g22_arg3 m c)
theorem g23_arg4 : X23 (F := Ideal) m c (Proc.devRef .tc main_arg4) = B4 m c :=
  (keepX23 m c main_arg4 (by decide)).trans (g22_arg4 m c)
theorem g23_arg5 : X23 (F := Ideal) m c (Proc.devRef .tc main_arg5) = B5 m c :=
  (keepX23 m c main_arg5 (by decide)).trans (g22_arg5 m c)
theorem g23_arg6 : X23 (F := Ideal) m c (Proc.devRef .tc main_arg6) = B6 m c :=
  (keepX23 m c main_arg6 (by decide)).trans (g22_arg6 m c)
theorem g23_arg7 : X23 (F := Ideal) m c (Proc.devRef .tc main_arg7) = B7 m c :=
  (keepX23 m c main_arg7 (by decide)).trans (g22_arg7 m c)
theorem g23_arg8 : X23 (F := Ideal) m c (Proc.devRef .tc main_arg8) = B8 m c :=
  (keepX23 m c main_arg8 (by decide)).trans (g22_arg8 m c)
theorem g23_arg9 : X23 (F := Ideal) m c (Proc.devRef .tc main_arg9) = B9 m c :=
  (keepX23 m c main_arg9 (by decide)).trans (g22_arg9 m c)
theorem g23_arg10 : X23 (F := Ideal) m c (Proc.devRef .tc main_arg10) = B10 m c :=
  (keepX23 m c main_arg10 (by decide)).trans (g22_arg10 m c)
theorem g23_arg11 : X23 (F := Ideal) m c (Proc.devRef .tc main_arg11) = B11 m c :=
  (keepX23 m c main_arg11 (by decide)).trans (g22_arg11 m c)
theorem g23_arg12 : X23 (F := Ideal) m c (Proc.devRef .tc main_arg12) = B12 m c :=
  (keepX23 m c main_arg12 (by decide)).trans (g22_arg12 m c)
theorem g23_arg13 : X23 (F := Ideal) m c (Proc.devRef .tc main_arg13) = B13 m c :=
  (keepX23 m c main_arg13 (by decide)).trans (g22_arg13 m c)
theorem g23_arg14 : X23 (F := Ideal) m c (Proc.devRef .tc main_arg14) = B14 m c :=
  (keepX23 m c main_arg14 (by decide)).trans (g22_arg14 m c)
theorem g23_arg15 : X23 (F := Ideal) m c (Proc.devRef .tc main_arg15) = B15 m c :=
  (keepX23 m c main_arg15 (by decide)).trans (g22_arg15 m c)
theorem g23_arg16 : X23 (F := Ideal) m c (Proc.devRef .tc main_arg16) = B16 m c :=
  (keepX23 m c main_arg16 (by decide)).trans (g22_arg16 m c)
theorem g23_arg17 : X23 (F := Ideal) m c (Proc.devRef .tc main_arg17) = B17 m c :=
  (keepX23 m c main_arg17 (by decide)).trans (g22_arg17 m c)
theorem g23_arg18 : X23 (F := Ideal) m c (Proc.devRef .tc main_arg18) = B18 m c :=
  (keepX23 m c main_arg18 (by decide)).trans (g22_arg18 m c)
theorem g23_arg19 : X23 (F := Ideal) m c (Proc.devRef .tc main_arg19) = B19 m c :=
  (keepX23 m c main_arg19 (by decide)).trans (g22_arg19 m c)
theorem g23_arg20 : X23 (F := Ideal) m c (Proc.devRef .tc main_arg20) = B20 m c :=
  (keepX23 m c main_arg20 (by decide)).trans (g22_arg20 m c)
set_option maxHeartbeats 4000000 in
theorem g23_v428 : X23 (F := Ideal) m c (Proc.devRef .tc main_v428) = Cert.ReferenceIdeal.Read.val_main_v428 (F := Ideal) (B0 m c) (B1 m c) (B2 m c) (B3 m c) (B4 m c) (B5 m c) (B6 m c) (B7 m c) (B8 m c) (B9 m c) (B10 m c) (B11 m c) (B12 m c) (B13 m c) (B14 m c) := by
  rw [X23_eq]
  after_results_simp
  all_goals (try simp only [g22_v401 m c, g22_v404 m c, g22_v286 m c, g22_v403 m c, g22_v402 m c, g22_v400 m c])
  all_goals (try simp only [Cert.ReferenceIdeal.Read.val_main_v428, Cert.ReferenceIdeal.Read.val_main_v424, Cert.ReferenceIdeal.Read.val_main_v413, Cert.ReferenceIdeal.Read.val_main_v412, Cert.ReferenceIdeal.Read.val_main_cst_74, Cert.ReferenceIdeal.Read.val_main_v411, Cert.ReferenceIdeal.Read.val_main_v410, Cert.ReferenceIdeal.Read.val_main_cst_73, Cert.ReferenceIdeal.Read.val_main_v409, Cert.ReferenceIdeal.Read.val_main_v408, Cert.ReferenceIdeal.Read.val_main_v407, Cert.ReferenceIdeal.Read.val_main_v427, Cert.ReferenceIdeal.Read.val_main_v426, Cert.ReferenceIdeal.Read.val_main_v425, Cert.ReferenceIdeal.Read.val_main_cst_77, Cert.ReferenceIdeal.Read.val_main_v423, Cert.ReferenceIdeal.Read.val_main_v422, Cert.ReferenceIdeal.Read.val_main_v421, Cert.ReferenceIdeal.Read.val_main_v420, Cert.ReferenceIdeal.Read.val_main_v419, Cert.ReferenceIdeal.Read.val_main_cst_76, Cert.ReferenceIdeal.Read.val_main_v418, Cert.ReferenceIdeal.Read.val_main_v417, Cert.ReferenceIdeal.Read.val_main_cst_75, Cert.ReferenceIdeal.Read.val_main_v416, Cert.ReferenceIdeal.Read.val_main_v415, Cert.ReferenceIdeal.Read.val_main_v414, Cert.ReferenceIdeal.Read.val_main_v405, Cert.ReferenceIdeal.Read.val_main_v406])
  all_goals rfl
theorem g24_arg0 : X24 (F := Ideal) m c (Proc.devRef .tc main_arg0) = B0 m c :=
  (keepX24 m c main_arg0 (by decide)).trans (g23_arg0 m c)
theorem g24_arg1 : X24 (F := Ideal) m c (Proc.devRef .tc main_arg1) = B1 m c :=
  (keepX24 m c main_arg1 (by decide)).trans (g23_arg1 m c)
theorem g24_arg2 : X24 (F := Ideal) m c (Proc.devRef .tc main_arg2) = B2 m c :=
  (keepX24 m c main_arg2 (by decide)).trans (g23_arg2 m c)
theorem g24_arg3 : X24 (F := Ideal) m c (Proc.devRef .tc main_arg3) = B3 m c :=
  (keepX24 m c main_arg3 (by decide)).trans (g23_arg3 m c)
theorem g24_arg4 : X24 (F := Ideal) m c (Proc.devRef .tc main_arg4) = B4 m c :=
  (keepX24 m c main_arg4 (by decide)).trans (g23_arg4 m c)
theorem g24_arg5 : X24 (F := Ideal) m c (Proc.devRef .tc main_arg5) = B5 m c :=
  (keepX24 m c main_arg5 (by decide)).trans (g23_arg5 m c)
theorem g24_arg6 : X24 (F := Ideal) m c (Proc.devRef .tc main_arg6) = B6 m c :=
  (keepX24 m c main_arg6 (by decide)).trans (g23_arg6 m c)
theorem g24_arg7 : X24 (F := Ideal) m c (Proc.devRef .tc main_arg7) = B7 m c :=
  (keepX24 m c main_arg7 (by decide)).trans (g23_arg7 m c)
theorem g24_arg8 : X24 (F := Ideal) m c (Proc.devRef .tc main_arg8) = B8 m c :=
  (keepX24 m c main_arg8 (by decide)).trans (g23_arg8 m c)
theorem g24_arg9 : X24 (F := Ideal) m c (Proc.devRef .tc main_arg9) = B9 m c :=
  (keepX24 m c main_arg9 (by decide)).trans (g23_arg9 m c)
theorem g24_arg10 : X24 (F := Ideal) m c (Proc.devRef .tc main_arg10) = B10 m c :=
  (keepX24 m c main_arg10 (by decide)).trans (g23_arg10 m c)
theorem g24_arg11 : X24 (F := Ideal) m c (Proc.devRef .tc main_arg11) = B11 m c :=
  (keepX24 m c main_arg11 (by decide)).trans (g23_arg11 m c)
theorem g24_arg12 : X24 (F := Ideal) m c (Proc.devRef .tc main_arg12) = B12 m c :=
  (keepX24 m c main_arg12 (by decide)).trans (g23_arg12 m c)
theorem g24_arg13 : X24 (F := Ideal) m c (Proc.devRef .tc main_arg13) = B13 m c :=
  (keepX24 m c main_arg13 (by decide)).trans (g23_arg13 m c)
theorem g24_arg14 : X24 (F := Ideal) m c (Proc.devRef .tc main_arg14) = B14 m c :=
  (keepX24 m c main_arg14 (by decide)).trans (g23_arg14 m c)
theorem g24_arg15 : X24 (F := Ideal) m c (Proc.devRef .tc main_arg15) = B15 m c :=
  (keepX24 m c main_arg15 (by decide)).trans (g23_arg15 m c)
theorem g24_arg16 : X24 (F := Ideal) m c (Proc.devRef .tc main_arg16) = B16 m c :=
  (keepX24 m c main_arg16 (by decide)).trans (g23_arg16 m c)
theorem g24_arg17 : X24 (F := Ideal) m c (Proc.devRef .tc main_arg17) = B17 m c :=
  (keepX24 m c main_arg17 (by decide)).trans (g23_arg17 m c)
theorem g24_arg18 : X24 (F := Ideal) m c (Proc.devRef .tc main_arg18) = B18 m c :=
  (keepX24 m c main_arg18 (by decide)).trans (g23_arg18 m c)
theorem g24_arg19 : X24 (F := Ideal) m c (Proc.devRef .tc main_arg19) = B19 m c :=
  (keepX24 m c main_arg19 (by decide)).trans (g23_arg19 m c)
theorem g24_arg20 : X24 (F := Ideal) m c (Proc.devRef .tc main_arg20) = B20 m c :=
  (keepX24 m c main_arg20 (by decide)).trans (g23_arg20 m c)
set_option maxHeartbeats 4000000 in
theorem g24_v453 : X24 (F := Ideal) m c (Proc.devRef .tc main_v453) = Cert.ReferenceIdeal.Read.val_main_v453 (F := Ideal) (B0 m c) (B1 m c) (B2 m c) (B3 m c) (B4 m c) (B5 m c) (B6 m c) (B7 m c) (B8 m c) (B9 m c) (B10 m c) (B11 m c) (B12 m c) (B13 m c) (B14 m c) (B15 m c) (B16 m c) (B17 m c) (B18 m c) (B19 m c) (B20 m c) := by
  rw [X24_eq]
  after_results_simp
  all_goals (try simp only [g23_v428 m c, g23_arg15 m c, g23_arg16 m c, g23_arg17 m c, g23_arg18 m c, g23_arg19 m c, g23_arg20 m c])
  all_goals (try simp only [Cert.ReferenceIdeal.Read.val_main_v453, Cert.ReferenceIdeal.Read.val_main_v449, Cert.ReferenceIdeal.Read.val_main_v448, Cert.ReferenceIdeal.Read.val_main_v442, Cert.ReferenceIdeal.Read.val_main_v439, Cert.ReferenceIdeal.Read.val_main_v438, Cert.ReferenceIdeal.Read.val_main_v437, Cert.ReferenceIdeal.Read.val_main_v434, Cert.ReferenceIdeal.Read.val_main_v433, Cert.ReferenceIdeal.Read.val_main_v432, Cert.ReferenceIdeal.Read.val_main_v429, Cert.ReferenceIdeal.Read.val_main_v431, Cert.ReferenceIdeal.Read.val_main_v430, Cert.ReferenceIdeal.Read.val_main_call6_v0, Cert.ReferenceIdeal.Read.val_main_call6_cst, Cert.ReferenceIdeal.Read.val_main_v436, Cert.ReferenceIdeal.Read.val_main_v435, Cert.ReferenceIdeal.Read.val_main_call7_v0, Cert.ReferenceIdeal.Read.val_main_call7_cst, Cert.ReferenceIdeal.Read.val_main_v441, Cert.ReferenceIdeal.Read.val_main_v440, Cert.ReferenceIdeal.Read.val_main_v447, Cert.ReferenceIdeal.Read.val_main_v446, Cert.ReferenceIdeal.Read.val_main_v445, Cert.ReferenceIdeal.Read.val_main_v444, Cert.ReferenceIdeal.Read.val_main_cst_79, Cert.ReferenceIdeal.Read.val_main_v443, Cert.ReferenceIdeal.Read.val_main_cst_78, Cert.ReferenceIdeal.Read.val_main_v452, Cert.ReferenceIdeal.Read.val_main_v451, Cert.ReferenceIdeal.Read.val_main_v450, Cert.ReferenceIdeal.Read.val_main_cst_80])
  all_goals rfl

end Cert.ReferenceIdeal.Fold

end
-- ==== Proof.RefRun.lean ====
/-
  The reference program's run, read back: every weakly fair execution terminates without a fault, with the result buffer at
  the last stage of the arguments (the operations' composition, as the stage definitions spell it) and every argument array
  as launched.
-/
import proofs.«154953_j22007412425053_2_alg».proof.Proof.RefMain
import proofs.«154953_j22007412425053_2_alg».proof.Proof.RefFoldD

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

/-- The reference's result as a function of the launch memory: the last stage of the argument arrays. -/
abbrev result (m : (ℓ : Loc nD τ sig) → Buf (Elt Ideal) ℓ) (c : Dev nD) : Buf (Elt Ideal) ((c.tc : Thread nD τ).loc main_v453) :=
  Cert.ReferenceIdeal.Read.val_main_v453 (F := Ideal) (B0 m c) (B1 m c) (B2 m c) (B3 m c) (B4 m c) (B5 m c) (B6 m c) (B7 m c) (B8 m c) (B9 m c) (B10 m c) (B11 m c) (B12 m c) (B13 m c) (B14 m c) (B15 m c) (B16 m c) (B17 m c) (B18 m c) (B19 m c) (B20 m c)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v453) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v453).trans (g24_v453 m c),
      (h c main_arg0).trans (g24_arg0 m c),
      (h c main_arg1).trans (g24_arg1 m c),
      (h c main_arg2).trans (g24_arg2 m c),
      (h c main_arg3).trans (g24_arg3 m c),
      (h c main_arg4).trans (g24_arg4 m c),
      (h c main_arg5).trans (g24_arg5 m c),
      (h c main_arg6).trans (g24_arg6 m c),
      (h c main_arg7).trans (g24_arg7 m c),
      (h c main_arg8).trans (g24_arg8 m c),
      (h c main_arg9).trans (g24_arg9 m c),
      (h c main_arg10).trans (g24_arg10 m c),
      (h c main_arg11).trans (g24_arg11 m c),
      (h c main_arg12).trans (g24_arg12 m c),
      (h c main_arg13).trans (g24_arg13 m c),
      (h c main_arg14).trans (g24_arg14 m c),
      (h c main_arg15).trans (g24_arg15 m c),
      (h c main_arg16).trans (g24_arg16 m c),
      (h c main_arg17).trans (g24_arg17 m c),
      (h c main_arg18).trans (g24_arg18 m c),
      (h c main_arg19).trans (g24_arg19 m c),
      (h c main_arg20).trans (g24_arg20 m c)⟩)
    (run_fold (F := Ideal) m ρ)

end Cert.ReferenceIdeal.Fold

end
-- ==== Proof.KRun.lean ====
/-
  The idealized kernel's run with its RESULT kept. The program is thirteen kernel launches among stretches of host
  operations; the buffer contents at the boundaries form a fold from the launch memory: a stretch applies its
  operations, a launch replaces its arrays by what its write-backs leave. Every weakly fair execution terminates
  without a fault in a state whose unscoped buffers hold the fold's last stage; read at the result buffer that is
  the array this module names, and read at an argument it is the launch contents. The statement is the several-launch
  theorem of the pipeline library applied to the program's segments (their per-launch data are the generated ones);
  only the last step differs from the frame claim: it also reads the result buffer off the final thread state.
-/
import proofs.«154953_j22007412425053_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; in the final state the result
    buffer holds the last boundary's contents there, and every argument array is as launched. -/
theorem run_result : θ_run defs (onTc (τ := τ) (main (F := F))) ⟨m, fun _ => 0, ρ⟩ (fun r => ∀ c : Dev nD,
      r.2.mem ((c.tc : Thread nD τ).loc main_v187) = W26 m ρ c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v187 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c),
       (h c _ (mem_uc main_arg17 (by decide))).trans (W26_main_arg17 m ρ c),
       (h c _ (mem_uc main_arg18 (by decide))).trans (W26_main_arg18 m ρ c),
       (h c _ (mem_uc main_arg19 (by decide))).trans (W26_main_arg19 m ρ c),
       (h c _ (mem_uc main_arg20 (by decide))).trans (W26_main_arg20 m ρ c)⟩)

end Cert.KernelIdeal.Gen

end
-- ==== Proof.Keep.lean ====
/-
  Which buffers each stretch of host operations writes, and that every other buffer keeps its contents across the
  stretch: the contents after a stretch at a reference outside the stretch's list of results are the contents before it.
  (A kernel launch changes only its own window arrays; that is stated with the launch's data.)
-/
import proofs.«154953_j22007412425053_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The results of the operations of stretch 0, in order. -/
abbrev wr0 : List (Ref sig .tc) := [main_cst, main_v0, main_cst_0, main_v1, main_v2, main_v3, main_v4, main_v5, main_v6, main_cst_1, main_v7, main_cst_2, main_v8, main_v9, main_v10, main_cst_3, main_v11, main_v12, main_cst_4, main_v13, main_v14, main_cst_5, main_v15, main_v16, main_v17, main_cst_6, main_v18, main_v19, main_cst_7, main_v20, main_v21, main_v22, main_v23, main_c, main_v24, main_v25, main_c_8, main_v26, main_v27, main_v28, main_v29, main_v30, main_c_9, main_v31, main_v32, main_c_10, main_v33, main_v34, main_v35, main_v36, main_v37, main_v38]
theorem wr0_sub : (hostOps0 : List (HloOp τ sig (Elt F))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 0 does not write holds after it what it held before. -/
theorem keepH0 (c : Dev nD) (r : Ref sig .tc) (h : r ∉ wr0) :
    W1 m ρ c (Proc.devRef .tc r) = W0 m ρ c (Proc.devRef .tc r) :=
  StableHlo.after_of_writes_sub hostOps0 _ wr0_sub h

/-- The results of the operations of stretch 1, in order. -/
abbrev wr1 : List (Ref sig .tc) := [main_cst_11, main_v40, main_v41, main_v42, main_c_12, main_v43, main_v44, main_c_13, main_v45, main_v46, main_v47, main_v48, main_v49, main_c_14, main_v50, main_v51, main_c_15, main_v52, main_v53, main_v54, main_v55, main_v56, main_v57]
theorem wr1_sub : (hostOps1 : List (HloOp τ sig (Elt F))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 1 does not write holds after it what it held before. -/
theorem keepH1 (c : Dev nD) (r : Ref sig .tc) (h : r ∉ wr1) :
    W3 m ρ c (Proc.devRef .tc r) = W2 m ρ c (Proc.devRef .tc r) :=
  StableHlo.after_of_writes_sub hostOps1 _ wr1_sub h

/-- The results of the operations of stretch 2, in order. -/
abbrev wr2 : List (Ref sig .tc) := [main_cst_16, main_v59, main_v60, main_v61, main_v62, main_v63, main_v64, main_v65, main_v66, main_v67]
theorem wr2_sub : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 2 does not write holds after it what it held before. -/
theorem keepH2 (c : Dev nD) (r : Ref sig .tc) (h : r ∉ wr2) :
    W5 m ρ c (Proc.devRef .tc r) = W4 m ρ c (Proc.devRef .tc r) :=
  StableHlo.after_of_writes_sub hostOps2 _ wr2_sub h

/-- The results of the operations of stretch 3, in order. -/
abbrev wr3 : List (Ref sig .tc) := [main_v69, main_v70, main_v71, main_v72, main_v73, main_v74]
theorem wr3_sub : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 3 does not write holds after it what it held before. -/
theorem keepH3 (c : Dev nD) (r : Ref sig .tc) (h : r ∉ wr3) :
    W7 m ρ c (Proc.devRef .tc r) = W6 m ρ c (Proc.devRef .tc r) :=
  StableHlo.after_of_writes_sub hostOps3 _ wr3_sub h

/-- The results of the operations of stretch 4, in order. -/
abbrev wr4 : List (Ref sig .tc) := [main_v76, main_v77, main_c_17, main_v78, main_v79, main_c_18, main_v80, main_v81, main_v82, main_v83, main_v84, main_c_19, main_v85, main_v86, main_c_20, main_v87, main_v88, main_v89, main_v90, main_v91, main_v92]
theorem wr4_sub : (hostOps4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 4 does not write holds after it what it held before. -/
theorem keepH4 (c : Dev nD) (r : Ref sig .tc) (h : r ∉ wr4) :
    W9 m ρ c (Proc.devRef .tc r) = W8 m ρ c (Proc.devRef .tc r) :=
  StableHlo.after_of_writes_sub hostOps4 _ wr4_sub h

/-- The results of the operations of stretch 5, in order. -/
abbrev wr5 : List (Ref sig .tc) := [main_cst_21, main_v94, main_v95, main_v96, main_c_22, main_v97, main_v98, main_c_23, main_v99, main_v100, main_v101, main_v102, main_v103, main_c_24, main_v104, main_v105, main_c_25, main_v106, main_v107, main_v108, main_v109, main_v110, main_v111]
theorem wr5_sub : (hostOps5 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 5 does not write holds after it what it held before. -/
theorem keepH5 (c : Dev nD) (r : Ref sig .tc) (h : r ∉ wr5) :
    W11 m ρ c (Proc.devRef .tc r) = W10 m ρ c (Proc.devRef .tc r) :=
  StableHlo.after_of_writes_sub hostOps5 _ wr5_sub h

/-- The results of the operations of stretch 6, in order. -/
abbrev wr6 : List (Ref sig .tc) := [main_cst_26, main_v113, main_v114, main_v115, main_v116, main_v117, main_v118, main_v119, main_v120, main_v121]
theorem wr6_sub : (hostOps6 : List (HloOp τ sig (Elt F))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 6 does not write holds after it what it held before. -/
theorem keepH6 (c : Dev nD) (r : Ref sig .tc) (h : r ∉ wr6) :
    W13 m ρ c (Proc.devRef .tc r) = W12 m ρ c (Proc.devRef .tc r) :=
  StableHlo.after_of_writes_sub hostOps6 _ wr6_sub h

/-- The results of the operations of stretch 7, in order. -/
abbrev wr7 : List (Ref sig .tc) := [main_v123, main_v124, main_v125, main_v126, main_v127, main_v128]
theorem wr7_sub : (hostOps7 : List (HloOp τ sig (Elt F))).Forall fun op => op.writes ⊆ (wr7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 7 does not write holds after it what it held before. -/
theorem keepH7 (c : Dev nD) (r : Ref sig .tc) (h : r ∉ wr7) :
    W15 m ρ c (Proc.devRef .tc r) = W14 m ρ c (Proc.devRef .tc r) :=
  StableHlo.after_of_writes_sub hostOps7 _ wr7_sub h

/-- The results of the operations of stretch 8, in order. -/
abbrev wr8 : List (Ref sig .tc) := [main_v130, main_v131, main_c_27, main_v132, main_v133, main_c_28, main_v134, main_v135, main_v136, main_v137, main_v138, main_c_29, main_v139, main_v140, main_c_30, main_v141, main_v142, main_v143, main_v144, main_v145, main_v146]
theorem wr8_sub : (hostOps8 : List (HloOp τ sig (Elt F))).Forall fun op => op.writes ⊆ (wr8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 8 does not write holds after it what it held before. -/
theorem keepH8 (c : Dev nD) (r : Ref sig .tc) (h : r ∉ wr8) :
    W17 m ρ c (Proc.devRef .tc r) = W16 m ρ c (Proc.devRef .tc r) :=
  StableHlo.after_of_writes_sub hostOps8 _ wr8_sub h

/-- The results of the operations of stretch 9, in order. -/
abbrev wr9 : List (Ref sig .tc) := [main_cst_31, main_v148, main_v149, main_v150, main_c_32, main_v151, main_v152, main_c_33, main_v153, main_v154, main_v155, main_v156, main_v157, main_c_34, main_v158, main_v159, main_c_35, main_v160, main_v161, main_v162, main_v163, main_v164, main_v165]
theorem wr9_sub : (hostOps9 : List (HloOp τ sig (Elt F))).Forall fun op => op.writes ⊆ (wr9.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 9 does not write holds after it what it held before. -/
theorem keepH9 (c : Dev nD) (r : Ref sig .tc) (h : r ∉ wr9) :
    W19 m ρ c (Proc.devRef .tc r) = W18 m ρ c (Proc.devRef .tc r) :=
  StableHlo.after_of_writes_sub hostOps9 _ wr9_sub h

/-- The results of the operations of stretch 10, in order. -/
abbrev wr10 : List (Ref sig .tc) := [main_cst_36, main_v167, main_v168, main_v169, main_v170, main_v171, main_v172, main_v173, main_v174, main_v175]
theorem wr10_sub : (hostOps10 : List (HloOp τ sig (Elt F))).Forall fun op => op.writes ⊆ (wr10.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 10 does not write holds after it what it held before. -/
theorem keepH10 (c : Dev nD) (r : Ref sig .tc) (h : r ∉ wr10) :
    W21 m ρ c (Proc.devRef .tc r) = W20 m ρ c (Proc.devRef .tc r) :=
  StableHlo.after_of_writes_sub hostOps10 _ wr10_sub h

/-- The results of the operations of stretch 11, in order. -/
abbrev wr11 : List (Ref sig .tc) := [main_v177, main_v178, main_v179, main_v180, main_v181, main_v182]
theorem wr11_sub : (hostOps11 : List (HloOp τ sig (Elt F))).Forall fun op => op.writes ⊆ (wr11.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 11 does not write holds after it what it held before. -/
theorem keepH11 (c : Dev nD) (r : Ref sig .tc) (h : r ∉ wr11) :
    W23 m ρ c (Proc.devRef .tc r) = W22 m ρ c (Proc.devRef .tc r) :=
  StableHlo.after_of_writes_sub hostOps11 _ wr11_sub h

/-- The results of the operations of stretch 12, in order. -/
abbrev wr12 : List (Ref sig .tc) := [main_v184, main_v185, main_v186]
theorem wr12_sub : (hostOps12 : List (HloOp τ sig (Elt F))).Forall fun op => op.writes ⊆ (wr12.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that stretch 12 does not write holds after it what it held before. -/
theorem keepH12 (c : Dev nD) (r : Ref sig .tc) (h : r ∉ wr12) :
    W25 m ρ c (Proc.devRef .tc r) = W24 m ρ c (Proc.devRef .tc r) :=
  StableHlo.after_of_writes_sub hostOps12 _ wr12_sub h

end Cert.KernelIdeal.Gen

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.MsgSpec.lean ====
/-
  One message layer, stated twice as a function of whole arrays.

  The layer takes two arrays a, b of 200000 rows by 128 columns (the features gathered at the two ends of every
  edge), a 256×128 weight W and a bias of 128 entries, and returns, row by row,
      relu( [a | b] · W + bias ),
  where [a | b] is the 200000×256 array whose row p is row p of a followed by row p of b.

  msg   is that layer in the host program's own words: join the two arrays along the columns, one product with the
        whole weight, the bias broadcast over the rows, the maximum with the zero array.
  msgK  is the same layer entry by entry, in the order the row-block kernel computes it: the weight cut into its upper
        half Wa (rows 0–127) and its lower half Wb (rows 128–255), row p of a times Wa plus row p of b times Wb, plus
        the bias (kept as a 1×128 row), and the maximum with zero.
-/
import proofs.«154953_j22007412425053_2_alg».proof.KernelIdeal
import proofs.«154953_j22007412425053_2_alg».proof.ReferenceIdeal
import proofs.«154953_j22007412425053_2_alg».proof.Proof.Gen.KernelIdeal
import proofs.«154953_j22007412425053_2_alg».proof.Proof.Gen.ReferenceIdeal
import proofs.«154953_j22007412425053_2_alg».proof.Proof.LibRowDot
import Idealize.ShloMosaic.Lib.ValueIdx
import Idealize.ShloMosaic.PureOps.Ideal.Laws

noncomputable section

namespace Cert.Net

open Idealize.ShloMosaic Idealize.ShloMosaic.ValueIdx

section Whole
open Cert.ReferenceIdeal Cert.ReferenceIdeal.Gen

/-- The layer as the host computes it: relu([a | b] · W + bias) over whole arrays. -/
def msg (a b : FVec Ideal S200000x128 .f32) (W : FVec Ideal S256x128 .f32) (bias : FVec Ideal S128 .f32) :
    FVec Ideal S200000x128 .f32 :=
  maximumf
    (addf
      (Host.dotGeneral (F := Ideal) dot_S200000x256_S256x128_S200000x128_1_0_0_1_n_n none
        (concatenate S200000x256 1 [⟨S200000x128, a⟩, ⟨S200000x128, b⟩] concatenates_S200000x128_S200000x128_S200000x256_d1)
        W)
      (broadcastInDim S200000x128 ![0, 1] bcast_S1x128_S200000x128_0_1
        (broadcastInDim S1x128 ![1] bcast_S128_S1x128_1 bias)))
    (broadcastInDim S200000x128 ![] bcast_S_S200000x128 (constant (F := Ideal) S_ .f32 0x00000000#32))

end Whole

section Rows
open Cert.KernelIdeal

/-- The layer entry by entry, as a block of rows computes it: entry (p, q) is
    max( (row p of a)·Wa at q + (row p of b)·Wb at q + bias2(0, q), 0 ). -/
def msgK (a b : FVec Ideal S200000x128 .bf16) (Wa Wb : FVec Ideal S128x128 .f32) (bias2 : FVec Ideal S1x128 .f32) :
    FVec Ideal S200000x128 .f32 :=
  fun j => max (Cert.RowDot.rowDot (Cert.RowDot.rowOf a (j 0)) Wa (j 1)
      + Cert.RowDot.rowDot (Cert.RowDot.rowOf b (j 0)) Wb (j 1) + bias2 (ix2 (0 : Fin 1) (j 1))) 0

/-- msgK at an entry given by its two coordinates. -/
theorem msgK_apply (a b : FVec Ideal S200000x128 .bf16) (Wa Wb : FVec Ideal S128x128 .f32) (bias2 : FVec Ideal S1x128 .f32)
    (p : Fin 200000) (q : Fin 128) :
    msgK a b Wa Wb bias2 (ix2 p q)
      = max (Cert.RowDot.rowDot (Cert.RowDot.rowOf a p) Wa q + Cert.RowDot.rowDot (Cert.RowDot.rowOf b p) Wb q
          + bias2 (ix2 (0 : Fin 1) q)) 0 := rfl

end Rows

end Cert.Net

end
-- ==== Proof.MsgBlock.lean ====
/-
  What one block of rows of the message layer computes, entry by entry.

  The body takes a block of 8000 rows of a and of b (128 columns each), the two 128×128 halves of the weight and the
  bias as a 1×128 row; it forms  a·Wa  and  b·Wb  as two products into zero accumulators, adds them, adds the bias row
  to every row and takes the maximum with zero.  At the exact values the changes of number format are the identity, a
  product into a zero accumulator is the plain sum over the 128 columns, so entry (r, q) of the result is
      max( (row r of a)·Wa at q + (row r of b)·Wb at q + bias(0, q), 0 ).
-/
import proofs.«154953_j22007412425053_2_alg».proof.Proof.Gen.KernelIdeal.Skeleton
import proofs.«154953_j22007412425053_2_alg».proof.Proof.LibRowDot
import proofs.«154953_j22007412425053_2_alg».proof.Proof.MsgSpec
import Idealize.ShloMosaic.Lib.Pipeline.Value
import Idealize.ShloMosaic.Lib.ValueLayout

noncomputable section

namespace Cert.KernelIdeal.Net

open Idealize.ShloMosaic Idealize.ShloMosaic.ValueIdx Cert.KernelIdeal Cert.KernelIdeal.Gen Cert.RowDot

/-- The block's arithmetic at entry (r, q). -/
theorem pay0_apply (v0 v2 : Vec Ideal S8000x128 .bf16) (v4 v7 : Vec Ideal S128x128 .f32) (v13 : Vec Ideal S1x128 .f32)
    (r : Fin 8000) (q : Fin 128) :
    k0_pay1 (F := Ideal) v0 v2 v4 v7 v13 (ix2 r q)
      = max (rowDot (rowOf v0 r) v4 q + rowDot (rowOf v2 r) v7 q + v13 (ix2 (0 : Fin 1) q)) 0 := by
  unfold k0_pay1
  simp only [shapeCast_self]
  show max (matmul dot_S8000x128_S128x128_S8000x128_1_0_0_1_n_n none v0 (truncf .bf16 v4 bitsLt_bf16_f32)
          (constant (F := Ideal) S8000x128 .f32 0x00000000#32) (ix2 r q)
        + matmul dot_S8000x128_S128x128_S8000x128_1_0_0_1_n_n none v2 (truncf .bf16 v7 bitsLt_bf16_f32)
          (constant (F := Ideal) S8000x128 .f32 0x00000000#32) (ix2 r q)
        + broadcastTo S8000x128 v13 broadcasts_S1x128_S8000x128 (ix2 r q)) (Ideal.ofBits .f32 0x00000000#32) = _
  rw [Ideal.ofBits_zero_f32]
  refine congrArg (fun x : EReal => max x 0) ?_
  refine congrArg₂ (fun x y : EReal => x + y) (congrArg₂ (fun x y : EReal => x + y) ?_ ?_) ?_
  · exact matmul_plain_zero_apply none v0 (truncf .bf16 v4 bitsLt_bf16_f32) (ix2 r q)
  · exact matmul_plain_zero_apply none v2 (truncf .bf16 v7 bitsLt_bf16_f32) (ix2 r q)
  · exact broadcastTo_1b_ab_apply v13 broadcasts_S1x128_S8000x128 r q

/-- The zero offsets of a whole-buffer access. -/
theorem offsets_zero : (![0, 0] : Fin 2 → Nat) = fun _ => 0 := funext fun a => by fin_cases a <;> rfl

/-- A block of rows of the layer is the layer's rows: if the block's rows of a and b are rows p of the whole arrays
    (row r of the block is row p of the array) and the weights and the bias row are the whole ones, then entry (r, q) of
    what the block computes is entry (p, q) of the row-block form of the layer. -/
theorem block_entry0 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k0_pay1 (F := Ideal) x0 x1 x2 x3 x4 (ix2 r q) = Cert.Net.msgK A0 A1 A2 A3 A4 (ix2 p q) := by
  subst h2 h3 h4
  refine (pay0_apply x0 x1 x2 x3 x4 r q).trans ?_
  rw [Cert.Net.msgK_apply]
  refine congrArg (fun x : EReal => max x 0) ?_
  refine congrArg₂ (fun x y : EReal => x + y) (congrArg₂ (fun x y : EReal => x + y) ?_ ?_) rfl
  · exact Finset.sum_congr rfl fun k _ => congrArg (fun x : EReal => x * x2 (ix2 k q)) (h0 k)
  · exact Finset.sum_congr rfl fun k _ => congrArg (fun x : EReal => x * x3 (ix2 k q)) (h1 k)

/-- The other launches of the same body compute the same entry: their arithmetic is the same term. -/
theorem pay1_apply (v0 v2 : Vec Ideal S8000x128 .bf16) (v4 v7 : Vec Ideal S128x128 .f32) (v13 : Vec Ideal S1x128 .f32)
    (r : Fin 8000) (q : Fin 128) :
    k1_pay1 (F := Ideal) v0 v2 v4 v7 v13 (ix2 r q)
      = max (rowDot (rowOf v0 r) v4 q + rowDot (rowOf v2 r) v7 q + v13 (ix2 (0 : Fin 1) q)) 0 :=
  pay0_apply v0 v2 v4 v7 v13 r q

theorem pay4_apply (v0 v2 : Vec Ideal S8000x128 .bf16) (v4 v7 : Vec Ideal S128x128 .f32) (v13 : Vec Ideal S1x128 .f32)
    (r : Fin 8000) (q : Fin 128) :
    k4_pay1 (F := Ideal) v0 v2 v4 v7 v13 (ix2 r q)
      = max (rowDot (rowOf v0 r) v4 q + rowDot (rowOf v2 r) v7 q + v13 (ix2 (0 : Fin 1) q)) 0 :=
  pay0_apply v0 v2 v4 v7 v13 r q

theorem pay5_apply (v0 v2 : Vec Ideal S8000x128 .bf16) (v4 v7 : Vec Ideal S128x128 .f32) (v13 : Vec Ideal S1x128 .f32)
    (r : Fin 8000) (q : Fin 128) :
    k5_pay1 (F := Ideal) v0 v2 v4 v7 v13 (ix2 r q)
      = max (rowDot (rowOf v0 r) v4 q + rowDot (rowOf v2 r) v7 q + v13 (ix2 (0 : Fin 1) q)) 0 :=
  pay0_apply v0 v2 v4 v7 v13 r q

theorem pay8_apply (v0 v2 : Vec Ideal S8000x128 .bf16) (v4 v7 : Vec Ideal S128x128 .f32) (v13 : Vec Ideal S1x128 .f32)
    (r : Fin 8000) (q : Fin 128) :
    k8_pay1 (F := Ideal) v0 v2 v4 v7 v13 (ix2 r q)
      = max (rowDot (rowOf v0 r) v4 q + rowDot (rowOf v2 r) v7 q + v13 (ix2 (0 : Fin 1) q)) 0 :=
  pay0_apply v0 v2 v4 v7 v13 r q

theorem pay9_apply (v0 v2 : Vec Ideal S8000x128 .bf16) (v4 v7 : Vec Ideal S128x128 .f32) (v13 : Vec Ideal S1x128 .f32)
    (r : Fin 8000) (q : Fin 128) :
    k9_pay1 (F := Ideal) v0 v2 v4 v7 v13 (ix2 r q)
      = max (rowDot (rowOf v0 r) v4 q + rowDot (rowOf v2 r) v7 q + v13 (ix2 (0 : Fin 1) q)) 0 :=
  pay0_apply v0 v2 v4 v7 v13 r q

theorem block_entry1 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k1_pay1 (F := Ideal) x0 x1 x2 x3 x4 (ix2 r q) = Cert.Net.msgK A0 A1 A2 A3 A4 (ix2 p q) :=
  block_entry0 x0 x1 x2 x3 x4 A0 A1 A2 A3 A4 r q p h0 h1 h2 h3 h4

theorem block_entry4 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k4_pay1 (F := Ideal) x0 x1 x2 x3 x4 (ix2 r q) = Cert.Net.msgK A0 A1 A2 A3 A4 (ix2 p q) :=
  block_entry0 x0 x1 x2 x3 x4 A0 A1 A2 A3 A4 r q p h0 h1 h2 h3 h4

theorem block_entry5 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k5_pay1 (F := Ideal) x0 x1 x2 x3 x4 (ix2 r q) = Cert.Net.msgK A0 A1 A2 A3 A4 (ix2 p q) :=
  block_entry0 x0 x1 x2 x3 x4 A0 A1 A2 A3 A4 r q p h0 h1 h2 h3 h4

theorem block_entry8 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k8_pay1 (F := Ideal) x0 x1 x2 x3 x4 (ix2 r q) = Cert.Net.msgK A0 A1 A2 A3 A4 (ix2 p q) :=
  block_entry0 x0 x1 x2 x3 x4 A0 A1 A2 A3 A4 r q p h0 h1 h2 h3 h4

theorem block_entry9 (x0 x1 : Vec Ideal S8000x128 .bf16) (x2 x3 : Vec Ideal S128x128 .f32) (x4 : Vec Ideal S1x128 .f32)
    (A0 A1 : FVec Ideal S200000x128 .bf16) (A2 A3 : FVec Ideal S128x128 .f32) (A4 : FVec Ideal S1x128 .f32)
    (r : Fin 8000) (q : Fin 128) (p : Fin 200000)
    (h0 : ∀ k : Fin 128, x0 (ix2 r k) = A0 (ix2 p k)) (h1 : ∀ k : Fin 128, x1 (ix2 r k) = A1 (ix2 p k))
    (h2 : x2 = A2) (h3 : x3 = A3) (h4 : x4 = A4) :
    k9_pay1 (F := Ideal) x0 x1 x2 x3 x4 (ix2 r q) = Cert.Net.msgK A0 A1 A2 A3 A4 (ix2 p q) :=
  block_entry0 x0 x1 x2 x3 x4 A0 A1 A2 A3 A4 r q p h0 h1 h2 h3 h4

end Cert.KernelIdeal.Net

end
-- ==== Proof.MsgRegion0.lean ====
/-
  Launch 0 of the program is a message layer: the array it leaves is the row-block form of the layer applied to the
  arrays it finds.

  The launch walks 25 blocks of 8000 rows.  At block t it reads rows 8000·t … 8000·t + 7999 of the two feature arrays,
  the two whole 128×128 weight halves and the whole 1×128 bias row, computes the layer on those rows and writes rows
  8000·t … 8000·t + 7999 of the result.  Entry (r, q) of block t is therefore entry (8000·t + r, q) of the layer over
  the whole arrays; the 25 blocks tile the 200000 rows (row i lies in block i / 8000), so the result array is the layer.
-/
import proofs.«154953_j22007412425053_2_alg».proof.Proof.Gen.KernelIdeal.Frame
import proofs.«154953_j22007412425053_2_alg».proof.Proof.MsgSpec
import proofs.«154953_j22007412425053_2_alg».proof.Proof.MsgBlock

set_option maxRecDepth 16384

noncomputable section

namespace Cert.KernelIdeal.Net

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Which block each window is on at point t: the two feature windows and the result window are on block t of the
    rows, the weight halves and the bias row on their one block. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are 25 points. -/
theorem points0 (t : Fin cfg0.N) : t.val < 25 := lt_of_lt_of_eq t.isLt N_0

/-- Row r of the first feature block at point t is row 8000·t + r of the first feature array. -/
theorem rows0_0 (c : Dev nD) (t : Fin cfg0.N) (r : Fin 8000) (k : Fin 128) (p : Fin 200000) (hp : p.val = t.val * 8000 + r.val) :
    (iblk0 V c 0 t : Vec Ideal S8000x128 .bf16) (ix2 r k)
      = (V c (Pipeline.arrRef spec0 0) : S200000x128.Idx → Elt Ideal .bf16) (ix2 p k) := by
  obtain ⟨e0, e1, -⟩ := blocks0 t
  unfold iblk0
  rw [View.read_apply]
  show (V c (Pipeline.arrRef spec0 0) : S200000x128.Idx → Elt Ideal .bf16) _ = _
  refine congrArg (V c (Pipeline.arrRef spec0 0) : S200000x128.Idx → Elt Ideal .bf16) ?_
  funext a; apply Fin.ext
  match a with
  | ⟨0, _⟩ => show win0_0.index t (0 : Fin 2) * 8000 + 1 * r.val = p.val; omega
  | ⟨1, _⟩ => show win0_0.index t (1 : Fin 2) * 128 + 1 * k.val = k.val; omega

/-- Row r of the second feature block at point t is row 8000·t + r of the second feature array. -/
theorem rows0_1 (c : Dev nD) (t : Fin cfg0.N) (r : Fin 8000) (k : Fin 128) (p : Fin 200000) (hp : p.val = t.val * 8000 + r.val) :
    (iblk0 V c 1 t : Vec Ideal S8000x128 .bf16) (ix2 r k)
      = (V c (Pipeline.arrRef spec0 1) : S200000x128.Idx → Elt Ideal .bf16) (ix2 p k) := by
  obtain ⟨-, -, e0, e1, -⟩ := blocks0 t
  unfold iblk0
  rw [View.read_apply]
  show (V c (Pipeline.arrRef spec0 1) : S200000x128.Idx → Elt Ideal .bf16) _ = _
  refine congrArg (V c (Pipeline.arrRef spec0 1) : S200000x128.Idx → Elt Ideal .bf16) ?_
  funext a; apply Fin.ext
  match a with
  | ⟨0, _⟩ => show win0_1.index t (0 : Fin 2) * 8000 + 1 * r.val = p.val; omega
  | ⟨1, _⟩ => show win0_1.index t (1 : Fin 2) * 128 + 1 * k.val = k.val; omega

/-- The block of the upper weight half is the whole array, at every point. -/
theorem whole0_2 (c : Dev nD) (t : Fin cfg0.N) :
    (iblk0 V c 2 t : Vec Ideal S128x128 .f32) = (V c (Pipeline.arrRef spec0 2) : S128x128.Idx → Elt Ideal .f32) := by
  obtain ⟨-, -, -, -, e0, e1, -⟩ := blocks0 t
  unfold iblk0
  refine funext fun (y : S128x128.Idx) => ?_
  rw [View.read_apply]
  show (V c (Pipeline.arrRef spec0 2) : S128x128.Idx → Elt Ideal .f32) _ = _
  refine congrArg (V c (Pipeline.arrRef spec0 2) : S128x128.Idx → Elt Ideal .f32) ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The block of the lower weight half is the whole array, at every point. -/
theorem whole0_3 (c : Dev nD) (t : Fin cfg0.N) :
    (iblk0 V c 3 t : Vec Ideal S128x128 .f32) = (V c (Pipeline.arrRef spec0 3) : S128x128.Idx → Elt Ideal .f32) := by
  obtain ⟨-, -, -, -, -, -, e0, e1, -⟩ := blocks0 t
  unfold iblk0
  refine funext fun (y : S128x128.Idx) => ?_
  rw [View.read_apply]
  show (V c (Pipeline.arrRef spec0 3) : S128x128.Idx → Elt Ideal .f32) _ = _
  refine congrArg (V c (Pipeline.arrRef spec0 3) : S128x128.Idx → Elt Ideal .f32) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The block of the bias row is the whole row, at every point. -/
theorem whole0_4 (c : Dev nD) (t : Fin cfg0.N) :
    (iblk0 V c 4 t : Vec Ideal S1x128 .f32) = (V c (Pipeline.arrRef spec0 4) : S1x128.Idx → Elt Ideal .f32) := by
  obtain ⟨-, -, -, -, -, -, -, -, e0, e1, -⟩ := blocks0 t
  unfold iblk0
  refine funext fun (y : S1x128.Idx) => ?_
  rw [View.read_apply]
  show (V c (Pipeline.arrRef spec0 4) : S1x128.Idx → Elt Ideal .f32) _ = _
  refine congrArg (V c (Pipeline.arrRef spec0 4) : S1x128.Idx → Elt Ideal .f32) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point t writes back is block t of the layer over the arrays the launch finds. -/
theorem written0 (c : Dev nD) (t : Fin cfg0.N) :
    (dat0 V c).flushed 5 t = ((cfg0.win 5).blk t).view.read (Elt Ideal)
      (Cert.Net.msgK (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero offsets_zero]
  simp only [View.ld_unit_zero (S := S8000x128) offsets_zero, View.ld_unit_zero (S := S128x128) offsets_zero,
    View.ld_unit_zero (S := S1x128) offsets_zero]
  obtain ⟨-, -, -, -, -, -, -, -, -, -, e0, e1⟩ := blocks0 t
  have ht := points0 t
  refine funext fun (j : S8000x128.Idx) => ?_
  obtain ⟨r, q, rfl⟩ : ∃ (r : Fin 8000) (q : Fin 128), j = ix2 r q := ⟨j 0, j 1, eq_ix2 j⟩
  have hemb : ((cfg0.win 5).blk t).view.emb (ix2 r q)
      = ix2 (⟨t.val * 8000 + r.val, by have := r.isLt; omega⟩ : Fin 200000) q := by
    funext a; apply Fin.ext
    match a with
    | ⟨0, _⟩ => show win0_5.index t (0 : Fin 2) * 8000 + 1 * r.val = t.val * 8000 + r.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 r q)
      = Cert.Net.msgK (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 r q))
  rw [hemb]
  exact block_entry0 (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4)) r q ⟨t.val * 8000 + r.val, by have := r.isLt; omega⟩
    (fun k => rows0_0 V c t r k _ rfl) (fun k => rows0_1 V c t r k _ rfl)
    (whole0_2 V c t) (whole0_3 V c t) (whole0_4 V c t)

/-- An index of the result array is in point t's block iff each coordinate is in the block's range on its axis. -/
theorem inblock0 (t : Fin cfg0.N) (i : S200000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole (Pipeline.arrRef spec0 5)).slice (win0_5.rect t)).set ↔ _
  rw [View.set_slice_whole, Rect.mem_set_unit]
  exact Iff.rfl

/-- The array launch 0 leaves is the row-block form of the layer over the arrays it finds. -/
theorem msg_region0 (c : Dev nD) :
    (dat0 V c).arrAt 5 cfg0.N
      = Cert.Net.msgK (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => written0 V c t) fun i => by
    have hi0 : (i 0).val < 200000 := (i 0).isLt
    have hi1 : (i 1).val < 128 := (i 1).isLt
    have hN : cfg0.N = 25 := N_0
    refine ⟨⟨(i 0).val / 8000, by rw [hN]; omega⟩, flush0_5 _, ?_⟩
    obtain ⟨-, -, -, -, -, -, -, -, -, -, e0, e1⟩ := blocks0 ⟨(i 0).val / 8000, by rw [hN]; omega⟩
    rw [inblock0]
    intro a
    match a with
    | ⟨0, _⟩ =>
      show win0_5.index ⟨(i 0).val / 8000, _⟩ (0 : Fin 2) * 8000 ≤ (i 0).val
        ∧ (i 0).val < win0_5.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win0_5.index ⟨(i 0).val / 8000, _⟩ (1 : Fin 2) * 128 ≤ (i 1).val
        ∧ (i 1).val < win0_5.index ⟨(i 0).val / 8000, _⟩ (1 : Fin 2) * 128 + 128
      rw [e1]; omega

end Cert.KernelIdeal.Net

end
-- ==== Proof.MsgRegion1.lean ====
/-
  Launch 1 of the program is a message layer: the array it leaves is the row-block form of the layer applied to the
  arrays it finds.

  The launch walks 25 blocks of 8000 rows.  At block t it reads rows 8000·t … 8000·t + 7999 of the two feature arrays,
  the two whole 128×128 weight halves and the whole 1×128 bias row, computes the layer on those rows and writes rows
  8000·t … 8000·t + 7999 of the result.  Entry (r, q) of block t is therefore entry (8000·t + r, q) of the layer over
  the whole arrays; the 25 blocks tile the 200000 rows (row i lies in block i / 8000), so the result array is the layer.
-/
import proofs.«154953_j22007412425053_2_alg».proof.Proof.Gen.KernelIdeal.Frame
import proofs.«154953_j22007412425053_2_alg».proof.Proof.MsgSpec
import proofs.«154953_j22007412425053_2_alg».proof.Proof.MsgBlock

set_option maxRecDepth 16384

noncomputable section

namespace Cert.KernelIdeal.Net

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Which block each window is on at point t: the two feature windows and the result window are on block t of the
    rows, the weight halves and the bias row on their one block. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are 25 points. -/
theorem points1 (t : Fin cfg1.N) : t.val < 25 := lt_of_lt_of_eq t.isLt N_1

/-- Row r of the first feature block at point t is row 8000·t + r of the first feature array. -/
theorem rows1_0 (c : Dev nD) (t : Fin cfg1.N) (r : Fin 8000) (k : Fin 128) (p : Fin 200000) (hp : p.val = t.val * 8000 + r.val) :
    (iblk1 V c 0 t : Vec Ideal S8000x128 .bf16) (ix2 r k)
      = (V c (Pipeline.arrRef spec1 0) : S200000x128.Idx → Elt Ideal .bf16) (ix2 p k) := by
  obtain ⟨e0, e1, -⟩ := blocks1 t
  unfold iblk1
  rw [View.read_apply]
  show (V c (Pipeline.arrRef spec1 0) : S200000x128.Idx → Elt Ideal .bf16) _ = _
  refine congrArg (V c (Pipeline.arrRef spec1 0) : S200000x128.Idx → Elt Ideal .bf16) ?_
  funext a; apply Fin.ext
  match a with
  | ⟨0, _⟩ => show win1_0.index t (0 : Fin 2) * 8000 + 1 * r.val = p.val; omega
  | ⟨1, _⟩ => show win1_0.index t (1 : Fin 2) * 128 + 1 * k.val = k.val; omega

/-- Row r of the second feature block at point t is row 8000·t + r of the second feature array. -/
theorem rows1_1 (c : Dev nD) (t : Fin cfg1.N) (r : Fin 8000) (k : Fin 128) (p : Fin 200000) (hp : p.val = t.val * 8000 + r.val) :
    (iblk1 V c 1 t : Vec Ideal S8000x128 .bf16) (ix2 r k)
      = (V c (Pipeline.arrRef spec1 1) : S200000x128.Idx → Elt Ideal .bf16) (ix2 p k) := by
  obtain ⟨-, -, e0, e1, -⟩ := blocks1 t
  unfold iblk1
  rw [View.read_apply]
  show (V c (Pipeline.arrRef spec1 1) : S200000x128.Idx → Elt Ideal .bf16) _ = _
  refine congrArg (V c (Pipeline.arrRef spec1 1) : S200000x128.Idx → Elt Ideal .bf16) ?_
  funext a; apply Fin.ext
  match a with
  | ⟨0, _⟩ => show win1_1.index t (0 : Fin 2) * 8000 + 1 * r.val = p.val; omega
  | ⟨1, _⟩ => show win1_1.index t (1 : Fin 2) * 128 + 1 * k.val = k.val; omega

/-- The block of the upper weight half is the whole array, at every point. -/
theorem whole1_2 (c : Dev nD) (t : Fin cfg1.N) :
    (iblk1 V c 2 t : Vec Ideal S128x128 .f32) = (V c (Pipeline.arrRef spec1 2) : S128x128.Idx → Elt Ideal .f32) := by
  obtain ⟨-, -, -, -, e0, e1, -⟩ := blocks1 t
  unfold iblk1
  refine funext fun (y : S128x128.Idx) => ?_
  rw [View.read_apply]
  show (V c (Pipeline.arrRef spec1 2) : S128x128.Idx → Elt Ideal .f32) _ = _
  refine congrArg (V c (Pipeline.arrRef spec1 2) : S128x128.Idx → Elt Ideal .f32) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The block of the lower weight half is the whole array, at every point. -/
theorem whole1_3 (c : Dev nD) (t : Fin cfg1.N) :
    (iblk1 V c 3 t : Vec Ideal S128x128 .f32) = (V c (Pipeline.arrRef spec1 3) : S128x128.Idx → Elt Ideal .f32) := by
  obtain ⟨-, -, -, -, -, -, e0, e1, -⟩ := blocks1 t
  unfold iblk1
  refine funext fun (y : S128x128.Idx) => ?_
  rw [View.read_apply]
  show (V c (Pipeline.arrRef spec1 3) : S128x128.Idx → Elt Ideal .f32) _ = _
  refine congrArg (V c (Pipeline.arrRef spec1 3) : S128x128.Idx → Elt Ideal .f32) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The block of the bias row is the whole row, at every point. -/
theorem whole1_4 (c : Dev nD) (t : Fin cfg1.N) :
    (iblk1 V c 4 t : Vec Ideal S1x128 .f32) = (V c (Pipeline.arrRef spec1 4) : S1x128.Idx → Elt Ideal .f32) := by
  obtain ⟨-, -, -, -, -, -, -, -, e0, e1, -⟩ := blocks1 t
  unfold iblk1
  refine funext fun (y : S1x128.Idx) => ?_
  rw [View.read_apply]
  show (V c (Pipeline.arrRef spec1 4) : S1x128.Idx → Elt Ideal .f32) _ = _
  refine congrArg (V c (Pipeline.arrRef spec1 4) : S1x128.Idx → Elt Ideal .f32) ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point t writes back is block t of the layer over the arrays the launch finds. -/
theorem written1 (c : Dev nD) (t : Fin cfg1.N) :
    (dat1 V c).flushed 5 t = ((cfg1.win 5).blk t).view.read (Elt Ideal)
      (Cert.Net.msgK (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero offsets_zero]
  simp only [View.ld_unit_zero (S := S8000x128) offsets_zero, View.ld_unit_zero (S := S128x128) offsets_zero,
    View.ld_unit_zero (S := S1x128) offsets_zero]
  obtain ⟨-, -, -, -, -, -, -, -, -, -, e0, e1⟩ := blocks1 t
  have ht := points1 t
  refine funext fun (j : S8000x128.Idx) => ?_
  obtain ⟨r, q, rfl⟩ : ∃ (r : Fin 8000) (q : Fin 128), j = ix2 r q := ⟨j 0, j 1, eq_ix2 j⟩
  have hemb : ((cfg1.win 5).blk t).view.emb (ix2 r q)
      = ix2 (⟨t.val * 8000 + r.val, by have := r.isLt; omega⟩ : Fin 200000) q := by
    funext a; apply Fin.ext
    match a with
    | ⟨0, _⟩ => show win1_5.index t (0 : Fin 2) * 8000 + 1 * r.val = t.val * 8000 + r.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 r q)
      = Cert.Net.msgK (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 r q))
  rw [hemb]
  exact block_entry1 (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) r q ⟨t.val * 8000 + r.val, by have := r.isLt; omega⟩
    (fun k => rows1_0 V c t r k _ rfl) (fun k => rows1_1 V c t r k _ rfl)
    (whole1_2 V c t) (whole1_3 V c t) (whole1_4 V c t)

/-- An index of the result array is in point t's block iff each coordinate is in the block's range on its axis. -/
theorem inblock1 (t : Fin cfg1.N) (i : S200000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole (Pipeline.arrRef spec1 5)).slice (win1_5.rect t)).set ↔ _
  rw [View.set_slice_whole, Rect.mem_set_unit]
  exact Iff.rfl

/-- The array launch 1 leaves is the row-block form of the layer over the arrays it finds. -/
theorem msg_region1 (c : Dev nD) :
    (dat1 V c).arrAt 5 cfg1.N
      = Cert.Net.msgK (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => written1 V c t) fun i => by
    have hi0 : (i 0).val < 200000 := (i 0).isLt
    have hi1 : (i 1).val < 128 := (i 1).isLt
    have hN : cfg1.N = 25 := N_1
    refine ⟨⟨(i 0).val / 8000, by rw [hN]; omega⟩, flush1_5 _, ?_⟩
    obtain ⟨-, -, -, -, -, -, -, -, -, -, e0, e1⟩ := blocks1 ⟨(i 0).val / 8000, by rw [hN]; omega⟩
    rw [inblock1]
    intro a
    match a with
    | ⟨0, _⟩ =>
      show win1_5.index ⟨(i 0).val / 8000, _⟩ (0 : Fin 2) * 8000 ≤ (i 0).val
        ∧ (i 0).val < win1_5.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win1_5.index ⟨(i 0).val / 8000, _⟩ (1 : Fin 2) * 128 ≤ (i 1).val
        ∧ (i 1).val < win1_5.index ⟨(i 0).val / 8000, _⟩ (1 : Fin 2) * 128 + 128
      rw [e1]; omega

end Cert.KernelIdeal.Net

end
-- ==== Proof.GruSpec.lean ====
/-
  One recurrent (GRU) update of the node states, written twice.

  As the host composes it: the segment mean x = S / max(count, 1), the pre-activations x·K + b₀ and h·R + b₁ (each 384
  wide), three column blocks of each, z = σ(xz + hz), r = σ(xr + hr), c = tanh(xh + r·hh), and the new state
  z·h + (1 - z)·c, with σ spelt 1 / (1 + exp(-·)).

  Entry by entry, as a row-local function: entry (p, q) of the new state needs row p of S, of h and of the column of
  reciprocal counts only; the product's input row is S(p, ·)·inv(p).  Because it is row-local, the same function
  describes the update on a block of rows and on the whole array.
-/
import proofs.«154953_j22007412425053_2_alg».proof.Proof.Gen.KernelIdeal
import proofs.«154953_j22007412425053_2_alg».proof.Proof.Gen.ReferenceIdeal
import proofs.«154953_j22007412425053_2_alg».proof.Proof.LibRowDot
import Idealize.ShloMosaic.Lib.ValueIdx
import Idealize.ShloMosaic.PureOps.Ideal.Laws

noncomputable section

open scoped BigOperators

namespace Cert.Net

open Idealize.ShloMosaic Idealize.ShloMosaic.ValueIdx Cert.RowDot

/-! ## Entry by entry -/

/-- Column q of the first, second and third 128-wide block of a 384-wide row. -/
def gruC0 (q : Fin 128) : Fin 384 := ⟨q.val, by have := q.isLt; omega⟩
def gruC1 (q : Fin 128) : Fin 384 := ⟨128 + q.val, by have := q.isLt; omega⟩
def gruC2 (q : Fin 128) : Fin 384 := ⟨256 + q.val, by have := q.isLt; omega⟩

/-- The gates at column q from the two 384-wide pre-activation rows and the old state's entry. -/
def gruGate (xm hm : Fin 384 → EReal) (hq : EReal) (q : Fin 128) : EReal :=
  Ideal.logistic (xm (gruC0 q) + hm (gruC0 q)) * hq
    + (1 - Ideal.logistic (xm (gruC0 q) + hm (gruC0 q)))
      * Ideal.tanh (xm (gruC2 q) + Ideal.logistic (xm (gruC1 q) + hm (gruC1 q)) * hm (gruC2 q))

/-- Entry (p, q) of the update on M rows. -/
def gruKAt {M : Nat} (S h : (⟨2, ![M, 128]⟩ : Shape).Idx → EReal) (inv : (⟨2, ![M, 1]⟩ : Shape).Idx → EReal)
    (K R : (⟨2, ![128, 384]⟩ : Shape).Idx → EReal) (b0 b1 : (⟨2, ![1, 384]⟩ : Shape).Idx → EReal)
    (p : Fin M) (q : Fin 128) : EReal :=
  gruGate (fun c => rowDot (fun k => S (ix2 p k) * inv (ix2 p (0 : Fin 1))) K c + b0 (ix2 (0 : Fin 1) c))
    (fun c => rowDot (rowOf h p) R c + b1 (ix2 (0 : Fin 1) c)) (h (ix2 p q)) q

/-- The update on M rows as an array. -/
def gruK {M : Nat} (S h : (⟨2, ![M, 128]⟩ : Shape).Idx → EReal) (inv : (⟨2, ![M, 1]⟩ : Shape).Idx → EReal)
    (K R : (⟨2, ![128, 384]⟩ : Shape).Idx → EReal) (b0 b1 : (⟨2, ![1, 384]⟩ : Shape).Idx → EReal) :
    (⟨2, ![M, 128]⟩ : Shape).Idx → EReal :=
  fun i => gruKAt S h inv K R b0 b1 (i 0) (i 1)

theorem gruK_ix2 {M : Nat} (S h : (⟨2, ![M, 128]⟩ : Shape).Idx → EReal) (inv : (⟨2, ![M, 1]⟩ : Shape).Idx → EReal)
    (K R : (⟨2, ![128, 384]⟩ : Shape).Idx → EReal) (b0 b1 : (⟨2, ![1, 384]⟩ : Shape).Idx → EReal) (p : Fin M) (q : Fin 128) :
    gruK S h inv K R b0 b1 (ix2 p q) = gruKAt S h inv K R b0 b1 p q := rfl

/-- Row-locality: the entry depends on row p of S, h and inv only. -/
theorem gruKAt_congr {M M' : Nat} (S h : (⟨2, ![M, 128]⟩ : Shape).Idx → EReal) (inv : (⟨2, ![M, 1]⟩ : Shape).Idx → EReal)
    (S' h' : (⟨2, ![M', 128]⟩ : Shape).Idx → EReal) (inv' : (⟨2, ![M', 1]⟩ : Shape).Idx → EReal)
    (K R : (⟨2, ![128, 384]⟩ : Shape).Idx → EReal) (b0 b1 : (⟨2, ![1, 384]⟩ : Shape).Idx → EReal)
    (p : Fin M) (p' : Fin M') (q : Fin 128)
    (hS : ∀ k : Fin 128, S (ix2 p k) = S' (ix2 p' k)) (hh : ∀ k : Fin 128, h (ix2 p k) = h' (ix2 p' k))
    (hinv : inv (ix2 p (0 : Fin 1)) = inv' (ix2 p' (0 : Fin 1))) :
    gruKAt S h inv K R b0 b1 p q = gruKAt S' h' inv' K R b0 b1 p' q := by
  unfold gruKAt rowOf
  rw [hinv, hh q]
  simp only [hS, hh]

/-! ## As the host composes it -/

section Ref
open Cert.ReferenceIdeal Cert.ReferenceIdeal.Gen

/-- The segment mean: the segment sums divided, row by row, by the larger of the segment's count and one. -/
def gruMeanIp (S : FVec Ideal S20000x128 .f32) (idx : (⟨S200000, .i32⟩ : BufTy).Contents (Elt Ideal)) : FVec Ideal S20000x128 .f32 :=
  Host.divf S
    (broadcastInDim S20000x128 ![0, 1] bcast_S20000x1_S20000x128_0_1
      (maximumf
        (Host.scatterAdd scatter_S20000x1_S200000x1_S200000x1_1_0_0_1
          (broadcastInDim S20000x1 ![] bcast_S_S20000x1 (constant (F := Ideal) S_ .f32 0x00000000#32))
          (broadcastInDim S200000x1 ![0] bcast_S200000_S200000x1_0 idx)
          (broadcastInDim S200000x1 ![] bcast_S_S200000x1 (constant (F := Ideal) S_ .f32 0x3F800000#32)))
        (broadcastInDim S20000x1 ![] bcast_S_S20000x1 (constant (F := Ideal) S_ .f32 0x3F800000#32))))

/-- The input pre-activations: x · K plus the first bias row, broadcast over the rows. -/
def gruXmIp (x : FVec Ideal S20000x128 .f32) (K : FVec Ideal S128x384 .f32) (B : FVec Ideal S2x384 .f32) : FVec Ideal S20000x384 .f32 :=
  addf (Host.dotGeneral dot_S20000x128_S128x384_S20000x384_1_0_0_1_n_n none x K)
    (broadcastInDim S20000x384 ![0, 1] bcast_S1x384_S20000x384_0_1
      (broadcastInDim S1x384 ![1] bcast_S384_S1x384_1
        (shapeCast S384 (extractStridedSlice S1x384 ![0, 0] B slices_S2x384_S1x384_0_0) shapeCasts_S1x384_S384)))

/-- The recurrent pre-activations: h · R plus the second bias row, broadcast over the rows. -/
def gruHmIp (h : FVec Ideal S20000x128 .f32) (R : FVec Ideal S128x384 .f32) (B : FVec Ideal S2x384 .f32) : FVec Ideal S20000x384 .f32 :=
  addf (Host.dotGeneral dot_S20000x128_S128x384_S20000x384_1_0_0_1_n_n none h R)
    (broadcastInDim S20000x384 ![0, 1] bcast_S1x384_S20000x384_0_1
      (broadcastInDim S1x384 ![1] bcast_S384_S1x384_1
        (shapeCast S384 (extractStridedSlice S1x384 ![1, 0] B slices_S2x384_S1x384_1_0) shapeCasts_S1x384_S384)))

/-- The update gate: the sigmoid, spelt 1 / (1 + exp (-·)), of the first column blocks added. -/
def gruZIp (xm hm : FVec Ideal S20000x384 .f32) : FVec Ideal S20000x128 .f32 :=
  Host.divf (broadcastInDim S20000x128 ![] bcast_S_S20000x128 (constant (F := Ideal) S_ .f32 0x3F800000#32))
    (addf (broadcastInDim S20000x128 ![] bcast_S_S20000x128 (constant (F := Ideal) S_ .f32 0x3F800000#32))
      (Host.exp (Host.negf (addf (extractStridedSlice S20000x128 ![0, 0] xm slices_S20000x384_S20000x128_0_0)
        (extractStridedSlice S20000x128 ![0, 0] hm slices_S20000x384_S20000x128_0_0)))))

/-- The reset gate: the same sigmoid of the second column blocks added. -/
def gruRIp (xm hm : FVec Ideal S20000x384 .f32) : FVec Ideal S20000x128 .f32 :=
  Host.divf (broadcastInDim S20000x128 ![] bcast_S_S20000x128 (constant (F := Ideal) S_ .f32 0x3F800000#32))
    (addf (broadcastInDim S20000x128 ![] bcast_S_S20000x128 (constant (F := Ideal) S_ .f32 0x3F800000#32))
      (Host.exp (Host.negf (addf (extractStridedSlice S20000x128 ![0, 128] xm slices_S20000x384_S20000x128_0_128)
        (extractStridedSlice S20000x128 ![0, 128] hm slices_S20000x384_S20000x128_0_128)))))

/-- The new state: z·h + (1 - z)·tanh (xh + r·hh), the candidate from the third column blocks. -/
def gruCellIp (xm hm : FVec Ideal S20000x384 .f32) (h : FVec Ideal S20000x128 .f32) : FVec Ideal S20000x128 .f32 :=
  addf (mulf (gruZIp xm hm) h)
    (mulf (subf (broadcastInDim S20000x128 ![] bcast_S_S20000x128 (constant (F := Ideal) S_ .f32 0x3F800000#32)) (gruZIp xm hm))
      (Host.tanh (addf (extractStridedSlice S20000x128 ![0, 256] xm slices_S20000x384_S20000x128_0_256)
        (mulf (gruRIp xm hm) (extractStridedSlice S20000x128 ![0, 256] hm slices_S20000x384_S20000x128_0_256)))))

/-- One recurrent update on 20000 rows as the host composes it: the segment mean of S fed as the input. -/
def gruIp (S h : FVec Ideal S20000x128 .f32) (idx : (⟨S200000, .i32⟩ : BufTy).Contents (Elt Ideal))
    (K R : FVec Ideal S128x384 .f32) (B : FVec Ideal S2x384 .f32) : FVec Ideal S20000x128 .f32 :=
  gruCellIp (gruXmIp (gruMeanIp S idx) K B) (gruHmIp h R B) h

/-- The segment mean: the segment sums divided, row by row, by the larger of the segment's count and one. -/
def gruMeanC (S : FVec Ideal S100000x128 .f32) (idx : (⟨S200000, .i32⟩ : BufTy).Contents (Elt Ideal)) : FVec Ideal S100000x128 .f32 :=
  Host.divf S
    (broadcastInDim S100000x128 ![0, 1] bcast_S100000x1_S100000x128_0_1
      (maximumf
        (Host.scatterAdd scatter_S100000x1_S200000x1_S200000x1_1_0_0_1
          (broadcastInDim S100000x1 ![] bcast_S_S100000x1 (constant (F := Ideal) S_ .f32 0x00000000#32))
          (broadcastInDim S200000x1 ![0] bcast_S200000_S200000x1_0 idx)
          (broadcastInDim S200000x1 ![] bcast_S_S200000x1 (constant (F := Ideal) S_ .f32 0x3F800000#32)))
        (broadcastInDim S100000x1 ![] bcast_S_S100000x1 (constant (F := Ideal) S_ .f32 0x3F800000#32))))

/-- The input pre-activations: x · K plus the first bias row, broadcast over the rows. -/
def gruXmC (x : FVec Ideal S100000x128 .f32) (K : FVec Ideal S128x384 .f32) (B : FVec Ideal S2x384 .f32) : FVec Ideal S100000x384 .f32 :=
  addf (Host.dotGeneral dot_S100000x128_S128x384_S100000x384_1_0_0_1_n_n none x K)
    (broadcastInDim S100000x384 ![0, 1] bcast_S1x384_S100000x384_0_1
      (broadcastInDim S1x384 ![1] bcast_S384_S1x384_1
        (shapeCast S384 (extractStridedSlice S1x384 ![0, 0] B slices_S2x384_S1x384_0_0) shapeCasts_S1x384_S384)))

/-- The recurrent pre-activations: h · R plus the second bias row, broadcast over the rows. -/
def gruHmC (h : FVec Ideal S100000x128 .f32) (R : FVec Ideal S128x384 .f32) (B : FVec Ideal S2x384 .f32) : FVec Ideal S100000x384 .f32 :=
  addf (Host.dotGeneral dot_S100000x128_S128x384_S100000x384_1_0_0_1_n_n none h R)
    (broadcastInDim S100000x384 ![0, 1] bcast_S1x384_S100000x384_0_1
      (broadcastInDim S1x384 ![1] bcast_S384_S1x384_1
        (shapeCast S384 (extractStridedSlice S1x384 ![1, 0] B slices_S2x384_S1x384_1_0) shapeCasts_S1x384_S384)))

/-- The update gate: the sigmoid, spelt 1 / (1 + exp (-·)), of the first column blocks added. -/
def gruZC (xm hm : FVec Ideal S100000x384 .f32) : FVec Ideal S100000x128 .f32 :=
  Host.divf (broadcastInDim S100000x128 ![] bcast_S_S100000x128 (constant (F := Ideal) S_ .f32 0x3F800000#32))
    (addf (broadcastInDim S100000x128 ![] bcast_S_S100000x128 (constant (F := Ideal) S_ .f32 0x3F800000#32))
      (Host.exp (Host.negf (addf (extractStridedSlice S100000x128 ![0, 0] xm slices_S100000x384_S100000x128_0_0)
        (extractStridedSlice S100000x128 ![0, 0] hm slices_S100000x384_S100000x128_0_0)))))

/-- The reset gate: the same sigmoid of the second column blocks added. -/
def gruRC (xm hm : FVec Ideal S100000x384 .f32) : FVec Ideal S100000x128 .f32 :=
  Host.divf (broadcastInDim S100000x128 ![] bcast_S_S100000x128 (constant (F := Ideal) S_ .f32 0x3F800000#32))
    (addf (broadcastInDim S100000x128 ![] bcast_S_S100000x128 (constant (F := Ideal) S_ .f32 0x3F800000#32))
      (Host.exp (Host.negf (addf (extractStridedSlice S100000x128 ![0, 128] xm slices_S100000x384_S100000x128_0_128)
        (extractStridedSlice S100000x128 ![0, 128] hm slices_S100000x384_S100000x128_0_128)))))

/-- The new state: z·h + (1 - z)·tanh (xh + r·hh), the candidate from the third column blocks. -/
def gruCellC (xm hm : FVec Ideal S100000x384 .f32) (h : FVec Ideal S100000x128 .f32) : FVec Ideal S100000x128 .f32 :=
  addf (mulf (gruZC xm hm) h)
    (mulf (subf (broadcastInDim S100000x128 ![] bcast_S_S100000x128 (constant (F := Ideal) S_ .f32 0x3F800000#32)) (gruZC xm hm))
      (Host.tanh (addf (extractStridedSlice S100000x128 ![0, 256] xm slices_S100000x384_S100000x128_0_256)
        (mulf (gruRC xm hm) (extractStridedSlice S100000x128 ![0, 256] hm slices_S100000x384_S100000x128_0_256)))))

/-- One recurrent update on 100000 rows as the host composes it: the segment mean of S fed as the input. -/
def gruC (S h : FVec Ideal S100000x128 .f32) (idx : (⟨S200000, .i32⟩ : BufTy).Contents (Elt Ideal))
    (K R : FVec Ideal S128x384 .f32) (B : FVec Ideal S2x384 .f32) : FVec Ideal S100000x128 .f32 :=
  gruCellC (gruXmC (gruMeanC S idx) K B) (gruHmC h R B) h

end Ref

/-! ## The operands the kernel is handed -/

section Ker
open Cert.KernelIdeal Cert.KernelIdeal.Gen

/-- A bias row as the kernel receives it: row 0 or row 1 of the 2×384 bias array, flattened and re-laid as 1×384. -/
def gruB0 (B : FVec Ideal S2x384 .f32) : FVec Ideal S1x384 .f32 :=
  shapeCast S1x384 (shapeCast S384 (extractStridedSlice S1x384 ![0, 0] B slices_S2x384_S1x384_0_0) shapeCasts_S1x384_S384) shapeCasts_S384_S1x384
def gruB1 (B : FVec Ideal S2x384 .f32) : FVec Ideal S1x384 .f32 :=
  shapeCast S1x384 (shapeCast S384 (extractStridedSlice S1x384 ![1, 0] B slices_S2x384_S1x384_1_0) shapeCasts_S1x384_S384) shapeCasts_S384_S1x384

/-- The reciprocal of the larger of the segment's count and one, one entry per row. -/
def invIp (idx : (⟨S200000, .i32⟩ : BufTy).Contents (Elt Ideal)) : FVec Ideal S20000x1 .f32 :=
  Host.divf (broadcastInDim S20000x1 ![] bcast_S_S20000x1 (constant (F := Ideal) S_ .f32 0x3F800000#32))
    (maximumf
      (Host.scatterAdd scatter_S20000x1_S200000x1_S200000x1_1_0_0_1
        (broadcastInDim S20000x1 ![] bcast_S_S20000x1 (constant (F := Ideal) S_ .f32 0x00000000#32))
        (broadcastInDim S200000x1 ![0] bcast_S200000_S200000x1_0 idx)
        (broadcastInDim S200000x1 ![] bcast_S_S200000x1 (constant (F := Ideal) S_ .f32 0x3F800000#32)))
      (broadcastInDim S20000x1 ![] bcast_S_S20000x1 (constant (F := Ideal) S_ .f32 0x3F800000#32)))

/-- The recurrent update on 20000 rows, entry by entry, with the reciprocal counts as a column operand. -/
def gruKIp (S h : FVec Ideal S20000x128 .f32) (inv : FVec Ideal S20000x1 .f32) (K R : FVec Ideal S128x384 .f32)
    (b0 b1 : FVec Ideal S1x384 .f32) : FVec Ideal S20000x128 .f32 :=
  gruK (M := 20000) S h inv K R b0 b1

/-- The reciprocal of the larger of the segment's count and one, one entry per row. -/
def invC (idx : (⟨S200000, .i32⟩ : BufTy).Contents (Elt Ideal)) : FVec Ideal S100000x1 .f32 :=
  Host.divf (broadcastInDim S100000x1 ![] bcast_S_S100000x1 (constant (F := Ideal) S_ .f32 0x3F800000#32))
    (maximumf
      (Host.scatterAdd scatter_S100000x1_S200000x1_S200000x1_1_0_0_1
        (broadcastInDim S100000x1 ![] bcast_S_S100000x1 (constant (F := Ideal) S_ .f32 0x00000000#32))
        (broadcastInDim S200000x1 ![0] bcast_S200000_S200000x1_0 idx)
        (broadcastInDim S200000x1 ![] bcast_S_S200000x1 (constant (F := Ideal) S_ .f32 0x3F800000#32)))
      (broadcastInDim S100000x1 ![] bcast_S_S100000x1 (constant (F := Ideal) S_ .f32 0x3F800000#32)))

/-- The recurrent update on 100000 rows, entry by entry, with the reciprocal counts as a column operand. -/
def gruKC (S h : FVec Ideal S100000x128 .f32) (inv : FVec Ideal S100000x1 .f32) (K R : FVec Ideal S128x384 .f32)
    (b0 b1 : FVec Ideal S1x384 .f32) : FVec Ideal S100000x128 .f32 :=
  gruK (M := 100000) S h inv K R b0 b1

end Ker

end Cert.Net

end
-- ==== Proof.GruBlock.lean ====
/-
  The recurrent update's arithmetic on one block of 2000 rows, read at an entry.

  The block program multiplies the block of segment sums by its column of reciprocal counts, forms the two 384-wide
  pre-activations by a product into a zero accumulator plus a bias row, cuts each into three column blocks and
  combines them through the gates.  Read at entry (p, q) that is exactly the row-local update on 2000 rows.
-/
import proofs.«154953_j22007412425053_2_alg».proof.Proof.Gen.KernelIdeal.Skeleton
import proofs.«154953_j22007412425053_2_alg».proof.Proof.GruSpec
import Idealize.ShloMosaic.Lib.Pipeline.Value
import Idealize.ShloMosaic.Lib.ValueLayout
import Idealize.ShloMosaic.Lib.IdealHost

noncomputable section

open scoped BigOperators

namespace Cert.KernelIdeal.Net

open Idealize.ShloMosaic Idealize.ShloMosaic.ValueIdx Cert.RowDot Cert.Net Cert.KernelIdeal Cert.KernelIdeal.Gen

/-- A 2000×1 column broadcast along the rows reads, at (p, q), the column's entry p. -/
theorem gruCol_apply (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => show p.val = if (2000 : Nat) = 1 then 0 else p.val; rw [if_neg (by decide)]
  | ⟨1, _⟩ => show 0 = if (1 : Nat) = 1 then 0 else q.val; rw [if_pos rfl]

/-- A 1×384 bias row broadcast over 2000 rows reads, at (p, c), the row's entry c. -/
theorem gruBias_apply (b : FVec Ideal S1x384 .f32) (p : Fin 2000) (c : Fin 384) :
    broadcastTo S2000x384 b broadcasts_S1x384_S2000x384 (ix2 p c) = b (ix2 (0 : Fin 1) c) :=
  broadcastTo_1b_ab_apply b broadcasts_S1x384_S2000x384 p c

/-- The block product into the zero accumulator, at an entry: row p of the left operand times the matrix. -/
theorem gruMm_apply (x : FVec Ideal S2000x128 .bf16) (W : FVec Ideal S128x384 .bf16) (p : Fin 2000) (c : Fin 384) :
    matmul dot_S2000x128_S128x384_S2000x384_1_0_0_1_n_n none x W (constant (F := Ideal) S2000x384 .f32 0x00000000#32) (ix2 p c)
      = rowDot (rowOf x p) W c :=
  matmul_plain_zero_apply (M := 2000) (K := 128) (N := 384) none x W (ix2 p c)

/-- The three column blocks of a 2000×384 array. -/
theorem gruSl0_apply (X : FVec Ideal S2000x384 .f32) (p : Fin 2000) (q : Fin 128) :
    extractStridedSlice S2000x128 ![0, 0] X slices_S2000x384_o0_0_S2000x128 (ix2 p q) = X (ix2 p (gruC0 q)) :=
  slice2_axis1_apply 0 X slices_S2000x384_o0_0_S2000x128 p q (gruC0 q) (Nat.zero_add _).symm
theorem gruSl1_apply (X : FVec Ideal S2000x384 .f32) (p : Fin 2000) (q : Fin 128) :
    extractStridedSlice S2000x128 ![0, 128] X slices_S2000x384_o0_128_S2000x128 (ix2 p q) = X (ix2 p (gruC1 q)) :=
  slice2_axis1_apply 128 X slices_S2000x384_o0_128_S2000x128 p q (gruC1 q) rfl
theorem gruSl2_apply (X : FVec Ideal S2000x384 .f32) (p : Fin 2000) (q : Fin 128) :
    extractStridedSlice S2000x128 ![0, 256] X slices_S2000x384_o0_256_S2000x128 (ix2 p q) = X (ix2 p (gruC2 q)) :=
  slice2_axis1_apply 256 X slices_S2000x384_o0_256_S2000x128 p q (gruC2 q) rfl

/-- A change of float format is the identity on exact values. -/
theorem gruTrunc_eq {s : Shape} (a : FVec Ideal s .f32) (h : FTy.bf16.bits < FTy.f32.bits) :
    (truncf .bf16 a h : FVec Ideal s .bf16) = a := rfl

/-- The sigmoid and the hyperbolic tangent act entry by entry. -/
theorem gruLogistic_apply {s : Shape} (a : FVec Ideal s .f32) (i : s.Idx) : logistic a i = Ideal.logistic (a i) := rfl
theorem gruTanh_apply {s : Shape} (a : FVec Ideal s .f32) (i : s.Idx) : tanh a i = Ideal.tanh (a i) := rfl

/-- Row p of the block of segment sums scaled by its column of reciprocal counts. -/
theorem gruRowScaled (v0 : FVec Ideal S2000x128 .f32) (v2 : FVec Ideal S2000x1 .f32) (p : Fin 2000) :
    rowOf (mulf v0 (broadcastTo S2000x128 v2 broadcasts_S2000x1_S2000x128)) p
      = fun k => v0 (ix2 p k) * v2 (ix2 p (0 : Fin 1)) :=
  funext fun k => congrArg (fun e : EReal => v0 (ix2 p k) * e) (gruCol_apply v2 p k)

set_option maxRecDepth 4096 in
/-- The block payload at entry (p, q) is the row-local update on 2000 rows. -/
theorem gruPay2_apply (v0 : Vec Ideal S2000x128 .f32) (v2 : Vec Ideal S2000x1 .f32) (v7 : Vec Ideal S2000x128 .f32)
    (v10 v12 : Vec Ideal S128x384 .f32) (v15 v20 : Vec Ideal S1x384 .f32) (p : Fin 2000) (q : Fin 128) :
    k2_pay1 (F := Ideal) v0 v2 v7 v10 v12 v15 v20 (ix2 p q) = gruKAt (M := 2000) v0 v7 v2 v10 v12 v15 v20 p q := by
  unfold k2_pay1
  simp only [shapeCast_self, gruTrunc_eq]
  simp only [addf_apply, mulf_apply, subf_apply, gruLogistic_apply, gruTanh_apply, broadcast_apply, Ideal.ofBits_def,
    Ideal.ofBits_one_f32, gruSl0_apply, gruSl1_apply, gruSl2_apply, gruMm_apply, gruBias_apply]
  unfold gruKAt gruGate
  rw [gruRowScaled]

/-- Region 3's block program is the same arithmetic. -/
theorem gruPay3_apply (v0 : Vec Ideal S2000x128 .f32) (v2 : Vec Ideal S2000x1 .f32) (v7 : Vec Ideal S2000x128 .f32)
    (v10 v12 : Vec Ideal S128x384 .f32) (v15 v20 : Vec Ideal S1x384 .f32) (p : Fin 2000) (q : Fin 128) :
    k3_pay1 (F := Ideal) v0 v2 v7 v10 v12 v15 v20 (ix2 p q) = gruKAt (M := 2000) v0 v7 v2 v10 v12 v15 v20 p q :=
  (congrFun (show k3_pay1 (F := Ideal) v0 v2 v7 v10 v12 v15 v20 = k2_pay1 (F := Ideal) v0 v2 v7 v10 v12 v15 v20 from rfl) (ix2 p q)).trans
    (gruPay2_apply v0 v2 v7 v10 v12 v15 v20 p q)

/-- Region 6's block program is the same arithmetic. -/
theorem gruPay6_apply (v0 : Vec Ideal S2000x128 .f32) (v2 : Vec Ideal S2000x1 .f32) (v7 : Vec Ideal S2000x128 .f32)
    (v10 v12 : Vec Ideal S128x384 .f32) (v15 v20 : Vec Ideal S1x384 .f32) (p : Fin 2000) (q : Fin 128) :
    k6_pay1 (F := Ideal) v0 v2 v7 v10 v12 v15 v20 (ix2 p q) = gruKAt (M := 2000) v0 v7 v2 v10 v12 v15 v20 p q :=
  (congrFun (show k6_pay1 (F := Ideal) v0 v2 v7 v10 v12 v15 v20 = k2_pay1 (F := Ideal) v0 v2 v7 v10 v12 v15 v20 from rfl) (ix2 p q)).trans
    (gruPay2_apply v0 v2 v7 v10 v12 v15 v20 p q)

/-- Region 7's block program is the same arithmetic. -/
theorem gruPay7_apply (v0 : Vec Ideal S2000x128 .f32) (v2 : Vec Ideal S2000x1 .f32) (v7 : Vec Ideal S2000x128 .f32)
    (v10 v12 : Vec Ideal S128x384 .f32) (v15 v20 : Vec Ideal S1x384 .f32) (p : Fin 2000) (q : Fin 128) :
    k7_pay1 (F := Ideal) v0 v2 v7 v10 v12 v15 v20 (ix2 p q) = gruKAt (M := 2000) v0 v7 v2 v10 v12 v15 v20 p q :=
  (congrFun (show k7_pay1 (F := Ideal) v0 v2 v7 v10 v12 v15 v20 = k2_pay1 (F := Ideal) v0 v2 v7 v10 v12 v15 v20 from rfl) (ix2 p q)).trans
    (gruPay2_apply v0 v2 v7 v10 v12 v15 v20 p q)

/-- Region 11's block program is the same arithmetic. -/
theorem gruPay11_apply (v0 : Vec Ideal S2000x128 .f32) (v2 : Vec Ideal S2000x1 .f32) (v7 : Vec Ideal S2000x128 .f32)
    (v10 v12 : Vec Ideal S128x384 .f32) (v15 v20 : Vec Ideal S1x384 .f32) (p : Fin 2000) (q : Fin 128) :
    k11_pay1 (F := Ideal) v0 v2 v7 v10 v12 v15 v20 (ix2 p q) = gruKAt (M := 2000) v0 v7 v2 v10 v12 v15 v20 p q :=
  (congrFun (show k11_pay1 (F := Ideal) v0 v2 v7 v10 v12 v15 v20 = k2_pay1 (F := Ideal) v0 v2 v7 v10 v12 v15 v20 from rfl) (ix2 p q)).trans
    (gruPay2_apply v0 v2 v7 v10 v12 v15 v20 p q)

end Cert.KernelIdeal.Net

end
-- ==== Proof.GruStep.lean ====
/-
  From a block of rows to the whole array.

  The update is row-local, so the update on a block of 2000 rows, fed the block's rows of the segment sums, of the
  old state and of the reciprocal counts, is the whole-array update read at the corresponding row.
-/
import proofs.«154953_j22007412425053_2_alg».proof.Proof.GruBlock

noncomputable section

namespace Cert.KernelIdeal.Net

open Idealize.ShloMosaic Idealize.ShloMosaic.ValueIdx Cert.RowDot Cert.Net Cert.KernelIdeal Cert.KernelIdeal.Gen

/-- Region 2's block payload at an index of the block. -/
theorem gruPay2_at (v0 : Vec Ideal S2000x128 .f32) (v2 : Vec Ideal S2000x1 .f32) (v7 : Vec Ideal S2000x128 .f32)
    (v10 v12 : Vec Ideal S128x384 .f32) (v15 v20 : Vec Ideal S1x384 .f32) (j : S2000x128.Idx) :
    k2_pay1 (F := Ideal) v0 v2 v7 v10 v12 v15 v20 j = gruKAt (M := 2000) v0 v7 v2 v10 v12 v15 v20 (j 0) (j 1) :=
  (congrArg (k2_pay1 (F := Ideal) v0 v2 v7 v10 v12 v15 v20) (eq_ix2 j)).trans
    (gruPay2_apply v0 v2 v7 v10 v12 v15 v20 (j 0) (j 1))

/-- Region 3's block payload at an index of the block. -/
theorem gruPay3_at (v0 : Vec Ideal S2000x128 .f32) (v2 : Vec Ideal S2000x1 .f32) (v7 : Vec Ideal S2000x128 .f32)
    (v10 v12 : Vec Ideal S128x384 .f32) (v15 v20 : Vec Ideal S1x384 .f32) (j : S2000x128.Idx) :
    k3_pay1 (F := Ideal) v0 v2 v7 v10 v12 v15 v20 j = gruKAt (M := 2000) v0 v7 v2 v10 v12 v15 v20 (j 0) (j 1) :=
  (congrArg (k3_pay1 (F := Ideal) v0 v2 v7 v10 v12 v15 v20) (eq_ix2 j)).trans
    (gruPay3_apply v0 v2 v7 v10 v12 v15 v20 (j 0) (j 1))

/-- Region 6's block payload at an index of the block. -/
theorem gruPay6_at (v0 : Vec Ideal S2000x128 .f32) (v2 : Vec Ideal S2000x1 .f32) (v7 : Vec Ideal S2000x128 .f32)
    (v10 v12 : Vec Ideal S128x384 .f32) (v15 v20 : Vec Ideal S1x384 .f32) (j : S2000x128.Idx) :
    k6_pay1 (F := Ideal) v0 v2 v7 v10 v12 v15 v20 j = gruKAt (M := 2000) v0 v7 v2 v10 v12 v15 v20 (j 0) (j 1) :=
  (congrArg (k6_pay1 (F := Ideal) v0 v2 v7 v10 v12 v15 v20) (eq_ix2 j)).trans
    (gruPay6_apply v0 v2 v7 v10 v12 v15 v20 (j 0) (j 1))

/-- Region 7's block payload at an index of the block. -/
theorem gruPay7_at (v0 : Vec Ideal S2000x128 .f32) (v2 : Vec Ideal S2000x1 .f32) (v7 : Vec Ideal S2000x128 .f32)
    (v10 v12 : Vec Ideal S128x384 .f32) (v15 v20 : Vec Ideal S1x384 .f32) (j : S2000x128.Idx) :
    k7_pay1 (F := Ideal) v0 v2 v7 v10 v12 v15 v20 j = gruKAt (M := 2000) v0 v7 v2 v10 v12 v15 v20 (j 0) (j 1) :=
  (congrArg (k7_pay1 (F := Ideal) v0 v2 v7 v10 v12 v15 v20) (eq_ix2 j)).trans
    (gruPay7_apply v0 v2 v7 v10 v12 v15 v20 (j 0) (j 1))

/-- Region 11's block payload at an index of the block. -/
theorem gruPay11_at (v0 : Vec Ideal S2000x128 .f32) (v2 : Vec Ideal S2000x1 .f32) (v7 : Vec Ideal S2000x128 .f32)
    (v10 v12 : Vec Ideal S128x384 .f32) (v15 v20 : Vec Ideal S1x384 .f32) (j : S2000x128.Idx) :
    k11_pay1 (F := Ideal) v0 v2 v7 v10 v12 v15 v20 j = gruKAt (M := 2000) v0 v7 v2 v10 v12 v15 v20 (j 0) (j 1) :=
  (congrArg (k11_pay1 (F := Ideal) v0 v2 v7 v10 v12 v15 v20) (eq_ix2 j)).trans
    (gruPay11_apply v0 v2 v7 v10 v12 v15 v20 (j 0) (j 1))

/-- The block update at row y of the block starting at row r is the 20000-row update at row r + y, when the block's
    operands are the corresponding rows of the array operands and the resident operands are the arrays themselves. -/
theorem gruBlockIp (x0 x1 : Vec Ideal S2000x128 .f32) (x2 : Vec Ideal S2000x1 .f32) (x3 x4 : Vec Ideal S128x384 .f32)
    (x5 x6 : Vec Ideal S1x384 .f32) (A0 A1 : FVec Ideal S20000x128 .f32) (A2 : FVec Ideal S20000x1 .f32)
    (A3 A4 : FVec Ideal S128x384 .f32) (A5 A6 : FVec Ideal S1x384 .f32) (r : Nat) (j : S2000x128.Idx) (i : S20000x128.Idx)
    (hi0 : (i 0).val = r + (j 0).val) (hi1 : (i 1).val = (j 1).val)
    (e0 : ∀ (y : S2000x128.Idx) (u : S20000x128.Idx), (u 0).val = r + (y 0).val → (u 1).val = (y 1).val → x0 y = A0 u)
    (e1 : ∀ (y : S2000x128.Idx) (u : S20000x128.Idx), (u 0).val = r + (y 0).val → (u 1).val = (y 1).val → x1 y = A1 u)
    (e2 : ∀ (y : S2000x1.Idx) (u : S20000x1.Idx), (u 0).val = r + (y 0).val → (u 1).val = (y 1).val → x2 y = A2 u)
    (e3 : x3 = A3) (e4 : x4 = A4) (e5 : x5 = A5) (e6 : x6 = A6) :
    gruKAt (M := 2000) x0 x1 x2 x3 x4 x5 x6 (j 0) (j 1) = gruKIp A0 A1 A2 A3 A4 A5 A6 i := by
  subst e3 e4 e5 e6
  have hq : (i 1 : Fin 128) = j 1 := Fin.ext hi1
  show _ = gruKAt (M := 20000) A0 A1 A2 x3 x4 x5 x6 (i 0) (i 1)
  rw [hq]
  exact gruKAt_congr (M := 2000) (M' := 20000) x0 x1 x2 A0 A1 A2 x3 x4 x5 x6 (j 0) (i 0) (j 1)
    (fun k => e0 (ix2 (j 0) k) (ix2 (i 0) k) hi0 rfl) (fun k => e1 (ix2 (j 0) k) (ix2 (i 0) k) hi0 rfl)
    (e2 (ix2 (j 0) (0 : Fin 1)) (ix2 (i 0) (0 : Fin 1)) hi0 rfl)

/-- The block update at row y of the block starting at row r is the 100000-row update at row r + y, when the block's
    operands are the corresponding rows of the array operands and the resident operands are the arrays themselves. -/
theorem gruBlockC (x0 x1 : Vec Ideal S2000x128 .f32) (x2 : Vec Ideal S2000x1 .f32) (x3 x4 : Vec Ideal S128x384 .f32)
    (x5 x6 : Vec Ideal S1x384 .f32) (A0 A1 : FVec Ideal S100000x128 .f32) (A2 : FVec Ideal S100000x1 .f32)
    (A3 A4 : FVec Ideal S128x384 .f32) (A5 A6 : FVec Ideal S1x384 .f32) (r : Nat) (j : S2000x128.Idx) (i : S100000x128.Idx)
    (hi0 : (i 0).val = r + (j 0).val) (hi1 : (i 1).val = (j 1).val)
    (e0 : ∀ (y : S2000x128.Idx) (u : S100000x128.Idx), (u 0).val = r + (y 0).val → (u 1).val = (y 1).val → x0 y = A0 u)
    (e1 : ∀ (y : S2000x128.Idx) (u : S100000x128.Idx), (u 0).val = r + (y 0).val → (u 1).val = (y 1).val → x1 y = A1 u)
    (e2 : ∀ (y : S2000x1.Idx) (u : S100000x1.Idx), (u 0).val = r + (y 0).val → (u 1).val = (y 1).val → x2 y = A2 u)
    (e3 : x3 = A3) (e4 : x4 = A4) (e5 : x5 = A5) (e6 : x6 = A6) :
    gruKAt (M := 2000) x0 x1 x2 x3 x4 x5 x6 (j 0) (j 1) = gruKC A0 A1 A2 A3 A4 A5 A6 i := by
  subst e3 e4 e5 e6
  have hq : (i 1 : Fin 128) = j 1 := Fin.ext hi1
  show _ = gruKAt (M := 100000) A0 A1 A2 x3 x4 x5 x6 (i 0) (i 1)
  rw [hq]
  exact gruKAt_congr (M := 2000) (M' := 100000) x0 x1 x2 A0 A1 A2 x3 x4 x5 x6 (j 0) (i 0) (j 1)
    (fun k => e0 (ix2 (j 0) k) (ix2 (i 0) k) hi0 rfl) (fun k => e1 (ix2 (j 0) k) (ix2 (i 0) k) hi0 rfl)
    (e2 (ix2 (j 0) (0 : Fin 1)) (ix2 (i 0) (0 : Fin 1)) hi0 rfl)

end Cert.KernelIdeal.Net

end
-- ==== Proof.GruRegion2.lean ====
/-
  Region 2: the recurrent update on 20000 rows, computed block of 2000 rows by block, leaves in its output array
  the whole-array update of the arrays the region finds.

  Point t reads rows 2000·t … 2000·t + 1999 of the segment sums, of the old state and of the reciprocal counts, and
  the resident matrices and bias rows whole; it writes the same rows of the output.  The update is row-local, so
  what point t writes is the whole-array update restricted to its rows, and the 10 blocks cover the array.
-/
import proofs.«154953_j22007412425053_2_alg».proof.Proof.Gen.KernelIdeal.Frame
import proofs.«154953_j22007412425053_2_alg».proof.Proof.GruStep
import Idealize.ShloMosaic.Lib.Pipeline.Value

set_option maxRecDepth 16384

noncomputable section

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem gruHz2 : (![0, 0] : Fin 2 → Nat) = fun _ => 0 := funext fun a => by fin_cases a <;> rfl

/-- The block index of every window at every point: the row windows move with the point, the resident ones stay. -/
theorem gruIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Window 0's block at point t is rows 2000·t … 2000·t + 1999 of its array. -/
theorem gruRead2_0 (c : Dev nD) (t : Fin cfg2.N) (y : S2000x128.Idx) (u : S20000x128.Idx)
    (h0 : (u 0).val = t.val * 2000 + (y 0).val) (h1 : (u 1).val = (y 1).val) :
    (iblk2 V c 0 t : Vec Ideal S2000x128 .f32) y = (V c (Pipeline.arrRef spec2 0) : S20000x128.Idx → Elt Ideal .f32) u := by
  obtain ⟨a0, a1, b0, b1, c0, c1, o0, o1, d0, d1, e0, e1, f0, f1, g0, g1⟩ := gruIdx2 t
  unfold iblk2
  rw [View.read_apply]
  show V c (Pipeline.arrRef spec2 0) _ = V c (Pipeline.arrRef spec2 0) _
  congr 1
  funext a
  apply Fin.ext
  match a with
  | ⟨0, _⟩ => show win2_0.index t 0 * 2000 + 1 * (y 0).val = (u 0).val; rw [a0, h0]; omega
  | ⟨1, _⟩ => show win2_0.index t 1 * 128 + 1 * (y 1).val = (u 1).val; rw [a1, h1]; omega

/-- Window 1's block at point t is rows 2000·t … 2000·t + 1999 of its array. -/
theorem gruRead2_1 (c : Dev nD) (t : Fin cfg2.N) (y : S2000x128.Idx) (u : S20000x128.Idx)
    (h0 : (u 0).val = t.val * 2000 + (y 0).val) (h1 : (u 1).val = (y 1).val) :
    (iblk2 V c 1 t : Vec Ideal S2000x128 .f32) y = (V c (Pipeline.arrRef spec2 1) : S20000x128.Idx → Elt Ideal .f32) u := by
  obtain ⟨a0, a1, b0, b1, c0, c1, o0, o1, d0, d1, e0, e1, f0, f1, g0, g1⟩ := gruIdx2 t
  unfold iblk2
  rw [View.read_apply]
  show V c (Pipeline.arrRef spec2 1) _ = V c (Pipeline.arrRef spec2 1) _
  congr 1
  funext a
  apply Fin.ext
  match a with
  | ⟨0, _⟩ => show win2_1.index t 0 * 2000 + 1 * (y 0).val = (u 0).val; rw [b0, h0]; omega
  | ⟨1, _⟩ => show win2_1.index t 1 * 128 + 1 * (y 1).val = (u 1).val; rw [b1, h1]; omega

/-- Window 2's block at point t is rows 2000·t … 2000·t + 1999 of its array. -/
theorem gruRead2_2 (c : Dev nD) (t : Fin cfg2.N) (y : S2000x1.Idx) (u : S20000x1.Idx)
    (h0 : (u 0).val = t.val * 2000 + (y 0).val) (h1 : (u 1).val = (y 1).val) :
    (iblk2 V c 2 t : Vec Ideal S2000x1 .f32) y = (V c (Pipeline.arrRef spec2 2) : S20000x1.Idx → Elt Ideal .f32) u := by
  obtain ⟨a0, a1, b0, b1, c0, c1, o0, o1, d0, d1, e0, e1, f0, f1, g0, g1⟩ := gruIdx2 t
  unfold iblk2
  rw [View.read_apply]
  show V c (Pipeline.arrRef spec2 2) _ = V c (Pipeline.arrRef spec2 2) _
  congr 1
  funext a
  apply Fin.ext
  match a with
  | ⟨0, _⟩ => show win2_2.index t 0 * 2000 + 1 * (y 0).val = (u 0).val; rw [c0, h0]; omega
  | ⟨1, _⟩ => show win2_2.index t 1 * 1 + 1 * (y 1).val = (u 1).val; rw [c1, h1]; omega

/-- Window 3's block is its whole array at every point. -/
theorem gruWhole2_3 (c : Dev nD) (t : Fin cfg2.N) : (iblk2 V c 3 t : Vec Ideal S128x384 .f32) = (V c (Pipeline.arrRef spec2 3) : S128x384.Idx → Elt Ideal .f32) := by
  obtain ⟨a0, a1, b0, b1, c0, c1, o0, o1, d0, d1, e0, e1, f0, f1, g0, g1⟩ := gruIdx2 t
  funext y
  unfold iblk2
  rw [View.read_apply]
  show V c (Pipeline.arrRef spec2 3) _ = V c (Pipeline.arrRef spec2 3) y
  congr 1
  funext a
  apply Fin.ext
  match a with
  | ⟨0, _⟩ => show win2_3.index t 0 * 128 + 1 * (y 0).val = (y 0).val; rw [d0]; omega
  | ⟨1, _⟩ => show win2_3.index t 1 * 384 + 1 * (y 1).val = (y 1).val; rw [d1]; omega

/-- Window 4's block is its whole array at every point. -/
theorem gruWhole2_4 (c : Dev nD) (t : Fin cfg2.N) : (iblk2 V c 4 t : Vec Ideal S128x384 .f32) = (V c (Pipeline.arrRef spec2 4) : S128x384.Idx → Elt Ideal .f32) := by
  obtain ⟨a0, a1, b0, b1, c0, c1, o0, o1, d0, d1, e0, e1, f0, f1, g0, g1⟩ := gruIdx2 t
  funext y
  unfold iblk2
  rw [View.read_apply]
  show V c (Pipeline.arrRef spec2 4) _ = V c (Pipeline.arrRef spec2 4) y
  congr 1
  funext a
  apply Fin.ext
  match a with
  | ⟨0, _⟩ => show win2_4.index t 0 * 128 + 1 * (y 0).val = (y 0).val; rw [e0]; omega
  | ⟨1, _⟩ => show win2_4.index t 1 * 384 + 1 * (y 1).val = (y 1).val; rw [e1]; omega

/-- Window 5's block is its whole array at every point. -/
theorem gruWhole2_5 (c : Dev nD) (t : Fin cfg2.N) : (iblk2 V c 5 t : Vec Ideal S1x384 .f32) = (V c (Pipeline.arrRef spec2 5) : S1x384.Idx → Elt Ideal .f32) := by
  obtain ⟨a0, a1, b0, b1, c0, c1, o0, o1, d0, d1, e0, e1, f0, f1, g0, g1⟩ := gruIdx2 t
  funext y
  unfold iblk2
  rw [View.read_apply]
  show V c (Pipeline.arrRef spec2 5) _ = V c (Pipeline.arrRef spec2 5) y
  congr 1
  funext a
  apply Fin.ext
  match a with
  | ⟨0, _⟩ => show win2_5.index t 0 * 1 + 1 * (y 0).val = (y 0).val; rw [f0]; omega
  | ⟨1, _⟩ => show win2_5.index t 1 * 384 + 1 * (y 1).val = (y 1).val; rw [f1]; omega

/-- Window 6's block is its whole array at every point. -/
theorem gruWhole2_6 (c : Dev nD) (t : Fin cfg2.N) : (iblk2 V c 6 t : Vec Ideal S1x384 .f32) = (V c (Pipeline.arrRef spec2 6) : S1x384.Idx → Elt Ideal .f32) := by
  obtain ⟨a0, a1, b0, b1, c0, c1, o0, o1, d0, d1, e0, e1, f0, f1, g0, g1⟩ := gruIdx2 t
  funext y
  unfold iblk2
  rw [View.read_apply]
  show V c (Pipeline.arrRef spec2 6) _ = V c (Pipeline.arrRef spec2 6) y
  congr 1
  funext a
  apply Fin.ext
  match a with
  | ⟨0, _⟩ => show win2_6.index t 0 * 1 + 1 * (y 0).val = (y 0).val; rw [g0]; omega
  | ⟨1, _⟩ => show win2_6.index t 1 * 384 + 1 * (y 1).val = (y 1).val; rw [g1]; omega

/-- The write-back takes the whole block: the block program's result read at an index of the block. -/
theorem gruCutL2 (c : Dev nD) (t : Fin cfg2.N) (j : ((win2 7).xblock (grid2.coords t)).Idx) :
    (win2 7).cut (grid2.coords t) (k2_pay1 (F := Ideal) (iblk2 V c 0 t : Vec Ideal S2000x128 .f32) (iblk2 V c 2 t : Vec Ideal S2000x1 .f32) (iblk2 V c 1 t : Vec Ideal S2000x128 .f32) (iblk2 V c 3 t : Vec Ideal S128x384 .f32) (iblk2 V c 4 t : Vec Ideal S128x384 .f32) (iblk2 V c 5 t : Vec Ideal S1x384 .f32) (iblk2 V c 6 t : Vec Ideal S1x384 .f32)) j
      = k2_pay1 (F := Ideal) (iblk2 V c 0 t : Vec Ideal S2000x128 .f32) (iblk2 V c 2 t : Vec Ideal S2000x1 .f32) (iblk2 V c 1 t : Vec Ideal S2000x128 .f32) (iblk2 V c 3 t : Vec Ideal S128x384 .f32) (iblk2 V c 4 t : Vec Ideal S128x384 .f32) (iblk2 V c 5 t : Vec Ideal S1x384 .f32) (iblk2 V c 6 t : Vec Ideal S1x384 .f32) j := rfl

/-- Block t of an array read at an index of the block is the array at the index's place in the array. -/
theorem gruReadR2 (t : Fin cfg2.N) (j : ((win2 7).xblock (grid2.coords t)).Idx) (G : FVec Ideal S20000x128 .f32) :
    View.read (Elt Ideal) ((View.whole main_v68).slice ((win2 7).rect t)) G j = G (((cfg2.win 7).blk t).view.emb j) := rfl

/-- What point t writes back is block t of the whole-array update. -/
theorem gruFlushed2 (c : Dev nD) (t : Fin cfg2.N) :
    (dat2 (F := Ideal) V c).flushed 7 t = ((cfg2.win 7).blk t).view.read (Elt Ideal) (gruKIp (V c (Pipeline.arrRef spec2 0) : S20000x128.Idx → Elt Ideal .f32) (V c (Pipeline.arrRef spec2 1) : S20000x128.Idx → Elt Ideal .f32) (V c (Pipeline.arrRef spec2 2) : S20000x1.Idx → Elt Ideal .f32) (V c (Pipeline.arrRef spec2 3) : S128x384.Idx → Elt Ideal .f32) (V c (Pipeline.arrRef spec2 4) : S128x384.Idx → Elt Ideal .f32) (V c (Pipeline.arrRef spec2 5) : S1x384.Idx → Elt Ideal .f32) (V c (Pipeline.arrRef spec2 6) : S1x384.Idx → Elt Ideal .f32)) := by
  show (cfg2.win 7).cut (grid2.coords t) ((dat2 (F := Ideal) V c).after 7 t) = _
  rw [after2_7]
  unfold out2_7
  rw [View.canon_unit_zero gruHz2]
  simp only [View.ld_unit_zero (S := S2000x128) gruHz2, View.ld_unit_zero (S := S2000x1) gruHz2,
    View.ld_unit_zero (S := S128x384) gruHz2, View.ld_unit_zero (S := S1x384) gruHz2]
  obtain ⟨a0, a1, b0, b1, c0, c1, o0, o1, d0, d1, e0, e1, f0, f1, g0, g1⟩ := gruIdx2 t
  funext j
  refine (gruCutL2 V c t j).trans ?_
  refine Eq.trans ?_ (gruReadR2 t j _).symm
  refine (gruPay2_at (iblk2 V c 0 t : Vec Ideal S2000x128 .f32) (iblk2 V c 2 t : Vec Ideal S2000x1 .f32) (iblk2 V c 1 t : Vec Ideal S2000x128 .f32) (iblk2 V c 3 t : Vec Ideal S128x384 .f32) (iblk2 V c 4 t : Vec Ideal S128x384 .f32) (iblk2 V c 5 t : Vec Ideal S1x384 .f32) (iblk2 V c 6 t : Vec Ideal S1x384 .f32) j).trans ?_
  refine gruBlockIp (iblk2 V c 0 t : Vec Ideal S2000x128 .f32) (iblk2 V c 1 t : Vec Ideal S2000x128 .f32) (iblk2 V c 2 t : Vec Ideal S2000x1 .f32) (iblk2 V c 3 t : Vec Ideal S128x384 .f32) (iblk2 V c 4 t : Vec Ideal S128x384 .f32) (iblk2 V c 5 t : Vec Ideal S1x384 .f32) (iblk2 V c 6 t : Vec Ideal S1x384 .f32)
    (V c (Pipeline.arrRef spec2 0) : S20000x128.Idx → Elt Ideal .f32) (V c (Pipeline.arrRef spec2 1) : S20000x128.Idx → Elt Ideal .f32) (V c (Pipeline.arrRef spec2 2) : S20000x1.Idx → Elt Ideal .f32) (V c (Pipeline.arrRef spec2 3) : S128x384.Idx → Elt Ideal .f32) (V c (Pipeline.arrRef spec2 4) : S128x384.Idx → Elt Ideal .f32) (V c (Pipeline.arrRef spec2 5) : S1x384.Idx → Elt Ideal .f32) (V c (Pipeline.arrRef spec2 6) : S1x384.Idx → Elt Ideal .f32)
    (t.val * 2000) j (((cfg2.win 7).blk t).view.emb j) ?_ ?_
    (gruRead2_0 V c t) (gruRead2_1 V c t) (gruRead2_2 V c t)
    (gruWhole2_3 V c t) (gruWhole2_4 V c t) (gruWhole2_5 V c t) (gruWhole2_6 V c t)
  · show win2_7.index t 0 * 2000 + 1 * (j 0).val = t.val * 2000 + (j 0).val
    rw [o0]; omega
  · show win2_7.index t 1 * 128 + 1 * (j 1).val = (j 1).val
    rw [o1]; omega

/-- An index of the output array is in point t's block iff each coordinate is in the block's range. -/
theorem gruMemBlk2 (t : Fin cfg2.N) (i : S20000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v68).slice (win2_7.rect t)).set ↔ _
  rw [View.set_slice_whole, Rect.mem_set_unit]
  exact Iff.rfl

/-- Row r of the output is written by point r / 2000. -/
theorem gruCover2 (i : S20000x128.Idx) :
    ∃ t : Fin cfg2.N, (cfg2.win 7).flush t = true ∧ i ∈ ((cfg2.win 7).blk t).view.set := by
  have hN : cfg2.N = 10 := N_2
  have hi0 : (i 0).val < 20000 := (i 0).isLt
  have hi1 : (i 1).val < 128 := (i 1).isLt
  refine ⟨⟨(i 0).val / 2000, by rw [hN]; omega⟩, flush2_7 _, ?_⟩
  obtain ⟨a0, a1, b0, b1, c0, c1, o0, o1, d0, d1, e0, e1, f0, f1, g0, g1⟩ := gruIdx2 ⟨(i 0).val / 2000, by rw [hN]; omega⟩
  rw [gruMemBlk2]
  intro a
  match a with
  | ⟨0, _⟩ =>
    show win2_7.index _ 0 * 2000 ≤ (i 0).val ∧ (i 0).val < win2_7.index _ 0 * 2000 + 2000
    rw [o0]
    show (i 0).val / 2000 * 2000 ≤ (i 0).val ∧ (i 0).val < (i 0).val / 2000 * 2000 + 2000
    omega
  | ⟨1, _⟩ =>
    show win2_7.index _ 1 * 128 ≤ (i 1).val ∧ (i 1).val < win2_7.index _ 1 * 128 + 128
    rw [o1]
    omega

/-- The region's output array after the run is the whole-array update of the arrays the region finds. -/
theorem gru_region2 (c : Dev nD) :
    (dat2 (F := Ideal) V c).arrAt 7 cfg2.N = (gruKIp (V c (Pipeline.arrRef spec2 0) : S20000x128.Idx → Elt Ideal .f32) (V c (Pipeline.arrRef spec2 1) : S20000x128.Idx → Elt Ideal .f32) (V c (Pipeline.arrRef spec2 2) : S20000x1.Idx → Elt Ideal .f32) (V c (Pipeline.arrRef spec2 3) : S128x384.Idx → Elt Ideal .f32) (V c (Pipeline.arrRef spec2 4) : S128x384.Idx → Elt Ideal .f32) (V c (Pipeline.arrRef spec2 5) : S1x384.Idx → Elt Ideal .f32) (V c (Pipeline.arrRef spec2 6) : S1x384.Idx → Elt Ideal .f32)) :=
  (dat2 (F := Ideal) V c).arrAt_eq_of_cover 7 (gruKIp (V c (Pipeline.arrRef spec2 0) : S20000x128.Idx → Elt Ideal .f32) (V c (Pipeline.arrRef spec2 1) : S20000x128.Idx → Elt Ideal .f32) (V c (Pipeline.arrRef spec2 2) : S20000x1.Idx → Elt Ideal .f32) (V c (Pipeline.arrRef spec2 3) : S128x384.Idx → Elt Ideal .f32) (V c (Pipeline.arrRef spec2 4) : S128x384.Idx → Elt Ideal .f32) (V c (Pipeline.arrRef spec2 5) : S1x384.Idx → Elt Ideal .f32) (V c (Pipeline.arrRef spec2 6) : S1x384.Idx → Elt Ideal .f32))
    (fun t _ => gruFlushed2 V c t) (gruCover2)

end Cert.KernelIdeal.Net

end
-- ==== Proof.GruRegion3.lean ====
/-
  Region 3: the recurrent update on 100000 rows, computed block of 2000 rows by block, leaves in its output array
  the whole-array update of the arrays the region finds.

  Point t reads rows 2000·t … 2000·t + 1999 of the segment sums, of the old state and of the reciprocal counts, and
  the resident matrices and bias rows whole; it writes the same rows of the output.  The update is row-local, so
  what point t writes is the whole-array update restricted to its rows, and the 50 blocks cover the array.
-/
import proofs.«154953_j22007412425053_2_alg».proof.Proof.Gen.KernelIdeal.Frame
import proofs.«154953_j22007412425053_2_alg».proof.Proof.GruStep
import Idealize.ShloMosaic.Lib.Pipeline.Value

set_option maxRecDepth 16384

noncomputable section

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem gruHz3 : (![0, 0] : Fin 2 → Nat) = fun _ => 0 := funext fun a => by fin_cases a <;> rfl

/-- The block index of every window at every point: the row windows move with the point, the resident ones stay. -/
theorem gruIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_7.index t (0 : Fin 2) = t.val ∧ win3_7.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 0's block at point t is rows 2000·t … 2000·t + 1999 of its array. -/
theorem gruRead3_0 (c : Dev nD) (t : Fin cfg3.N) (y : S2000x128.Idx) (u : S100000x128.Idx)
    (h0 : (u 0).val = t.val * 2000 + (y 0).val) (h1 : (u 1).val = (y 1).val) :
    (iblk3 V c 0 t : Vec Ideal S2000x128 .f32) y = (V c (Pipeline.arrRef spec3 0) : S100000x128.Idx → Elt Ideal .f32) u := by
  obtain ⟨a0, a1, b0, b1, c0, c1, o0, o1, d0, d1, e0, e1, f0, f1, g0, g1⟩ := gruIdx3 t
  unfold iblk3
  rw [View.read_apply]
  show V c (Pipeline.arrRef spec3 0) _ = V c (Pipeline.arrRef spec3 0) _
  congr 1
  funext a
  apply Fin.ext
  match a with
  | ⟨0, _⟩ => show win3_0.index t 0 * 2000 + 1 * (y 0).val = (u 0).val; rw [a0, h0]; omega
  | ⟨1, _⟩ => show win3_0.index t 1 * 128 + 1 * (y 1).val = (u 1).val; rw [a1, h1]; omega

/-- Window 1's block at point t is rows 2000·t … 2000·t + 1999 of its array. -/
theorem gruRead3_1 (c : Dev nD) (t : Fin cfg3.N) (y : S2000x128.Idx) (u : S100000x128.Idx)
    (h0 : (u 0).val = t.val * 2000 + (y 0).val) (h1 : (u 1).val = (y 1).val) :
    (iblk3 V c 1 t : Vec Ideal S2000x128 .f32) y = (V c (Pipeline.arrRef spec3 1) : S100000x128.Idx → Elt Ideal .f32) u := by
  obtain ⟨a0, a1, b0, b1, c0, c1, o0, o1, d0, d1, e0, e1, f0, f1, g0, g1⟩ := gruIdx3 t
  unfold iblk3
  rw [View.read_apply]
  show V c (Pipeline.arrRef spec3 1) _ = V c (Pipeline.arrRef spec3 1) _
  congr 1
  funext a
  apply Fin.ext
  match a with
  | ⟨0, _⟩ => show win3_1.index t 0 * 2000 + 1 * (y 0).val = (u 0).val; rw [b0, h0]; omega
  | ⟨1, _⟩ => show win3_1.index t 1 * 128 + 1 * (y 1).val = (u 1).val; rw [b1, h1]; omega

/-- Window 2's block at point t is rows 2000·t … 2000·t + 1999 of its array. -/
theorem gruRead3_2 (c : Dev nD) (t : Fin cfg3.N) (y : S2000x1.Idx) (u : S100000x1.Idx)
    (h0 : (u 0).val = t.val * 2000 + (y 0).val) (h1 : (u 1).val = (y 1).val) :
    (iblk3 V c 2 t : Vec Ideal S2000x1 .f32) y = (V c (Pipeline.arrRef spec3 2) : S100000x1.Idx → Elt Ideal .f32) u := by
  obtain ⟨a0, a1, b0, b1, c0, c1, o0, o1, d0, d1, e0, e1, f0, f1, g0, g1⟩ := gruIdx3 t
  unfold iblk3
  rw [View.read_apply]
  show V c (Pipeline.arrRef spec3 2) _ = V c (Pipeline.arrRef spec3 2) _
  congr 1
  funext a
  apply Fin.ext
  match a with
  | ⟨0, _⟩ => show win3_2.index t 0 * 2000 + 1 * (y 0).val = (u 0).val; rw [c0, h0]; omega
  | ⟨1, _⟩ => show win3_2.index t 1 * 1 + 1 * (y 1).val = (u 1).val; rw [c1, h1]; omega

/-- Window 3's block is its whole array at every point. -/
theorem gruWhole3_3 (c : Dev nD) (t : Fin cfg3.N) : (iblk3 V c 3 t : Vec Ideal S128x384 .f32) = (V c (Pipeline.arrRef spec3 3) : S128x384.Idx → Elt Ideal .f32) := by
  obtain ⟨a0, a1, b0, b1, c0, c1, o0, o1, d0, d1, e0, e1, f0, f1, g0, g1⟩ := gruIdx3 t
  funext y
  unfold iblk3
  rw [View.read_apply]
  show V c (Pipeline.arrRef spec3 3) _ = V c (Pipeline.arrRef spec3 3) y
  congr 1
  funext a
  apply Fin.ext
  match a with
  | ⟨0, _⟩ => show win3_3.index t 0 * 128 + 1 * (y 0).val = (y 0).val; rw [d0]; omega
  | ⟨1, _⟩ => show win3_3.index t 1 * 384 + 1 * (y 1).val = (y 1).val; rw [d1]; omega

/-- Window 4's block is its whole array at every point. -/
theorem gruWhole3_4 (c : Dev nD) (t : Fin cfg3.N) : (iblk3 V c 4 t : Vec Ideal S128x384 .f32) = (V c (Pipeline.arrRef spec3 4) : S128x384.Idx → Elt Ideal .f32) := by
  obtain ⟨a0, a1, b0, b1, c0, c1, o0, o1, d0, d1, e0, e1, f0, f1, g0, g1⟩ := gruIdx3 t
  funext y
  unfold iblk3
  rw [View.read_apply]
  show V c (Pipeline.arrRef spec3 4) _ = V c (Pipeline.arrRef spec3 4) y
  congr 1
  funext a
  apply Fin.ext
  match a with
  | ⟨0, _⟩ => show win3_4.index t 0 * 128 + 1 * (y 0).val = (y 0).val; rw [e0]; omega
  | ⟨1, _⟩ => show win3_4.index t 1 * 384 + 1 * (y 1).val = (y 1).val; rw [e1]; omega

/-- Window 5's block is its whole array at every point. -/
theorem gruWhole3_5 (c : Dev nD) (t : Fin cfg3.N) : (iblk3 V c 5 t : Vec Ideal S1x384 .f32) = (V c (Pipeline.arrRef spec3 5) : S1x384.Idx → Elt Ideal .f32) := by
  obtain ⟨a0, a1, b0, b1, c0, c1, o0, o1, d0, d1, e0, e1, f0, f1, g0, g1⟩ := gruIdx3 t
  funext y
  unfold iblk3
  rw [View.read_apply]
  show V c (Pipeline.arrRef spec3 5) _ = V c (Pipeline.arrRef spec3 5) y
  congr 1
  funext a
  apply Fin.ext
  match a with
  | ⟨0, _⟩ => show win3_5.index t 0 * 1 + 1 * (y 0).val = (y 0).val; rw [f0]; omega
  | ⟨1, _⟩ => show win3_5.index t 1 * 384 + 1 * (y 1).val = (y 1).val; rw [f1]; omega

/-- Window 6's block is its whole array at every point. -/
theorem gruWhole3_6 (c : Dev nD) (t : Fin cfg3.N) : (iblk3 V c 6 t : Vec Ideal S1x384 .f32) = (V c (Pipeline.arrRef spec3 6) : S1x384.Idx → Elt Ideal .f32) := by
  obtain ⟨a0, a1, b0, b1, c0, c1, o0, o1, d0, d1, e0, e1, f0, f1, g0, g1⟩ := gruIdx3 t
  funext y
  unfold iblk3
  rw [View.read_apply]
  show V c (Pipeline.arrRef spec3 6) _ = V c (Pipeline.arrRef spec3 6) y
  congr 1
  funext a
  apply Fin.ext
  match a with
  | ⟨0, _⟩ => show win3_6.index t 0 * 1 + 1 * (y 0).val = (y 0).val; rw [g0]; omega
  | ⟨1, _⟩ => show win3_6.index t 1 * 384 + 1 * (y 1).val = (y 1).val; rw [g1]; omega

/-- The write-back takes the whole block: the block program's result read at an index of the block. -/
theorem gruCutL3 (c : Dev nD) (t : Fin cfg3.N) (j : ((win3 7).xblock (grid3.coords t)).Idx) :
    (win3 7).cut (grid3.coords t) (k3_pay1 (F := Ideal) (iblk3 V c 0 t : Vec Ideal S2000x128 .f32) (iblk3 V c 2 t : Vec Ideal S2000x1 .f32) (iblk3 V c 1 t : Vec Ideal S2000x128 .f32) (iblk3 V c 3 t : Vec Ideal S128x384 .f32) (iblk3 V c 4 t : Vec Ideal S128x384 .f32) (iblk3 V c 5 t : Vec Ideal S1x384 .f32) (iblk3 V c 6 t : Vec Ideal S1x384 .f32)) j
      = k3_pay1 (F := Ideal) (iblk3 V c 0 t : Vec Ideal S2000x128 .f32) (iblk3 V c 2 t : Vec Ideal S2000x1 .f32) (iblk3 V c 1 t : Vec Ideal S2000x128 .f32) (iblk3 V c 3 t : Vec Ideal S128x384 .f32) (iblk3 V c 4 t : Vec Ideal S128x384 .f32) (iblk3 V c 5 t : Vec Ideal S1x384 .f32) (iblk3 V c 6 t : Vec Ideal S1x384 .f32) j := rfl

/-- Block t of an array read at an index of the block is the array at the index's place in the array. -/
theorem gruReadR3 (t : Fin cfg3.N) (j : ((win3 7).xblock (grid3.coords t)).Idx) (G : FVec Ideal S100000x128 .f32) :
    View.read (Elt Ideal) ((View.whole main_v75).slice ((win3 7).rect t)) G j = G (((cfg3.win 7).blk t).view.emb j) := rfl

/-- What point t writes back is block t of the whole-array update. -/
theorem gruFlushed3 (c : Dev nD) (t : Fin cfg3.N) :
    (dat3 (F := Ideal) V c).flushed 7 t = ((cfg3.win 7).blk t).view.read (Elt Ideal) (gruKC (V c (Pipeline.arrRef spec3 0) : S100000x128.Idx → Elt Ideal .f32) (V c (Pipeline.arrRef spec3 1) : S100000x128.Idx → Elt Ideal .f32) (V c (Pipeline.arrRef spec3 2) : S100000x1.Idx → Elt Ideal .f32) (V c (Pipeline.arrRef spec3 3) : S128x384.Idx → Elt Ideal .f32) (V c (Pipeline.arrRef spec3 4) : S128x384.Idx → Elt Ideal .f32) (V c (Pipeline.arrRef spec3 5) : S1x384.Idx → Elt Ideal .f32) (V c (Pipeline.arrRef spec3 6) : S1x384.Idx → Elt Ideal .f32)) := by
  show (cfg3.win 7).cut (grid3.coords t) ((dat3 (F := Ideal) V c).after 7 t) = _
  rw [after3_7]
  unfold out3_7
  rw [View.canon_unit_zero gruHz3]
  simp only [View.ld_unit_zero (S := S2000x128) gruHz3, View.ld_unit_zero (S := S2000x1) gruHz3,
    View.ld_unit_zero (S := S128x384) gruHz3, View.ld_unit_zero (S := S1x384) gruHz3]
  obtain ⟨a0, a1, b0, b1, c0, c1, o0, o1, d0, d1, e0, e1, f0, f1, g0, g1⟩ := gruIdx3 t
  funext j
  refine (gruCutL3 V c t j).trans ?_
  refine Eq.trans ?_ (gruReadR3 t j _).symm
  refine (gruPay3_at (iblk3 V c 0 t : Vec Ideal S2000x128 .f32) (iblk3 V c 2 t : Vec Ideal S2000x1 .f32) (iblk3 V c 1 t : Vec Ideal S2000x128 .f32) (iblk3 V c 3 t : Vec Ideal S128x384 .f32) (iblk3 V c 4 t : Vec Ideal S128x384 .f32) (iblk3 V c 5 t : Vec Ideal S1x384 .f32) (iblk3 V c 6 t : Vec Ideal S1x384 .f32) j).trans ?_
  refine gruBlockC (iblk3 V c 0 t : Vec Ideal S2000x128 .f32) (iblk3 V c 1 t : Vec Ideal S2000x128 .f32) (iblk3 V c 2 t : Vec Ideal S2000x1 .f32) (iblk3 V c 3 t : Vec Ideal S128x384 .f32) (iblk3 V c 4 t : Vec Ideal S128x384 .f32) (iblk3 V c 5 t : Vec Ideal S1x384 .f32) (iblk3 V c 6 t : Vec Ideal S1x384 .f32)
    (V c (Pipeline.arrRef spec3 0) : S100000x128.Idx → Elt Ideal .f32) (V c (Pipeline.arrRef spec3 1) : S100000x128.Idx → Elt Ideal .f32) (V c (Pipeline.arrRef spec3 2) : S100000x1.Idx → Elt Ideal .f32) (V c (Pipeline.arrRef spec3 3) : S128x384.Idx → Elt Ideal .f32) (V c (Pipeline.arrRef spec3 4) : S128x384.Idx → Elt Ideal .f32) (V c (Pipeline.arrRef spec3 5) : S1x384.Idx → Elt Ideal .f32) (V c (Pipeline.arrRef spec3 6) : S1x384.Idx → Elt Ideal .f32)
    (t.val * 2000) j (((cfg3.win 7).blk t).view.emb j) ?_ ?_
    (gruRead3_0 V c t) (gruRead3_1 V c t) (gruRead3_2 V c t)
    (gruWhole3_3 V c t) (gruWhole3_4 V c t) (gruWhole3_5 V c t) (gruWhole3_6 V c t)
  · show win3_7.index t 0 * 2000 + 1 * (j 0).val = t.val * 2000 + (j 0).val
    rw [o0]; omega
  · show win3_7.index t 1 * 128 + 1 * (j 1).val = (j 1).val
    rw [o1]; omega

/-- An index of the output array is in point t's block iff each coordinate is in the block's range. -/
theorem gruMemBlk3 (t : Fin cfg3.N) (i : S100000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole main_v75).slice (win3_7.rect t)).set ↔ _
  rw [View.set_slice_whole, Rect.mem_set_unit]
  exact Iff.rfl

/-- Row r of the output is written by point r / 2000. -/
theorem gruCover3 (i : S100000x128.Idx) :
    ∃ t : Fin cfg3.N, (cfg3.win 7).flush t = true ∧ i ∈ ((cfg3.win 7).blk t).view.set := by
  have hN : cfg3.N = 50 := N_3
  have hi0 : (i 0).val < 100000 := (i 0).isLt
  have hi1 : (i 1).val < 128 := (i 1).isLt
  refine ⟨⟨(i 0).val / 2000, by rw [hN]; omega⟩, flush3_7 _, ?_⟩
  obtain ⟨a0, a1, b0, b1, c0, c1, o0, o1, d0, d1, e0, e1, f0, f1, g0, g1⟩ := gruIdx3 ⟨(i 0).val / 2000, by rw [hN]; omega⟩
  rw [gruMemBlk3]
  intro a
  match a with
  | ⟨0, _⟩ =>
    show win3_7.index _ 0 * 2000 ≤ (i 0).val ∧ (i 0).val < win3_7.index _ 0 * 2000 + 2000
    rw [o0]
    show (i 0).val / 2000 * 2000 ≤ (i 0).val ∧ (i 0).val < (i 0).val / 2000 * 2000 + 2000
    omega
  | ⟨1, _⟩ =>
    show win3_7.index _ 1 * 128 ≤ (i 1).val ∧ (i 1).val < win3_7.index _ 1 * 128 + 128
    rw [o1]
    omega

/-- The region's output array after the run is the whole-array update of the arrays the region finds. -/
theorem gru_region3 (c : Dev nD) :
    (dat3 (F := Ideal) V c).arrAt 7 cfg3.N = (gruKC (V c (Pipeline.arrRef spec3 0) : S100000x128.Idx → Elt Ideal .f32) (V c (Pipeline.arrRef spec3 1) : S100000x128.Idx → Elt Ideal .f32) (V c (Pipeline.arrRef spec3 2) : S100000x1.Idx → Elt Ideal .f32) (V c (Pipeline.arrRef spec3 3) : S128x384.Idx → Elt Ideal .f32) (V c (Pipeline.arrRef spec3 4) : S128x384.Idx → Elt Ideal .f32) (V c (Pipeline.arrRef spec3 5) : S1x384.Idx → Elt Ideal .f32) (V c (Pipeline.arrRef spec3 6) : S1x384.Idx → Elt Ideal .f32)) :=
  (dat3 (F := Ideal) V c).arrAt_eq_of_cover 7 (gruKC (V c (Pipeline.arrRef spec3 0) : S100000x128.Idx → Elt Ideal .f32) (V c (Pipeline.arrRef spec3 1) : S100000x128.Idx → Elt Ideal .f32) (V c (Pipeline.arrRef spec3 2) : S100000x1.Idx → Elt Ideal .f32) (V c (Pipeline.arrRef spec3 3) : S128x384.Idx → Elt Ideal .f32) (V c (Pipeline.arrRef spec3 4) : S128x384.Idx → Elt Ideal .f32) (V c (Pipeline.arrRef spec3 5) : S1x384.Idx → Elt Ideal .f32) (V c (Pipeline.arrRef spec3 6) : S1x384.Idx → Elt Ideal .f32))
    (fun t _ => gruFlushed3 V c t) (gruCover3)

end Cert.KernelIdeal.Net

end
-- ==== Proof.MsgBridge.lean ====
/-
  The row-block form of the message layer equals the host's form.

  Entry (p, q) of [a | b] · W is a sum over the 256 columns of the joined row.  The first 128 columns are row p of a
  against the upper half of W, the last 128 are row p of b against the lower half, so the sum is the sum of the two
  128-term sums the row-block form adds; the bias read through a 1×128 row and the bias broadcast over the rows are the
  same entry; and the zero the maximum is taken with is the same zero.  Only commutativity-free regrouping of one finite
  sum is used: nothing here needs the entries to be finite.
-/
import proofs.«154953_j22007412425053_2_alg».proof.Proof.MsgSpec
import Idealize.ShloMosaic.Lib.Pipeline.Value

noncomputable section

open scoped BigOperators

namespace Cert.Net

open Idealize.ShloMosaic Idealize.ShloMosaic.ValueIdx

/-- Column k of the first half of a joined row. -/
def colLo (k : Fin 128) : Fin 256 := ⟨k.val, Nat.lt_of_lt_of_le k.isLt (by decide)⟩

/-- Column k of the second half of a joined row. -/
def colHi (k : Fin 128) : Fin 256 := ⟨128 + k.val, by have := k.isLt; omega⟩

/-- A sum over 256 columns is the sum over the first 128 plus the sum over the last 128. -/
theorem sum_halves (f : Fin 256 → EReal) : ∑ k : Fin 256, f k = ∑ k : Fin 128, f (colLo k) + ∑ k : Fin 128, f (colHi k) :=
  Fin.sum_univ_add (a := 128) (b := 128) (f : Fin (128 + 128) → EReal)

section Join
open Cert.ReferenceIdeal Cert.ReferenceIdeal.Gen

/-- The joined array at a column of its first half is a. -/
theorem join_lo (a b : FVec Ideal S200000x128 .f32) (p : Fin 200000) (k : Fin 128) :
    concatenate S200000x256 1 [⟨S200000x128, a⟩, ⟨S200000x128, b⟩] concatenates_S200000x128_S200000x128_S200000x256_d1
        (ix2 p (colLo k)) = a (ix2 p k) :=
  concatenate_pair_apply_left (1 : Fin S200000x256.rank) a b concatenates_S200000x128_S200000x128_S200000x256_d1
    (ix2 p (colLo k)) rfl (ix2 p k) (fun c => match c with
      | ⟨0, _⟩ => rfl
      | ⟨1, _⟩ => rfl)

/-- The joined array at a column of its second half is b. -/
theorem join_hi (a b : FVec Ideal S200000x128 .f32) (p : Fin 200000) (k : Fin 128) :
    concatenate S200000x256 1 [⟨S200000x128, a⟩, ⟨S200000x128, b⟩] concatenates_S200000x128_S200000x128_S200000x256_d1
        (ix2 p (colHi k)) = b (ix2 p k) :=
  concatenate_pair_apply_right (1 : Fin S200000x256.rank) a b concatenates_S200000x128_S200000x128_S200000x256_d1
    (ix2 p (colHi k)) rfl rfl (ix2 p k) (fun c => match c with
      | ⟨0, _⟩ => fun _ => rfl
      | ⟨1, _⟩ => fun h => absurd rfl h)
    (by show k.val + 128 = 128 + k.val; exact Nat.add_comm _ _)

/-- The bias broadcast to a 1×128 row and then over all rows, at an entry, is the bias at the entry's column. -/
theorem bias_rows (bias : FVec Ideal S128 .f32) (p : Fin 200000) (q : Fin 128) :
    broadcastInDim S200000x128 ![0, 1] bcast_S1x128_S200000x128_0_1 (broadcastInDim S1x128 ![1] bcast_S128_S1x128_1 bias) (ix2 p q)
      = bias (ix1 q) :=
  (broadcastInDim_apply _ bcast_S1x128_S200000x128_0_1 (broadcastInDim S1x128 ![1] bcast_S128_S1x128_1 bias) (ix2 p q)
      (ix2 (0 : Fin 1) q) (fun c => match c with
        | ⟨0, _⟩ => by show 0 = if (1 : Nat) = 1 then 0 else p.val; rw [if_pos rfl]
        | ⟨1, _⟩ => by show q.val = if (128 : Nat) = 1 then 0 else q.val; rw [if_neg (by decide)])).trans
    (broadcastInDim_apply _ bcast_S128_S1x128_1 bias (ix2 (0 : Fin 1) q) (ix1 q) (fun c => match c with
        | ⟨0, _⟩ => by show q.val = if (128 : Nat) = 1 then 0 else q.val; rw [if_neg (by decide)]))

/-- The host's product at an entry: the two half sums. -/
theorem dot_halves (a b : FVec Ideal S200000x128 .f32) (W : FVec Ideal S256x128 .f32) (p : Fin 200000) (q : Fin 128) :
    Host.dotGeneral (F := Ideal) dot_S200000x256_S256x128_S200000x128_1_0_0_1_n_n none
        (concatenate S200000x256 1 [⟨S200000x128, a⟩, ⟨S200000x128, b⟩] concatenates_S200000x128_S200000x128_S200000x256_d1)
        W (ix2 p q)
      = ∑ k : Fin 128, a (ix2 p k) * W (ix2 (colLo k) q) + ∑ k : Fin 128, b (ix2 p k) * W (ix2 (colHi k) q) := by
  refine (Cert.RowDot.dotGeneral_plain_apply (M := 200000) (K := 256) (N := 128) none .single
    (concatenate S200000x256 1 [⟨S200000x128, a⟩, ⟨S200000x128, b⟩] concatenates_S200000x128_S200000x128_S200000x256_d1)
    W (ix2 p q)).trans ?_
  unfold Cert.RowDot.rowDot Cert.RowDot.rowOf
  refine (sum_halves _).trans ?_
  refine congrArg₂ (fun x y : EReal => x + y) (Finset.sum_congr rfl fun k _ => ?_) (Finset.sum_congr rfl fun k _ => ?_)
  · exact congrArg (fun x : EReal => x * W (ix2 (colLo k) q)) (join_lo a b p k)
  · exact congrArg (fun x : EReal => x * W (ix2 (colHi k) q)) (join_hi a b p k)

end Join

section Halves
open Cert.KernelIdeal Cert.KernelIdeal.Gen

/-- The upper half of the weight at (k, q) is the weight at row k. -/
theorem upper_apply (W : FVec Ideal S256x128 .f32) (k q : Fin 128) :
    extractStridedSlice S128x128 ![0, 0] W slices_S256x128_S128x128_0_0 (ix2 k q) = W (ix2 (colLo k) q) :=
  extractStridedSlice_apply ![0, 0] W slices_S256x128_S128x128_0_0 (ix2 k q) (ix2 (colLo k) q) (fun c => match c with
    | ⟨0, _⟩ => by show k.val = 0 + k.val; exact (Nat.zero_add _).symm
    | ⟨1, _⟩ => by show q.val = 0 + q.val; exact (Nat.zero_add _).symm)

/-- The lower half of the weight at (k, q) is the weight at row 128 + k. -/
theorem lower_apply (W : FVec Ideal S256x128 .f32) (k q : Fin 128) :
    extractStridedSlice S128x128 ![128, 0] W slices_S256x128_S128x128_128_0 (ix2 k q) = W (ix2 (colHi k) q) :=
  extractStridedSlice_apply ![128, 0] W slices_S256x128_S128x128_128_0 (ix2 k q) (ix2 (colHi k) q) (fun c => match c with
    | ⟨0, _⟩ => rfl
    | ⟨1, _⟩ => by show q.val = 0 + q.val; exact (Nat.zero_add _).symm)

/-- The bias laid out as a 1×128 row, at column q, is the bias at q. -/
theorem bias_row (bias : FVec Ideal S128 .f32) (q : Fin 128) :
    shapeCast S1x128 bias shapeCasts_S128_S1x128 (ix2 (0 : Fin 1) q) = bias (ix1 q) :=
  shapeCast_apply bias shapeCasts_S128_S1x128 (ix2 (0 : Fin 1) q) (ix1 q) (by
    rw [Shape.rowMajor_val_one, Shape.rowMajor_val_two]
    show q.val = 0 * 128 + q.val
    omega)

/-- The row-block form on the halves of the weight and the 1×128 bias row is the host's form. -/
theorem msg_bridge (a b : FVec Ideal S200000x128 .bf16) (W : FVec Ideal S256x128 .f32) (bias : FVec Ideal S128 .f32) :
    msgK a b (extractStridedSlice S128x128 ![0, 0] W slices_S256x128_S128x128_0_0)
        (extractStridedSlice S128x128 ![128, 0] W slices_S256x128_S128x128_128_0)
        (shapeCast S1x128 bias shapeCasts_S128_S1x128)
      = msg a b W bias := by
  funext j
  obtain ⟨p, q, rfl⟩ : ∃ (p : Fin 200000) (q : Fin 128), j = ix2 p q := ⟨j 0, j 1, eq_ix2 j⟩
  rw [msgK_apply]
  unfold msg
  rw [maximumf_apply, addf_apply, dot_halves, bias_rows, bias_row]
  unfold Cert.RowDot.rowDot Cert.RowDot.rowOf
  simp only [upper_apply, lower_apply]
  exact congrArg (fun x : EReal => max (_ + _ + bias (ix1 q)) x) Ideal.ofBits_zero_f32.symm

end Halves

end Cert.Net

end
-- ==== Proof.MsgRef.lean ====
/-
  Each message layer of the host program is the function msg of its four inputs: the two gathered feature arrays
  (whatever earlier stages produce them), the layer's weight and its bias.  The host program spells the layer as a join
  along the columns, one product, two broadcasts of the bias, a sum and a maximum with the zero array; msg is that same
  composition with the inputs as variables, so each equation holds by unfolding the definitions.
-/
import proofs.«154953_j22007412425053_2_alg».proof.Proof.MsgSpec
import proofs.«154953_j22007412425053_2_alg».proof.Proof.RefRead

noncomputable section

namespace Cert.Net

open Idealize.ShloMosaic Cert.ReferenceIdeal Cert.ReferenceIdeal.Gen Cert.ReferenceIdeal.Read

theorem msg_ref_v22 (x0 : (⟨S100000x10, .f32⟩ : BufTy).Contents (Elt Ideal)) (x1 x2 : (⟨S200000, .i32⟩ : BufTy).Contents (Elt Ideal)) (x5 : (⟨S256x128, .f32⟩ : BufTy).Contents (Elt Ideal)) (x6 : (⟨S128, .f32⟩ : BufTy).Contents (Elt Ideal)) :
    val_main_v22 (F := Ideal) x0 x1 x2 x5 x6
      = msg (val_main_v9 (F := Ideal) x1) (val_main_v16 (F := Ideal) x0 x2) x5 x6 := rfl

theorem msg_ref_v53 (x0 : (⟨S100000x10, .f32⟩ : BufTy).Contents (Elt Ideal)) (x3 x4 : (⟨S200000, .i32⟩ : BufTy).Contents (Elt Ideal)) (x7 : (⟨S256x128, .f32⟩ : BufTy).Contents (Elt Ideal)) (x8 : (⟨S128, .f32⟩ : BufTy).Contents (Elt Ideal)) :
    val_main_v53 (F := Ideal) x0 x3 x4 x7 x8
      = msg (val_main_v40 (F := Ideal) x0 x3) (val_main_v47 (F := Ideal) x4) x7 x8 := rfl

theorem msg_ref_v164 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v164 (F := Ideal) x0 x1 x2 x3 x4 x5 x6 x7 x8 x9 x10 x11 x12 x13 x14
      = msg (val_main_v151 (F := Ideal) x0 x1 x3 x4 x7 x8 x9 x10 x11) (val_main_v158 (F := Ideal) x0 x1 x2 x5 x6 x12 x13 x14) x5 x6 := rfl

theorem msg_ref_v195 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v195 (F := Ideal) x0 x1 x2 x3 x4 x5 x6 x7 x8 x9 x10 x11 x12 x13 x14
      = msg (val_main_v182 (F := Ideal) x0 x1 x2 x3 x5 x6 x12 x13 x14) (val_main_v189 (F := Ideal) x0 x3 x4 x7 x8 x9 x10 x11) x7 x8 := rfl

theorem msg_ref_v306 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v306 (F := Ideal) x0 x1 x2 x3 x4 x5 x6 x7 x8 x9 x10 x11 x12 x13 x14
      = msg (val_main_v293 (F := Ideal) x0 x1 x2 x3 x4 x5 x6 x7 x8 x9 x10 x11 x12 x13 x14) (val_main_v300 (F := Ideal) x0 x1 x2 x3 x4 x5 x6 x7 x8 x9 x10 x11 x12 x13 x14) x5 x6 := rfl

end Cert.Net

end
-- ==== Proof.GruBridgeLib.lean ====
/-
  Entry-by-entry readings shared by the two sizes of the recurrent update: the host's exponential, negation and
  hyperbolic tangent, and the bias rows as the kernel receives them.
-/
import proofs.«154953_j22007412425053_2_alg».proof.Proof.GruSpec
import Idealize.ShloMosaic.Lib.Pipeline.Value
import Idealize.ShloMosaic.Lib.ValueLayout
import Idealize.ShloMosaic.Lib.IdealHost

noncomputable section

open scoped BigOperators

namespace Cert.Net

open Idealize.ShloMosaic Idealize.ShloMosaic.ValueIdx Cert.RowDot
open Cert.ReferenceIdeal Cert.ReferenceIdeal.Gen

/-- The host's exponential, negation and hyperbolic tangent act entry by entry. -/
theorem gruHostExp_apply {s : Shape} (a : FVec Ideal s .f32) (i : s.Idx) : Host.exp a i = Ideal.exp (a i) := rfl
theorem gruHostNeg_apply {s : Shape} (a : FVec Ideal s .f32) (i : s.Idx) : Host.negf a i = -(a i) := rfl
theorem gruHostTanh_apply {s : Shape} (a : FVec Ideal s .f32) (i : s.Idx) : Host.tanh a i = Ideal.tanh (a i) := rfl

/-- A bias row as the kernel receives it reads row 0 (resp. row 1) of the bias array. -/
theorem gruB0_apply (B : FVec Ideal S2x384 .f32) (c : Fin 384) : gruB0 B (ix2 (0 : Fin 1) c) = B (ix2 (0 : Fin 2) c) := by
  unfold gruB0
  exact (shapeCast_a_1a_apply _ _ (0 : Fin 1) c).trans
    ((shapeCast_1a_a_apply _ _ c).trans (slice2_axis0_apply 0 B _ (0 : Fin 1) c (0 : Fin 2) rfl))
theorem gruB1_apply (B : FVec Ideal S2x384 .f32) (c : Fin 384) : gruB1 B (ix2 (0 : Fin 1) c) = B (ix2 (1 : Fin 2) c) := by
  unfold gruB1
  exact (shapeCast_a_1a_apply _ _ (0 : Fin 1) c).trans
    ((shapeCast_1a_a_apply _ _ c).trans (slice2_axis0_apply 1 B _ (0 : Fin 1) c (1 : Fin 2) rfl))

end Cert.Net

end
-- ==== Proof.GruBridgeIp.lean ====
/-
  The update the kernel computes and the update the host composes agree.

  The kernel is handed the column inv = 1 / max(count, 1) and multiplies: its product's input row is S(p, ·)·inv(p).
  The host divides: its input row is S(p, ·) / max(count(p), 1).  On the extended reals x · (1 / d) = x / d as soon
  as d ≠ 0, and max(count, 1) ≥ 1 > 0 whatever the count is.  The bias rows are the same entries of the 2×384 bias
  array read through two different chains of reshapes and broadcasts, a product into a zero accumulator is the
  host's product, and the sigmoid is 1 / (1 + exp(-·)) by definition; everything else matches operation by operation.
-/
import proofs.«154953_j22007412425053_2_alg».proof.Proof.GruBridgeLib

noncomputable section

open scoped BigOperators

namespace Cert.Net

open Idealize.ShloMosaic Idealize.ShloMosaic.ValueIdx Cert.RowDot
open Cert.ReferenceIdeal Cert.ReferenceIdeal.Gen

section SizeIp

/-- The segment counts, as the host accumulates them. -/
def gruCntIp (idx : (⟨S200000, .i32⟩ : BufTy).Contents (Elt Ideal)) : FVec Ideal S20000x1 .f32 :=
  Host.scatterAdd scatter_S20000x1_S200000x1_S200000x1_1_0_0_1
    (broadcastInDim S20000x1 ![] bcast_S_S20000x1 (constant (F := Ideal) S_ .f32 0x00000000#32))
    (broadcastInDim S200000x1 ![0] bcast_S200000_S200000x1_0 idx)
    (broadcastInDim S200000x1 ![] bcast_S_S200000x1 (constant (F := Ideal) S_ .f32 0x3F800000#32))

/-- The column of ones the counts are compared with reads one everywhere. -/
theorem gruOneColIp_apply (i : S20000x1.Idx) :
    broadcastInDim S20000x1 ![] bcast_S_S20000x1 (constant (F := Ideal) S_ .f32 0x3F800000#32) i = 1 :=
  (broadcastInDim_scalar_apply bcast_S_S20000x1 _ i).trans Ideal.ofBits_one_f32

/-- The array of ones in the sigmoids reads one everywhere. -/
theorem gruOneIp_apply (i : S20000x128.Idx) :
    broadcastInDim S20000x128 ![] bcast_S_S20000x128 (constant (F := Ideal) S_ .f32 0x3F800000#32) i = 1 :=
  (broadcastInDim_scalar_apply bcast_S_S20000x128 _ i).trans Ideal.ofBits_one_f32

/-- The kernel's column of reciprocals, entry p: one over the larger of the count and one. -/
theorem gruInvIp_apply (idx : (⟨S200000, .i32⟩ : BufTy).Contents (Elt Ideal)) (p : Fin 20000) :
    invIp idx (ix2 p (0 : Fin 1)) = Ideal.div 1 (max (gruCntIp idx (ix2 p (0 : Fin 1))) 1) := by
  unfold invIp
  rw [hostDivf_apply, maximumf_apply, gruOneColIp_apply]
  rfl

/-- The host's segment mean, entry (p, k): the segment sum over the larger of the count and one. -/
theorem gruMeanIp_apply (S : FVec Ideal S20000x128 .f32) (idx : (⟨S200000, .i32⟩ : BufTy).Contents (Elt Ideal))
    (p : Fin 20000) (k : Fin 128) :
    gruMeanIp S idx (ix2 p k) = Ideal.div (S (ix2 p k)) (max (gruCntIp idx (ix2 p (0 : Fin 1))) 1) := by
  unfold gruMeanIp
  rw [hostDivf_apply]
  refine congrArg (fun e : EReal => Ideal.div (S (ix2 p k)) e) ?_
  refine (broadcastInDim_apply _ bcast_S20000x1_S20000x128_0_1 _ (ix2 p k) (ix2 p (0 : Fin 1)) (fun a => ?_)).trans ?_
  · match a with
    | ⟨0, _⟩ => show p.val = if (20000 : Nat) = 1 then 0 else p.val; rw [if_neg (by decide)]
    | ⟨1, _⟩ => show 0 = if (1 : Nat) = 1 then 0 else k.val; rw [if_pos rfl]
  · show max (gruCntIp idx (ix2 p (0 : Fin 1))) (broadcastInDim S20000x1 ![] bcast_S_S20000x1 (constant (F := Ideal) S_ .f32 0x3F800000#32) (ix2 p (0 : Fin 1))) = _
    rw [gruOneColIp_apply]

/-- Scaling by the reciprocal is dividing: the divisor is at least one, so it is not zero. -/
theorem gruRowIp_eq (S : FVec Ideal S20000x128 .f32) (idx : (⟨S200000, .i32⟩ : BufTy).Contents (Elt Ideal)) (p : Fin 20000) :
    (fun k : Fin 128 => S (ix2 p k) * invIp idx (ix2 p (0 : Fin 1))) = rowOf (gruMeanIp S idx) p :=
  funext fun k => by
    show _ = gruMeanIp S idx (ix2 p k)
    rw [gruInvIp_apply, gruMeanIp_apply]
    exact Ideal.mul_one_div (lt_of_lt_of_le zero_lt_one (le_max_right _ _)).ne'

/-- The host's product at an entry: row p of the left operand times the matrix. -/
theorem gruDotIp_apply (x : FVec Ideal S20000x128 .f32) (W : FVec Ideal S128x384 .f32) (p : Fin 20000) (c : Fin 384) :
    Host.dotGeneral dot_S20000x128_S128x384_S20000x384_1_0_0_1_n_n none x W (ix2 p c) = rowDot (rowOf x p) W c := by
  simp only [Host.dotGeneral]
  exact dotGeneral_plain_apply (M := 20000) (K := 128) (N := 384) none _ x W (ix2 p c)

/-- The host's bias rows, broadcast over the rows, read row 0 (resp. row 1) of the bias array at column c. -/
theorem gruBiasRef0Ip_apply (B : FVec Ideal S2x384 .f32) (p : Fin 20000) (c : Fin 384) :
    broadcastInDim S20000x384 ![0, 1] bcast_S1x384_S20000x384_0_1
      (broadcastInDim S1x384 ![1] bcast_S384_S1x384_1
        (shapeCast S384 (extractStridedSlice S1x384 ![0, 0] B slices_S2x384_S1x384_0_0) shapeCasts_S1x384_S384)) (ix2 p c)
      = B (ix2 (0 : Fin 2) c) := by
  refine (broadcastInDim_apply _ bcast_S1x384_S20000x384_0_1 _ (ix2 p c) (ix2 (0 : Fin 1) c) (fun a => ?_)).trans ?_
  · match a with
    | ⟨0, _⟩ => show 0 = if (1 : Nat) = 1 then 0 else p.val; rw [if_pos rfl]
    | ⟨1, _⟩ => show c.val = if (384 : Nat) = 1 then 0 else c.val; rw [if_neg (by decide)]
  refine (broadcastInDim_apply _ bcast_S384_S1x384_1 _ (ix2 (0 : Fin 1) c) (ix1 c) (fun a => ?_)).trans ?_
  · match a with
    | ⟨0, _⟩ => show c.val = if (384 : Nat) = 1 then 0 else c.val; rw [if_neg (by decide)]
  exact (shapeCast_1a_a_apply _ shapeCasts_S1x384_S384 c).trans
    (slice2_axis0_apply 0 B slices_S2x384_S1x384_0_0 (0 : Fin 1) c (0 : Fin 2) rfl)
theorem gruBiasRef1Ip_apply (B : FVec Ideal S2x384 .f32) (p : Fin 20000) (c : Fin 384) :
    broadcastInDim S20000x384 ![0, 1] bcast_S1x384_S20000x384_0_1
      (broadcastInDim S1x384 ![1] bcast_S384_S1x384_1
        (shapeCast S384 (extractStridedSlice S1x384 ![1, 0] B slices_S2x384_S1x384_1_0) shapeCasts_S1x384_S384)) (ix2 p c)
      = B (ix2 (1 : Fin 2) c) := by
  refine (broadcastInDim_apply _ bcast_S1x384_S20000x384_0_1 _ (ix2 p c) (ix2 (0 : Fin 1) c) (fun a => ?_)).trans ?_
  · match a with
    | ⟨0, _⟩ => show 0 = if (1 : Nat) = 1 then 0 else p.val; rw [if_pos rfl]
    | ⟨1, _⟩ => show c.val = if (384 : Nat) = 1 then 0 else c.val; rw [if_neg (by decide)]
  refine (broadcastInDim_apply _ bcast_S384_S1x384_1 _ (ix2 (0 : Fin 1) c) (ix1 c) (fun a => ?_)).trans ?_
  · match a with
    | ⟨0, _⟩ => show c.val = if (384 : Nat) = 1 then 0 else c.val; rw [if_neg (by decide)]
  exact (shapeCast_1a_a_apply _ shapeCasts_S1x384_S384 c).trans
    (slice2_axis0_apply 1 B slices_S2x384_S1x384_1_0 (0 : Fin 1) c (1 : Fin 2) rfl)

/-- The host's pre-activations at an entry. -/
theorem gruXmIp_apply (x : FVec Ideal S20000x128 .f32) (K : FVec Ideal S128x384 .f32) (B : FVec Ideal S2x384 .f32)
    (p : Fin 20000) (c : Fin 384) : gruXmIp x K B (ix2 p c) = rowDot (rowOf x p) K c + B (ix2 (0 : Fin 2) c) := by
  unfold gruXmIp
  rw [addf_apply, gruDotIp_apply, gruBiasRef0Ip_apply]
theorem gruHmIp_apply (h : FVec Ideal S20000x128 .f32) (W : FVec Ideal S128x384 .f32) (B : FVec Ideal S2x384 .f32)
    (p : Fin 20000) (c : Fin 384) : gruHmIp h W B (ix2 p c) = rowDot (rowOf h p) W c + B (ix2 (1 : Fin 2) c) := by
  unfold gruHmIp
  rw [addf_apply, gruDotIp_apply, gruBiasRef1Ip_apply]

/-- The three column blocks of a 20000×384 array. -/
theorem gruSl0Ip_apply (Y : FVec Ideal S20000x384 .f32) (p : Fin 20000) (q : Fin 128) :
    extractStridedSlice S20000x128 ![0, 0] Y slices_S20000x384_S20000x128_0_0 (ix2 p q) = Y (ix2 p (gruC0 q)) :=
  slice2_axis1_apply 0 Y slices_S20000x384_S20000x128_0_0 p q (gruC0 q) (Nat.zero_add _).symm
theorem gruSl1Ip_apply (Y : FVec Ideal S20000x384 .f32) (p : Fin 20000) (q : Fin 128) :
    extractStridedSlice S20000x128 ![0, 128] Y slices_S20000x384_S20000x128_0_128 (ix2 p q) = Y (ix2 p (gruC1 q)) :=
  slice2_axis1_apply 128 Y slices_S20000x384_S20000x128_0_128 p q (gruC1 q) rfl
theorem gruSl2Ip_apply (Y : FVec Ideal S20000x384 .f32) (p : Fin 20000) (q : Fin 128) :
    extractStridedSlice S20000x128 ![0, 256] Y slices_S20000x384_S20000x128_0_256 (ix2 p q) = Y (ix2 p (gruC2 q)) :=
  slice2_axis1_apply 256 Y slices_S20000x384_S20000x128_0_256 p q (gruC2 q) rfl

/-- The host's gates at an entry, from the two pre-activation arrays. -/
theorem gruCellIp_apply (xm hm : FVec Ideal S20000x384 .f32) (h : FVec Ideal S20000x128 .f32) (p : Fin 20000) (q : Fin 128) :
    gruCellIp xm hm h (ix2 p q) = gruGate (fun c => xm (ix2 p c)) (fun c => hm (ix2 p c)) (h (ix2 p q)) q := by
  unfold gruCellIp gruZIp gruRIp
  simp only [addf_apply, mulf_apply, subf_apply, hostDivf_apply, gruHostExp_apply, gruHostNeg_apply, gruHostTanh_apply,
    gruSl0Ip_apply, gruSl1Ip_apply, gruSl2Ip_apply]
  rw [gruOneIp_apply]
  rfl

/-- The update with the reciprocal counts folded into the product's input is the host's update of the segment mean. -/
theorem gruIp_bridge (S h : FVec Ideal S20000x128 .f32) (idx : (⟨S200000, .i32⟩ : BufTy).Contents (Elt Ideal))
    (K W : FVec Ideal S128x384 .f32) (B : FVec Ideal S2x384 .f32) :
    gruKIp S h (invIp idx) K W (gruB0 B) (gruB1 B) = gruIp S h idx K W B := by
  funext i
  obtain ⟨p, q, rfl⟩ : ∃ (p : Fin 20000) (q : Fin 128), i = ix2 p q := ⟨i 0, i 1, eq_ix2 i⟩
  show gruKAt (M := 20000) S h (invIp idx) K W (gruB0 B) (gruB1 B) p q = _
  unfold gruKAt gruIp
  rw [gruCellIp_apply, gruRowIp_eq]
  simp only [gruXmIp_apply, gruHmIp_apply, gruB0_apply, gruB1_apply]

end SizeIp

end Cert.Net

end
-- ==== Proof.GruBridgeC.lean ====
/-
  The update the kernel computes and the update the host composes agree.

  The kernel is handed the column inv = 1 / max(count, 1) and multiplies: its product's input row is S(p, ·)·inv(p).
  The host divides: its input row is S(p, ·) / max(count(p), 1).  On the extended reals x · (1 / d) = x / d as soon
  as d ≠ 0, and max(count, 1) ≥ 1 > 0 whatever the count is.  The bias rows are the same entries of the 2×384 bias
  array read through two different chains of reshapes and broadcasts, a product into a zero accumulator is the
  host's product, and the sigmoid is 1 / (1 + exp(-·)) by definition; everything else matches operation by operation.
-/
import proofs.«154953_j22007412425053_2_alg».proof.Proof.GruBridgeLib

noncomputable section

open scoped BigOperators

namespace Cert.Net

open Idealize.ShloMosaic Idealize.ShloMosaic.ValueIdx Cert.RowDot
open Cert.ReferenceIdeal Cert.ReferenceIdeal.Gen

section SizeC

/-- The segment counts, as the host accumulates them. -/
def gruCntC (idx : (⟨S200000, .i32⟩ : BufTy).Contents (Elt Ideal)) : FVec Ideal S100000x1 .f32 :=
  Host.scatterAdd scatter_S100000x1_S200000x1_S200000x1_1_0_0_1
    (broadcastInDim S100000x1 ![] bcast_S_S100000x1 (constant (F := Ideal) S_ .f32 0x00000000#32))
    (broadcastInDim S200000x1 ![0] bcast_S200000_S200000x1_0 idx)
    (broadcastInDim S200000x1 ![] bcast_S_S200000x1 (constant (F := Ideal) S_ .f32 0x3F800000#32))

/-- The column of ones the counts are compared with reads one everywhere. -/
theorem gruOneColC_apply (i : S100000x1.Idx) :
    broadcastInDim S100000x1 ![] bcast_S_S100000x1 (constant (F := Ideal) S_ .f32 0x3F800000#32) i = 1 :=
  (broadcastInDim_scalar_apply bcast_S_S100000x1 _ i).trans Ideal.ofBits_one_f32

/-- The array of ones in the sigmoids reads one everywhere. -/
theorem gruOneC_apply (i : S100000x128.Idx) :
    broadcastInDim S100000x128 ![] bcast_S_S100000x128 (constant (F := Ideal) S_ .f32 0x3F800000#32) i = 1 :=
  (broadcastInDim_scalar_apply bcast_S_S100000x128 _ i).trans Ideal.ofBits_one_f32

/-- The kernel's column of reciprocals, entry p: one over the larger of the count and one. -/
theorem gruInvC_apply (idx : (⟨S200000, .i32⟩ : BufTy).Contents (Elt Ideal)) (p : Fin 100000) :
    invC idx (ix2 p (0 : Fin 1)) = Ideal.div 1 (max (gruCntC idx (ix2 p (0 : Fin 1))) 1) := by
  unfold invC
  rw [hostDivf_apply, maximumf_apply, gruOneColC_apply]
  rfl

/-- The host's segment mean, entry (p, k): the segment sum over the larger of the count and one. -/
theorem gruMeanC_apply (S : FVec Ideal S100000x128 .f32) (idx : (⟨S200000, .i32⟩ : BufTy).Contents (Elt Ideal))
    (p : Fin 100000) (k : Fin 128) :
    gruMeanC S idx (ix2 p k) = Ideal.div (S (ix2 p k)) (max (gruCntC idx (ix2 p (0 : Fin 1))) 1) := by
  unfold gruMeanC
  rw [hostDivf_apply]
  refine congrArg (fun e : EReal => Ideal.div (S (ix2 p k)) e) ?_
  refine (broadcastInDim_apply _ bcast_S100000x1_S100000x128_0_1 _ (ix2 p k) (ix2 p (0 : Fin 1)) (fun a => ?_)).trans ?_
  · match a with
    | ⟨0, _⟩ => show p.val = if (100000 : Nat) = 1 then 0 else p.val; rw [if_neg (by decide)]
    | ⟨1, _⟩ => show 0 = if (1 : Nat) = 1 then 0 else k.val; rw [if_pos rfl]
  · show max (gruCntC idx (ix2 p (0 : Fin 1))) (broadcastInDim S100000x1 ![] bcast_S_S100000x1 (constant (F := Ideal) S_ .f32 0x3F800000#32) (ix2 p (0 : Fin 1))) = _
    rw [gruOneColC_apply]

/-- Scaling by the reciprocal is dividing: the divisor is at least one, so it is not zero. -/
theorem gruRowC_eq (S : FVec Ideal S100000x128 .f32) (idx : (⟨S200000, .i32⟩ : BufTy).Contents (Elt Ideal)) (p : Fin 100000) :
    (fun k : Fin 128 => S (ix2 p k) * invC idx (ix2 p (0 : Fin 1))) = rowOf (gruMeanC S idx) p :=
  funext fun k => by
    show _ = gruMeanC S idx (ix2 p k)
    rw [gruInvC_apply, gruMeanC_apply]
    exact Ideal.mul_one_div (lt_of_lt_of_le zero_lt_one (le_max_right _ _)).ne'

/-- The host's product at an entry: row p of the left operand times the matrix. -/
theorem gruDotC_apply (x : FVec Ideal S100000x128 .f32) (W : FVec Ideal S128x384 .f32) (p : Fin 100000) (c : Fin 384) :
    Host.dotGeneral dot_S100000x128_S128x384_S100000x384_1_0_0_1_n_n none x W (ix2 p c) = rowDot (rowOf x p) W c := by
  simp only [Host.dotGeneral]
  exact dotGeneral_plain_apply (M := 100000) (K := 128) (N := 384) none _ x W (ix2 p c)

/-- The host's bias rows, broadcast over the rows, read row 0 (resp. row 1) of the bias array at column c. -/
theorem gruBiasRef0C_apply (B : FVec Ideal S2x384 .f32) (p : Fin 100000) (c : Fin 384) :
    broadcastInDim S100000x384 ![0, 1] bcast_S1x384_S100000x384_0_1
      (broadcastInDim S1x384 ![1] bcast_S384_S1x384_1
        (shapeCast S384 (extractStridedSlice S1x384 ![0, 0] B slices_S2x384_S1x384_0_0) shapeCasts_S1x384_S384)) (ix2 p c)
      = B (ix2 (0 : Fin 2) c) := by
  refine (broadcastInDim_apply _ bcast_S1x384_S100000x384_0_1 _ (ix2 p c) (ix2 (0 : Fin 1) c) (fun a => ?_)).trans ?_
  · match a with
    | ⟨0, _⟩ => show 0 = if (1 : Nat) = 1 then 0 else p.val; rw [if_pos rfl]
    | ⟨1, _⟩ => show c.val = if (384 : Nat) = 1 then 0 else c.val; rw [if_neg (by decide)]
  refine (broadcastInDim_apply _ bcast_S384_S1x384_1 _ (ix2 (0 : Fin 1) c) (ix1 c) (fun a => ?_)).trans ?_
  · match a with
    | ⟨0, _⟩ => show c.val = if (384 : Nat) = 1 then 0 else c.val; rw [if_neg (by decide)]
  exact (shapeCast_1a_a_apply _ shapeCasts_S1x384_S384 c).trans
    (slice2_axis0_apply 0 B slices_S2x384_S1x384_0_0 (0 : Fin 1) c (0 : Fin 2) rfl)
theorem gruBiasRef1C_apply (B : FVec Ideal S2x384 .f32) (p : Fin 100000) (c : Fin 384) :
    broadcastInDim S100000x384 ![0, 1] bcast_S1x384_S100000x384_0_1
      (broadcastInDim S1x384 ![1] bcast_S384_S1x384_1
        (shapeCast S384 (extractStridedSlice S1x384 ![1, 0] B slices_S2x384_S1x384_1_0) shapeCasts_S1x384_S384)) (ix2 p c)
      = B (ix2 (1 : Fin 2) c) := by
  refine (broadcastInDim_apply _ bcast_S1x384_S100000x384_0_1 _ (ix2 p c) (ix2 (0 : Fin 1) c) (fun a => ?_)).trans ?_
  · match a with
    | ⟨0, _⟩ => show 0 = if (1 : Nat) = 1 then 0 else p.val; rw [if_pos rfl]
    | ⟨1, _⟩ => show c.val = if (384 : Nat) = 1 then 0 else c.val; rw [if_neg (by decide)]
  refine (broadcastInDim_apply _ bcast_S384_S1x384_1 _ (ix2 (0 : Fin 1) c) (ix1 c) (fun a => ?_)).trans ?_
  · match a with
    | ⟨0, _⟩ => show c.val = if (384 : Nat) = 1 then 0 else c.val; rw [if_neg (by decide)]
  exact (shapeCast_1a_a_apply _ shapeCasts_S1x384_S384 c).trans
    (slice2_axis0_apply 1 B slices_S2x384_S1x384_1_0 (0 : Fin 1) c (1 : Fin 2) rfl)

/-- The host's pre-activations at an entry. -/
theorem gruXmC_apply (x : FVec Ideal S100000x128 .f32) (K : FVec Ideal S128x384 .f32) (B : FVec Ideal S2x384 .f32)
    (p : Fin 100000) (c : Fin 384) : gruXmC x K B (ix2 p c) = rowDot (rowOf x p) K c + B (ix2 (0 : Fin 2) c) := by
  unfold gruXmC
  rw [addf_apply, gruDotC_apply, gruBiasRef0C_apply]
theorem gruHmC_apply (h : FVec Ideal S100000x128 .f32) (W : FVec Ideal S128x384 .f32) (B : FVec Ideal S2x384 .f32)
    (p : Fin 100000) (c : Fin 384) : gruHmC h W B (ix2 p c) = rowDot (rowOf h p) W c + B (ix2 (1 : Fin 2) c) := by
  unfold gruHmC
  rw [addf_apply, gruDotC_apply, gruBiasRef1C_apply]

/-- The three column blocks of a 100000×384 array. -/
theorem gruSl0C_apply (Y : FVec Ideal S100000x384 .f32) (p : Fin 100000) (q : Fin 128) :
    extractStridedSlice S100000x128 ![0, 0] Y slices_S100000x384_S100000x128_0_0 (ix2 p q) = Y (ix2 p (gruC0 q)) :=
  slice2_axis1_apply 0 Y slices_S100000x384_S100000x128_0_0 p q (gruC0 q) (Nat.zero_add _).symm
theorem gruSl1C_apply (Y : FVec Ideal S100000x384 .f32) (p : Fin 100000) (q : Fin 128) :
    extractStridedSlice S100000x128 ![0, 128] Y slices_S100000x384_S100000x128_0_128 (ix2 p q) = Y (ix2 p (gruC1 q)) :=
  slice2_axis1_apply 128 Y slices_S100000x384_S100000x128_0_128 p q (gruC1 q) rfl
theorem gruSl2C_apply (Y : FVec Ideal S100000x384 .f32) (p : Fin 100000) (q : Fin 128) :
    extractStridedSlice S100000x128 ![0, 256] Y slices_S100000x384_S100000x128_0_256 (ix2 p q) = Y (ix2 p (gruC2 q)) :=
  slice2_axis1_apply 256 Y slices_S100000x384_S100000x128_0_256 p q (gruC2 q) rfl

/-- The host's gates at an entry, from the two pre-activation arrays. -/
theorem gruCellC_apply (xm hm : FVec Ideal S100000x384 .f32) (h : FVec Ideal S100000x128 .f32) (p : Fin 100000) (q : Fin 128) :
    gruCellC xm hm h (ix2 p q) = gruGate (fun c => xm (ix2 p c)) (fun c => hm (ix2 p c)) (h (ix2 p q)) q := by
  unfold gruCellC gruZC gruRC
  simp only [addf_apply, mulf_apply, subf_apply, hostDivf_apply, gruHostExp_apply, gruHostNeg_apply, gruHostTanh_apply,
    gruSl0C_apply, gruSl1C_apply, gruSl2C_apply]
  rw [gruOneC_apply]
  rfl

/-- The update with the reciprocal counts folded into the product's input is the host's update of the segment mean. -/
theorem gruC_bridge (S h : FVec Ideal S100000x128 .f32) (idx : (⟨S200000, .i32⟩ : BufTy).Contents (Elt Ideal))
    (K W : FVec Ideal S128x384 .f32) (B : FVec Ideal S2x384 .f32) :
    gruKC S h (invC idx) K W (gruB0 B) (gruB1 B) = gruC S h idx K W B := by
  funext i
  obtain ⟨p, q, rfl⟩ : ∃ (p : Fin 100000) (q : Fin 128), i = ix2 p q := ⟨i 0, i 1, eq_ix2 i⟩
  show gruKAt (M := 100000) S h (invC idx) K W (gruB0 B) (gruB1 B) p q = _
  unfold gruKAt gruC
  rw [gruCellC_apply, gruRowC_eq]
  simp only [gruXmC_apply, gruHmC_apply, gruB0_apply, gruB1_apply]

end SizeC

end Cert.Net

end
-- ==== Proof.GruRef.lean ====
/-
  The host's own composition of each recurrent update is the update function of its inputs: the segment sums the
  step accumulated, the state before the step, the segment index, and the cell's two matrices and bias array.
-/
import proofs.«154953_j22007412425053_2_alg».proof.Proof.RefRead
import proofs.«154953_j22007412425053_2_alg».proof.Proof.GruSpec

noncomputable section

namespace Cert.Net

open Idealize.ShloMosaic Cert.ReferenceIdeal Cert.ReferenceIdeal.Gen Cert.ReferenceIdeal.Read

theorem gruIp_ref_v104 (x0 : (⟨S100000x10, .f32⟩ : BufTy).Contents (Elt Ideal)) (x3 x4 : (⟨S200000, .i32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) :
    val_main_v104 (F := Ideal) x0 x3 x4 x7 x8 x9 x10 x11
      = gruIp (val_main_v56 (F := Ideal) x0 x3 x4 x7 x8) (val_main_v0 (F := Ideal)) x4 x9 x10 x11 := rfl

theorem gruIp_ref_v246 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v246 (F := Ideal) x0 x1 x2 x3 x4 x5 x6 x7 x8 x9 x10 x11 x12 x13 x14
      = gruIp (val_main_v198 (F := Ideal) x0 x1 x2 x3 x4 x5 x6 x7 x8 x9 x10 x11 x12 x13 x14) (val_main_v104 (F := Ideal) x0 x3 x4 x7 x8 x9 x10 x11) x4 x9 x10 x11 := rfl

theorem gruC_ref_v144 (x0 : (⟨S100000x10, .f32⟩ : BufTy).Contents (Elt Ideal)) (x1 x2 : (⟨S200000, .i32⟩ : BufTy).Contents (Elt Ideal)) (x5 : (⟨S256x128, .f32⟩ : BufTy).Contents (Elt Ideal)) (x6 : (⟨S128, .f32⟩ : BufTy).Contents (Elt Ideal)) (x12 x13 : (⟨S128x384, .f32⟩ : BufTy).Contents (Elt Ideal)) (x14 : (⟨S2x384, .f32⟩ : BufTy).Contents (Elt Ideal)) :
    val_main_v144 (F := Ideal) x0 x1 x2 x5 x6 x12 x13 x14
      = gruC (val_main_v25 (F := Ideal) x0 x1 x2 x5 x6) (val_main_v2 (F := Ideal) x0) x2 x12 x13 x14 := rfl

theorem gruC_ref_v286 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v286 (F := Ideal) x0 x1 x2 x3 x4 x5 x6 x7 x8 x9 x10 x11 x12 x13 x14
      = gruC (val_main_v167 (F := Ideal) x0 x1 x2 x3 x4 x5 x6 x7 x8 x9 x10 x11 x12 x13 x14) (val_main_v144 (F := Ideal) x0 x1 x2 x5 x6 x12 x13 x14) x2 x12 x13 x14 := rfl

theorem gruC_ref_v428 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) :
    val_main_v428 (F := Ideal) x0 x1 x2 x3 x4 x5 x6 x7 x8 x9 x10 x11 x12 x13 x14
      = gruC (val_main_v309 (F := Ideal) x0 x1 x2 x3 x4 x5 x6 x7 x8 x9 x10 x11 x12 x13 x14) (val_main_v286 (F := Ideal) x0 x1 x2 x3 x4 x5 x6 x7 x8 x9 x10 x11 x12 x13 x14) x2 x12 x13 x14 := rfl

end Cert.Net

end
-- ==== Proof.FoldA.lean ====
/-
  The idealized kernel program's buffer contents, boundary by boundary (boundaries 0 to 8: the first message-passing step).
  The program is a chain: a stretch of host operations, a kernel launch, a stretch, a launch, ... Each theorem says what one
  buffer holds at one boundary, as the value the reference program computes at the corresponding stage (a function of
  the arguments), or as the host operation's own term of the arguments. Three kinds of step: a buffer the segment does
  not write keeps its contents; a buffer a stretch writes holds its operations' composition of the stretch's inputs,
  which is the reference's stage spelt with the same operations (a change of float format is the identity on extended
  reals); a launch's output array is the kernel's whole-array function of its input arrays, which the bridge lemmas
  identify with the reference's block.
-/
import proofs.«154953_j22007412425053_2_alg».proof.Proof.Keep
import proofs.«154953_j22007412425053_2_alg».proof.Proof.RefRead
import proofs.«154953_j22007412425053_2_alg».proof.Proof.MsgRegion0
import proofs.«154953_j22007412425053_2_alg».proof.Proof.MsgRegion1
import proofs.«154953_j22007412425053_2_alg».proof.Proof.GruRegion2
import proofs.«154953_j22007412425053_2_alg».proof.Proof.GruRegion3
import proofs.«154953_j22007412425053_2_alg».proof.Proof.MsgBridge
import proofs.«154953_j22007412425053_2_alg».proof.Proof.MsgRef
import proofs.«154953_j22007412425053_2_alg».proof.Proof.GruBridgeIp
import proofs.«154953_j22007412425053_2_alg».proof.Proof.GruBridgeC
import proofs.«154953_j22007412425053_2_alg».proof.Proof.GruRef
import Idealize.ShloMosaic.PureOps.Ideal

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

abbrev A0 (m : (ℓ : Loc nD τ sig) → Buf (Elt Ideal) ℓ) (c : Dev nD) : (⟨S100000x10, .f32⟩ : BufTy).Contents (Elt Ideal) := m ((c : Thread nD τ).loc main_arg0)
abbrev A1 (m : (ℓ : Loc nD τ sig) → Buf (Elt Ideal) ℓ) (c : Dev nD) : (⟨S200000, .i32⟩ : BufTy).Contents (Elt Ideal) := m ((c : Thread nD τ).loc main_arg1)
abbrev A2 (m : (ℓ : Loc nD τ sig) → Buf (Elt Ideal) ℓ) (c : Dev nD) : (⟨S200000, .i32⟩ : BufTy).Contents (Elt Ideal) := m ((c : Thread nD τ).loc main_arg2)
abbrev A3 (m : (ℓ : Loc nD τ sig) → Buf (Elt Ideal) ℓ) (c : Dev nD) : (⟨S200000, .i32⟩ : BufTy).Contents (Elt Ideal) := m ((c : Thread nD τ).loc main_arg3)
abbrev A4 (m : (ℓ : Loc nD τ sig) → Buf (Elt Ideal) ℓ) (c : Dev nD) : (⟨S200000, .i32⟩ : BufTy).Contents (Elt Ideal) := m ((c : Thread nD τ).loc main_arg4)
abbrev A5 (m : (ℓ : Loc nD τ sig) → Buf (Elt Ideal) ℓ) (c : Dev nD) : (⟨S256x128, .f32⟩ : BufTy).Contents (Elt Ideal) := m ((c : Thread nD τ).loc main_arg5)
abbrev A6 (m : (ℓ : Loc nD τ sig) → Buf (Elt Ideal) ℓ) (c : Dev nD) : (⟨S128, .f32⟩ : BufTy).Contents (Elt Ideal) := m ((c : Thread nD τ).loc main_arg6)
abbrev A7 (m : (ℓ : Loc nD τ sig) → Buf (Elt Ideal) ℓ) (c : Dev nD) : (⟨S256x128, .f32⟩ : BufTy).Contents (Elt Ideal) := m ((c : Thread nD τ).loc main_arg7)
abbrev A8 (m : (ℓ : Loc nD τ sig) → Buf (Elt Ideal) ℓ) (c : Dev nD) : (⟨S128, .f32⟩ : BufTy).Contents (Elt Ideal) := m ((c : Thread nD τ).loc main_arg8)
abbrev A9 (m : (ℓ : Loc nD τ sig) → Buf (Elt Ideal) ℓ) (c : Dev nD) : (⟨S128x384, .f32⟩ : BufTy).Contents (Elt Ideal) := m ((c : Thread nD τ).loc main_arg9)
abbrev A10 (m : (ℓ : Loc nD τ sig) → Buf (Elt Ideal) ℓ) (c : Dev nD) : (⟨S128x384, .f32⟩ : BufTy).Contents (Elt Ideal) := m ((c : Thread nD τ).loc main_arg10)
abbrev A11 (m : (ℓ : Loc nD τ sig) → Buf (Elt Ideal) ℓ) (c : Dev nD) : (⟨S2x384, .f32⟩ : BufTy).Contents (Elt Ideal) := m ((c : Thread nD τ).loc main_arg11)
abbrev A12 (m : (ℓ : Loc nD τ sig) → Buf (Elt Ideal) ℓ) (c : Dev nD) : (⟨S128x384, .f32⟩ : BufTy).Contents (Elt Ideal) := m ((c : Thread nD τ).loc main_arg12)
abbrev A13 (m : (ℓ : Loc nD τ sig) → Buf (Elt Ideal) ℓ) (c : Dev nD) : (⟨S128x384, .f32⟩ : BufTy).Contents (Elt Ideal) := m ((c : Thread nD τ).loc main_arg13)
abbrev A14 (m : (ℓ : Loc nD τ sig) → Buf (Elt Ideal) ℓ) (c : Dev nD) : (⟨S2x384, .f32⟩ : BufTy).Contents (Elt Ideal) := m ((c : Thread nD τ).loc main_arg14)
abbrev A15 (m : (ℓ : Loc nD τ sig) → Buf (Elt Ideal) ℓ) (c : Dev nD) : (⟨S128x128, .f32⟩ : BufTy).Contents (Elt Ideal) := m ((c : Thread nD τ).loc main_arg15)
abbrev A16 (m : (ℓ : Loc nD τ sig) → Buf (Elt Ideal) ℓ) (c : Dev nD) : (⟨S128, .f32⟩ : BufTy).Contents (Elt Ideal) := m ((c : Thread nD τ).loc main_arg16)
abbrev A17 (m : (ℓ : Loc nD τ sig) → Buf (Elt Ideal) ℓ) (c : Dev nD) : (⟨S128x64, .f32⟩ : BufTy).Contents (Elt Ideal) := m ((c : Thread nD τ).loc main_arg17)
abbrev A18 (m : (ℓ : Loc nD τ sig) → Buf (Elt Ideal) ℓ) (c : Dev nD) : (⟨S64, .f32⟩ : BufTy).Contents (Elt Ideal) := m ((c : Thread nD τ).loc main_arg18)
abbrev A19 (m : (ℓ : Loc nD τ sig) → Buf (Elt Ideal) ℓ) (c : Dev nD) : (⟨S64x15, .f32⟩ : BufTy).Contents (Elt Ideal) := m ((c : Thread nD τ).loc main_arg19)
abbrev A20 (m : (ℓ : Loc nD τ sig) → Buf (Elt Ideal) ℓ) (c : Dev nD) : (⟨S15, .f32⟩ : BufTy).Contents (Elt Ideal) := m ((c : Thread nD τ).loc main_arg20)

variable (m : (ℓ : Loc nD τ sig) → Buf (Elt Ideal) ℓ) (ρ : Dev nD → PrngReg) (c : Dev nD)

theorem f0_arg0 : W0 (F := Ideal) m ρ c (Proc.devRef .tc main_arg0) = A0 m c := rfl
theorem f0_arg1 : W0 (F := Ideal) m ρ c (Proc.devRef .tc main_arg1) = A1 m c := rfl
theorem f0_arg2 : W0 (F := Ideal) m ρ c (Proc.devRef .tc main_arg2) = A2 m c := rfl
theorem f0_arg3 : W0 (F := Ideal) m ρ c (Proc.devRef .tc main_arg3) = A3 m c := rfl
theorem f0_arg4 : W0 (F := Ideal) m ρ c (Proc.devRef .tc main_arg4) = A4 m c := rfl
theorem f0_arg5 : W0 (F := Ideal) m ρ c (Proc.devRef .tc main_arg5) = A5 m c := rfl
theorem f0_arg6 : W0 (F := Ideal) m ρ c (Proc.devRef .tc main_arg6) = A6 m c := rfl
theorem f0_arg7 : W0 (F := Ideal) m ρ c (Proc.devRef .tc main_arg7) = A7 m c := rfl
theorem f0_arg8 : W0 (F := Ideal) m ρ c (Proc.devRef .tc main_arg8) = A8 m c := rfl
theorem f0_arg9 : W0 (F := Ideal) m ρ c (Proc.devRef .tc main_arg9) = A9 m c := rfl
theorem f0_arg10 : W0 (F := Ideal) m ρ c (Proc.devRef .tc main_arg10) = A10 m c := rfl
theorem f0_arg11 : W0 (F := Ideal) m ρ c (Proc.devRef .tc main_arg11) = A11 m c := rfl
theorem f0_arg12 : W0 (F := Ideal) m ρ c (Proc.devRef .tc main_arg12) = A12 m c := rfl
theorem f0_arg13 : W0 (F := Ideal) m ρ c (Proc.devRef .tc main_arg13) = A13 m c := rfl
theorem f0_arg14 : W0 (F := Ideal) m ρ c (Proc.devRef .tc main_arg14) = A14 m c := rfl
theorem f0_arg15 : W0 (F := Ideal) m ρ c (Proc.devRef .tc main_arg15) = A15 m c := rfl
theorem f0_arg16 : W0 (F := Ideal) m ρ c (Proc.devRef .tc main_arg16) = A16 m c := rfl
theorem f0_arg17 : W0 (F := Ideal) m ρ c (Proc.devRef .tc main_arg17) = A17 m c := rfl
theorem f0_arg18 : W0 (F := Ideal) m ρ c (Proc.devRef .tc main_arg18) = A18 m c := rfl
theorem f0_arg19 : W0 (F := Ideal) m ρ c (Proc.devRef .tc main_arg19) = A19 m c := rfl
theorem f0_arg20 : W0 (F := Ideal) m ρ c (Proc.devRef .tc main_arg20) = A20 m c := rfl
theorem f1_arg1 : W1 (F := Ideal) m ρ c (Proc.devRef .tc main_arg1) = A1 m c :=
  (keepH0 m ρ c main_arg1 (by decide)).trans (f0_arg1 m ρ c)
theorem f1_arg2 : W1 (F := Ideal) m ρ c (Proc.devRef .tc main_arg2) = A2 m c :=
  (keepH0 m ρ c main_arg2 (by decide)).trans (f0_arg2 m ρ c)
theorem f1_arg3 : W1 (F := Ideal) m ρ c (Proc.devRef .tc main_arg3) = A3 m c :=
  (keepH0 m ρ c main_arg3 (by decide)).trans (f0_arg3 m ρ c)
theorem f1_arg4 : W1 (F := Ideal) m ρ c (Proc.devRef .tc main_arg4) = A4 m c :=
  (keepH0 m ρ c main_arg4 (by decide)).trans (f0_arg4 m ρ c)
theorem f1_arg6 : W1 (F := Ideal) m ρ c (Proc.devRef .tc main_arg6) = A6 m c :=
  (keepH0 m ρ c main_arg6 (by decide)).trans (f0_arg6 m ρ c)
theorem f1_arg8 : W1 (F := Ideal) m ρ c (Proc.devRef .tc main_arg8) = A8 m c :=
  (keepH0 m ρ c main_arg8 (by decide)).trans (f0_arg8 m ρ c)
theorem f1_arg9 : W1 (F := Ideal) m ρ c (Proc.devRef .tc main_arg9) = A9 m c :=
  (keepH0 m ρ c main_arg9 (by decide)).trans (f0_arg9 m ρ c)
theorem f1_arg10 : W1 (F := Ideal) m ρ c (Proc.devRef .tc main_arg10) = A10 m c :=
  (keepH0 m ρ c main_arg10 (by decide)).trans (f0_arg10 m ρ c)
theorem f1_arg11 : W1 (F := Ideal) m ρ c (Proc.devRef .tc main_arg11) = A11 m c :=
  (keepH0 m ρ c main_arg11 (by decide)).trans (f0_arg11 m ρ c)
theorem f1_arg12 : W1 (F := Ideal) m ρ c (Proc.devRef .tc main_arg12) = A12 m c :=
  (keepH0 m ρ c main_arg12 (by decide)).trans (f0_arg12 m ρ c)
theorem f1_arg13 : W1 (F := Ideal) m ρ c (Proc.devRef .tc main_arg13) = A13 m c :=
  (keepH0 m ρ c main_arg13 (by decide)).trans (f0_arg13 m ρ c)
theorem f1_arg14 : W1 (F := Ideal) m ρ c (Proc.devRef .tc main_arg14) = A14 m c :=
  (keepH0 m ρ c main_arg14 (by decide)).trans (f0_arg14 m ρ c)
theorem f1_arg15 : W1 (F := Ideal) m ρ c (Proc.devRef .tc main_arg15) = A15 m c :=
  (keepH0 m ρ c main_arg15 (by decide)).trans (f0_arg15 m ρ c)
theorem f1_arg16 : W1 (F := Ideal) m ρ c (Proc.devRef .tc main_arg16) = A16 m c :=
  (keepH0 m ρ c main_arg16 (by decide)).trans (f0_arg16 m ρ c)
theorem f1_arg17 : W1 (F := Ideal) m ρ c (Proc.devRef .tc main_arg17) = A17 m c :=
  (keepH0 m ρ c main_arg17 (by decide)).trans (f0_arg17 m ρ c)
theorem f1_arg18 : W1 (F := Ideal) m ρ c (Proc.devRef .tc main_arg18) = A18 m c :=
  (keepH0 m ρ c main_arg18 (by decide)).trans (f0_arg18 m ρ c)
theorem f1_arg19 : W1 (F := Ideal) m ρ c (Proc.devRef .tc main_arg19) = A19 m c :=
  (keepH0 m ρ c main_arg19 (by decide)).trans (f0_arg19 m ρ c)
theorem f1_arg20 : W1 (F := Ideal) m ρ c (Proc.devRef .tc main_arg20) = A20 m c :=
  (keepH0 m ρ c main_arg20 (by decide)).trans (f0_arg20 m ρ c)
set_option maxHeartbeats 2000000 in
theorem f1_v0 : W1 (F := Ideal) m ρ c (Proc.devRef .tc main_v0) = Cert.ReferenceIdeal.Read.val_main_v0 (F := Ideal) := by
  show StableHlo.after hostOps0 (W0 m ρ c) (Proc.devRef .tc main_v0) = _
  after_results_simp
  all_goals rfl
set_option maxHeartbeats 2000000 in
theorem f1_v2 : W1 (F := Ideal) m ρ c (Proc.devRef .tc main_v2) = Cert.ReferenceIdeal.Read.val_main_v2 (F := Ideal) (A0 m c) := by
  show StableHlo.after hostOps0 (W0 m ρ c) (Proc.devRef .tc main_v2) = _
  after_results_simp
  all_goals (try simp only [f0_arg0 m ρ c])
  all_goals rfl
set_option maxHeartbeats 2000000 in
theorem f1_v3 : W1 (F := Ideal) m ρ c (Proc.devRef .tc main_v3) = (((extractStridedSlice S128x128 ![0, 0] · slices_S256x128_S128x128_0_0)) (A5 m c)) := by
  show StableHlo.after hostOps0 (W0 m ρ c) (Proc.devRef .tc main_v3) = _
  after_results_simp
  all_goals (try simp only [f0_arg5 m ρ c])
  all_goals rfl
set_option maxHeartbeats 2000000 in
theorem f1_v4 : W1 (F := Ideal) m ρ c (Proc.devRef .tc main_v4) = (((extractStridedSlice S128x128 ![128, 0] · slices_S256x128_S128x128_128_0)) (A5 m c)) := by
  show StableHlo.after hostOps0 (W0 m ρ c) (Proc.devRef .tc main_v4) = _
  after_results_simp
  all_goals (try simp only [f0_arg5 m ρ c])
  all_goals rfl
set_option maxHeartbeats 2000000 in
theorem f1_v5 : W1 (F := Ideal) m ρ c (Proc.devRef .tc main_v5) = (((extractStridedSlice S128x128 ![0, 0] · slices_S256x128_S128x128_0_0)) (A7 m c)) := by
  show StableHlo.after hostOps0 (W0 m ρ c) (Proc.devRef .tc main_v5) = _
  after_results_simp
  all_goals (try simp only [f0_arg7 m ρ c])
  all_goals rfl
set_option maxHeartbeats 2000000 in
theorem f1_v6 : W1 (F := Ideal) m ρ c (Proc.devRef .tc main_v6) = (((extractStridedSlice S128x128 ![128, 0] · slices_S256x128_S128x128_128_0)) (A7 m c)) := by
  show StableHlo.after hostOps0 (W0 m ρ c) (Proc.devRef .tc main_v6) = _
  after_results_simp
  all_goals (try simp only [f0_arg7 m ρ c])
  all_goals rfl
set_option maxHeartbeats 2000000 in
theorem f1_v14 : W1 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) := by
  show StableHlo.after hostOps0 (W0 m ρ c) (Proc.devRef .tc main_v14) = _
  after_results_simp
  all_goals (try simp only [f0_arg4 m ρ c])
  all_goals rfl
set_option maxHeartbeats 2000000 in
theorem f1_v21 : W1 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) := by
  show StableHlo.after hostOps0 (W0 m ρ c) (Proc.devRef .tc main_v21) = _
  after_results_simp
  all_goals (try simp only [f0_arg2 m ρ c])
  all_goals rfl
set_option maxHeartbeats 2000000 in
theorem f1_v22 : W1 (F := Ideal) m ρ c (Proc.devRef .tc main_v22) = Cert.ReferenceIdeal.Read.val_main_v0 (F := Ideal) := by
  show StableHlo.after hostOps0 (W0 m ρ c) (Proc.devRef .tc main_v22) = _
  after_results_simp
  all_goals rfl
set_option maxHeartbeats 2000000 in
theorem f1_v23 : W1 (F := Ideal) m ρ c (Proc.devRef .tc main_v23) = Cert.ReferenceIdeal.Read.val_main_v2 (F := Ideal) (A0 m c) := by
  show StableHlo.after hostOps0 (W0 m ρ c) (Proc.devRef .tc main_v23) = _
  after_results_simp
  all_goals (try simp only [f0_arg0 m ρ c])
  all_goals rfl
set_option maxHeartbeats 2000000 in
theorem f1_v30 : W1 (F := Ideal) m ρ c (Proc.devRef .tc main_v30) = Cert.ReferenceIdeal.Read.val_main_v9 (F := Ideal) (A1 m c) := by
  show StableHlo.after hostOps0 (W0 m ρ c) (Proc.devRef .tc main_v30) = _
  after_results_simp
  all_goals (try simp only [f0_arg1 m ρ c])
  all_goals rfl
set_option maxHeartbeats 2000000 in
theorem f1_v37 : W1 (F := Ideal) m ρ c (Proc.devRef .tc main_v37) = Cert.ReferenceIdeal.Read.val_main_v16 (F := Ideal) (A0 m c) (A2 m c) := by
  show StableHlo.after hostOps0 (W0 m ρ c) (Proc.devRef .tc main_v37) = _
  after_results_simp
  all_goals (try simp only [f0_arg0 m ρ c, f0_arg2 m ρ c])
  all_goals rfl
set_option maxHeartbeats 2000000 in
theorem f1_v38 : W1 (F := Ideal) m ρ c (Proc.devRef .tc main_v38) = (shapeCast S1x128 (A6 m c) shapeCasts_S128_S1x128) := by
  show StableHlo.after hostOps0 (W0 m ρ c) (Proc.devRef .tc main_v38) = _
  after_results_simp
  all_goals (try simp only [f0_arg6 m ρ c])
  all_goals rfl
theorem f2_arg1 : W2 (F := Ideal) m ρ c (Proc.devRef .tc main_arg1) = A1 m c :=
  (W2_of_ne m ρ c main_arg1 (by decide)).trans (f1_arg1 m ρ c)
theorem f2_arg2 : W2 (F := Ideal) m ρ c (Proc.devRef .tc main_arg2) = A2 m c :=
  (W2_of_ne m ρ c main_arg2 (by decide)).trans (f1_arg2 m ρ c)
theorem f2_arg3 : W2 (F := Ideal) m ρ c (Proc.devRef .tc main_arg3) = A3 m c :=
  (W2_of_ne m ρ c main_arg3 (by decide)).trans (f1_arg3 m ρ c)
theorem f2_arg4 : W2 (F := Ideal) m ρ c (Proc.devRef .tc main_arg4) = A4 m c :=
  (W2_of_ne m ρ c main_arg4 (by decide)).trans (f1_arg4 m ρ c)
theorem f2_arg6 : W2 (F := Ideal) m ρ c (Proc.devRef .tc main_arg6) = A6 m c :=
  (W2_of_ne m ρ c main_arg6 (by decide)).trans (f1_arg6 m ρ c)
theorem f2_arg8 : W2 (F := Ideal) m ρ c (Proc.devRef .tc main_arg8) = A8 m c :=
  (W2_of_ne m ρ c main_arg8 (by decide)).trans (f1_arg8 m ρ c)
theorem f2_arg9 : W2 (F := Ideal) m ρ c (Proc.devRef .tc main_arg9) = A9 m c :=
  (W2_of_ne m ρ c main_arg9 (by decide)).trans (f1_arg9 m ρ c)
theorem f2_arg10 : W2 (F := Ideal) m ρ c (Proc.devRef .tc main_arg10) = A10 m c :=
  (W2_of_ne m ρ c main_arg10 (by decide)).trans (f1_arg10 m ρ c)
theorem f2_arg11 : W2 (F := Ideal) m ρ c (Proc.devRef .tc main_arg11) = A11 m c :=
  (W2_of_ne m ρ c main_arg11 (by decide)).trans (f1_arg11 m ρ c)
theorem f2_arg12 : W2 (F := Ideal) m ρ c (Proc.devRef .tc main_arg12) = A12 m c :=
  (W2_of_ne m ρ c main_arg12 (by decide)).trans (f1_arg12 m ρ c)
theorem f2_arg13 : W2 (F := Ideal) m ρ c (Proc.devRef .tc main_arg13) = A13 m c :=
  (W2_of_ne m ρ c main_arg13 (by decide)).trans (f1_arg13 m ρ c)
theorem f2_arg14 : W2 (F := Ideal) m ρ c (Proc.devRef .tc main_arg14) = A14 m c :=
  (W2_of_ne m ρ c main_arg14 (by decide)).trans (f1_arg14 m ρ c)
theorem f2_arg15 : W2 (F := Ideal) m ρ c (Proc.devRef .tc main_arg15) = A15 m c :=
  (W2_of_ne m ρ c main_arg15 (by decide)).trans (f1_arg15 m ρ c)
theorem f2_arg16 : W2 (F := Ideal) m ρ c (Proc.devRef .tc main_arg16) = A16 m c :=
  (W2_of_ne m ρ c main_arg16 (by decide)).trans (f1_arg16 m ρ c)
theorem f2_arg17 : W2 (F := Ideal) m ρ c (Proc.devRef .tc main_arg17) = A17 m c :=
  (W2_of_ne m ρ c main_arg17 (by decide)).trans (f1_arg17 m ρ c)
theorem f2_arg18 : W2 (F := Ideal) m ρ c (Proc.devRef .tc main_arg18) = A18 m c :=
  (W2_of_ne m ρ c main_arg18 (by decide)).trans (f1_arg18 m ρ c)
theorem f2_arg19 : W2 (F := Ideal) m ρ c (Proc.devRef .tc main_arg19) = A19 m c :=
  (W2_of_ne m ρ c main_arg19 (by decide)).trans (f1_arg19 m ρ c)
theorem f2_arg20 : W2 (F := Ideal) m ρ c (Proc.devRef .tc main_arg20) = A20 m c :=
  (W2_of_ne m ρ c main_arg20 (by decide)).trans (f1_arg20 m ρ c)
theorem f2_v0 : W2 (F := Ideal) m ρ c (Proc.devRef .tc main_v0) = Cert.ReferenceIdeal.Read.val_main_v0 (F := Ideal) :=
  (W2_of_ne m ρ c main_v0 (by decide)).trans (f1_v0 m ρ c)
theorem f2_v2 : W2 (F := Ideal) m ρ c (Proc.devRef .tc main_v2) = Cert.ReferenceIdeal.Read.val_main_v2 (F := Ideal) (A0 m c) :=
  (W2_of_ne m ρ c main_v2 (by decide)).trans (f1_v2 m ρ c)
theorem f2_v3 : W2 (F := Ideal) m ρ c (Proc.devRef .tc main_v3) = (((extractStridedSlice S128x128 ![0, 0] · slices_S256x128_S128x128_0_0)) (A5 m c)) :=
  ((W2_arr m ρ c 2).trans (((dat0 (V1 m ρ) c).arrAt_in 2 rfl _).trans (A_eq0 (V1 m ρ) c 2))).trans (f1_v3 m ρ c)
theorem f2_v4 : W2 (F := Ideal) m ρ c (Proc.devRef .tc main_v4) = (((extractStridedSlice S128x128 ![128, 0] · slices_S256x128_S128x128_128_0)) (A5 m c)) :=
  ((W2_arr m ρ c 3).trans (((dat0 (V1 m ρ) c).arrAt_in 3 rfl _).trans (A_eq0 (V1 m ρ) c 3))).trans (f1_v4 m ρ c)
theorem f2_v5 : W2 (F := Ideal) m ρ c (Proc.devRef .tc main_v5) = (((extractStridedSlice S128x128 ![0, 0] · slices_S256x128_S128x128_0_0)) (A7 m c)) :=
  (W2_of_ne m ρ c main_v5 (by decide)).trans (f1_v5 m ρ c)
theorem f2_v6 : W2 (F := Ideal) m ρ c (Proc.devRef .tc main_v6) = (((extractStridedSlice S128x128 ![128, 0] · slices_S256x128_S128x128_128_0)) (A7 m c)) :=
  (W2_of_ne m ρ c main_v6 (by decide)).trans (f1_v6 m ρ c)
theorem f2_v14 : W2 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (W2_of_ne m ρ c main_v14 (by decide)).trans (f1_v14 m ρ c)
theorem f2_v21 : W2 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W2_of_ne m ρ c main_v21 (by decide)).trans (f1_v21 m ρ c)
theorem f2_v22 : W2 (F := Ideal) m ρ c (Proc.devRef .tc main_v22) = Cert.ReferenceIdeal.Read.val_main_v0 (F := Ideal) :=
  (W2_of_ne m ρ c main_v22 (by decide)).trans (f1_v22 m ρ c)
theorem f2_v23 : W2 (F := Ideal) m ρ c (Proc.devRef .tc main_v23) = Cert.ReferenceIdeal.Read.val_main_v2 (F := Ideal) (A0 m c) :=
  (W2_of_ne m ρ c main_v23 (by decide)).trans (f1_v23 m ρ c)
set_option maxHeartbeats 4000000 in
theorem f2_v39 : W2 (F := Ideal) m ρ c (Proc.devRef .tc main_v39) = Cert.ReferenceIdeal.Read.val_main_v22 (F := Ideal) (A0 m c) (A1 m c) (A2 m c) (A5 m c) (A6 m c) := by
  refine (W2_arr m ρ c 5).trans ?_
  refine (Cert.KernelIdeal.Net.msg_region0 (V1 m ρ) c).trans ?_
  rw [show V1 (F := Ideal) m ρ c (Pipeline.arrRef spec0 0) = _ from f1_v30 m ρ c,
      show V1 (F := Ideal) m ρ c (Pipeline.arrRef spec0 1) = _ from f1_v37 m ρ c,
      show V1 (F := Ideal) m ρ c (Pipeline.arrRef spec0 2) = _ from f1_v3 m ρ c,
      show V1 (F := Ideal) m ρ c (Pipeline.arrRef spec0 3) = _ from f1_v4 m ρ c,
      show V1 (F := Ideal) m ρ c (Pipeline.arrRef spec0 4) = _ from f1_v38 m ρ c]
  exact (Cert.Net.msg_bridge _ _ _ _).trans (Cert.Net.msg_ref_v22 (A0 m c) (A1 m c) (A2 m c) (A5 m c) (A6 m c)).symm
theorem f3_arg1 : W3 (F := Ideal) m ρ c (Proc.devRef .tc main_arg1) = A1 m c :=
  (keepH1 m ρ c main_arg1 (by decide)).trans (f2_arg1 m ρ c)
theorem f3_arg2 : W3 (F := Ideal) m ρ c (Proc.devRef .tc main_arg2) = A2 m c :=
  (keepH1 m ρ c main_arg2 (by decide)).trans (f2_arg2 m ρ c)
theorem f3_arg3 : W3 (F := Ideal) m ρ c (Proc.devRef .tc main_arg3) = A3 m c :=
  (keepH1 m ρ c main_arg3 (by decide)).trans (f2_arg3 m ρ c)
theorem f3_arg4 : W3 (F := Ideal) m ρ c (Proc.devRef .tc main_arg4) = A4 m c :=
  (keepH1 m ρ c main_arg4 (by decide)).trans (f2_arg4 m ρ c)
theorem f3_arg6 : W3 (F := Ideal) m ρ c (Proc.devRef .tc main_arg6) = A6 m c :=
  (keepH1 m ρ c main_arg6 (by decide)).trans (f2_arg6 m ρ c)
theorem f3_arg8 : W3 (F := Ideal) m ρ c (Proc.devRef .tc main_arg8) = A8 m c :=
  (keepH1 m ρ c main_arg8 (by decide)).trans (f2_arg8 m ρ c)
theorem f3_arg9 : W3 (F := Ideal) m ρ c (Proc.devRef .tc main_arg9) = A9 m c :=
  (keepH1 m ρ c main_arg9 (by decide)).trans (f2_arg9 m ρ c)
theorem f3_arg10 : W3 (F := Ideal) m ρ c (Proc.devRef .tc main_arg10) = A10 m c :=
  (keepH1 m ρ c main_arg10 (by decide)).trans (f2_arg10 m ρ c)
theorem f3_arg11 : W3 (F := Ideal) m ρ c (Proc.devRef .tc main_arg11) = A11 m c :=
  (keepH1 m ρ c main_arg11 (by decide)).trans (f2_arg11 m ρ c)
theorem f3_arg12 : W3 (F := Ideal) m ρ c (Proc.devRef .tc main_arg12) = A12 m c :=
  (keepH1 m ρ c main_arg12 (by decide)).trans (f2_arg12 m ρ c)
theorem f3_arg13 : W3 (F := Ideal) m ρ c (Proc.devRef .tc main_arg13) = A13 m c :=
  (keepH1 m ρ c main_arg13 (by decide)).trans (f2_arg13 m ρ c)
theorem f3_arg14 : W3 (F := Ideal) m ρ c (Proc.devRef .tc main_arg14) = A14 m c :=
  (keepH1 m ρ c main_arg14 (by decide)).trans (f2_arg14 m ρ c)
theorem f3_arg15 : W3 (F := Ideal) m ρ c (Proc.devRef .tc main_arg15) = A15 m c :=
  (keepH1 m ρ c main_arg15 (by decide)).trans (f2_arg15 m ρ c)
theorem f3_arg16 : W3 (F := Ideal) m ρ c (Proc.devRef .tc main_arg16) = A16 m c :=
  (keepH1 m ρ c main_arg16 (by decide)).trans (f2_arg16 m ρ c)
theorem f3_arg17 : W3 (F := Ideal) m ρ c (Proc.devRef .tc main_arg17) = A17 m c :=
  (keepH1 m ρ c main_arg17 (by decide)).trans (f2_arg17 m ρ c)
theorem f3_arg18 : W3 (F := Ideal) m ρ c (Proc.devRef .tc main_arg18) = A18 m c :=
  (keepH1 m ρ c main_arg18 (by decide)).trans (f2_arg18 m ρ c)
theorem f3_arg19 : W3 (F := Ideal) m ρ c (Proc.devRef .tc main_arg19) = A19 m c :=
  (keepH1 m ρ c main_arg19 (by decide)).trans (f2_arg19 m ρ c)
theorem f3_arg20 : W3 (F := Ideal) m ρ c (Proc.devRef .tc main_arg20) = A20 m c :=
  (keepH1 m ρ c main_arg20 (by decide)).trans (f2_arg20 m ρ c)
theorem f3_v0 : W3 (F := Ideal) m ρ c (Proc.devRef .tc main_v0) = Cert.ReferenceIdeal.Read.val_main_v0 (F := Ideal) :=
  (keepH1 m ρ c main_v0 (by decide)).trans (f2_v0 m ρ c)
theorem f3_v2 : W3 (F := Ideal) m ρ c (Proc.devRef .tc main_v2) = Cert.ReferenceIdeal.Read.val_main_v2 (F := Ideal) (A0 m c) :=
  (keepH1 m ρ c main_v2 (by decide)).trans (f2_v2 m ρ c)
theorem f3_v3 : W3 (F := Ideal) m ρ c (Proc.devRef .tc main_v3) = (((extractStridedSlice S128x128 ![0, 0] · slices_S256x128_S128x128_0_0)) (A5 m c)) :=
  (keepH1 m ρ c main_v3 (by decide)).trans (f2_v3 m ρ c)
theorem f3_v4 : W3 (F := Ideal) m ρ c (Proc.devRef .tc main_v4) = (((extractStridedSlice S128x128 ![128, 0] · slices_S256x128_S128x128_128_0)) (A5 m c)) :=
  (keepH1 m ρ c main_v4 (by decide)).trans (f2_v4 m ρ c)
theorem f3_v5 : W3 (F := Ideal) m ρ c (Proc.devRef .tc main_v5) = (((extractStridedSlice S128x128 ![0, 0] · slices_S256x128_S128x128_0_0)) (A7 m c)) :=
  (keepH1 m ρ c main_v5 (by decide)).trans (f2_v5 m ρ c)
theorem f3_v6 : W3 (F := Ideal) m ρ c (Proc.devRef .tc main_v6) = (((extractStridedSlice S128x128 ![128, 0] · slices_S256x128_S128x128_128_0)) (A7 m c)) :=
  (keepH1 m ρ c main_v6 (by decide)).trans (f2_v6 m ρ c)
theorem f3_v14 : W3 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH1 m ρ c main_v14 (by decide)).trans (f2_v14 m ρ c)
theorem f3_v21 : W3 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH1 m ρ c main_v21 (by decide)).trans (f2_v21 m ρ c)
set_option maxHeartbeats 2000000 in
theorem f3_v42 : W3 (F := Ideal) m ρ c (Proc.devRef .tc main_v42) = Cert.ReferenceIdeal.Read.val_main_v25 (F := Ideal) (A0 m c) (A1 m c) (A2 m c) (A5 m c) (A6 m c) := by
  show StableHlo.after hostOps1 (W2 m ρ c) (Proc.devRef .tc main_v42) = _
  after_results_simp
  all_goals (try simp only [f2_arg2 m ρ c, f2_v39 m ρ c])
  all_goals rfl
set_option maxHeartbeats 2000000 in
theorem f3_v49 : W3 (F := Ideal) m ρ c (Proc.devRef .tc main_v49) = Cert.ReferenceIdeal.Read.val_main_v40 (F := Ideal) (A0 m c) (A3 m c) := by
  show StableHlo.after hostOps1 (W2 m ρ c) (Proc.devRef .tc main_v49) = _
  after_results_simp
  all_goals (try simp only [f2_v23 m ρ c, f2_arg3 m ρ c])
  all_goals rfl
set_option maxHeartbeats 2000000 in
theorem f3_v56 : W3 (F := Ideal) m ρ c (Proc.devRef .tc main_v56) = Cert.ReferenceIdeal.Read.val_main_v47 (F := Ideal) (A4 m c) := by
  show StableHlo.after hostOps1 (W2 m ρ c) (Proc.devRef .tc main_v56) = _
  after_results_simp
  all_goals (try simp only [f2_v22 m ρ c, f2_arg4 m ρ c])
  all_goals rfl
set_option maxHeartbeats 2000000 in
theorem f3_v57 : W3 (F := Ideal) m ρ c (Proc.devRef .tc main_v57) = (shapeCast S1x128 (A8 m c) shapeCasts_S128_S1x128) := by
  show StableHlo.after hostOps1 (W2 m ρ c) (Proc.devRef .tc main_v57) = _
  after_results_simp
  all_goals (try simp only [f2_arg8 m ρ c])
  all_goals rfl
theorem f4_arg1 : W4 (F := Ideal) m ρ c (Proc.devRef .tc main_arg1) = A1 m c :=
  (W4_of_ne m ρ c main_arg1 (by decide)).trans (f3_arg1 m ρ c)
theorem f4_arg2 : W4 (F := Ideal) m ρ c (Proc.devRef .tc main_arg2) = A2 m c :=
  (W4_of_ne m ρ c main_arg2 (by decide)).trans (f3_arg2 m ρ c)
theorem f4_arg3 : W4 (F := Ideal) m ρ c (Proc.devRef .tc main_arg3) = A3 m c :=
  (W4_of_ne m ρ c main_arg3 (by decide)).trans (f3_arg3 m ρ c)
theorem f4_arg4 : W4 (F := Ideal) m ρ c (Proc.devRef .tc main_arg4) = A4 m c :=
  (W4_of_ne m ρ c main_arg4 (by decide)).trans (f3_arg4 m ρ c)
theorem f4_arg6 : W4 (F := Ideal) m ρ c (Proc.devRef .tc main_arg6) = A6 m c :=
  (W4_of_ne m ρ c main_arg6 (by decide)).trans (f3_arg6 m ρ c)
theorem f4_arg8 : W4 (F := Ideal) m ρ c (Proc.devRef .tc main_arg8) = A8 m c :=
  (W4_of_ne m ρ c main_arg8 (by decide)).trans (f3_arg8 m ρ c)
theorem f4_arg9 : W4 (F := Ideal) m ρ c (Proc.devRef .tc main_arg9) = A9 m c :=
  (W4_of_ne m ρ c main_arg9 (by decide)).trans (f3_arg9 m ρ c)
theorem f4_arg10 : W4 (F := Ideal) m ρ c (Proc.devRef .tc main_arg10) = A10 m c :=
  (W4_of_ne m ρ c main_arg10 (by decide)).trans (f3_arg10 m ρ c)
theorem f4_arg11 : W4 (F := Ideal) m ρ c (Proc.devRef .tc main_arg11) = A11 m c :=
  (W4_of_ne m ρ c main_arg11 (by decide)).trans (f3_arg11 m ρ c)
theorem f4_arg12 : W4 (F := Ideal) m ρ c (Proc.devRef .tc main_arg12) = A12 m c :=
  (W4_of_ne m ρ c main_arg12 (by decide)).trans (f3_arg12 m ρ c)
theorem f4_arg13 : W4 (F := Ideal) m ρ c (Proc.devRef .tc main_arg13) = A13 m c :=
  (W4_of_ne m ρ c main_arg13 (by decide)).trans (f3_arg13 m ρ c)
theorem f4_arg14 : W4 (F := Ideal) m ρ c (Proc.devRef .tc main_arg14) = A14 m c :=
  (W4_of_ne m ρ c main_arg14 (by decide)).trans (f3_arg14 m ρ c)
theorem f4_arg15 : W4 (F := Ideal) m ρ c (Proc.devRef .tc main_arg15) = A15 m c :=
  (W4_of_ne m ρ c main_arg15 (by decide)).trans (f3_arg15 m ρ c)
theorem f4_arg16 : W4 (F := Ideal) m ρ c (Proc.devRef .tc main_arg16) = A16 m c :=
  (W4_of_ne m ρ c main_arg16 (by decide)).trans (f3_arg16 m ρ c)
theorem f4_arg17 : W4 (F := Ideal) m ρ c (Proc.devRef .tc main_arg17) = A17 m c :=
  (W4_of_ne m ρ c main_arg17 (by decide)).trans (f3_arg17 m ρ c)
theorem f4_arg18 : W4 (F := Ideal) m ρ c (Proc.devRef .tc main_arg18) = A18 m c :=
  (W4_of_ne m ρ c main_arg18 (by decide)).trans (f3_arg18 m ρ c)
theorem f4_arg19 : W4 (F := Ideal) m ρ c (Proc.devRef .tc main_arg19) = A19 m c :=
  (W4_of_ne m ρ c main_arg19 (by decide)).trans (f3_arg19 m ρ c)
theorem f4_arg20 : W4 (F := Ideal) m ρ c (Proc.devRef .tc main_arg20) = A20 m c :=
  (W4_of_ne m ρ c main_arg20 (by decide)).trans (f3_arg20 m ρ c)
theorem f4_v0 : W4 (F := Ideal) m ρ c (Proc.devRef .tc main_v0) = Cert.ReferenceIdeal.Read.val_main_v0 (F := Ideal) :=
  (W4_of_ne m ρ c main_v0 (by decide)).trans (f3_v0 m ρ c)
theorem f4_v2 : W4 (F := Ideal) m ρ c (Proc.devRef .tc main_v2) = Cert.ReferenceIdeal.Read.val_main_v2 (F := Ideal) (A0 m c) :=
  (W4_of_ne m ρ c main_v2 (by decide)).trans (f3_v2 m ρ c)
theorem f4_v3 : W4 (F := Ideal) m ρ c (Proc.devRef .tc main_v3) = (((extractStridedSlice S128x128 ![0, 0] · slices_S256x128_S128x128_0_0)) (A5 m c)) :=
  (W4_of_ne m ρ c main_v3 (by decide)).trans (f3_v3 m ρ c)
theorem f4_v4 : W4 (F := Ideal) m ρ c (Proc.devRef .tc main_v4) = (((extractStridedSlice S128x128 ![128, 0] · slices_S256x128_S128x128_128_0)) (A5 m c)) :=
  (W4_of_ne m ρ c main_v4 (by decide)).trans (f3_v4 m ρ c)
theorem f4_v5 : W4 (F := Ideal) m ρ c (Proc.devRef .tc main_v5) = (((extractStridedSlice S128x128 ![0, 0] · slices_S256x128_S128x128_0_0)) (A7 m c)) :=
  ((W4_arr m ρ c 2).trans (((dat1 (V3 m ρ) c).arrAt_in 2 rfl _).trans (A_eq1 (V3 m ρ) c 2))).trans (f3_v5 m ρ c)
theorem f4_v6 : W4 (F := Ideal) m ρ c (Proc.devRef .tc main_v6) = (((extractStridedSlice S128x128 ![128, 0] · slices_S256x128_S128x128_128_0)) (A7 m c)) :=
  ((W4_arr m ρ c 3).trans (((dat1 (V3 m ρ) c).arrAt_in 3 rfl _).trans (A_eq1 (V3 m ρ) c 3))).trans (f3_v6 m ρ c)
theorem f4_v14 : W4 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (W4_of_ne m ρ c main_v14 (by decide)).trans (f3_v14 m ρ c)
theorem f4_v21 : W4 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W4_of_ne m ρ c main_v21 (by decide)).trans (f3_v21 m ρ c)
theorem f4_v42 : W4 (F := Ideal) m ρ c (Proc.devRef .tc main_v42) = Cert.ReferenceIdeal.Read.val_main_v25 (F := Ideal) (A0 m c) (A1 m c) (A2 m c) (A5 m c) (A6 m c) :=
  (W4_of_ne m ρ c main_v42 (by decide)).trans (f3_v42 m ρ c)
set_option maxHeartbeats 4000000 in
theorem f4_v58 : W4 (F := Ideal) m ρ c (Proc.devRef .tc main_v58) = Cert.ReferenceIdeal.Read.val_main_v53 (F := Ideal) (A0 m c) (A3 m c) (A4 m c) (A7 m c) (A8 m c) := by
  refine (W4_arr m ρ c 5).trans ?_
  refine (Cert.KernelIdeal.Net.msg_region1 (V3 m ρ) c).trans ?_
  rw [show V3 (F := Ideal) m ρ c (Pipeline.arrRef spec1 0) = _ from f3_v49 m ρ c,
      show V3 (F := Ideal) m ρ c (Pipeline.arrRef spec1 1) = _ from f3_v56 m ρ c,
      show V3 (F := Ideal) m ρ c (Pipeline.arrRef spec1 2) = _ from f3_v5 m ρ c,
      show V3 (F := Ideal) m ρ c (Pipeline.arrRef spec1 3) = _ from f3_v6 m ρ c,
      show V3 (F := Ideal) m ρ c (Pipeline.arrRef spec1 4) = _ from f3_v57 m ρ c]
  exact (Cert.Net.msg_bridge _ _ _ _).trans (Cert.Net.msg_ref_v53 (A0 m c) (A3 m c) (A4 m c) (A7 m c) (A8 m c)).symm
theorem f5_arg1 : W5 (F := Ideal) m ρ c (Proc.devRef .tc main_arg1) = A1 m c :=
  (keepH2 m ρ c main_arg1 (by decide)).trans (f4_arg1 m ρ c)
theorem f5_arg2 : W5 (F := Ideal) m ρ c (Proc.devRef .tc main_arg2) = A2 m c :=
  (keepH2 m ρ c main_arg2 (by decide)).trans (f4_arg2 m ρ c)
theorem f5_arg3 : W5 (F := Ideal) m ρ c (Proc.devRef .tc main_arg3) = A3 m c :=
  (keepH2 m ρ c main_arg3 (by decide)).trans (f4_arg3 m ρ c)
theorem f5_arg4 : W5 (F := Ideal) m ρ c (Proc.devRef .tc main_arg4) = A4 m c :=
  (keepH2 m ρ c main_arg4 (by decide)).trans (f4_arg4 m ρ c)
theorem f5_arg6 : W5 (F := Ideal) m ρ c (Proc.devRef .tc main_arg6) = A6 m c :=
  (keepH2 m ρ c main_arg6 (by decide)).trans (f4_arg6 m ρ c)
theorem f5_arg8 : W5 (F := Ideal) m ρ c (Proc.devRef .tc main_arg8) = A8 m c :=
  (keepH2 m ρ c main_arg8 (by decide)).trans (f4_arg8 m ρ c)
theorem f5_arg9 : W5 (F := Ideal) m ρ c (Proc.devRef .tc main_arg9) = A9 m c :=
  (keepH2 m ρ c main_arg9 (by decide)).trans (f4_arg9 m ρ c)
theorem f5_arg10 : W5 (F := Ideal) m ρ c (Proc.devRef .tc main_arg10) = A10 m c :=
  (keepH2 m ρ c main_arg10 (by decide)).trans (f4_arg10 m ρ c)
theorem f5_arg11 : W5 (F := Ideal) m ρ c (Proc.devRef .tc main_arg11) = A11 m c :=
  (keepH2 m ρ c main_arg11 (by decide)).trans (f4_arg11 m ρ c)
theorem f5_arg12 : W5 (F := Ideal) m ρ c (Proc.devRef .tc main_arg12) = A12 m c :=
  (keepH2 m ρ c main_arg12 (by decide)).trans (f4_arg12 m ρ c)
theorem f5_arg13 : W5 (F := Ideal) m ρ c (Proc.devRef .tc main_arg13) = A13 m c :=
  (keepH2 m ρ c main_arg13 (by decide)).trans (f4_arg13 m ρ c)
theorem f5_arg14 : W5 (F := Ideal) m ρ c (Proc.devRef .tc main_arg14) = A14 m c :=
  (keepH2 m ρ c main_arg14 (by decide)).trans (f4_arg14 m ρ c)
theorem f5_arg15 : W5 (F := Ideal) m ρ c (Proc.devRef .tc main_arg15) = A15 m c :=
  (keepH2 m ρ c main_arg15 (by decide)).trans (f4_arg15 m ρ c)
theorem f5_arg16 : W5 (F := Ideal) m ρ c (Proc.devRef .tc main_arg16) = A16 m c :=
  (keepH2 m ρ c main_arg16 (by decide)).trans (f4_arg16 m ρ c)
theorem f5_arg17 : W5 (F := Ideal) m ρ c (Proc.devRef .tc main_arg17) = A17 m c :=
  (keepH2 m ρ c main_arg17 (by decide)).trans (f4_arg17 m ρ c)
theorem f5_arg18 : W5 (F := Ideal) m ρ c (Proc.devRef .tc main_arg18) = A18 m c :=
  (keepH2 m ρ c main_arg18 (by decide)).trans (f4_arg18 m ρ c)
theorem f5_arg19 : W5 (F := Ideal) m ρ c (Proc.devRef .tc main_arg19) = A19 m c :=
  (keepH2 m ρ c main_arg19 (by decide)).trans (f4_arg19 m ρ c)
theorem f5_arg20 : W5 (F := Ideal) m ρ c (Proc.devRef .tc main_arg20) = A20 m c :=
  (keepH2 m ρ c main_arg20 (by decide)).trans (f4_arg20 m ρ c)
theorem f5_v0 : W5 (F := Ideal) m ρ c (Proc.devRef .tc main_v0) = Cert.ReferenceIdeal.Read.val_main_v0 (F := Ideal) :=
  (keepH2 m ρ c main_v0 (by decide)).trans (f4_v0 m ρ c)
theorem f5_v2 : W5 (F := Ideal) m ρ c (Proc.devRef .tc main_v2) = Cert.ReferenceIdeal.Read.val_main_v2 (F := Ideal) (A0 m c) :=
  (keepH2 m ρ c main_v2 (by decide)).trans (f4_v2 m ρ c)
theorem f5_v3 : W5 (F := Ideal) m ρ c (Proc.devRef .tc main_v3) = (((extractStridedSlice S128x128 ![0, 0] · slices_S256x128_S128x128_0_0)) (A5 m c)) :=
  (keepH2 m ρ c main_v3 (by decide)).trans (f4_v3 m ρ c)
theorem f5_v4 : W5 (F := Ideal) m ρ c (Proc.devRef .tc main_v4) = (((extractStridedSlice S128x128 ![128, 0] · slices_S256x128_S128x128_128_0)) (A5 m c)) :=
  (keepH2 m ρ c main_v4 (by decide)).trans (f4_v4 m ρ c)
theorem f5_v5 : W5 (F := Ideal) m ρ c (Proc.devRef .tc main_v5) = (((extractStridedSlice S128x128 ![0, 0] · slices_S256x128_S128x128_0_0)) (A7 m c)) :=
  (keepH2 m ρ c main_v5 (by decide)).trans (f4_v5 m ρ c)
theorem f5_v6 : W5 (F := Ideal) m ρ c (Proc.devRef .tc main_v6) = (((extractStridedSlice S128x128 ![128, 0] · slices_S256x128_S128x128_128_0)) (A7 m c)) :=
  (keepH2 m ρ c main_v6 (by decide)).trans (f4_v6 m ρ c)
theorem f5_v14 : W5 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH2 m ρ c main_v14 (by decide)).trans (f4_v14 m ρ c)
theorem f5_v21 : W5 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH2 m ρ c main_v21 (by decide)).trans (f4_v21 m ρ c)
theorem f5_v42 : W5 (F := Ideal) m ρ c (Proc.devRef .tc main_v42) = Cert.ReferenceIdeal.Read.val_main_v25 (F := Ideal) (A0 m c) (A1 m c) (A2 m c) (A5 m c) (A6 m c) :=
  (keepH2 m ρ c main_v42 (by decide)).trans (f4_v42 m ρ c)
theorem f5_v61 : W5 (F := Ideal) m ρ c (Proc.devRef .tc main_v61) = Cert.ReferenceIdeal.Read.val_main_v56 (F := Ideal) (A0 m c) (A3 m c) (A4 m c) (A7 m c) (A8 m c) := by
  show StableHlo.after hostOps2 (W4 m ρ c) (Proc.devRef .tc main_v61) = _
  after_results
  all_goals (try simp only [f4_arg4 m ρ c, f4_v58 m ρ c])
  all_goals rfl
theorem f5_v64 : W5 (F := Ideal) m ρ c (Proc.devRef .tc main_v64) = (shapeCast S1x384 (shapeCast S384 (((extractStridedSlice S1x384 ![0, 0] · slices_S2x384_S1x384_0_0)) (A11 m c)) shapeCasts_S1x384_S384) shapeCasts_S384_S1x384) := by
  show StableHlo.after hostOps2 (W4 m ρ c) (Proc.devRef .tc main_v64) = _
  after_results
  all_goals (try simp only [f4_arg11 m ρ c])
  all_goals rfl
theorem f5_v67 : W5 (F := Ideal) m ρ c (Proc.devRef .tc main_v67) = (shapeCast S1x384 (shapeCast S384 (((extractStridedSlice S1x384 ![1, 0] · slices_S2x384_S1x384_1_0)) (A11 m c)) shapeCasts_S1x384_S384) shapeCasts_S384_S1x384) := by
  show StableHlo.after hostOps2 (W4 m ρ c) (Proc.devRef .tc main_v67) = _
  after_results
  all_goals (try simp only [f4_arg11 m ρ c])
  all_goals rfl
theorem f6_arg1 : W6 (F := Ideal) m ρ c (Proc.devRef .tc main_arg1) = A1 m c :=
  (W6_of_ne m ρ c main_arg1 (by decide)).trans (f5_arg1 m ρ c)
theorem f6_arg2 : W6 (F := Ideal) m ρ c (Proc.devRef .tc main_arg2) = A2 m c :=
  (W6_of_ne m ρ c main_arg2 (by decide)).trans (f5_arg2 m ρ c)
theorem f6_arg3 : W6 (F := Ideal) m ρ c (Proc.devRef .tc main_arg3) = A3 m c :=
  (W6_of_ne m ρ c main_arg3 (by decide)).trans (f5_arg3 m ρ c)
theorem f6_arg4 : W6 (F := Ideal) m ρ c (Proc.devRef .tc main_arg4) = A4 m c :=
  (W6_of_ne m ρ c main_arg4 (by decide)).trans (f5_arg4 m ρ c)
theorem f6_arg6 : W6 (F := Ideal) m ρ c (Proc.devRef .tc main_arg6) = A6 m c :=
  (W6_of_ne m ρ c main_arg6 (by decide)).trans (f5_arg6 m ρ c)
theorem f6_arg8 : W6 (F := Ideal) m ρ c (Proc.devRef .tc main_arg8) = A8 m c :=
  (W6_of_ne m ρ c main_arg8 (by decide)).trans (f5_arg8 m ρ c)
theorem f6_arg9 : W6 (F := Ideal) m ρ c (Proc.devRef .tc main_arg9) = A9 m c :=
  ((W6_arr m ρ c 3).trans (((dat2 (V5 m ρ) c).arrAt_in 3 rfl _).trans (A_eq2 (V5 m ρ) c 3))).trans (f5_arg9 m ρ c)
theorem f6_arg10 : W6 (F := Ideal) m ρ c (Proc.devRef .tc main_arg10) = A10 m c :=
  ((W6_arr m ρ c 4).trans (((dat2 (V5 m ρ) c).arrAt_in 4 rfl _).trans (A_eq2 (V5 m ρ) c 4))).trans (f5_arg10 m ρ c)
theorem f6_arg11 : W6 (F := Ideal) m ρ c (Proc.devRef .tc main_arg11) = A11 m c :=
  (W6_of_ne m ρ c main_arg11 (by decide)).trans (f5_arg11 m ρ c)
theorem f6_arg12 : W6 (F := Ideal) m ρ c (Proc.devRef .tc main_arg12) = A12 m c :=
  (W6_of_ne m ρ c main_arg12 (by decide)).trans (f5_arg12 m ρ c)
theorem f6_arg13 : W6 (F := Ideal) m ρ c (Proc.devRef .tc main_arg13) = A13 m c :=
  (W6_of_ne m ρ c main_arg13 (by decide)).trans (f5_arg13 m ρ c)
theorem f6_arg14 : W6 (F := Ideal) m ρ c (Proc.devRef .tc main_arg14) = A14 m c :=
  (W6_of_ne m ρ c main_arg14 (by decide)).trans (f5_arg14 m ρ c)
theorem f6_arg15 : W6 (F := Ideal) m ρ c (Proc.devRef .tc main_arg15) = A15 m c :=
  (W6_of_ne m ρ c main_arg15 (by decide)).trans (f5_arg15 m ρ c)
theorem f6_arg16 : W6 (F := Ideal) m ρ c (Proc.devRef .tc main_arg16) = A16 m c :=
  (W6_of_ne m ρ c main_arg16 (by decide)).trans (f5_arg16 m ρ c)
theorem f6_arg17 : W6 (F := Ideal) m ρ c (Proc.devRef .tc main_arg17) = A17 m c :=
  (W6_of_ne m ρ c main_arg17 (by decide)).trans (f5_arg17 m ρ c)
theorem f6_arg18 : W6 (F := Ideal) m ρ c (Proc.devRef .tc main_arg18) = A18 m c :=
  (W6_of_ne m ρ c main_arg18 (by decide)).trans (f5_arg18 m ρ c)
theorem f6_arg19 : W6 (F := Ideal) m ρ c (Proc.devRef .tc main_arg19) = A19 m c :=
  (W6_of_ne m ρ c main_arg19 (by decide)).trans (f5_arg19 m ρ c)
theorem f6_arg20 : W6 (F := Ideal) m ρ c (Proc.devRef .tc main_arg20) = A20 m c :=
  (W6_of_ne m ρ c main_arg20 (by decide)).trans (f5_arg20 m ρ c)
theorem f6_v2 : W6 (F := Ideal) m ρ c (Proc.devRef .tc main_v2) = Cert.ReferenceIdeal.Read.val_main_v2 (F := Ideal) (A0 m c) :=
  (W6_of_ne m ρ c main_v2 (by decide)).trans (f5_v2 m ρ c)
theorem f6_v3 : W6 (F := Ideal) m ρ c (Proc.devRef .tc main_v3) = (((extractStridedSlice S128x128 ![0, 0] · slices_S256x128_S128x128_0_0)) (A5 m c)) :=
  (W6_of_ne m ρ c main_v3 (by decide)).trans (f5_v3 m ρ c)
theorem f6_v4 : W6 (F := Ideal) m ρ c (Proc.devRef .tc main_v4) = (((extractStridedSlice S128x128 ![128, 0] · slices_S256x128_S128x128_128_0)) (A5 m c)) :=
  (W6_of_ne m ρ c main_v4 (by decide)).trans (f5_v4 m ρ c)
theorem f6_v5 : W6 (F := Ideal) m ρ c (Proc.devRef .tc main_v5) = (((extractStridedSlice S128x128 ![0, 0] · slices_S256x128_S128x128_0_0)) (A7 m c)) :=
  (W6_of_ne m ρ c main_v5 (by decide)).trans (f5_v5 m ρ c)
theorem f6_v6 : W6 (F := Ideal) m ρ c (Proc.devRef .tc main_v6) = (((extractStridedSlice S128x128 ![128, 0] · slices_S256x128_S128x128_128_0)) (A7 m c)) :=
  (W6_of_ne m ρ c main_v6 (by decide)).trans (f5_v6 m ρ c)
theorem f6_v14 : W6 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  ((W6_arr m ρ c 2).trans (((dat2 (V5 m ρ) c).arrAt_in 2 rfl _).trans (A_eq2 (V5 m ρ) c 2))).trans (f5_v14 m ρ c)
theorem f6_v21 : W6 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W6_of_ne m ρ c main_v21 (by decide)).trans (f5_v21 m ρ c)
theorem f6_v42 : W6 (F := Ideal) m ρ c (Proc.devRef .tc main_v42) = Cert.ReferenceIdeal.Read.val_main_v25 (F := Ideal) (A0 m c) (A1 m c) (A2 m c) (A5 m c) (A6 m c) :=
  (W6_of_ne m ρ c main_v42 (by decide)).trans (f5_v42 m ρ c)
set_option maxHeartbeats 4000000 in
theorem f6_v68 : W6 (F := Ideal) m ρ c (Proc.devRef .tc main_v68) = Cert.ReferenceIdeal.Read.val_main_v104 (F := Ideal) (A0 m c) (A3 m c) (A4 m c) (A7 m c) (A8 m c) (A9 m c) (A10 m c) (A11 m c) := by
  refine (W6_arr m ρ c 7).trans ?_
  refine (Cert.KernelIdeal.Net.gru_region2 (V5 m ρ) c).trans ?_
  rw [show V5 (F := Ideal) m ρ c (Pipeline.arrRef spec2 0) = _ from f5_v61 m ρ c,
      show V5 (F := Ideal) m ρ c (Pipeline.arrRef spec2 1) = _ from f5_v0 m ρ c,
      show V5 (F := Ideal) m ρ c (Pipeline.arrRef spec2 2) = _ from f5_v14 m ρ c,
      show V5 (F := Ideal) m ρ c (Pipeline.arrRef spec2 3) = _ from f5_arg9 m ρ c,
      show V5 (F := Ideal) m ρ c (Pipeline.arrRef spec2 4) = _ from f5_arg10 m ρ c,
      show V5 (F := Ideal) m ρ c (Pipeline.arrRef spec2 5) = _ from f5_v64 m ρ c,
      show V5 (F := Ideal) m ρ c (Pipeline.arrRef spec2 6) = _ from f5_v67 m ρ c]
  exact (Cert.Net.gruIp_bridge _ _ (A4 m c) (A9 m c) (A10 m c) (A11 m c)).trans (Cert.Net.gruIp_ref_v104 (A0 m c) (A3 m c) (A4 m c) (A7 m c) (A8 m c) (A9 m c) (A10 m c) (A11 m c)).symm
theorem f7_arg1 : W7 (F := Ideal) m ρ c (Proc.devRef .tc main_arg1) = A1 m c :=
  (keepH3 m ρ c main_arg1 (by decide)).trans (f6_arg1 m ρ c)
theorem f7_arg2 : W7 (F := Ideal) m ρ c (Proc.devRef .tc main_arg2) = A2 m c :=
  (keepH3 m ρ c main_arg2 (by decide)).trans (f6_arg2 m ρ c)
theorem f7_arg3 : W7 (F := Ideal) m ρ c (Proc.devRef .tc main_arg3) = A3 m c :=
  (keepH3 m ρ c main_arg3 (by decide)).trans (f6_arg3 m ρ c)
theorem f7_arg4 : W7 (F := Ideal) m ρ c (Proc.devRef .tc main_arg4) = A4 m c :=
  (keepH3 m ρ c main_arg4 (by decide)).trans (f6_arg4 m ρ c)
theorem f7_arg6 : W7 (F := Ideal) m ρ c (Proc.devRef .tc main_arg6) = A6 m c :=
  (keepH3 m ρ c main_arg6 (by decide)).trans (f6_arg6 m ρ c)
theorem f7_arg8 : W7 (F := Ideal) m ρ c (Proc.devRef .tc main_arg8) = A8 m c :=
  (keepH3 m ρ c main_arg8 (by decide)).trans (f6_arg8 m ρ c)
theorem f7_arg9 : W7 (F := Ideal) m ρ c (Proc.devRef .tc main_arg9) = A9 m c :=
  (keepH3 m ρ c main_arg9 (by decide)).trans (f6_arg9 m ρ c)
theorem f7_arg10 : W7 (F := Ideal) m ρ c (Proc.devRef .tc main_arg10) = A10 m c :=
  (keepH3 m ρ c main_arg10 (by decide)).trans (f6_arg10 m ρ c)
theorem f7_arg11 : W7 (F := Ideal) m ρ c (Proc.devRef .tc main_arg11) = A11 m c :=
  (keepH3 m ρ c main_arg11 (by decide)).trans (f6_arg11 m ρ c)
theorem f7_arg12 : W7 (F := Ideal) m ρ c (Proc.devRef .tc main_arg12) = A12 m c :=
  (keepH3 m ρ c main_arg12 (by decide)).trans (f6_arg12 m ρ c)
theorem f7_arg13 : W7 (F := Ideal) m ρ c (Proc.devRef .tc main_arg13) = A13 m c :=
  (keepH3 m ρ c main_arg13 (by decide)).trans (f6_arg13 m ρ c)
theorem f7_arg14 : W7 (F := Ideal) m ρ c (Proc.devRef .tc main_arg14) = A14 m c :=
  (keepH3 m ρ c main_arg14 (by decide)).trans (f6_arg14 m ρ c)
theorem f7_arg15 : W7 (F := Ideal) m ρ c (Proc.devRef .tc main_arg15) = A15 m c :=
  (keepH3 m ρ c main_arg15 (by decide)).trans (f6_arg15 m ρ c)
theorem f7_arg16 : W7 (F := Ideal) m ρ c (Proc.devRef .tc main_arg16) = A16 m c :=
  (keepH3 m ρ c main_arg16 (by decide)).trans (f6_arg16 m ρ c)
theorem f7_arg17 : W7 (F := Ideal) m ρ c (Proc.devRef .tc main_arg17) = A17 m c :=
  (keepH3 m ρ c main_arg17 (by decide)).trans (f6_arg17 m ρ c)
theorem f7_arg18 : W7 (F := Ideal) m ρ c (Proc.devRef .tc main_arg18) = A18 m c :=
  (keepH3 m ρ c main_arg18 (by decide)).trans (f6_arg18 m ρ c)
theorem f7_arg19 : W7 (F := Ideal) m ρ c (Proc.devRef .tc main_arg19) = A19 m c :=
  (keepH3 m ρ c main_arg19 (by decide)).trans (f6_arg19 m ρ c)
theorem f7_arg20 : W7 (F := Ideal) m ρ c (Proc.devRef .tc main_arg20) = A20 m c :=
  (keepH3 m ρ c main_arg20 (by decide)).trans (f6_arg20 m ρ c)
theorem f7_v2 : W7 (F := Ideal) m ρ c (Proc.devRef .tc main_v2) = Cert.ReferenceIdeal.Read.val_main_v2 (F := Ideal) (A0 m c) :=
  (keepH3 m ρ c main_v2 (by decide)).trans (f6_v2 m ρ c)
theorem f7_v3 : W7 (F := Ideal) m ρ c (Proc.devRef .tc main_v3) = (((extractStridedSlice S128x128 ![0, 0] · slices_S256x128_S128x128_0_0)) (A5 m c)) :=
  (keepH3 m ρ c main_v3 (by decide)).trans (f6_v3 m ρ c)
theorem f7_v4 : W7 (F := Ideal) m ρ c (Proc.devRef .tc main_v4) = (((extractStridedSlice S128x128 ![128, 0] · slices_S256x128_S128x128_128_0)) (A5 m c)) :=
  (keepH3 m ρ c main_v4 (by decide)).trans (f6_v4 m ρ c)
theorem f7_v5 : W7 (F := Ideal) m ρ c (Proc.devRef .tc main_v5) = (((extractStridedSlice S128x128 ![0, 0] · slices_S256x128_S128x128_0_0)) (A7 m c)) :=
  (keepH3 m ρ c main_v5 (by decide)).trans (f6_v5 m ρ c)
theorem f7_v6 : W7 (F := Ideal) m ρ c (Proc.devRef .tc main_v6) = (((extractStridedSlice S128x128 ![128, 0] · slices_S256x128_S128x128_128_0)) (A7 m c)) :=
  (keepH3 m ρ c main_v6 (by decide)).trans (f6_v6 m ρ c)
theorem f7_v14 : W7 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH3 m ρ c main_v14 (by decide)).trans (f6_v14 m ρ c)
theorem f7_v21 : W7 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH3 m ρ c main_v21 (by decide)).trans (f6_v21 m ρ c)
theorem f7_v42 : W7 (F := Ideal) m ρ c (Proc.devRef .tc main_v42) = Cert.ReferenceIdeal.Read.val_main_v25 (F := Ideal) (A0 m c) (A1 m c) (A2 m c) (A5 m c) (A6 m c) :=
  (keepH3 m ρ c main_v42 (by decide)).trans (f6_v42 m ρ c)
theorem f7_v68 : W7 (F := Ideal) m ρ c (Proc.devRef .tc main_v68) = Cert.ReferenceIdeal.Read.val_main_v104 (F := Ideal) (A0 m c) (A3 m c) (A4 m c) (A7 m c) (A8 m c) (A9 m c) (A10 m c) (A11 m c) :=
  (keepH3 m ρ c main_v68 (by decide)).trans (f6_v68 m ρ c)
theorem f7_v71 : W7 (F := Ideal) m ρ c (Proc.devRef .tc main_v71) = (shapeCast S1x384 (shapeCast S384 (((extractStridedSlice S1x384 ![0, 0] · slices_S2x384_S1x384_0_0)) (A14 m c)) shapeCasts_S1x384_S384) shapeCasts_S384_S1x384) := by
  show StableHlo.after hostOps3 (W6 m ρ c) (Proc.devRef .tc main_v71) = _
  after_results
  all_goals (try simp only [f6_arg14 m ρ c])
  all_goals rfl
theorem f7_v74 : W7 (F := Ideal) m ρ c (Proc.devRef .tc main_v74) = (shapeCast S1x384 (shapeCast S384 (((extractStridedSlice S1x384 ![1, 0] · slices_S2x384_S1x384_1_0)) (A14 m c)) shapeCasts_S1x384_S384) shapeCasts_S384_S1x384) := by
  show StableHlo.after hostOps3 (W6 m ρ c) (Proc.devRef .tc main_v74) = _
  after_results
  all_goals (try simp only [f6_arg14 m ρ c])
  all_goals rfl
theorem f8_arg1 : W8 (F := Ideal) m ρ c (Proc.devRef .tc main_arg1) = A1 m c :=
  (W8_of_ne m ρ c main_arg1 (by decide)).trans (f7_arg1 m ρ c)
theorem f8_arg2 : W8 (F := Ideal) m ρ c (Proc.devRef .tc main_arg2) = A2 m c :=
  (W8_of_ne m ρ c main_arg2 (by decide)).trans (f7_arg2 m ρ c)
theorem f8_arg3 : W8 (F := Ideal) m ρ c (Proc.devRef .tc main_arg3) = A3 m c :=
  (W8_of_ne m ρ c main_arg3 (by decide)).trans (f7_arg3 m ρ c)
theorem f8_arg4 : W8 (F := Ideal) m ρ c (Proc.devRef .tc main_arg4) = A4 m c :=
  (W8_of_ne m ρ c main_arg4 (by decide)).trans (f7_arg4 m ρ c)
theorem f8_arg6 : W8 (F := Ideal) m ρ c (Proc.devRef .tc main_arg6) = A6 m c :=
  (W8_of_ne m ρ c main_arg6 (by decide)).trans (f7_arg6 m ρ c)
theorem f8_arg8 : W8 (F := Ideal) m ρ c (Proc.devRef .tc main_arg8) = A8 m c :=
  (W8_of_ne m ρ c main_arg8 (by decide)).trans (f7_arg8 m ρ c)
theorem f8_arg9 : W8 (F := Ideal) m ρ c (Proc.devRef .tc main_arg9) = A9 m c :=
  (W8_of_ne m ρ c main_arg9 (by decide)).trans (f7_arg9 m ρ c)
theorem f8_arg10 : W8 (F := Ideal) m ρ c (Proc.devRef .tc main_arg10) = A10 m c :=
  (W8_of_ne m ρ c main_arg10 (by decide)).trans (f7_arg10 m ρ c)
theorem f8_arg11 : W8 (F := Ideal) m ρ c (Proc.devRef .tc main_arg11) = A11 m c :=
  (W8_of_ne m ρ c main_arg11 (by decide)).trans (f7_arg11 m ρ c)
theorem f8_arg12 : W8 (F := Ideal) m ρ c (Proc.devRef .tc main_arg12) = A12 m c :=
  ((W8_arr m ρ c 3).trans (((dat3 (V7 m ρ) c).arrAt_in 3 rfl _).trans (A_eq3 (V7 m ρ) c 3))).trans (f7_arg12 m ρ c)
theorem f8_arg13 : W8 (F := Ideal) m ρ c (Proc.devRef .tc main_arg13) = A13 m c :=
  ((W8_arr m ρ c 4).trans (((dat3 (V7 m ρ) c).arrAt_in 4 rfl _).trans (A_eq3 (V7 m ρ) c 4))).trans (f7_arg13 m ρ c)
theorem f8_arg14 : W8 (F := Ideal) m ρ c (Proc.devRef .tc main_arg14) = A14 m c :=
  (W8_of_ne m ρ c main_arg14 (by decide)).trans (f7_arg14 m ρ c)
theorem f8_arg15 : W8 (F := Ideal) m ρ c (Proc.devRef .tc main_arg15) = A15 m c :=
  (W8_of_ne m ρ c main_arg15 (by decide)).trans (f7_arg15 m ρ c)
theorem f8_arg16 : W8 (F := Ideal) m ρ c (Proc.devRef .tc main_arg16) = A16 m c :=
  (W8_of_ne m ρ c main_arg16 (by decide)).trans (f7_arg16 m ρ c)
theorem f8_arg17 : W8 (F := Ideal) m ρ c (Proc.devRef .tc main_arg17) = A17 m c :=
  (W8_of_ne m ρ c main_arg17 (by decide)).trans (f7_arg17 m ρ c)
theorem f8_arg18 : W8 (F := Ideal) m ρ c (Proc.devRef .tc main_arg18) = A18 m c :=
  (W8_of_ne m ρ c main_arg18 (by decide)).trans (f7_arg18 m ρ c)
theorem f8_arg19 : W8 (F := Ideal) m ρ c (Proc.devRef .tc main_arg19) = A19 m c :=
  (W8_of_ne m ρ c main_arg19 (by decide)).trans (f7_arg19 m ρ c)
theorem f8_arg20 : W8 (F := Ideal) m ρ c (Proc.devRef .tc main_arg20) = A20 m c :=
  (W8_of_ne m ρ c main_arg20 (by decide)).trans (f7_arg20 m ρ c)
theorem f8_v3 : W8 (F := Ideal) m ρ c (Proc.devRef .tc main_v3) = (((extractStridedSlice S128x128 ![0, 0] · slices_S256x128_S128x128_0_0)) (A5 m c)) :=
  (W8_of_ne m ρ c main_v3 (by decide)).trans (f7_v3 m ρ c)
theorem f8_v4 : W8 (F := Ideal) m ρ c (Proc.devRef .tc main_v4) = (((extractStridedSlice S128x128 ![128, 0] · slices_S256x128_S128x128_128_0)) (A5 m c)) :=
  (W8_of_ne m ρ c main_v4 (by decide)).trans (f7_v4 m ρ c)
theorem f8_v5 : W8 (F := Ideal) m ρ c (Proc.devRef .tc main_v5) = (((extractStridedSlice S128x128 ![0, 0] · slices_S256x128_S128x128_0_0)) (A7 m c)) :=
  (W8_of_ne m ρ c main_v5 (by decide)).trans (f7_v5 m ρ c)
theorem f8_v6 : W8 (F := Ideal) m ρ c (Proc.devRef .tc main_v6) = (((extractStridedSlice S128x128 ![128, 0] · slices_S256x128_S128x128_128_0)) (A7 m c)) :=
  (W8_of_ne m ρ c main_v6 (by decide)).trans (f7_v6 m ρ c)
theorem f8_v14 : W8 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (W8_of_ne m ρ c main_v14 (by decide)).trans (f7_v14 m ρ c)
theorem f8_v21 : W8 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  ((W8_arr m ρ c 2).trans (((dat3 (V7 m ρ) c).arrAt_in 2 rfl _).trans (A_eq3 (V7 m ρ) c 2))).trans (f7_v21 m ρ c)
theorem f8_v68 : W8 (F := Ideal) m ρ c (Proc.devRef .tc main_v68) = Cert.ReferenceIdeal.Read.val_main_v104 (F := Ideal) (A0 m c) (A3 m c) (A4 m c) (A7 m c) (A8 m c) (A9 m c) (A10 m c) (A11 m c) :=
  (W8_of_ne m ρ c main_v68 (by decide)).trans (f7_v68 m ρ c)
set_option maxHeartbeats 4000000 in
theorem f8_v75 : W8 (F := Ideal) m ρ c (Proc.devRef .tc main_v75) = Cert.ReferenceIdeal.Read.val_main_v144 (F := Ideal) (A0 m c) (A1 m c) (A2 m c) (A5 m c) (A6 m c) (A12 m c) (A13 m c) (A14 m c) := by
  refine (W8_arr m ρ c 7).trans ?_
  refine (Cert.KernelIdeal.Net.gru_region3 (V7 m ρ) c).trans ?_
  rw [show V7 (F := Ideal) m ρ c (Pipeline.arrRef spec3 0) = _ from f7_v42 m ρ c,
      show V7 (F := Ideal) m ρ c (Pipeline.arrRef spec3 1) = _ from f7_v2 m ρ c,
      show V7 (F := Ideal) m ρ c (Pipeline.arrRef spec3 2) = _ from f7_v21 m ρ c,
      show V7 (F := Ideal) m ρ c (Pipeline.arrRef spec3 3) = _ from f7_arg12 m ρ c,
      show V7 (F := Ideal) m ρ c (Pipeline.arrRef spec3 4) = _ from f7_arg13 m ρ c,
      show V7 (F := Ideal) m ρ c (Pipeline.arrRef spec3 5) = _ from f7_v71 m ρ c,
      show V7 (F := Ideal) m ρ c (Pipeline.arrRef spec3 6) = _ from f7_v74 m ρ c]
  exact (Cert.Net.gruC_bridge _ _ (A2 m c) (A12 m c) (A13 m c) (A14 m c)).trans (Cert.Net.gruC_ref_v144 (A0 m c) (A1 m c) (A2 m c) (A5 m c) (A6 m c) (A12 m c) (A13 m c) (A14 m c)).symm

end Cert.KernelIdeal.Gen

end
-- ==== Proof.MsgRegion4.lean ====
/-
  Launch 4 of the program is a message layer: the array it leaves is the row-block form of the layer applied to the
  arrays it finds.

  The launch walks 25 blocks of 8000 rows.  At block t it reads rows 8000·t … 8000·t + 7999 of the two feature arrays,
  the two whole 128×128 weight halves and the whole 1×128 bias row, computes the layer on those rows and writes rows
  8000·t … 8000·t + 7999 of the result.  Entry (r, q) of block t is therefore entry (8000·t + r, q) of the layer over
  the whole arrays; the 25 blocks tile the 200000 rows (row i lies in block i / 8000), so the result array is the layer.
-/
import proofs.«154953_j22007412425053_2_alg».proof.Proof.Gen.KernelIdeal.Frame
import proofs.«154953_j22007412425053_2_alg».proof.Proof.MsgSpec
import proofs.«154953_j22007412425053_2_alg».proof.Proof.MsgBlock

set_option maxRecDepth 16384

noncomputable section

namespace Cert.KernelIdeal.Net

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Which block each window is on at point t: the two feature windows and the result window are on block t of the
    rows, the weight halves and the bias row on their one block. -/
theorem blocks4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- There are 25 points. -/
theorem points4 (t : Fin cfg4.N) : t.val < 25 := lt_of_lt_of_eq t.isLt N_4

/-- Row r of the first feature block at point t is row 8000·t + r of the first feature array. -/
theorem rows4_0 (c : Dev nD) (t : Fin cfg4.N) (r : Fin 8000) (k : Fin 128) (p : Fin 200000) (hp : p.val = t.val * 8000 + r.val) :
    (iblk4 V c 0 t : Vec Ideal S8000x128 .bf16) (ix2 r k)
      = (V c (Pipeline.arrRef spec4 0) : S200000x128.Idx → Elt Ideal .bf16) (ix2 p k) := by
  obtain ⟨e0, e1, -⟩ := blocks4 t
  unfold iblk4
  rw [View.read_apply]
  show (V c (Pipeline.arrRef spec4 0) : S200000x128.Idx → Elt Ideal .bf16) _ = _
  refine congrArg (V c (Pipeline.arrRef spec4 0) : S200000x128.Idx → Elt Ideal .bf16) ?_
  funext a; apply Fin.ext
  match a with
  | ⟨0, _⟩ => show win4_0.index t (0 : Fin 2) * 8000 + 1 * r.val = p.val; omega
  | ⟨1, _⟩ => show win4_0.index t (1 : Fin 2) * 128 + 1 * k.val = k.val; omega

/-- Row r of the second feature block at point t is row 8000·t + r of the second feature array. -/
theorem rows4_1 (c : Dev nD) (t : Fin cfg4.N) (r : Fin 8000) (k : Fin 128) (p : Fin 200000) (hp : p.val = t.val * 8000 + r.val) :
    (iblk4 V c 1 t : Vec Ideal S8000x128 .bf16) (ix2 r k)
      = (V c (Pipeline.arrRef spec4 1) : S200000x128.Idx → Elt Ideal .bf16) (ix2 p k) := by
  obtain ⟨-, -, e0, e1, -⟩ := blocks4 t
  unfold iblk4
  rw [View.read_apply]
  show (V c (Pipeline.arrRef spec4 1) : S200000x128.Idx → Elt Ideal .bf16) _ = _
  refine congrArg (V c (Pipeline.arrRef spec4 1) : S200000x128.Idx → Elt Ideal .bf16) ?_
  funext a; apply Fin.ext
  match a with
  | ⟨0, _⟩ => show win4_1.index t (0 : Fin 2) * 8000 + 1 * r.val = p.val; omega
  | ⟨1, _⟩ => show win4_1.index t (1 : Fin 2) * 128 + 1 * k.val = k.val; omega

/-- The block of the upper weight half is the whole array, at every point. -/
theorem whole4_2 (c : Dev nD) (t : Fin cfg4.N) :
    (iblk4 V c 2 t : Vec Ideal S128x128 .f32) = (V c (Pipeline.arrRef spec4 2) : S128x128.Idx → Elt Ideal .f32) := by
  obtain ⟨-, -, -, -, e0, e1, -⟩ := blocks4 t
  unfold iblk4
  refine funext fun (y : S128x128.Idx) => ?_
  rw [View.read_apply]
  show (V c (Pipeline.arrRef spec4 2) : S128x128.Idx → Elt Ideal .f32) _ = _
  refine congrArg (V c (Pipeline.arrRef spec4 2) : S128x128.Idx → Elt Ideal .f32) ?_
  funext a; apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The block of the lower weight half is the whole array, at every point. -/
theorem whole4_3 (c : Dev nD) (t : Fin cfg4.N) :
    (iblk4 V c 3 t : Vec Ideal S128x128 .f32) = (V c (Pipeline.arrRef spec4 3) : S128x128.Idx → Elt Ideal .f32) := by
  obtain ⟨-, -, -, -, -, -, e0, e1, -⟩ := blocks4 t
  unfold iblk4
  refine funext fun (y : S128x128.Idx) => ?_
  rw [View.read_apply]
  show (V c (Pipeline.arrRef spec4 3) : S128x128.Idx → Elt Ideal .f32) _ = _
  refine congrArg (V c (Pipeline.arrRef spec4 3) : S128x128.Idx → Elt Ideal .f32) ?_
  funext a; apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The block of the bias row is the whole row, at every point. -/
theorem whole4_4 (c : Dev nD) (t : Fin cfg4.N) :
    (iblk4 V c 4 t : Vec Ideal S1x128 .f32) = (V c (Pipeline.arrRef spec4 4) : S1x128.Idx → Elt Ideal .f32) := by
  obtain ⟨-, -, -, -, -, -, -, -, e0, e1, -⟩ := blocks4 t
  unfold iblk4
  refine funext fun (y : S1x128.Idx) => ?_
  rw [View.read_apply]
  show (V c (Pipeline.arrRef spec4 4) : S1x128.Idx → Elt Ideal .f32) _ = _
  refine congrArg (V c (Pipeline.arrRef spec4 4) : S1x128.Idx → Elt Ideal .f32) ?_
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- What point t writes back is block t of the layer over the arrays the launch finds. -/
theorem written4 (c : Dev nD) (t : Fin cfg4.N) :
    (dat4 V c).flushed 5 t = ((cfg4.win 5).blk t).view.read (Elt Ideal)
      (Cert.Net.msgK (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero offsets_zero]
  simp only [View.ld_unit_zero (S := S8000x128) offsets_zero, View.ld_unit_zero (S := S128x128) offsets_zero,
    View.ld_unit_zero (S := S1x128) offsets_zero]
  obtain ⟨-, -, -, -, -, -, -, -, -, -, e0, e1⟩ := blocks4 t
  have ht := points4 t
  refine funext fun (j : S8000x128.Idx) => ?_
  obtain ⟨r, q, rfl⟩ : ∃ (r : Fin 8000) (q : Fin 128), j = ix2 r q := ⟨j 0, j 1, eq_ix2 j⟩
  have hemb : ((cfg4.win 5).blk t).view.emb (ix2 r q)
      = ix2 (⟨t.val * 8000 + r.val, by have := r.isLt; omega⟩ : Fin 200000) q := by
    funext a; apply Fin.ext
    match a with
    | ⟨0, _⟩ => show win4_5.index t (0 : Fin 2) * 8000 + 1 * r.val = t.val * 8000 + r.val; omega
    | ⟨1, _⟩ => show win4_5.index t (1 : Fin 2) * 128 + 1 * q.val = q.val; omega
  show k4_pay1 (F := Ideal) (iblk4 V c 0 t) (iblk4 V c 1 t) (iblk4 V c 2 t) (iblk4 V c 3 t) (iblk4 V c 4 t) (ix2 r q)
      = Cert.Net.msgK (V c (Pipeline.arrRef spec4 0)) (V c (Pipeline.arrRef spec4 1)) (V c (Pipeline.arrRef spec4 2))
        (V c (Pipeline.arrRef spec4 3)) (V c (Pipeline.arrRef spec4 4)) (((cfg4.win 5).blk t).view.emb (ix2 r q))
  rw [hemb]
  exact block_entry4 (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4)) r q ⟨t.val * 8000 + r.val, by have := r.isLt; omega⟩
    (fun k => rows4_0 V c t r k _ rfl) (fun k => rows4_1 V c t r k _ rfl)
    (whole4_2 V c t) (whole4_3 V c t) (whole4_4 V c t)

/-- An index of the result array is in point t's block iff each coordinate is in the block's range on its axis. -/
theorem inblock4 (t : Fin cfg4.N) (i : S200000x128.Idx) :
    i ∈ ((cfg4.win 5).blk t).view.set ↔ ∀ a : Fin 2, win4_5.index t a * S8000x128.size a ≤ (i a).val
      ∧ (i a).val < win4_5.index t a * S8000x128.size a + S8000x128.size a := by
  show i ∈ ((View.whole (Pipeline.arrRef spec4 5)).slice (win4_5.rect t)).set ↔ _
  rw [View.set_slice_whole, Rect.mem_set_unit]
  exact Iff.rfl

/-- The array launch 4 leaves is the row-block form of the layer over the arrays it finds. -/
theorem msg_region4 (c : Dev nD) :
    (dat4 V c).arrAt 5 cfg4.N
      = Cert.Net.msgK (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => written4 V c t) fun i => by
    have hi0 : (i 0).val < 200000 := (i 0).isLt
    have hi1 : (i 1).val < 128 := (i 1).isLt
    have hN : cfg4.N = 25 := N_4
    refine ⟨⟨(i 0).val / 8000, by rw [hN]; omega⟩, flush4_5 _, ?_⟩
    obtain ⟨-, -, -, -, -, -, -, -, -, -, e0, e1⟩ := blocks4 ⟨(i 0).val / 8000, by rw [hN]; omega⟩
    rw [inblock4]
    intro a
    match a with
    | ⟨0, _⟩ =>
      show win4_5.index ⟨(i 0).val / 8000, _⟩ (0 : Fin 2) * 8000 ≤ (i 0).val
        ∧ (i 0).val < win4_5.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win4_5.index ⟨(i 0).val / 8000, _⟩ (1 : Fin 2) * 128 ≤ (i 1).val
        ∧ (i 1).val < win4_5.index ⟨(i 0).val / 8000, _⟩ (1 : Fin 2) * 128 + 128
      rw [e1]; omega

end Cert.KernelIdeal.Net

end
-- ==== Proof.MsgRegion5.lean ====
/-
  Launch 5 of the program is a message layer: the array it leaves is the row-block form of the layer applied to the
  arrays it finds.

  The launch walks 25 blocks of 8000 rows.  At block t it reads rows 8000·t … 8000·t + 7999 of the two feature arrays,
  the two whole 128×128 weight halves and the whole 1×128 bias row, computes the layer on those rows and writes rows
  8000·t … 8000·t + 7999 of the result.  Entry (r, q) of block t is therefore entry (8000·t + r, q) of the layer over
  the whole arrays; the 25 blocks tile the 200000 rows (row i lies in block i / 8000), so the result array is the layer.
-/
import proofs.«154953_j22007412425053_2_alg».proof.Proof.Gen.KernelIdeal.Frame
import proofs.«154953_j22007412425053_2_alg».proof.Proof.MsgSpec
import proofs.«154953_j22007412425053_2_alg».proof.Proof.MsgBlock

set_option maxRecDepth 16384

noncomputable section

namespace Cert.KernelIdeal.Net

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Which block each window is on at point t: the two feature windows and the result window are on block t of the
    rows, the weight halves and the bias row on their one block. -/
theorem blocks5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- There are 25 points. -/
theorem points5 (t : Fin cfg5.N) : t.val < 25 := lt_of_lt_of_eq t.isLt N_5

/-- Row r of the first feature block at point t is row 8000·t + r of the first feature array. -/
theorem rows5_0 (c : Dev nD) (t : Fin cfg5.N) (r : Fin 8000) (k : Fin 128) (p : Fin 200000) (hp : p.val = t.val * 8000 + r.val) :
    (iblk5 V c 0 t : Vec Ideal S8000x128 .bf16) (ix2 r k)
      = (V c (Pipeline.arrRef spec5 0) : S200000x128.Idx → Elt Ideal .bf16) (ix2 p k) := by
  obtain ⟨e0, e1, -⟩ := blocks5 t
  unfold iblk5
  rw [View.read_apply]
  show (V c (Pipeline.arrRef spec5 0) : S200000x128.Idx → Elt Ideal .bf16) _ = _
  refine congrArg (V c (Pipeline.arrRef spec5 0) : S200000x128.Idx → Elt Ideal .bf16) ?_
  funext a; apply Fin.ext
  match a with
  | ⟨0, _⟩ => show win5_0.index t (0 : Fin 2) * 8000 + 1 * r.val = p.val; omega
  | ⟨1, _⟩ => show win5_0.index t (1 : Fin 2) * 128 + 1 * k.val = k.val; omega

/-- Row r of the second feature block at point t is row 8000·t + r of the second feature array. -/
theorem rows5_1 (c : Dev nD) (t : Fin cfg5.N) (r : Fin 8000) (k : Fin 128) (p : Fin 200000) (hp : p.val = t.val * 8000 + r.val) :
    (iblk5 V c 1 t : Vec Ideal S8000x128 .bf16) (ix2 r k)
      = (V c (Pipeline.arrRef spec5 1) : S200000x128.Idx → Elt Ideal .bf16) (ix2 p k) := by
  obtain ⟨-, -, e0, e1, -⟩ := blocks5 t
  unfold iblk5
  rw [View.read_apply]
  show (V c (Pipeline.arrRef spec5 1) : S200000x128.Idx → Elt Ideal .bf16) _ = _
  refine congrArg (V c (Pipeline.arrRef spec5 1) : S200000x128.Idx → Elt Ideal .bf16) ?_
  funext a; apply Fin.ext
  match a with
  | ⟨0, _⟩ => show win5_1.index t (0 : Fin 2) * 8000 + 1 * r.val = p.val; omega
  | ⟨1, _⟩ => show win5_1.index t (1 : Fin 2) * 128 + 1 * k.val = k.val; omega

/-- The block of the upper weight half is the whole array, at every point. -/
theorem whole5_2 (c : Dev nD) (t : Fin cfg5.N) :
    (iblk5 V c 2 t : Vec Ideal S128x128 .f32) = (V c (Pipeline.arrRef spec5 2) : S128x128.Idx → Elt Ideal .f32) := by
  obtain ⟨-, -, -, -, e0, e1, -⟩ := blocks5 t
  unfold iblk5
  refine funext fun (y : S128x128.Idx) => ?_
  rw [View.read_apply]
  show (V c (Pipeline.arrRef spec5 2) : S128x128.Idx → Elt Ideal .f32) _ = _
  refine congrArg (V c (Pipeline.arrRef spec5 2) : S128x128.Idx → Elt Ideal .f32) ?_
  funext a; apply Fin.ext
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The block of the lower weight half is the whole array, at every point. -/
theorem whole5_3 (c : Dev nD) (t : Fin cfg5.N) :
    (iblk5 V c 3 t : Vec Ideal S128x128 .f32) = (V c (Pipeline.arrRef spec5 3) : S128x128.Idx → Elt Ideal .f32) := by
  obtain ⟨-, -, -, -, -, -, e0, e1, -⟩ := blocks5 t
  unfold iblk5
  refine funext fun (y : S128x128.Idx) => ?_
  rw [View.read_apply]
  show (V c (Pipeline.arrRef spec5 3) : S128x128.Idx → Elt Ideal .f32) _ = _
  refine congrArg (V c (Pipeline.arrRef spec5 3) : S128x128.Idx → Elt Ideal .f32) ?_
  funext a; apply Fin.ext
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- The block of the bias row is the whole row, at every point. -/
theorem whole5_4 (c : Dev nD) (t : Fin cfg5.N) :
    (iblk5 V c 4 t : Vec Ideal S1x128 .f32) = (V c (Pipeline.arrRef spec5 4) : S1x128.Idx → Elt Ideal .f32) := by
  obtain ⟨-, -, -, -, -, -, -, -, e0, e1, -⟩ := blocks5 t
  unfold iblk5
  refine funext fun (y : S1x128.Idx) => ?_
  rw [View.read_apply]
  show (V c (Pipeline.arrRef spec5 4) : S1x128.Idx → Elt Ideal .f32) _ = _
  refine congrArg (V c (Pipeline.arrRef spec5 4) : S1x128.Idx → Elt Ideal .f32) ?_
  funext a; apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What point t writes back is block t of the layer over the arrays the launch finds. -/
theorem written5 (c : Dev nD) (t : Fin cfg5.N) :
    (dat5 V c).flushed 5 t = ((cfg5.win 5).blk t).view.read (Elt Ideal)
      (Cert.Net.msgK (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero offsets_zero]
  simp only [View.ld_unit_zero (S := S8000x128) offsets_zero, View.ld_unit_zero (S := S128x128) offsets_zero,
    View.ld_unit_zero (S := S1x128) offsets_zero]
  obtain ⟨-, -, -, -, -, -, -, -, -, -, e0, e1⟩ := blocks5 t
  have ht := points5 t
  refine funext fun (j : S8000x128.Idx) => ?_
  obtain ⟨r, q, rfl⟩ : ∃ (r : Fin 8000) (q : Fin 128), j = ix2 r q := ⟨j 0, j 1, eq_ix2 j⟩
  have hemb : ((cfg5.win 5).blk t).view.emb (ix2 r q)
      = ix2 (⟨t.val * 8000 + r.val, by have := r.isLt; omega⟩ : Fin 200000) q := by
    funext a; apply Fin.ext
    match a with
    | ⟨0, _⟩ => show win5_5.index t (0 : Fin 2) * 8000 + 1 * r.val = t.val * 8000 + r.val; omega
    | ⟨1, _⟩ => show win5_5.index t (1 : Fin 2) * 128 + 1 * q.val = q.val; omega
  show k5_pay1 (F := Ideal) (iblk5 V c 0 t) (iblk5 V c 1 t) (iblk5 V c 2 t) (iblk5 V c 3 t) (iblk5 V c 4 t) (ix2 r q)
      = Cert.Net.msgK (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 r q))
  rw [hemb]
  exact block_entry5 (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2))
    (V c (Pipeline.arrRef spec5 3)) (V c (Pipeline.arrRef spec5 4)) r q ⟨t.val * 8000 + r.val, by have := r.isLt; omega⟩
    (fun k => rows5_0 V c t r k _ rfl) (fun k => rows5_1 V c t r k _ rfl)
    (whole5_2 V c t) (whole5_3 V c t) (whole5_4 V c t)

/-- An index of the result array is in point t's block iff each coordinate is in the block's range on its axis. -/
theorem inblock5 (t : Fin cfg5.N) (i : S200000x128.Idx) :
    i ∈ ((cfg5.win 5).blk t).view.set ↔ ∀ a : Fin 2, win5_5.index t a * S8000x128.size a ≤ (i a).val
      ∧ (i a).val < win5_5.index t a * S8000x128.size a + S8000x128.size a := by
  show i ∈ ((View.whole (Pipeline.arrRef spec5 5)).slice (win5_5.rect t)).set ↔ _
  rw [View.set_slice_whole, Rect.mem_set_unit]
  exact Iff.rfl

/-- The array launch 5 leaves is the row-block form of the layer over the arrays it finds. -/
theorem msg_region5 (c : Dev nD) :
    (dat5 V c).arrAt 5 cfg5.N
      = Cert.Net.msgK (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => written5 V c t) fun i => by
    have hi0 : (i 0).val < 200000 := (i 0).isLt
    have hi1 : (i 1).val < 128 := (i 1).isLt
    have hN : cfg5.N = 25 := N_5
    refine ⟨⟨(i 0).val / 8000, by rw [hN]; omega⟩, flush5_5 _, ?_⟩
    obtain ⟨-, -, -, -, -, -, -, -, -, -, e0, e1⟩ := blocks5 ⟨(i 0).val / 8000, by rw [hN]; omega⟩
    rw [inblock5]
    intro a
    match a with
    | ⟨0, _⟩ =>
      show win5_5.index ⟨(i 0).val / 8000, _⟩ (0 : Fin 2) * 8000 ≤ (i 0).val
        ∧ (i 0).val < win5_5.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win5_5.index ⟨(i 0).val / 8000, _⟩ (1 : Fin 2) * 128 ≤ (i 1).val
        ∧ (i 1).val < win5_5.index ⟨(i 0).val / 8000, _⟩ (1 : Fin 2) * 128 + 128
      rw [e1]; omega

end Cert.KernelIdeal.Net

end
-- ==== Proof.GruRegion6.lean ====
/-
  Region 6: the recurrent update on 20000 rows, computed block of 2000 rows by block, leaves in its output array
  the whole-array update of the arrays the region finds.

  Point t reads rows 2000·t … 2000·t + 1999 of the segment sums, of the old state and of the reciprocal counts, and
  the resident matrices and bias rows whole; it writes the same rows of the output.  The update is row-local, so
  what point t writes is the whole-array update restricted to its rows, and the 10 blocks cover the array.
-/
import proofs.«154953_j22007412425053_2_alg».proof.Proof.Gen.KernelIdeal.Frame
import proofs.«154953_j22007412425053_2_alg».proof.Proof.GruStep
import Idealize.ShloMosaic.Lib.Pipeline.Value

set_option maxRecDepth 16384

noncomputable section

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem gruHz6 : (![0, 0] : Fin 2 → Nat) = fun _ => 0 := funext fun a => by fin_cases a <;> rfl

/-- The block index of every window at every point: the row windows move with the point, the resident ones stay. -/
theorem gruIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_7.index t (0 : Fin 2) = t.val ∧ win6_7.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Window 0's block at point t is rows 2000·t … 2000·t + 1999 of its array. -/
theorem gruRead6_0 (c : Dev nD) (t : Fin cfg6.N) (y : S2000x128.Idx) (u : S20000x128.Idx)
    (h0 : (u 0).val = t.val * 2000 + (y 0).val) (h1 : (u 1).val = (y 1).val) :
    (iblk6 V c 0 t : Vec Ideal S2000x128 .f32) y = (V c (Pipeline.arrRef spec6 0) : S20000x128.Idx → Elt Ideal .f32) u := by
  obtain ⟨a0, a1, b0, b1, c0, c1, o0, o1, d0, d1, e0, e1, f0, f1, g0, g1⟩ := gruIdx6 t
  unfold iblk6
  rw [View.read_apply]
  show V c (Pipeline.arrRef spec6 0) _ = V c (Pipeline.arrRef spec6 0) _
  congr 1
  funext a
  apply Fin.ext
  match a with
  | ⟨0, _⟩ => show win6_0.index t 0 * 2000 + 1 * (y 0).val = (u 0).val; rw [a0, h0]; omega
  | ⟨1, _⟩ => show win6_0.index t 1 * 128 + 1 * (y 1).val = (u 1).val; rw [a1, h1]; omega

/-- Window 1's block at point t is rows 2000·t … 2000·t + 1999 of its array. -/
theorem gruRead6_1 (c : Dev nD) (t : Fin cfg6.N) (y : S2000x128.Idx) (u : S20000x128.Idx)
    (h0 : (u 0).val = t.val * 2000 + (y 0).val) (h1 : (u 1).val = (y 1).val) :
    (iblk6 V c 1 t : Vec Ideal S2000x128 .f32) y = (V c (Pipeline.arrRef spec6 1) : S20000x128.Idx → Elt Ideal .f32) u := by
  obtain ⟨a0, a1, b0, b1, c0, c1, o0, o1, d0, d1, e0, e1, f0, f1, g0, g1⟩ := gruIdx6 t
  unfold iblk6
  rw [View.read_apply]
  show V c (Pipeline.arrRef spec6 1) _ = V c (Pipeline.arrRef spec6 1) _
  congr 1
  funext a
  apply Fin.ext
  match a with
  | ⟨0, _⟩ => show win6_1.index t 0 * 2000 + 1 * (y 0).val = (u 0).val; rw [b0, h0]; omega
  | ⟨1, _⟩ => show win6_1.index t 1 * 128 + 1 * (y 1).val = (u 1).val; rw [b1, h1]; omega

/-- Window 2's block at point t is rows 2000·t … 2000·t + 1999 of its array. -/
theorem gruRead6_2 (c : Dev nD) (t : Fin cfg6.N) (y : S2000x1.Idx) (u : S20000x1.Idx)
    (h0 : (u 0).val = t.val * 2000 + (y 0).val) (h1 : (u 1).val = (y 1).val) :
    (iblk6 V c 2 t : Vec Ideal S2000x1 .f32) y = (V c (Pipeline.arrRef spec6 2) : S20000x1.Idx → Elt Ideal .f32) u := by
  obtain ⟨a0, a1, b0, b1, c0, c1, o0, o1, d0, d1, e0, e1, f0, f1, g0, g1⟩ := gruIdx6 t
  unfold iblk6
  rw [View.read_apply]
  show V c (Pipeline.arrRef spec6 2) _ = V c (Pipeline.arrRef spec6 2) _
  congr 1
  funext a
  apply Fin.ext
  match a with
  | ⟨0, _⟩ => show win6_2.index t 0 * 2000 + 1 * (y 0).val = (u 0).val; rw [c0, h0]; omega
  | ⟨1, _⟩ => show win6_2.index t 1 * 1 + 1 * (y 1).val = (u 1).val; rw [c1, h1]; omega

/-- Window 3's block is its whole array at every point. -/
theorem gruWhole6_3 (c : Dev nD) (t : Fin cfg6.N) : (iblk6 V c 3 t : Vec Ideal S128x384 .f32) = (V c (Pipeline.arrRef spec6 3) : S128x384.Idx → Elt Ideal .f32) := by
  obtain ⟨a0, a1, b0, b1, c0, c1, o0, o1, d0, d1, e0, e1, f0, f1, g0, g1⟩ := gruIdx6 t
  funext y
  unfold iblk6
  rw [View.read_apply]
  show V c (Pipeline.arrRef spec6 3) _ = V c (Pipeline.arrRef spec6 3) y
  congr 1
  funext a
  apply Fin.ext
  match a with
  | ⟨0, _⟩ => show win6_3.index t 0 * 128 + 1 * (y 0).val = (y 0).val; rw [d0]; omega
  | ⟨1, _⟩ => show win6_3.index t 1 * 384 + 1 * (y 1).val = (y 1).val; rw [d1]; omega

/-- Window 4's block is its whole array at every point. -/
theorem gruWhole6_4 (c : Dev nD) (t : Fin cfg6.N) : (iblk6 V c 4 t : Vec Ideal S128x384 .f32) = (V c (Pipeline.arrRef spec6 4) : S128x384.Idx → Elt Ideal .f32) := by
  obtain ⟨a0, a1, b0, b1, c0, c1, o0, o1, d0, d1, e0, e1, f0, f1, g0, g1⟩ := gruIdx6 t
  funext y
  unfold iblk6
  rw [View.read_apply]
  show V c (Pipeline.arrRef spec6 4) _ = V c (Pipeline.arrRef spec6 4) y
  congr 1
  funext a
  apply Fin.ext
  match a with
  | ⟨0, _⟩ => show win6_4.index t 0 * 128 + 1 * (y 0).val = (y 0).val; rw [e0]; omega
  | ⟨1, _⟩ => show win6_4.index t 1 * 384 + 1 * (y 1).val = (y 1).val; rw [e1]; omega

/-- Window 5's block is its whole array at every point. -/
theorem gruWhole6_5 (c : Dev nD) (t : Fin cfg6.N) : (iblk6 V c 5 t : Vec Ideal S1x384 .f32) = (V c (Pipeline.arrRef spec6 5) : S1x384.Idx → Elt Ideal .f32) := by
  obtain ⟨a0, a1, b0, b1, c0, c1, o0, o1, d0, d1, e0, e1, f0, f1, g0, g1⟩ := gruIdx6 t
  funext y
  unfold iblk6
  rw [View.read_apply]
  show V c (Pipeline.arrRef spec6 5) _ = V c (Pipeline.arrRef spec6 5) y
  congr 1
  funext a
  apply Fin.ext
  match a with
  | ⟨0, _⟩ => show win6_5.index t 0 * 1 + 1 * (y 0).val = (y 0).val; rw [f0]; omega
  | ⟨1, _⟩ => show win6_5.index t 1 * 384 + 1 * (y 1).val = (y 1).val; rw [f1]; omega

/-- Window 6's block is its whole array at every point. -/
theorem gruWhole6_6 (c : Dev nD) (t : Fin cfg6.N) : (iblk6 V c 6 t : Vec Ideal S1x384 .f32) = (V c (Pipeline.arrRef spec6 6) : S1x384.Idx → Elt Ideal .f32) := by
  obtain ⟨a0, a1, b0, b1, c0, c1, o0, o1, d0, d1, e0, e1, f0, f1, g0, g1⟩ := gruIdx6 t
  funext y
  unfold iblk6
  rw [View.read_apply]
  show V c (Pipeline.arrRef spec6 6) _ = V c (Pipeline.arrRef spec6 6) y
  congr 1
  funext a
  apply Fin.ext
  match a with
  | ⟨0, _⟩ => show win6_6.index t 0 * 1 + 1 * (y 0).val = (y 0).val; rw [g0]; omega
  | ⟨1, _⟩ => show win6_6.index t 1 * 384 + 1 * (y 1).val = (y 1).val; rw [g1]; omega

/-- The write-back takes the whole block: the block program's result read at an index of the block. -/
theorem gruCutL6 (c : Dev nD) (t : Fin cfg6.N) (j : ((win6 7).xblock (grid6.coords t)).Idx) :
    (win6 7).cut (grid6.coords t) (k6_pay1 (F := Ideal) (iblk6 V c 0 t : Vec Ideal S2000x128 .f32) (iblk6 V c 2 t : Vec Ideal S2000x1 .f32) (iblk6 V c 1 t : Vec Ideal S2000x128 .f32) (iblk6 V c 3 t : Vec Ideal S128x384 .f32) (iblk6 V c 4 t : Vec Ideal S128x384 .f32) (iblk6 V c 5 t : Vec Ideal S1x384 .f32) (iblk6 V c 6 t : Vec Ideal S1x384 .f32)) j
      = k6_pay1 (F := Ideal) (iblk6 V c 0 t : Vec Ideal S2000x128 .f32) (iblk6 V c 2 t : Vec Ideal S2000x1 .f32) (iblk6 V c 1 t : Vec Ideal S2000x128 .f32) (iblk6 V c 3 t : Vec Ideal S128x384 .f32) (iblk6 V c 4 t : Vec Ideal S128x384 .f32) (iblk6 V c 5 t : Vec Ideal S1x384 .f32) (iblk6 V c 6 t : Vec Ideal S1x384 .f32) j := rfl

/-- Block t of an array read at an index of the block is the array at the index's place in the array. -/
theorem gruReadR6 (t : Fin cfg6.N) (j : ((win6 7).xblock (grid6.coords t)).Idx) (G : FVec Ideal S20000x128 .f32) :
    View.read (Elt Ideal) ((View.whole main_v122).slice ((win6 7).rect t)) G j = G (((cfg6.win 7).blk t).view.emb j) := rfl

/-- What point t writes back is block t of the whole-array update. -/
theorem gruFlushed6 (c : Dev nD) (t : Fin cfg6.N) :
    (dat6 (F := Ideal) V c).flushed 7 t = ((cfg6.win 7).blk t).view.read (Elt Ideal) (gruKIp (V c (Pipeline.arrRef spec6 0) : S20000x128.Idx → Elt Ideal .f32) (V c (Pipeline.arrRef spec6 1) : S20000x128.Idx → Elt Ideal .f32) (V c (Pipeline.arrRef spec6 2) : S20000x1.Idx → Elt Ideal .f32) (V c (Pipeline.arrRef spec6 3) : S128x384.Idx → Elt Ideal .f32) (V c (Pipeline.arrRef spec6 4) : S128x384.Idx → Elt Ideal .f32) (V c (Pipeline.arrRef spec6 5) : S1x384.Idx → Elt Ideal .f32) (V c (Pipeline.arrRef spec6 6) : S1x384.Idx → Elt Ideal .f32)) := by
  show (cfg6.win 7).cut (grid6.coords t) ((dat6 (F := Ideal) V c).after 7 t) = _
  rw [after6_7]
  unfold out6_7
  rw [View.canon_unit_zero gruHz6]
  simp only [View.ld_unit_zero (S := S2000x128) gruHz6, View.ld_unit_zero (S := S2000x1) gruHz6,
    View.ld_unit_zero (S := S128x384) gruHz6, View.ld_unit_zero (S := S1x384) gruHz6]
  obtain ⟨a0, a1, b0, b1, c0, c1, o0, o1, d0, d1, e0, e1, f0, f1, g0, g1⟩ := gruIdx6 t
  funext j
  refine (gruCutL6 V c t j).trans ?_
  refine Eq.trans ?_ (gruReadR6 t j _).symm
  refine (gruPay6_at (iblk6 V c 0 t : Vec Ideal S2000x128 .f32) (iblk6 V c 2 t : Vec Ideal S2000x1 .f32) (iblk6 V c 1 t : Vec Ideal S2000x128 .f32) (iblk6 V c 3 t : Vec Ideal S128x384 .f32) (iblk6 V c 4 t : Vec Ideal S128x384 .f32) (iblk6 V c 5 t : Vec Ideal S1x384 .f32) (iblk6 V c 6 t : Vec Ideal S1x384 .f32) j).trans ?_
  refine gruBlockIp (iblk6 V c 0 t : Vec Ideal S2000x128 .f32) (iblk6 V c 1 t : Vec Ideal S2000x128 .f32) (iblk6 V c 2 t : Vec Ideal S2000x1 .f32) (iblk6 V c 3 t : Vec Ideal S128x384 .f32) (iblk6 V c 4 t : Vec Ideal S128x384 .f32) (iblk6 V c 5 t : Vec Ideal S1x384 .f32) (iblk6 V c 6 t : Vec Ideal S1x384 .f32)
    (V c (Pipeline.arrRef spec6 0) : S20000x128.Idx → Elt Ideal .f32) (V c (Pipeline.arrRef spec6 1) : S20000x128.Idx → Elt Ideal .f32) (V c (Pipeline.arrRef spec6 2) : S20000x1.Idx → Elt Ideal .f32) (V c (Pipeline.arrRef spec6 3) : S128x384.Idx → Elt Ideal .f32) (V c (Pipeline.arrRef spec6 4) : S128x384.Idx → Elt Ideal .f32) (V c (Pipeline.arrRef spec6 5) : S1x384.Idx → Elt Ideal .f32) (V c (Pipeline.arrRef spec6 6) : S1x384.Idx → Elt Ideal .f32)
    (t.val * 2000) j (((cfg6.win 7).blk t).view.emb j) ?_ ?_
    (gruRead6_0 V c t) (gruRead6_1 V c t) (gruRead6_2 V c t)
    (gruWhole6_3 V c t) (gruWhole6_4 V c t) (gruWhole6_5 V c t) (gruWhole6_6 V c t)
  · show win6_7.index t 0 * 2000 + 1 * (j 0).val = t.val * 2000 + (j 0).val
    rw [o0]; omega
  · show win6_7.index t 1 * 128 + 1 * (j 1).val = (j 1).val
    rw [o1]; omega

/-- An index of the output array is in point t's block iff each coordinate is in the block's range. -/
theorem gruMemBlk6 (t : Fin cfg6.N) (i : S20000x128.Idx) :
    i ∈ ((cfg6.win 7).blk t).view.set ↔ ∀ a : Fin 2, win6_7.index t a * S2000x128.size a ≤ (i a).val
      ∧ (i a).val < win6_7.index t a * S2000x128.size a + S2000x128.size a := by
  show i ∈ ((View.whole main_v122).slice (win6_7.rect t)).set ↔ _
  rw [View.set_slice_whole, Rect.mem_set_unit]
  exact Iff.rfl

/-- Row r of the output is written by point r / 2000. -/
theorem gruCover6 (i : S20000x128.Idx) :
    ∃ t : Fin cfg6.N, (cfg6.win 7).flush t = true ∧ i ∈ ((cfg6.win 7).blk t).view.set := by
  have hN : cfg6.N = 10 := N_6
  have hi0 : (i 0).val < 20000 := (i 0).isLt
  have hi1 : (i 1).val < 128 := (i 1).isLt
  refine ⟨⟨(i 0).val / 2000, by rw [hN]; omega⟩, flush6_7 _, ?_⟩
  obtain ⟨a0, a1, b0, b1, c0, c1, o0, o1, d0, d1, e0, e1, f0, f1, g0, g1⟩ := gruIdx6 ⟨(i 0).val / 2000, by rw [hN]; omega⟩
  rw [gruMemBlk6]
  intro a
  match a with
  | ⟨0, _⟩ =>
    show win6_7.index _ 0 * 2000 ≤ (i 0).val ∧ (i 0).val < win6_7.index _ 0 * 2000 + 2000
    rw [o0]
    show (i 0).val / 2000 * 2000 ≤ (i 0).val ∧ (i 0).val < (i 0).val / 2000 * 2000 + 2000
    omega
  | ⟨1, _⟩ =>
    show win6_7.index _ 1 * 128 ≤ (i 1).val ∧ (i 1).val < win6_7.index _ 1 * 128 + 128
    rw [o1]
    omega

/-- The region's output array after the run is the whole-array update of the arrays the region finds. -/
theorem gru_region6 (c : Dev nD) :
    (dat6 (F := Ideal) V c).arrAt 7 cfg6.N = (gruKIp (V c (Pipeline.arrRef spec6 0) : S20000x128.Idx → Elt Ideal .f32) (V c (Pipeline.arrRef spec6 1) : S20000x128.Idx → Elt Ideal .f32) (V c (Pipeline.arrRef spec6 2) : S20000x1.Idx → Elt Ideal .f32) (V c (Pipeline.arrRef spec6 3) : S128x384.Idx → Elt Ideal .f32) (V c (Pipeline.arrRef spec6 4) : S128x384.Idx → Elt Ideal .f32) (V c (Pipeline.arrRef spec6 5) : S1x384.Idx → Elt Ideal .f32) (V c (Pipeline.arrRef spec6 6) : S1x384.Idx → Elt Ideal .f32)) :=
  (dat6 (F := Ideal) V c).arrAt_eq_of_cover 7 (gruKIp (V c (Pipeline.arrRef spec6 0) : S20000x128.Idx → Elt Ideal .f32) (V c (Pipeline.arrRef spec6 1) : S20000x128.Idx → Elt Ideal .f32) (V c (Pipeline.arrRef spec6 2) : S20000x1.Idx → Elt Ideal .f32) (V c (Pipeline.arrRef spec6 3) : S128x384.Idx → Elt Ideal .f32) (V c (Pipeline.arrRef spec6 4) : S128x384.Idx → Elt Ideal .f32) (V c (Pipeline.arrRef spec6 5) : S1x384.Idx → Elt Ideal .f32) (V c (Pipeline.arrRef spec6 6) : S1x384.Idx → Elt Ideal .f32))
    (fun t _ => gruFlushed6 V c t) (gruCover6)

end Cert.KernelIdeal.Net

end
-- ==== Proof.GruRegion7.lean ====
/-
  Region 7: the recurrent update on 100000 rows, computed block of 2000 rows by block, leaves in its output array
  the whole-array update of the arrays the region finds.

  Point t reads rows 2000·t … 2000·t + 1999 of the segment sums, of the old state and of the reciprocal counts, and
  the resident matrices and bias rows whole; it writes the same rows of the output.  The update is row-local, so
  what point t writes is the whole-array update restricted to its rows, and the 50 blocks cover the array.
-/
import proofs.«154953_j22007412425053_2_alg».proof.Proof.Gen.KernelIdeal.Frame
import proofs.«154953_j22007412425053_2_alg».proof.Proof.GruStep
import Idealize.ShloMosaic.Lib.Pipeline.Value

set_option maxRecDepth 16384

noncomputable section

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem gruHz7 : (![0, 0] : Fin 2 → Nat) = fun _ => 0 := funext fun a => by fin_cases a <;> rfl

/-- The block index of every window at every point: the row windows move with the point, the resident ones stay. -/
theorem gruIdx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_7.index t (0 : Fin 2) = t.val ∧ win7_7.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Window 0's block at point t is rows 2000·t … 2000·t + 1999 of its array. -/
theorem gruRead7_0 (c : Dev nD) (t : Fin cfg7.N) (y : S2000x128.Idx) (u : S100000x128.Idx)
    (h0 : (u 0).val = t.val * 2000 + (y 0).val) (h1 : (u 1).val = (y 1).val) :
    (iblk7 V c 0 t : Vec Ideal S2000x128 .f32) y = (V c (Pipeline.arrRef spec7 0) : S100000x128.Idx → Elt Ideal .f32) u := by
  obtain ⟨a0, a1, b0, b1, c0, c1, o0, o1, d0, d1, e0, e1, f0, f1, g0, g1⟩ := gruIdx7 t
  unfold iblk7
  rw [View.read_apply]
  show V c (Pipeline.arrRef spec7 0) _ = V c (Pipeline.arrRef spec7 0) _
  congr 1
  funext a
  apply Fin.ext
  match a with
  | ⟨0, _⟩ => show win7_0.index t 0 * 2000 + 1 * (y 0).val = (u 0).val; rw [a0, h0]; omega
  | ⟨1, _⟩ => show win7_0.index t 1 * 128 + 1 * (y 1).val = (u 1).val; rw [a1, h1]; omega

/-- Window 1's block at point t is rows 2000·t … 2000·t + 1999 of its array. -/
theorem gruRead7_1 (c : Dev nD) (t : Fin cfg7.N) (y : S2000x128.Idx) (u : S100000x128.Idx)
    (h0 : (u 0).val = t.val * 2000 + (y 0).val) (h1 : (u 1).val = (y 1).val) :
    (iblk7 V c 1 t : Vec Ideal S2000x128 .f32) y = (V c (Pipeline.arrRef spec7 1) : S100000x128.Idx → Elt Ideal .f32) u := by
  obtain ⟨a0, a1, b0, b1, c0, c1, o0, o1, d0, d1, e0, e1, f0, f1, g0, g1⟩ := gruIdx7 t
  unfold iblk7
  rw [View.read_apply]
  show V c (Pipeline.arrRef spec7 1) _ = V c (Pipeline.arrRef spec7 1) _
  congr 1
  funext a
  apply Fin.ext
  match a with
  | ⟨0, _⟩ => show win7_1.index t 0 * 2000 + 1 * (y 0).val = (u 0).val; rw [b0, h0]; omega
  | ⟨1, _⟩ => show win7_1.index t 1 * 128 + 1 * (y 1).val = (u 1).val; rw [b1, h1]; omega

/-- Window 2's block at point t is rows 2000·t … 2000·t + 1999 of its array. -/
theorem gruRead7_2 (c : Dev nD) (t : Fin cfg7.N) (y : S2000x1.Idx) (u : S100000x1.Idx)
    (h0 : (u 0).val = t.val * 2000 + (y 0).val) (h1 : (u 1).val = (y 1).val) :
    (iblk7 V c 2 t : Vec Ideal S2000x1 .f32) y = (V c (Pipeline.arrRef spec7 2) : S100000x1.Idx → Elt Ideal .f32) u := by
  obtain ⟨a0, a1, b0, b1, c0, c1, o0, o1, d0, d1, e0, e1, f0, f1, g0, g1⟩ := gruIdx7 t
  unfold iblk7
  rw [View.read_apply]
  show V c (Pipeline.arrRef spec7 2) _ = V c (Pipeline.arrRef spec7 2) _
  congr 1
  funext a
  apply Fin.ext
  match a with
  | ⟨0, _⟩ => show win7_2.index t 0 * 2000 + 1 * (y 0).val = (u 0).val; rw [c0, h0]; omega
  | ⟨1, _⟩ => show win7_2.index t 1 * 1 + 1 * (y 1).val = (u 1).val; rw [c1, h1]; omega

/-- Window 3's block is its whole array at every point. -/
theorem gruWhole7_3 (c : Dev nD) (t : Fin cfg7.N) : (iblk7 V c 3 t : Vec Ideal S128x384 .f32) = (V c (Pipeline.arrRef spec7 3) : S128x384.Idx → Elt Ideal .f32) := by
  obtain ⟨a0, a1, b0, b1, c0, c1, o0, o1, d0, d1, e0, e1, f0, f1, g0, g1⟩ := gruIdx7 t
  funext y
  unfold iblk7
  rw [View.read_apply]
  show V c (Pipeline.arrRef spec7 3) _ = V c (Pipeline.arrRef spec7 3) y
  congr 1
  funext a
  apply Fin.ext
  match a with
  | ⟨0, _⟩ => show win7_3.index t 0 * 128 + 1 * (y 0).val = (y 0).val; rw [d0]; omega
  | ⟨1, _⟩ => show win7_3.index t 1 * 384 + 1 * (y 1).val = (y 1).val; rw [d1]; omega

/-- Window 4's block is its whole array at every point. -/
theorem gruWhole7_4 (c : Dev nD) (t : Fin cfg7.N) : (iblk7 V c 4 t : Vec Ideal S128x384 .f32) = (V c (Pipeline.arrRef spec7 4) : S128x384.Idx → Elt Ideal .f32) := by
  obtain ⟨a0, a1, b0, b1, c0, c1, o0, o1, d0, d1, e0, e1, f0, f1, g0, g1⟩ := gruIdx7 t
  funext y
  unfold iblk7
  rw [View.read_apply]
  show V c (Pipeline.arrRef spec7 4) _ = V c (Pipeline.arrRef spec7 4) y
  congr 1
  funext a
  apply Fin.ext
  match a with
  | ⟨0, _⟩ => show win7_4.index t 0 * 128 + 1 * (y 0).val = (y 0).val; rw [e0]; omega
  | ⟨1, _⟩ => show win7_4.index t 1 * 384 + 1 * (y 1).val = (y 1).val; rw [e1]; omega

/-- Window 5's block is its whole array at every point. -/
theorem gruWhole7_5 (c : Dev nD) (t : Fin cfg7.N) : (iblk7 V c 5 t : Vec Ideal S1x384 .f32) = (V c (Pipeline.arrRef spec7 5) : S1x384.Idx → Elt Ideal .f32) := by
  obtain ⟨a0, a1, b0, b1, c0, c1, o0, o1, d0, d1, e0, e1, f0, f1, g0, g1⟩ := gruIdx7 t
  funext y
  unfold iblk7
  rw [View.read_apply]
  show V c (Pipeline.arrRef spec7 5) _ = V c (Pipeline.arrRef spec7 5) y
  congr 1
  funext a
  apply Fin.ext
  match a with
  | ⟨0, _⟩ => show win7_5.index t 0 * 1 + 1 * (y 0).val = (y 0).val; rw [f0]; omega
  | ⟨1, _⟩ => show win7_5.index t 1 * 384 + 1 * (y 1).val = (y 1).val; rw [f1]; omega

/-- Window 6's block is its whole array at every point. -/
theorem gruWhole7_6 (c : Dev nD) (t : Fin cfg7.N) : (iblk7 V c 6 t : Vec Ideal S1x384 .f32) = (V c (Pipeline.arrRef spec7 6) : S1x384.Idx → Elt Ideal .f32) := by
  obtain ⟨a0, a1, b0, b1, c0, c1, o0, o1, d0, d1, e0, e1, f0, f1, g0, g1⟩ := gruIdx7 t
  funext y
  unfold iblk7
  rw [View.read_apply]
  show V c (Pipeline.arrRef spec7 6) _ = V c (Pipeline.arrRef spec7 6) y
  congr 1
  funext a
  apply Fin.ext
  match a with
  | ⟨0, _⟩ => show win7_6.index t 0 * 1 + 1 * (y 0).val = (y 0).val; rw [g0]; omega
  | ⟨1, _⟩ => show win7_6.index t 1 * 384 + 1 * (y 1).val = (y 1).val; rw [g1]; omega

/-- The write-back takes the whole block: the block program's result read at an index of the block. -/
theorem gruCutL7 (c : Dev nD) (t : Fin cfg7.N) (j : ((win7 7).xblock (grid7.coords t)).Idx) :
    (win7 7).cut (grid7.coords t) (k7_pay1 (F := Ideal) (iblk7 V c 0 t : Vec Ideal S2000x128 .f32) (iblk7 V c 2 t : Vec Ideal S2000x1 .f32) (iblk7 V c 1 t : Vec Ideal S2000x128 .f32) (iblk7 V c 3 t : Vec Ideal S128x384 .f32) (iblk7 V c 4 t : Vec Ideal S128x384 .f32) (iblk7 V c 5 t : Vec Ideal S1x384 .f32) (iblk7 V c 6 t : Vec Ideal S1x384 .f32)) j
      = k7_pay1 (F := Ideal) (iblk7 V c 0 t : Vec Ideal S2000x128 .f32) (iblk7 V c 2 t : Vec Ideal S2000x1 .f32) (iblk7 V c 1 t : Vec Ideal S2000x128 .f32) (iblk7 V c 3 t : Vec Ideal S128x384 .f32) (iblk7 V c 4 t : Vec Ideal S128x384 .f32) (iblk7 V c 5 t : Vec Ideal S1x384 .f32) (iblk7 V c 6 t : Vec Ideal S1x384 .f32) j := rfl

/-- Block t of an array read at an index of the block is the array at the index's place in the array. -/
theorem gruReadR7 (t : Fin cfg7.N) (j : ((win7 7).xblock (grid7.coords t)).Idx) (G : FVec Ideal S100000x128 .f32) :
    View.read (Elt Ideal) ((View.whole main_v129).slice ((win7 7).rect t)) G j = G (((cfg7.win 7).blk t).view.emb j) := rfl

/-- What point t writes back is block t of the whole-array update. -/
theorem gruFlushed7 (c : Dev nD) (t : Fin cfg7.N) :
    (dat7 (F := Ideal) V c).flushed 7 t = ((cfg7.win 7).blk t).view.read (Elt Ideal) (gruKC (V c (Pipeline.arrRef spec7 0) : S100000x128.Idx → Elt Ideal .f32) (V c (Pipeline.arrRef spec7 1) : S100000x128.Idx → Elt Ideal .f32) (V c (Pipeline.arrRef spec7 2) : S100000x1.Idx → Elt Ideal .f32) (V c (Pipeline.arrRef spec7 3) : S128x384.Idx → Elt Ideal .f32) (V c (Pipeline.arrRef spec7 4) : S128x384.Idx → Elt Ideal .f32) (V c (Pipeline.arrRef spec7 5) : S1x384.Idx → Elt Ideal .f32) (V c (Pipeline.arrRef spec7 6) : S1x384.Idx → Elt Ideal .f32)) := by
  show (cfg7.win 7).cut (grid7.coords t) ((dat7 (F := Ideal) V c).after 7 t) = _
  rw [after7_7]
  unfold out7_7
  rw [View.canon_unit_zero gruHz7]
  simp only [View.ld_unit_zero (S := S2000x128) gruHz7, View.ld_unit_zero (S := S2000x1) gruHz7,
    View.ld_unit_zero (S := S128x384) gruHz7, View.ld_unit_zero (S := S1x384) gruHz7]
  obtain ⟨a0, a1, b0, b1, c0, c1, o0, o1, d0, d1, e0, e1, f0, f1, g0, g1⟩ := gruIdx7 t
  funext j
  refine (gruCutL7 V c t j).trans ?_
  refine Eq.trans ?_ (gruReadR7 t j _).symm
  refine (gruPay7_at (iblk7 V c 0 t : Vec Ideal S2000x128 .f32) (iblk7 V c 2 t : Vec Ideal S2000x1 .f32) (iblk7 V c 1 t : Vec Ideal S2000x128 .f32) (iblk7 V c 3 t : Vec Ideal S128x384 .f32) (iblk7 V c 4 t : Vec Ideal S128x384 .f32) (iblk7 V c 5 t : Vec Ideal S1x384 .f32) (iblk7 V c 6 t : Vec Ideal S1x384 .f32) j).trans ?_
  refine gruBlockC (iblk7 V c 0 t : Vec Ideal S2000x128 .f32) (iblk7 V c 1 t : Vec Ideal S2000x128 .f32) (iblk7 V c 2 t : Vec Ideal S2000x1 .f32) (iblk7 V c 3 t : Vec Ideal S128x384 .f32) (iblk7 V c 4 t : Vec Ideal S128x384 .f32) (iblk7 V c 5 t : Vec Ideal S1x384 .f32) (iblk7 V c 6 t : Vec Ideal S1x384 .f32)
    (V c (Pipeline.arrRef spec7 0) : S100000x128.Idx → Elt Ideal .f32) (V c (Pipeline.arrRef spec7 1) : S100000x128.Idx → Elt Ideal .f32) (V c (Pipeline.arrRef spec7 2) : S100000x1.Idx → Elt Ideal .f32) (V c (Pipeline.arrRef spec7 3) : S128x384.Idx → Elt Ideal .f32) (V c (Pipeline.arrRef spec7 4) : S128x384.Idx → Elt Ideal .f32) (V c (Pipeline.arrRef spec7 5) : S1x384.Idx → Elt Ideal .f32) (V c (Pipeline.arrRef spec7 6) : S1x384.Idx → Elt Ideal .f32)
    (t.val * 2000) j (((cfg7.win 7).blk t).view.emb j) ?_ ?_
    (gruRead7_0 V c t) (gruRead7_1 V c t) (gruRead7_2 V c t)
    (gruWhole7_3 V c t) (gruWhole7_4 V c t) (gruWhole7_5 V c t) (gruWhole7_6 V c t)
  · show win7_7.index t 0 * 2000 + 1 * (j 0).val = t.val * 2000 + (j 0).val
    rw [o0]; omega
  · show win7_7.index t 1 * 128 + 1 * (j 1).val = (j 1).val
    rw [o1]; omega

/-- An index of the output array is in point t's block iff each coordinate is in the block's range. -/
theorem gruMemBlk7 (t : Fin cfg7.N) (i : S100000x128.Idx) :
    i ∈ ((cfg7.win 7).blk t).view.set ↔ ∀ a : Fin 2, win7_7.index t a * S2000x128.size a ≤ (i a).val
      ∧ (i a).val < win7_7.index t a * S2000x128.size a + S2000x128.size a := by
  show i ∈ ((View.whole main_v129).slice (win7_7.rect t)).set ↔ _
  rw [View.set_slice_whole, Rect.mem_set_unit]
  exact Iff.rfl

/-- Row r of the output is written by point r / 2000. -/
theorem gruCover7 (i : S100000x128.Idx) :
    ∃ t : Fin cfg7.N, (cfg7.win 7).flush t = true ∧ i ∈ ((cfg7.win 7).blk t).view.set := by
  have hN : cfg7.N = 50 := N_7
  have hi0 : (i 0).val < 100000 := (i 0).isLt
  have hi1 : (i 1).val < 128 := (i 1).isLt
  refine ⟨⟨(i 0).val / 2000, by rw [hN]; omega⟩, flush7_7 _, ?_⟩
  obtain ⟨a0, a1, b0, b1, c0, c1, o0, o1, d0, d1, e0, e1, f0, f1, g0, g1⟩ := gruIdx7 ⟨(i 0).val / 2000, by rw [hN]; omega⟩
  rw [gruMemBlk7]
  intro a
  match a with
  | ⟨0, _⟩ =>
    show win7_7.index _ 0 * 2000 ≤ (i 0).val ∧ (i 0).val < win7_7.index _ 0 * 2000 + 2000
    rw [o0]
    show (i 0).val / 2000 * 2000 ≤ (i 0).val ∧ (i 0).val < (i 0).val / 2000 * 2000 + 2000
    omega
  | ⟨1, _⟩ =>
    show win7_7.index _ 1 * 128 ≤ (i 1).val ∧ (i 1).val < win7_7.index _ 1 * 128 + 128
    rw [o1]
    omega

/-- The region's output array after the run is the whole-array update of the arrays the region finds. -/
theorem gru_region7 (c : Dev nD) :
    (dat7 (F := Ideal) V c).arrAt 7 cfg7.N = (gruKC (V c (Pipeline.arrRef spec7 0) : S100000x128.Idx → Elt Ideal .f32) (V c (Pipeline.arrRef spec7 1) : S100000x128.Idx → Elt Ideal .f32) (V c (Pipeline.arrRef spec7 2) : S100000x1.Idx → Elt Ideal .f32) (V c (Pipeline.arrRef spec7 3) : S128x384.Idx → Elt Ideal .f32) (V c (Pipeline.arrRef spec7 4) : S128x384.Idx → Elt Ideal .f32) (V c (Pipeline.arrRef spec7 5) : S1x384.Idx → Elt Ideal .f32) (V c (Pipeline.arrRef spec7 6) : S1x384.Idx → Elt Ideal .f32)) :=
  (dat7 (F := Ideal) V c).arrAt_eq_of_cover 7 (gruKC (V c (Pipeline.arrRef spec7 0) : S100000x128.Idx → Elt Ideal .f32) (V c (Pipeline.arrRef spec7 1) : S100000x128.Idx → Elt Ideal .f32) (V c (Pipeline.arrRef spec7 2) : S100000x1.Idx → Elt Ideal .f32) (V c (Pipeline.arrRef spec7 3) : S128x384.Idx → Elt Ideal .f32) (V c (Pipeline.arrRef spec7 4) : S128x384.Idx → Elt Ideal .f32) (V c (Pipeline.arrRef spec7 5) : S1x384.Idx → Elt Ideal .f32) (V c (Pipeline.arrRef spec7 6) : S1x384.Idx → Elt Ideal .f32))
    (fun t _ => gruFlushed7 V c t) (gruCover7)

end Cert.KernelIdeal.Net

end
-- ==== Proof.FoldB.lean ====
/-
  The idealized kernel program's buffer contents, boundary by boundary (boundaries 9 to 16: the second step).
  The program is a chain: a stretch of host operations, a kernel launch, a stretch, a launch, ... Each theorem says what one
  buffer holds at one boundary, as the value the reference program computes at the corresponding stage (a function of
  the arguments), or as the host operation's own term of the arguments. Three kinds of step: a buffer the segment does
  not write keeps its contents; a buffer a stretch writes holds its operations' composition of the stretch's inputs,
  which is the reference's stage spelt with the same operations (a change of float format is the identity on extended
  reals); a launch's output array is the kernel's whole-array function of its input arrays, which the bridge lemmas
  identify with the reference's block.
-/
import proofs.«154953_j22007412425053_2_alg».proof.Proof.FoldA
import proofs.«154953_j22007412425053_2_alg».proof.Proof.MsgRegion4
import proofs.«154953_j22007412425053_2_alg».proof.Proof.MsgRegion5
import proofs.«154953_j22007412425053_2_alg».proof.Proof.GruRegion6
import proofs.«154953_j22007412425053_2_alg».proof.Proof.GruRegion7
import Idealize.ShloMosaic.PureOps.Ideal

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

theorem f9_arg1 : W9 (F := Ideal) m ρ c (Proc.devRef .tc main_arg1) = A1 m c :=
  (keepH4 m ρ c main_arg1 (by decide)).trans (f8_arg1 m ρ c)
theorem f9_arg2 : W9 (F := Ideal) m ρ c (Proc.devRef .tc main_arg2) = A2 m c :=
  (keepH4 m ρ c main_arg2 (by decide)).trans (f8_arg2 m ρ c)
theorem f9_arg3 : W9 (F := Ideal) m ρ c (Proc.devRef .tc main_arg3) = A3 m c :=
  (keepH4 m ρ c main_arg3 (by decide)).trans (f8_arg3 m ρ c)
theorem f9_arg4 : W9 (F := Ideal) m ρ c (Proc.devRef .tc main_arg4) = A4 m c :=
  (keepH4 m ρ c main_arg4 (by decide)).trans (f8_arg4 m ρ c)
theorem f9_arg6 : W9 (F := Ideal) m ρ c (Proc.devRef .tc main_arg6) = A6 m c :=
  (keepH4 m ρ c main_arg6 (by decide)).trans (f8_arg6 m ρ c)
theorem f9_arg8 : W9 (F := Ideal) m ρ c (Proc.devRef .tc main_arg8) = A8 m c :=
  (keepH4 m ρ c main_arg8 (by decide)).trans (f8_arg8 m ρ c)
theorem f9_arg9 : W9 (F := Ideal) m ρ c (Proc.devRef .tc main_arg9) = A9 m c :=
  (keepH4 m ρ c main_arg9 (by decide)).trans (f8_arg9 m ρ c)
theorem f9_arg10 : W9 (F := Ideal) m ρ c (Proc.devRef .tc main_arg10) = A10 m c :=
  (keepH4 m ρ c main_arg10 (by decide)).trans (f8_arg10 m ρ c)
theorem f9_arg11 : W9 (F := Ideal) m ρ c (Proc.devRef .tc main_arg11) = A11 m c :=
  (keepH4 m ρ c main_arg11 (by decide)).trans (f8_arg11 m ρ c)
theorem f9_arg12 : W9 (F := Ideal) m ρ c (Proc.devRef .tc main_arg12) = A12 m c :=
  (keepH4 m ρ c main_arg12 (by decide)).trans (f8_arg12 m ρ c)
theorem f9_arg13 : W9 (F := Ideal) m ρ c (Proc.devRef .tc main_arg13) = A13 m c :=
  (keepH4 m ρ c main_arg13 (by decide)).trans (f8_arg13 m ρ c)
theorem f9_arg14 : W9 (F := Ideal) m ρ c (Proc.devRef .tc main_arg14) = A14 m c :=
  (keepH4 m ρ c main_arg14 (by decide)).trans (f8_arg14 m ρ c)
theorem f9_arg15 : W9 (F := Ideal) m ρ c (Proc.devRef .tc main_arg15) = A15 m c :=
  (keepH4 m ρ c main_arg15 (by decide)).trans (f8_arg15 m ρ c)
theorem f9_arg16 : W9 (F := Ideal) m ρ c (Proc.devRef .tc main_arg16) = A16 m c :=
  (keepH4 m ρ c main_arg16 (by decide)).trans (f8_arg16 m ρ c)
theorem f9_arg17 : W9 (F := Ideal) m ρ c (Proc.devRef .tc main_arg17) = A17 m c :=
  (keepH4 m ρ c main_arg17 (by decide)).trans (f8_arg17 m ρ c)
theorem f9_arg18 : W9 (F := Ideal) m ρ c (Proc.devRef .tc main_arg18) = A18 m c :=
  (keepH4 m ρ c main_arg18 (by decide)).trans (f8_arg18 m ρ c)
theorem f9_arg19 : W9 (F := Ideal) m ρ c (Proc.devRef .tc main_arg19) = A19 m c :=
  (keepH4 m ρ c main_arg19 (by decide)).trans (f8_arg19 m ρ c)
theorem f9_arg20 : W9 (F := Ideal) m ρ c (Proc.devRef .tc main_arg20) = A20 m c :=
  (keepH4 m ρ c main_arg20 (by decide)).trans (f8_arg20 m ρ c)
theorem f9_v3 : W9 (F := Ideal) m ρ c (Proc.devRef .tc main_v3) = (((extractStridedSlice S128x128 ![0, 0] · slices_S256x128_S128x128_0_0)) (A5 m c)) :=
  (keepH4 m ρ c main_v3 (by decide)).trans (f8_v3 m ρ c)
theorem f9_v4 : W9 (F := Ideal) m ρ c (Proc.devRef .tc main_v4) = (((extractStridedSlice S128x128 ![128, 0] · slices_S256x128_S128x128_128_0)) (A5 m c)) :=
  (keepH4 m ρ c main_v4 (by decide)).trans (f8_v4 m ρ c)
theorem f9_v5 : W9 (F := Ideal) m ρ c (Proc.devRef .tc main_v5) = (((extractStridedSlice S128x128 ![0, 0] · slices_S256x128_S128x128_0_0)) (A7 m c)) :=
  (keepH4 m ρ c main_v5 (by decide)).trans (f8_v5 m ρ c)
theorem f9_v6 : W9 (F := Ideal) m ρ c (Proc.devRef .tc main_v6) = (((extractStridedSlice S128x128 ![128, 0] · slices_S256x128_S128x128_128_0)) (A7 m c)) :=
  (keepH4 m ρ c main_v6 (by decide)).trans (f8_v6 m ρ c)
theorem f9_v14 : W9 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH4 m ρ c main_v14 (by decide)).trans (f8_v14 m ρ c)
theorem f9_v21 : W9 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH4 m ρ c main_v21 (by decide)).trans (f8_v21 m ρ c)
theorem f9_v68 : W9 (F := Ideal) m ρ c (Proc.devRef .tc main_v68) = Cert.ReferenceIdeal.Read.val_main_v104 (F := Ideal) (A0 m c) (A3 m c) (A4 m c) (A7 m c) (A8 m c) (A9 m c) (A10 m c) (A11 m c) :=
  (keepH4 m ρ c main_v68 (by decide)).trans (f8_v68 m ρ c)
theorem f9_v75 : W9 (F := Ideal) m ρ c (Proc.devRef .tc main_v75) = Cert.ReferenceIdeal.Read.val_main_v144 (F := Ideal) (A0 m c) (A1 m c) (A2 m c) (A5 m c) (A6 m c) (A12 m c) (A13 m c) (A14 m c) :=
  (keepH4 m ρ c main_v75 (by decide)).trans (f8_v75 m ρ c)
set_option maxHeartbeats 2000000 in
theorem f9_v76 : W9 (F := Ideal) m ρ c (Proc.devRef .tc main_v76) = Cert.ReferenceIdeal.Read.val_main_v104 (F := Ideal) (A0 m c) (A3 m c) (A4 m c) (A7 m c) (A8 m c) (A9 m c) (A10 m c) (A11 m c) := by
  show StableHlo.after hostOps4 (W8 m ρ c) (Proc.devRef .tc main_v76) = _
  after_results_simp
  all_goals (try simp only [f8_v68 m ρ c])
  all_goals rfl
set_option maxHeartbeats 2000000 in
theorem f9_v77 : W9 (F := Ideal) m ρ c (Proc.devRef .tc main_v77) = Cert.ReferenceIdeal.Read.val_main_v144 (F := Ideal) (A0 m c) (A1 m c) (A2 m c) (A5 m c) (A6 m c) (A12 m c) (A13 m c) (A14 m c) := by
  show StableHlo.after hostOps4 (W8 m ρ c) (Proc.devRef .tc main_v77) = _
  after_results_simp
  all_goals (try simp only [f8_v75 m ρ c])
  all_goals rfl
set_option maxHeartbeats 2000000 in
theorem f9_v84 : W9 (F := Ideal) m ρ c (Proc.devRef .tc main_v84) = Cert.ReferenceIdeal.Read.val_main_v151 (F := Ideal) (A0 m c) (A1 m c) (A3 m c) (A4 m c) (A7 m c) (A8 m c) (A9 m c) (A10 m c) (A11 m c) := by
  show StableHlo.after hostOps4 (W8 m ρ c) (Proc.devRef .tc main_v84) = _
  after_results_simp
  all_goals (try simp only [f8_v68 m ρ c, f8_arg1 m ρ c])
  all_goals rfl
set_option maxHeartbeats 2000000 in
theorem f9_v91 : W9 (F := Ideal) m ρ c (Proc.devRef .tc main_v91) = Cert.ReferenceIdeal.Read.val_main_v158 (F := Ideal) (A0 m c) (A1 m c) (A2 m c) (A5 m c) (A6 m c) (A12 m c) (A13 m c) (A14 m c) := by
  show StableHlo.after hostOps4 (W8 m ρ c) (Proc.devRef .tc main_v91) = _
  after_results_simp
  all_goals (try simp only [f8_v75 m ρ c, f8_arg2 m ρ c])
  all_goals rfl
set_option maxHeartbeats 2000000 in
theorem f9_v92 : W9 (F := Ideal) m ρ c (Proc.devRef .tc main_v92) = (shapeCast S1x128 (A6 m c) shapeCasts_S128_S1x128) := by
  show StableHlo.after hostOps4 (W8 m ρ c) (Proc.devRef .tc main_v92) = _
  after_results_simp
  all_goals (try simp only [f8_arg6 m ρ c])
  all_goals rfl
theorem f10_arg1 : W10 (F := Ideal) m ρ c (Proc.devRef .tc main_arg1) = A1 m c :=
  (W10_of_ne m ρ c main_arg1 (by decide)).trans (f9_arg1 m ρ c)
theorem f10_arg2 : W10 (F := Ideal) m ρ c (Proc.devRef .tc main_arg2) = A2 m c :=
  (W10_of_ne m ρ c main_arg2 (by decide)).trans (f9_arg2 m ρ c)
theorem f10_arg3 : W10 (F := Ideal) m ρ c (Proc.devRef .tc main_arg3) = A3 m c :=
  (W10_of_ne m ρ c main_arg3 (by decide)).trans (f9_arg3 m ρ c)
theorem f10_arg4 : W10 (F := Ideal) m ρ c (Proc.devRef .tc main_arg4) = A4 m c :=
  (W10_of_ne m ρ c main_arg4 (by decide)).trans (f9_arg4 m ρ c)
theorem f10_arg6 : W10 (F := Ideal) m ρ c (Proc.devRef .tc main_arg6) = A6 m c :=
  (W10_of_ne m ρ c main_arg6 (by decide)).trans (f9_arg6 m ρ c)
theorem f10_arg8 : W10 (F := Ideal) m ρ c (Proc.devRef .tc main_arg8) = A8 m c :=
  (W10_of_ne m ρ c main_arg8 (by decide)).trans (f9_arg8 m ρ c)
theorem f10_arg9 : W10 (F := Ideal) m ρ c (Proc.devRef .tc main_arg9) = A9 m c :=
  (W10_of_ne m ρ c main_arg9 (by decide)).trans (f9_arg9 m ρ c)
theorem f10_arg10 : W10 (F := Ideal) m ρ c (Proc.devRef .tc main_arg10) = A10 m c :=
  (W10_of_ne m ρ c main_arg10 (by decide)).trans (f9_arg10 m ρ c)
theorem f10_arg11 : W10 (F := Ideal) m ρ c (Proc.devRef .tc main_arg11) = A11 m c :=
  (W10_of_ne m ρ c main_arg11 (by decide)).trans (f9_arg11 m ρ c)
theorem f10_arg12 : W10 (F := Ideal) m ρ c (Proc.devRef .tc main_arg12) = A12 m c :=
  (W10_of_ne m ρ c main_arg12 (by decide)).trans (f9_arg12 m ρ c)
theorem f10_arg13 : W10 (F := Ideal) m ρ c (Proc.devRef .tc main_arg13) = A13 m c :=
  (W10_of_ne m ρ c main_arg13 (by decide)).trans (f9_arg13 m ρ c)
theorem f10_arg14 : W10 (F := Ideal) m ρ c (Proc.devRef .tc main_arg14) = A14 m c :=
  (W10_of_ne m ρ c main_arg14 (by decide)).trans (f9_arg14 m ρ c)
theorem f10_arg15 : W10 (F := Ideal) m ρ c (Proc.devRef .tc main_arg15) = A15 m c :=
  (W10_of_ne m ρ c main_arg15 (by decide)).trans (f9_arg15 m ρ c)
theorem f10_arg16 : W10 (F := Ideal) m ρ c (Proc.devRef .tc main_arg16) = A16 m c :=
  (W10_of_ne m ρ c main_arg16 (by decide)).trans (f9_arg16 m ρ c)
theorem f10_arg17 : W10 (F := Ideal) m ρ c (Proc.devRef .tc main_arg17) = A17 m c :=
  (W10_of_ne m ρ c main_arg17 (by decide)).trans (f9_arg17 m ρ c)
theorem f10_arg18 : W10 (F := Ideal) m ρ c (Proc.devRef .tc main_arg18) = A18 m c :=
  (W10_of_ne m ρ c main_arg18 (by decide)).trans (f9_arg18 m ρ c)
theorem f10_arg19 : W10 (F := Ideal) m ρ c (Proc.devRef .tc main_arg19) = A19 m c :=
  (W10_of_ne m ρ c main_arg19 (by decide)).trans (f9_arg19 m ρ c)
theorem f10_arg20 : W10 (F := Ideal) m ρ c (Proc.devRef .tc main_arg20) = A20 m c :=
  (W10_of_ne m ρ c main_arg20 (by decide)).trans (f9_arg20 m ρ c)
theorem f10_v3 : W10 (F := Ideal) m ρ c (Proc.devRef .tc main_v3) = (((extractStridedSlice S128x128 ![0, 0] · slices_S256x128_S128x128_0_0)) (A5 m c)) :=
  ((W10_arr m ρ c 2).trans (((dat4 (V9 m ρ) c).arrAt_in 2 rfl _).trans (A_eq4 (V9 m ρ) c 2))).trans (f9_v3 m ρ c)
theorem f10_v4 : W10 (F := Ideal) m ρ c (Proc.devRef .tc main_v4) = (((extractStridedSlice S128x128 ![128, 0] · slices_S256x128_S128x128_128_0)) (A5 m c)) :=
  ((W10_arr m ρ c 3).trans (((dat4 (V9 m ρ) c).arrAt_in 3 rfl _).trans (A_eq4 (V9 m ρ) c 3))).trans (f9_v4 m ρ c)
theorem f10_v5 : W10 (F := Ideal) m ρ c (Proc.devRef .tc main_v5) = (((extractStridedSlice S128x128 ![0, 0] · slices_S256x128_S128x128_0_0)) (A7 m c)) :=
  (W10_of_ne m ρ c main_v5 (by decide)).trans (f9_v5 m ρ c)
theorem f10_v6 : W10 (F := Ideal) m ρ c (Proc.devRef .tc main_v6) = (((extractStridedSlice S128x128 ![128, 0] · slices_S256x128_S128x128_128_0)) (A7 m c)) :=
  (W10_of_ne m ρ c main_v6 (by decide)).trans (f9_v6 m ρ c)
theorem f10_v14 : W10 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (W10_of_ne m ρ c main_v14 (by decide)).trans (f9_v14 m ρ c)
theorem f10_v21 : W10 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W10_of_ne m ρ c main_v21 (by decide)).trans (f9_v21 m ρ c)
theorem f10_v68 : W10 (F := Ideal) m ρ c (Proc.devRef .tc main_v68) = Cert.ReferenceIdeal.Read.val_main_v104 (F := Ideal) (A0 m c) (A3 m c) (A4 m c) (A7 m c) (A8 m c) (A9 m c) (A10 m c) (A11 m c) :=
  (W10_of_ne m ρ c main_v68 (by decide)).trans (f9_v68 m ρ c)
theorem f10_v75 : W10 (F := Ideal) m ρ c (Proc.devRef .tc main_v75) = Cert.ReferenceIdeal.Read.val_main_v144 (F := Ideal) (A0 m c) (A1 m c) (A2 m c) (A5 m c) (A6 m c) (A12 m c) (A13 m c) (A14 m c) :=
  (W10_of_ne m ρ c main_v75 (by decide)).trans (f9_v75 m ρ c)
theorem f10_v76 : W10 (F := Ideal) m ρ c (Proc.devRef .tc main_v76) = Cert.ReferenceIdeal.Read.val_main_v104 (F := Ideal) (A0 m c) (A3 m c) (A4 m c) (A7 m c) (A8 m c) (A9 m c) (A10 m c) (A11 m c) :=
  (W10_of_ne m ρ c main_v76 (by decide)).trans (f9_v76 m ρ c)
theorem f10_v77 : W10 (F := Ideal) m ρ c (Proc.devRef .tc main_v77) = Cert.ReferenceIdeal.Read.val_main_v144 (F := Ideal) (A0 m c) (A1 m c) (A2 m c) (A5 m c) (A6 m c) (A12 m c) (A13 m c) (A14 m c) :=
  (W10_of_ne m ρ c main_v77 (by decide)).trans (f9_v77 m ρ c)
set_option maxHeartbeats 4000000 in
theorem f10_v93 : W10 (F := Ideal) m ρ c (Proc.devRef .tc main_v93) = Cert.ReferenceIdeal.Read.val_main_v164 (F := Ideal) (A0 m c) (A1 m c) (A2 m c) (A3 m c) (A4 m c) (A5 m c) (A6 m c) (A7 m c) (A8 m c) (A9 m c) (A10 m c) (A11 m c) (A12 m c) (A13 m c) (A14 m c) := by
  refine (W10_arr m ρ c 5).trans ?_
  refine (Cert.KernelIdeal.Net.msg_region4 (V9 m ρ) c).trans ?_
  rw [show V9 (F := Ideal) m ρ c (Pipeline.arrRef spec4 0) = _ from f9_v84 m ρ c,
      show V9 (F := Ideal) m ρ c (Pipeline.arrRef spec4 1) = _ from f9_v91 m ρ c,
      show V9 (F := Ideal) m ρ c (Pipeline.arrRef spec4 2) = _ from f9_v3 m ρ c,
      show V9 (F := Ideal) m ρ c (Pipeline.arrRef spec4 3) = _ from f9_v4 m ρ c,
      show V9 (F := Ideal) m ρ c (Pipeline.arrRef spec4 4) = _ from f9_v92 m ρ c]
  exact (Cert.Net.msg_bridge _ _ _ _).trans (Cert.Net.msg_ref_v164 (A0 m c) (A1 m c) (A2 m c) (A3 m c) (A4 m c) (A5 m c) (A6 m c) (A7 m c) (A8 m c) (A9 m c) (A10 m c) (A11 m c) (A12 m c) (A13 m c) (A14 m c)).symm
theorem f11_arg1 : W11 (F := Ideal) m ρ c (Proc.devRef .tc main_arg1) = A1 m c :=
  (keepH5 m ρ c main_arg1 (by decide)).trans (f10_arg1 m ρ c)
theorem f11_arg2 : W11 (F := Ideal) m ρ c (Proc.devRef .tc main_arg2) = A2 m c :=
  (keepH5 m ρ c main_arg2 (by decide)).trans (f10_arg2 m ρ c)
theorem f11_arg4 : W11 (F := Ideal) m ρ c (Proc.devRef .tc main_arg4) = A4 m c :=
  (keepH5 m ρ c main_arg4 (by decide)).trans (f10_arg4 m ρ c)
theorem f11_arg6 : W11 (F := Ideal) m ρ c (Proc.devRef .tc main_arg6) = A6 m c :=
  (keepH5 m ρ c main_arg6 (by decide)).trans (f10_arg6 m ρ c)
theorem f11_arg9 : W11 (F := Ideal) m ρ c (Proc.devRef .tc main_arg9) = A9 m c :=
  (keepH5 m ρ c main_arg9 (by decide)).trans (f10_arg9 m ρ c)
theorem f11_arg10 : W11 (F := Ideal) m ρ c (Proc.devRef .tc main_arg10) = A10 m c :=
  (keepH5 m ρ c main_arg10 (by decide)).trans (f10_arg10 m ρ c)
theorem f11_arg11 : W11 (F := Ideal) m ρ c (Proc.devRef .tc main_arg11) = A11 m c :=
  (keepH5 m ρ c main_arg11 (by decide)).trans (f10_arg11 m ρ c)
theorem f11_arg12 : W11 (F := Ideal) m ρ c (Proc.devRef .tc main_arg12) = A12 m c :=
  (keepH5 m ρ c main_arg12 (by decide)).trans (f10_arg12 m ρ c)
theorem f11_arg13 : W11 (F := Ideal) m ρ c (Proc.devRef .tc main_arg13) = A13 m c :=
  (keepH5 m ρ c main_arg13 (by decide)).trans (f10_arg13 m ρ c)
theorem f11_arg14 : W11 (F := Ideal) m ρ c (Proc.devRef .tc main_arg14) = A14 m c :=
  (keepH5 m ρ c main_arg14 (by decide)).trans (f10_arg14 m ρ c)
theorem f11_arg15 : W11 (F := Ideal) m ρ c (Proc.devRef .tc main_arg15) = A15 m c :=
  (keepH5 m ρ c main_arg15 (by decide)).trans (f10_arg15 m ρ c)
theorem f11_arg16 : W11 (F := Ideal) m ρ c (Proc.devRef .tc main_arg16) = A16 m c :=
  (keepH5 m ρ c main_arg16 (by decide)).trans (f10_arg16 m ρ c)
theorem f11_arg17 : W11 (F := Ideal) m ρ c (Proc.devRef .tc main_arg17) = A17 m c :=
  (keepH5 m ρ c main_arg17 (by decide)).trans (f10_arg17 m ρ c)
theorem f11_arg18 : W11 (F := Ideal) m ρ c (Proc.devRef .tc main_arg18) = A18 m c :=
  (keepH5 m ρ c main_arg18 (by decide)).trans (f10_arg18 m ρ c)
theorem f11_arg19 : W11 (F := Ideal) m ρ c (Proc.devRef .tc main_arg19) = A19 m c :=
  (keepH5 m ρ c main_arg19 (by decide)).trans (f10_arg19 m ρ c)
theorem f11_arg20 : W11 (F := Ideal) m ρ c (Proc.devRef .tc main_arg20) = A20 m c :=
  (keepH5 m ρ c main_arg20 (by decide)).trans (f10_arg20 m ρ c)
theorem f11_v3 : W11 (F := Ideal) m ρ c (Proc.devRef .tc main_v3) = (((extractStridedSlice S128x128 ![0, 0] · slices_S256x128_S128x128_0_0)) (A5 m c)) :=
  (keepH5 m ρ c main_v3 (by decide)).trans (f10_v3 m ρ c)
theorem f11_v4 : W11 (F := Ideal) m ρ c (Proc.devRef .tc main_v4) = (((extractStridedSlice S128x128 ![128, 0] · slices_S256x128_S128x128_128_0)) (A5 m c)) :=
  (keepH5 m ρ c main_v4 (by decide)).trans (f10_v4 m ρ c)
theorem f11_v5 : W11 (F := Ideal) m ρ c (Proc.devRef .tc main_v5) = (((extractStridedSlice S128x128 ![0, 0] · slices_S256x128_S128x128_0_0)) (A7 m c)) :=
  (keepH5 m ρ c main_v5 (by decide)).trans (f10_v5 m ρ c)
theorem f11_v6 : W11 (F := Ideal) m ρ c (Proc.devRef .tc main_v6) = (((extractStridedSlice S128x128 ![128, 0] · slices_S256x128_S128x128_128_0)) (A7 m c)) :=
  (keepH5 m ρ c main_v6 (by decide)).trans (f10_v6 m ρ c)
theorem f11_v14 : W11 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH5 m ρ c main_v14 (by decide)).trans (f10_v14 m ρ c)
theorem f11_v21 : W11 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH5 m ρ c main_v21 (by decide)).trans (f10_v21 m ρ c)
theorem f11_v68 : W11 (F := Ideal) m ρ c (Proc.devRef .tc main_v68) = Cert.ReferenceIdeal.Read.val_main_v104 (F := Ideal) (A0 m c) (A3 m c) (A4 m c) (A7 m c) (A8 m c) (A9 m c) (A10 m c) (A11 m c) :=
  (keepH5 m ρ c main_v68 (by decide)).trans (f10_v68 m ρ c)
theorem f11_v75 : W11 (F := Ideal) m ρ c (Proc.devRef .tc main_v75) = Cert.ReferenceIdeal.Read.val_main_v144 (F := Ideal) (A0 m c) (A1 m c) (A2 m c) (A5 m c) (A6 m c) (A12 m c) (A13 m c) (A14 m c) :=
  (keepH5 m ρ c main_v75 (by decide)).trans (f10_v75 m ρ c)
set_option maxHeartbeats 2000000 in
theorem f11_v96 : W11 (F := Ideal) m ρ c (Proc.devRef .tc main_v96) = Cert.ReferenceIdeal.Read.val_main_v167 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps5 (W10 m ρ c) (Proc.devRef .tc main_v96) = _
  after_results_simp
  all_goals (try simp only [f10_arg2 m ρ c, f10_v93 m ρ c])
  all_goals rfl
set_option maxHeartbeats 2000000 in
theorem f11_v103 : W11 (F := Ideal) m ρ c (Proc.devRef .tc main_v103) = Cert.ReferenceIdeal.Read.val_main_v182 (F := Ideal) (A0 m c) (A1 m c) (A2 m c) (A3 m c) (A5 m c) (A6 m c) (A12 m c) (A13 m c) (A14 m c) := by
  show StableHlo.after hostOps5 (W10 m ρ c) (Proc.devRef .tc main_v103) = _
  after_results_simp
  all_goals (try simp only [f10_v77 m ρ c, f10_arg3 m ρ c])
  all_goals rfl
set_option maxHeartbeats 2000000 in
theorem f11_v110 : W11 (F := Ideal) m ρ c (Proc.devRef .tc main_v110) = Cert.ReferenceIdeal.Read.val_main_v189 (F := Ideal) (A0 m c) (A3 m c) (A4 m c) (A7 m c) (A8 m c) (A9 m c) (A10 m c) (A11 m c) := by
  show StableHlo.after hostOps5 (W10 m ρ c) (Proc.devRef .tc main_v110) = _
  after_results_simp
  all_goals (try simp only [f10_v76 m ρ c, f10_arg4 m ρ c])
  all_goals rfl
set_option maxHeartbeats 2000000 in
theorem f11_v111 : W11 (F := Ideal) m ρ c (Proc.devRef .tc main_v111) = (shapeCast S1x128 (A8 m c) shapeCasts_S128_S1x128) := by
  show StableHlo.after hostOps5 (W10 m ρ c) (Proc.devRef .tc main_v111) = _
  after_results_simp
  all_goals (try simp only [f10_arg8 m ρ c])
  all_goals rfl
theorem f12_arg1 : W12 (F := Ideal) m ρ c (Proc.devRef .tc main_arg1) = A1 m c :=
  (W12_of_ne m ρ c main_arg1 (by decide)).trans (f11_arg1 m ρ c)
theorem f12_arg2 : W12 (F := Ideal) m ρ c (Proc.devRef .tc main_arg2) = A2 m c :=
  (W12_of_ne m ρ c main_arg2 (by decide)).trans (f11_arg2 m ρ c)
theorem f12_arg4 : W12 (F := Ideal) m ρ c (Proc.devRef .tc main_arg4) = A4 m c :=
  (W12_of_ne m ρ c main_arg4 (by decide)).trans (f11_arg4 m ρ c)
theorem f12_arg6 : W12 (F := Ideal) m ρ c (Proc.devRef .tc main_arg6) = A6 m c :=
  (W12_of_ne m ρ c main_arg6 (by decide)).trans (f11_arg6 m ρ c)
theorem f12_arg9 : W12 (F := Ideal) m ρ c (Proc.devRef .tc main_arg9) = A9 m c :=
  (W12_of_ne m ρ c main_arg9 (by decide)).trans (f11_arg9 m ρ c)
theorem f12_arg10 : W12 (F := Ideal) m ρ c (Proc.devRef .tc main_arg10) = A10 m c :=
  (W12_of_ne m ρ c main_arg10 (by decide)).trans (f11_arg10 m ρ c)
theorem f12_arg11 : W12 (F := Ideal) m ρ c (Proc.devRef .tc main_arg11) = A11 m c :=
  (W12_of_ne m ρ c main_arg11 (by decide)).trans (f11_arg11 m ρ c)
theorem f12_arg12 : W12 (F := Ideal) m ρ c (Proc.devRef .tc main_arg12) = A12 m c :=
  (W12_of_ne m ρ c main_arg12 (by decide)).trans (f11_arg12 m ρ c)
theorem f12_arg13 : W12 (F := Ideal) m ρ c (Proc.devRef .tc main_arg13) = A13 m c :=
  (W12_of_ne m ρ c main_arg13 (by decide)).trans (f11_arg13 m ρ c)
theorem f12_arg14 : W12 (F := Ideal) m ρ c (Proc.devRef .tc main_arg14) = A14 m c :=
  (W12_of_ne m ρ c main_arg14 (by decide)).trans (f11_arg14 m ρ c)
theorem f12_arg15 : W12 (F := Ideal) m ρ c (Proc.devRef .tc main_arg15) = A15 m c :=
  (W12_of_ne m ρ c main_arg15 (by decide)).trans (f11_arg15 m ρ c)
theorem f12_arg16 : W12 (F := Ideal) m ρ c (Proc.devRef .tc main_arg16) = A16 m c :=
  (W12_of_ne m ρ c main_arg16 (by decide)).trans (f11_arg16 m ρ c)
theorem f12_arg17 : W12 (F := Ideal) m ρ c (Proc.devRef .tc main_arg17) = A17 m c :=
  (W12_of_ne m ρ c main_arg17 (by decide)).trans (f11_arg17 m ρ c)
theorem f12_arg18 : W12 (F := Ideal) m ρ c (Proc.devRef .tc main_arg18) = A18 m c :=
  (W12_of_ne m ρ c main_arg18 (by decide)).trans (f11_arg18 m ρ c)
theorem f12_arg19 : W12 (F := Ideal) m ρ c (Proc.devRef .tc main_arg19) = A19 m c :=
  (W12_of_ne m ρ c main_arg19 (by decide)).trans (f11_arg19 m ρ c)
theorem f12_arg20 : W12 (F := Ideal) m ρ c (Proc.devRef .tc main_arg20) = A20 m c :=
  (W12_of_ne m ρ c main_arg20 (by decide)).trans (f11_arg20 m ρ c)
theorem f12_v3 : W12 (F := Ideal) m ρ c (Proc.devRef .tc main_v3) = (((extractStridedSlice S128x128 ![0, 0] · slices_S256x128_S128x128_0_0)) (A5 m c)) :=
  (W12_of_ne m ρ c main_v3 (by decide)).trans (f11_v3 m ρ c)
theorem f12_v4 : W12 (F := Ideal) m ρ c (Proc.devRef .tc main_v4) = (((extractStridedSlice S128x128 ![128, 0] · slices_S256x128_S128x128_128_0)) (A5 m c)) :=
  (W12_of_ne m ρ c main_v4 (by decide)).trans (f11_v4 m ρ c)
theorem f12_v14 : W12 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (W12_of_ne m ρ c main_v14 (by decide)).trans (f11_v14 m ρ c)
theorem f12_v21 : W12 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W12_of_ne m ρ c main_v21 (by decide)).trans (f11_v21 m ρ c)
theorem f12_v68 : W12 (F := Ideal) m ρ c (Proc.devRef .tc main_v68) = Cert.ReferenceIdeal.Read.val_main_v104 (F := Ideal) (A0 m c) (A3 m c) (A4 m c) (A7 m c) (A8 m c) (A9 m c) (A10 m c) (A11 m c) :=
  (W12_of_ne m ρ c main_v68 (by decide)).trans (f11_v68 m ρ c)
theorem f12_v75 : W12 (F := Ideal) m ρ c (Proc.devRef .tc main_v75) = Cert.ReferenceIdeal.Read.val_main_v144 (F := Ideal) (A0 m c) (A1 m c) (A2 m c) (A5 m c) (A6 m c) (A12 m c) (A13 m c) (A14 m c) :=
  (W12_of_ne m ρ c main_v75 (by decide)).trans (f11_v75 m ρ c)
theorem f12_v96 : W12 (F := Ideal) m ρ c (Proc.devRef .tc main_v96) = Cert.ReferenceIdeal.Read.val_main_v167 (F := Ideal) (A0 m c) (A1 m c) (A2 m c) (A3 m c) (A4 m c) (A5 m c) (A6 m c) (A7 m c) (A8 m c) (A9 m c) (A10 m c) (A11 m c) (A12 m c) (A13 m c) (A14 m c) :=
  (W12_of_ne m ρ c main_v96 (by decide)).trans (f11_v96 m ρ c)
set_option maxHeartbeats 4000000 in
theorem f12_v112 : W12 (F := Ideal) m ρ c (Proc.devRef .tc main_v112) = Cert.ReferenceIdeal.Read.val_main_v195 (F := Ideal) (A0 m c) (A1 m c) (A2 m c) (A3 m c) (A4 m c) (A5 m c) (A6 m c) (A7 m c) (A8 m c) (A9 m c) (A10 m c) (A11 m c) (A12 m c) (A13 m c) (A14 m c) := by
  refine (W12_arr m ρ c 5).trans ?_
  refine (Cert.KernelIdeal.Net.msg_region5 (V11 m ρ) c).trans ?_
  rw [show V11 (F := Ideal) m ρ c (Pipeline.arrRef spec5 0) = _ from f11_v103 m ρ c,
      show V11 (F := Ideal) m ρ c (Pipeline.arrRef spec5 1) = _ from f11_v110 m ρ c,
      show V11 (F := Ideal) m ρ c (Pipeline.arrRef spec5 2) = _ from f11_v5 m ρ c,
      show V11 (F := Ideal) m ρ c (Pipeline.arrRef spec5 3) = _ from f11_v6 m ρ c,
      show V11 (F := Ideal) m ρ c (Pipeline.arrRef spec5 4) = _ from f11_v111 m ρ c]
  exact (Cert.Net.msg_bridge _ _ _ _).trans (Cert.Net.msg_ref_v195 (A0 m c) (A1 m c) (A2 m c) (A3 m c) (A4 m c) (A5 m c) (A6 m c) (A7 m c) (A8 m c) (A9 m c) (A10 m c) (A11 m c) (A12 m c) (A13 m c) (A14 m c)).symm
theorem f13_arg1 : W13 (F := Ideal) m ρ c (Proc.devRef .tc main_arg1) = A1 m c :=
  (keepH6 m ρ c main_arg1 (by decide)).trans (f12_arg1 m ρ c)
theorem f13_arg2 : W13 (F := Ideal) m ρ c (Proc.devRef .tc main_arg2) = A2 m c :=
  (keepH6 m ρ c main_arg2 (by decide)).trans (f12_arg2 m ρ c)
theorem f13_arg6 : W13 (F := Ideal) m ρ c (Proc.devRef .tc main_arg6) = A6 m c :=
  (keepH6 m ρ c main_arg6 (by decide)).trans (f12_arg6 m ρ c)
theorem f13_arg9 : W13 (F := Ideal) m ρ c (Proc.devRef .tc main_arg9) = A9 m c :=
  (keepH6 m ρ c main_arg9 (by decide)).trans (f12_arg9 m ρ c)
theorem f13_arg10 : W13 (F := Ideal) m ρ c (Proc.devRef .tc main_arg10) = A10 m c :=
  (keepH6 m ρ c main_arg10 (by decide)).trans (f12_arg10 m ρ c)
theorem f13_arg12 : W13 (F := Ideal) m ρ c (Proc.devRef .tc main_arg12) = A12 m c :=
  (keepH6 m ρ c main_arg12 (by decide)).trans (f12_arg12 m ρ c)
theorem f13_arg13 : W13 (F := Ideal) m ρ c (Proc.devRef .tc main_arg13) = A13 m c :=
  (keepH6 m ρ c main_arg13 (by decide)).trans (f12_arg13 m ρ c)
theorem f13_arg14 : W13 (F := Ideal) m ρ c (Proc.devRef .tc main_arg14) = A14 m c :=
  (keepH6 m ρ c main_arg14 (by decide)).trans (f12_arg14 m ρ c)
theorem f13_arg15 : W13 (F := Ideal) m ρ c (Proc.devRef .tc main_arg15) = A15 m c :=
  (keepH6 m ρ c main_arg15 (by decide)).trans (f12_arg15 m ρ c)
theorem f13_arg16 : W13 (F := Ideal) m ρ c (Proc.devRef .tc main_arg16) = A16 m c :=
  (keepH6 m ρ c main_arg16 (by decide)).trans (f12_arg16 m ρ c)
theorem f13_arg17 : W13 (F := Ideal) m ρ c (Proc.devRef .tc main_arg17) = A17 m c :=
  (keepH6 m ρ c main_arg17 (by decide)).trans (f12_arg17 m ρ c)
theorem f13_arg18 : W13 (F := Ideal) m ρ c (Proc.devRef .tc main_arg18) = A18 m c :=
  (keepH6 m ρ c main_arg18 (by decide)).trans (f12_arg18 m ρ c)
theorem f13_arg19 : W13 (F := Ideal) m ρ c (Proc.devRef .tc main_arg19) = A19 m c :=
  (keepH6 m ρ c main_arg19 (by decide)).trans (f12_arg19 m ρ c)
theorem f13_arg20 : W13 (F := Ideal) m ρ c (Proc.devRef .tc main_arg20) = A20 m c :=
  (keepH6 m ρ c main_arg20 (by decide)).trans (f12_arg20 m ρ c)
theorem f13_v3 : W13 (F := Ideal) m ρ c (Proc.devRef .tc main_v3) = (((extractStridedSlice S128x128 ![0, 0] · slices_S256x128_S128x128_0_0)) (A5 m c)) :=
  (keepH6 m ρ c main_v3 (by decide)).trans (f12_v3 m ρ c)
theorem f13_v4 : W13 (F := Ideal) m ρ c (Proc.devRef .tc main_v4) = (((extractStridedSlice S128x128 ![128, 0] · slices_S256x128_S128x128_128_0)) (A5 m c)) :=
  (keepH6 m ρ c main_v4 (by decide)).trans (f12_v4 m ρ c)
theorem f13_v14 : W13 (F := Ideal) m ρ c (Proc.devRef .tc main_v14) = (Host.divf (F := Ideal) ((broadcastInDim S20000x1 ![] bcast_S_S20000x1) (constant (F := Ideal) S_ .f32 0x3F800000#32)) (maximumf (F := Ideal) (((fun x i u => Host.scatterAdd (F := Ideal) scatter_S20000x1_S200000x1_S200000x1_1_0_0_1 x i u)) ((broadcastInDim S20000x1 ![] bcast_S_S20000x1) (constant (F := Ideal) S_ .f32 0x00000000#32)) ((broadcastInDim S200000x1 ![0] bcast_S200000_S200000x1_0) (A4 m c)) ((broadcastInDim S200000x1 ![] bcast_S_S200000x1) (constant (F := Ideal) S_ .f32 0x3F800000#32))) ((broadcastInDim S20000x1 ![] bcast_S_S20000x1) (constant (F := Ideal) S_ .f32 0x3F800000#32)))) :=
  (keepH6 m ρ c main_v14 (by decide)).trans (f12_v14 m ρ c)
theorem f13_v21 : W13 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH6 m ρ c main_v21 (by decide)).trans (f12_v21 m ρ c)
theorem f13_v68 : W13 (F := Ideal) m ρ c (Proc.devRef .tc main_v68) = Cert.ReferenceIdeal.Read.val_main_v104 (F := Ideal) (A0 m c) (A3 m c) (A4 m c) (A7 m c) (A8 m c) (A9 m c) (A10 m c) (A11 m c) :=
  (keepH6 m ρ c main_v68 (by decide)).trans (f12_v68 m ρ c)
theorem f13_v75 : W13 (F := Ideal) m ρ c (Proc.devRef .tc main_v75) = Cert.ReferenceIdeal.Read.val_main_v144 (F := Ideal) (A0 m c) (A1 m c) (A2 m c) (A5 m c) (A6 m c) (A12 m c) (A13 m c) (A14 m c) :=
  (keepH6 m ρ c main_v75 (by decide)).trans (f12_v75 m ρ c)
theorem f13_v96 : W13 (F := Ideal) m ρ c (Proc.devRef .tc main_v96) = Cert.ReferenceIdeal.Read.val_main_v167 (F := Ideal) (A0 m c) (A1 m c) (A2 m c) (A3 m c) (A4 m c) (A5 m c) (A6 m c) (A7 m c) (A8 m c) (A9 m c) (A10 m c) (A11 m c) (A12 m c) (A13 m c) (A14 m c) :=
  (keepH6 m ρ c main_v96 (by decide)).trans (f12_v96 m ρ c)
theorem f13_v115 : W13 (F := Ideal) m ρ c (Proc.devRef .tc main_v115) = Cert.ReferenceIdeal.Read.val_main_v198 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps6 (W12 m ρ c) (Proc.devRef .tc main_v115) = _
  after_results
  all_goals (try simp only [f12_arg4 m ρ c, f12_v112 m ρ c])
  all_goals rfl
theorem f13_v118 : W13 (F := Ideal) m ρ c (Proc.devRef .tc main_v118) = (shapeCast S1x384 (shapeCast S384 (((extractStridedSlice S1x384 ![0, 0] · slices_S2x384_S1x384_0_0)) (A11 m c)) shapeCasts_S1x384_S384) shapeCasts_S384_S1x384) := by
  show StableHlo.after hostOps6 (W12 m ρ c) (Proc.devRef .tc main_v118) = _
  after_results
  all_goals (try simp only [f12_arg11 m ρ c])
  all_goals rfl
theorem f13_v121 : W13 (F := Ideal) m ρ c (Proc.devRef .tc main_v121) = (shapeCast S1x384 (shapeCast S384 (((extractStridedSlice S1x384 ![1, 0] · slices_S2x384_S1x384_1_0)) (A11 m c)) shapeCasts_S1x384_S384) shapeCasts_S384_S1x384) := by
  show StableHlo.after hostOps6 (W12 m ρ c) (Proc.devRef .tc main_v121) = _
  after_results
  all_goals (try simp only [f12_arg11 m ρ c])
  all_goals rfl
theorem f14_arg1 : W14 (F := Ideal) m ρ c (Proc.devRef .tc main_arg1) = A1 m c :=
  (W14_of_ne m ρ c main_arg1 (by decide)).trans (f13_arg1 m ρ c)
theorem f14_arg2 : W14 (F := Ideal) m ρ c (Proc.devRef .tc main_arg2) = A2 m c :=
  (W14_of_ne m ρ c main_arg2 (by decide)).trans (f13_arg2 m ρ c)
theorem f14_arg6 : W14 (F := Ideal) m ρ c (Proc.devRef .tc main_arg6) = A6 m c :=
  (W14_of_ne m ρ c main_arg6 (by decide)).trans (f13_arg6 m ρ c)
theorem f14_arg12 : W14 (F := Ideal) m ρ c (Proc.devRef .tc main_arg12) = A12 m c :=
  (W14_of_ne m ρ c main_arg12 (by decide)).trans (f13_arg12 m ρ c)
theorem f14_arg13 : W14 (F := Ideal) m ρ c (Proc.devRef .tc main_arg13) = A13 m c :=
  (W14_of_ne m ρ c main_arg13 (by decide)).trans (f13_arg13 m ρ c)
theorem f14_arg14 : W14 (F := Ideal) m ρ c (Proc.devRef .tc main_arg14) = A14 m c :=
  (W14_of_ne m ρ c main_arg14 (by decide)).trans (f13_arg14 m ρ c)
theorem f14_arg15 : W14 (F := Ideal) m ρ c (Proc.devRef .tc main_arg15) = A15 m c :=
  (W14_of_ne m ρ c main_arg15 (by decide)).trans (f13_arg15 m ρ c)
theorem f14_arg16 : W14 (F := Ideal) m ρ c (Proc.devRef .tc main_arg16) = A16 m c :=
  (W14_of_ne m ρ c main_arg16 (by decide)).trans (f13_arg16 m ρ c)
theorem f14_arg17 : W14 (F := Ideal) m ρ c (Proc.devRef .tc main_arg17) = A17 m c :=
  (W14_of_ne m ρ c main_arg17 (by decide)).trans (f13_arg17 m ρ c)
theorem f14_arg18 : W14 (F := Ideal) m ρ c (Proc.devRef .tc main_arg18) = A18 m c :=
  (W14_of_ne m ρ c main_arg18 (by decide)).trans (f13_arg18 m ρ c)
theorem f14_arg19 : W14 (F := Ideal) m ρ c (Proc.devRef .tc main_arg19) = A19 m c :=
  (W14_of_ne m ρ c main_arg19 (by decide)).trans (f13_arg19 m ρ c)
theorem f14_arg20 : W14 (F := Ideal) m ρ c (Proc.devRef .tc main_arg20) = A20 m c :=
  (W14_of_ne m ρ c main_arg20 (by decide)).trans (f13_arg20 m ρ c)
theorem f14_v3 : W14 (F := Ideal) m ρ c (Proc.devRef .tc main_v3) = (((extractStridedSlice S128x128 ![0, 0] · slices_S256x128_S128x128_0_0)) (A5 m c)) :=
  (W14_of_ne m ρ c main_v3 (by decide)).trans (f13_v3 m ρ c)
theorem f14_v4 : W14 (F := Ideal) m ρ c (Proc.devRef .tc main_v4) = (((extractStridedSlice S128x128 ![128, 0] · slices_S256x128_S128x128_128_0)) (A5 m c)) :=
  (W14_of_ne m ρ c main_v4 (by decide)).trans (f13_v4 m ρ c)
theorem f14_v21 : W14 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W14_of_ne m ρ c main_v21 (by decide)).trans (f13_v21 m ρ c)
theorem f14_v75 : W14 (F := Ideal) m ρ c (Proc.devRef .tc main_v75) = Cert.ReferenceIdeal.Read.val_main_v144 (F := Ideal) (A0 m c) (A1 m c) (A2 m c) (A5 m c) (A6 m c) (A12 m c) (A13 m c) (A14 m c) :=
  (W14_of_ne m ρ c main_v75 (by decide)).trans (f13_v75 m ρ c)
theorem f14_v96 : W14 (F := Ideal) m ρ c (Proc.devRef .tc main_v96) = Cert.ReferenceIdeal.Read.val_main_v167 (F := Ideal) (A0 m c) (A1 m c) (A2 m c) (A3 m c) (A4 m c) (A5 m c) (A6 m c) (A7 m c) (A8 m c) (A9 m c) (A10 m c) (A11 m c) (A12 m c) (A13 m c) (A14 m c) :=
  (W14_of_ne m ρ c main_v96 (by decide)).trans (f13_v96 m ρ c)
set_option maxHeartbeats 4000000 in
theorem f14_v122 : W14 (F := Ideal) m ρ c (Proc.devRef .tc main_v122) = Cert.ReferenceIdeal.Read.val_main_v246 (F := Ideal) (A0 m c) (A1 m c) (A2 m c) (A3 m c) (A4 m c) (A5 m c) (A6 m c) (A7 m c) (A8 m c) (A9 m c) (A10 m c) (A11 m c) (A12 m c) (A13 m c) (A14 m c) := by
  refine (W14_arr m ρ c 7).trans ?_
  refine (Cert.KernelIdeal.Net.gru_region6 (V13 m ρ) c).trans ?_
  rw [show V13 (F := Ideal) m ρ c (Pipeline.arrRef spec6 0) = _ from f13_v115 m ρ c,
      show V13 (F := Ideal) m ρ c (Pipeline.arrRef spec6 1) = _ from f13_v68 m ρ c,
      show V13 (F := Ideal) m ρ c (Pipeline.arrRef spec6 2) = _ from f13_v14 m ρ c,
      show V13 (F := Ideal) m ρ c (Pipeline.arrRef spec6 3) = _ from f13_arg9 m ρ c,
      show V13 (F := Ideal) m ρ c (Pipeline.arrRef spec6 4) = _ from f13_arg10 m ρ c,
      show V13 (F := Ideal) m ρ c (Pipeline.arrRef spec6 5) = _ from f13_v118 m ρ c,
      show V13 (F := Ideal) m ρ c (Pipeline.arrRef spec6 6) = _ from f13_v121 m ρ c]
  exact (Cert.Net.gruIp_bridge _ _ (A4 m c) (A9 m c) (A10 m c) (A11 m c)).trans (Cert.Net.gruIp_ref_v246 (A0 m c) (A1 m c) (A2 m c) (A3 m c) (A4 m c) (A5 m c) (A6 m c) (A7 m c) (A8 m c) (A9 m c) (A10 m c) (A11 m c) (A12 m c) (A13 m c) (A14 m c)).symm
theorem f15_arg1 : W15 (F := Ideal) m ρ c (Proc.devRef .tc main_arg1) = A1 m c :=
  (keepH7 m ρ c main_arg1 (by decide)).trans (f14_arg1 m ρ c)
theorem f15_arg2 : W15 (F := Ideal) m ρ c (Proc.devRef .tc main_arg2) = A2 m c :=
  (keepH7 m ρ c main_arg2 (by decide)).trans (f14_arg2 m ρ c)
theorem f15_arg6 : W15 (F := Ideal) m ρ c (Proc.devRef .tc main_arg6) = A6 m c :=
  (keepH7 m ρ c main_arg6 (by decide)).trans (f14_arg6 m ρ c)
theorem f15_arg12 : W15 (F := Ideal) m ρ c (Proc.devRef .tc main_arg12) = A12 m c :=
  (keepH7 m ρ c main_arg12 (by decide)).trans (f14_arg12 m ρ c)
theorem f15_arg13 : W15 (F := Ideal) m ρ c (Proc.devRef .tc main_arg13) = A13 m c :=
  (keepH7 m ρ c main_arg13 (by decide)).trans (f14_arg13 m ρ c)
theorem f15_arg14 : W15 (F := Ideal) m ρ c (Proc.devRef .tc main_arg14) = A14 m c :=
  (keepH7 m ρ c main_arg14 (by decide)).trans (f14_arg14 m ρ c)
theorem f15_arg15 : W15 (F := Ideal) m ρ c (Proc.devRef .tc main_arg15) = A15 m c :=
  (keepH7 m ρ c main_arg15 (by decide)).trans (f14_arg15 m ρ c)
theorem f15_arg16 : W15 (F := Ideal) m ρ c (Proc.devRef .tc main_arg16) = A16 m c :=
  (keepH7 m ρ c main_arg16 (by decide)).trans (f14_arg16 m ρ c)
theorem f15_arg17 : W15 (F := Ideal) m ρ c (Proc.devRef .tc main_arg17) = A17 m c :=
  (keepH7 m ρ c main_arg17 (by decide)).trans (f14_arg17 m ρ c)
theorem f15_arg18 : W15 (F := Ideal) m ρ c (Proc.devRef .tc main_arg18) = A18 m c :=
  (keepH7 m ρ c main_arg18 (by decide)).trans (f14_arg18 m ρ c)
theorem f15_arg19 : W15 (F := Ideal) m ρ c (Proc.devRef .tc main_arg19) = A19 m c :=
  (keepH7 m ρ c main_arg19 (by decide)).trans (f14_arg19 m ρ c)
theorem f15_arg20 : W15 (F := Ideal) m ρ c (Proc.devRef .tc main_arg20) = A20 m c :=
  (keepH7 m ρ c main_arg20 (by decide)).trans (f14_arg20 m ρ c)
theorem f15_v3 : W15 (F := Ideal) m ρ c (Proc.devRef .tc main_v3) = (((extractStridedSlice S128x128 ![0, 0] · slices_S256x128_S128x128_0_0)) (A5 m c)) :=
  (keepH7 m ρ c main_v3 (by decide)).trans (f14_v3 m ρ c)
theorem f15_v4 : W15 (F := Ideal) m ρ c (Proc.devRef .tc main_v4) = (((extractStridedSlice S128x128 ![128, 0] · slices_S256x128_S128x128_128_0)) (A5 m c)) :=
  (keepH7 m ρ c main_v4 (by decide)).trans (f14_v4 m ρ c)
theorem f15_v21 : W15 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH7 m ρ c main_v21 (by decide)).trans (f14_v21 m ρ c)
theorem f15_v75 : W15 (F := Ideal) m ρ c (Proc.devRef .tc main_v75) = Cert.ReferenceIdeal.Read.val_main_v144 (F := Ideal) (A0 m c) (A1 m c) (A2 m c) (A5 m c) (A6 m c) (A12 m c) (A13 m c) (A14 m c) :=
  (keepH7 m ρ c main_v75 (by decide)).trans (f14_v75 m ρ c)
theorem f15_v96 : W15 (F := Ideal) m ρ c (Proc.devRef .tc main_v96) = Cert.ReferenceIdeal.Read.val_main_v167 (F := Ideal) (A0 m c) (A1 m c) (A2 m c) (A3 m c) (A4 m c) (A5 m c) (A6 m c) (A7 m c) (A8 m c) (A9 m c) (A10 m c) (A11 m c) (A12 m c) (A13 m c) (A14 m c) :=
  (keepH7 m ρ c main_v96 (by decide)).trans (f14_v96 m ρ c)
theorem f15_v122 : W15 (F := Ideal) m ρ c (Proc.devRef .tc main_v122) = Cert.ReferenceIdeal.Read.val_main_v246 (F := Ideal) (A0 m c) (A1 m c) (A2 m c) (A3 m c) (A4 m c) (A5 m c) (A6 m c) (A7 m c) (A8 m c) (A9 m c) (A10 m c) (A11 m c) (A12 m c) (A13 m c) (A14 m c) :=
  (keepH7 m ρ c main_v122 (by decide)).trans (f14_v122 m ρ c)
theorem f15_v125 : W15 (F := Ideal) m ρ c (Proc.devRef .tc main_v125) = (shapeCast S1x384 (shapeCast S384 (((extractStridedSlice S1x384 ![0, 0] · slices_S2x384_S1x384_0_0)) (A14 m c)) shapeCasts_S1x384_S384) shapeCasts_S384_S1x384) := by
  show StableHlo.after hostOps7 (W14 m ρ c) (Proc.devRef .tc main_v125) = _
  after_results
  all_goals (try simp only [f14_arg14 m ρ c])
  all_goals rfl
theorem f15_v128 : W15 (F := Ideal) m ρ c (Proc.devRef .tc main_v128) = (shapeCast S1x384 (shapeCast S384 (((extractStridedSlice S1x384 ![1, 0] · slices_S2x384_S1x384_1_0)) (A14 m c)) shapeCasts_S1x384_S384) shapeCasts_S384_S1x384) := by
  show StableHlo.after hostOps7 (W14 m ρ c) (Proc.devRef .tc main_v128) = _
  after_results
  all_goals (try simp only [f14_arg14 m ρ c])
  all_goals rfl
theorem f16_arg1 : W16 (F := Ideal) m ρ c (Proc.devRef .tc main_arg1) = A1 m c :=
  (W16_of_ne m ρ c main_arg1 (by decide)).trans (f15_arg1 m ρ c)
theorem f16_arg2 : W16 (F := Ideal) m ρ c (Proc.devRef .tc main_arg2) = A2 m c :=
  (W16_of_ne m ρ c main_arg2 (by decide)).trans (f15_arg2 m ρ c)
theorem f16_arg6 : W16 (F := Ideal) m ρ c (Proc.devRef .tc main_arg6) = A6 m c :=
  (W16_of_ne m ρ c main_arg6 (by decide)).trans (f15_arg6 m ρ c)
theorem f16_arg12 : W16 (F := Ideal) m ρ c (Proc.devRef .tc main_arg12) = A12 m c :=
  ((W16_arr m ρ c 3).trans (((dat7 (V15 m ρ) c).arrAt_in 3 rfl _).trans (A_eq7 (V15 m ρ) c 3))).trans (f15_arg12 m ρ c)
theorem f16_arg13 : W16 (F := Ideal) m ρ c (Proc.devRef .tc main_arg13) = A13 m c :=
  ((W16_arr m ρ c 4).trans (((dat7 (V15 m ρ) c).arrAt_in 4 rfl _).trans (A_eq7 (V15 m ρ) c 4))).trans (f15_arg13 m ρ c)
theorem f16_arg14 : W16 (F := Ideal) m ρ c (Proc.devRef .tc main_arg14) = A14 m c :=
  (W16_of_ne m ρ c main_arg14 (by decide)).trans (f15_arg14 m ρ c)
theorem f16_arg15 : W16 (F := Ideal) m ρ c (Proc.devRef .tc main_arg15) = A15 m c :=
  (W16_of_ne m ρ c main_arg15 (by decide)).trans (f15_arg15 m ρ c)
theorem f16_arg16 : W16 (F := Ideal) m ρ c (Proc.devRef .tc main_arg16) = A16 m c :=
  (W16_of_ne m ρ c main_arg16 (by decide)).trans (f15_arg16 m ρ c)
theorem f16_arg17 : W16 (F := Ideal) m ρ c (Proc.devRef .tc main_arg17) = A17 m c :=
  (W16_of_ne m ρ c main_arg17 (by decide)).trans (f15_arg17 m ρ c)
theorem f16_arg18 : W16 (F := Ideal) m ρ c (Proc.devRef .tc main_arg18) = A18 m c :=
  (W16_of_ne m ρ c main_arg18 (by decide)).trans (f15_arg18 m ρ c)
theorem f16_arg19 : W16 (F := Ideal) m ρ c (Proc.devRef .tc main_arg19) = A19 m c :=
  (W16_of_ne m ρ c main_arg19 (by decide)).trans (f15_arg19 m ρ c)
theorem f16_arg20 : W16 (F := Ideal) m ρ c (Proc.devRef .tc main_arg20) = A20 m c :=
  (W16_of_ne m ρ c main_arg20 (by decide)).trans (f15_arg20 m ρ c)
theorem f16_v3 : W16 (F := Ideal) m ρ c (Proc.devRef .tc main_v3) = (((extractStridedSlice S128x128 ![0, 0] · slices_S256x128_S128x128_0_0)) (A5 m c)) :=
  (W16_of_ne m ρ c main_v3 (by decide)).trans (f15_v3 m ρ c)
theorem f16_v4 : W16 (F := Ideal) m ρ c (Proc.devRef .tc main_v4) = (((extractStridedSlice S128x128 ![128, 0] · slices_S256x128_S128x128_128_0)) (A5 m c)) :=
  (W16_of_ne m ρ c main_v4 (by decide)).trans (f15_v4 m ρ c)
theorem f16_v21 : W16 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  ((W16_arr m ρ c 2).trans (((dat7 (V15 m ρ) c).arrAt_in 2 rfl _).trans (A_eq7 (V15 m ρ) c 2))).trans (f15_v21 m ρ c)
theorem f16_v122 : W16 (F := Ideal) m ρ c (Proc.devRef .tc main_v122) = Cert.ReferenceIdeal.Read.val_main_v246 (F := Ideal) (A0 m c) (A1 m c) (A2 m c) (A3 m c) (A4 m c) (A5 m c) (A6 m c) (A7 m c) (A8 m c) (A9 m c) (A10 m c) (A11 m c) (A12 m c) (A13 m c) (A14 m c) :=
  (W16_of_ne m ρ c main_v122 (by decide)).trans (f15_v122 m ρ c)
set_option maxHeartbeats 4000000 in
theorem f16_v129 : W16 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) := by
  refine (W16_arr m ρ c 7).trans ?_
  refine (Cert.KernelIdeal.Net.gru_region7 (V15 m ρ) c).trans ?_
  rw [show V15 (F := Ideal) m ρ c (Pipeline.arrRef spec7 0) = _ from f15_v96 m ρ c,
      show V15 (F := Ideal) m ρ c (Pipeline.arrRef spec7 1) = _ from f15_v75 m ρ c,
      show V15 (F := Ideal) m ρ c (Pipeline.arrRef spec7 2) = _ from f15_v21 m ρ c,
      show V15 (F := Ideal) m ρ c (Pipeline.arrRef spec7 3) = _ from f15_arg12 m ρ c,
      show V15 (F := Ideal) m ρ c (Pipeline.arrRef spec7 4) = _ from f15_arg13 m ρ c,
      show V15 (F := Ideal) m ρ c (Pipeline.arrRef spec7 5) = _ from f15_v125 m ρ c,
      show V15 (F := Ideal) m ρ c (Pipeline.arrRef spec7 6) = _ from f15_v128 m ρ c]
  exact (Cert.Net.gruC_bridge _ _ (A2 m c) (A12 m c) (A13 m c) (A14 m c)).trans (Cert.Net.gruC_ref_v286 (A0 m c) (A1 m c) (A2 m c) (A3 m c) (A4 m c) (A5 m c) (A6 m c) (A7 m c) (A8 m c) (A9 m c) (A10 m c) (A11 m c) (A12 m c) (A13 m c) (A14 m c)).symm

end Cert.KernelIdeal.Gen

end
-- ==== Proof.MsgRegion8.lean ====
/-
  Launch 8 of the program is a message layer: the array it leaves is the row-block form of the layer applied to the
  arrays it finds.

  The launch walks 25 blocks of 8000 rows.  At block t it reads rows 8000·t … 8000·t + 7999 of the two feature arrays,
  the two whole 128×128 weight halves and the whole 1×128 bias row, computes the layer on those rows and writes rows
  8000·t … 8000·t + 7999 of the result.  Entry (r, q) of block t is therefore entry (8000·t + r, q) of the layer over
  the whole arrays; the 25 blocks tile the 200000 rows (row i lies in block i / 8000), so the result array is the layer.
-/
import proofs.«154953_j22007412425053_2_alg».proof.Proof.Gen.KernelIdeal.Frame
import proofs.«154953_j22007412425053_2_alg».proof.Proof.MsgSpec
import proofs.«154953_j22007412425053_2_alg».proof.Proof.MsgBlock

set_option maxRecDepth 16384

noncomputable section

namespace Cert.KernelIdeal.Net

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Which block each window is on at point t: the two feature windows and the result window are on block t of the
    rows, the weight halves and the bias row on their one block. -/
theorem blocks8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- There are 25 points. -/
theorem points8 (t : Fin cfg8.N) : t.val < 25 := lt_of_lt_of_eq t.isLt N_8

/-- Row r of the first feature block at point t is row 8000·t + r of the first feature array. -/
theorem rows8_0 (c : Dev nD) (t : Fin cfg8.N) (r : Fin 8000) (k : Fin 128) (p : Fin 200000) (hp : p.val = t.val * 8000 + r.val) :
    (iblk8 V c 0 t : Vec Ideal S8000x128 .bf16) (ix2 r k)
      = (V c (Pipeline.arrRef spec8 0) : S200000x128.Idx → Elt Ideal .bf16) (ix2 p k) := by
  obtain ⟨e0, e1, -⟩ := blocks8 t
  unfold iblk8
  rw [View.read_apply]
  show (V c (Pipeline.arrRef spec8 0) : S200000x128.Idx → Elt Ideal .bf16) _ = _
  refine congrArg (V c (Pipeline.arrRef spec8 0) : S200000x128.Idx → Elt Ideal .bf16) ?_
  funext a; apply Fin.ext
  match a with
  | ⟨0, _⟩ => show win8_0.index t (0 : Fin 2) * 8000 + 1 * r.val = p.val; omega
  | ⟨1, _⟩ => show win8_0.index t (1 : Fin 2) * 128 + 1 * k.val = k.val; omega

/-- Row r of the second feature block at point t is row 8000·t + r of the second feature array. -/
theorem rows8_1 (c : Dev nD) (t : Fin cfg8.N) (r : Fin 8000) (k : Fin 128) (p : Fin 200000) (hp : p.val = t.val * 8000 + r.val) :
    (iblk8 V c 1 t : Vec Ideal S8000x128 .bf16) (ix2 r k)
      = (V c (Pipeline.arrRef spec8 1) : S200000x128.Idx → Elt Ideal .bf16) (ix2 p k) := by
  obtain ⟨-, -, e0, e1, -⟩ := blocks8 t
  unfold iblk8
  rw [View.read_apply]
  show (V c (Pipeline.arrRef spec8 1) : S200000x128.Idx → Elt Ideal .bf16) _ = _
  refine congrArg (V c (Pipeline.arrRef spec8 1) : S200000x128.Idx → Elt Ideal .bf16) ?_
  funext a; apply Fin.ext
  match a with
  | ⟨0, _⟩ => show win8_1.index t (0 : Fin 2) * 8000 + 1 * r.val = p.val; omega
  | ⟨1, _⟩ => show win8_1.index t (1 : Fin 2) * 128 + 1 * k.val = k.val; omega

/-- The block of the upper weight half is the whole array, at every point. -/
theorem whole8_2 (c : Dev nD) (t : Fin cfg8.N) :
    (iblk8 V c 2 t : Vec Ideal S128x128 .f32) = (V c (Pipeline.arrRef spec8 2) : S128x128.Idx → Elt Ideal .f32) := by
  obtain ⟨-, -, -, -, e0, e1, -⟩ := blocks8 t
  unfold iblk8
  refine funext fun (y : S128x128.Idx) => ?_
  rw [View.read_apply]
  show (V c (Pipeline.arrRef spec8 2) : S128x128.Idx → Elt Ideal .f32) _ = _
  refine congrArg (V c (Pipeline.arrRef spec8 2) : S128x128.Idx → Elt Ideal .f32) ?_
  funext a; apply Fin.ext
  match a with
  | ⟨0, _⟩ => show win8_2.index t (0 : Fin 2) * 128 + 1 * (y 0).val = (y 0).val; omega
  | ⟨1, _⟩ => show win8_2.index t (1 : Fin 2) * 128 + 1 * (y 1).val = (y 1).val; omega

/-- The block of the lower weight half is the whole array, at every point. -/
theorem whole8_3 (c : Dev nD) (t : Fin cfg8.N) :
    (iblk8 V c 3 t : Vec Ideal S128x128 .f32) = (V c (Pipeline.arrRef spec8 3) : S128x128.Idx → Elt Ideal .f32) := by
  obtain ⟨-, -, -, -, -, -, e0, e1, -⟩ := blocks8 t
  unfold iblk8
  refine funext fun (y : S128x128.Idx) => ?_
  rw [View.read_apply]
  show (V c (Pipeline.arrRef spec8 3) : S128x128.Idx → Elt Ideal .f32) _ = _
  refine congrArg (V c (Pipeline.arrRef spec8 3) : S128x128.Idx → Elt Ideal .f32) ?_
  funext a; apply Fin.ext
  match a with
  | ⟨0, _⟩ => show win8_3.index t (0 : Fin 2) * 128 + 1 * (y 0).val = (y 0).val; omega
  | ⟨1, _⟩ => show win8_3.index t (1 : Fin 2) * 128 + 1 * (y 1).val = (y 1).val; omega

/-- The block of the bias row is the whole row, at every point. -/
theorem whole8_4 (c : Dev nD) (t : Fin cfg8.N) :
    (iblk8 V c 4 t : Vec Ideal S1x128 .f32) = (V c (Pipeline.arrRef spec8 4) : S1x128.Idx → Elt Ideal .f32) := by
  obtain ⟨-, -, -, -, -, -, -, -, e0, e1, -⟩ := blocks8 t
  unfold iblk8
  refine funext fun (y : S1x128.Idx) => ?_
  rw [View.read_apply]
  show (V c (Pipeline.arrRef spec8 4) : S1x128.Idx → Elt Ideal .f32) _ = _
  refine congrArg (V c (Pipeline.arrRef spec8 4) : S1x128.Idx → Elt Ideal .f32) ?_
  funext a; apply Fin.ext
  match a with
  | ⟨0, _⟩ => show win8_4.index t (0 : Fin 2) * 1 + 1 * (y 0).val = (y 0).val; omega
  | ⟨1, _⟩ => show win8_4.index t (1 : Fin 2) * 128 + 1 * (y 1).val = (y 1).val; omega

/-- What point t writes back is block t of the layer over the arrays the launch finds. -/
theorem written8 (c : Dev nD) (t : Fin cfg8.N) :
    (dat8 V c).flushed 5 t = ((cfg8.win 5).blk t).view.read (Elt Ideal)
      (Cert.Net.msgK (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero offsets_zero]
  simp only [View.ld_unit_zero (S := S8000x128) offsets_zero, View.ld_unit_zero (S := S128x128) offsets_zero,
    View.ld_unit_zero (S := S1x128) offsets_zero]
  obtain ⟨-, -, -, -, -, -, -, -, -, -, e0, e1⟩ := blocks8 t
  have ht := points8 t
  refine funext fun (j : S8000x128.Idx) => ?_
  obtain ⟨r, q, rfl⟩ : ∃ (r : Fin 8000) (q : Fin 128), j = ix2 r q := ⟨j 0, j 1, eq_ix2 j⟩
  have hemb : ((cfg8.win 5).blk t).view.emb (ix2 r q)
      = ix2 (⟨t.val * 8000 + r.val, by have := r.isLt; omega⟩ : Fin 200000) q := by
    funext a; apply Fin.ext
    match a with
    | ⟨0, _⟩ => show win8_5.index t (0 : Fin 2) * 8000 + 1 * r.val = t.val * 8000 + r.val; omega
    | ⟨1, _⟩ => show win8_5.index t (1 : Fin 2) * 128 + 1 * q.val = q.val; omega
  show k8_pay1 (F := Ideal) (iblk8 V c 0 t) (iblk8 V c 1 t) (iblk8 V c 2 t) (iblk8 V c 3 t) (iblk8 V c 4 t) (ix2 r q)
      = Cert.Net.msgK (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb (ix2 r q))
  rw [hemb]
  exact block_entry8 (iblk8 V c 0 t) (iblk8 V c 1 t) (iblk8 V c 2 t) (iblk8 V c 3 t) (iblk8 V c 4 t)
    (V c (Pipeline.arrRef spec8 0)) (V c (Pipeline.arrRef spec8 1)) (V c (Pipeline.arrRef spec8 2))
    (V c (Pipeline.arrRef spec8 3)) (V c (Pipeline.arrRef spec8 4)) r q ⟨t.val * 8000 + r.val, by have := r.isLt; omega⟩
    (fun k => rows8_0 V c t r k _ rfl) (fun k => rows8_1 V c t r k _ rfl)
    (whole8_2 V c t) (whole8_3 V c t) (whole8_4 V c t)

/-- An index of the result array is in point t's block iff each coordinate is in the block's range on its axis. -/
theorem inblock8 (t : Fin cfg8.N) (i : S200000x128.Idx) :
    i ∈ ((cfg8.win 5).blk t).view.set ↔ ∀ a : Fin 2, win8_5.index t a * S8000x128.size a ≤ (i a).val
      ∧ (i a).val < win8_5.index t a * S8000x128.size a + S8000x128.size a := by
  show i ∈ ((View.whole (Pipeline.arrRef spec8 5)).slice (win8_5.rect t)).set ↔ _
  rw [View.set_slice_whole, Rect.mem_set_unit]
  exact Iff.rfl

/-- The array launch 8 leaves is the row-block form of the layer over the arrays it finds. -/
theorem msg_region8 (c : Dev nD) :
    (dat8 V c).arrAt 5 cfg8.N
      = Cert.Net.msgK (V c (Pipeline.arrRef spec8 0)) (V c (Pipeline.arrRef spec8 1)) (V c (Pipeline.arrRef spec8 2))
        (V c (Pipeline.arrRef spec8 3)) (V c (Pipeline.arrRef spec8 4)) :=
  (dat8 V c).arrAt_eq_of_cover 5 _ (fun t _ => written8 V c t) fun i => by
    have hi0 : (i 0).val < 200000 := (i 0).isLt
    have hi1 : (i 1).val < 128 := (i 1).isLt
    have hN : cfg8.N = 25 := N_8
    refine ⟨⟨(i 0).val / 8000, by rw [hN]; omega⟩, flush8_5 _, ?_⟩
    obtain ⟨-, -, -, -, -, -, -, -, -, -, e0, e1⟩ := blocks8 ⟨(i 0).val / 8000, by rw [hN]; omega⟩
    rw [inblock8]
    intro a
    match a with
    | ⟨0, _⟩ =>
      show win8_5.index ⟨(i 0).val / 8000, _⟩ (0 : Fin 2) * 8000 ≤ (i 0).val
        ∧ (i 0).val < win8_5.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win8_5.index ⟨(i 0).val / 8000, _⟩ (1 : Fin 2) * 128 ≤ (i 1).val
        ∧ (i 1).val < win8_5.index ⟨(i 0).val / 8000, _⟩ (1 : Fin 2) * 128 + 128
      rw [e1]; omega

end Cert.KernelIdeal.Net

end
-- ==== Proof.GruRegion11.lean ====
/-
  Region 11: the recurrent update on 100000 rows, computed block of 2000 rows by block, leaves in its output array
  the whole-array update of the arrays the region finds.

  Point t reads rows 2000·t … 2000·t + 1999 of the segment sums, of the old state and of the reciprocal counts, and
  the resident matrices and bias rows whole; it writes the same rows of the output.  The update is row-local, so
  what point t writes is the whole-array update restricted to its rows, and the 50 blocks cover the array.
-/
import proofs.«154953_j22007412425053_2_alg».proof.Proof.Gen.KernelIdeal.Frame
import proofs.«154953_j22007412425053_2_alg».proof.Proof.GruStep
import Idealize.ShloMosaic.Lib.Pipeline.Value

set_option maxRecDepth 16384

noncomputable section

namespace Cert.KernelIdeal.Net

open Idealize.ShloMosaic Idealize.ShloMosaic.TcCoe Idealize.SL.Sem Idealize.ShloMosaic.ValueIdx
open Idealize.ShloMosaic.Pipeline (Dat)
open Cert.KernelIdeal Cert.KernelIdeal.Gen Cert.Net

variable (V : (c : Dev nD) → (b : Ref sig .tc) → Buf (Elt Ideal) ((c : Thread nD τ).loc b))

theorem gruHz11 : (![0, 0] : Fin 2 → Nat) = fun _ => 0 := funext fun a => by fin_cases a <;> rfl

/-- The block index of every window at every point: the row windows move with the point, the resident ones stay. -/
theorem gruIdx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_7.index t (0 : Fin 2) = t.val ∧ win11_7.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0 :=
  (by decide +kernel : ∀ t : Fin grid11.N, _)

/-- Window 0's block at point t is rows 2000·t … 2000·t + 1999 of its array. -/
theorem gruRead11_0 (c : Dev nD) (t : Fin cfg11.N) (y : S2000x128.Idx) (u : S100000x128.Idx)
    (h0 : (u 0).val = t.val * 2000 + (y 0).val) (h1 : (u 1).val = (y 1).val) :
    (iblk11 V c 0 t : Vec Ideal S2000x128 .f32) y = (V c (Pipeline.arrRef spec11 0) : S100000x128.Idx → Elt Ideal .f32) u := by
  obtain ⟨a0, a1, b0, b1, c0, c1, o0, o1, d0, d1, e0, e1, f0, f1, g0, g1⟩ := gruIdx11 t
  unfold iblk11
  rw [View.read_apply]
  show V c (Pipeline.arrRef spec11 0) _ = V c (Pipeline.arrRef spec11 0) _
  congr 1
  funext a
  apply Fin.ext
  match a with
  | ⟨0, _⟩ => show win11_0.index t 0 * 2000 + 1 * (y 0).val = (u 0).val; rw [a0, h0]; omega
  | ⟨1, _⟩ => show win11_0.index t 1 * 128 + 1 * (y 1).val = (u 1).val; rw [a1, h1]; omega

/-- Window 1's block at point t is rows 2000·t … 2000·t + 1999 of its array. -/
theorem gruRead11_1 (c : Dev nD) (t : Fin cfg11.N) (y : S2000x128.Idx) (u : S100000x128.Idx)
    (h0 : (u 0).val = t.val * 2000 + (y 0).val) (h1 : (u 1).val = (y 1).val) :
    (iblk11 V c 1 t : Vec Ideal S2000x128 .f32) y = (V c (Pipeline.arrRef spec11 1) : S100000x128.Idx → Elt Ideal .f32) u := by
  obtain ⟨a0, a1, b0, b1, c0, c1, o0, o1, d0, d1, e0, e1, f0, f1, g0, g1⟩ := gruIdx11 t
  unfold iblk11
  rw [View.read_apply]
  show V c (Pipeline.arrRef spec11 1) _ = V c (Pipeline.arrRef spec11 1) _
  congr 1
  funext a
  apply Fin.ext
  match a with
  | ⟨0, _⟩ => show win11_1.index t 0 * 2000 + 1 * (y 0).val = (u 0).val; rw [b0, h0]; omega
  | ⟨1, _⟩ => show win11_1.index t 1 * 128 + 1 * (y 1).val = (u 1).val; rw [b1, h1]; omega

/-- Window 2's block at point t is rows 2000·t … 2000·t + 1999 of its array. -/
theorem gruRead11_2 (c : Dev nD) (t : Fin cfg11.N) (y : S2000x1.Idx) (u : S100000x1.Idx)
    (h0 : (u 0).val = t.val * 2000 + (y 0).val) (h1 : (u 1).val = (y 1).val) :
    (iblk11 V c 2 t : Vec Ideal S2000x1 .f32) y = (V c (Pipeline.arrRef spec11 2) : S100000x1.Idx → Elt Ideal .f32) u := by
  obtain ⟨a0, a1, b0, b1, c0, c1, o0, o1, d0, d1, e0, e1, f0, f1, g0, g1⟩ := gruIdx11 t
  unfold iblk11
  rw [View.read_apply]
  show V c (Pipeline.arrRef spec11 2) _ = V c (Pipeline.arrRef spec11 2) _
  congr 1
  funext a
  apply Fin.ext
  match a with
  | ⟨0, _⟩ => show win11_2.index t 0 * 2000 + 1 * (y 0).val = (u 0).val; rw [c0, h0]; omega
  | ⟨1, _⟩ => show win11_2.index t 1 * 1 + 1 * (y 1).val = (u 1).val; rw [c1, h1]; omega

/-- Window 3's block is its whole array at every point. -/
theorem gruWhole11_3 (c : Dev nD) (t : Fin cfg11.N) : (iblk11 V c 3 t : Vec Ideal S128x384 .f32) = (V c (Pipeline.arrRef spec11 3) : S128x384.Idx → Elt Ideal .f32) := by
  obtain ⟨a0, a1, b0, b1, c0, c1, o0, o1, d0, d1, e0, e1, f0, f1, g0, g1⟩ := gruIdx11 t
  funext y
  unfold iblk11
  rw [View.read_apply]
  show V c (Pipeline.arrRef spec11 3) _ = V c (Pipeline.arrRef spec11 3) y
  congr 1
  funext a
  apply Fin.ext
  match a with
  | ⟨0, _⟩ => show win11_3.index t 0 * 128 + 1 * (y 0).val = (y 0).val; rw [d0]; omega
  | ⟨1, _⟩ => show win11_3.index t 1 * 384 + 1 * (y 1).val = (y 1).val; rw [d1]; omega

/-- Window 4's block is its whole array at every point. -/
theorem gruWhole11_4 (c : Dev nD) (t : Fin cfg11.N) : (iblk11 V c 4 t : Vec Ideal S128x384 .f32) = (V c (Pipeline.arrRef spec11 4) : S128x384.Idx → Elt Ideal .f32) := by
  obtain ⟨a0, a1, b0, b1, c0, c1, o0, o1, d0, d1, e0, e1, f0, f1, g0, g1⟩ := gruIdx11 t
  funext y
  unfold iblk11
  rw [View.read_apply]
  show V c (Pipeline.arrRef spec11 4) _ = V c (Pipeline.arrRef spec11 4) y
  congr 1
  funext a
  apply Fin.ext
  match a with
  | ⟨0, _⟩ => show win11_4.index t 0 * 128 + 1 * (y 0).val = (y 0).val; rw [e0]; omega
  | ⟨1, _⟩ => show win11_4.index t 1 * 384 + 1 * (y 1).val = (y 1).val; rw [e1]; omega

/-- Window 5's block is its whole array at every point. -/
theorem gruWhole11_5 (c : Dev nD) (t : Fin cfg11.N) : (iblk11 V c 5 t : Vec Ideal S1x384 .f32) = (V c (Pipeline.arrRef spec11 5) : S1x384.Idx → Elt Ideal .f32) := by
  obtain ⟨a0, a1, b0, b1, c0, c1, o0, o1, d0, d1, e0, e1, f0, f1, g0, g1⟩ := gruIdx11 t
  funext y
  unfold iblk11
  rw [View.read_apply]
  show V c (Pipeline.arrRef spec11 5) _ = V c (Pipeline.arrRef spec11 5) y
  congr 1
  funext a
  apply Fin.ext
  match a with
  | ⟨0, _⟩ => show win11_5.index t 0 * 1 + 1 * (y 0).val = (y 0).val; rw [f0]; omega
  | ⟨1, _⟩ => show win11_5.index t 1 * 384 + 1 * (y 1).val = (y 1).val; rw [f1]; omega

/-- Window 6's block is its whole array at every point. -/
theorem gruWhole11_6 (c : Dev nD) (t : Fin cfg11.N) : (iblk11 V c 6 t : Vec Ideal S1x384 .f32) = (V c (Pipeline.arrRef spec11 6) : S1x384.Idx → Elt Ideal .f32) := by
  obtain ⟨a0, a1, b0, b1, c0, c1, o0, o1, d0, d1, e0, e1, f0, f1, g0, g1⟩ := gruIdx11 t
  funext y
  unfold iblk11
  rw [View.read_apply]
  show V c (Pipeline.arrRef spec11 6) _ = V c (Pipeline.arrRef spec11 6) y
  congr 1
  funext a
  apply Fin.ext
  match a with
  | ⟨0, _⟩ => show win11_6.index t 0 * 1 + 1 * (y 0).val = (y 0).val; rw [g0]; omega
  | ⟨1, _⟩ => show win11_6.index t 1 * 384 + 1 * (y 1).val = (y 1).val; rw [g1]; omega

/-- The write-back takes the whole block: the block program's result read at an index of the block. -/
theorem gruCutL11 (c : Dev nD) (t : Fin cfg11.N) (j : ((win11 7).xblock (grid11.coords t)).Idx) :
    (win11 7).cut (grid11.coords t) (k11_pay1 (F := Ideal) (iblk11 V c 0 t : Vec Ideal S2000x128 .f32) (iblk11 V c 2 t : Vec Ideal S2000x1 .f32) (iblk11 V c 1 t : Vec Ideal S2000x128 .f32) (iblk11 V c 3 t : Vec Ideal S128x384 .f32) (iblk11 V c 4 t : Vec Ideal S128x384 .f32) (iblk11 V c 5 t : Vec Ideal S1x384 .f32) (iblk11 V c 6 t : Vec Ideal S1x384 .f32)) j
      = k11_pay1 (F := Ideal) (iblk11 V c 0 t : Vec Ideal S2000x128 .f32) (iblk11 V c 2 t : Vec Ideal S2000x1 .f32) (iblk11 V c 1 t : Vec Ideal S2000x128 .f32) (iblk11 V c 3 t : Vec Ideal S128x384 .f32) (iblk11 V c 4 t : Vec Ideal S128x384 .f32) (iblk11 V c 5 t : Vec Ideal S1x384 .f32) (iblk11 V c 6 t : Vec Ideal S1x384 .f32) j := rfl

/-- Block t of an array read at an index of the block is the array at the index's place in the array. -/
theorem gruReadR11 (t : Fin cfg11.N) (j : ((win11 7).xblock (grid11.coords t)).Idx) (G : FVec Ideal S100000x128 .f32) :
    View.read (Elt Ideal) ((View.whole main_v183).slice ((win11 7).rect t)) G j = G (((cfg11.win 7).blk t).view.emb j) := rfl

/-- What point t writes back is block t of the whole-array update. -/
theorem gruFlushed11 (c : Dev nD) (t : Fin cfg11.N) :
    (dat11 (F := Ideal) V c).flushed 7 t = ((cfg11.win 7).blk t).view.read (Elt Ideal) (gruKC (V c (Pipeline.arrRef spec11 0) : S100000x128.Idx → Elt Ideal .f32) (V c (Pipeline.arrRef spec11 1) : S100000x128.Idx → Elt Ideal .f32) (V c (Pipeline.arrRef spec11 2) : S100000x1.Idx → Elt Ideal .f32) (V c (Pipeline.arrRef spec11 3) : S128x384.Idx → Elt Ideal .f32) (V c (Pipeline.arrRef spec11 4) : S128x384.Idx → Elt Ideal .f32) (V c (Pipeline.arrRef spec11 5) : S1x384.Idx → Elt Ideal .f32) (V c (Pipeline.arrRef spec11 6) : S1x384.Idx → Elt Ideal .f32)) := by
  show (cfg11.win 7).cut (grid11.coords t) ((dat11 (F := Ideal) V c).after 7 t) = _
  rw [after11_7]
  unfold out11_7
  rw [View.canon_unit_zero gruHz11]
  simp only [View.ld_unit_zero (S := S2000x128) gruHz11, View.ld_unit_zero (S := S2000x1) gruHz11,
    View.ld_unit_zero (S := S128x384) gruHz11, View.ld_unit_zero (S := S1x384) gruHz11]
  obtain ⟨a0, a1, b0, b1, c0, c1, o0, o1, d0, d1, e0, e1, f0, f1, g0, g1⟩ := gruIdx11 t
  funext j
  refine (gruCutL11 V c t j).trans ?_
  refine Eq.trans ?_ (gruReadR11 t j _).symm
  refine (gruPay11_at (iblk11 V c 0 t : Vec Ideal S2000x128 .f32) (iblk11 V c 2 t : Vec Ideal S2000x1 .f32) (iblk11 V c 1 t : Vec Ideal S2000x128 .f32) (iblk11 V c 3 t : Vec Ideal S128x384 .f32) (iblk11 V c 4 t : Vec Ideal S128x384 .f32) (iblk11 V c 5 t : Vec Ideal S1x384 .f32) (iblk11 V c 6 t : Vec Ideal S1x384 .f32) j).trans ?_
  refine gruBlockC (iblk11 V c 0 t : Vec Ideal S2000x128 .f32) (iblk11 V c 1 t : Vec Ideal S2000x128 .f32) (iblk11 V c 2 t : Vec Ideal S2000x1 .f32) (iblk11 V c 3 t : Vec Ideal S128x384 .f32) (iblk11 V c 4 t : Vec Ideal S128x384 .f32) (iblk11 V c 5 t : Vec Ideal S1x384 .f32) (iblk11 V c 6 t : Vec Ideal S1x384 .f32)
    (V c (Pipeline.arrRef spec11 0) : S100000x128.Idx → Elt Ideal .f32) (V c (Pipeline.arrRef spec11 1) : S100000x128.Idx → Elt Ideal .f32) (V c (Pipeline.arrRef spec11 2) : S100000x1.Idx → Elt Ideal .f32) (V c (Pipeline.arrRef spec11 3) : S128x384.Idx → Elt Ideal .f32) (V c (Pipeline.arrRef spec11 4) : S128x384.Idx → Elt Ideal .f32) (V c (Pipeline.arrRef spec11 5) : S1x384.Idx → Elt Ideal .f32) (V c (Pipeline.arrRef spec11 6) : S1x384.Idx → Elt Ideal .f32)
    (t.val * 2000) j (((cfg11.win 7).blk t).view.emb j) ?_ ?_
    (gruRead11_0 V c t) (gruRead11_1 V c t) (gruRead11_2 V c t)
    (gruWhole11_3 V c t) (gruWhole11_4 V c t) (gruWhole11_5 V c t) (gruWhole11_6 V c t)
  · show win11_7.index t 0 * 2000 + 1 * (j 0).val = t.val * 2000 + (j 0).val
    rw [o0]; omega
  · show win11_7.index t 1 * 128 + 1 * (j 1).val = (j 1).val
    rw [o1]; omega

/-- An index of the output array is in point t's block iff each coordinate is in the block's range. -/
theorem gruMemBlk11 (t : Fin cfg11.N) (i : S100000x128.Idx) :
    i ∈ ((cfg11.win 7).blk t).view.set ↔ ∀ a : Fin 2, win11_7.index t a * S2000x128.size a ≤ (i a).val
      ∧ (i a).val < win11_7.index t a * S2000x128.size a + S2000x128.size a := by
  show i ∈ ((View.whole main_v183).slice (win11_7.rect t)).set ↔ _
  rw [View.set_slice_whole, Rect.mem_set_unit]
  exact Iff.rfl

/-- Row r of the output is written by point r / 2000. -/
theorem gruCover11 (i : S100000x128.Idx) :
    ∃ t : Fin cfg11.N, (cfg11.win 7).flush t = true ∧ i ∈ ((cfg11.win 7).blk t).view.set := by
  have hN : cfg11.N = 50 := N_11
  have hi0 : (i 0).val < 100000 := (i 0).isLt
  have hi1 : (i 1).val < 128 := (i 1).isLt
  refine ⟨⟨(i 0).val / 2000, by rw [hN]; omega⟩, flush11_7 _, ?_⟩
  obtain ⟨a0, a1, b0, b1, c0, c1, o0, o1, d0, d1, e0, e1, f0, f1, g0, g1⟩ := gruIdx11 ⟨(i 0).val / 2000, by rw [hN]; omega⟩
  rw [gruMemBlk11]
  intro a
  match a with
  | ⟨0, _⟩ =>
    show win11_7.index _ 0 * 2000 ≤ (i 0).val ∧ (i 0).val < win11_7.index _ 0 * 2000 + 2000
    rw [o0]
    show (i 0).val / 2000 * 2000 ≤ (i 0).val ∧ (i 0).val < (i 0).val / 2000 * 2000 + 2000
    omega
  | ⟨1, _⟩ =>
    show win11_7.index _ 1 * 128 ≤ (i 1).val ∧ (i 1).val < win11_7.index _ 1 * 128 + 128
    rw [o1]
    omega

/-- The region's output array after the run is the whole-array update of the arrays the region finds. -/
theorem gru_region11 (c : Dev nD) :
    (dat11 (F := Ideal) V c).arrAt 7 cfg11.N = (gruKC (V c (Pipeline.arrRef spec11 0) : S100000x128.Idx → Elt Ideal .f32) (V c (Pipeline.arrRef spec11 1) : S100000x128.Idx → Elt Ideal .f32) (V c (Pipeline.arrRef spec11 2) : S100000x1.Idx → Elt Ideal .f32) (V c (Pipeline.arrRef spec11 3) : S128x384.Idx → Elt Ideal .f32) (V c (Pipeline.arrRef spec11 4) : S128x384.Idx → Elt Ideal .f32) (V c (Pipeline.arrRef spec11 5) : S1x384.Idx → Elt Ideal .f32) (V c (Pipeline.arrRef spec11 6) : S1x384.Idx → Elt Ideal .f32)) :=
  (dat11 (F := Ideal) V c).arrAt_eq_of_cover 7 (gruKC (V c (Pipeline.arrRef spec11 0) : S100000x128.Idx → Elt Ideal .f32) (V c (Pipeline.arrRef spec11 1) : S100000x128.Idx → Elt Ideal .f32) (V c (Pipeline.arrRef spec11 2) : S100000x1.Idx → Elt Ideal .f32) (V c (Pipeline.arrRef spec11 3) : S128x384.Idx → Elt Ideal .f32) (V c (Pipeline.arrRef spec11 4) : S128x384.Idx → Elt Ideal .f32) (V c (Pipeline.arrRef spec11 5) : S1x384.Idx → Elt Ideal .f32) (V c (Pipeline.arrRef spec11 6) : S1x384.Idx → Elt Ideal .f32))
    (fun t _ => gruFlushed11 V c t) (gruCover11)

end Cert.KernelIdeal.Net

end
-- ==== Proof.ReadRow.lean ====
/-
  The readout head, one row at a time, at the exact (extended-real) values.

  A row x of 128 features goes through three dense layers,
      h1 = max(x·W1 + b1, 0),   h2 = max(h1·W2 + b2, 0),   l = h2·W3 + b3,
  and the 15 logits l are normalised by the stabilised softmax
      m = max(-inf, max_k l(k)),   e(q) = exp(l(q) - m),   out(q) = e(q) / sum_k e(k).
  Each output row depends on its own input row only, so the whole array is this row function applied to every row:
  that is the definition of the array function below, and it is the form in which a computation done block of rows
  by block of rows and a computation done on the whole array are both recognised.
-/
import Idealize.ShloMosaic.Lib.ValueIdx
import Idealize.ShloMosaic.PureOps.Ideal.Laws
import proofs.«154953_j22007412425053_2_alg».proof.Proof.LibRowDot

noncomputable section

open scoped BigOperators

namespace Cert.Net

open Idealize.ShloMosaic Idealize.ShloMosaic.ValueIdx Cert.RowDot

/-- The extended real the all-zero word denotes (it is 0; it is never evaluated here). -/
abbrev zeroW : EReal := Ideal.ofBits .f32 0x00000000#32

/-- The extended real the word of minus infinity denotes. -/
abbrev ninfW : EReal := Ideal.ofBits .f32 0xFF800000#32

/-- One dense layer on a row:  q ↦ (row · W)(q) + b(q). -/
def denseRow {K N : Nat} (row : Fin K → EReal) (W : (⟨2, ![K, N]⟩ : Shape).Idx → EReal) (b : Fin N → EReal) :
    Fin N → EReal :=
  fun q => rowDot row W q + b q

/-- The rectifier on a row:  q ↦ max(v(q), 0). -/
def reluRow {N : Nat} (v : Fin N → EReal) : Fin N → EReal := fun q => max (v q) zeroW

/-- The three layers: the 15 logits of a row of 128 features. -/
def logitsRow (x : Fin 128 → EReal) (W1 : (⟨2, ![128, 128]⟩ : Shape).Idx → EReal) (b1 : Fin 128 → EReal)
    (W2 : (⟨2, ![128, 64]⟩ : Shape).Idx → EReal) (b2 : Fin 64 → EReal)
    (W3 : (⟨2, ![64, 15]⟩ : Shape).Idx → EReal) (b3 : Fin 15 → EReal) : Fin 15 → EReal :=
  denseRow (reluRow (denseRow (reluRow (denseRow x W1 b1)) W2 b2)) W3 b3

/-- The shift of the stabilised softmax: max(-inf, the maximum of the row folded from -inf). -/
def rowMax {N : Nat} (l : Fin N → EReal) : EReal := max ninfW ((Finset.univ : Finset (Fin N)).fold max ninfW l)

/-- The shifted exponentials of a row. -/
def expRow {N : Nat} (l : Fin N → EReal) : Fin N → EReal := fun q => Ideal.exp (l q - rowMax l)

/-- The stabilised softmax of a row: each shifted exponential over their sum. -/
def softmaxRow {N : Nat} (l : Fin N → EReal) : Fin N → EReal := fun q => Ideal.div (expRow l q) (∑ k : Fin N, expRow l k)

/-- A bias stored as a one-row matrix, as a function of the column. -/
def biasRow {N : Nat} (b : (⟨2, ![1, N]⟩ : Shape).Idx → EReal) : Fin N → EReal := fun k => b (ix2 (0 : Fin 1) k)

/-- The readout head on one row. -/
def headRow (x : Fin 128 → EReal) (W1 : (⟨2, ![128, 128]⟩ : Shape).Idx → EReal) (b1 : Fin 128 → EReal)
    (W2 : (⟨2, ![128, 64]⟩ : Shape).Idx → EReal) (b2 : Fin 64 → EReal)
    (W3 : (⟨2, ![64, 15]⟩ : Shape).Idx → EReal) (b3 : Fin 15 → EReal) : Fin 15 → EReal :=
  softmaxRow (logitsRow x W1 b1 W2 b2 W3 b3)

/-- The readout head on the whole array of 100000 rows, index by index: entry (r, q) is the head of row r at q.
    The three biases are the one-row matrices the blockwise computation is handed. -/
def readK (h : FVec Ideal (⟨2, ![100000, 128]⟩ : Shape) .f32) (W1 : FVec Ideal (⟨2, ![128, 128]⟩ : Shape) .f32)
    (b1 : FVec Ideal (⟨2, ![1, 128]⟩ : Shape) .f32) (W2 : FVec Ideal (⟨2, ![128, 64]⟩ : Shape) .f32)
    (b2 : FVec Ideal (⟨2, ![1, 64]⟩ : Shape) .f32) (W3 : FVec Ideal (⟨2, ![64, 15]⟩ : Shape) .f32)
    (b3 : FVec Ideal (⟨2, ![1, 15]⟩ : Shape) .f32) : FVec Ideal (⟨2, ![100000, 15]⟩ : Shape) .f32 :=
  fun i => headRow (rowOf h ⟨(i 0).val, idx2_lt0 i⟩) W1 (biasRow b1) W2 (biasRow b2) W3 (biasRow b3) ⟨(i 1).val, idx2_lt1 i⟩

/-- At an index given by its coordinates. -/
theorem readK_ix2 (h : FVec Ideal (⟨2, ![100000, 128]⟩ : Shape) .f32) (W1 : FVec Ideal (⟨2, ![128, 128]⟩ : Shape) .f32)
    (b1 : FVec Ideal (⟨2, ![1, 128]⟩ : Shape) .f32) (W2 : FVec Ideal (⟨2, ![128, 64]⟩ : Shape) .f32)
    (b2 : FVec Ideal (⟨2, ![1, 64]⟩ : Shape) .f32) (W3 : FVec Ideal (⟨2, ![64, 15]⟩ : Shape) .f32)
    (b3 : FVec Ideal (⟨2, ![1, 15]⟩ : Shape) .f32) (r : Fin 100000) (q : Fin 15) :
    readK h W1 b1 W2 b2 W3 b3 (ix2 r q) = headRow (rowOf h r) W1 (biasRow b1) W2 (biasRow b2) W3 (biasRow b3) q := rfl

end Cert.Net

end
-- ==== Proof.ReadLayout.lean ====
/-
  Small layout facts read at an index, for arrays of rows: a vector viewed as one column and that column repeated
  across the columns (the "keep the reduced axis" forms a row reduction is followed by), a vector viewed as one row,
  and the source index of a reduction along the columns: the row index with the column put back.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Net

open Idealize.ShloMosaic Idealize.ShloMosaic.ValueIdx

variable {α : Type}

/-- A vector of length a cast to an a×1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An a×1 column repeated across b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length n laid out as a 1×n row (the broadcast that names axis 1) reads, at (u, k), the vector at k. -/
theorem bcastRow_apply {n : ℕ} (h : (⟨1, ![n]⟩ : Shape).BroadcastsInDim ⟨2, ![1, n]⟩ ![1])
    (x : (⟨1, ![n]⟩ : Shape).Idx → α) (u : Fin 1) (k : Fin n) :
    broadcastInDim ⟨2, ![1, n]⟩ ![1] h x (ix2 u k) = x (ix1 k) := by
  refine broadcastInDim_apply ![1] h x (ix2 u k) (ix1 k) fun ax => ?_
  match ax with
  | ⟨0, _⟩ =>
    show k.val = if n = 1 then 0 else k.val
    split
    · have := k.isLt; omega
    · rfl

/-- A vector of length m laid out as an m×1 column (the broadcast that names axis 0) reads, at (r, u), the vector at r. -/
theorem bcastCol_apply {m : ℕ} (h : (⟨1, ![m]⟩ : Shape).BroadcastsInDim ⟨2, ![m, 1]⟩ ![0])
    (x : (⟨1, ![m]⟩ : Shape).Idx → α) (r : Fin m) (u : Fin 1) :
    broadcastInDim ⟨2, ![m, 1]⟩ ![0] h x (ix2 r u) = x (ix1 r) := by
  refine broadcastInDim_apply ![0] h x (ix2 r u) (ix1 r) fun ax => ?_
  match ax with
  | ⟨0, _⟩ =>
    show r.val = if m = 1 then 0 else r.val
    split
    · have := r.isLt; omega
    · rfl

/-- An m×1 column repeated across n columns (the broadcast that names both axes) reads, at (r, q), the column at (r, 0). -/
theorem bcastColRep_apply {m n : ℕ} (h : (⟨2, ![m, 1]⟩ : Shape).BroadcastsInDim ⟨2, ![m, n]⟩ ![0, 1])
    (y : (⟨2, ![m, 1]⟩ : Shape).Idx → α) (r : Fin m) (q : Fin n) :
    broadcastInDim ⟨2, ![m, n]⟩ ![0, 1] h y (ix2 r q) = y (ix2 r (0 : Fin 1)) := by
  refine broadcastInDim_apply ![0, 1] h y (ix2 r q) (ix2 r (0 : Fin 1)) fun ax => ?_
  match ax with
  | ⟨0, _⟩ =>
    show r.val = if m = 1 then 0 else r.val
    split
    · have := r.isLt; omega
    · rfl
  | ⟨1, _⟩ => rfl

/-- Reducing an m×n array along its columns: the source index over row p with column k put back is (p, k). -/
theorem lift_row {m n : ℕ} (h : (⟨2, ![m, n]⟩ : Shape).Reduces [1] ⟨1, ![m]⟩) (p : Fin m) (k : Fin n) :
    h.lift (ix1 p) k = ix2 p k := by
  funext a
  apply Fin.ext
  match a with
  | ⟨0, _⟩ => rfl
  | ⟨1, _⟩ => rfl

end Cert.Net

end
-- ==== Proof.ReadBlock.lean ====
/-
  The readout kernel's body on one block of 5000 rows, read one entry at a time.

  The body's arithmetic is two pure terms of the blocks it loads: the shifted exponentials of the logits, and their
  normalisation by the row sums. Read at the entry (p, q) of the block, the first is the shifted exponential of the
  logits of row p of the input block (three dense layers: a matrix product into a zero accumulator is the sum over the
  contraction index, the bias is its one row repeated down the block, a change of float format is the identity on exact
  values; the row maximum is the fold of max over the 15 columns from minus infinity), and the second divides by the sum
  over the 15 columns. So the stored block is, row by row, the readout head of the input block's rows.
-/
import proofs.«154953_j22007412425053_2_alg».proof.Proof.Gen.KernelIdeal.Skeleton
import proofs.«154953_j22007412425053_2_alg».proof.Proof.ReadRow
import proofs.«154953_j22007412425053_2_alg».proof.Proof.ReadLayout

noncomputable section

open scoped BigOperators

namespace Cert.KernelIdeal.Net

open Cert.KernelIdeal Cert.KernelIdeal.Gen Idealize.ShloMosaic Idealize.ShloMosaic.ValueIdx Cert.RowDot Cert.Net

/-! ## The operations at an entry, for any number of rows -/

section Generic
variable {M K N : ℕ}

/-- A dense layer on a block: the product of the (format-changed) rows with the (format-changed) weights into a zero
    accumulator, plus the bias row repeated down the block; at (p, q) it is the dense layer of row p at q. -/
theorem dense_apply (d : DotDims (⟨2, ![M, K]⟩ : Shape) ⟨2, ![K, N]⟩ ⟨2, ![M, N]⟩) (hd : d = DotDims.plain M K N)
    (g : FVec Ideal (⟨2, ![M, K]⟩ : Shape) .f32) (W : FVec Ideal (⟨2, ![K, N]⟩ : Shape) .f32)
    (b : FVec Ideal (⟨2, ![1, N]⟩ : Shape) .f32) (ht : FTy.bf16.bits < FTy.f32.bits)
    (hc : (⟨2, ![1, N]⟩ : Shape).ShapeCasts ⟨2, ![1, N]⟩) (hb : (⟨2, ![1, N]⟩ : Shape).Broadcasts ⟨2, ![M, N]⟩)
    (p : Fin M) (q : Fin N) :
    addf (matmul d none (truncf .bf16 g ht) (truncf .bf16 W ht) (constant (F := Ideal) ⟨2, ![M, N]⟩ .f32 0x00000000#32))
        (broadcastTo ⟨2, ![M, N]⟩ (shapeCast ⟨2, ![1, N]⟩ b hc) hb) (ix2 p q)
      = denseRow (rowOf g p) W (biasRow b) q := by
  subst hd
  rw [addf_apply, shapeCast_self, broadcastTo_1b_ab_apply]
  exact congrArg (· + b (ix2 (0 : Fin 1) q))
    (matmul_plain_zero_apply none (truncf .bf16 g ht) (truncf .bf16 W ht) (ix2 p q))

/-- The same followed by the rectifier (the maximum with a repeated zero). -/
theorem denseRelu_apply (d : DotDims (⟨2, ![M, K]⟩ : Shape) ⟨2, ![K, N]⟩ ⟨2, ![M, N]⟩) (hd : d = DotDims.plain M K N)
    (g : FVec Ideal (⟨2, ![M, K]⟩ : Shape) .f32) (W : FVec Ideal (⟨2, ![K, N]⟩ : Shape) .f32)
    (b : FVec Ideal (⟨2, ![1, N]⟩ : Shape) .f32) (ht : FTy.bf16.bits < FTy.f32.bits)
    (hc : (⟨2, ![1, N]⟩ : Shape).ShapeCasts ⟨2, ![1, N]⟩) (hb : (⟨2, ![1, N]⟩ : Shape).Broadcasts ⟨2, ![M, N]⟩)
    (p : Fin M) (q : Fin N) :
    maximumf
        (addf (matmul d none (truncf .bf16 g ht) (truncf .bf16 W ht) (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p q)
      = reluRow (denseRow (rowOf g p) W (biasRow b)) q := by
  rw [maximumf_apply, dense_apply d hd]
  rfl

/-- The row maximum of a block, folded from minus infinity. -/
theorem rowFold_apply (l : FVec Ideal (⟨2, ![M, N]⟩ : Shape) .f32) (h : (⟨2, ![M, N]⟩ : Shape).Reduces [1] ⟨1, ![M]⟩)
    (hφ : FKind.Formats .f32) (hacc : (0xFF800000#32 : BitVec 32) = FKind.maximumf.neutral .f32 hφ) (p : Fin M) :
    multiReduction .maximumf [1] ⟨1, ![M]⟩ l 0xFF800000#32 h hφ hacc (ix1 p)
      = (Finset.univ : Finset (Fin N)).fold max ninfW (rowOf l p) := by
  refine (Ideal.multiReduction_maximumf_single l _ h hφ hacc (ix1 p)).trans ?_
  have e : (l ∘ h.lift (ix1 p)) = rowOf l p := funext fun k => congrArg l (lift_row h p k)
  rw [e]
  rfl

/-- The shifted exponentials of a block. -/
theorem expK_apply (l : FVec Ideal (⟨2, ![M, N]⟩ : Shape) .f32) (h : (⟨2, ![M, N]⟩ : Shape).Reduces [1] ⟨1, ![M]⟩)
    (hφ : FKind.Formats .f32) (hacc : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    exp (subf l (broadcastTo ⟨2, ![M, N]⟩ (shapeCast ⟨2, ![M, 1]⟩
        (maximumf (broadcast ⟨1, ![M]⟩ (Scalar.ofBits (F := Ideal) .f32 0xFF800000#32))
          (multiReduction .maximumf [1] ⟨1, ![M]⟩ l 0xFF800000#32 h hφ hacc)) hc) hb)) (ix2 p q)
      = expRow (rowOf l p) q := by
  show Ideal.exp (l (ix2 p q) - _) = Ideal.exp (l (ix2 p q) - rowMax (rowOf l p))
  rw [broadcastTo_a1_ab_apply, shapeCast_a_a1_apply, maximumf_apply, rowFold_apply]
  rfl

/-- The normalisation of a block by its row sums. -/
theorem normK_apply (e : FVec Ideal (⟨2, ![M, N]⟩ : Shape) .f32) (h : (⟨2, ![M, N]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    divf e (broadcastTo ⟨2, ![M, N]⟩ (shapeCast ⟨2, ![M, 1]⟩ (multiReduction .add [1] ⟨1, ![M]⟩ e 0x00000000#32 h hφ hacc) hc) hb)
        (ix2 p q)
      = Ideal.div (e (ix2 p q)) (∑ k : Fin N, e (ix2 p k)) := by
  rw [divf_apply, broadcastTo_a1_ab_apply, shapeCast_a_a1_apply]
  refine congrArg (Ideal.div (e (ix2 p q))) ?_
  refine (Ideal.multiReduction_add_single e _ h hφ hacc (ix1 p)).trans ?_
  exact Finset.sum_congr rfl fun k _ => congrArg e (lift_row h p k)

end Generic

/-! ## The body's two terms, stage by stage -/

/-- The first layer of the body on its loaded blocks. -/
def kLay1 (x0 : Vec Ideal S5000x128 .f32) (x1 : Vec Ideal S128x128 .f32) (x2 : Vec Ideal S1x128 .f32) : FVec Ideal S5000x128 .f32 :=
  maximumf
    (addf (matmul dot_S5000x128_S128x128_S5000x128_1_0_0_1_n_n none
        (truncf .bf16 (shapeCast S5000x128 x0 shapeCasts_S5000x128_S5000x128) bitsLt_bf16_f32) (truncf .bf16 x1 bitsLt_bf16_f32)
        (constant (F := Ideal) S5000x128 .f32 0x00000000#32))
      (broadcastTo S5000x128 (shapeCast S1x128 x2 shapeCasts_S1x128_S1x128) broadcasts_S1x128_S5000x128))
    (broadcast S5000x128 (Scalar.ofBits (F := Ideal) .f32 0x00000000#32))

/-- The second layer. -/
def kLay2 (g : FVec Ideal S5000x128 .f32) (x3 : Vec Ideal S128x64 .f32) (x4 : Vec Ideal S1x64 .f32) : FVec Ideal S5000x64 .f32 :=
  maximumf
    (addf (matmul dot_S5000x128_S128x64_S5000x64_1_0_0_1_n_n none
        (truncf .bf16 g bitsLt_bf16_f32) (truncf .bf16 x3 bitsLt_bf16_f32)
        (constant (F := Ideal) S5000x64 .f32 0x00000000#32))
      (broadcastTo S5000x64 (shapeCast S1x64 x4 shapeCasts_S1x64_S1x64) broadcasts_S1x64_S5000x64))
    (broadcast S5000x64 (Scalar.ofBits (F := Ideal) .f32 0x00000000#32))

/-- The third layer: the logits. -/
def kLay3 (g : FVec Ideal S5000x64 .f32) (x5 : Vec Ideal S64x15 .f32) (x6 : Vec Ideal S1x15 .f32) : FVec Ideal S5000x15 .f32 :=
  addf (matmul dot_S5000x64_S64x15_S5000x15_1_0_0_1_n_n none
      (truncf .bf16 g bitsLt_bf16_f32) (truncf .bf16 x5 bitsLt_bf16_f32)
      (constant (F := Ideal) S5000x15 .f32 0x00000000#32))
    (broadcastTo S5000x15 (shapeCast S1x15 x6 shapeCasts_S1x15_S1x15) broadcasts_S1x15_S5000x15)

/-- The shifted exponentials of the logits. -/
def kExp (l : FVec Ideal S5000x15 .f32) : FVec Ideal S5000x15 .f32 :=
  exp (subf l (broadcastTo S5000x15 (shapeCast S5000x1
    (maximumf (broadcast S5000 (Scalar.ofBits (F := Ideal) .f32 0xFF800000#32))
      (multiReduction .maximumf [1] S5000 l 0xFF800000#32 reduces_S5000x15_S5000 (.inl rfl) rfl))
    shapeCasts_S5000_S5000x1) broadcasts_S5000x1_S5000x15))

/-- The body's first term is these stages composed. -/
theorem k12_pay2_eq (x0 : Vec Ideal S5000x128 .f32) (x1 : Vec Ideal S128x128 .f32) (x2 : Vec Ideal S1x128 .f32)
    (x3 : Vec Ideal S128x64 .f32) (x4 : Vec Ideal S1x64 .f32) (x5 : Vec Ideal S64x15 .f32) (x6 : Vec Ideal S1x15 .f32) :
    k12_pay2 (F := Ideal) x0 x1 x2 x3 x4 x5 x6 = kExp (kLay3 (kLay2 (kLay1 x0 x1 x2) x3 x4) x5 x6) := rfl

theorem kLay1_apply (x0 : Vec Ideal S5000x128 .f32) (x1 : Vec Ideal S128x128 .f32) (x2 : Vec Ideal S1x128 .f32)
    (p : Fin 5000) (k : Fin 128) :
    kLay1 x0 x1 x2 (ix2 p k) = reluRow (denseRow (rowOf x0 p) x1 (biasRow x2)) k := by
  unfold kLay1
  rw [shapeCast_self x0]
  exact denseRelu_apply _ rfl x0 x1 x2 _ _ _ p k

theorem kLay2_apply (g : FVec Ideal S5000x128 .f32) (x3 : Vec Ideal S128x64 .f32) (x4 : Vec Ideal S1x64 .f32)
    (p : Fin 5000) (k : Fin 64) :
    kLay2 g x3 x4 (ix2 p k) = reluRow (denseRow (rowOf g p) x3 (biasRow x4)) k := by
  unfold kLay2
  exact denseRelu_apply _ rfl g x3 x4 _ _ _ p k

theorem kLay3_apply (g : FVec Ideal S5000x64 .f32) (x5 : Vec Ideal S64x15 .f32) (x6 : Vec Ideal S1x15 .f32)
    (p : Fin 5000) (k : Fin 15) :
    kLay3 g x5 x6 (ix2 p k) = denseRow (rowOf g p) x5 (biasRow x6) k := by
  unfold kLay3
  exact dense_apply _ rfl g x5 x6 _ _ _ p k

theorem kExp_apply (l : FVec Ideal S5000x15 .f32) (p : Fin 5000) (q : Fin 15) : kExp l (ix2 p q) = expRow (rowOf l p) q := by
  unfold kExp
  exact expK_apply l _ _ _ _ _ p q

/-- Row p of the logits of a block is the logits of row p of the input block. -/
theorem logits_row (x0 : Vec Ideal S5000x128 .f32) (x1 : Vec Ideal S128x128 .f32) (x2 : Vec Ideal S1x128 .f32)
    (x3 : Vec Ideal S128x64 .f32) (x4 : Vec Ideal S1x64 .f32) (x5 : Vec Ideal S64x15 .f32) (x6 : Vec Ideal S1x15 .f32)
    (p : Fin 5000) :
    rowOf (kLay3 (kLay2 (kLay1 x0 x1 x2) x3 x4) x5 x6) p
      = logitsRow (rowOf x0 p) x1 (biasRow x2) x3 (biasRow x4) x5 (biasRow x6) := by
  have h1 : rowOf (kLay1 x0 x1 x2) p = reluRow (denseRow (rowOf x0 p) x1 (biasRow x2)) :=
    funext fun k => kLay1_apply x0 x1 x2 p k
  have h2 : rowOf (kLay2 (kLay1 x0 x1 x2) x3 x4) p = reluRow (denseRow (rowOf (kLay1 x0 x1 x2) p) x3 (biasRow x4)) :=
    funext fun k => kLay2_apply _ x3 x4 p k
  have h3 : rowOf (kLay3 (kLay2 (kLay1 x0 x1 x2) x3 x4) x5 x6) p
      = denseRow (rowOf (kLay2 (kLay1 x0 x1 x2) x3 x4) p) x5 (biasRow x6) :=
    funext fun k => kLay3_apply _ x5 x6 p k
  rw [h3, h2, h1]
  rfl

/-- The body's first term at (p, q): the shifted exponential of the logits of row p. -/
theorem k12_pay2_apply (x0 : Vec Ideal S5000x128 .f32) (x1 : Vec Ideal S128x128 .f32) (x2 : Vec Ideal S1x128 .f32)
    (x3 : Vec Ideal S128x64 .f32) (x4 : Vec Ideal S1x64 .f32) (x5 : Vec Ideal S64x15 .f32) (x6 : Vec Ideal S1x15 .f32)
    (p : Fin 5000) (q : Fin 15) :
    k12_pay2 (F := Ideal) x0 x1 x2 x3 x4 x5 x6 (ix2 p q)
      = expRow (logitsRow (rowOf x0 p) x1 (biasRow x2) x3 (biasRow x4) x5 (biasRow x6)) q := by
  rw [k12_pay2_eq, kExp_apply, logits_row]

/-- The body's second term at (p, q): the entry over its row's sum. -/
theorem k12_pay1_apply (e : FVec Ideal S5000x15 .f32) (p : Fin 5000) (q : Fin 15) :
    k12_pay1 (F := Ideal) e (ix2 p q) = Ideal.div (e (ix2 p q)) (∑ k : Fin 15, e (ix2 p k)) := by
  unfold k12_pay1
  exact normK_apply e _ _ _ _ _ p q

/-- What the body stores, at (p, q): the readout head of row p of the input block, at q. -/
theorem k12_out_apply (x0 : Vec Ideal S5000x128 .f32) (x1 : Vec Ideal S128x128 .f32) (x2 : Vec Ideal S1x128 .f32)
    (x3 : Vec Ideal S128x64 .f32) (x4 : Vec Ideal S1x64 .f32) (x5 : Vec Ideal S64x15 .f32) (x6 : Vec Ideal S1x15 .f32)
    (p : Fin 5000) (q : Fin 15) :
    k12_pay1 (F := Ideal) (k12_pay2 x0 x1 x2 x3 x4 x5 x6) (ix2 p q)
      = headRow (rowOf x0 p) x1 (biasRow x2) x3 (biasRow x4) x5 (biasRow x6) q := by
  rw [k12_pay1_apply, k12_pay2_apply]
  unfold headRow softmaxRow
  exact congrArg (Ideal.div _) (Finset.sum_congr rfl fun k _ => k12_pay2_apply x0 x1 x2 x3 x4 x5 x6 p k)

end Cert.KernelIdeal.Net

end
-- ==== Proof.ReadPoint.lean ====
/-
  One grid point of the readout kernel against the whole array: if the point's input block holds rows
  5000·n … 5000·n + 4999 of an array h, then what the body stores at the block entry j is the row-by-row head of h at
  the array entry that j lands on, (5000·n + j₀, j₁): the body's entry is the head of the block's row j₀, which is
  row 5000·n + j₀ of h.
-/
import proofs.«154953_j22007412425053_2_alg».proof.Proof.ReadBlock

noncomputable section

namespace Cert.KernelIdeal.Net

open Cert.KernelIdeal Cert.KernelIdeal.Gen Idealize.ShloMosaic Idealize.ShloMosaic.ValueIdx Cert.RowDot Cert.Net

theorem point_eq (h : FVec Ideal S100000x128 .f32) (x0 : Vec Ideal S5000x128 .f32) (x1 : Vec Ideal S128x128 .f32)
    (x2 : Vec Ideal S1x128 .f32) (x3 : Vec Ideal S128x64 .f32) (x4 : Vec Ideal S1x64 .f32) (x5 : Vec Ideal S64x15 .f32)
    (x6 : Vec Ideal S1x15 .f32) (n : ℕ)
    (hx : ∀ (y : S5000x128.Idx) (k : S100000x128.Idx), (k 0).val = 5000 * n + (y 0).val → (k 1).val = (y 1).val → x0 y = h k)
    (j : S5000x15.Idx) (i : S100000x15.Idx) (hi0 : (i 0).val = 5000 * n + (j 0).val) (hi1 : (i 1).val = (j 1).val) :
    k12_pay1 (F := Ideal) (k12_pay2 x0 x1 x2 x3 x4 x5 x6) j = Cert.Net.readK h x1 x2 x3 x4 x5 x6 i := by
  obtain ⟨p, q, rfl⟩ : ∃ (p : Fin 5000) (q : Fin 15), j = ix2 p q := ⟨j 0, j 1, eq_ix2 j⟩
  obtain ⟨r, q', rfl⟩ : ∃ (r : Fin 100000) (q' : Fin 15), i = ix2 r q' := ⟨i 0, i 1, eq_ix2 i⟩
  obtain rfl : q' = q := Fin.ext hi1
  have hrow : rowOf x0 p = rowOf h r := funext fun k => hx (ix2 p k) (ix2 r k) hi0 rfl
  rw [k12_out_apply, readK_ix2, hrow]

end Cert.KernelIdeal.Net

end
-- ==== Proof.ReadRegion12.lean ====
/-
  The readout kernel's launch as one function of the arrays it finds: after the twenty grid points have run, the
  output array is the row-by-row readout head of the input arrays.

  Point t fetches rows 5000·t … 5000·t + 4999 of the first operand and the six other operands whole, and writes back
  rows 5000·t … 5000·t + 4999 of the result. What it writes back is the body's stored block, whose entry (p, q) is
  the head of the fetched block's row p; that row is row 5000·t + p of the first operand, so the written block is the
  block of the whole-array function at the same rows. The twenty blocks cover the array (row r lies in the block of
  point r / 5000), hence the array ends as that function.
-/
import proofs.«154953_j22007412425053_2_alg».proof.Proof.Gen.KernelIdeal.Frame
import proofs.«154953_j22007412425053_2_alg».proof.Proof.ReadPoint
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.RowDot Cert.Net
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by fin_cases a <;> rfl

/-- The block index of each window at each of the twenty points: the row-block windows move with the point, the
    other six stay at the origin. -/
theorem idx_facts12 : ∀ t : Fin cfg12.N, win12_0.index t (0 : Fin 2) = t.val
    ∧ win12_0.index t (1 : Fin 2) = 0
    ∧ win12_7.index t (0 : Fin 2) = t.val
    ∧ win12_7.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = 0
    ∧ win12_5.index t (1 : Fin 2) = 0
    ∧ win12_6.index t (0 : Fin 2) = 0
    ∧ win12_6.index t (1 : Fin 2) = 0 :=
  (by decide +kernel : ∀ t : Fin grid12.N, _)

/-- The body's stored block is its two terms composed: one store through the whole staging buffer, of loads through
    the whole staging buffers. -/
theorem out12_7_eq (x0 : Vec Ideal S5000x128 .f32) (x1 : Vec Ideal S128x128 .f32) (x2 : Vec Ideal S1x128 .f32)
    (x3 : Vec Ideal S128x64 .f32) (x4 : Vec Ideal S1x64 .f32) (x5 : Vec Ideal S64x15 .f32) (x6 : Vec Ideal S1x15 .f32) :
    out12_7 (F := Ideal) x0 x1 x2 x3 x4 x5 x6 = k12_pay1 (k12_pay2 x0 x1 x2 x3 x4 x5 x6) := by
  unfold out12_7
  rw [View.canon_unit_zero hz12]
  simp only [View.ld_unit_zero (S := S5000x128) hz12, View.ld_unit_zero (S := S128x128) hz12,
    View.ld_unit_zero (S := S1x128) hz12, View.ld_unit_zero (S := S128x64) hz12, View.ld_unit_zero (S := S1x64) hz12,
    View.ld_unit_zero (S := S64x15) hz12, View.ld_unit_zero (S := S1x15) hz12]

/-- The first window's block at point t is rows 5000·t … 5000·t + 4999 of its array. -/
theorem iblk12_0_apply (c : Dev nD) (t : Fin cfg12.N) (y : S5000x128.Idx) (k : S100000x128.Idx)
    (hk0 : (k 0).val = 5000 * t.val + (y 0).val) (hk1 : (k 1).val = (y 1).val) :
    (iblk12 (F := Ideal) V c 0 t : Vec Ideal S5000x128 .f32) y
      = (V c (Pipeline.arrRef spec12 0) : S100000x128.Idx → Elt Ideal .f32) k := by
  obtain ⟨e00, e01, e70, e71, e10, e11, e20, e21, e30, e31, e40, e41, e50, e51, e60, e61⟩ := idx_facts12 t
  unfold iblk12
  rw [View.read_apply]
  show (V c (Pipeline.arrRef spec12 0) : S100000x128.Idx → Elt Ideal .f32) _ = (V c (Pipeline.arrRef spec12 0) : S100000x128.Idx → Elt Ideal .f32) k
  congr 1
  funext ax
  apply Fin.ext
  match ax with
  | ⟨0, _⟩ => show win12_0.index t (0 : Fin 2) * 5000 + 1 * (y 0).val = (k 0).val; rw [e00, hk0]; omega
  | ⟨1, _⟩ => show win12_0.index t (1 : Fin 2) * 128 + 1 * (y 1).val = (k 1).val; rw [e01, hk1]; omega

/-- Window 1's block is its whole array, at every point. -/
theorem iblk12_1_eq (c : Dev nD) (t : Fin cfg12.N) :
    (iblk12 (F := Ideal) V c 1 t : Vec Ideal S128x128 .f32) = (V c (Pipeline.arrRef spec12 1) : S128x128.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 1) : S128x128.Idx → Elt Ideal .f32) _ = (V c (Pipeline.arrRef spec12 1) : S128x128.Idx → Elt Ideal .f32) x
  congr 1
  funext ax
  apply Fin.ext
  match ax with
  | ⟨0, _⟩ => show win12_1.index t (0 : Fin 2) * 128 + 1 * (x 0).val = (x 0).val; rw [e10]; omega
  | ⟨1, _⟩ => show win12_1.index t (1 : Fin 2) * 128 + 1 * (x 1).val = (x 1).val; rw [e11]; omega

/-- Window 2's block is its whole array, at every point. -/
theorem iblk12_2_eq (c : Dev nD) (t : Fin cfg12.N) :
    (iblk12 (F := Ideal) V c 2 t : Vec Ideal S1x128 .f32) = (V c (Pipeline.arrRef spec12 2) : S1x128.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 2) : S1x128.Idx → Elt Ideal .f32) _ = (V c (Pipeline.arrRef spec12 2) : S1x128.Idx → Elt Ideal .f32) x
  congr 1
  funext ax
  apply Fin.ext
  match ax with
  | ⟨0, _⟩ => show win12_2.index t (0 : Fin 2) * 1 + 1 * (x 0).val = (x 0).val; rw [e20]; omega
  | ⟨1, _⟩ => show win12_2.index t (1 : Fin 2) * 128 + 1 * (x 1).val = (x 1).val; rw [e21]; omega

/-- Window 3's block is its whole array, at every point. -/
theorem iblk12_3_eq (c : Dev nD) (t : Fin cfg12.N) :
    (iblk12 (F := Ideal) V c 3 t : Vec Ideal S128x64 .f32) = (V c (Pipeline.arrRef spec12 3) : S128x64.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 3) : S128x64.Idx → Elt Ideal .f32) _ = (V c (Pipeline.arrRef spec12 3) : S128x64.Idx → Elt Ideal .f32) x
  congr 1
  funext ax
  apply Fin.ext
  match ax with
  | ⟨0, _⟩ => show win12_3.index t (0 : Fin 2) * 128 + 1 * (x 0).val = (x 0).val; rw [e30]; omega
  | ⟨1, _⟩ => show win12_3.index t (1 : Fin 2) * 64 + 1 * (x 1).val = (x 1).val; rw [e31]; omega

/-- Window 4's block is its whole array, at every point. -/
theorem iblk12_4_eq (c : Dev nD) (t : Fin cfg12.N) :
    (iblk12 (F := Ideal) V c 4 t : Vec Ideal S1x64 .f32) = (V c (Pipeline.arrRef spec12 4) : S1x64.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 4) : S1x64.Idx → Elt Ideal .f32) _ = (V c (Pipeline.arrRef spec12 4) : S1x64.Idx → Elt Ideal .f32) x
  congr 1
  funext ax
  apply Fin.ext
  match ax with
  | ⟨0, _⟩ => show win12_4.index t (0 : Fin 2) * 1 + 1 * (x 0).val = (x 0).val; rw [e40]; omega
  | ⟨1, _⟩ => show win12_4.index t (1 : Fin 2) * 64 + 1 * (x 1).val = (x 1).val; rw [e41]; omega

/-- Window 5's block is its whole array, at every point. -/
theorem iblk12_5_eq (c : Dev nD) (t : Fin cfg12.N) :
    (iblk12 (F := Ideal) V c 5 t : Vec Ideal S64x15 .f32) = (V c (Pipeline.arrRef spec12 5) : S64x15.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 5) : S64x15.Idx → Elt Ideal .f32) _ = (V c (Pipeline.arrRef spec12 5) : S64x15.Idx → Elt Ideal .f32) x
  congr 1
  funext ax
  apply Fin.ext
  match ax with
  | ⟨0, _⟩ => show win12_5.index t (0 : Fin 2) * 64 + 1 * (x 0).val = (x 0).val; rw [e50]; omega
  | ⟨1, _⟩ => show win12_5.index t (1 : Fin 2) * 15 + 1 * (x 1).val = (x 1).val; rw [e51]; omega

/-- Window 6's block is its whole array, at every point. -/
theorem iblk12_6_eq (c : Dev nD) (t : Fin cfg12.N) :
    (iblk12 (F := Ideal) V c 6 t : Vec Ideal S1x15 .f32) = (V c (Pipeline.arrRef spec12 6) : S1x15.Idx → Elt Ideal .f32) := by
  obtain ⟨e00, e01, e70, e71, e10, e11, e20, e21, e30, e31, e40, e41, e50, e51, e60, e61⟩ := idx_facts12 t
  funext x
  unfold iblk12
  rw [View.read_apply]
  show (V c (Pipeline.arrRef spec12 6) : S1x15.Idx → Elt Ideal .f32) _ = (V c (Pipeline.arrRef spec12 6) : S1x15.Idx → Elt Ideal .f32) x
  congr 1
  funext ax
  apply Fin.ext
  match ax with
  | ⟨0, _⟩ => show win12_6.index t (0 : Fin 2) * 1 + 1 * (x 0).val = (x 0).val; rw [e60]; omega
  | ⟨1, _⟩ => show win12_6.index t (1 : Fin 2) * 15 + 1 * (x 1).val = (x 1).val; rw [e61]; omega

/-- The whole-array function of the arrays the launch finds. -/
abbrev G12 (c : Dev nD) : Buf (Elt Ideal) ((cfg12.win 7).arr.view.loc (c.tc : Thread nD τ)) :=
  Cert.Net.readK (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6))

/-- What point t writes back is block t of the whole-array function. -/
theorem flushed12_7_eq (c : Dev nD) (t : Fin cfg12.N) :
    (dat12 (F := Ideal) V c).flushed 7 t = ((cfg12.win 7).blk t).view.read (Elt Ideal) (G12 V c) := by
  show (cfg12.win 7).cut (grid12.coords t) ((dat12 (F := Ideal) V c).after 7 t) = _
  rw [after12_7, out12_7_eq, iblk12_1_eq V c t, iblk12_2_eq V c t, iblk12_3_eq V c t, iblk12_4_eq V c t, iblk12_5_eq V c t,
    iblk12_6_eq V c t]
  obtain ⟨e00, e01, e70, e71, e10, e11, e20, e21, e30, e31, e40, e41, e50, e51, e60, e61⟩ := idx_facts12 t
  funext j
  show k12_pay1 (F := Ideal) (k12_pay2 (iblk12 (F := Ideal) V c 0 t) (V c (Pipeline.arrRef spec12 1)) (V c (Pipeline.arrRef spec12 2))
      (V c (Pipeline.arrRef spec12 3)) (V c (Pipeline.arrRef spec12 4)) (V c (Pipeline.arrRef spec12 5)) (V c (Pipeline.arrRef spec12 6))) j
    = Cert.Net.readK (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (((cfg12.win 7).blk t).view.emb j)
  refine point_eq (V c (Pipeline.arrRef spec12 0)) _ _ _ _ _ _ _ t.val
    (fun y k h0 h1 => iblk12_0_apply V c t y k h0 h1) j _ ?_ ?_
  · show win12_7.index t (0 : Fin 2) * 5000 + 1 * (j 0).val = 5000 * t.val + (j 0).val
    rw [e70]; omega
  · show win12_7.index t (1 : Fin 2) * 15 + 1 * (j 1).val = (j 1).val
    rw [e71]; omega

/-- An entry of the result array is in point t's block iff each coordinate is in the block's range on its axis. -/
theorem mem_blk12_7 (t : Fin cfg12.N) (i : S100000x15.Idx) :
    i ∈ ((cfg12.win 7).blk t).view.set ↔ ∀ a : Fin 2, win12_7.index t a * S5000x15.size a ≤ (i a).val
      ∧ (i a).val < win12_7.index t a * S5000x15.size a + S5000x15.size a := by
  show i ∈ ((View.whole main_v187).slice (win12_7.rect t)).set ↔ _
  rw [View.set_slice_whole, Rect.mem_set_unit]
  exact Iff.rfl

/-- Every entry of the result array is written back by some point: row r by point r / 5000. -/
theorem cover12 (i : S100000x15.Idx) :
    ∃ t : Fin cfg12.N, (cfg12.win 7).flush t = true ∧ i ∈ ((cfg12.win 7).blk t).view.set := by
  have hN : cfg12.N = 20 := N_12
  have hi0 : (i 0).val < 100000 := (i 0).isLt
  have hi1 : (i 1).val < 15 := (i 1).isLt
  have ht : (i 0).val / 5000 < cfg12.N := by rw [hN]; omega
  obtain ⟨e00, e01, e70, e71, e10, e11, e20, e21, e30, e31, e40, e41, e50, e51, e60, e61⟩ := idx_facts12 ⟨(i 0).val / 5000, ht⟩
  refine ⟨⟨(i 0).val / 5000, ht⟩, flush12_7 _, ?_⟩
  rw [mem_blk12_7]
  intro a
  match a with
  | ⟨0, _⟩ =>
    show win12_7.index ⟨(i 0).val / 5000, ht⟩ (0 : Fin 2) * 5000 ≤ (i 0).val
      ∧ (i 0).val < win12_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win12_7.index ⟨(i 0).val / 5000, ht⟩ (1 : Fin 2) * 15 ≤ (i 1).val
      ∧ (i 1).val < win12_7.index ⟨(i 0).val / 5000, ht⟩ (1 : Fin 2) * 15 + 15
    rw [e71]
    omega

/-- THE LAUNCH'S RESULT: after the run the result array is the row-by-row readout head of the arrays the launch finds. -/
theorem read_region12 (c : Dev nD) :
    (dat12 (F := Ideal) V c).arrAt 7 cfg12.N
      = Cert.Net.readK (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) :=
  (dat12 (F := Ideal) V c).arrAt_eq_of_cover 7 (G12 V c) (fun t _ => flushed12_7_eq V c t) (fun i => cover12 i)

end Cert.KernelIdeal.Net

end
-- ==== Proof.ReadSpec.lean ====
/-
  The readout head as the whole-array composition of host operations: three matrix products, each followed by its
  bias (a vector of length n viewed as one row, then repeated down the rows) and, for the first two, the rectifier
  (the maximum with a repeated zero); then the stabilised softmax along the 15 columns: the row maximum folded from
  minus infinity, the maximum of that with a repeated minus infinity, the column of maxima repeated across the
  columns and subtracted, the exponential, the row sums from zero, repeated across the columns, and the quotient.
  Every stage is a function of the stages before it; the layers and the softmax are named separately so that a
  statement about one of them never has to open another.
-/
import proofs.«154953_j22007412425053_2_alg».proof.Proof.Gen.ReferenceIdeal
import Idealize.ShloMosaic.PureOps.Ideal.Laws

noncomputable section

namespace Cert.Net

open Cert.ReferenceIdeal Cert.ReferenceIdeal.Gen Idealize.ShloMosaic

/-- The first layer on the whole array: max(h·W1 + b1, 0). -/
def readLay1 (h : FVec Ideal S100000x128 .f32) (W1 : FVec Ideal S128x128 .f32) (b1 : FVec Ideal S128 .f32) :
    FVec Ideal S100000x128 .f32 :=
  maximumf
    (addf (Host.dotGeneral (F := Ideal) dot_S100000x128_S128x128_S100000x128_1_0_0_1_n_n none h W1)
      (broadcastInDim S100000x128 ![0, 1] bcast_S1x128_S100000x128_0_1 (broadcastInDim S1x128 ![1] bcast_S128_S1x128_1 b1)))
    (broadcastInDim S100000x128 ![] bcast_S_S100000x128 (constant (F := Ideal) S_ .f32 0x00000000#32))

/-- The second layer on the whole array: max(g·W2 + b2, 0). -/
def readLay2 (g : FVec Ideal S100000x128 .f32) (W2 : FVec Ideal S128x64 .f32) (b2 : FVec Ideal S64 .f32) :
    FVec Ideal S100000x64 .f32 :=
  maximumf
    (addf (Host.dotGeneral (F := Ideal) dot_S100000x128_S128x64_S100000x64_1_0_0_1_n_n none g W2)
      (broadcastInDim S100000x64 ![0, 1] bcast_S1x64_S100000x64_0_1 (broadcastInDim S1x64 ![1] bcast_S64_S1x64_1 b2)))
    (broadcastInDim S100000x64 ![] bcast_S_S100000x64 (constant (F := Ideal) S_ .f32 0x00000000#32))

/-- The third layer on the whole array: the logits g·W3 + b3. -/
def readLay3 (g : FVec Ideal S100000x64 .f32) (W3 : FVec Ideal S64x15 .f32) (b3 : FVec Ideal S15 .f32) :
    FVec Ideal S100000x15 .f32 :=
  addf (Host.dotGeneral (F := Ideal) dot_S100000x64_S64x15_S100000x15_1_0_0_1_n_n none g W3)
    (broadcastInDim S100000x15 ![0, 1] bcast_S1x15_S100000x15_0_1 (broadcastInDim S1x15 ![1] bcast_S15_S1x15_1 b3))

/-- The shift of the stabilised softmax, one entry per row. -/
def readShift (l : FVec Ideal S100000x15 .f32) : FVec Ideal S100000 .f32 :=
  maximumf (broadcastInDim S100000 ![] bcast_S_S100000 (constant (F := Ideal) S_ .f32 0xFF800000#32))
    (Host.reduce FloatOps.maximumf l (constant (F := Ideal) S_ .f32 0xFF800000#32) reducesTo_S100000x15_S100000_d1 h_S_)

/-- The shifted exponentials. -/
def readExp (l : FVec Ideal S100000x15 .f32) : FVec Ideal S100000x15 .f32 :=
  Host.exp (subf l (broadcastInDim S100000x15 ![0, 1] bcast_S100000x1_S100000x15_0_1
    (broadcastInDim S100000x1 ![0] bcast_S100000_S100000x1_0 (readShift l))))

/-- Each entry over its row's sum. -/
def readNorm (e : FVec Ideal S100000x15 .f32) : FVec Ideal S100000x15 .f32 :=
  Host.divf (F := Ideal) e (broadcastInDim S100000x15 ![0, 1] bcast_S100000x1_S100000x15_0_1
    (broadcastInDim S100000x1 ![0] bcast_S100000_S100000x1_0
      (Host.reduceAdd (F := Ideal) e (constant (F := Ideal) S_ .f32 0x00000000#32) reducesTo_S100000x15_S100000_d1 h_S_)))

/-- The stabilised softmax along the columns. -/
def readSoftmax (l : FVec Ideal S100000x15 .f32) : FVec Ideal S100000x15 .f32 := readNorm (readExp l)

/-- The readout head on the whole array. -/
def read (h : FVec Ideal S100000x128 .f32) (W1 : FVec Ideal S128x128 .f32) (b1 : FVec Ideal S128 .f32)
    (W2 : FVec Ideal S128x64 .f32) (b2 : FVec Ideal S64 .f32) (W3 : FVec Ideal S64x15 .f32) (b3 : FVec Ideal S15 .f32) :
    FVec Ideal S100000x15 .f32 :=
  readSoftmax (readLay3 (readLay2 (readLay1 h W1 b1) W2 b2) W3 b3)

end Cert.Net

end
-- ==== Proof.ReadBridge.lean ====
/-
  The readout head computed on the whole array by host operations is, entry by entry, the row function applied to
  each row: at the entry (r, q) each host operation is read at its index — a matrix product is the sum over the
  contraction index, a bias viewed as one row and repeated down the rows is the bias at the column, the rectifier's
  repeated zero is the zero word, the row reductions are the fold of max and the sum over the 15 columns, the column of
  row values repeated across the columns is the row's value — and what remains is the row function's own text. The
  blockwise computation is handed each bias recast as a one-row matrix; read at a column that recast is the bias there.
-/
import proofs.«154953_j22007412425053_2_alg».proof.Proof.ReadSpec
import proofs.«154953_j22007412425053_2_alg».proof.Proof.ReadRow
import proofs.«154953_j22007412425053_2_alg».proof.Proof.ReadLayout
import Idealize.ShloMosaic.Lib.IdealHost
import Idealize.ShloMosaic.Lib.KernelVsHost

noncomputable section

open scoped BigOperators

namespace Cert.Net

open Cert.ReferenceIdeal Cert.ReferenceIdeal.Gen Idealize.ShloMosaic Idealize.ShloMosaic.ValueIdx Cert.RowDot

/-! ## The host operations at an entry, for any number of rows -/

section Generic
variable {M K N : ℕ}

/-- A dense layer on the whole array: the host's product plus the bias viewed as one row and repeated down the rows. -/
theorem hDense_apply (d : DotDims (⟨2, ![M, K]⟩ : Shape) ⟨2, ![K, N]⟩ ⟨2, ![M, N]⟩) (hd : d = DotDims.plain M K N)
    (g : FVec Ideal (⟨2, ![M, K]⟩ : Shape) .f32) (W : FVec Ideal (⟨2, ![K, N]⟩ : Shape) .f32)
    (b : FVec Ideal (⟨1, ![N]⟩ : Shape) .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) d none g W)
        (broadcastInDim ⟨2, ![M, N]⟩ ![0, 1] h2 (broadcastInDim ⟨2, ![1, N]⟩ ![1] h1 b)) (ix2 p q)
      = denseRow (rowOf g p) W (fun k => b (ix1 k)) q := by
  subst hd
  rw [addf_apply, broadcastInDim_oneRow_apply, bcastRow_apply]
  exact congrArg (· + b (ix1 q)) (dotGeneral_plain_apply none .single g W (ix2 p q))

/-- The same followed by the rectifier: the maximum with the zero word repeated over the array. -/
theorem hDenseRelu_apply (d : DotDims (⟨2, ![M, K]⟩ : Shape) ⟨2, ![K, N]⟩ ⟨2, ![M, N]⟩) (hd : d = DotDims.plain M K N)
    (g : FVec Ideal (⟨2, ![M, K]⟩ : Shape) .f32) (W : FVec Ideal (⟨2, ![K, N]⟩ : Shape) .f32)
    (b : FVec Ideal (⟨1, ![N]⟩ : Shape) .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf
        (addf (Host.dotGeneral (F := Ideal) d none g W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = reluRow (denseRow (rowOf g p) W (fun k => b (ix1 k))) q := by
  rw [maximumf_apply, hDense_apply d hd, broadcastInDim_scalar_apply]
  rfl

/-- The host's row maximum, folded from the initial value. -/
theorem hRowFold_apply (l : FVec Ideal (⟨2, ![M, N]⟩ : Shape) .f32) (init : (⟨0, ![]⟩ : Shape).Idx → EReal)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduce (FloatOps.maximumf (F := Ideal) (φ := .f32)) l init h' hu (ix1 p)
      = (Finset.univ : Finset (Fin N)).fold max (init (Shape.Idx.first hu)) (rowOf l p) := by
  refine (Host.reduce_eq_fold_single (FloatOps.maximumf (F := Ideal) (φ := .f32)) l init h' h hu (ix1 p)).trans ?_
  have e : (l ∘ h.lift (ix1 p)) = rowOf l p := funext fun k => congrArg l (lift_row h p k)
  rw [e]
  rfl

/-- The host's row sum from the initial value. -/
theorem hRowSum_apply (e : FVec Ideal (⟨2, ![M, N]⟩ : Shape) .f32) (init : (⟨0, ![]⟩ : Shape).Idx → EReal)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduceAdd (F := Ideal) e init h' hu (ix1 p) = init (Shape.Idx.first hu) + ∑ k : Fin N, e (ix2 p k) := by
  rw [hostReduceAdd_apply, Ideal.hostReduceAdd_single h' h]
  exact congrArg (init (Shape.Idx.first hu) + ·) (Finset.sum_congr rfl fun k _ => congrArg e (lift_row h p k))

end Generic

/-! ## The stages of the whole-array head at an entry -/

theorem readLay1_apply (h : FVec Ideal S100000x128 .f32) (W1 : FVec Ideal S128x128 .f32) (b1 : FVec Ideal S128 .f32)
    (r : Fin 100000) (k : Fin 128) :
    readLay1 h W1 b1 (ix2 r k) = reluRow (denseRow (rowOf h r) W1 (fun k => b1 (ix1 k))) k := by
  unfold readLay1
  exact hDenseRelu_apply _ rfl h W1 b1 _ _ _ r k

theorem readLay2_apply (g : FVec Ideal S100000x128 .f32) (W2 : FVec Ideal S128x64 .f32) (b2 : FVec Ideal S64 .f32)
    (r : Fin 100000) (k : Fin 64) :
    readLay2 g W2 b2 (ix2 r k) = reluRow (denseRow (rowOf g r) W2 (fun k => b2 (ix1 k))) k := by
  unfold readLay2
  exact hDenseRelu_apply _ rfl g W2 b2 _ _ _ r k

theorem readLay3_apply (g : FVec Ideal S100000x64 .f32) (W3 : FVec Ideal S64x15 .f32) (b3 : FVec Ideal S15 .f32)
    (r : Fin 100000) (k : Fin 15) :
    readLay3 g W3 b3 (ix2 r k) = denseRow (rowOf g r) W3 (fun k => b3 (ix1 k)) k := by
  unfold readLay3
  exact hDense_apply _ rfl g W3 b3 _ _ r k

/-- Row r of the whole array's logits is the logits of row r. -/
theorem readLogits_row (h : FVec Ideal S100000x128 .f32) (W1 : FVec Ideal S128x128 .f32) (b1 : FVec Ideal S128 .f32)
    (W2 : FVec Ideal S128x64 .f32) (b2 : FVec Ideal S64 .f32) (W3 : FVec Ideal S64x15 .f32) (b3 : FVec Ideal S15 .f32)
    (r : Fin 100000) :
    rowOf (readLay3 (readLay2 (readLay1 h W1 b1) W2 b2) W3 b3) r
      = logitsRow (rowOf h r) W1 (fun k => b1 (ix1 k)) W2 (fun k => b2 (ix1 k)) W3 (fun k => b3 (ix1 k)) := by
  have h1 : rowOf (readLay1 h W1 b1) r = reluRow (denseRow (rowOf h r) W1 (fun k => b1 (ix1 k))) :=
    funext fun k => readLay1_apply h W1 b1 r k
  have h2 : rowOf (readLay2 (readLay1 h W1 b1) W2 b2) r
      = reluRow (denseRow (rowOf (readLay1 h W1 b1) r) W2 (fun k => b2 (ix1 k))) :=
    funext fun k => readLay2_apply _ W2 b2 r k
  have h3 : rowOf (readLay3 (readLay2 (readLay1 h W1 b1) W2 b2) W3 b3) r
      = denseRow (rowOf (readLay2 (readLay1 h W1 b1) W2 b2) r) W3 (fun k => b3 (ix1 k)) :=
    funext fun k => readLay3_apply _ W3 b3 r k
  rw [h3, h2, h1]
  rfl

theorem reduces_rows : S100000x15.Reduces [1] S100000 := by decide

/-- The shift of row r. -/
theorem readShift_apply (l : FVec Ideal S100000x15 .f32) (r : Fin 100000) : readShift l (ix1 r) = rowMax (rowOf l r) := by
  unfold readShift
  rw [maximumf_apply, broadcastInDim_scalar_apply, hRowFold_apply l _ _ reduces_rows]
  rfl

/-- The shifted exponentials at (r, q). -/
theorem readExp_apply (l : FVec Ideal S100000x15 .f32) (r : Fin 100000) (q : Fin 15) :
    readExp l (ix2 r q) = expRow (rowOf l r) q := by
  unfold readExp
  show Ideal.exp (l (ix2 r q) - _) = Ideal.exp (l (ix2 r q) - rowMax (rowOf l r))
  rw [bcastColRep_apply, bcastCol_apply, readShift_apply]

/-- The normalisation at (r, q). -/
theorem readNorm_apply (e : FVec Ideal S100000x15 .f32) (r : Fin 100000) (q : Fin 15) :
    readNorm e (ix2 r q) = Ideal.div (e (ix2 r q)) (∑ k : Fin 15, e (ix2 r k)) := by
  unfold readNorm
  rw [hostDivf_apply, bcastColRep_apply, bcastCol_apply, hRowSum_apply e _ _ reduces_rows]
  refine congrArg (Ideal.div (e (ix2 r q))) ?_
  show Ideal.ofBits .f32 0x00000000#32 + _ = _
  rw [Ideal.ofBits_zero_f32, zero_add]

/-- The whole-array head at (r, q): the readout head of row r, at q, with the biases as vectors. -/
theorem read_apply (h : FVec Ideal S100000x128 .f32) (W1 : FVec Ideal S128x128 .f32) (b1 : FVec Ideal S128 .f32)
    (W2 : FVec Ideal S128x64 .f32) (b2 : FVec Ideal S64 .f32) (W3 : FVec Ideal S64x15 .f32) (b3 : FVec Ideal S15 .f32)
    (r : Fin 100000) (q : Fin 15) :
    read h W1 b1 W2 b2 W3 b3 (ix2 r q)
      = headRow (rowOf h r) W1 (fun k => b1 (ix1 k)) W2 (fun k => b2 (ix1 k)) W3 (fun k => b3 (ix1 k)) q := by
  unfold read readSoftmax
  rw [readNorm_apply, readExp_apply, readLogits_row]
  unfold headRow softmaxRow
  refine congrArg (Ideal.div _) (Finset.sum_congr rfl fun k _ => ?_)
  rw [readExp_apply, readLogits_row]

/-- A bias recast as a one-row matrix, read at a column, is the bias there. -/
theorem biasRow_shapeCast {n : ℕ} (b : (⟨1, ![n]⟩ : Shape).Idx → EReal) (hc : (⟨1, ![n]⟩ : Shape).ShapeCasts ⟨2, ![1, n]⟩) :
    biasRow (shapeCast ⟨2, ![1, n]⟩ b hc) = fun k => b (ix1 k) :=
  funext fun k => shapeCast_a_1a_apply b hc (0 : Fin 1) k

/-- THE BRIDGE: the row-by-row head, handed the three biases recast as one-row matrices, is the whole-array head. -/
theorem read_bridge (h : FVec Ideal S100000x128 .f32) (W1 : FVec Ideal S128x128 .f32) (b1 : FVec Ideal S128 .f32)
    (W2 : FVec Ideal S128x64 .f32) (b2 : FVec Ideal S64 .f32) (W3 : FVec Ideal S64x15 .f32) (b3 : FVec Ideal S15 .f32)
    (hc1 : S128.ShapeCasts S1x128) (hc2 : S64.ShapeCasts S1x64) (hc3 : S15.ShapeCasts S1x15) :
    readK h W1 (shapeCast S1x128 b1 hc1) W2 (shapeCast S1x64 b2 hc2) W3 (shapeCast S1x15 b3 hc3)
      = read h W1 b1 W2 b2 W3 b3 := by
  funext i
  obtain ⟨r, q, rfl⟩ : ∃ (r : Fin 100000) (q : Fin 15), i = ix2 r q := ⟨i 0, i 1, eq_ix2 i⟩
  rw [readK_ix2, read_apply, biasRow_shapeCast, biasRow_shapeCast, biasRow_shapeCast]

end Cert.Net

end
-- ==== Proof.ReadRef.lean ====
/-
  The reference's last stage is the whole-array readout head of its final connection state: the stages after that
  state are, one for one, the operations the head is composed of, applied to the same operands.
-/
import proofs.«154953_j22007412425053_2_alg».proof.Proof.RefRead
import proofs.«154953_j22007412425053_2_alg».proof.Proof.ReadSpec

noncomputable section

namespace Cert.Net

open Cert.ReferenceIdeal Cert.ReferenceIdeal.Gen Cert.ReferenceIdeal.Read Idealize.ShloMosaic

theorem read_ref_v453 (x0 : (⟨S100000x10, .f32⟩ : BufTy).Contents (Elt Ideal)) (x1 x2 x3 x4 : (⟨S200000, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 x10 : (⟨S128x384, .f32⟩ : BufTy).Contents (Elt Ideal)) (x11 : (⟨S2x384, .f32⟩ : BufTy).Contents (Elt Ideal)) (x12 x13 : (⟨S128x384, .f32⟩ : BufTy).Contents (Elt Ideal)) (x14 : (⟨S2x384, .f32⟩ : BufTy).Contents (Elt Ideal)) (x15 : (⟨S128x128, .f32⟩ : BufTy).Contents (Elt Ideal)) (x16 : (⟨S128, .f32⟩ : BufTy).Contents (Elt Ideal)) (x17 : (⟨S128x64, .f32⟩ : BufTy).Contents (Elt Ideal)) (x18 : (⟨S64, .f32⟩ : BufTy).Contents (Elt Ideal)) (x19 : (⟨S64x15, .f32⟩ : BufTy).Contents (Elt Ideal)) (x20 : (⟨S15, .f32⟩ : BufTy).Contents (Elt Ideal)) :
    val_main_v453 (F := Ideal) x0 x1 x2 x3 x4 x5 x6 x7 x8 x9 x10 x11 x12 x13 x14 x15 x16 x17 x18 x19 x20
      = read (val_main_v428 (F := Ideal) x0 x1 x2 x3 x4 x5 x6 x7 x8 x9 x10 x11 x12 x13 x14) x15 x16 x17 x18 x19 x20 := by
  unfold val_main_v453 val_main_v452 val_main_v451 val_main_v450 val_main_cst_80 val_main_v449 val_main_v448 val_main_v447
    val_main_v446 val_main_v445 val_main_v444 val_main_cst_79 val_main_v443 val_main_cst_78 val_main_v442 val_main_v441
    val_main_v440 val_main_v439 val_main_v438 val_main_call7_v0 val_main_call7_cst val_main_v437 val_main_v436 val_main_v435
    val_main_v434 val_main_v433 val_main_call6_v0 val_main_call6_cst val_main_v432 val_main_v431 val_main_v430 val_main_v429
  rfl

end Cert.Net

end
-- ==== Proof.FoldC.lean ====
/-
  The idealized kernel program's buffer contents, boundary by boundary (boundaries 17 to 26: the third step and the readout).
  The program is a chain: a stretch of host operations, a kernel launch, a stretch, a launch, ... Each theorem says what one
  buffer holds at one boundary, as the value the reference program computes at the corresponding stage (a function of
  the arguments), or as the host operation's own term of the arguments. Three kinds of step: a buffer the segment does
  not write keeps its contents; a buffer a stretch writes holds its operations' composition of the stretch's inputs,
  which is the reference's stage spelt with the same operations (a change of float format is the identity on extended
  reals); a launch's output array is the kernel's whole-array function of its input arrays, which the bridge lemmas
  identify with the reference's block.
-/
import proofs.«154953_j22007412425053_2_alg».proof.Proof.FoldB
import proofs.«154953_j22007412425053_2_alg».proof.Proof.MsgRegion8
import proofs.«154953_j22007412425053_2_alg».proof.Proof.GruRegion11
import proofs.«154953_j22007412425053_2_alg».proof.Proof.ReadRegion12
import proofs.«154953_j22007412425053_2_alg».proof.Proof.ReadBridge
import proofs.«154953_j22007412425053_2_alg».proof.Proof.ReadRef
import Idealize.ShloMosaic.PureOps.Ideal

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg) (c : Dev nD)

theorem f17_arg2 : W17 (F := Ideal) m ρ c (Proc.devRef .tc main_arg2) = A2 m c :=
  (keepH8 m ρ c main_arg2 (by decide)).trans (f16_arg2 m ρ c)
theorem f17_arg12 : W17 (F := Ideal) m ρ c (Proc.devRef .tc main_arg12) = A12 m c :=
  (keepH8 m ρ c main_arg12 (by decide)).trans (f16_arg12 m ρ c)
theorem f17_arg13 : W17 (F := Ideal) m ρ c (Proc.devRef .tc main_arg13) = A13 m c :=
  (keepH8 m ρ c main_arg13 (by decide)).trans (f16_arg13 m ρ c)
theorem f17_arg14 : W17 (F := Ideal) m ρ c (Proc.devRef .tc main_arg14) = A14 m c :=
  (keepH8 m ρ c main_arg14 (by decide)).trans (f16_arg14 m ρ c)
theorem f17_arg15 : W17 (F := Ideal) m ρ c (Proc.devRef .tc main_arg15) = A15 m c :=
  (keepH8 m ρ c main_arg15 (by decide)).trans (f16_arg15 m ρ c)
theorem f17_arg16 : W17 (F := Ideal) m ρ c (Proc.devRef .tc main_arg16) = A16 m c :=
  (keepH8 m ρ c main_arg16 (by decide)).trans (f16_arg16 m ρ c)
theorem f17_arg17 : W17 (F := Ideal) m ρ c (Proc.devRef .tc main_arg17) = A17 m c :=
  (keepH8 m ρ c main_arg17 (by decide)).trans (f16_arg17 m ρ c)
theorem f17_arg18 : W17 (F := Ideal) m ρ c (Proc.devRef .tc main_arg18) = A18 m c :=
  (keepH8 m ρ c main_arg18 (by decide)).trans (f16_arg18 m ρ c)
theorem f17_arg19 : W17 (F := Ideal) m ρ c (Proc.devRef .tc main_arg19) = A19 m c :=
  (keepH8 m ρ c main_arg19 (by decide)).trans (f16_arg19 m ρ c)
theorem f17_arg20 : W17 (F := Ideal) m ρ c (Proc.devRef .tc main_arg20) = A20 m c :=
  (keepH8 m ρ c main_arg20 (by decide)).trans (f16_arg20 m ρ c)
theorem f17_v3 : W17 (F := Ideal) m ρ c (Proc.devRef .tc main_v3) = (((extractStridedSlice S128x128 ![0, 0] · slices_S256x128_S128x128_0_0)) (A5 m c)) :=
  (keepH8 m ρ c main_v3 (by decide)).trans (f16_v3 m ρ c)
theorem f17_v4 : W17 (F := Ideal) m ρ c (Proc.devRef .tc main_v4) = (((extractStridedSlice S128x128 ![128, 0] · slices_S256x128_S128x128_128_0)) (A5 m c)) :=
  (keepH8 m ρ c main_v4 (by decide)).trans (f16_v4 m ρ c)
theorem f17_v21 : W17 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH8 m ρ c main_v21 (by decide)).trans (f16_v21 m ρ c)
theorem f17_v129 : W17 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (keepH8 m ρ c main_v129 (by decide)).trans (f16_v129 m ρ c)
set_option maxHeartbeats 2000000 in
theorem f17_v138 : W17 (F := Ideal) m ρ c (Proc.devRef .tc main_v138) = Cert.ReferenceIdeal.Read.val_main_v293 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps8 (W16 m ρ c) (Proc.devRef .tc main_v138) = _
  after_results_simp
  all_goals (try simp only [f16_v122 m ρ c, f16_arg1 m ρ c])
  all_goals rfl
set_option maxHeartbeats 2000000 in
theorem f17_v145 : W17 (F := Ideal) m ρ c (Proc.devRef .tc main_v145) = Cert.ReferenceIdeal.Read.val_main_v300 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps8 (W16 m ρ c) (Proc.devRef .tc main_v145) = _
  after_results_simp
  all_goals (try simp only [f16_v129 m ρ c, f16_arg2 m ρ c])
  all_goals rfl
set_option maxHeartbeats 2000000 in
theorem f17_v146 : W17 (F := Ideal) m ρ c (Proc.devRef .tc main_v146) = (shapeCast S1x128 (A6 m c) shapeCasts_S128_S1x128) := by
  show StableHlo.after hostOps8 (W16 m ρ c) (Proc.devRef .tc main_v146) = _
  after_results_simp
  all_goals (try simp only [f16_arg6 m ρ c])
  all_goals rfl
theorem f18_arg2 : W18 (F := Ideal) m ρ c (Proc.devRef .tc main_arg2) = A2 m c :=
  (W18_of_ne m ρ c main_arg2 (by decide)).trans (f17_arg2 m ρ c)
theorem f18_arg12 : W18 (F := Ideal) m ρ c (Proc.devRef .tc main_arg12) = A12 m c :=
  (W18_of_ne m ρ c main_arg12 (by decide)).trans (f17_arg12 m ρ c)
theorem f18_arg13 : W18 (F := Ideal) m ρ c (Proc.devRef .tc main_arg13) = A13 m c :=
  (W18_of_ne m ρ c main_arg13 (by decide)).trans (f17_arg13 m ρ c)
theorem f18_arg14 : W18 (F := Ideal) m ρ c (Proc.devRef .tc main_arg14) = A14 m c :=
  (W18_of_ne m ρ c main_arg14 (by decide)).trans (f17_arg14 m ρ c)
theorem f18_arg15 : W18 (F := Ideal) m ρ c (Proc.devRef .tc main_arg15) = A15 m c :=
  (W18_of_ne m ρ c main_arg15 (by decide)).trans (f17_arg15 m ρ c)
theorem f18_arg16 : W18 (F := Ideal) m ρ c (Proc.devRef .tc main_arg16) = A16 m c :=
  (W18_of_ne m ρ c main_arg16 (by decide)).trans (f17_arg16 m ρ c)
theorem f18_arg17 : W18 (F := Ideal) m ρ c (Proc.devRef .tc main_arg17) = A17 m c :=
  (W18_of_ne m ρ c main_arg17 (by decide)).trans (f17_arg17 m ρ c)
theorem f18_arg18 : W18 (F := Ideal) m ρ c (Proc.devRef .tc main_arg18) = A18 m c :=
  (W18_of_ne m ρ c main_arg18 (by decide)).trans (f17_arg18 m ρ c)
theorem f18_arg19 : W18 (F := Ideal) m ρ c (Proc.devRef .tc main_arg19) = A19 m c :=
  (W18_of_ne m ρ c main_arg19 (by decide)).trans (f17_arg19 m ρ c)
theorem f18_arg20 : W18 (F := Ideal) m ρ c (Proc.devRef .tc main_arg20) = A20 m c :=
  (W18_of_ne m ρ c main_arg20 (by decide)).trans (f17_arg20 m ρ c)
theorem f18_v21 : W18 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W18_of_ne m ρ c main_v21 (by decide)).trans (f17_v21 m ρ c)
theorem f18_v129 : W18 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (W18_of_ne m ρ c main_v129 (by decide)).trans (f17_v129 m ρ c)
set_option maxHeartbeats 4000000 in
theorem f18_v147 : W18 (F := Ideal) m ρ c (Proc.devRef .tc main_v147) = Cert.ReferenceIdeal.Read.val_main_v306 (F := Ideal) (A0 m c) (A1 m c) (A2 m c) (A3 m c) (A4 m c) (A5 m c) (A6 m c) (A7 m c) (A8 m c) (A9 m c) (A10 m c) (A11 m c) (A12 m c) (A13 m c) (A14 m c) := by
  refine (W18_arr m ρ c 5).trans ?_
  refine (Cert.KernelIdeal.Net.msg_region8 (V17 m ρ) c).trans ?_
  rw [show V17 (F := Ideal) m ρ c (Pipeline.arrRef spec8 0) = _ from f17_v138 m ρ c,
      show V17 (F := Ideal) m ρ c (Pipeline.arrRef spec8 1) = _ from f17_v145 m ρ c,
      show V17 (F := Ideal) m ρ c (Pipeline.arrRef spec8 2) = _ from f17_v3 m ρ c,
      show V17 (F := Ideal) m ρ c (Pipeline.arrRef spec8 3) = _ from f17_v4 m ρ c,
      show V17 (F := Ideal) m ρ c (Pipeline.arrRef spec8 4) = _ from f17_v146 m ρ c]
  exact (Cert.Net.msg_bridge _ _ _ _).trans (Cert.Net.msg_ref_v306 (A0 m c) (A1 m c) (A2 m c) (A3 m c) (A4 m c) (A5 m c) (A6 m c) (A7 m c) (A8 m c) (A9 m c) (A10 m c) (A11 m c) (A12 m c) (A13 m c) (A14 m c)).symm
theorem f19_arg12 : W19 (F := Ideal) m ρ c (Proc.devRef .tc main_arg12) = A12 m c :=
  (keepH9 m ρ c main_arg12 (by decide)).trans (f18_arg12 m ρ c)
theorem f19_arg13 : W19 (F := Ideal) m ρ c (Proc.devRef .tc main_arg13) = A13 m c :=
  (keepH9 m ρ c main_arg13 (by decide)).trans (f18_arg13 m ρ c)
theorem f19_arg14 : W19 (F := Ideal) m ρ c (Proc.devRef .tc main_arg14) = A14 m c :=
  (keepH9 m ρ c main_arg14 (by decide)).trans (f18_arg14 m ρ c)
theorem f19_arg15 : W19 (F := Ideal) m ρ c (Proc.devRef .tc main_arg15) = A15 m c :=
  (keepH9 m ρ c main_arg15 (by decide)).trans (f18_arg15 m ρ c)
theorem f19_arg16 : W19 (F := Ideal) m ρ c (Proc.devRef .tc main_arg16) = A16 m c :=
  (keepH9 m ρ c main_arg16 (by decide)).trans (f18_arg16 m ρ c)
theorem f19_arg17 : W19 (F := Ideal) m ρ c (Proc.devRef .tc main_arg17) = A17 m c :=
  (keepH9 m ρ c main_arg17 (by decide)).trans (f18_arg17 m ρ c)
theorem f19_arg18 : W19 (F := Ideal) m ρ c (Proc.devRef .tc main_arg18) = A18 m c :=
  (keepH9 m ρ c main_arg18 (by decide)).trans (f18_arg18 m ρ c)
theorem f19_arg19 : W19 (F := Ideal) m ρ c (Proc.devRef .tc main_arg19) = A19 m c :=
  (keepH9 m ρ c main_arg19 (by decide)).trans (f18_arg19 m ρ c)
theorem f19_arg20 : W19 (F := Ideal) m ρ c (Proc.devRef .tc main_arg20) = A20 m c :=
  (keepH9 m ρ c main_arg20 (by decide)).trans (f18_arg20 m ρ c)
theorem f19_v21 : W19 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH9 m ρ c main_v21 (by decide)).trans (f18_v21 m ρ c)
theorem f19_v129 : W19 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (keepH9 m ρ c main_v129 (by decide)).trans (f18_v129 m ρ c)
set_option maxHeartbeats 2000000 in
theorem f19_v150 : W19 (F := Ideal) m ρ c (Proc.devRef .tc main_v150) = Cert.ReferenceIdeal.Read.val_main_v309 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps9 (W18 m ρ c) (Proc.devRef .tc main_v150) = _
  after_results_simp
  all_goals (try simp only [f18_arg2 m ρ c, f18_v147 m ρ c])
  all_goals rfl
theorem f20_arg12 : W20 (F := Ideal) m ρ c (Proc.devRef .tc main_arg12) = A12 m c :=
  (W20_of_ne m ρ c main_arg12 (by decide)).trans (f19_arg12 m ρ c)
theorem f20_arg13 : W20 (F := Ideal) m ρ c (Proc.devRef .tc main_arg13) = A13 m c :=
  (W20_of_ne m ρ c main_arg13 (by decide)).trans (f19_arg13 m ρ c)
theorem f20_arg14 : W20 (F := Ideal) m ρ c (Proc.devRef .tc main_arg14) = A14 m c :=
  (W20_of_ne m ρ c main_arg14 (by decide)).trans (f19_arg14 m ρ c)
theorem f20_arg15 : W20 (F := Ideal) m ρ c (Proc.devRef .tc main_arg15) = A15 m c :=
  (W20_of_ne m ρ c main_arg15 (by decide)).trans (f19_arg15 m ρ c)
theorem f20_arg16 : W20 (F := Ideal) m ρ c (Proc.devRef .tc main_arg16) = A16 m c :=
  (W20_of_ne m ρ c main_arg16 (by decide)).trans (f19_arg16 m ρ c)
theorem f20_arg17 : W20 (F := Ideal) m ρ c (Proc.devRef .tc main_arg17) = A17 m c :=
  (W20_of_ne m ρ c main_arg17 (by decide)).trans (f19_arg17 m ρ c)
theorem f20_arg18 : W20 (F := Ideal) m ρ c (Proc.devRef .tc main_arg18) = A18 m c :=
  (W20_of_ne m ρ c main_arg18 (by decide)).trans (f19_arg18 m ρ c)
theorem f20_arg19 : W20 (F := Ideal) m ρ c (Proc.devRef .tc main_arg19) = A19 m c :=
  (W20_of_ne m ρ c main_arg19 (by decide)).trans (f19_arg19 m ρ c)
theorem f20_arg20 : W20 (F := Ideal) m ρ c (Proc.devRef .tc main_arg20) = A20 m c :=
  (W20_of_ne m ρ c main_arg20 (by decide)).trans (f19_arg20 m ρ c)
theorem f20_v21 : W20 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W20_of_ne m ρ c main_v21 (by decide)).trans (f19_v21 m ρ c)
theorem f20_v129 : W20 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (W20_of_ne m ρ c main_v129 (by decide)).trans (f19_v129 m ρ c)
theorem f20_v150 : W20 (F := Ideal) m ρ c (Proc.devRef .tc main_v150) = Cert.ReferenceIdeal.Read.val_main_v309 (F := Ideal) (A0 m c) (A1 m c) (A2 m c) (A3 m c) (A4 m c) (A5 m c) (A6 m c) (A7 m c) (A8 m c) (A9 m c) (A10 m c) (A11 m c) (A12 m c) (A13 m c) (A14 m c) :=
  (W20_of_ne m ρ c main_v150 (by decide)).trans (f19_v150 m ρ c)
theorem f21_arg12 : W21 (F := Ideal) m ρ c (Proc.devRef .tc main_arg12) = A12 m c :=
  (keepH10 m ρ c main_arg12 (by decide)).trans (f20_arg12 m ρ c)
theorem f21_arg13 : W21 (F := Ideal) m ρ c (Proc.devRef .tc main_arg13) = A13 m c :=
  (keepH10 m ρ c main_arg13 (by decide)).trans (f20_arg13 m ρ c)
theorem f21_arg14 : W21 (F := Ideal) m ρ c (Proc.devRef .tc main_arg14) = A14 m c :=
  (keepH10 m ρ c main_arg14 (by decide)).trans (f20_arg14 m ρ c)
theorem f21_arg15 : W21 (F := Ideal) m ρ c (Proc.devRef .tc main_arg15) = A15 m c :=
  (keepH10 m ρ c main_arg15 (by decide)).trans (f20_arg15 m ρ c)
theorem f21_arg16 : W21 (F := Ideal) m ρ c (Proc.devRef .tc main_arg16) = A16 m c :=
  (keepH10 m ρ c main_arg16 (by decide)).trans (f20_arg16 m ρ c)
theorem f21_arg17 : W21 (F := Ideal) m ρ c (Proc.devRef .tc main_arg17) = A17 m c :=
  (keepH10 m ρ c main_arg17 (by decide)).trans (f20_arg17 m ρ c)
theorem f21_arg18 : W21 (F := Ideal) m ρ c (Proc.devRef .tc main_arg18) = A18 m c :=
  (keepH10 m ρ c main_arg18 (by decide)).trans (f20_arg18 m ρ c)
theorem f21_arg19 : W21 (F := Ideal) m ρ c (Proc.devRef .tc main_arg19) = A19 m c :=
  (keepH10 m ρ c main_arg19 (by decide)).trans (f20_arg19 m ρ c)
theorem f21_arg20 : W21 (F := Ideal) m ρ c (Proc.devRef .tc main_arg20) = A20 m c :=
  (keepH10 m ρ c main_arg20 (by decide)).trans (f20_arg20 m ρ c)
theorem f21_v21 : W21 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH10 m ρ c main_v21 (by decide)).trans (f20_v21 m ρ c)
theorem f21_v129 : W21 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (keepH10 m ρ c main_v129 (by decide)).trans (f20_v129 m ρ c)
theorem f21_v150 : W21 (F := Ideal) m ρ c (Proc.devRef .tc main_v150) = Cert.ReferenceIdeal.Read.val_main_v309 (F := Ideal) (A0 m c) (A1 m c) (A2 m c) (A3 m c) (A4 m c) (A5 m c) (A6 m c) (A7 m c) (A8 m c) (A9 m c) (A10 m c) (A11 m c) (A12 m c) (A13 m c) (A14 m c) :=
  (keepH10 m ρ c main_v150 (by decide)).trans (f20_v150 m ρ c)
theorem f22_arg12 : W22 (F := Ideal) m ρ c (Proc.devRef .tc main_arg12) = A12 m c :=
  (W22_of_ne m ρ c main_arg12 (by decide)).trans (f21_arg12 m ρ c)
theorem f22_arg13 : W22 (F := Ideal) m ρ c (Proc.devRef .tc main_arg13) = A13 m c :=
  (W22_of_ne m ρ c main_arg13 (by decide)).trans (f21_arg13 m ρ c)
theorem f22_arg14 : W22 (F := Ideal) m ρ c (Proc.devRef .tc main_arg14) = A14 m c :=
  (W22_of_ne m ρ c main_arg14 (by decide)).trans (f21_arg14 m ρ c)
theorem f22_arg15 : W22 (F := Ideal) m ρ c (Proc.devRef .tc main_arg15) = A15 m c :=
  (W22_of_ne m ρ c main_arg15 (by decide)).trans (f21_arg15 m ρ c)
theorem f22_arg16 : W22 (F := Ideal) m ρ c (Proc.devRef .tc main_arg16) = A16 m c :=
  (W22_of_ne m ρ c main_arg16 (by decide)).trans (f21_arg16 m ρ c)
theorem f22_arg17 : W22 (F := Ideal) m ρ c (Proc.devRef .tc main_arg17) = A17 m c :=
  (W22_of_ne m ρ c main_arg17 (by decide)).trans (f21_arg17 m ρ c)
theorem f22_arg18 : W22 (F := Ideal) m ρ c (Proc.devRef .tc main_arg18) = A18 m c :=
  (W22_of_ne m ρ c main_arg18 (by decide)).trans (f21_arg18 m ρ c)
theorem f22_arg19 : W22 (F := Ideal) m ρ c (Proc.devRef .tc main_arg19) = A19 m c :=
  (W22_of_ne m ρ c main_arg19 (by decide)).trans (f21_arg19 m ρ c)
theorem f22_arg20 : W22 (F := Ideal) m ρ c (Proc.devRef .tc main_arg20) = A20 m c :=
  (W22_of_ne m ρ c main_arg20 (by decide)).trans (f21_arg20 m ρ c)
theorem f22_v21 : W22 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (W22_of_ne m ρ c main_v21 (by decide)).trans (f21_v21 m ρ c)
theorem f22_v129 : W22 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (W22_of_ne m ρ c main_v129 (by decide)).trans (f21_v129 m ρ c)
theorem f22_v150 : W22 (F := Ideal) m ρ c (Proc.devRef .tc main_v150) = Cert.ReferenceIdeal.Read.val_main_v309 (F := Ideal) (A0 m c) (A1 m c) (A2 m c) (A3 m c) (A4 m c) (A5 m c) (A6 m c) (A7 m c) (A8 m c) (A9 m c) (A10 m c) (A11 m c) (A12 m c) (A13 m c) (A14 m c) :=
  (W22_of_ne m ρ c main_v150 (by decide)).trans (f21_v150 m ρ c)
theorem f23_arg12 : W23 (F := Ideal) m ρ c (Proc.devRef .tc main_arg12) = A12 m c :=
  (keepH11 m ρ c main_arg12 (by decide)).trans (f22_arg12 m ρ c)
theorem f23_arg13 : W23 (F := Ideal) m ρ c (Proc.devRef .tc main_arg13) = A13 m c :=
  (keepH11 m ρ c main_arg13 (by decide)).trans (f22_arg13 m ρ c)
theorem f23_arg15 : W23 (F := Ideal) m ρ c (Proc.devRef .tc main_arg15) = A15 m c :=
  (keepH11 m ρ c main_arg15 (by decide)).trans (f22_arg15 m ρ c)
theorem f23_arg16 : W23 (F := Ideal) m ρ c (Proc.devRef .tc main_arg16) = A16 m c :=
  (keepH11 m ρ c main_arg16 (by decide)).trans (f22_arg16 m ρ c)
theorem f23_arg17 : W23 (F := Ideal) m ρ c (Proc.devRef .tc main_arg17) = A17 m c :=
  (keepH11 m ρ c main_arg17 (by decide)).trans (f22_arg17 m ρ c)
theorem f23_arg18 : W23 (F := Ideal) m ρ c (Proc.devRef .tc main_arg18) = A18 m c :=
  (keepH11 m ρ c main_arg18 (by decide)).trans (f22_arg18 m ρ c)
theorem f23_arg19 : W23 (F := Ideal) m ρ c (Proc.devRef .tc main_arg19) = A19 m c :=
  (keepH11 m ρ c main_arg19 (by decide)).trans (f22_arg19 m ρ c)
theorem f23_arg20 : W23 (F := Ideal) m ρ c (Proc.devRef .tc main_arg20) = A20 m c :=
  (keepH11 m ρ c main_arg20 (by decide)).trans (f22_arg20 m ρ c)
theorem f23_v21 : W23 (F := Ideal) m ρ c (Proc.devRef .tc main_v21) = (Host.divf (F := Ideal) ((broadcastInDim S100000x1 ![] bcast_S_S100000x1) (constant (F := Ideal) S_ .f32 0x3F800000#32)) (maximumf (F := Ideal) (((fun x i u => Host.scatterAdd (F := Ideal) scatter_S100000x1_S200000x1_S200000x1_1_0_0_1 x i u)) ((broadcastInDim S100000x1 ![] bcast_S_S100000x1) (constant (F := Ideal) S_ .f32 0x00000000#32)) ((broadcastInDim S200000x1 ![0] bcast_S200000_S200000x1_0) (A2 m c)) ((broadcastInDim S200000x1 ![] bcast_S_S200000x1) (constant (F := Ideal) S_ .f32 0x3F800000#32))) ((broadcastInDim S100000x1 ![] bcast_S_S100000x1) (constant (F := Ideal) S_ .f32 0x3F800000#32)))) :=
  (keepH11 m ρ c main_v21 (by decide)).trans (f22_v21 m ρ c)
theorem f23_v129 : W23 (F := Ideal) m ρ c (Proc.devRef .tc main_v129) = Cert.ReferenceIdeal.Read.val_main_v286 (F := Ideal) (A0 m c) (A1 m c) (A2 m c) (A3 m c) (A4 m c) (A5 m c) (A6 m c) (A7 m c) (A8 m c) (A9 m c) (A10 m c) (A11 m c) (A12 m c) (A13 m c) (A14 m c) :=
  (keepH11 m ρ c main_v129 (by decide)).trans (f22_v129 m ρ c)
theorem f23_v150 : W23 (F := Ideal) m ρ c (Proc.devRef .tc main_v150) = Cert.ReferenceIdeal.Read.val_main_v309 (F := Ideal) (A0 m c) (A1 m c) (A2 m c) (A3 m c) (A4 m c) (A5 m c) (A6 m c) (A7 m c) (A8 m c) (A9 m c) (A10 m c) (A11 m c) (A12 m c) (A13 m c) (A14 m c) :=
  (keepH11 m ρ c main_v150 (by decide)).trans (f22_v150 m ρ c)
theorem f23_v179 : W23 (F := Ideal) m ρ c (Proc.devRef .tc main_v179) = (shapeCast S1x384 (shapeCast S384 (((extractStridedSlice S1x384 ![0, 0] · slices_S2x384_S1x384_0_0)) (A14 m c)) shapeCasts_S1x384_S384) shapeCasts_S384_S1x384) := by
  show StableHlo.after hostOps11 (W22 m ρ c) (Proc.devRef .tc main_v179) = _
  after_results
  all_goals (try simp only [f22_arg14 m ρ c])
  all_goals rfl
theorem f23_v182 : W23 (F := Ideal) m ρ c (Proc.devRef .tc main_v182) = (shapeCast S1x384 (shapeCast S384 (((extractStridedSlice S1x384 ![1, 0] · slices_S2x384_S1x384_1_0)) (A14 m c)) shapeCasts_S1x384_S384) shapeCasts_S384_S1x384) := by
  show StableHlo.after hostOps11 (W22 m ρ c) (Proc.devRef .tc main_v182) = _
  after_results
  all_goals (try simp only [f22_arg14 m ρ c])
  all_goals rfl
theorem f24_arg15 : W24 (F := Ideal) m ρ c (Proc.devRef .tc main_arg15) = A15 m c :=
  (W24_of_ne m ρ c main_arg15 (by decide)).trans (f23_arg15 m ρ c)
theorem f24_arg16 : W24 (F := Ideal) m ρ c (Proc.devRef .tc main_arg16) = A16 m c :=
  (W24_of_ne m ρ c main_arg16 (by decide)).trans (f23_arg16 m ρ c)
theorem f24_arg17 : W24 (F := Ideal) m ρ c (Proc.devRef .tc main_arg17) = A17 m c :=
  (W24_of_ne m ρ c main_arg17 (by decide)).trans (f23_arg17 m ρ c)
theorem f24_arg18 : W24 (F := Ideal) m ρ c (Proc.devRef .tc main_arg18) = A18 m c :=
  (W24_of_ne m ρ c main_arg18 (by decide)).trans (f23_arg18 m ρ c)
theorem f24_arg19 : W24 (F := Ideal) m ρ c (Proc.devRef .tc main_arg19) = A19 m c :=
  (W24_of_ne m ρ c main_arg19 (by decide)).trans (f23_arg19 m ρ c)
theorem f24_arg20 : W24 (F := Ideal) m ρ c (Proc.devRef .tc main_arg20) = A20 m c :=
  (W24_of_ne m ρ c main_arg20 (by decide)).trans (f23_arg20 m ρ c)
set_option maxHeartbeats 4000000 in
theorem f24_v183 : W24 (F := Ideal) m ρ c (Proc.devRef .tc main_v183) = Cert.ReferenceIdeal.Read.val_main_v428 (F := Ideal) (A0 m c) (A1 m c) (A2 m c) (A3 m c) (A4 m c) (A5 m c) (A6 m c) (A7 m c) (A8 m c) (A9 m c) (A10 m c) (A11 m c) (A12 m c) (A13 m c) (A14 m c) := by
  refine (W24_arr m ρ c 7).trans ?_
  refine (Cert.KernelIdeal.Net.gru_region11 (V23 m ρ) c).trans ?_
  rw [show V23 (F := Ideal) m ρ c (Pipeline.arrRef spec11 0) = _ from f23_v150 m ρ c,
      show V23 (F := Ideal) m ρ c (Pipeline.arrRef spec11 1) = _ from f23_v129 m ρ c,
      show V23 (F := Ideal) m ρ c (Pipeline.arrRef spec11 2) = _ from f23_v21 m ρ c,
      show V23 (F := Ideal) m ρ c (Pipeline.arrRef spec11 3) = _ from f23_arg12 m ρ c,
      show V23 (F := Ideal) m ρ c (Pipeline.arrRef spec11 4) = _ from f23_arg13 m ρ c,
      show V23 (F := Ideal) m ρ c (Pipeline.arrRef spec11 5) = _ from f23_v179 m ρ c,
      show V23 (F := Ideal) m ρ c (Pipeline.arrRef spec11 6) = _ from f23_v182 m ρ c]
  exact (Cert.Net.gruC_bridge _ _ (A2 m c) (A12 m c) (A13 m c) (A14 m c)).trans (Cert.Net.gruC_ref_v428 (A0 m c) (A1 m c) (A2 m c) (A3 m c) (A4 m c) (A5 m c) (A6 m c) (A7 m c) (A8 m c) (A9 m c) (A10 m c) (A11 m c) (A12 m c) (A13 m c) (A14 m c)).symm
theorem f25_arg15 : W25 (F := Ideal) m ρ c (Proc.devRef .tc main_arg15) = A15 m c :=
  (keepH12 m ρ c main_arg15 (by decide)).trans (f24_arg15 m ρ c)
theorem f25_arg17 : W25 (F := Ideal) m ρ c (Proc.devRef .tc main_arg17) = A17 m c :=
  (keepH12 m ρ c main_arg17 (by decide)).trans (f24_arg17 m ρ c)
theorem f25_arg19 : W25 (F := Ideal) m ρ c (Proc.devRef .tc main_arg19) = A19 m c :=
  (keepH12 m ρ c main_arg19 (by decide)).trans (f24_arg19 m ρ c)
theorem f25_v183 : W25 (F := Ideal) m ρ c (Proc.devRef .tc main_v183) = Cert.ReferenceIdeal.Read.val_main_v428 (F := Ideal) (A0 m c) (A1 m c) (A2 m c) (A3 m c) (A4 m c) (A5 m c) (A6 m c) (A7 m c) (A8 m c) (A9 m c) (A10 m c) (A11 m c) (A12 m c) (A13 m c) (A14 m c) :=
  (keepH12 m ρ c main_v183 (by decide)).trans (f24_v183 m ρ c)
theorem f25_v184 : W25 (F := Ideal) m ρ c (Proc.devRef .tc main_v184) = (shapeCast S1x128 (A16 m c) shapeCasts_S128_S1x128) := by
  show StableHlo.after hostOps12 (W24 m ρ c) (Proc.devRef .tc main_v184) = _
  after_results
  all_goals (try simp only [f24_arg16 m ρ c])
  all_goals rfl
theorem f25_v185 : W25 (F := Ideal) m ρ c (Proc.devRef .tc main_v185) = (shapeCast S1x64 (A18 m c) shapeCasts_S64_S1x64) := by
  show StableHlo.after hostOps12 (W24 m ρ c) (Proc.devRef .tc main_v185) = _
  after_results
  all_goals (try simp only [f24_arg18 m ρ c])
  all_goals rfl
theorem f25_v186 : W25 (F := Ideal) m ρ c (Proc.devRef .tc main_v186) = (shapeCast S1x15 (A20 m c) shapeCasts_S15_S1x15) := by
  show StableHlo.after hostOps12 (W24 m ρ c) (Proc.devRef .tc main_v186) = _
  after_results
  all_goals (try simp only [f24_arg20 m ρ c])
  all_goals rfl
set_option maxHeartbeats 4000000 in
theorem f26_v187 : W26 (F := Ideal) m ρ c (Proc.devRef .tc main_v187) = Cert.ReferenceIdeal.Read.val_main_v453 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) := by
  refine (W26_arr m ρ c 7).trans ?_
  refine (Cert.KernelIdeal.Net.read_region12 (V25 m ρ) c).trans ?_
  rw [show V25 (F := Ideal) m ρ c (Pipeline.arrRef spec12 0) = _ from f25_v183 m ρ c,
      show V25 (F := Ideal) m ρ c (Pipeline.arrRef spec12 1) = _ from f25_arg15 m ρ c,
      show V25 (F := Ideal) m ρ c (Pipeline.arrRef spec12 2) = _ from f25_v184 m ρ c,
      show V25 (F := Ideal) m ρ c (Pipeline.arrRef spec12 3) = _ from f25_arg17 m ρ c,
      show V25 (F := Ideal) m ρ c (Pipeline.arrRef spec12 4) = _ from f25_v185 m ρ c,
      show V25 (F := Ideal) m ρ c (Pipeline.arrRef spec12 5) = _ from f25_arg19 m ρ c,
      show V25 (F := Ideal) m ρ c (Pipeline.arrRef spec12 6) = _ from f25_v186 m ρ c]
  exact (Cert.Net.read_bridge _ _ _ _ _ _ _ _ _ _).trans (Cert.Net.read_ref_v453 (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c)).symm

end Cert.KernelIdeal.Gen

end
-- ==== Proof.lean ====
/-
  The certificate. Both programs compute, over the extended reals, the same three-step message-passing network on a graph
  of ip nodes and connection nodes followed by a readout: per step two per-edge messages relu([a, b]·W + bias) of gathered
  node states, their segment sums and segment means, and two gated-recurrent-unit updates of the node states; then a
  three-layer perceptron with a softmax over the connection states. The kernel program computes the per-edge messages, the
  unit updates and the readout in kernel launches (thirteen of them) and keeps the gathers and scatter-adds on the host; it
  splits the product of a joined row [a, b] with W into a·W[0:128] + b·W[128:256] (a regrouping of one sum), multiplies a
  segment sum by the reciprocal 1 / max(count, 1) where the reference divides by max(count, 1) (the same extended real,
  because the divisor is not zero), and rounds matrix operands to a narrower float format, which is the identity on
  extended reals. Everything else is operation for operation the same.
  The three frames are the generated ones (the reference's is its run with the result dropped); the ideal pass
  rewrote nothing, so the idealization claim is trivial; the value claim puts the kernel program's run, read at its result
  buffer through the chain of boundary contents, beside the reference's run read back stage by stage.
-/
import proofs.«154953_j22007412425053_2_alg».proof.Defs
import proofs.«154953_j22007412425053_2_alg».proof.Proof.Gen.Kernel
import proofs.«154953_j22007412425053_2_alg».proof.Proof.Gen.Kernel.Frame
import proofs.«154953_j22007412425053_2_alg».proof.Proof.Gen.KernelIdeal
import proofs.«154953_j22007412425053_2_alg».proof.Proof.Gen.KernelIdeal.Frame
import proofs.«154953_j22007412425053_2_alg».proof.Proof.Gen.ReferenceIdeal
import proofs.«154953_j22007412425053_2_alg».proof.Proof.Gen.Pre_finite_inputs
import proofs.«154953_j22007412425053_2_alg».proof.Proof.RefRun
import proofs.«154953_j22007412425053_2_alg».proof.Proof.KRun
import proofs.«154953_j22007412425053_2_alg».proof.Proof.FoldC
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Fold.run m ρ)

/-- The ideal pass rewrote no operation. -/
theorem preserves : Cert.preserves_Kernel_KernelIdeal := trivial

/-- From memories that agree on the arguments both programs end with the result array at the reference's last stage of the
    arguments: the kernel program's by the chain of boundary contents, the reference's by its run read back stage by stage. -/
theorem algebraic : Cert.algebraic_KernelIdeal_ReferenceIdeal := by
  intro m ρ m' ρ' _ hagree
  refine ⟨fun c => Cert.KernelIdeal.Gen.W26 (F := Ideal) m ρ c (Proc.devRef .tc Cert.KernelIdeal.main_v187),
    Cert.KernelIdeal.Gen.run_result (F := Ideal) m ρ, ?_⟩
  refine (θ_run Cert.ReferenceIdeal.defs _ _).mono (fun _ h c => ⟨(h c).1.trans ?_, (h c).2⟩)
    (Cert.ReferenceIdeal.Fold.run m' ρ')
  obtain ⟨h0, h1, h2, h3, h4, h5, h6, h7, h8, h9, h10, h11, h12, h13, h14, h15, h16, h17, h18, h19, h20⟩ := hagree c
  refine Eq.trans ?_ (Cert.KernelIdeal.Gen.f26_v187 m ρ c).symm
  simp only [Cert.ReferenceIdeal.Fold.result, Cert.ReferenceIdeal.Fold.B0, Cert.ReferenceIdeal.Fold.B1, Cert.ReferenceIdeal.Fold.B2, Cert.ReferenceIdeal.Fold.B3, Cert.ReferenceIdeal.Fold.B4, Cert.ReferenceIdeal.Fold.B5, Cert.ReferenceIdeal.Fold.B6, Cert.ReferenceIdeal.Fold.B7, Cert.ReferenceIdeal.Fold.B8, Cert.ReferenceIdeal.Fold.B9, Cert.ReferenceIdeal.Fold.B10, Cert.ReferenceIdeal.Fold.B11, Cert.ReferenceIdeal.Fold.B12, Cert.ReferenceIdeal.Fold.B13, Cert.ReferenceIdeal.Fold.B14, Cert.ReferenceIdeal.Fold.B15, Cert.ReferenceIdeal.Fold.B16, Cert.ReferenceIdeal.Fold.B17, Cert.ReferenceIdeal.Fold.B18, Cert.ReferenceIdeal.Fold.B19, Cert.ReferenceIdeal.Fold.B20, Cert.KernelIdeal.Gen.A0, Cert.KernelIdeal.Gen.A1, Cert.KernelIdeal.Gen.A2, Cert.KernelIdeal.Gen.A3, Cert.KernelIdeal.Gen.A4, Cert.KernelIdeal.Gen.A5, Cert.KernelIdeal.Gen.A6, Cert.KernelIdeal.Gen.A7, Cert.KernelIdeal.Gen.A8, Cert.KernelIdeal.Gen.A9, Cert.KernelIdeal.Gen.A10, Cert.KernelIdeal.Gen.A11, Cert.KernelIdeal.Gen.A12, Cert.KernelIdeal.Gen.A13, Cert.KernelIdeal.Gen.A14, Cert.KernelIdeal.Gen.A15, Cert.KernelIdeal.Gen.A16, Cert.KernelIdeal.Gen.A17, Cert.KernelIdeal.Gen.A18, Cert.KernelIdeal.Gen.A19, Cert.KernelIdeal.Gen.A20]
  rw [h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
